-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)) →
    ∃ (v0 : (c : Dev Cert.KernelIdeal.nD) → Buf (Elt Ideal) ((c.tc : Thread Cert.KernelIdeal.nD Cert.KernelIdeal.τ).loc Cert.KernelIdeal.main_v468)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v468) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v614) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S50000x128 : Shape := ⟨2, ![50000, 128]⟩
abbrev S4x800000 : Shape := ⟨2, ![4, 800000]⟩
abbrev S4x128x128 : Shape := ⟨3, ![4, 128, 128]⟩
abbrev S4x128 : Shape := ⟨2, ![4, 128]⟩
abbrev S128x16 : Shape := ⟨2, ![128, 16]⟩
abbrev S16 : Shape := ⟨1, ![16]⟩
abbrev S_ : Shape := ⟨0, ![]⟩

class Facts : Prop where
  bcast_S_S50000x128 : S_.BroadcastsInDim S50000x128 (![] : Fin 0 → Fin S50000x128.rank)
  reducesTo_S50000x128_S_d0_1 : S50000x128.ReducesTo [0, 1] S_
  h_S_ : 0 < S_.numel
  bcast_S_S4x128x128 : S_.BroadcastsInDim S4x128x128 (![] : Fin 0 → Fin S4x128x128.rank)
  reducesTo_S4x128x128_S_d0_1_2 : S4x128x128.ReducesTo [0, 1, 2] S_
  bcast_S_S4x128 : S_.BroadcastsInDim S4x128 (![] : Fin 0 → Fin S4x128.rank)
  reducesTo_S4x128_S_d0_1 : S4x128.ReducesTo [0, 1] S_
  bcast_S_S128x16 : S_.BroadcastsInDim S128x16 (![] : Fin 0 → Fin S128x16.rank)
  reducesTo_S128x16_S_d0_1 : S128x16.ReducesTo [0, 1] S_
  bcast_S_S16 : S_.BroadcastsInDim S16 (![] : Fin 0 → Fin S16.rank)
  reducesTo_S16_S_d0 : S16.ReducesTo [0] S_

variable [Facts]

def fn_part2 {F : FTy → Type} [FloatOps F] (main_arg9 : FVec F S128x16 .f32) (main_arg10 : FVec F S16 .f32) (main_v33 : IVec S_ 1) : IVec S_ 1 :=
  let main_v34 : FVec F S128x16 .f32 := Host.absf main_arg9
  let main_cst_12 : FVec F S_ .f32 := constant S_ .f32 0x7F800000#32
  let main_v35 : FVec F S128x16 .f32 := broadcastInDim S128x16 ![] bcast_S_S128x16 main_cst_12
  let main_v36 : IVec S128x16 1 := cmpf .olt main_v34 main_v35
  let main_c_13 : IVec S_ 1 := constantI S_ 1 1#1
  let main_v37 : IVec S_ 1 := (fun x v => Host.reduce IntOp.andi x v reducesTo_S128x16_S_d0_1 h_S_) main_v36 main_c_13
  let main_v38 : IVec S_ 1 := andi main_v33 main_v37
  let main_v39 : FVec F S16 .f32 := Host.absf main_arg10
  let main_cst_14 : FVec F S_ .f32 := constant S_ .f32 0x7F800000#32
  let main_v40 : FVec F S16 .f32 := broadcastInDim S16 ![] bcast_S_S16 main_cst_14
  let main_v41 : IVec S16 1 := cmpf .olt main_v39 main_v40
  let main_c_15 : IVec S_ 1 := constantI S_ 1 1#1
  let main_v42 : IVec S_ 1 := (fun x v => Host.reduce IntOp.andi x v reducesTo_S16_S_d0 h_S_) main_v41 main_c_15
  let main_v43 : IVec S_ 1 := andi main_v38 main_v42
  main_v43

def fn_part1 {F : FTy → Type} [FloatOps F] (main_arg6 : FVec F S4x128 .f32) (main_arg7 : FVec F S4x128x128 .f32) (main_arg8 : FVec F S4x128 .f32) (main_arg9 : FVec F S128x16 .f32) (main_arg10 : FVec F S16 .f32) (main_v13 : IVec S_ 1) (main_v16 : IVec S4x128x128 1) : IVec S_ 1 :=
  let main_c_5 : IVec S_ 1 := constantI S_ 1 1#1
  let main_v17 : IVec S_ 1 := (fun x v => Host.reduce IntOp.andi x v reducesTo_S4x128x128_S_d0_1_2 h_S_) main_v16 main_c_5
  let main_v18 : IVec S_ 1 := andi main_v13 main_v17
  let main_v19 : FVec F S4x128 .f32 := Host.absf main_arg6
  let main_cst_6 : FVec F S_ .f32 := constant S_ .f32 0x7F800000#32
  let main_v20 : FVec F S4x128 .f32 := broadcastInDim S4x128 ![] bcast_S_S4x128 main_cst_6
  let main_v21 : IVec S4x128 1 := cmpf .olt main_v19 main_v20
  let main_c_7 : IVec S_ 1 := constantI S_ 1 1#1
  let main_v22 : IVec S_ 1 := (fun x v => Host.reduce IntOp.andi x v reducesTo_S4x128_S_d0_1 h_S_) main_v21 main_c_7
  let main_v23 : IVec S_ 1 := andi main_v18 main_v22
  let main_v24 : FVec F S4x128x128 .f32 := Host.absf main_arg7
  let main_cst_8 : FVec F S_ .f32 := constant S_ .f32 0x7F800000#32
  let main_v25 : FVec F S4x128x128 .f32 := broadcastInDim S4x128x128 ![] bcast_S_S4x128x128 main_cst_8
  let main_v26 : IVec S4x128x128 1 := cmpf .olt main_v24 main_v25
  let main_c_9 : IVec S_ 1 := constantI S_ 1 1#1
  let main_v27 : IVec S_ 1 := (fun x v => Host.reduce IntOp.andi x v reducesTo_S4x128x128_S_d0_1_2 h_S_) main_v26 main_c_9
  let main_v28 : IVec S_ 1 := andi main_v23 main_v27
  let main_v29 : FVec F S4x128 .f32 := Host.absf main_arg8
  let main_cst_10 : FVec F S_ .f32 := constant S_ .f32 0x7F800000#32
  let main_v30 : FVec F S4x128 .f32 := broadcastInDim S4x128 ![] bcast_S_S4x128 main_cst_10
  let main_v31 : IVec S4x128 1 := cmpf .olt main_v29 main_v30
  let main_c_11 : IVec S_ 1 := constantI S_ 1 1#1
  let main_v32 : IVec S_ 1 := (fun x v => Host.reduce IntOp.andi x v reducesTo_S4x128_S_d0_1 h_S_) main_v31 main_c_11
  let main_v33 : IVec S_ 1 := andi main_v28 main_v32
  fn_part2 (F := F) main_arg9 main_arg10 main_v33

def fn {F : FTy → Type} [FloatOps F] (main_arg0 : FVec F S50000x128 .f32) (main_arg1 : IVec S4x800000 32) (main_arg2 : IVec S4x800000 32) (main_arg3 : FVec F S4x128x128 .f32) (main_arg4 : FVec F S4x128 .f32) (main_arg5 : FVec F S4x128x128 .f32) (main_arg6 : FVec F S4x128 .f32) (main_arg7 : FVec F S4x128x128 .f32) (main_arg8 : FVec F S4x128 .f32) (main_arg9 : FVec F S128x16 .f32) (main_arg10 : FVec F S16 .f32) : IVec S_ 1 :=
  let main_v0 : FVec F S50000x128 .f32 := Host.absf main_arg0
  let main_cst : FVec F S_ .f32 := constant S_ .f32 0x7F800000#32
  let main_v1 : FVec F S50000x128 .f32 := broadcastInDim S50000x128 ![] bcast_S_S50000x128 main_cst
  let main_v2 : IVec S50000x128 1 := cmpf .olt main_v0 main_v1
  let main_c : IVec S_ 1 := constantI S_ 1 1#1
  let main_v3 : IVec S_ 1 := (fun x v => Host.reduce IntOp.andi x v reducesTo_S50000x128_S_d0_1 h_S_) main_v2 main_c
  let main_v4 : FVec F S4x128x128 .f32 := Host.absf main_arg3
  let main_cst_0 : FVec F S_ .f32 := constant S_ .f32 0x7F800000#32
  let main_v5 : FVec F S4x128x128 .f32 := broadcastInDim S4x128x128 ![] bcast_S_S4x128x128 main_cst_0
  let main_v6 : IVec S4x128x128 1 := cmpf .olt main_v4 main_v5
  let main_c_1 : IVec S_ 1 := constantI S_ 1 1#1
  let main_v7 : IVec S_ 1 := (fun x v => Host.reduce IntOp.andi x v reducesTo_S4x128x128_S_d0_1_2 h_S_) main_v6 main_c_1
  let main_v8 : IVec S_ 1 := andi main_v3 main_v7
  let main_v9 : FVec F S4x128 .f32 := Host.absf main_arg4
  let main_cst_2 : FVec F S_ .f32 := constant S_ .f32 0x7F800000#32
  let main_v10 : FVec F S4x128 .f32 := broadcastInDim S4x128 ![] bcast_S_S4x128 main_cst_2
  let main_v11 : IVec S4x128 1 := cmpf .olt main_v9 main_v10
  let main_c_3 : IVec S_ 1 := constantI S_ 1 1#1
  let main_v12 : IVec S_ 1 := (fun x v => Host.reduce IntOp.andi x v reducesTo_S4x128_S_d0_1 h_S_) main_v11 main_c_3
  let main_v13 : IVec S_ 1 := andi main_v8 main_v12
  let main_v14 : FVec F S4x128x128 .f32 := Host.absf main_arg5
  let main_cst_4 : FVec F S_ .f32 := constant S_ .f32 0x7F800000#32
  let main_v15 : FVec F S4x128x128 .f32 := broadcastInDim S4x128x128 ![] bcast_S_S4x128x128 main_cst_4
  let main_v16 : IVec S4x128x128 1 := cmpf .olt main_v14 main_v15
  fn_part1 (F := F) main_arg6 main_arg7 main_arg8 main_arg9 main_arg10 main_v13 main_v16
-- ==== Kernel.lean ====
abbrev S50000x128 : Shape := ⟨2, ![50000, 128]⟩
abbrev S4x800000 : Shape := ⟨2, ![4, 800000]⟩
abbrev S4x128x128 : Shape := ⟨3, ![4, 128, 128]⟩
abbrev S4x128 : Shape := ⟨2, ![4, 128]⟩
abbrev S128x16 : Shape := ⟨2, ![128, 16]⟩
abbrev S16 : Shape := ⟨1, ![16]⟩
abbrev S_ : Shape := ⟨0, ![]⟩
abbrev S800000 : Shape := ⟨1, ![800000]⟩
abbrev S1x800000 : Shape := ⟨2, ![1, 800000]⟩
abbrev S50000 : Shape := ⟨1, ![50000]⟩
abbrev S800000x1 : Shape := ⟨2, ![800000, 1]⟩
abbrev S1x50000 : Shape := ⟨2, ![1, 50000]⟩
abbrev S4x50000 : Shape := ⟨2, ![4, 50000]⟩
abbrev S50000x1 : Shape := ⟨2, ![50000, 1]⟩
abbrev S800000x128 : Shape := ⟨2, ![800000, 128]⟩
abbrev S1x50000x128 : Shape := ⟨3, ![1, 50000, 128]⟩
abbrev S4x50000x128 : Shape := ⟨3, ![4, 50000, 128]⟩
abbrev S4x5000x128 : Shape := ⟨3, ![4, 5000, 128]⟩
abbrev S5000x128 : Shape := ⟨2, ![5000, 128]⟩
abbrev S1x5000x128 : Shape := ⟨3, ![1, 5000, 128]⟩
abbrev S1x128x128 : Shape := ⟨3, ![1, 128, 128]⟩
abbrev S128x128 : Shape := ⟨2, ![128, 128]⟩
abbrev S1x128 : Shape := ⟨2, ![1, 128]⟩
abbrev S128 : Shape := ⟨1, ![128]⟩
abbrev S5000 : Shape := ⟨1, ![5000]⟩
abbrev S5000x1 : Shape := ⟨2, ![5000, 1]⟩
abbrev S1x16 : Shape := ⟨2, ![1, 16]⟩

abbrev nBuf : Space → Nat
  | .hbm => 558
  | .vmem => 18
  | .smem => 0
  | _ => 0

abbrev hbmTy0_0 (i : Nat) : BufTy := match i % 128 with
  | 0 => ⟨S50000x128, .f32⟩
  | 1 => ⟨S4x800000, .i32⟩
  | 2 => ⟨S4x800000, .i32⟩
  | 3 => ⟨S4x128x128, .f32⟩
  | 4 => ⟨S4x128, .f32⟩
  | 5 => ⟨S4x128x128, .f32⟩
  | 6 => ⟨S4x128, .f32⟩
  | 7 => ⟨S4x128x128, .f32⟩
  | 8 => ⟨S4x128, .f32⟩
  | 9 => ⟨S128x16, .f32⟩
  | 10 => ⟨S16, .f32⟩
  | 11 => ⟨S_, .f32⟩
  | 12 => ⟨S800000, .f32⟩
  | 13 => ⟨S1x800000, .i32⟩
  | 14 => ⟨S800000, .i32⟩
  | 15 => ⟨S_, .f32⟩
  | 16 => ⟨S50000, .f32⟩
  | 17 => ⟨S800000x1, .i32⟩
  | 18 => ⟨S50000, .f32⟩
  | 19 => ⟨S_, .f32⟩
  | 20 => ⟨S50000, .f32⟩
  | 21 => ⟨S50000, .f32⟩
  | 22 => ⟨S_, .f32⟩
  | 23 => ⟨S50000, .f32⟩
  | 24 => ⟨S50000, .f32⟩
  | 25 => ⟨S1x800000, .i32⟩
  | 26 => ⟨S800000, .i32⟩
  | 27 => ⟨S_, .f32⟩
  | 28 => ⟨S50000, .f32⟩
  | 29 => ⟨S800000x1, .i32⟩
  | 30 => ⟨S50000, .f32⟩
  | 31 => ⟨S_, .f32⟩
  | 32 => ⟨S50000, .f32⟩
  | 33 => ⟨S50000, .f32⟩
  | 34 => ⟨S_, .f32⟩
  | 35 => ⟨S50000, .f32⟩
  | 36 => ⟨S50000, .f32⟩
  | 37 => ⟨S1x800000, .i32⟩
  | 38 => ⟨S800000, .i32⟩
  | 39 => ⟨S_, .f32⟩
  | 40 => ⟨S50000, .f32⟩
  | 41 => ⟨S800000x1, .i32⟩
  | 42 => ⟨S50000, .f32⟩
  | 43 => ⟨S_, .f32⟩
  | 44 => ⟨S50000, .f32⟩
  | 45 => ⟨S50000, .f32⟩
  | 46 => ⟨S_, .f32⟩
  | 47 => ⟨S50000, .f32⟩
  | 48 => ⟨S50000, .f32⟩
  | 49 => ⟨S1x800000, .i32⟩
  | 50 => ⟨S800000, .i32⟩
  | 51 => ⟨S_, .f32⟩
  | 52 => ⟨S50000, .f32⟩
  | 53 => ⟨S800000x1, .i32⟩
  | 54 => ⟨S50000, .f32⟩
  | 55 => ⟨S_, .f32⟩
  | 56 => ⟨S50000, .f32⟩
  | 57 => ⟨S50000, .f32⟩
  | 58 => ⟨S_, .f32⟩
  | 59 => ⟨S50000, .f32⟩
  | 60 => ⟨S50000, .f32⟩
  | 61 => ⟨S1x800000, .i32⟩
  | 62 => ⟨S800000, .i32⟩
  | 63 => ⟨S_, .f32⟩
  | 64 => ⟨S50000, .f32⟩
  | 65 => ⟨S800000x1, .i32⟩
  | 66 => ⟨S50000, .f32⟩
  | 67 => ⟨S_, .f32⟩
  | 68 => ⟨S50000, .f32⟩
  | 69 => ⟨S50000, .f32⟩
  | 70 => ⟨S_, .f32⟩
  | 71 => ⟨S50000, .f32⟩
  | 72 => ⟨S50000, .f32⟩
  | 73 => ⟨S1x800000, .i32⟩
  | 74 => ⟨S800000, .i32⟩
  | 75 => ⟨S_, .f32⟩
  | 76 => ⟨S50000, .f32⟩
  | 77 => ⟨S800000x1, .i32⟩
  | 78 => ⟨S50000, .f32⟩
  | 79 => ⟨S_, .f32⟩
  | 80 => ⟨S50000, .f32⟩
  | 81 => ⟨S50000, .f32⟩
  | 82 => ⟨S_, .f32⟩
  | 83 => ⟨S50000, .f32⟩
  | 84 => ⟨S50000, .f32⟩
  | 85 => ⟨S1x800000, .i32⟩
  | 86 => ⟨S800000, .i32⟩
  | 87 => ⟨S_, .f32⟩
  | 88 => ⟨S50000, .f32⟩
  | 89 => ⟨S800000x1, .i32⟩
  | 90 => ⟨S50000, .f32⟩
  | 91 => ⟨S_, .f32⟩
  | 92 => ⟨S50000, .f32⟩
  | 93 => ⟨S50000, .f32⟩
  | 94 => ⟨S_, .f32⟩
  | 95 => ⟨S50000, .f32⟩
  | 96 => ⟨S50000, .f32⟩
  | 97 => ⟨S1x800000, .i32⟩
  | 98 => ⟨S800000, .i32⟩
  | 99 => ⟨S_, .f32⟩
  | 100 => ⟨S50000, .f32⟩
  | 101 => ⟨S800000x1, .i32⟩
  | 102 => ⟨S50000, .f32⟩
  | 103 => ⟨S_, .f32⟩
  | 104 => ⟨S50000, .f32⟩
  | 105 => ⟨S50000, .f32⟩
  | 106 => ⟨S_, .f32⟩
  | 107 => ⟨S50000, .f32⟩
  | 108 => ⟨S50000, .f32⟩
  | 109 => ⟨S1x50000, .f32⟩
  | 110 => ⟨S1x50000, .f32⟩
  | 111 => ⟨S1x50000, .f32⟩
  | 112 => ⟨S1x50000, .f32⟩
  | 113 => ⟨S4x50000, .f32⟩
  | 114 => ⟨S1x50000, .f32⟩
  | 115 => ⟨S1x50000, .f32⟩
  | 116 => ⟨S1x50000, .f32⟩
  | 117 => ⟨S1x50000, .f32⟩
  | 118 => ⟨S4x50000, .f32⟩
  | 119 => ⟨S1x50000, .f32⟩
  | 120 => ⟨S50000, .f32⟩
  | 121 => ⟨S50000x1, .f32⟩
  | 122 => ⟨S50000x128, .f32⟩
  | 123 => ⟨S50000x128, .f32⟩
  | 124 => ⟨S1x800000, .i32⟩
  | 125 => ⟨S800000, .i32⟩
  | 126 => ⟨S_, .i32⟩
  | 127 => ⟨S800000, .i32⟩
  | _ => ⟨S50000x128, .f32⟩

abbrev hbmTy0_1 (i : Nat) : BufTy := match i % 128 with
  | 0 => ⟨S800000, .i1⟩
  | 1 => ⟨S_, .i32⟩
  | 2 => ⟨S800000, .i32⟩
  | 3 => ⟨S800000, .i32⟩
  | 4 => ⟨S800000, .i32⟩
  | 5 => ⟨S800000x1, .i32⟩
  | 6 => ⟨S800000x128, .f32⟩
  | 7 => ⟨S1x800000, .i32⟩
  | 8 => ⟨S800000, .i32⟩
  | 9 => ⟨S_, .f32⟩
  | 10 => ⟨S50000x128, .f32⟩
  | 11 => ⟨S800000x1, .i32⟩
  | 12 => ⟨S50000x128, .f32⟩
  | 13 => ⟨S1x50000, .f32⟩
  | 14 => ⟨S50000, .f32⟩
  | 15 => ⟨S50000x1, .f32⟩
  | 16 => ⟨S50000x128, .f32⟩
  | 17 => ⟨S50000x128, .f32⟩
  | 18 => ⟨S1x50000, .f32⟩
  | 19 => ⟨S50000, .f32⟩
  | 20 => ⟨S50000x1, .f32⟩
  | 21 => ⟨S50000x128, .f32⟩
  | 22 => ⟨S50000x128, .f32⟩
  | 23 => ⟨S1x800000, .i32⟩
  | 24 => ⟨S800000, .i32⟩
  | 25 => ⟨S_, .i32⟩
  | 26 => ⟨S800000, .i32⟩
  | 27 => ⟨S800000, .i1⟩
  | 28 => ⟨S_, .i32⟩
  | 29 => ⟨S800000, .i32⟩
  | 30 => ⟨S800000, .i32⟩
  | 31 => ⟨S800000, .i32⟩
  | 32 => ⟨S800000x1, .i32⟩
  | 33 => ⟨S800000x128, .f32⟩
  | 34 => ⟨S1x800000, .i32⟩
  | 35 => ⟨S800000, .i32⟩
  | 36 => ⟨S_, .f32⟩
  | 37 => ⟨S50000x128, .f32⟩
  | 38 => ⟨S800000x1, .i32⟩
  | 39 => ⟨S50000x128, .f32⟩
  | 40 => ⟨S1x50000, .f32⟩
  | 41 => ⟨S50000, .f32⟩
  | 42 => ⟨S50000x1, .f32⟩
  | 43 => ⟨S50000x128, .f32⟩
  | 44 => ⟨S50000x128, .f32⟩
  | 45 => ⟨S1x50000, .f32⟩
  | 46 => ⟨S50000, .f32⟩
  | 47 => ⟨S50000x1, .f32⟩
  | 48 => ⟨S50000x128, .f32⟩
  | 49 => ⟨S50000x128, .f32⟩
  | 50 => ⟨S1x800000, .i32⟩
  | 51 => ⟨S800000, .i32⟩
  | 52 => ⟨S_, .i32⟩
  | 53 => ⟨S800000, .i32⟩
  | 54 => ⟨S800000, .i1⟩
  | 55 => ⟨S_, .i32⟩
  | 56 => ⟨S800000, .i32⟩
  | 57 => ⟨S800000, .i32⟩
  | 58 => ⟨S800000, .i32⟩
  | 59 => ⟨S800000x1, .i32⟩
  | 60 => ⟨S800000x128, .f32⟩
  | 61 => ⟨S1x800000, .i32⟩
  | 62 => ⟨S800000, .i32⟩
  | 63 => ⟨S_, .f32⟩
  | 64 => ⟨S50000x128, .f32⟩
  | 65 => ⟨S800000x1, .i32⟩
  | 66 => ⟨S50000x128, .f32⟩
  | 67 => ⟨S1x50000, .f32⟩
  | 68 => ⟨S50000, .f32⟩
  | 69 => ⟨S50000x1, .f32⟩
  | 70 => ⟨S50000x128, .f32⟩
  | 71 => ⟨S50000x128, .f32⟩
  | 72 => ⟨S1x50000, .f32⟩
  | 73 => ⟨S50000, .f32⟩
  | 74 => ⟨S50000x1, .f32⟩
  | 75 => ⟨S50000x128, .f32⟩
  | 76 => ⟨S50000x128, .f32⟩
  | 77 => ⟨S1x800000, .i32⟩
  | 78 => ⟨S800000, .i32⟩
  | 79 => ⟨S_, .i32⟩
  | 80 => ⟨S800000, .i32⟩
  | 81 => ⟨S800000, .i1⟩
  | 82 => ⟨S_, .i32⟩
  | 83 => ⟨S800000, .i32⟩
  | 84 => ⟨S800000, .i32⟩
  | 85 => ⟨S800000, .i32⟩
  | 86 => ⟨S800000x1, .i32⟩
  | 87 => ⟨S800000x128, .f32⟩
  | 88 => ⟨S1x800000, .i32⟩
  | 89 => ⟨S800000, .i32⟩
  | 90 => ⟨S_, .f32⟩
  | 91 => ⟨S50000x128, .f32⟩
  | 92 => ⟨S800000x1, .i32⟩
  | 93 => ⟨S50000x128, .f32⟩
  | 94 => ⟨S1x50000, .f32⟩
  | 95 => ⟨S50000, .f32⟩
  | 96 => ⟨S50000x1, .f32⟩
  | 97 => ⟨S50000x128, .f32⟩
  | 98 => ⟨S50000x128, .f32⟩
  | 99 => ⟨S1x50000x128, .f32⟩
  | 100 => ⟨S1x50000x128, .f32⟩
  | 101 => ⟨S1x50000x128, .f32⟩
  | 102 => ⟨S1x50000x128, .f32⟩
  | 103 => ⟨S4x50000x128, .f32⟩
  | 104 => ⟨S4x50000x128, .bf16⟩
  | 105 => ⟨S4x128x128, .bf16⟩
  | 106 => ⟨S50000x128, .f32⟩
  | 107 => ⟨S1x50000, .f32⟩
  | 108 => ⟨S50000, .f32⟩
  | 109 => ⟨S50000x1, .f32⟩
  | 110 => ⟨S50000x128, .f32⟩
  | 111 => ⟨S50000x128, .f32⟩
  | 112 => ⟨S1x800000, .i32⟩
  | 113 => ⟨S800000, .i32⟩
  | 114 => ⟨S_, .i32⟩
  | 115 => ⟨S800000, .i32⟩
  | 116 => ⟨S800000, .i1⟩
  | 117 => ⟨S_, .i32⟩
  | 118 => ⟨S800000, .i32⟩
  | 119 => ⟨S800000, .i32⟩
  | 120 => ⟨S800000, .i32⟩
  | 121 => ⟨S800000x1, .i32⟩
  | 122 => ⟨S800000x128, .f32⟩
  | 123 => ⟨S1x800000, .i32⟩
  | 124 => ⟨S800000, .i32⟩
  | 125 => ⟨S_, .f32⟩
  | 126 => ⟨S50000x128, .f32⟩
  | 127 => ⟨S800000x1, .i32⟩
  | _ => ⟨S50000x128, .f32⟩

abbrev hbmTy0_2 (i : Nat) : BufTy := match i % 128 with
  | 0 => ⟨S50000x128, .f32⟩
  | 1 => ⟨S1x50000, .f32⟩
  | 2 => ⟨S50000, .f32⟩
  | 3 => ⟨S50000x1, .f32⟩
  | 4 => ⟨S50000x128, .f32⟩
  | 5 => ⟨S50000x128, .f32⟩
  | 6 => ⟨S1x50000, .f32⟩
  | 7 => ⟨S50000, .f32⟩
  | 8 => ⟨S50000x1, .f32⟩
  | 9 => ⟨S50000x128, .f32⟩
  | 10 => ⟨S50000x128, .f32⟩
  | 11 => ⟨S1x800000, .i32⟩
  | 12 => ⟨S800000, .i32⟩
  | 13 => ⟨S_, .i32⟩
  | 14 => ⟨S800000, .i32⟩
  | 15 => ⟨S800000, .i1⟩
  | 16 => ⟨S_, .i32⟩
  | 17 => ⟨S800000, .i32⟩
  | 18 => ⟨S800000, .i32⟩
  | 19 => ⟨S800000, .i32⟩
  | 20 => ⟨S800000x1, .i32⟩
  | 21 => ⟨S800000x128, .f32⟩
  | 22 => ⟨S1x800000, .i32⟩
  | 23 => ⟨S800000, .i32⟩
  | 24 => ⟨S_, .f32⟩
  | 25 => ⟨S50000x128, .f32⟩
  | 26 => ⟨S800000x1, .i32⟩
  | 27 => ⟨S50000x128, .f32⟩
  | 28 => ⟨S1x50000, .f32⟩
  | 29 => ⟨S50000, .f32⟩
  | 30 => ⟨S50000x1, .f32⟩
  | 31 => ⟨S50000x128, .f32⟩
  | 32 => ⟨S50000x128, .f32⟩
  | 33 => ⟨S1x50000, .f32⟩
  | 34 => ⟨S50000, .f32⟩
  | 35 => ⟨S50000x1, .f32⟩
  | 36 => ⟨S50000x128, .f32⟩
  | 37 => ⟨S50000x128, .f32⟩
  | 38 => ⟨S1x800000, .i32⟩
  | 39 => ⟨S800000, .i32⟩
  | 40 => ⟨S_, .i32⟩
  | 41 => ⟨S800000, .i32⟩
  | 42 => ⟨S800000, .i1⟩
  | 43 => ⟨S_, .i32⟩
  | 44 => ⟨S800000, .i32⟩
  | 45 => ⟨S800000, .i32⟩
  | 46 => ⟨S800000, .i32⟩
  | 47 => ⟨S800000x1, .i32⟩
  | 48 => ⟨S800000x128, .f32⟩
  | 49 => ⟨S1x800000, .i32⟩
  | 50 => ⟨S800000, .i32⟩
  | 51 => ⟨S_, .f32⟩
  | 52 => ⟨S50000x128, .f32⟩
  | 53 => ⟨S800000x1, .i32⟩
  | 54 => ⟨S50000x128, .f32⟩
  | 55 => ⟨S1x50000, .f32⟩
  | 56 => ⟨S50000, .f32⟩
  | 57 => ⟨S50000x1, .f32⟩
  | 58 => ⟨S50000x128, .f32⟩
  | 59 => ⟨S50000x128, .f32⟩
  | 60 => ⟨S1x50000, .f32⟩
  | 61 => ⟨S50000, .f32⟩
  | 62 => ⟨S50000x1, .f32⟩
  | 63 => ⟨S50000x128, .f32⟩
  | 64 => ⟨S50000x128, .f32⟩
  | 65 => ⟨S1x800000, .i32⟩
  | 66 => ⟨S800000, .i32⟩
  | 67 => ⟨S_, .i32⟩
  | 68 => ⟨S800000, .i32⟩
  | 69 => ⟨S800000, .i1⟩
  | 70 => ⟨S_, .i32⟩
  | 71 => ⟨S800000, .i32⟩
  | 72 => ⟨S800000, .i32⟩
  | 73 => ⟨S800000, .i32⟩
  | 74 => ⟨S800000x1, .i32⟩
  | 75 => ⟨S800000x128, .f32⟩
  | 76 => ⟨S1x800000, .i32⟩
  | 77 => ⟨S800000, .i32⟩
  | 78 => ⟨S_, .f32⟩
  | 79 => ⟨S50000x128, .f32⟩
  | 80 => ⟨S800000x1, .i32⟩
  | 81 => ⟨S50000x128, .f32⟩
  | 82 => ⟨S1x50000, .f32⟩
  | 83 => ⟨S50000, .f32⟩
  | 84 => ⟨S50000x1, .f32⟩
  | 85 => ⟨S50000x128, .f32⟩
  | 86 => ⟨S50000x128, .f32⟩
  | 87 => ⟨S1x50000x128, .f32⟩
  | 88 => ⟨S1x50000x128, .f32⟩
  | 89 => ⟨S1x50000x128, .f32⟩
  | 90 => ⟨S1x50000x128, .f32⟩
  | 91 => ⟨S4x50000x128, .f32⟩
  | 92 => ⟨S4x50000x128, .bf16⟩
  | 93 => ⟨S4x128x128, .bf16⟩
  | 94 => ⟨S50000x128, .f32⟩
  | 95 => ⟨S1x50000, .f32⟩
  | 96 => ⟨S50000, .f32⟩
  | 97 => ⟨S50000x1, .f32⟩
  | 98 => ⟨S50000x128, .f32⟩
  | 99 => ⟨S50000x128, .f32⟩
  | 100 => ⟨S1x800000, .i32⟩
  | 101 => ⟨S800000, .i32⟩
  | 102 => ⟨S_, .i32⟩
  | 103 => ⟨S800000, .i32⟩
  | 104 => ⟨S800000, .i1⟩
  | 105 => ⟨S_, .i32⟩
  | 106 => ⟨S800000, .i32⟩
  | 107 => ⟨S800000, .i32⟩
  | 108 => ⟨S800000, .i32⟩
  | 109 => ⟨S800000x1, .i32⟩
  | 110 => ⟨S800000x128, .f32⟩
  | 111 => ⟨S1x800000, .i32⟩
  | 112 => ⟨S800000, .i32⟩
  | 113 => ⟨S_, .f32⟩
  | 114 => ⟨S50000x128, .f32⟩
  | 115 => ⟨S800000x1, .i32⟩
  | 116 => ⟨S50000x128, .f32⟩
  | 117 => ⟨S1x50000, .f32⟩
  | 118 => ⟨S50000, .f32⟩
  | 119 => ⟨S50000x1, .f32⟩
  | 120 => ⟨S50000x128, .f32⟩
  | 121 => ⟨S50000x128, .f32⟩
  | 122 => ⟨S1x50000, .f32⟩
  | 123 => ⟨S50000, .f32⟩
  | 124 => ⟨S50000x1, .f32⟩
  | 125 => ⟨S50000x128, .f32⟩
  | 126 => ⟨S50000x128, .f32⟩
  | 127 => ⟨S1x800000, .i32⟩
  | _ => ⟨S50000x128, .f32⟩

abbrev hbmTy0_3 (i : Nat) : BufTy := match i % 128 with
  | 0 => ⟨S800000, .i32⟩
  | 1 => ⟨S_, .i32⟩
  | 2 => ⟨S800000, .i32⟩
  | 3 => ⟨S800000, .i1⟩
  | 4 => ⟨S_, .i32⟩
  | 5 => ⟨S800000, .i32⟩
  | 6 => ⟨S800000, .i32⟩
  | 7 => ⟨S800000, .i32⟩
  | 8 => ⟨S800000x1, .i32⟩
  | 9 => ⟨S800000x128, .f32⟩
  | 10 => ⟨S1x800000, .i32⟩
  | 11 => ⟨S800000, .i32⟩
  | 12 => ⟨S_, .f32⟩
  | 13 => ⟨S50000x128, .f32⟩
  | 14 => ⟨S800000x1, .i32⟩
  | 15 => ⟨S50000x128, .f32⟩
  | 16 => ⟨S1x50000, .f32⟩
  | 17 => ⟨S50000, .f32⟩
  | 18 => ⟨S50000x1, .f32⟩
  | 19 => ⟨S50000x128, .f32⟩
  | 20 => ⟨S50000x128, .f32⟩
  | 21 => ⟨S1x50000, .f32⟩
  | 22 => ⟨S50000, .f32⟩
  | 23 => ⟨S50000x1, .f32⟩
  | 24 => ⟨S50000x128, .f32⟩
  | 25 => ⟨S50000x128, .f32⟩
  | 26 => ⟨S1x800000, .i32⟩
  | 27 => ⟨S800000, .i32⟩
  | 28 => ⟨S_, .i32⟩
  | 29 => ⟨S800000, .i32⟩
  | 30 => ⟨S800000, .i1⟩
  | 31 => ⟨S_, .i32⟩
  | 32 => ⟨S800000, .i32⟩
  | 33 => ⟨S800000, .i32⟩
  | 34 => ⟨S800000, .i32⟩
  | 35 => ⟨S800000x1, .i32⟩
  | 36 => ⟨S800000x128, .f32⟩
  | 37 => ⟨S1x800000, .i32⟩
  | 38 => ⟨S800000, .i32⟩
  | 39 => ⟨S_, .f32⟩
  | 40 => ⟨S50000x128, .f32⟩
  | 41 => ⟨S800000x1, .i32⟩
  | 42 => ⟨S50000x128, .f32⟩
  | 43 => ⟨S1x50000, .f32⟩
  | 44 => ⟨S50000, .f32⟩
  | 45 => ⟨S50000x1, .f32⟩
  | 46 => ⟨S50000x128, .f32⟩
  | 47 => ⟨S50000x128, .f32⟩
  | 48 => ⟨S1x50000, .f32⟩
  | 49 => ⟨S50000, .f32⟩
  | 50 => ⟨S50000x1, .f32⟩
  | 51 => ⟨S50000x128, .f32⟩
  | 52 => ⟨S50000x128, .f32⟩
  | 53 => ⟨S1x800000, .i32⟩
  | 54 => ⟨S800000, .i32⟩
  | 55 => ⟨S_, .i32⟩
  | 56 => ⟨S800000, .i32⟩
  | 57 => ⟨S800000, .i1⟩
  | 58 => ⟨S_, .i32⟩
  | 59 => ⟨S800000, .i32⟩
  | 60 => ⟨S800000, .i32⟩
  | 61 => ⟨S800000, .i32⟩
  | 62 => ⟨S800000x1, .i32⟩
  | 63 => ⟨S800000x128, .f32⟩
  | 64 => ⟨S1x800000, .i32⟩
  | 65 => ⟨S800000, .i32⟩
  | 66 => ⟨S_, .f32⟩
  | 67 => ⟨S50000x128, .f32⟩
  | 68 => ⟨S800000x1, .i32⟩
  | 69 => ⟨S50000x128, .f32⟩
  | 70 => ⟨S1x50000, .f32⟩
  | 71 => ⟨S50000, .f32⟩
  | 72 => ⟨S50000x1, .f32⟩
  | 73 => ⟨S50000x128, .f32⟩
  | 74 => ⟨S50000x128, .f32⟩
  | 75 => ⟨S1x50000x128, .f32⟩
  | 76 => ⟨S1x50000x128, .f32⟩
  | 77 => ⟨S1x50000x128, .f32⟩
  | 78 => ⟨S1x50000x128, .f32⟩
  | 79 => ⟨S4x50000x128, .f32⟩
  | 80 => ⟨S4x50000x128, .bf16⟩
  | 81 => ⟨S4x128x128, .bf16⟩
  | 82 => ⟨S50000x128, .f32⟩
  | 83 => ⟨S_, .f32⟩
  | 84 => ⟨S50000x128, .f32⟩
  | 85 => ⟨S1x800000, .i32⟩
  | 86 => ⟨S800000, .i32⟩
  | 87 => ⟨S_, .i32⟩
  | 88 => ⟨S800000, .i32⟩
  | 89 => ⟨S800000, .i1⟩
  | 90 => ⟨S_, .i32⟩
  | 91 => ⟨S800000, .i32⟩
  | 92 => ⟨S800000, .i32⟩
  | 93 => ⟨S800000, .i32⟩
  | 94 => ⟨S800000x1, .i32⟩
  | 95 => ⟨S800000x128, .f32⟩
  | 96 => ⟨S1x800000, .i32⟩
  | 97 => ⟨S800000, .i32⟩
  | 98 => ⟨S_, .f32⟩
  | 99 => ⟨S50000x128, .f32⟩
  | 100 => ⟨S800000x1, .i32⟩
  | 101 => ⟨S50000x128, .f32⟩
  | 102 => ⟨S50000x128, .f32⟩
  | 103 => ⟨S1x800000, .i32⟩
  | 104 => ⟨S800000, .i32⟩
  | 105 => ⟨S_, .i32⟩
  | 106 => ⟨S800000, .i32⟩
  | 107 => ⟨S800000, .i1⟩
  | 108 => ⟨S_, .i32⟩
  | 109 => ⟨S800000, .i32⟩
  | 110 => ⟨S800000, .i32⟩
  | 111 => ⟨S800000, .i32⟩
  | 112 => ⟨S800000x1, .i32⟩
  | 113 => ⟨S800000x128, .f32⟩
  | 114 => ⟨S1x800000, .i32⟩
  | 115 => ⟨S800000, .i32⟩
  | 116 => ⟨S_, .f32⟩
  | 117 => ⟨S50000x128, .f32⟩
  | 118 => ⟨S800000x1, .i32⟩
  | 119 => ⟨S50000x128, .f32⟩
  | 120 => ⟨S50000x128, .f32⟩
  | 121 => ⟨S1x800000, .i32⟩
  | 122 => ⟨S800000, .i32⟩
  | 123 => ⟨S_, .i32⟩
  | 124 => ⟨S800000, .i32⟩
  | 125 => ⟨S800000, .i1⟩
  | 126 => ⟨S_, .i32⟩
  | 127 => ⟨S800000, .i32⟩
  | _ => ⟨S50000x128, .f32⟩

abbrev hbmTy0_4 (i : Nat) : BufTy := match i % 128 with
  | 0 => ⟨S800000, .i32⟩
  | 1 => ⟨S800000, .i32⟩
  | 2 => ⟨S800000x1, .i32⟩
  | 3 => ⟨S800000x128, .f32⟩
  | 4 => ⟨S1x800000, .i32⟩
  | 5 => ⟨S800000, .i32⟩
  | 6 => ⟨S_, .f32⟩
  | 7 => ⟨S50000x128, .f32⟩
  | 8 => ⟨S800000x1, .i32⟩
  | 9 => ⟨S50000x128, .f32⟩
  | 10 => ⟨S50000x128, .f32⟩
  | 11 => ⟨S1x800000, .i32⟩
  | 12 => ⟨S800000, .i32⟩
  | 13 => ⟨S_, .i32⟩
  | 14 => ⟨S800000, .i32⟩
  | 15 => ⟨S800000, .i1⟩
  | 16 => ⟨S_, .i32⟩
  | 17 => ⟨S800000, .i32⟩
  | 18 => ⟨S800000, .i32⟩
  | 19 => ⟨S800000, .i32⟩
  | 20 => ⟨S800000x1, .i32⟩
  | 21 => ⟨S800000x128, .f32⟩
  | 22 => ⟨S1x800000, .i32⟩
  | 23 => ⟨S800000, .i32⟩
  | 24 => ⟨S_, .f32⟩
  | 25 => ⟨S50000x128, .f32⟩
  | 26 => ⟨S800000x1, .i32⟩
  | 27 => ⟨S50000x128, .f32⟩
  | 28 => ⟨S50000x128, .f32⟩
  | 29 => ⟨S_, .f32⟩
  | 30 => ⟨S128, .f32⟩
  | 31 => ⟨S1x128, .f32⟩
  | 32 => ⟨S_, .f32⟩
  | 33 => ⟨S1x128, .f32⟩
  | 34 => ⟨S1x128, .f32⟩
  | 35 => ⟨S1x16, .f32⟩
  | 36 => ⟨S1x16, .f32⟩
  | 37 => ⟨S1x16, .f32⟩
  | 38 => ⟨S1x16, .f32⟩
  | 39 => ⟨S1x16, .f32⟩
  | 40 => ⟨S_, .f32⟩
  | 41 => ⟨S1x16, .f32⟩
  | 42 => ⟨S1x16, .f32⟩
  | 43 => ⟨S_, .f32⟩
  | 44 => ⟨S1x16, .f32⟩
  | 45 => ⟨S1x16, .f32⟩
  | _ => ⟨S50000x128, .f32⟩

abbrev hbmTy (i : Nat) : BufTy := match i / 128 with
  | 0 => hbmTy0_0 i
  | 1 => hbmTy0_1 i
  | 2 => hbmTy0_2 i
  | 3 => hbmTy0_3 i
  | 4 => hbmTy0_4 i
  | _ => ⟨S50000x128, .f32⟩

abbrev bufTy : (tb : Table) → Fin (tcTables nBuf tb) → BufTy
  | .hbm, ⟨i, _⟩ => hbmTy i
  | .local _ .vmem, ⟨0, _⟩ => ⟨S4x5000x128, .bf16⟩
  | .local _ .vmem, ⟨1, _⟩ => ⟨S4x5000x128, .bf16⟩
  | .local _ .vmem, ⟨2, _⟩ => ⟨S4x128x128, .bf16⟩
  | .local _ .vmem, ⟨3, _⟩ => ⟨S4x128, .f32⟩
  | .local _ .vmem, ⟨4, _⟩ => ⟨S5000x128, .f32⟩
  | .local _ .vmem, ⟨5, _⟩ => ⟨S5000x128, .f32⟩
  | .local _ .vmem, ⟨6, _⟩ => ⟨S4x5000x128, .bf16⟩
  | .local _ .vmem, ⟨7, _⟩ => ⟨S4x5000x128, .bf16⟩
  | .local _ .vmem, ⟨8, _⟩ => ⟨S4x128x128, .bf16⟩
  | .local _ .vmem, ⟨9, _⟩ => ⟨S4x128, .f32⟩
  | .local _ .vmem, ⟨10, _⟩ => ⟨S5000x128, .f32⟩
  | .local _ .vmem, ⟨11, _⟩ => ⟨S5000x128, .f32⟩
  | .local _ .vmem, ⟨12, _⟩ => ⟨S4x5000x128, .bf16⟩
  | .local _ .vmem, ⟨13, _⟩ => ⟨S4x5000x128, .bf16⟩
  | .local _ .vmem, ⟨14, _⟩ => ⟨S4x128x128, .bf16⟩
  | .local _ .vmem, ⟨15, _⟩ => ⟨S4x128, .f32⟩
  | .local _ .vmem, ⟨16, _⟩ => ⟨S5000x128, .f32⟩
  | .local _ .vmem, ⟨17, _⟩ => ⟨S5000x128, .f32⟩
  | _, _ => ⟨S50000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_cst : Ref sig .tc := ⟨.hbm, 11, rfl⟩
abbrev main_v0 : Ref sig .tc := ⟨.hbm, 12, rfl⟩
abbrev main_v1 : Ref sig .tc := ⟨.hbm, 13, rfl⟩
abbrev main_v2 : Ref sig .tc := ⟨.hbm, 14, rfl⟩
abbrev main_cst_0 : Ref sig .tc := ⟨.hbm, 15, rfl⟩
abbrev main_v3 : Ref sig .tc := ⟨.hbm, 16, rfl⟩
abbrev main_v4 : Ref sig .tc := ⟨.hbm, 17, rfl⟩
abbrev main_v5 : Ref sig .tc := ⟨.hbm, 18, rfl⟩
abbrev main_cst_1 : Ref sig .tc := ⟨.hbm, 19, rfl⟩
abbrev main_v6 : Ref sig .tc := ⟨.hbm, 20, rfl⟩
abbrev main_v7 : Ref sig .tc := ⟨.hbm, 21, rfl⟩
abbrev main_cst_2 : Ref sig .tc := ⟨.hbm, 22, rfl⟩
abbrev main_v8 : Ref sig .tc := ⟨.hbm, 23, rfl⟩
abbrev main_v9 : Ref sig .tc := ⟨.hbm, 24, rfl⟩
abbrev main_v10 : Ref sig .tc := ⟨.hbm, 25, rfl⟩
abbrev main_v11 : Ref sig .tc := ⟨.hbm, 26, rfl⟩
abbrev main_cst_3 : Ref sig .tc := ⟨.hbm, 27, rfl⟩
abbrev main_v12 : Ref sig .tc := ⟨.hbm, 28, rfl⟩
abbrev main_v13 : Ref sig .tc := ⟨.hbm, 29, rfl⟩
abbrev main_v14 : Ref sig .tc := ⟨.hbm, 30, rfl⟩
abbrev main_cst_4 : Ref sig .tc := ⟨.hbm, 31, rfl⟩
abbrev main_v15 : Ref sig .tc := ⟨.hbm, 32, rfl⟩
abbrev main_v16 : Ref sig .tc := ⟨.hbm, 33, rfl⟩
abbrev main_cst_5 : Ref sig .tc := ⟨.hbm, 34, rfl⟩
abbrev main_v17 : Ref sig .tc := ⟨.hbm, 35, rfl⟩
abbrev main_v18 : Ref sig .tc := ⟨.hbm, 36, rfl⟩
abbrev main_v19 : Ref sig .tc := ⟨.hbm, 37, rfl⟩
abbrev main_v20 : Ref sig .tc := ⟨.hbm, 38, rfl⟩
abbrev main_cst_6 : Ref sig .tc := ⟨.hbm, 39, rfl⟩
abbrev main_v21 : Ref sig .tc := ⟨.hbm, 40, rfl⟩
abbrev main_v22 : Ref sig .tc := ⟨.hbm, 41, rfl⟩
abbrev main_v23 : Ref sig .tc := ⟨.hbm, 42, rfl⟩
abbrev main_cst_7 : Ref sig .tc := ⟨.hbm, 43, rfl⟩
abbrev main_v24 : Ref sig .tc := ⟨.hbm, 44, rfl⟩
abbrev main_v25 : Ref sig .tc := ⟨.hbm, 45, rfl⟩
abbrev main_cst_8 : Ref sig .tc := ⟨.hbm, 46, rfl⟩
abbrev main_v26 : Ref sig .tc := ⟨.hbm, 47, rfl⟩
abbrev main_v27 : Ref sig .tc := ⟨.hbm, 48, rfl⟩
abbrev main_v28 : Ref sig .tc := ⟨.hbm, 49, rfl⟩
abbrev main_v29 : Ref sig .tc := ⟨.hbm, 50, rfl⟩
abbrev main_cst_9 : Ref sig .tc := ⟨.hbm, 51, rfl⟩
abbrev main_v30 : Ref sig .tc := ⟨.hbm, 52, rfl⟩
abbrev main_v31 : Ref sig .tc := ⟨.hbm, 53, rfl⟩
abbrev main_v32 : Ref sig .tc := ⟨.hbm, 54, rfl⟩
abbrev main_cst_10 : Ref sig .tc := ⟨.hbm, 55, rfl⟩
abbrev main_v33 : Ref sig .tc := ⟨.hbm, 56, rfl⟩
abbrev main_v34 : Ref sig .tc := ⟨.hbm, 57, rfl⟩
abbrev main_cst_11 : Ref sig .tc := ⟨.hbm, 58, rfl⟩
abbrev main_v35 : Ref sig .tc := ⟨.hbm, 59, rfl⟩
abbrev main_v36 : Ref sig .tc := ⟨.hbm, 60, rfl⟩
abbrev main_v37 : Ref sig .tc := ⟨.hbm, 61, rfl⟩
abbrev main_v38 : Ref sig .tc := ⟨.hbm, 62, rfl⟩
abbrev main_cst_12 : Ref sig .tc := ⟨.hbm, 63, rfl⟩
abbrev main_v39 : Ref sig .tc := ⟨.hbm, 64, rfl⟩
abbrev main_v40 : Ref sig .tc := ⟨.hbm, 65, rfl⟩
abbrev main_v41 : Ref sig .tc := ⟨.hbm, 66, rfl⟩
abbrev main_cst_13 : Ref sig .tc := ⟨.hbm, 67, rfl⟩
abbrev main_v42 : Ref sig .tc := ⟨.hbm, 68, rfl⟩
abbrev main_v43 : Ref sig .tc := ⟨.hbm, 69, rfl⟩
abbrev main_cst_14 : Ref sig .tc := ⟨.hbm, 70, rfl⟩
abbrev main_v44 : Ref sig .tc := ⟨.hbm, 71, rfl⟩
abbrev main_v45 : Ref sig .tc := ⟨.hbm, 72, rfl⟩
abbrev main_v46 : Ref sig .tc := ⟨.hbm, 73, rfl⟩
abbrev main_v47 : Ref sig .tc := ⟨.hbm, 74, rfl⟩
abbrev main_cst_15 : Ref sig .tc := ⟨.hbm, 75, rfl⟩
abbrev main_v48 : Ref sig .tc := ⟨.hbm, 76, rfl⟩
abbrev main_v49 : Ref sig .tc := ⟨.hbm, 77, rfl⟩
abbrev main_v50 : Ref sig .tc := ⟨.hbm, 78, rfl⟩
abbrev main_cst_16 : Ref sig .tc := ⟨.hbm, 79, rfl⟩
abbrev main_v51 : Ref sig .tc := ⟨.hbm, 80, rfl⟩
abbrev main_v52 : Ref sig .tc := ⟨.hbm, 81, rfl⟩
abbrev main_cst_17 : Ref sig .tc := ⟨.hbm, 82, rfl⟩
abbrev main_v53 : Ref sig .tc := ⟨.hbm, 83, rfl⟩
abbrev main_v54 : Ref sig .tc := ⟨.hbm, 84, rfl⟩
abbrev main_v55 : Ref sig .tc := ⟨.hbm, 85, rfl⟩
abbrev main_v56 : Ref sig .tc := ⟨.hbm, 86, rfl⟩
abbrev main_cst_18 : Ref sig .tc := ⟨.hbm, 87, rfl⟩
abbrev main_v57 : Ref sig .tc := ⟨.hbm, 88, rfl⟩
abbrev main_v58 : Ref sig .tc := ⟨.hbm, 89, rfl⟩
abbrev main_v59 : Ref sig .tc := ⟨.hbm, 90, rfl⟩
abbrev main_cst_19 : Ref sig .tc := ⟨.hbm, 91, rfl⟩
abbrev main_v60 : Ref sig .tc := ⟨.hbm, 92, rfl⟩
abbrev main_v61 : Ref sig .tc := ⟨.hbm, 93, rfl⟩
abbrev main_cst_20 : Ref sig .tc := ⟨.hbm, 94, rfl⟩
abbrev main_v62 : Ref sig .tc := ⟨.hbm, 95, rfl⟩
abbrev main_v63 : Ref sig .tc := ⟨.hbm, 96, rfl⟩
abbrev main_v64 : Ref sig .tc := ⟨.hbm, 97, rfl⟩
abbrev main_v65 : Ref sig .tc := ⟨.hbm, 98, rfl⟩
abbrev main_cst_21 : Ref sig .tc := ⟨.hbm, 99, rfl⟩
abbrev main_v66 : Ref sig .tc := ⟨.hbm, 100, rfl⟩
abbrev main_v67 : Ref sig .tc := ⟨.hbm, 101, rfl⟩
abbrev main_v68 : Ref sig .tc := ⟨.hbm, 102, rfl⟩
abbrev main_cst_22 : Ref sig .tc := ⟨.hbm, 103, rfl⟩
abbrev main_v69 : Ref sig .tc := ⟨.hbm, 104, rfl⟩
abbrev main_v70 : Ref sig .tc := ⟨.hbm, 105, rfl⟩
abbrev main_cst_23 : Ref sig .tc := ⟨.hbm, 106, rfl⟩
abbrev main_v71 : Ref sig .tc := ⟨.hbm, 107, rfl⟩
abbrev main_v72 : Ref sig .tc := ⟨.hbm, 108, rfl⟩
abbrev main_v73 : Ref sig .tc := ⟨.hbm, 109, rfl⟩
abbrev main_v74 : Ref sig .tc := ⟨.hbm, 110, rfl⟩
abbrev main_v75 : Ref sig .tc := ⟨.hbm, 111, rfl⟩
abbrev main_v76 : Ref sig .tc := ⟨.hbm, 112, rfl⟩
abbrev main_v77 : Ref sig .tc := ⟨.hbm, 113, rfl⟩
abbrev main_v78 : Ref sig .tc := ⟨.hbm, 114, rfl⟩
abbrev main_v79 : Ref sig .tc := ⟨.hbm, 115, rfl⟩
abbrev main_v80 : Ref sig .tc := ⟨.hbm, 116, rfl⟩
abbrev main_v81 : Ref sig .tc := ⟨.hbm, 117, rfl⟩
abbrev main_v82 : Ref sig .tc := ⟨.hbm, 118, rfl⟩
abbrev main_v83 : Ref sig .tc := ⟨.hbm, 119, rfl⟩
abbrev main_v84 : Ref sig .tc := ⟨.hbm, 120, rfl⟩
abbrev main_v85 : Ref sig .tc := ⟨.hbm, 121, rfl⟩
abbrev main_v86 : Ref sig .tc := ⟨.hbm, 122, rfl⟩
abbrev main_v87 : Ref sig .tc := ⟨.hbm, 123, rfl⟩
abbrev main_v88 : Ref sig .tc := ⟨.hbm, 124, rfl⟩
abbrev main_v89 : Ref sig .tc := ⟨.hbm, 125, rfl⟩
abbrev main_c : Ref sig .tc := ⟨.hbm, 126, rfl⟩
abbrev main_v90 : Ref sig .tc := ⟨.hbm, 127, rfl⟩
abbrev main_v91 : Ref sig .tc := ⟨.hbm, 128, rfl⟩
abbrev main_c_24 : Ref sig .tc := ⟨.hbm, 129, rfl⟩
abbrev main_v92 : Ref sig .tc := ⟨.hbm, 130, rfl⟩
abbrev main_v93 : Ref sig .tc := ⟨.hbm, 131, rfl⟩
abbrev main_v94 : Ref sig .tc := ⟨.hbm, 132, rfl⟩
abbrev main_v95 : Ref sig .tc := ⟨.hbm, 133, rfl⟩
abbrev main_v96 : Ref sig .tc := ⟨.hbm, 134, rfl⟩
abbrev main_v97 : Ref sig .tc := ⟨.hbm, 135, rfl⟩
abbrev main_v98 : Ref sig .tc := ⟨.hbm, 136, rfl⟩
abbrev main_cst_25 : Ref sig .tc := ⟨.hbm, 137, rfl⟩
abbrev main_v99 : Ref sig .tc := ⟨.hbm, 138, rfl⟩
abbrev main_v100 : Ref sig .tc := ⟨.hbm, 139, rfl⟩
abbrev main_v101 : Ref sig .tc := ⟨.hbm, 140, rfl⟩
abbrev main_v102 : Ref sig .tc := ⟨.hbm, 141, rfl⟩
abbrev main_v103 : Ref sig .tc := ⟨.hbm, 142, rfl⟩
abbrev main_v104 : Ref sig .tc := ⟨.hbm, 143, rfl⟩
abbrev main_v105 : Ref sig .tc := ⟨.hbm, 144, rfl⟩
abbrev main_v106 : Ref sig .tc := ⟨.hbm, 145, rfl⟩
abbrev main_v107 : Ref sig .tc := ⟨.hbm, 146, rfl⟩
abbrev main_v108 : Ref sig .tc := ⟨.hbm, 147, rfl⟩
abbrev main_v109 : Ref sig .tc := ⟨.hbm, 148, rfl⟩
abbrev main_v110 : Ref sig .tc := ⟨.hbm, 149, rfl⟩
abbrev main_v111 : Ref sig .tc := ⟨.hbm, 150, rfl⟩
abbrev main_v112 : Ref sig .tc := ⟨.hbm, 151, rfl⟩
abbrev main_v113 : Ref sig .tc := ⟨.hbm, 152, rfl⟩
abbrev main_c_26 : Ref sig .tc := ⟨.hbm, 153, rfl⟩
abbrev main_v114 : Ref sig .tc := ⟨.hbm, 154, rfl⟩
abbrev main_v115 : Ref sig .tc := ⟨.hbm, 155, rfl⟩
abbrev main_c_27 : Ref sig .tc := ⟨.hbm, 156, rfl⟩
abbrev main_v116 : Ref sig .tc := ⟨.hbm, 157, rfl⟩
abbrev main_v117 : Ref sig .tc := ⟨.hbm, 158, rfl⟩
abbrev main_v118 : Ref sig .tc := ⟨.hbm, 159, rfl⟩
abbrev main_v119 : Ref sig .tc := ⟨.hbm, 160, rfl⟩
abbrev main_v120 : Ref sig .tc := ⟨.hbm, 161, rfl⟩
abbrev main_v121 : Ref sig .tc := ⟨.hbm, 162, rfl⟩
abbrev main_v122 : Ref sig .tc := ⟨.hbm, 163, rfl⟩
abbrev main_cst_28 : Ref sig .tc := ⟨.hbm, 164, rfl⟩
abbrev main_v123 : Ref sig .tc := ⟨.hbm, 165, rfl⟩
abbrev main_v124 : Ref sig .tc := ⟨.hbm, 166, rfl⟩
abbrev main_v125 : Ref sig .tc := ⟨.hbm, 167, rfl⟩
abbrev main_v126 : Ref sig .tc := ⟨.hbm, 168, rfl⟩
abbrev main_v127 : Ref sig .tc := ⟨.hbm, 169, rfl⟩
abbrev main_v128 : Ref sig .tc := ⟨.hbm, 170, rfl⟩
abbrev main_v129 : Ref sig .tc := ⟨.hbm, 171, rfl⟩
abbrev main_v130 : Ref sig .tc := ⟨.hbm, 172, rfl⟩
abbrev main_v131 : Ref sig .tc := ⟨.hbm, 173, rfl⟩
abbrev main_v132 : Ref sig .tc := ⟨.hbm, 174, rfl⟩
abbrev main_v133 : Ref sig .tc := ⟨.hbm, 175, rfl⟩
abbrev main_v134 : Ref sig .tc := ⟨.hbm, 176, rfl⟩
abbrev main_v135 : Ref sig .tc := ⟨.hbm, 177, rfl⟩
abbrev main_v136 : Ref sig .tc := ⟨.hbm, 178, rfl⟩
abbrev main_v137 : Ref sig .tc := ⟨.hbm, 179, rfl⟩
abbrev main_c_29 : Ref sig .tc := ⟨.hbm, 180, rfl⟩
abbrev main_v138 : Ref sig .tc := ⟨.hbm, 181, rfl⟩
abbrev main_v139 : Ref sig .tc := ⟨.hbm, 182, rfl⟩
abbrev main_c_30 : Ref sig .tc := ⟨.hbm, 183, rfl⟩
abbrev main_v140 : Ref sig .tc := ⟨.hbm, 184, rfl⟩
abbrev main_v141 : Ref sig .tc := ⟨.hbm, 185, rfl⟩
abbrev main_v142 : Ref sig .tc := ⟨.hbm, 186, rfl⟩
abbrev main_v143 : Ref sig .tc := ⟨.hbm, 187, rfl⟩
abbrev main_v144 : Ref sig .tc := ⟨.hbm, 188, rfl⟩
abbrev main_v145 : Ref sig .tc := ⟨.hbm, 189, rfl⟩
abbrev main_v146 : Ref sig .tc := ⟨.hbm, 190, rfl⟩
abbrev main_cst_31 : Ref sig .tc := ⟨.hbm, 191, rfl⟩
abbrev main_v147 : Ref sig .tc := ⟨.hbm, 192, rfl⟩
abbrev main_v148 : Ref sig .tc := ⟨.hbm, 193, rfl⟩
abbrev main_v149 : Ref sig .tc := ⟨.hbm, 194, rfl⟩
abbrev main_v150 : Ref sig .tc := ⟨.hbm, 195, rfl⟩
abbrev main_v151 : Ref sig .tc := ⟨.hbm, 196, rfl⟩
abbrev main_v152 : Ref sig .tc := ⟨.hbm, 197, rfl⟩
abbrev main_v153 : Ref sig .tc := ⟨.hbm, 198, rfl⟩
abbrev main_v154 : Ref sig .tc := ⟨.hbm, 199, rfl⟩
abbrev main_v155 : Ref sig .tc := ⟨.hbm, 200, rfl⟩
abbrev main_v156 : Ref sig .tc := ⟨.hbm, 201, rfl⟩
abbrev main_v157 : Ref sig .tc := ⟨.hbm, 202, rfl⟩
abbrev main_v158 : Ref sig .tc := ⟨.hbm, 203, rfl⟩
abbrev main_v159 : Ref sig .tc := ⟨.hbm, 204, rfl⟩
abbrev main_v160 : Ref sig .tc := ⟨.hbm, 205, rfl⟩
abbrev main_v161 : Ref sig .tc := ⟨.hbm, 206, rfl⟩
abbrev main_c_32 : Ref sig .tc := ⟨.hbm, 207, rfl⟩
abbrev main_v162 : Ref sig .tc := ⟨.hbm, 208, rfl⟩
abbrev main_v163 : Ref sig .tc := ⟨.hbm, 209, rfl⟩
abbrev main_c_33 : Ref sig .tc := ⟨.hbm, 210, rfl⟩
abbrev main_v164 : Ref sig .tc := ⟨.hbm, 211, rfl⟩
abbrev main_v165 : Ref sig .tc := ⟨.hbm, 212, rfl⟩
abbrev main_v166 : Ref sig .tc := ⟨.hbm, 213, rfl⟩
abbrev main_v167 : Ref sig .tc := ⟨.hbm, 214, rfl⟩
abbrev main_v168 : Ref sig .tc := ⟨.hbm, 215, rfl⟩
abbrev main_v169 : Ref sig .tc := ⟨.hbm, 216, rfl⟩
abbrev main_v170 : Ref sig .tc := ⟨.hbm, 217, rfl⟩
abbrev main_cst_34 : Ref sig .tc := ⟨.hbm, 218, rfl⟩
abbrev main_v171 : Ref sig .tc := ⟨.hbm, 219, rfl⟩
abbrev main_v172 : Ref sig .tc := ⟨.hbm, 220, rfl⟩
abbrev main_v173 : Ref sig .tc := ⟨.hbm, 221, rfl⟩
abbrev main_v174 : Ref sig .tc := ⟨.hbm, 222, rfl⟩
abbrev main_v175 : Ref sig .tc := ⟨.hbm, 223, rfl⟩
abbrev main_v176 : Ref sig .tc := ⟨.hbm, 224, rfl⟩
abbrev main_v177 : Ref sig .tc := ⟨.hbm, 225, rfl⟩
abbrev main_v178 : Ref sig .tc := ⟨.hbm, 226, rfl⟩
abbrev main_v179 : Ref sig .tc := ⟨.hbm, 227, rfl⟩
abbrev main_v180 : Ref sig .tc := ⟨.hbm, 228, rfl⟩
abbrev main_v181 : Ref sig .tc := ⟨.hbm, 229, rfl⟩
abbrev main_v182 : Ref sig .tc := ⟨.hbm, 230, rfl⟩
abbrev main_v183 : Ref sig .tc := ⟨.hbm, 231, rfl⟩
abbrev main_v184 : Ref sig .tc := ⟨.hbm, 232, rfl⟩
abbrev main_v185 : Ref sig .tc := ⟨.hbm, 233, rfl⟩
abbrev main_v186 : Ref sig .tc := ⟨.hbm, 234, rfl⟩
abbrev main_v187 : Ref sig .tc := ⟨.hbm, 235, rfl⟩
abbrev main_v188 : Ref sig .tc := ⟨.hbm, 236, rfl⟩
abbrev main_v189 : Ref sig .tc := ⟨.hbm, 237, rfl⟩
abbrev main_v190 : Ref sig .tc := ⟨.hbm, 238, rfl⟩
abbrev main_v191 : Ref sig .tc := ⟨.hbm, 239, rfl⟩
abbrev main_v192 : Ref sig .tc := ⟨.hbm, 240, rfl⟩
abbrev main_v193 : Ref sig .tc := ⟨.hbm, 241, rfl⟩
abbrev main_c_35 : Ref sig .tc := ⟨.hbm, 242, rfl⟩
abbrev main_v194 : Ref sig .tc := ⟨.hbm, 243, rfl⟩
abbrev main_v195 : Ref sig .tc := ⟨.hbm, 244, rfl⟩
abbrev main_c_36 : Ref sig .tc := ⟨.hbm, 245, rfl⟩
abbrev main_v196 : Ref sig .tc := ⟨.hbm, 246, rfl⟩
abbrev main_v197 : Ref sig .tc := ⟨.hbm, 247, rfl⟩
abbrev main_v198 : Ref sig .tc := ⟨.hbm, 248, rfl⟩
abbrev main_v199 : Ref sig .tc := ⟨.hbm, 249, rfl⟩
abbrev main_v200 : Ref sig .tc := ⟨.hbm, 250, rfl⟩
abbrev main_v201 : Ref sig .tc := ⟨.hbm, 251, rfl⟩
abbrev main_v202 : Ref sig .tc := ⟨.hbm, 252, rfl⟩
abbrev main_cst_37 : Ref sig .tc := ⟨.hbm, 253, rfl⟩
abbrev main_v203 : Ref sig .tc := ⟨.hbm, 254, rfl⟩
abbrev main_v204 : Ref sig .tc := ⟨.hbm, 255, rfl⟩
abbrev main_v205 : Ref sig .tc := ⟨.hbm, 256, rfl⟩
abbrev main_v206 : Ref sig .tc := ⟨.hbm, 257, rfl⟩
abbrev main_v207 : Ref sig .tc := ⟨.hbm, 258, rfl⟩
abbrev main_v208 : Ref sig .tc := ⟨.hbm, 259, rfl⟩
abbrev main_v209 : Ref sig .tc := ⟨.hbm, 260, rfl⟩
abbrev main_v210 : Ref sig .tc := ⟨.hbm, 261, rfl⟩
abbrev main_v211 : Ref sig .tc := ⟨.hbm, 262, rfl⟩
abbrev main_v212 : Ref sig .tc := ⟨.hbm, 263, rfl⟩
abbrev main_v213 : Ref sig .tc := ⟨.hbm, 264, rfl⟩
abbrev main_v214 : Ref sig .tc := ⟨.hbm, 265, rfl⟩
abbrev main_v215 : Ref sig .tc := ⟨.hbm, 266, rfl⟩
abbrev main_v216 : Ref sig .tc := ⟨.hbm, 267, rfl⟩
abbrev main_v217 : Ref sig .tc := ⟨.hbm, 268, rfl⟩
abbrev main_c_38 : Ref sig .tc := ⟨.hbm, 269, rfl⟩
abbrev main_v218 : Ref sig .tc := ⟨.hbm, 270, rfl⟩
abbrev main_v219 : Ref sig .tc := ⟨.hbm, 271, rfl⟩
abbrev main_c_39 : Ref sig .tc := ⟨.hbm, 272, rfl⟩
abbrev main_v220 : Ref sig .tc := ⟨.hbm, 273, rfl⟩
abbrev main_v221 : Ref sig .tc := ⟨.hbm, 274, rfl⟩
abbrev main_v222 : Ref sig .tc := ⟨.hbm, 275, rfl⟩
abbrev main_v223 : Ref sig .tc := ⟨.hbm, 276, rfl⟩
abbrev main_v224 : Ref sig .tc := ⟨.hbm, 277, rfl⟩
abbrev main_v225 : Ref sig .tc := ⟨.hbm, 278, rfl⟩
abbrev main_v226 : Ref sig .tc := ⟨.hbm, 279, rfl⟩
abbrev main_cst_40 : Ref sig .tc := ⟨.hbm, 280, rfl⟩
abbrev main_v227 : Ref sig .tc := ⟨.hbm, 281, rfl⟩
abbrev main_v228 : Ref sig .tc := ⟨.hbm, 282, rfl⟩
abbrev main_v229 : Ref sig .tc := ⟨.hbm, 283, rfl⟩
abbrev main_v230 : Ref sig .tc := ⟨.hbm, 284, rfl⟩
abbrev main_v231 : Ref sig .tc := ⟨.hbm, 285, rfl⟩
abbrev main_v232 : Ref sig .tc := ⟨.hbm, 286, rfl⟩
abbrev main_v233 : Ref sig .tc := ⟨.hbm, 287, rfl⟩
abbrev main_v234 : Ref sig .tc := ⟨.hbm, 288, rfl⟩
abbrev main_v235 : Ref sig .tc := ⟨.hbm, 289, rfl⟩
abbrev main_v236 : Ref sig .tc := ⟨.hbm, 290, rfl⟩
abbrev main_v237 : Ref sig .tc := ⟨.hbm, 291, rfl⟩
abbrev main_v238 : Ref sig .tc := ⟨.hbm, 292, rfl⟩
abbrev main_v239 : Ref sig .tc := ⟨.hbm, 293, rfl⟩
abbrev main_v240 : Ref sig .tc := ⟨.hbm, 294, rfl⟩
abbrev main_v241 : Ref sig .tc := ⟨.hbm, 295, rfl⟩
abbrev main_c_41 : Ref sig .tc := ⟨.hbm, 296, rfl⟩
abbrev main_v242 : Ref sig .tc := ⟨.hbm, 297, rfl⟩
abbrev main_v243 : Ref sig .tc := ⟨.hbm, 298, rfl⟩
abbrev main_c_42 : Ref sig .tc := ⟨.hbm, 299, rfl⟩
abbrev main_v244 : Ref sig .tc := ⟨.hbm, 300, rfl⟩
abbrev main_v245 : Ref sig .tc := ⟨.hbm, 301, rfl⟩
abbrev main_v246 : Ref sig .tc := ⟨.hbm, 302, rfl⟩
abbrev main_v247 : Ref sig .tc := ⟨.hbm, 303, rfl⟩
abbrev main_v248 : Ref sig .tc := ⟨.hbm, 304, rfl⟩
abbrev main_v249 : Ref sig .tc := ⟨.hbm, 305, rfl⟩
abbrev main_v250 : Ref sig .tc := ⟨.hbm, 306, rfl⟩
abbrev main_cst_43 : Ref sig .tc := ⟨.hbm, 307, rfl⟩
abbrev main_v251 : Ref sig .tc := ⟨.hbm, 308, rfl⟩
abbrev main_v252 : Ref sig .tc := ⟨.hbm, 309, rfl⟩
abbrev main_v253 : Ref sig .tc := ⟨.hbm, 310, rfl⟩
abbrev main_v254 : Ref sig .tc := ⟨.hbm, 311, rfl⟩
abbrev main_v255 : Ref sig .tc := ⟨.hbm, 312, rfl⟩
abbrev main_v256 : Ref sig .tc := ⟨.hbm, 313, rfl⟩
abbrev main_v257 : Ref sig .tc := ⟨.hbm, 314, rfl⟩
abbrev main_v258 : Ref sig .tc := ⟨.hbm, 315, rfl⟩
abbrev main_v259 : Ref sig .tc := ⟨.hbm, 316, rfl⟩
abbrev main_v260 : Ref sig .tc := ⟨.hbm, 317, rfl⟩
abbrev main_v261 : Ref sig .tc := ⟨.hbm, 318, rfl⟩
abbrev main_v262 : Ref sig .tc := ⟨.hbm, 319, rfl⟩
abbrev main_v263 : Ref sig .tc := ⟨.hbm, 320, rfl⟩
abbrev main_v264 : Ref sig .tc := ⟨.hbm, 321, rfl⟩
abbrev main_v265 : Ref sig .tc := ⟨.hbm, 322, rfl⟩
abbrev main_c_44 : Ref sig .tc := ⟨.hbm, 323, rfl⟩
abbrev main_v266 : Ref sig .tc := ⟨.hbm, 324, rfl⟩
abbrev main_v267 : Ref sig .tc := ⟨.hbm, 325, rfl⟩
abbrev main_c_45 : Ref sig .tc := ⟨.hbm, 326, rfl⟩
abbrev main_v268 : Ref sig .tc := ⟨.hbm, 327, rfl⟩
abbrev main_v269 : Ref sig .tc := ⟨.hbm, 328, rfl⟩
abbrev main_v270 : Ref sig .tc := ⟨.hbm, 329, rfl⟩
abbrev main_v271 : Ref sig .tc := ⟨.hbm, 330, rfl⟩
abbrev main_v272 : Ref sig .tc := ⟨.hbm, 331, rfl⟩
abbrev main_v273 : Ref sig .tc := ⟨.hbm, 332, rfl⟩
abbrev main_v274 : Ref sig .tc := ⟨.hbm, 333, rfl⟩
abbrev main_cst_46 : Ref sig .tc := ⟨.hbm, 334, rfl⟩
abbrev main_v275 : Ref sig .tc := ⟨.hbm, 335, rfl⟩
abbrev main_v276 : Ref sig .tc := ⟨.hbm, 336, rfl⟩
abbrev main_v277 : Ref sig .tc := ⟨.hbm, 337, rfl⟩
abbrev main_v278 : Ref sig .tc := ⟨.hbm, 338, rfl⟩
abbrev main_v279 : Ref sig .tc := ⟨.hbm, 339, rfl⟩
abbrev main_v280 : Ref sig .tc := ⟨.hbm, 340, rfl⟩
abbrev main_v281 : Ref sig .tc := ⟨.hbm, 341, rfl⟩
abbrev main_v282 : Ref sig .tc := ⟨.hbm, 342, rfl⟩
abbrev main_v283 : Ref sig .tc := ⟨.hbm, 343, rfl⟩
abbrev main_v284 : Ref sig .tc := ⟨.hbm, 344, rfl⟩
abbrev main_v285 : Ref sig .tc := ⟨.hbm, 345, rfl⟩
abbrev main_v286 : Ref sig .tc := ⟨.hbm, 346, rfl⟩
abbrev main_v287 : Ref sig .tc := ⟨.hbm, 347, rfl⟩
abbrev main_v288 : Ref sig .tc := ⟨.hbm, 348, rfl⟩
abbrev main_v289 : Ref sig .tc := ⟨.hbm, 349, rfl⟩
abbrev main_v290 : Ref sig .tc := ⟨.hbm, 350, rfl⟩
abbrev main_v291 : Ref sig .tc := ⟨.hbm, 351, rfl⟩
abbrev main_v292 : Ref sig .tc := ⟨.hbm, 352, rfl⟩
abbrev main_v293 : Ref sig .tc := ⟨.hbm, 353, rfl⟩
abbrev main_v294 : Ref sig .tc := ⟨.hbm, 354, rfl⟩
abbrev main_v295 : Ref sig .tc := ⟨.hbm, 355, rfl⟩
abbrev main_v296 : Ref sig .tc := ⟨.hbm, 356, rfl⟩
abbrev main_v297 : Ref sig .tc := ⟨.hbm, 357, rfl⟩
abbrev main_c_47 : Ref sig .tc := ⟨.hbm, 358, rfl⟩
abbrev main_v298 : Ref sig .tc := ⟨.hbm, 359, rfl⟩
abbrev main_v299 : Ref sig .tc := ⟨.hbm, 360, rfl⟩
abbrev main_c_48 : Ref sig .tc := ⟨.hbm, 361, rfl⟩
abbrev main_v300 : Ref sig .tc := ⟨.hbm, 362, rfl⟩
abbrev main_v301 : Ref sig .tc := ⟨.hbm, 363, rfl⟩
abbrev main_v302 : Ref sig .tc := ⟨.hbm, 364, rfl⟩
abbrev main_v303 : Ref sig .tc := ⟨.hbm, 365, rfl⟩
abbrev main_v304 : Ref sig .tc := ⟨.hbm, 366, rfl⟩
abbrev main_v305 : Ref sig .tc := ⟨.hbm, 367, rfl⟩
abbrev main_v306 : Ref sig .tc := ⟨.hbm, 368, rfl⟩
abbrev main_cst_49 : Ref sig .tc := ⟨.hbm, 369, rfl⟩
abbrev main_v307 : Ref sig .tc := ⟨.hbm, 370, rfl⟩
abbrev main_v308 : Ref sig .tc := ⟨.hbm, 371, rfl⟩
abbrev main_v309 : Ref sig .tc := ⟨.hbm, 372, rfl⟩
abbrev main_v310 : Ref sig .tc := ⟨.hbm, 373, rfl⟩
abbrev main_v311 : Ref sig .tc := ⟨.hbm, 374, rfl⟩
abbrev main_v312 : Ref sig .tc := ⟨.hbm, 375, rfl⟩
abbrev main_v313 : Ref sig .tc := ⟨.hbm, 376, rfl⟩
abbrev main_v314 : Ref sig .tc := ⟨.hbm, 377, rfl⟩
abbrev main_v315 : Ref sig .tc := ⟨.hbm, 378, rfl⟩
abbrev main_v316 : Ref sig .tc := ⟨.hbm, 379, rfl⟩
abbrev main_v317 : Ref sig .tc := ⟨.hbm, 380, rfl⟩
abbrev main_v318 : Ref sig .tc := ⟨.hbm, 381, rfl⟩
abbrev main_v319 : Ref sig .tc := ⟨.hbm, 382, rfl⟩
abbrev main_v320 : Ref sig .tc := ⟨.hbm, 383, rfl⟩
abbrev main_v321 : Ref sig .tc := ⟨.hbm, 384, rfl⟩
abbrev main_c_50 : Ref sig .tc := ⟨.hbm, 385, rfl⟩
abbrev main_v322 : Ref sig .tc := ⟨.hbm, 386, rfl⟩
abbrev main_v323 : Ref sig .tc := ⟨.hbm, 387, rfl⟩
abbrev main_c_51 : Ref sig .tc := ⟨.hbm, 388, rfl⟩
abbrev main_v324 : Ref sig .tc := ⟨.hbm, 389, rfl⟩
abbrev main_v325 : Ref sig .tc := ⟨.hbm, 390, rfl⟩
abbrev main_v326 : Ref sig .tc := ⟨.hbm, 391, rfl⟩
abbrev main_v327 : Ref sig .tc := ⟨.hbm, 392, rfl⟩
abbrev main_v328 : Ref sig .tc := ⟨.hbm, 393, rfl⟩
abbrev main_v329 : Ref sig .tc := ⟨.hbm, 394, rfl⟩
abbrev main_v330 : Ref sig .tc := ⟨.hbm, 395, rfl⟩
abbrev main_cst_52 : Ref sig .tc := ⟨.hbm, 396, rfl⟩
abbrev main_v331 : Ref sig .tc := ⟨.hbm, 397, rfl⟩
abbrev main_v332 : Ref sig .tc := ⟨.hbm, 398, rfl⟩
abbrev main_v333 : Ref sig .tc := ⟨.hbm, 399, rfl⟩
abbrev main_v334 : Ref sig .tc := ⟨.hbm, 400, rfl⟩
abbrev main_v335 : Ref sig .tc := ⟨.hbm, 401, rfl⟩
abbrev main_v336 : Ref sig .tc := ⟨.hbm, 402, rfl⟩
abbrev main_v337 : Ref sig .tc := ⟨.hbm, 403, rfl⟩
abbrev main_v338 : Ref sig .tc := ⟨.hbm, 404, rfl⟩
abbrev main_v339 : Ref sig .tc := ⟨.hbm, 405, rfl⟩
abbrev main_v340 : Ref sig .tc := ⟨.hbm, 406, rfl⟩
abbrev main_v341 : Ref sig .tc := ⟨.hbm, 407, rfl⟩
abbrev main_v342 : Ref sig .tc := ⟨.hbm, 408, rfl⟩
abbrev main_v343 : Ref sig .tc := ⟨.hbm, 409, rfl⟩
abbrev main_v344 : Ref sig .tc := ⟨.hbm, 410, rfl⟩
abbrev main_v345 : Ref sig .tc := ⟨.hbm, 411, rfl⟩
abbrev main_c_53 : Ref sig .tc := ⟨.hbm, 412, rfl⟩
abbrev main_v346 : Ref sig .tc := ⟨.hbm, 413, rfl⟩
abbrev main_v347 : Ref sig .tc := ⟨.hbm, 414, rfl⟩
abbrev main_c_54 : Ref sig .tc := ⟨.hbm, 415, rfl⟩
abbrev main_v348 : Ref sig .tc := ⟨.hbm, 416, rfl⟩
abbrev main_v349 : Ref sig .tc := ⟨.hbm, 417, rfl⟩
abbrev main_v350 : Ref sig .tc := ⟨.hbm, 418, rfl⟩
abbrev main_v351 : Ref sig .tc := ⟨.hbm, 419, rfl⟩
abbrev main_v352 : Ref sig .tc := ⟨.hbm, 420, rfl⟩
abbrev main_v353 : Ref sig .tc := ⟨.hbm, 421, rfl⟩
abbrev main_v354 : Ref sig .tc := ⟨.hbm, 422, rfl⟩
abbrev main_cst_55 : Ref sig .tc := ⟨.hbm, 423, rfl⟩
abbrev main_v355 : Ref sig .tc := ⟨.hbm, 424, rfl⟩
abbrev main_v356 : Ref sig .tc := ⟨.hbm, 425, rfl⟩
abbrev main_v357 : Ref sig .tc := ⟨.hbm, 426, rfl⟩
abbrev main_v358 : Ref sig .tc := ⟨.hbm, 427, rfl⟩
abbrev main_v359 : Ref sig .tc := ⟨.hbm, 428, rfl⟩
abbrev main_v360 : Ref sig .tc := ⟨.hbm, 429, rfl⟩
abbrev main_v361 : Ref sig .tc := ⟨.hbm, 430, rfl⟩
abbrev main_v362 : Ref sig .tc := ⟨.hbm, 431, rfl⟩
abbrev main_v363 : Ref sig .tc := ⟨.hbm, 432, rfl⟩
abbrev main_v364 : Ref sig .tc := ⟨.hbm, 433, rfl⟩
abbrev main_v365 : Ref sig .tc := ⟨.hbm, 434, rfl⟩
abbrev main_v366 : Ref sig .tc := ⟨.hbm, 435, rfl⟩
abbrev main_v367 : Ref sig .tc := ⟨.hbm, 436, rfl⟩
abbrev main_v368 : Ref sig .tc := ⟨.hbm, 437, rfl⟩
abbrev main_v369 : Ref sig .tc := ⟨.hbm, 438, rfl⟩
abbrev main_c_56 : Ref sig .tc := ⟨.hbm, 439, rfl⟩
abbrev main_v370 : Ref sig .tc := ⟨.hbm, 440, rfl⟩
abbrev main_v371 : Ref sig .tc := ⟨.hbm, 441, rfl⟩
abbrev main_c_57 : Ref sig .tc := ⟨.hbm, 442, rfl⟩
abbrev main_v372 : Ref sig .tc := ⟨.hbm, 443, rfl⟩
abbrev main_v373 : Ref sig .tc := ⟨.hbm, 444, rfl⟩
abbrev main_v374 : Ref sig .tc := ⟨.hbm, 445, rfl⟩
abbrev main_v375 : Ref sig .tc := ⟨.hbm, 446, rfl⟩
abbrev main_v376 : Ref sig .tc := ⟨.hbm, 447, rfl⟩
abbrev main_v377 : Ref sig .tc := ⟨.hbm, 448, rfl⟩
abbrev main_v378 : Ref sig .tc := ⟨.hbm, 449, rfl⟩
abbrev main_cst_58 : Ref sig .tc := ⟨.hbm, 450, rfl⟩
abbrev main_v379 : Ref sig .tc := ⟨.hbm, 451, rfl⟩
abbrev main_v380 : Ref sig .tc := ⟨.hbm, 452, rfl⟩
abbrev main_v381 : Ref sig .tc := ⟨.hbm, 453, rfl⟩
abbrev main_v382 : Ref sig .tc := ⟨.hbm, 454, rfl⟩
abbrev main_v383 : Ref sig .tc := ⟨.hbm, 455, rfl⟩
abbrev main_v384 : Ref sig .tc := ⟨.hbm, 456, rfl⟩
abbrev main_v385 : Ref sig .tc := ⟨.hbm, 457, rfl⟩
abbrev main_v386 : Ref sig .tc := ⟨.hbm, 458, rfl⟩
abbrev main_v387 : Ref sig .tc := ⟨.hbm, 459, rfl⟩
abbrev main_v388 : Ref sig .tc := ⟨.hbm, 460, rfl⟩
abbrev main_v389 : Ref sig .tc := ⟨.hbm, 461, rfl⟩
abbrev main_v390 : Ref sig .tc := ⟨.hbm, 462, rfl⟩
abbrev main_v391 : Ref sig .tc := ⟨.hbm, 463, rfl⟩
abbrev main_v392 : Ref sig .tc := ⟨.hbm, 464, rfl⟩
abbrev main_v393 : Ref sig .tc := ⟨.hbm, 465, rfl⟩
abbrev main_v394 : Ref sig .tc := ⟨.hbm, 466, rfl⟩
abbrev main_cst_59 : Ref sig .tc := ⟨.hbm, 467, rfl⟩
abbrev main_v395 : Ref sig .tc := ⟨.hbm, 468, rfl⟩
abbrev main_v396 : Ref sig .tc := ⟨.hbm, 469, rfl⟩
abbrev main_v397 : Ref sig .tc := ⟨.hbm, 470, rfl⟩
abbrev main_c_60 : Ref sig .tc := ⟨.hbm, 471, rfl⟩
abbrev main_v398 : Ref sig .tc := ⟨.hbm, 472, rfl⟩
abbrev main_v399 : Ref sig .tc := ⟨.hbm, 473, rfl⟩
abbrev main_c_61 : Ref sig .tc := ⟨.hbm, 474, rfl⟩
abbrev main_v400 : Ref sig .tc := ⟨.hbm, 475, rfl⟩
abbrev main_v401 : Ref sig .tc := ⟨.hbm, 476, rfl⟩
abbrev main_v402 : Ref sig .tc := ⟨.hbm, 477, rfl⟩
abbrev main_v403 : Ref sig .tc := ⟨.hbm, 478, rfl⟩
abbrev main_v404 : Ref sig .tc := ⟨.hbm, 479, rfl⟩
abbrev main_v405 : Ref sig .tc := ⟨.hbm, 480, rfl⟩
abbrev main_v406 : Ref sig .tc := ⟨.hbm, 481, rfl⟩
abbrev main_cst_62 : Ref sig .tc := ⟨.hbm, 482, rfl⟩
abbrev main_v407 : Ref sig .tc := ⟨.hbm, 483, rfl⟩
abbrev main_v408 : Ref sig .tc := ⟨.hbm, 484, rfl⟩
abbrev main_v409 : Ref sig .tc := ⟨.hbm, 485, rfl⟩
abbrev main_v410 : Ref sig .tc := ⟨.hbm, 486, rfl⟩
abbrev main_v411 : Ref sig .tc := ⟨.hbm, 487, rfl⟩
abbrev main_v412 : Ref sig .tc := ⟨.hbm, 488, rfl⟩
abbrev main_c_63 : Ref sig .tc := ⟨.hbm, 489, rfl⟩
abbrev main_v413 : Ref sig .tc := ⟨.hbm, 490, rfl⟩
abbrev main_v414 : Ref sig .tc := ⟨.hbm, 491, rfl⟩
abbrev main_c_64 : Ref sig .tc := ⟨.hbm, 492, rfl⟩
abbrev main_v415 : Ref sig .tc := ⟨.hbm, 493, rfl⟩
abbrev main_v416 : Ref sig .tc := ⟨.hbm, 494, rfl⟩
abbrev main_v417 : Ref sig .tc := ⟨.hbm, 495, rfl⟩
abbrev main_v418 : Ref sig .tc := ⟨.hbm, 496, rfl⟩
abbrev main_v419 : Ref sig .tc := ⟨.hbm, 497, rfl⟩
abbrev main_v420 : Ref sig .tc := ⟨.hbm, 498, rfl⟩
abbrev main_v421 : Ref sig .tc := ⟨.hbm, 499, rfl⟩
abbrev main_cst_65 : Ref sig .tc := ⟨.hbm, 500, rfl⟩
abbrev main_v422 : Ref sig .tc := ⟨.hbm, 501, rfl⟩
abbrev main_v423 : Ref sig .tc := ⟨.hbm, 502, rfl⟩
abbrev main_v424 : Ref sig .tc := ⟨.hbm, 503, rfl⟩
abbrev main_v425 : Ref sig .tc := ⟨.hbm, 504, rfl⟩
abbrev main_v426 : Ref sig .tc := ⟨.hbm, 505, rfl⟩
abbrev main_v427 : Ref sig .tc := ⟨.hbm, 506, rfl⟩
abbrev main_c_66 : Ref sig .tc := ⟨.hbm, 507, rfl⟩
abbrev main_v428 : Ref sig .tc := ⟨.hbm, 508, rfl⟩
abbrev main_v429 : Ref sig .tc := ⟨.hbm, 509, rfl⟩
abbrev main_c_67 : Ref sig .tc := ⟨.hbm, 510, rfl⟩
abbrev main_v430 : Ref sig .tc := ⟨.hbm, 511, rfl⟩
abbrev main_v431 : Ref sig .tc := ⟨.hbm, 512, rfl⟩
abbrev main_v432 : Ref sig .tc := ⟨.hbm, 513, rfl⟩
abbrev main_v433 : Ref sig .tc := ⟨.hbm, 514, rfl⟩
abbrev main_v434 : Ref sig .tc := ⟨.hbm, 515, rfl⟩
abbrev main_v435 : Ref sig .tc := ⟨.hbm, 516, rfl⟩
abbrev main_v436 : Ref sig .tc := ⟨.hbm, 517, rfl⟩
abbrev main_cst_68 : Ref sig .tc := ⟨.hbm, 518, rfl⟩
abbrev main_v437 : Ref sig .tc := ⟨.hbm, 519, rfl⟩
abbrev main_v438 : Ref sig .tc := ⟨.hbm, 520, rfl⟩
abbrev main_v439 : Ref sig .tc := ⟨.hbm, 521, rfl⟩
abbrev main_v440 : Ref sig .tc := ⟨.hbm, 522, rfl⟩
abbrev main_v441 : Ref sig .tc := ⟨.hbm, 523, rfl⟩
abbrev main_v442 : Ref sig .tc := ⟨.hbm, 524, rfl⟩
abbrev main_c_69 : Ref sig .tc := ⟨.hbm, 525, rfl⟩
abbrev main_v443 : Ref sig .tc := ⟨.hbm, 526, rfl⟩
abbrev main_v444 : Ref sig .tc := ⟨.hbm, 527, rfl⟩
abbrev main_c_70 : Ref sig .tc := ⟨.hbm, 528, rfl⟩
abbrev main_v445 : Ref sig .tc := ⟨.hbm, 529, rfl⟩
abbrev main_v446 : Ref sig .tc := ⟨.hbm, 530, rfl⟩
abbrev main_v447 : Ref sig .tc := ⟨.hbm, 531, rfl⟩
abbrev main_v448 : Ref sig .tc := ⟨.hbm, 532, rfl⟩
abbrev main_v449 : Ref sig .tc := ⟨.hbm, 533, rfl⟩
abbrev main_v450 : Ref sig .tc := ⟨.hbm, 534, rfl⟩
abbrev main_v451 : Ref sig .tc := ⟨.hbm, 535, rfl⟩
abbrev main_cst_71 : Ref sig .tc := ⟨.hbm, 536, rfl⟩
abbrev main_v452 : Ref sig .tc := ⟨.hbm, 537, rfl⟩
abbrev main_v453 : Ref sig .tc := ⟨.hbm, 538, rfl⟩
abbrev main_v454 : Ref sig .tc := ⟨.hbm, 539, rfl⟩
abbrev main_v455 : Ref sig .tc := ⟨.hbm, 540, rfl⟩
abbrev main_cst_72 : Ref sig .tc := ⟨.hbm, 541, rfl⟩
abbrev main_v456 : Ref sig .tc := ⟨.hbm, 542, rfl⟩
abbrev main_v457 : Ref sig .tc := ⟨.hbm, 543, rfl⟩
abbrev main_cst_73 : Ref sig .tc := ⟨.hbm, 544, rfl⟩
abbrev main_v458 : Ref sig .tc := ⟨.hbm, 545, rfl⟩
abbrev main_v459 : Ref sig .tc := ⟨.hbm, 546, rfl⟩
abbrev main_v460 : Ref sig .tc := ⟨.hbm, 547, rfl⟩
abbrev main_v461 : Ref sig .tc := ⟨.hbm, 548, rfl⟩
abbrev main_v462 : Ref sig .tc := ⟨.hbm, 549, rfl⟩
abbrev main_v463 : Ref sig .tc := ⟨.hbm, 550, rfl⟩
abbrev main_v464 : Ref sig .tc := ⟨.hbm, 551, rfl⟩
abbrev main_cst_74 : Ref sig .tc := ⟨.hbm, 552, rfl⟩
abbrev main_v465 : Ref sig .tc := ⟨.hbm, 553, rfl⟩
abbrev main_v466 : Ref sig .tc := ⟨.hbm, 554, rfl⟩
abbrev main_cst_75 : Ref sig .tc := ⟨.hbm, 555, rfl⟩
abbrev main_v467 : Ref sig .tc := ⟨.hbm, 556, rfl⟩
abbrev main_v468 : Ref sig .tc := ⟨.hbm, 557, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc1_stg0_0 : Ref sig .tc := ⟨.vmem, 6, rfl⟩
abbrev cc1_stg0_1 : Ref sig .tc := ⟨.vmem, 7, rfl⟩
abbrev cc1_stg1_0 : Ref sig .tc := ⟨.vmem, 8, rfl⟩
abbrev cc1_stg2_0 : Ref sig .tc := ⟨.vmem, 9, rfl⟩
abbrev cc1_stg3_0 : Ref sig .tc := ⟨.vmem, 10, rfl⟩
abbrev cc1_stg3_1 : Ref sig .tc := ⟨.vmem, 11, rfl⟩
abbrev cc2_stg0_0 : Ref sig .tc := ⟨.vmem, 12, rfl⟩
abbrev cc2_stg0_1 : Ref sig .tc := ⟨.vmem, 13, rfl⟩
abbrev cc2_stg1_0 : Ref sig .tc := ⟨.vmem, 14, rfl⟩
abbrev cc2_stg2_0 : Ref sig .tc := ⟨.vmem, 15, rfl⟩
abbrev cc2_stg3_0 : Ref sig .tc := ⟨.vmem, 16, rfl⟩
abbrev cc2_stg3_1 : Ref sig .tc := ⟨.vmem, 17, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc1_sem0_0 : DmaSem sig := 6
abbrev cc1_sem0_1 : DmaSem sig := 7
abbrev cc1_sem1_0 : DmaSem sig := 8
abbrev cc1_sem2_0 : DmaSem sig := 9
abbrev cc1_sem3_0 : DmaSem sig := 10
abbrev cc1_sem3_1 : DmaSem sig := 11
abbrev cc2_sem0_0 : DmaSem sig := 12
abbrev cc2_sem0_1 : DmaSem sig := 13
abbrev cc2_sem1_0 : DmaSem sig := 14
abbrev cc2_sem2_0 : DmaSem sig := 15
abbrev cc2_sem3_0 : DmaSem sig := 16
abbrev cc2_sem3_1 : DmaSem sig := 17

abbrev nD : Nat := 1
abbrev τ : Topo := Topo.v7x

variable {F : FTy → Type} [FloatOps F]

abbrev grid0 : Pipeline.Grid := ⟨1, ![10], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S4x5000x128 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S4x128x128 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S4x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S5000x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev grid1 : Pipeline.Grid := ⟨1, ![10], ![false]⟩

def cc1_transform_0 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc1_transform_1 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S4x5000x128 .bf16 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S4x128x128 .bf16 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 1 → Memref sig .tc .vmem S4x128 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 2 → Memref sig .tc .vmem S5000x128 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true]

abbrev grid2 : Pipeline.Grid := ⟨1, ![10], ![false]⟩

def cc2_transform_0 (i : grid2.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc2_transform_1 (i : grid2.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc2_transform_2 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_3 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S4x5000x128 .bf16 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 1 → Memref sig .tc .vmem S4x128x128 .bf16 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 1 → Memref sig .tc .vmem S4x128 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false]

abbrev stage2_3 : Fin 2 → Memref sig .tc .vmem S5000x128 .f32 := fun | 0 => Memref.whole cc2_stg3_0 | 1 => Memref.whole cc2_stg3_1 | ⟨_ + 2, h⟩ => absurd h (Nat.not_lt.2 (Nat.le_add_left _ _))
abbrev sem2_3 : Fin 2 → DmaSem sig := fun | 0 => cc2_sem3_0 | 1 => cc2_sem3_1 | ⟨_ + 2, h⟩ => absurd h (Nat.not_lt.2 (Nat.le_add_left _ _))
abbrev reads2_3 : Fin grid2.rank → Bool := ![true]

class Facts₀ : Prop where
  bcast_S_S800000 : S_.BroadcastsInDim S800000 (![] : Fin 0 → Fin S800000.rank)
  slices_S4x800000_S1x800000_0_0 : S4x800000.Slices ![0, 0] S1x800000
  shapeCasts_S1x800000_S800000 : S1x800000.ShapeCasts S800000
  bcast_S_S50000 : S_.BroadcastsInDim S50000 (![] : Fin 0 → Fin S50000.rank)
  bcast_S800000_S800000x1_0 : S800000.BroadcastsInDim S800000x1 (![0] : Fin 1 → Fin S800000x1.rank)
  slices_S4x800000_S1x800000_1_0 : S4x800000.Slices ![1, 0] S1x800000
  slices_S4x800000_S1x800000_2_0 : S4x800000.Slices ![2, 0] S1x800000
  slices_S4x800000_S1x800000_3_0 : S4x800000.Slices ![3, 0] S1x800000
  bcast_S50000_S1x50000_1 : S50000.BroadcastsInDim S1x50000 (![1] : Fin 1 → Fin S1x50000.rank)
  concatenates_S1x50000_S1x50000_S1x50000_S1x50000_S4x50000_d0 : Shape.Concatenates [S1x50000, S1x50000, S1x50000, S1x50000] S4x50000 0
  slices_S4x50000_S1x50000_0_0 : S4x50000.Slices ![0, 0] S1x50000
  shapeCasts_S1x50000_S50000 : S1x50000.ShapeCasts S50000
  bcast_S50000_S50000x1_0 : S50000.BroadcastsInDim S50000x1 (![0] : Fin 1 → Fin S50000x1.rank)
  bcast_S50000x1_S50000x128_0_1 : S50000x1.BroadcastsInDim S50000x128 (![0, 1] : Fin 2 → Fin S50000x128.rank)
  bcast_S_S50000x128 : S_.BroadcastsInDim S50000x128 (![] : Fin 0 → Fin S50000x128.rank)
  slices_S4x50000_S1x50000_1_0 : S4x50000.Slices ![1, 0] S1x50000
  slices_S4x50000_S1x50000_2_0 : S4x50000.Slices ![2, 0] S1x50000
  slices_S4x50000_S1x50000_3_0 : S4x50000.Slices ![3, 0] S1x50000
  bcast_S50000x128_S1x50000x128_1_2 : S50000x128.BroadcastsInDim S1x50000x128 (![1, 2] : Fin 2 → Fin S1x50000x128.rank)
  concatenates_S1x50000x128_S1x50000x128_S1x50000x128_S1x50000x128_S4x50000x128_d0 : Shape.Concatenates [S1x50000x128, S1x50000x128, S1x50000x128, S1x50000x128] S4x50000x128 0
  bitsLt_bf16_f32 : FTy.bits .bf16 < FTy.bits .f32
  inb_S4x5000x128_S1x5000x128_0_0_0 : ∀ a, (![0, 0, 0] : Fin 3 → Nat) a + S1x5000x128.size a ≤ S4x5000x128.size a
  h_S1x5000x128 : 0 < S1x5000x128.numel
  shapeCasts_S1x5000x128_S5000x128 : S1x5000x128.ShapeCasts S5000x128
  inb_S4x128x128_S1x128x128_0_0_0 : ∀ a, (![0, 0, 0] : Fin 3 → Nat) a + S1x128x128.size a ≤ S4x128x128.size a
  h_S1x128x128 : 0 < S1x128x128.numel
  shapeCasts_S1x128x128_S128x128 : S1x128x128.ShapeCasts S128x128
  inb_S4x128_S1x128_0_0 : ∀ a, (![0, 0] : Fin 2 → Nat) a + S1x128.size a ≤ S4x128.size a
  h_S1x128 : 0 < S1x128.numel
  shapeCasts_S1x128_S128 : S1x128.ShapeCasts S128
  shapeCasts_S128_S1x128 : S128.ShapeCasts S1x128
  broadcasts_S1x128_S5000x128 : S1x128.Broadcasts S5000x128
  inb_S4x5000x128_S1x5000x128_1_0_0 : ∀ a, (![1, 0, 0] : Fin 3 → Nat) a + S1x5000x128.size a ≤ S4x5000x128.size a
  inb_S4x128x128_S1x128x128_1_0_0 : ∀ a, (![1, 0, 0] : Fin 3 → Nat) a + S1x128x128.size a ≤ S4x128x128.size a
  inb_S4x128_S1x128_1_0 : ∀ a, (![1, 0] : Fin 2 → Nat) a + S1x128.size a ≤ S4x128.size a
  inb_S4x5000x128_S1x5000x128_2_0_0 : ∀ a, (![2, 0, 0] : Fin 3 → Nat) a + S1x5000x128.size a ≤ S4x5000x128.size a
  inb_S4x128x128_S1x128x128_2_0_0 : ∀ a, (![2, 0, 0] : Fin 3 → Nat) a + S1x128x128.size a ≤ S4x128x128.size a
  inb_S4x128_S1x128_2_0 : ∀ a, (![2, 0] : Fin 2 → Nat) a + S1x128.size a ≤ S4x128.size a
  inb_S4x5000x128_S1x5000x128_3_0_0 : ∀ a, (![3, 0, 0] : Fin 3 → Nat) a + S1x5000x128.size a ≤ S4x5000x128.size a
  inb_S4x128x128_S1x128x128_3_0_0 : ∀ a, (![3, 0, 0] : Fin 3 → Nat) a + S1x128x128.size a ≤ S4x128x128.size a
  inb_S4x128_S1x128_3_0 : ∀ a, (![3, 0] : Fin 2 → Nat) a + S1x128.size a ≤ S4x128.size a
  reduces_S5000x128_S5000 : S5000x128.Reduces [1] S5000
  shapeCasts_S5000_S5000x1 : S5000.ShapeCasts S5000x1
  broadcasts_S5000x1_S5000x128 : S5000x1.Broadcasts S5000x128
  inb_S5000x128_S5000x128_0_0 : ∀ a, (![0, 0] : Fin 2 → Nat) a + S5000x128.size a ≤ S5000x128.size a
  h_S5000x128 : 0 < S5000x128.numel
  reducesTo_S50000x128_S128_d0 : S50000x128.ReducesTo [0] S128
  h_S_ : 0 < S_.numel
  bcast_S128_S1x128_1 : S128.BroadcastsInDim S1x128 (![1] : Fin 1 → Fin S1x128.rank)
  bcast_S_S1x128 : S_.BroadcastsInDim S1x128 (![] : Fin 0 → Fin S1x128.rank)
  bcast_S16_S1x16_1 : S16.BroadcastsInDim S1x16 (![1] : Fin 1 → Fin S1x16.rank)
  bcast_S_S1x16 : S_.BroadcastsInDim S1x16 (![] : Fin 0 → Fin S1x16.rank)
  scatter_S50000_S800000x1_S800000_n_0_0_1_wf : ScatterDims.WF S50000 S800000x1 S800000 [] [0] [0] 1
  gather_S50000x128_S800000x1_S800000x128_1_0_n_n_0_1_1128_wf : GatherDims.WF S50000x128 S800000x1 S800000x128 [1] [0] [] [0] [] 1 ![1, 128]
  scatter_S50000x128_S800000x1_S800000x128_1_0_0_1_wf : ScatterDims.WF S50000x128 S800000x1 S800000x128 [1] [0] [0] 1
  dot_S5000x128_S128x128_S5000x128_1_0_0_1_n_n_wf : DotDims.WF S5000x128 S128x128 S5000x128 [1] [0] [0] [1] [] []
  dot_S1x128_S128x16_S1x16_1_0_0_1_n_n_wf : DotDims.WF S1x128 S128x16 S1x16 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S4x5000x128.size a ≤ S4x50000x128.size a
  hwx0_0 : ∀ i : grid0.Coords, EltTy.bits .bf16 = 32 ∨ (Rect.block (s := S4x50000x128) S4x5000x128.size (cc0_transform_0 i) (hinb0_0 i)).WholeWords (EltTy.packing .bf16)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S4x128x128.size a ≤ S4x128x128.size a
  hwx0_1 : ∀ i : grid0.Coords, EltTy.bits .bf16 = 32 ∨ (Rect.block (s := S4x128x128) S4x128x128.size (cc0_transform_1 i) (hinb0_1 i)).WholeWords (EltTy.packing .bf16)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S4x128.size a ≤ S4x128.size a
  hwx0_2 : ∀ i : grid0.Coords, EltTy.bits .f32 = 32 ∨ (Rect.block (s := S4x128) S4x128.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S5000x128.size a ≤ S50000x128.size a
  hwx0_3 : ∀ i : grid0.Coords, EltTy.bits .f32 = 32 ∨ (Rect.block (s := S50000x128) S5000x128.size (cc0_transform_3 i) (hinb0_3 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S4x5000x128.size a ≤ S4x50000x128.size a
  hwx1_0 : ∀ i : grid1.Coords, EltTy.bits .bf16 = 32 ∨ (Rect.block (s := S4x50000x128) S4x5000x128.size (cc1_transform_0 i) (hinb1_0 i)).WholeWords (EltTy.packing .bf16)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S4x128x128.size a ≤ S4x128x128.size a
  hwx1_1 : ∀ i : grid1.Coords, EltTy.bits .bf16 = 32 ∨ (Rect.block (s := S4x128x128) S4x128x128.size (cc1_transform_1 i) (hinb1_1 i)).WholeWords (EltTy.packing .bf16)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S4x128.size a ≤ S4x128.size a
  hwx1_2 : ∀ i : grid1.Coords, EltTy.bits .f32 = 32 ∨ (Rect.block (s := S4x128) S4x128.size (cc1_transform_2 i) (hinb1_2 i)).WholeWords (EltTy.packing .f32)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S5000x128.size a ≤ S50000x128.size a
  hwx1_3 : ∀ i : grid1.Coords, EltTy.bits .f32 = 32 ∨ (Rect.block (s := S50000x128) S5000x128.size (cc1_transform_3 i) (hinb1_3 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S4x5000x128.size a ≤ S4x50000x128.size a
  hwx2_0 : ∀ i : grid2.Coords, EltTy.bits .bf16 = 32 ∨ (Rect.block (s := S4x50000x128) S4x5000x128.size (cc2_transform_0 i) (hinb2_0 i)).WholeWords (EltTy.packing .bf16)
  hstage2_1 : ∀ j, (stage2_1 j).IsWhole
  nbuf2_1 : grid2.bufCount reads2_1 true = 1
  hreads2_1 : ∀ i i' : grid2.Coords, (∀ a, reads2_1 a = true → i a = i' a) → cc2_transform_1 i = cc2_transform_1 i'
  hinb2_1 : ∀ (i : grid2.Coords) a, (cc2_transform_1 i a + 1) * S4x128x128.size a ≤ S4x128x128.size a
  hwx2_1 : ∀ i : grid2.Coords, EltTy.bits .bf16 = 32 ∨ (Rect.block (s := S4x128x128) S4x128x128.size (cc2_transform_1 i) (hinb2_1 i)).WholeWords (EltTy.packing .bf16)
  hstage2_2 : ∀ j, (stage2_2 j).IsWhole
  nbuf2_2 : grid2.bufCount reads2_2 true = 1
  hreads2_2 : ∀ i i' : grid2.Coords, (∀ a, reads2_2 a = true → i a = i' a) → cc2_transform_2 i = cc2_transform_2 i'
  hinb2_2 : ∀ (i : grid2.Coords) a, (cc2_transform_2 i a + 1) * S4x128.size a ≤ S4x128.size a
  hwx2_2 : ∀ i : grid2.Coords, EltTy.bits .f32 = 32 ∨ (Rect.block (s := S4x128) S4x128.size (cc2_transform_2 i) (hinb2_2 i)).WholeWords (EltTy.packing .f32)
  hstage2_3 : ∀ j, (stage2_3 j).IsWhole
  nbuf2_3 : grid2.bufCount reads2_3 false = 2
  hreads2_3 : ∀ i i' : grid2.Coords, (∀ a, reads2_3 a = true → i a = i' a) → cc2_transform_3 i = cc2_transform_3 i'
  hinb2_3 : ∀ (i : grid2.Coords) a, (cc2_transform_3 i a + 1) * S5000x128.size a ≤ S50000x128.size a
  hwx2_3 : ∀ i : grid2.Coords, EltTy.bits .f32 = 32 ∨ (Rect.block (s := S50000x128) S5000x128.size (cc2_transform_3 i) (hinb2_3 i)).WholeWords (EltTy.packing .f32)

variable [Facts₀]

def scatter_S50000_S800000x1_S800000_n_0_0_1 : ScatterDims S50000 S800000x1 S800000 where
  updateWindowDims := []
  insertedWindowDims := [0]
  scatterDimsToOperandDims := [0]
  indexVectorDim := 1
  wf := scatter_S50000_S800000x1_S800000_n_0_0_1_wf
def gather_S50000x128_S800000x1_S800000x128_1_0_n_n_0_1_1128 : GatherDims S50000x128 S800000x1 S800000x128 where
  offsetDims := [1]
  collapsedSliceDims := [0]
  operandBatchingDims := []
  startIndicesBatchingDims := []
  startIndexMap := [0]
  indexVectorDim := 1
  sliceSizes := ![1, 128]
  wf := gather_S50000x128_S800000x1_S800000x128_1_0_n_n_0_1_1128_wf
def scatter_S50000x128_S800000x1_S800000x128_1_0_0_1 : ScatterDims S50000x128 S800000x1 S800000x128 where
  updateWindowDims := [1]
  insertedWindowDims := [0]
  scatterDimsToOperandDims := [0]
  indexVectorDim := 1
  wf := scatter_S50000x128_S800000x1_S800000x128_1_0_0_1_wf
def dot_S5000x128_S128x128_S5000x128_1_0_0_1_n_n : DotDims S5000x128 S128x128 S5000x128 where
  lhsContracting := [1]
  rhsContracting := [0]
  lhsNonContracting := [0]
  rhsNonContracting := [1]
  lhsBatch := []
  rhsBatch := []
  wf := dot_S5000x128_S128x128_S5000x128_1_0_0_1_n_n_wf
def dot_S1x128_S128x16_S1x16_1_0_0_1_n_n : DotDims S1x128 S128x16 S1x16 where
  lhsContracting := [1]
  rhsContracting := [0]
  lhsNonContracting := [0]
  rhsNonContracting := [1]
  lhsBatch := []
  rhsBatch := []
  wf := dot_S1x128_S128x16_S1x16_1_0_0_1_n_n_wf

abbrev win0_0 : Pipeline.Window sig grid0 :=
  Pipeline.Window.ofSpec (Memref.whole main_v184) S4x5000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v185) S4x128x128.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_arg4) S4x128.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v186) S5000x128.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

abbrev win1_0 : Pipeline.Window sig grid1 :=
  Pipeline.Window.ofSpec (Memref.whole main_v288) S4x5000x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v289) S4x128x128.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_arg6) S4x128.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v290) S5000x128.size cc1_transform_3 reads1_3 true false 2 stage1_3 sem1_3
    hrank1 hreads1_3 hinb1_3 nbuf1_3 (Memref.isWhole_whole _) hwx1_3 hstage1_3

abbrev win1 : Fin 4 → Pipeline.Window sig grid1 := fun | 0 => win1_0 | 1 => win1_1 | 2 => win1_2 | 3 => win1_3 | ⟨_ + 4, h⟩ => absurd h (Nat.not_lt.2 (Nat.le_add_left _ _))
abbrev spec1 : Fin 4 → Pipeline.WinSpec sig grid1.rank := fun w => (win1 w).toWinSpec

abbrev win2_0 : Pipeline.Window sig grid2 :=
  Pipeline.Window.ofSpec (Memref.whole main_v392) S4x5000x128.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v393) S4x128x128.size cc2_transform_1 reads2_1 false true 1 stage2_1 sem2_1
    hrank2 hreads2_1 hinb2_1 nbuf2_1 (Memref.isWhole_whole _) hwx2_1 hstage2_1

abbrev win2_2 : Pipeline.Window sig grid2 :=
  Pipeline.Window.ofSpec (Memref.whole main_arg8) S4x128.size cc2_transform_2 reads2_2 false true 1 stage2_2 sem2_2
    hrank2 hreads2_2 hinb2_2 nbuf2_2 (Memref.isWhole_whole _) hwx2_2 hstage2_2

abbrev win2_3 : Pipeline.Window sig grid2 :=
  Pipeline.Window.ofSpec (Memref.whole main_v394) S5000x128.size cc2_transform_3 reads2_3 true false 2 stage2_3 sem2_3
    hrank2 hreads2_3 hinb2_3 nbuf2_3 (Memref.isWhole_whole _) hwx2_3 hstage2_3

abbrev win2 : Fin 4 → Pipeline.Window sig grid2 := fun | 0 => win2_0 | 1 => win2_1 | 2 => win2_2 | 3 => win2_3 | ⟨_ + 4, h⟩ => absurd h (Nat.not_lt.2 (Nat.le_add_left _ _))
abbrev spec2 : Fin 4 → Pipeline.WinSpec sig grid2.rank := fun w => (win2 w).toWinSpec

class Facts : Prop extends Facts₀ where

variable [Facts]
-- ==== ReferenceIdeal.lean ====
abbrev S50000x128 : Shape := ⟨2, ![50000, 128]⟩
abbrev S4x800000 : Shape := ⟨2, ![4, 800000]⟩
abbrev S4x128x128 : Shape := ⟨3, ![4, 128, 128]⟩
abbrev S4x128 : Shape := ⟨2, ![4, 128]⟩
abbrev S128x16 : Shape := ⟨2, ![128, 16]⟩
abbrev S16 : Shape := ⟨1, ![16]⟩
abbrev S1x800000 : Shape := ⟨2, ![1, 800000]⟩
abbrev S800000 : Shape := ⟨1, ![800000]⟩
abbrev S1x128x128 : Shape := ⟨3, ![1, 128, 128]⟩
abbrev S128x128 : Shape := ⟨2, ![128, 128]⟩
abbrev S1x128 : Shape := ⟨2, ![1, 128]⟩
abbrev S128 : Shape := ⟨1, ![128]⟩
abbrev S_ : Shape := ⟨0, ![]⟩
abbrev S50000 : Shape := ⟨1, ![50000]⟩
abbrev S800000x1 : Shape := ⟨2, ![800000, 1]⟩
abbrev S50000x1 : Shape := ⟨2, ![50000, 1]⟩
abbrev S800000x128 : Shape := ⟨2, ![800000, 128]⟩
abbrev S1x16 : Shape := ⟨2, ![1, 16]⟩

abbrev nBuf : Space → Nat
  | .hbm => 780
  | .vmem => 0
  | .smem => 0
  | _ => 0

abbrev hbmTy0_0 (i : Nat) : BufTy := match i % 128 with
  | 0 => ⟨S50000x128, .f32⟩
  | 1 => ⟨S4x800000, .i32⟩
  | 2 => ⟨S4x800000, .i32⟩
  | 3 => ⟨S4x128x128, .f32⟩
  | 4 => ⟨S4x128, .f32⟩
  | 5 => ⟨S4x128x128, .f32⟩
  | 6 => ⟨S4x128, .f32⟩
  | 7 => ⟨S4x128x128, .f32⟩
  | 8 => ⟨S4x128, .f32⟩
  | 9 => ⟨S128x16, .f32⟩
  | 10 => ⟨S16, .f32⟩
  | 11 => ⟨S1x800000, .i32⟩
  | 12 => ⟨S800000, .i32⟩
  | 13 => ⟨S1x800000, .i32⟩
  | 14 => ⟨S800000, .i32⟩
  | 15 => ⟨S1x128x128, .f32⟩
  | 16 => ⟨S128x128, .f32⟩
  | 17 => ⟨S1x128, .f32⟩
  | 18 => ⟨S128, .f32⟩
  | 19 => ⟨S_, .f32⟩
  | 20 => ⟨S800000, .f32⟩
  | 21 => ⟨S_, .f32⟩
  | 22 => ⟨S50000, .f32⟩
  | 23 => ⟨S800000x1, .i32⟩
  | 24 => ⟨S50000, .f32⟩
  | 25 => ⟨S_, .f32⟩
  | 26 => ⟨S50000, .f32⟩
  | 27 => ⟨S50000, .f32⟩
  | 28 => ⟨S_, .f32⟩
  | 29 => ⟨S50000, .f32⟩
  | 30 => ⟨S800000x1, .i32⟩
  | 31 => ⟨S50000, .f32⟩
  | 32 => ⟨S_, .f32⟩
  | 33 => ⟨S50000, .f32⟩
  | 34 => ⟨S50000, .f32⟩
  | 35 => ⟨S_, .f32⟩
  | 36 => ⟨S50000, .f32⟩
  | 37 => ⟨S50000, .f32⟩
  | 38 => ⟨S50000x1, .f32⟩
  | 39 => ⟨S50000x128, .f32⟩
  | 40 => ⟨S50000x128, .f32⟩
  | 41 => ⟨S_, .i32⟩
  | 42 => ⟨S800000, .i32⟩
  | 43 => ⟨S800000, .i1⟩
  | 44 => ⟨S_, .i32⟩
  | 45 => ⟨S800000, .i32⟩
  | 46 => ⟨S800000, .i32⟩
  | 47 => ⟨S800000, .i32⟩
  | 48 => ⟨S800000x1, .i32⟩
  | 49 => ⟨S800000x128, .f32⟩
  | 50 => ⟨S_, .f32⟩
  | 51 => ⟨S50000x128, .f32⟩
  | 52 => ⟨S800000x1, .i32⟩
  | 53 => ⟨S50000x128, .f32⟩
  | 54 => ⟨S_, .f32⟩
  | 55 => ⟨S50000, .f32⟩
  | 56 => ⟨S50000, .f32⟩
  | 57 => ⟨S50000x1, .f32⟩
  | 58 => ⟨S50000x128, .f32⟩
  | 59 => ⟨S50000x128, .f32⟩
  | 60 => ⟨S50000x128, .f32⟩
  | 61 => ⟨S1x128, .f32⟩
  | 62 => ⟨S50000x128, .f32⟩
  | 63 => ⟨S50000x128, .f32⟩
  | 64 => ⟨S1x800000, .i32⟩
  | 65 => ⟨S800000, .i32⟩
  | 66 => ⟨S1x800000, .i32⟩
  | 67 => ⟨S800000, .i32⟩
  | 68 => ⟨S1x128x128, .f32⟩
  | 69 => ⟨S128x128, .f32⟩
  | 70 => ⟨S1x128, .f32⟩
  | 71 => ⟨S128, .f32⟩
  | 72 => ⟨S_, .f32⟩
  | 73 => ⟨S800000, .f32⟩
  | 74 => ⟨S_, .f32⟩
  | 75 => ⟨S50000, .f32⟩
  | 76 => ⟨S800000x1, .i32⟩
  | 77 => ⟨S50000, .f32⟩
  | 78 => ⟨S_, .f32⟩
  | 79 => ⟨S50000, .f32⟩
  | 80 => ⟨S50000, .f32⟩
  | 81 => ⟨S_, .f32⟩
  | 82 => ⟨S50000, .f32⟩
  | 83 => ⟨S800000x1, .i32⟩
  | 84 => ⟨S50000, .f32⟩
  | 85 => ⟨S_, .f32⟩
  | 86 => ⟨S50000, .f32⟩
  | 87 => ⟨S50000, .f32⟩
  | 88 => ⟨S_, .f32⟩
  | 89 => ⟨S50000, .f32⟩
  | 90 => ⟨S50000, .f32⟩
  | 91 => ⟨S50000x1, .f32⟩
  | 92 => ⟨S50000x128, .f32⟩
  | 93 => ⟨S50000x128, .f32⟩
  | 94 => ⟨S_, .i32⟩
  | 95 => ⟨S800000, .i32⟩
  | 96 => ⟨S800000, .i1⟩
  | 97 => ⟨S_, .i32⟩
  | 98 => ⟨S800000, .i32⟩
  | 99 => ⟨S800000, .i32⟩
  | 100 => ⟨S800000, .i32⟩
  | 101 => ⟨S800000x1, .i32⟩
  | 102 => ⟨S800000x128, .f32⟩
  | 103 => ⟨S_, .f32⟩
  | 104 => ⟨S50000x128, .f32⟩
  | 105 => ⟨S800000x1, .i32⟩
  | 106 => ⟨S50000x128, .f32⟩
  | 107 => ⟨S_, .f32⟩
  | 108 => ⟨S50000, .f32⟩
  | 109 => ⟨S50000, .f32⟩
  | 110 => ⟨S50000x1, .f32⟩
  | 111 => ⟨S50000x128, .f32⟩
  | 112 => ⟨S50000x128, .f32⟩
  | 113 => ⟨S50000x128, .f32⟩
  | 114 => ⟨S1x128, .f32⟩
  | 115 => ⟨S50000x128, .f32⟩
  | 116 => ⟨S50000x128, .f32⟩
  | 117 => ⟨S50000x128, .f32⟩
  | 118 => ⟨S1x800000, .i32⟩
  | 119 => ⟨S800000, .i32⟩
  | 120 => ⟨S1x800000, .i32⟩
  | 121 => ⟨S800000, .i32⟩
  | 122 => ⟨S1x128x128, .f32⟩
  | 123 => ⟨S128x128, .f32⟩
  | 124 => ⟨S1x128, .f32⟩
  | 125 => ⟨S128, .f32⟩
  | 126 => ⟨S_, .f32⟩
  | 127 => ⟨S800000, .f32⟩
  | _ => ⟨S50000x128, .f32⟩

abbrev hbmTy0_1 (i : Nat) : BufTy := match i % 128 with
  | 0 => ⟨S_, .f32⟩
  | 1 => ⟨S50000, .f32⟩
  | 2 => ⟨S800000x1, .i32⟩
  | 3 => ⟨S50000, .f32⟩
  | 4 => ⟨S_, .f32⟩
  | 5 => ⟨S50000, .f32⟩
  | 6 => ⟨S50000, .f32⟩
  | 7 => ⟨S_, .f32⟩
  | 8 => ⟨S50000, .f32⟩
  | 9 => ⟨S800000x1, .i32⟩
  | 10 => ⟨S50000, .f32⟩
  | 11 => ⟨S_, .f32⟩
  | 12 => ⟨S50000, .f32⟩
  | 13 => ⟨S50000, .f32⟩
  | 14 => ⟨S_, .f32⟩
  | 15 => ⟨S50000, .f32⟩
  | 16 => ⟨S50000, .f32⟩
  | 17 => ⟨S50000x1, .f32⟩
  | 18 => ⟨S50000x128, .f32⟩
  | 19 => ⟨S50000x128, .f32⟩
  | 20 => ⟨S_, .i32⟩
  | 21 => ⟨S800000, .i32⟩
  | 22 => ⟨S800000, .i1⟩
  | 23 => ⟨S_, .i32⟩
  | 24 => ⟨S800000, .i32⟩
  | 25 => ⟨S800000, .i32⟩
  | 26 => ⟨S800000, .i32⟩
  | 27 => ⟨S800000x1, .i32⟩
  | 28 => ⟨S800000x128, .f32⟩
  | 29 => ⟨S_, .f32⟩
  | 30 => ⟨S50000x128, .f32⟩
  | 31 => ⟨S800000x1, .i32⟩
  | 32 => ⟨S50000x128, .f32⟩
  | 33 => ⟨S_, .f32⟩
  | 34 => ⟨S50000, .f32⟩
  | 35 => ⟨S50000, .f32⟩
  | 36 => ⟨S50000x1, .f32⟩
  | 37 => ⟨S50000x128, .f32⟩
  | 38 => ⟨S50000x128, .f32⟩
  | 39 => ⟨S50000x128, .f32⟩
  | 40 => ⟨S1x128, .f32⟩
  | 41 => ⟨S50000x128, .f32⟩
  | 42 => ⟨S50000x128, .f32⟩
  | 43 => ⟨S50000x128, .f32⟩
  | 44 => ⟨S1x800000, .i32⟩
  | 45 => ⟨S800000, .i32⟩
  | 46 => ⟨S1x800000, .i32⟩
  | 47 => ⟨S800000, .i32⟩
  | 48 => ⟨S1x128x128, .f32⟩
  | 49 => ⟨S128x128, .f32⟩
  | 50 => ⟨S1x128, .f32⟩
  | 51 => ⟨S128, .f32⟩
  | 52 => ⟨S_, .f32⟩
  | 53 => ⟨S800000, .f32⟩
  | 54 => ⟨S_, .f32⟩
  | 55 => ⟨S50000, .f32⟩
  | 56 => ⟨S800000x1, .i32⟩
  | 57 => ⟨S50000, .f32⟩
  | 58 => ⟨S_, .f32⟩
  | 59 => ⟨S50000, .f32⟩
  | 60 => ⟨S50000, .f32⟩
  | 61 => ⟨S_, .f32⟩
  | 62 => ⟨S50000, .f32⟩
  | 63 => ⟨S800000x1, .i32⟩
  | 64 => ⟨S50000, .f32⟩
  | 65 => ⟨S_, .f32⟩
  | 66 => ⟨S50000, .f32⟩
  | 67 => ⟨S50000, .f32⟩
  | 68 => ⟨S_, .f32⟩
  | 69 => ⟨S50000, .f32⟩
  | 70 => ⟨S50000, .f32⟩
  | 71 => ⟨S50000x1, .f32⟩
  | 72 => ⟨S50000x128, .f32⟩
  | 73 => ⟨S50000x128, .f32⟩
  | 74 => ⟨S_, .i32⟩
  | 75 => ⟨S800000, .i32⟩
  | 76 => ⟨S800000, .i1⟩
  | 77 => ⟨S_, .i32⟩
  | 78 => ⟨S800000, .i32⟩
  | 79 => ⟨S800000, .i32⟩
  | 80 => ⟨S800000, .i32⟩
  | 81 => ⟨S800000x1, .i32⟩
  | 82 => ⟨S800000x128, .f32⟩
  | 83 => ⟨S_, .f32⟩
  | 84 => ⟨S50000x128, .f32⟩
  | 85 => ⟨S800000x1, .i32⟩
  | 86 => ⟨S50000x128, .f32⟩
  | 87 => ⟨S_, .f32⟩
  | 88 => ⟨S50000, .f32⟩
  | 89 => ⟨S50000, .f32⟩
  | 90 => ⟨S50000x1, .f32⟩
  | 91 => ⟨S50000x128, .f32⟩
  | 92 => ⟨S50000x128, .f32⟩
  | 93 => ⟨S50000x128, .f32⟩
  | 94 => ⟨S1x128, .f32⟩
  | 95 => ⟨S50000x128, .f32⟩
  | 96 => ⟨S50000x128, .f32⟩
  | 97 => ⟨S50000x128, .f32⟩
  | 98 => ⟨S50000x128, .f32⟩
  | 99 => ⟨S_, .f32⟩
  | 100 => ⟨S50000, .f32⟩
  | 101 => ⟨S50000x1, .f32⟩
  | 102 => ⟨S50000x1, .f32⟩
  | 103 => ⟨S_, .f32⟩
  | 104 => ⟨S50000x1, .f32⟩
  | 105 => ⟨S50000x1, .f32⟩
  | 106 => ⟨S50000x128, .f32⟩
  | 107 => ⟨S50000x128, .f32⟩
  | 108 => ⟨S_, .f32⟩
  | 109 => ⟨S_, .f32⟩
  | 110 => ⟨S50000x128, .f32⟩
  | 111 => ⟨S50000x128, .i1⟩
  | 112 => ⟨S_, .f32⟩
  | 113 => ⟨S50000x128, .f32⟩
  | 114 => ⟨S50000x128, .f32⟩
  | 115 => ⟨S50000x128, .f32⟩
  | 116 => ⟨S1x800000, .i32⟩
  | 117 => ⟨S800000, .i32⟩
  | 118 => ⟨S1x800000, .i32⟩
  | 119 => ⟨S800000, .i32⟩
  | 120 => ⟨S1x128x128, .f32⟩
  | 121 => ⟨S128x128, .f32⟩
  | 122 => ⟨S1x128, .f32⟩
  | 123 => ⟨S128, .f32⟩
  | 124 => ⟨S_, .f32⟩
  | 125 => ⟨S800000, .f32⟩
  | 126 => ⟨S_, .f32⟩
  | 127 => ⟨S50000, .f32⟩
  | _ => ⟨S50000x128, .f32⟩

abbrev hbmTy0_2 (i : Nat) : BufTy := match i % 128 with
  | 0 => ⟨S800000x1, .i32⟩
  | 1 => ⟨S50000, .f32⟩
  | 2 => ⟨S_, .f32⟩
  | 3 => ⟨S50000, .f32⟩
  | 4 => ⟨S50000, .f32⟩
  | 5 => ⟨S_, .f32⟩
  | 6 => ⟨S50000, .f32⟩
  | 7 => ⟨S800000x1, .i32⟩
  | 8 => ⟨S50000, .f32⟩
  | 9 => ⟨S_, .f32⟩
  | 10 => ⟨S50000, .f32⟩
  | 11 => ⟨S50000, .f32⟩
  | 12 => ⟨S_, .f32⟩
  | 13 => ⟨S50000, .f32⟩
  | 14 => ⟨S50000, .f32⟩
  | 15 => ⟨S50000x1, .f32⟩
  | 16 => ⟨S50000x128, .f32⟩
  | 17 => ⟨S50000x128, .f32⟩
  | 18 => ⟨S_, .i32⟩
  | 19 => ⟨S800000, .i32⟩
  | 20 => ⟨S800000, .i1⟩
  | 21 => ⟨S_, .i32⟩
  | 22 => ⟨S800000, .i32⟩
  | 23 => ⟨S800000, .i32⟩
  | 24 => ⟨S800000, .i32⟩
  | 25 => ⟨S800000x1, .i32⟩
  | 26 => ⟨S800000x128, .f32⟩
  | 27 => ⟨S_, .f32⟩
  | 28 => ⟨S50000x128, .f32⟩
  | 29 => ⟨S800000x1, .i32⟩
  | 30 => ⟨S50000x128, .f32⟩
  | 31 => ⟨S_, .f32⟩
  | 32 => ⟨S50000, .f32⟩
  | 33 => ⟨S50000, .f32⟩
  | 34 => ⟨S50000x1, .f32⟩
  | 35 => ⟨S50000x128, .f32⟩
  | 36 => ⟨S50000x128, .f32⟩
  | 37 => ⟨S50000x128, .f32⟩
  | 38 => ⟨S1x128, .f32⟩
  | 39 => ⟨S50000x128, .f32⟩
  | 40 => ⟨S50000x128, .f32⟩
  | 41 => ⟨S1x800000, .i32⟩
  | 42 => ⟨S800000, .i32⟩
  | 43 => ⟨S1x800000, .i32⟩
  | 44 => ⟨S800000, .i32⟩
  | 45 => ⟨S1x128x128, .f32⟩
  | 46 => ⟨S128x128, .f32⟩
  | 47 => ⟨S1x128, .f32⟩
  | 48 => ⟨S128, .f32⟩
  | 49 => ⟨S_, .f32⟩
  | 50 => ⟨S800000, .f32⟩
  | 51 => ⟨S_, .f32⟩
  | 52 => ⟨S50000, .f32⟩
  | 53 => ⟨S800000x1, .i32⟩
  | 54 => ⟨S50000, .f32⟩
  | 55 => ⟨S_, .f32⟩
  | 56 => ⟨S50000, .f32⟩
  | 57 => ⟨S50000, .f32⟩
  | 58 => ⟨S_, .f32⟩
  | 59 => ⟨S50000, .f32⟩
  | 60 => ⟨S800000x1, .i32⟩
  | 61 => ⟨S50000, .f32⟩
  | 62 => ⟨S_, .f32⟩
  | 63 => ⟨S50000, .f32⟩
  | 64 => ⟨S50000, .f32⟩
  | 65 => ⟨S_, .f32⟩
  | 66 => ⟨S50000, .f32⟩
  | 67 => ⟨S50000, .f32⟩
  | 68 => ⟨S50000x1, .f32⟩
  | 69 => ⟨S50000x128, .f32⟩
  | 70 => ⟨S50000x128, .f32⟩
  | 71 => ⟨S_, .i32⟩
  | 72 => ⟨S800000, .i32⟩
  | 73 => ⟨S800000, .i1⟩
  | 74 => ⟨S_, .i32⟩
  | 75 => ⟨S800000, .i32⟩
  | 76 => ⟨S800000, .i32⟩
  | 77 => ⟨S800000, .i32⟩
  | 78 => ⟨S800000x1, .i32⟩
  | 79 => ⟨S800000x128, .f32⟩
  | 80 => ⟨S_, .f32⟩
  | 81 => ⟨S50000x128, .f32⟩
  | 82 => ⟨S800000x1, .i32⟩
  | 83 => ⟨S50000x128, .f32⟩
  | 84 => ⟨S_, .f32⟩
  | 85 => ⟨S50000, .f32⟩
  | 86 => ⟨S50000, .f32⟩
  | 87 => ⟨S50000x1, .f32⟩
  | 88 => ⟨S50000x128, .f32⟩
  | 89 => ⟨S50000x128, .f32⟩
  | 90 => ⟨S50000x128, .f32⟩
  | 91 => ⟨S1x128, .f32⟩
  | 92 => ⟨S50000x128, .f32⟩
  | 93 => ⟨S50000x128, .f32⟩
  | 94 => ⟨S50000x128, .f32⟩
  | 95 => ⟨S1x800000, .i32⟩
  | 96 => ⟨S800000, .i32⟩
  | 97 => ⟨S1x800000, .i32⟩
  | 98 => ⟨S800000, .i32⟩
  | 99 => ⟨S1x128x128, .f32⟩
  | 100 => ⟨S128x128, .f32⟩
  | 101 => ⟨S1x128, .f32⟩
  | 102 => ⟨S128, .f32⟩
  | 103 => ⟨S_, .f32⟩
  | 104 => ⟨S800000, .f32⟩
  | 105 => ⟨S_, .f32⟩
  | 106 => ⟨S50000, .f32⟩
  | 107 => ⟨S800000x1, .i32⟩
  | 108 => ⟨S50000, .f32⟩
  | 109 => ⟨S_, .f32⟩
  | 110 => ⟨S50000, .f32⟩
  | 111 => ⟨S50000, .f32⟩
  | 112 => ⟨S_, .f32⟩
  | 113 => ⟨S50000, .f32⟩
  | 114 => ⟨S800000x1, .i32⟩
  | 115 => ⟨S50000, .f32⟩
  | 116 => ⟨S_, .f32⟩
  | 117 => ⟨S50000, .f32⟩
  | 118 => ⟨S50000, .f32⟩
  | 119 => ⟨S_, .f32⟩
  | 120 => ⟨S50000, .f32⟩
  | 121 => ⟨S50000, .f32⟩
  | 122 => ⟨S50000x1, .f32⟩
  | 123 => ⟨S50000x128, .f32⟩
  | 124 => ⟨S50000x128, .f32⟩
  | 125 => ⟨S_, .i32⟩
  | 126 => ⟨S800000, .i32⟩
  | 127 => ⟨S800000, .i1⟩
  | _ => ⟨S50000x128, .f32⟩

abbrev hbmTy0_3 (i : Nat) : BufTy := match i % 128 with
  | 0 => ⟨S_, .i32⟩
  | 1 => ⟨S800000, .i32⟩
  | 2 => ⟨S800000, .i32⟩
  | 3 => ⟨S800000, .i32⟩
  | 4 => ⟨S800000x1, .i32⟩
  | 5 => ⟨S800000x128, .f32⟩
  | 6 => ⟨S_, .f32⟩
  | 7 => ⟨S50000x128, .f32⟩
  | 8 => ⟨S800000x1, .i32⟩
  | 9 => ⟨S50000x128, .f32⟩
  | 10 => ⟨S_, .f32⟩
  | 11 => ⟨S50000, .f32⟩
  | 12 => ⟨S50000, .f32⟩
  | 13 => ⟨S50000x1, .f32⟩
  | 14 => ⟨S50000x128, .f32⟩
  | 15 => ⟨S50000x128, .f32⟩
  | 16 => ⟨S50000x128, .f32⟩
  | 17 => ⟨S1x128, .f32⟩
  | 18 => ⟨S50000x128, .f32⟩
  | 19 => ⟨S50000x128, .f32⟩
  | 20 => ⟨S50000x128, .f32⟩
  | 21 => ⟨S1x800000, .i32⟩
  | 22 => ⟨S800000, .i32⟩
  | 23 => ⟨S1x800000, .i32⟩
  | 24 => ⟨S800000, .i32⟩
  | 25 => ⟨S1x128x128, .f32⟩
  | 26 => ⟨S128x128, .f32⟩
  | 27 => ⟨S1x128, .f32⟩
  | 28 => ⟨S128, .f32⟩
  | 29 => ⟨S_, .f32⟩
  | 30 => ⟨S800000, .f32⟩
  | 31 => ⟨S_, .f32⟩
  | 32 => ⟨S50000, .f32⟩
  | 33 => ⟨S800000x1, .i32⟩
  | 34 => ⟨S50000, .f32⟩
  | 35 => ⟨S_, .f32⟩
  | 36 => ⟨S50000, .f32⟩
  | 37 => ⟨S50000, .f32⟩
  | 38 => ⟨S_, .f32⟩
  | 39 => ⟨S50000, .f32⟩
  | 40 => ⟨S800000x1, .i32⟩
  | 41 => ⟨S50000, .f32⟩
  | 42 => ⟨S_, .f32⟩
  | 43 => ⟨S50000, .f32⟩
  | 44 => ⟨S50000, .f32⟩
  | 45 => ⟨S_, .f32⟩
  | 46 => ⟨S50000, .f32⟩
  | 47 => ⟨S50000, .f32⟩
  | 48 => ⟨S50000x1, .f32⟩
  | 49 => ⟨S50000x128, .f32⟩
  | 50 => ⟨S50000x128, .f32⟩
  | 51 => ⟨S_, .i32⟩
  | 52 => ⟨S800000, .i32⟩
  | 53 => ⟨S800000, .i1⟩
  | 54 => ⟨S_, .i32⟩
  | 55 => ⟨S800000, .i32⟩
  | 56 => ⟨S800000, .i32⟩
  | 57 => ⟨S800000, .i32⟩
  | 58 => ⟨S800000x1, .i32⟩
  | 59 => ⟨S800000x128, .f32⟩
  | 60 => ⟨S_, .f32⟩
  | 61 => ⟨S50000x128, .f32⟩
  | 62 => ⟨S800000x1, .i32⟩
  | 63 => ⟨S50000x128, .f32⟩
  | 64 => ⟨S_, .f32⟩
  | 65 => ⟨S50000, .f32⟩
  | 66 => ⟨S50000, .f32⟩
  | 67 => ⟨S50000x1, .f32⟩
  | 68 => ⟨S50000x128, .f32⟩
  | 69 => ⟨S50000x128, .f32⟩
  | 70 => ⟨S50000x128, .f32⟩
  | 71 => ⟨S1x128, .f32⟩
  | 72 => ⟨S50000x128, .f32⟩
  | 73 => ⟨S50000x128, .f32⟩
  | 74 => ⟨S50000x128, .f32⟩
  | 75 => ⟨S50000x128, .f32⟩
  | 76 => ⟨S_, .f32⟩
  | 77 => ⟨S50000, .f32⟩
  | 78 => ⟨S50000x1, .f32⟩
  | 79 => ⟨S50000x1, .f32⟩
  | 80 => ⟨S_, .f32⟩
  | 81 => ⟨S50000x1, .f32⟩
  | 82 => ⟨S50000x1, .f32⟩
  | 83 => ⟨S50000x128, .f32⟩
  | 84 => ⟨S50000x128, .f32⟩
  | 85 => ⟨S_, .f32⟩
  | 86 => ⟨S_, .f32⟩
  | 87 => ⟨S50000x128, .f32⟩
  | 88 => ⟨S50000x128, .i1⟩
  | 89 => ⟨S_, .f32⟩
  | 90 => ⟨S50000x128, .f32⟩
  | 91 => ⟨S50000x128, .f32⟩
  | 92 => ⟨S50000x128, .f32⟩
  | 93 => ⟨S1x800000, .i32⟩
  | 94 => ⟨S800000, .i32⟩
  | 95 => ⟨S1x800000, .i32⟩
  | 96 => ⟨S800000, .i32⟩
  | 97 => ⟨S1x128x128, .f32⟩
  | 98 => ⟨S128x128, .f32⟩
  | 99 => ⟨S1x128, .f32⟩
  | 100 => ⟨S128, .f32⟩
  | 101 => ⟨S_, .f32⟩
  | 102 => ⟨S800000, .f32⟩
  | 103 => ⟨S_, .f32⟩
  | 104 => ⟨S50000, .f32⟩
  | 105 => ⟨S800000x1, .i32⟩
  | 106 => ⟨S50000, .f32⟩
  | 107 => ⟨S_, .f32⟩
  | 108 => ⟨S50000, .f32⟩
  | 109 => ⟨S50000, .f32⟩
  | 110 => ⟨S_, .f32⟩
  | 111 => ⟨S50000, .f32⟩
  | 112 => ⟨S800000x1, .i32⟩
  | 113 => ⟨S50000, .f32⟩
  | 114 => ⟨S_, .f32⟩
  | 115 => ⟨S50000, .f32⟩
  | 116 => ⟨S50000, .f32⟩
  | 117 => ⟨S_, .f32⟩
  | 118 => ⟨S50000, .f32⟩
  | 119 => ⟨S50000, .f32⟩
  | 120 => ⟨S50000x1, .f32⟩
  | 121 => ⟨S50000x128, .f32⟩
  | 122 => ⟨S50000x128, .f32⟩
  | 123 => ⟨S_, .i32⟩
  | 124 => ⟨S800000, .i32⟩
  | 125 => ⟨S800000, .i1⟩
  | 126 => ⟨S_, .i32⟩
  | 127 => ⟨S800000, .i32⟩
  | _ => ⟨S50000x128, .f32⟩

abbrev hbmTy0_4 (i : Nat) : BufTy := match i % 128 with
  | 0 => ⟨S800000, .i32⟩
  | 1 => ⟨S800000, .i32⟩
  | 2 => ⟨S800000x1, .i32⟩
  | 3 => ⟨S800000x128, .f32⟩
  | 4 => ⟨S_, .f32⟩
  | 5 => ⟨S50000x128, .f32⟩
  | 6 => ⟨S800000x1, .i32⟩
  | 7 => ⟨S50000x128, .f32⟩
  | 8 => ⟨S_, .f32⟩
  | 9 => ⟨S50000, .f32⟩
  | 10 => ⟨S50000, .f32⟩
  | 11 => ⟨S50000x1, .f32⟩
  | 12 => ⟨S50000x128, .f32⟩
  | 13 => ⟨S50000x128, .f32⟩
  | 14 => ⟨S50000x128, .f32⟩
  | 15 => ⟨S1x128, .f32⟩
  | 16 => ⟨S50000x128, .f32⟩
  | 17 => ⟨S50000x128, .f32⟩
  | 18 => ⟨S1x800000, .i32⟩
  | 19 => ⟨S800000, .i32⟩
  | 20 => ⟨S1x800000, .i32⟩
  | 21 => ⟨S800000, .i32⟩
  | 22 => ⟨S1x128x128, .f32⟩
  | 23 => ⟨S128x128, .f32⟩
  | 24 => ⟨S1x128, .f32⟩
  | 25 => ⟨S128, .f32⟩
  | 26 => ⟨S_, .f32⟩
  | 27 => ⟨S800000, .f32⟩
  | 28 => ⟨S_, .f32⟩
  | 29 => ⟨S50000, .f32⟩
  | 30 => ⟨S800000x1, .i32⟩
  | 31 => ⟨S50000, .f32⟩
  | 32 => ⟨S_, .f32⟩
  | 33 => ⟨S50000, .f32⟩
  | 34 => ⟨S50000, .f32⟩
  | 35 => ⟨S_, .f32⟩
  | 36 => ⟨S50000, .f32⟩
  | 37 => ⟨S800000x1, .i32⟩
  | 38 => ⟨S50000, .f32⟩
  | 39 => ⟨S_, .f32⟩
  | 40 => ⟨S50000, .f32⟩
  | 41 => ⟨S50000, .f32⟩
  | 42 => ⟨S_, .f32⟩
  | 43 => ⟨S50000, .f32⟩
  | 44 => ⟨S50000, .f32⟩
  | 45 => ⟨S50000x1, .f32⟩
  | 46 => ⟨S50000x128, .f32⟩
  | 47 => ⟨S50000x128, .f32⟩
  | 48 => ⟨S_, .i32⟩
  | 49 => ⟨S800000, .i32⟩
  | 50 => ⟨S800000, .i1⟩
  | 51 => ⟨S_, .i32⟩
  | 52 => ⟨S800000, .i32⟩
  | 53 => ⟨S800000, .i32⟩
  | 54 => ⟨S800000, .i32⟩
  | 55 => ⟨S800000x1, .i32⟩
  | 56 => ⟨S800000x128, .f32⟩
  | 57 => ⟨S_, .f32⟩
  | 58 => ⟨S50000x128, .f32⟩
  | 59 => ⟨S800000x1, .i32⟩
  | 60 => ⟨S50000x128, .f32⟩
  | 61 => ⟨S_, .f32⟩
  | 62 => ⟨S50000, .f32⟩
  | 63 => ⟨S50000, .f32⟩
  | 64 => ⟨S50000x1, .f32⟩
  | 65 => ⟨S50000x128, .f32⟩
  | 66 => ⟨S50000x128, .f32⟩
  | 67 => ⟨S50000x128, .f32⟩
  | 68 => ⟨S1x128, .f32⟩
  | 69 => ⟨S50000x128, .f32⟩
  | 70 => ⟨S50000x128, .f32⟩
  | 71 => ⟨S50000x128, .f32⟩
  | 72 => ⟨S1x800000, .i32⟩
  | 73 => ⟨S800000, .i32⟩
  | 74 => ⟨S1x800000, .i32⟩
  | 75 => ⟨S800000, .i32⟩
  | 76 => ⟨S1x128x128, .f32⟩
  | 77 => ⟨S128x128, .f32⟩
  | 78 => ⟨S1x128, .f32⟩
  | 79 => ⟨S128, .f32⟩
  | 80 => ⟨S_, .f32⟩
  | 81 => ⟨S800000, .f32⟩
  | 82 => ⟨S_, .f32⟩
  | 83 => ⟨S50000, .f32⟩
  | 84 => ⟨S800000x1, .i32⟩
  | 85 => ⟨S50000, .f32⟩
  | 86 => ⟨S_, .f32⟩
  | 87 => ⟨S50000, .f32⟩
  | 88 => ⟨S50000, .f32⟩
  | 89 => ⟨S_, .f32⟩
  | 90 => ⟨S50000, .f32⟩
  | 91 => ⟨S800000x1, .i32⟩
  | 92 => ⟨S50000, .f32⟩
  | 93 => ⟨S_, .f32⟩
  | 94 => ⟨S50000, .f32⟩
  | 95 => ⟨S50000, .f32⟩
  | 96 => ⟨S_, .f32⟩
  | 97 => ⟨S50000, .f32⟩
  | 98 => ⟨S50000, .f32⟩
  | 99 => ⟨S50000x1, .f32⟩
  | 100 => ⟨S50000x128, .f32⟩
  | 101 => ⟨S50000x128, .f32⟩
  | 102 => ⟨S_, .i32⟩
  | 103 => ⟨S800000, .i32⟩
  | 104 => ⟨S800000, .i1⟩
  | 105 => ⟨S_, .i32⟩
  | 106 => ⟨S800000, .i32⟩
  | 107 => ⟨S800000, .i32⟩
  | 108 => ⟨S800000, .i32⟩
  | 109 => ⟨S800000x1, .i32⟩
  | 110 => ⟨S800000x128, .f32⟩
  | 111 => ⟨S_, .f32⟩
  | 112 => ⟨S50000x128, .f32⟩
  | 113 => ⟨S800000x1, .i32⟩
  | 114 => ⟨S50000x128, .f32⟩
  | 115 => ⟨S_, .f32⟩
  | 116 => ⟨S50000, .f32⟩
  | 117 => ⟨S50000, .f32⟩
  | 118 => ⟨S50000x1, .f32⟩
  | 119 => ⟨S50000x128, .f32⟩
  | 120 => ⟨S50000x128, .f32⟩
  | 121 => ⟨S50000x128, .f32⟩
  | 122 => ⟨S1x128, .f32⟩
  | 123 => ⟨S50000x128, .f32⟩
  | 124 => ⟨S50000x128, .f32⟩
  | 125 => ⟨S50000x128, .f32⟩
  | 126 => ⟨S1x800000, .i32⟩
  | 127 => ⟨S800000, .i32⟩
  | _ => ⟨S50000x128, .f32⟩

abbrev hbmTy0_5 (i : Nat) : BufTy := match i % 128 with
  | 0 => ⟨S1x800000, .i32⟩
  | 1 => ⟨S800000, .i32⟩
  | 2 => ⟨S1x128x128, .f32⟩
  | 3 => ⟨S128x128, .f32⟩
  | 4 => ⟨S1x128, .f32⟩
  | 5 => ⟨S128, .f32⟩
  | 6 => ⟨S_, .f32⟩
  | 7 => ⟨S800000, .f32⟩
  | 8 => ⟨S_, .f32⟩
  | 9 => ⟨S50000, .f32⟩
  | 10 => ⟨S800000x1, .i32⟩
  | 11 => ⟨S50000, .f32⟩
  | 12 => ⟨S_, .f32⟩
  | 13 => ⟨S50000, .f32⟩
  | 14 => ⟨S50000, .f32⟩
  | 15 => ⟨S_, .f32⟩
  | 16 => ⟨S50000, .f32⟩
  | 17 => ⟨S800000x1, .i32⟩
  | 18 => ⟨S50000, .f32⟩
  | 19 => ⟨S_, .f32⟩
  | 20 => ⟨S50000, .f32⟩
  | 21 => ⟨S50000, .f32⟩
  | 22 => ⟨S_, .f32⟩
  | 23 => ⟨S50000, .f32⟩
  | 24 => ⟨S50000, .f32⟩
  | 25 => ⟨S50000x1, .f32⟩
  | 26 => ⟨S50000x128, .f32⟩
  | 27 => ⟨S50000x128, .f32⟩
  | 28 => ⟨S_, .i32⟩
  | 29 => ⟨S800000, .i32⟩
  | 30 => ⟨S800000, .i1⟩
  | 31 => ⟨S_, .i32⟩
  | 32 => ⟨S800000, .i32⟩
  | 33 => ⟨S800000, .i32⟩
  | 34 => ⟨S800000, .i32⟩
  | 35 => ⟨S800000x1, .i32⟩
  | 36 => ⟨S800000x128, .f32⟩
  | 37 => ⟨S_, .f32⟩
  | 38 => ⟨S50000x128, .f32⟩
  | 39 => ⟨S800000x1, .i32⟩
  | 40 => ⟨S50000x128, .f32⟩
  | 41 => ⟨S_, .f32⟩
  | 42 => ⟨S50000, .f32⟩
  | 43 => ⟨S50000, .f32⟩
  | 44 => ⟨S50000x1, .f32⟩
  | 45 => ⟨S50000x128, .f32⟩
  | 46 => ⟨S50000x128, .f32⟩
  | 47 => ⟨S50000x128, .f32⟩
  | 48 => ⟨S1x128, .f32⟩
  | 49 => ⟨S50000x128, .f32⟩
  | 50 => ⟨S50000x128, .f32⟩
  | 51 => ⟨S50000x128, .f32⟩
  | 52 => ⟨S1x800000, .i32⟩
  | 53 => ⟨S800000, .i32⟩
  | 54 => ⟨S_, .i32⟩
  | 55 => ⟨S800000, .i32⟩
  | 56 => ⟨S800000, .i1⟩
  | 57 => ⟨S_, .i32⟩
  | 58 => ⟨S800000, .i32⟩
  | 59 => ⟨S800000, .i32⟩
  | 60 => ⟨S800000, .i32⟩
  | 61 => ⟨S800000x1, .i32⟩
  | 62 => ⟨S800000x128, .f32⟩
  | 63 => ⟨S1x800000, .i32⟩
  | 64 => ⟨S800000, .i32⟩
  | 65 => ⟨S_, .f32⟩
  | 66 => ⟨S50000x128, .f32⟩
  | 67 => ⟨S800000x1, .i32⟩
  | 68 => ⟨S50000x128, .f32⟩
  | 69 => ⟨S1x800000, .i32⟩
  | 70 => ⟨S800000, .i32⟩
  | 71 => ⟨S_, .i32⟩
  | 72 => ⟨S800000, .i32⟩
  | 73 => ⟨S800000, .i1⟩
  | 74 => ⟨S_, .i32⟩
  | 75 => ⟨S800000, .i32⟩
  | 76 => ⟨S800000, .i32⟩
  | 77 => ⟨S800000, .i32⟩
  | 78 => ⟨S800000x1, .i32⟩
  | 79 => ⟨S800000x128, .f32⟩
  | 80 => ⟨S1x800000, .i32⟩
  | 81 => ⟨S800000, .i32⟩
  | 82 => ⟨S_, .f32⟩
  | 83 => ⟨S50000x128, .f32⟩
  | 84 => ⟨S800000x1, .i32⟩
  | 85 => ⟨S50000x128, .f32⟩
  | 86 => ⟨S50000x128, .f32⟩
  | 87 => ⟨S1x800000, .i32⟩
  | 88 => ⟨S800000, .i32⟩
  | 89 => ⟨S_, .i32⟩
  | 90 => ⟨S800000, .i32⟩
  | 91 => ⟨S800000, .i1⟩
  | 92 => ⟨S_, .i32⟩
  | 93 => ⟨S800000, .i32⟩
  | 94 => ⟨S800000, .i32⟩
  | 95 => ⟨S800000, .i32⟩
  | 96 => ⟨S800000x1, .i32⟩
  | 97 => ⟨S800000x128, .f32⟩
  | 98 => ⟨S1x800000, .i32⟩
  | 99 => ⟨S800000, .i32⟩
  | 100 => ⟨S_, .f32⟩
  | 101 => ⟨S50000x128, .f32⟩
  | 102 => ⟨S800000x1, .i32⟩
  | 103 => ⟨S50000x128, .f32⟩
  | 104 => ⟨S50000x128, .f32⟩
  | 105 => ⟨S1x800000, .i32⟩
  | 106 => ⟨S800000, .i32⟩
  | 107 => ⟨S_, .i32⟩
  | 108 => ⟨S800000, .i32⟩
  | 109 => ⟨S800000, .i1⟩
  | 110 => ⟨S_, .i32⟩
  | 111 => ⟨S800000, .i32⟩
  | 112 => ⟨S800000, .i32⟩
  | 113 => ⟨S800000, .i32⟩
  | 114 => ⟨S800000x1, .i32⟩
  | 115 => ⟨S800000x128, .f32⟩
  | 116 => ⟨S1x800000, .i32⟩
  | 117 => ⟨S800000, .i32⟩
  | 118 => ⟨S_, .f32⟩
  | 119 => ⟨S50000x128, .f32⟩
  | 120 => ⟨S800000x1, .i32⟩
  | 121 => ⟨S50000x128, .f32⟩
  | 122 => ⟨S50000x128, .f32⟩
  | 123 => ⟨S_, .f32⟩
  | 124 => ⟨S128, .f32⟩
  | 125 => ⟨S1x128, .f32⟩
  | 126 => ⟨S_, .f32⟩
  | 127 => ⟨S1x128, .f32⟩
  | _ => ⟨S50000x128, .f32⟩

abbrev hbmTy0_6 (i : Nat) : BufTy := match i % 128 with
  | 0 => ⟨S1x128, .f32⟩
  | 1 => ⟨S1x16, .f32⟩
  | 2 => ⟨S1x16, .f32⟩
  | 3 => ⟨S1x16, .f32⟩
  | 4 => ⟨S1x16, .f32⟩
  | 5 => ⟨S1x16, .f32⟩
  | 6 => ⟨S_, .f32⟩
  | 7 => ⟨S1x16, .f32⟩
  | 8 => ⟨S1x16, .f32⟩
  | 9 => ⟨S_, .f32⟩
  | 10 => ⟨S1x16, .f32⟩
  | 11 => ⟨S1x16, .f32⟩
  | _ => ⟨S50000x128, .f32⟩

abbrev hbmTy (i : Nat) : BufTy := match i / 128 with
  | 0 => hbmTy0_0 i
  | 1 => hbmTy0_1 i
  | 2 => hbmTy0_2 i
  | 3 => hbmTy0_3 i
  | 4 => hbmTy0_4 i
  | 5 => hbmTy0_5 i
  | 6 => hbmTy0_6 i
  | _ => ⟨S50000x128, .f32⟩

abbrev bufTy : (tb : Table) → Fin (tcTables nBuf tb) → BufTy
  | .hbm, ⟨i, _⟩ => hbmTy i
  | _, _ => ⟨S50000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_v4 : Ref sig .tc := ⟨.hbm, 15, rfl⟩
abbrev main_v5 : Ref sig .tc := ⟨.hbm, 16, rfl⟩
abbrev main_v6 : Ref sig .tc := ⟨.hbm, 17, rfl⟩
abbrev main_v7 : Ref sig .tc := ⟨.hbm, 18, rfl⟩
abbrev main_cst : Ref sig .tc := ⟨.hbm, 19, rfl⟩
abbrev main_v8 : Ref sig .tc := ⟨.hbm, 20, rfl⟩
abbrev main_cst_0 : Ref sig .tc := ⟨.hbm, 21, rfl⟩
abbrev main_v9 : Ref sig .tc := ⟨.hbm, 22, rfl⟩
abbrev main_v10 : Ref sig .tc := ⟨.hbm, 23, rfl⟩
abbrev main_v11 : Ref sig .tc := ⟨.hbm, 24, rfl⟩
abbrev main_cst_1 : Ref sig .tc := ⟨.hbm, 25, rfl⟩
abbrev main_v12 : Ref sig .tc := ⟨.hbm, 26, rfl⟩
abbrev main_v13 : Ref sig .tc := ⟨.hbm, 27, rfl⟩
abbrev main_cst_2 : Ref sig .tc := ⟨.hbm, 28, rfl⟩
abbrev main_v14 : Ref sig .tc := ⟨.hbm, 29, rfl⟩
abbrev main_v15 : Ref sig .tc := ⟨.hbm, 30, rfl⟩
abbrev main_v16 : Ref sig .tc := ⟨.hbm, 31, rfl⟩
abbrev main_cst_3 : Ref sig .tc := ⟨.hbm, 32, rfl⟩
abbrev main_v17 : Ref sig .tc := ⟨.hbm, 33, rfl⟩
abbrev main_v18 : Ref sig .tc := ⟨.hbm, 34, rfl⟩
abbrev main_cst_4 : Ref sig .tc := ⟨.hbm, 35, rfl⟩
abbrev main_v19 : Ref sig .tc := ⟨.hbm, 36, rfl⟩
abbrev main_v20 : Ref sig .tc := ⟨.hbm, 37, rfl⟩
abbrev main_v21 : Ref sig .tc := ⟨.hbm, 38, rfl⟩
abbrev main_v22 : Ref sig .tc := ⟨.hbm, 39, rfl⟩
abbrev main_v23 : Ref sig .tc := ⟨.hbm, 40, rfl⟩
abbrev main_c : Ref sig .tc := ⟨.hbm, 41, rfl⟩
abbrev main_v24 : Ref sig .tc := ⟨.hbm, 42, rfl⟩
abbrev main_v25 : Ref sig .tc := ⟨.hbm, 43, rfl⟩
abbrev main_c_5 : Ref sig .tc := ⟨.hbm, 44, rfl⟩
abbrev main_v26 : Ref sig .tc := ⟨.hbm, 45, rfl⟩
abbrev main_v27 : Ref sig .tc := ⟨.hbm, 46, rfl⟩
abbrev main_v28 : Ref sig .tc := ⟨.hbm, 47, rfl⟩
abbrev main_v29 : Ref sig .tc := ⟨.hbm, 48, rfl⟩
abbrev main_v30 : Ref sig .tc := ⟨.hbm, 49, rfl⟩
abbrev main_cst_6 : Ref sig .tc := ⟨.hbm, 50, rfl⟩
abbrev main_v31 : Ref sig .tc := ⟨.hbm, 51, rfl⟩
abbrev main_v32 : Ref sig .tc := ⟨.hbm, 52, rfl⟩
abbrev main_v33 : Ref sig .tc := ⟨.hbm, 53, rfl⟩
abbrev main_cst_7 : Ref sig .tc := ⟨.hbm, 54, rfl⟩
abbrev main_v34 : Ref sig .tc := ⟨.hbm, 55, rfl⟩
abbrev main_v35 : Ref sig .tc := ⟨.hbm, 56, rfl⟩
abbrev main_v36 : Ref sig .tc := ⟨.hbm, 57, rfl⟩
abbrev main_v37 : Ref sig .tc := ⟨.hbm, 58, rfl⟩
abbrev main_v38 : Ref sig .tc := ⟨.hbm, 59, rfl⟩
abbrev main_v39 : Ref sig .tc := ⟨.hbm, 60, rfl⟩
abbrev main_v40 : Ref sig .tc := ⟨.hbm, 61, rfl⟩
abbrev main_v41 : Ref sig .tc := ⟨.hbm, 62, rfl⟩
abbrev main_v42 : Ref sig .tc := ⟨.hbm, 63, rfl⟩
abbrev main_v43 : Ref sig .tc := ⟨.hbm, 64, rfl⟩
abbrev main_v44 : Ref sig .tc := ⟨.hbm, 65, rfl⟩
abbrev main_v45 : Ref sig .tc := ⟨.hbm, 66, rfl⟩
abbrev main_v46 : Ref sig .tc := ⟨.hbm, 67, rfl⟩
abbrev main_v47 : Ref sig .tc := ⟨.hbm, 68, rfl⟩
abbrev main_v48 : Ref sig .tc := ⟨.hbm, 69, rfl⟩
abbrev main_v49 : Ref sig .tc := ⟨.hbm, 70, rfl⟩
abbrev main_v50 : Ref sig .tc := ⟨.hbm, 71, rfl⟩
abbrev main_cst_8 : Ref sig .tc := ⟨.hbm, 72, rfl⟩
abbrev main_v51 : Ref sig .tc := ⟨.hbm, 73, rfl⟩
abbrev main_cst_9 : Ref sig .tc := ⟨.hbm, 74, rfl⟩
abbrev main_v52 : Ref sig .tc := ⟨.hbm, 75, rfl⟩
abbrev main_v53 : Ref sig .tc := ⟨.hbm, 76, rfl⟩
abbrev main_v54 : Ref sig .tc := ⟨.hbm, 77, rfl⟩
abbrev main_cst_10 : Ref sig .tc := ⟨.hbm, 78, rfl⟩
abbrev main_v55 : Ref sig .tc := ⟨.hbm, 79, rfl⟩
abbrev main_v56 : Ref sig .tc := ⟨.hbm, 80, rfl⟩
abbrev main_cst_11 : Ref sig .tc := ⟨.hbm, 81, rfl⟩
abbrev main_v57 : Ref sig .tc := ⟨.hbm, 82, rfl⟩
abbrev main_v58 : Ref sig .tc := ⟨.hbm, 83, rfl⟩
abbrev main_v59 : Ref sig .tc := ⟨.hbm, 84, rfl⟩
abbrev main_cst_12 : Ref sig .tc := ⟨.hbm, 85, rfl⟩
abbrev main_v60 : Ref sig .tc := ⟨.hbm, 86, rfl⟩
abbrev main_v61 : Ref sig .tc := ⟨.hbm, 87, rfl⟩
abbrev main_cst_13 : Ref sig .tc := ⟨.hbm, 88, rfl⟩
abbrev main_v62 : Ref sig .tc := ⟨.hbm, 89, rfl⟩
abbrev main_v63 : Ref sig .tc := ⟨.hbm, 90, rfl⟩
abbrev main_v64 : Ref sig .tc := ⟨.hbm, 91, rfl⟩
abbrev main_v65 : Ref sig .tc := ⟨.hbm, 92, rfl⟩
abbrev main_v66 : Ref sig .tc := ⟨.hbm, 93, rfl⟩
abbrev main_c_14 : Ref sig .tc := ⟨.hbm, 94, rfl⟩
abbrev main_v67 : Ref sig .tc := ⟨.hbm, 95, rfl⟩
abbrev main_v68 : Ref sig .tc := ⟨.hbm, 96, rfl⟩
abbrev main_c_15 : Ref sig .tc := ⟨.hbm, 97, rfl⟩
abbrev main_v69 : Ref sig .tc := ⟨.hbm, 98, rfl⟩
abbrev main_v70 : Ref sig .tc := ⟨.hbm, 99, rfl⟩
abbrev main_v71 : Ref sig .tc := ⟨.hbm, 100, rfl⟩
abbrev main_v72 : Ref sig .tc := ⟨.hbm, 101, rfl⟩
abbrev main_v73 : Ref sig .tc := ⟨.hbm, 102, rfl⟩
abbrev main_cst_16 : Ref sig .tc := ⟨.hbm, 103, rfl⟩
abbrev main_v74 : Ref sig .tc := ⟨.hbm, 104, rfl⟩
abbrev main_v75 : Ref sig .tc := ⟨.hbm, 105, rfl⟩
abbrev main_v76 : Ref sig .tc := ⟨.hbm, 106, rfl⟩
abbrev main_cst_17 : Ref sig .tc := ⟨.hbm, 107, rfl⟩
abbrev main_v77 : Ref sig .tc := ⟨.hbm, 108, rfl⟩
abbrev main_v78 : Ref sig .tc := ⟨.hbm, 109, rfl⟩
abbrev main_v79 : Ref sig .tc := ⟨.hbm, 110, rfl⟩
abbrev main_v80 : Ref sig .tc := ⟨.hbm, 111, rfl⟩
abbrev main_v81 : Ref sig .tc := ⟨.hbm, 112, rfl⟩
abbrev main_v82 : Ref sig .tc := ⟨.hbm, 113, rfl⟩
abbrev main_v83 : Ref sig .tc := ⟨.hbm, 114, rfl⟩
abbrev main_v84 : Ref sig .tc := ⟨.hbm, 115, rfl⟩
abbrev main_v85 : Ref sig .tc := ⟨.hbm, 116, rfl⟩
abbrev main_v86 : Ref sig .tc := ⟨.hbm, 117, rfl⟩
abbrev main_v87 : Ref sig .tc := ⟨.hbm, 118, rfl⟩
abbrev main_v88 : Ref sig .tc := ⟨.hbm, 119, rfl⟩
abbrev main_v89 : Ref sig .tc := ⟨.hbm, 120, rfl⟩
abbrev main_v90 : Ref sig .tc := ⟨.hbm, 121, rfl⟩
abbrev main_v91 : Ref sig .tc := ⟨.hbm, 122, rfl⟩
abbrev main_v92 : Ref sig .tc := ⟨.hbm, 123, rfl⟩
abbrev main_v93 : Ref sig .tc := ⟨.hbm, 124, rfl⟩
abbrev main_v94 : Ref sig .tc := ⟨.hbm, 125, rfl⟩
abbrev main_cst_18 : Ref sig .tc := ⟨.hbm, 126, rfl⟩
abbrev main_v95 : Ref sig .tc := ⟨.hbm, 127, rfl⟩
abbrev main_cst_19 : Ref sig .tc := ⟨.hbm, 128, rfl⟩
abbrev main_v96 : Ref sig .tc := ⟨.hbm, 129, rfl⟩
abbrev main_v97 : Ref sig .tc := ⟨.hbm, 130, rfl⟩
abbrev main_v98 : Ref sig .tc := ⟨.hbm, 131, rfl⟩
abbrev main_cst_20 : Ref sig .tc := ⟨.hbm, 132, rfl⟩
abbrev main_v99 : Ref sig .tc := ⟨.hbm, 133, rfl⟩
abbrev main_v100 : Ref sig .tc := ⟨.hbm, 134, rfl⟩
abbrev main_cst_21 : Ref sig .tc := ⟨.hbm, 135, rfl⟩
abbrev main_v101 : Ref sig .tc := ⟨.hbm, 136, rfl⟩
abbrev main_v102 : Ref sig .tc := ⟨.hbm, 137, rfl⟩
abbrev main_v103 : Ref sig .tc := ⟨.hbm, 138, rfl⟩
abbrev main_cst_22 : Ref sig .tc := ⟨.hbm, 139, rfl⟩
abbrev main_v104 : Ref sig .tc := ⟨.hbm, 140, rfl⟩
abbrev main_v105 : Ref sig .tc := ⟨.hbm, 141, rfl⟩
abbrev main_cst_23 : Ref sig .tc := ⟨.hbm, 142, rfl⟩
abbrev main_v106 : Ref sig .tc := ⟨.hbm, 143, rfl⟩
abbrev main_v107 : Ref sig .tc := ⟨.hbm, 144, rfl⟩
abbrev main_v108 : Ref sig .tc := ⟨.hbm, 145, rfl⟩
abbrev main_v109 : Ref sig .tc := ⟨.hbm, 146, rfl⟩
abbrev main_v110 : Ref sig .tc := ⟨.hbm, 147, rfl⟩
abbrev main_c_24 : Ref sig .tc := ⟨.hbm, 148, rfl⟩
abbrev main_v111 : Ref sig .tc := ⟨.hbm, 149, rfl⟩
abbrev main_v112 : Ref sig .tc := ⟨.hbm, 150, rfl⟩
abbrev main_c_25 : Ref sig .tc := ⟨.hbm, 151, rfl⟩
abbrev main_v113 : Ref sig .tc := ⟨.hbm, 152, rfl⟩
abbrev main_v114 : Ref sig .tc := ⟨.hbm, 153, rfl⟩
abbrev main_v115 : Ref sig .tc := ⟨.hbm, 154, rfl⟩
abbrev main_v116 : Ref sig .tc := ⟨.hbm, 155, rfl⟩
abbrev main_v117 : Ref sig .tc := ⟨.hbm, 156, rfl⟩
abbrev main_cst_26 : Ref sig .tc := ⟨.hbm, 157, rfl⟩
abbrev main_v118 : Ref sig .tc := ⟨.hbm, 158, rfl⟩
abbrev main_v119 : Ref sig .tc := ⟨.hbm, 159, rfl⟩
abbrev main_v120 : Ref sig .tc := ⟨.hbm, 160, rfl⟩
abbrev main_cst_27 : Ref sig .tc := ⟨.hbm, 161, rfl⟩
abbrev main_v121 : Ref sig .tc := ⟨.hbm, 162, rfl⟩
abbrev main_v122 : Ref sig .tc := ⟨.hbm, 163, rfl⟩
abbrev main_v123 : Ref sig .tc := ⟨.hbm, 164, rfl⟩
abbrev main_v124 : Ref sig .tc := ⟨.hbm, 165, rfl⟩
abbrev main_v125 : Ref sig .tc := ⟨.hbm, 166, rfl⟩
abbrev main_v126 : Ref sig .tc := ⟨.hbm, 167, rfl⟩
abbrev main_v127 : Ref sig .tc := ⟨.hbm, 168, rfl⟩
abbrev main_v128 : Ref sig .tc := ⟨.hbm, 169, rfl⟩
abbrev main_v129 : Ref sig .tc := ⟨.hbm, 170, rfl⟩
abbrev main_v130 : Ref sig .tc := ⟨.hbm, 171, rfl⟩
abbrev main_v131 : Ref sig .tc := ⟨.hbm, 172, rfl⟩
abbrev main_v132 : Ref sig .tc := ⟨.hbm, 173, rfl⟩
abbrev main_v133 : Ref sig .tc := ⟨.hbm, 174, rfl⟩
abbrev main_v134 : Ref sig .tc := ⟨.hbm, 175, rfl⟩
abbrev main_v135 : Ref sig .tc := ⟨.hbm, 176, rfl⟩
abbrev main_v136 : Ref sig .tc := ⟨.hbm, 177, rfl⟩
abbrev main_v137 : Ref sig .tc := ⟨.hbm, 178, rfl⟩
abbrev main_v138 : Ref sig .tc := ⟨.hbm, 179, rfl⟩
abbrev main_cst_28 : Ref sig .tc := ⟨.hbm, 180, rfl⟩
abbrev main_v139 : Ref sig .tc := ⟨.hbm, 181, rfl⟩
abbrev main_cst_29 : Ref sig .tc := ⟨.hbm, 182, rfl⟩
abbrev main_v140 : Ref sig .tc := ⟨.hbm, 183, rfl⟩
abbrev main_v141 : Ref sig .tc := ⟨.hbm, 184, rfl⟩
abbrev main_v142 : Ref sig .tc := ⟨.hbm, 185, rfl⟩
abbrev main_cst_30 : Ref sig .tc := ⟨.hbm, 186, rfl⟩
abbrev main_v143 : Ref sig .tc := ⟨.hbm, 187, rfl⟩
abbrev main_v144 : Ref sig .tc := ⟨.hbm, 188, rfl⟩
abbrev main_cst_31 : Ref sig .tc := ⟨.hbm, 189, rfl⟩
abbrev main_v145 : Ref sig .tc := ⟨.hbm, 190, rfl⟩
abbrev main_v146 : Ref sig .tc := ⟨.hbm, 191, rfl⟩
abbrev main_v147 : Ref sig .tc := ⟨.hbm, 192, rfl⟩
abbrev main_cst_32 : Ref sig .tc := ⟨.hbm, 193, rfl⟩
abbrev main_v148 : Ref sig .tc := ⟨.hbm, 194, rfl⟩
abbrev main_v149 : Ref sig .tc := ⟨.hbm, 195, rfl⟩
abbrev main_cst_33 : Ref sig .tc := ⟨.hbm, 196, rfl⟩
abbrev main_v150 : Ref sig .tc := ⟨.hbm, 197, rfl⟩
abbrev main_v151 : Ref sig .tc := ⟨.hbm, 198, rfl⟩
abbrev main_v152 : Ref sig .tc := ⟨.hbm, 199, rfl⟩
abbrev main_v153 : Ref sig .tc := ⟨.hbm, 200, rfl⟩
abbrev main_v154 : Ref sig .tc := ⟨.hbm, 201, rfl⟩
abbrev main_c_34 : Ref sig .tc := ⟨.hbm, 202, rfl⟩
abbrev main_v155 : Ref sig .tc := ⟨.hbm, 203, rfl⟩
abbrev main_v156 : Ref sig .tc := ⟨.hbm, 204, rfl⟩
abbrev main_c_35 : Ref sig .tc := ⟨.hbm, 205, rfl⟩
abbrev main_v157 : Ref sig .tc := ⟨.hbm, 206, rfl⟩
abbrev main_v158 : Ref sig .tc := ⟨.hbm, 207, rfl⟩
abbrev main_v159 : Ref sig .tc := ⟨.hbm, 208, rfl⟩
abbrev main_v160 : Ref sig .tc := ⟨.hbm, 209, rfl⟩
abbrev main_v161 : Ref sig .tc := ⟨.hbm, 210, rfl⟩
abbrev main_cst_36 : Ref sig .tc := ⟨.hbm, 211, rfl⟩
abbrev main_v162 : Ref sig .tc := ⟨.hbm, 212, rfl⟩
abbrev main_v163 : Ref sig .tc := ⟨.hbm, 213, rfl⟩
abbrev main_v164 : Ref sig .tc := ⟨.hbm, 214, rfl⟩
abbrev main_cst_37 : Ref sig .tc := ⟨.hbm, 215, rfl⟩
abbrev main_v165 : Ref sig .tc := ⟨.hbm, 216, rfl⟩
abbrev main_v166 : Ref sig .tc := ⟨.hbm, 217, rfl⟩
abbrev main_v167 : Ref sig .tc := ⟨.hbm, 218, rfl⟩
abbrev main_v168 : Ref sig .tc := ⟨.hbm, 219, rfl⟩
abbrev main_v169 : Ref sig .tc := ⟨.hbm, 220, rfl⟩
abbrev main_v170 : Ref sig .tc := ⟨.hbm, 221, rfl⟩
abbrev main_v171 : Ref sig .tc := ⟨.hbm, 222, rfl⟩
abbrev main_v172 : Ref sig .tc := ⟨.hbm, 223, rfl⟩
abbrev main_v173 : Ref sig .tc := ⟨.hbm, 224, rfl⟩
abbrev main_v174 : Ref sig .tc := ⟨.hbm, 225, rfl⟩
abbrev main_v175 : Ref sig .tc := ⟨.hbm, 226, rfl⟩
abbrev main_cst_38 : Ref sig .tc := ⟨.hbm, 227, rfl⟩
abbrev main_v176 : Ref sig .tc := ⟨.hbm, 228, rfl⟩
abbrev main_v177 : Ref sig .tc := ⟨.hbm, 229, rfl⟩
abbrev main_v178 : Ref sig .tc := ⟨.hbm, 230, rfl⟩
abbrev main_cst_39 : Ref sig .tc := ⟨.hbm, 231, rfl⟩
abbrev main_v179 : Ref sig .tc := ⟨.hbm, 232, rfl⟩
abbrev main_v180 : Ref sig .tc := ⟨.hbm, 233, rfl⟩
abbrev main_v181 : Ref sig .tc := ⟨.hbm, 234, rfl⟩
abbrev main_v182 : Ref sig .tc := ⟨.hbm, 235, rfl⟩
abbrev main_cst_40 : Ref sig .tc := ⟨.hbm, 236, rfl⟩
abbrev main_call0_cst : Ref sig .tc := ⟨.hbm, 237, rfl⟩
abbrev main_call0_v0 : Ref sig .tc := ⟨.hbm, 238, rfl⟩
abbrev main_call0_v1 : Ref sig .tc := ⟨.hbm, 239, rfl⟩
abbrev main_call0_v2 : Ref sig .tc := ⟨.hbm, 240, rfl⟩
abbrev main_call0_v3 : Ref sig .tc := ⟨.hbm, 241, rfl⟩
abbrev main_call0_v4 : Ref sig .tc := ⟨.hbm, 242, rfl⟩
abbrev main_v183 : Ref sig .tc := ⟨.hbm, 243, rfl⟩
abbrev main_v184 : Ref sig .tc := ⟨.hbm, 244, rfl⟩
abbrev main_v185 : Ref sig .tc := ⟨.hbm, 245, rfl⟩
abbrev main_v186 : Ref sig .tc := ⟨.hbm, 246, rfl⟩
abbrev main_v187 : Ref sig .tc := ⟨.hbm, 247, rfl⟩
abbrev main_v188 : Ref sig .tc := ⟨.hbm, 248, rfl⟩
abbrev main_v189 : Ref sig .tc := ⟨.hbm, 249, rfl⟩
abbrev main_v190 : Ref sig .tc := ⟨.hbm, 250, rfl⟩
abbrev main_v191 : Ref sig .tc := ⟨.hbm, 251, rfl⟩
abbrev main_cst_41 : Ref sig .tc := ⟨.hbm, 252, rfl⟩
abbrev main_v192 : Ref sig .tc := ⟨.hbm, 253, rfl⟩
abbrev main_cst_42 : Ref sig .tc := ⟨.hbm, 254, rfl⟩
abbrev main_v193 : Ref sig .tc := ⟨.hbm, 255, rfl⟩
abbrev main_v194 : Ref sig .tc := ⟨.hbm, 256, rfl⟩
abbrev main_v195 : Ref sig .tc := ⟨.hbm, 257, rfl⟩
abbrev main_cst_43 : Ref sig .tc := ⟨.hbm, 258, rfl⟩
abbrev main_v196 : Ref sig .tc := ⟨.hbm, 259, rfl⟩
abbrev main_v197 : Ref sig .tc := ⟨.hbm, 260, rfl⟩
abbrev main_cst_44 : Ref sig .tc := ⟨.hbm, 261, rfl⟩
abbrev main_v198 : Ref sig .tc := ⟨.hbm, 262, rfl⟩
abbrev main_v199 : Ref sig .tc := ⟨.hbm, 263, rfl⟩
abbrev main_v200 : Ref sig .tc := ⟨.hbm, 264, rfl⟩
abbrev main_cst_45 : Ref sig .tc := ⟨.hbm, 265, rfl⟩
abbrev main_v201 : Ref sig .tc := ⟨.hbm, 266, rfl⟩
abbrev main_v202 : Ref sig .tc := ⟨.hbm, 267, rfl⟩
abbrev main_cst_46 : Ref sig .tc := ⟨.hbm, 268, rfl⟩
abbrev main_v203 : Ref sig .tc := ⟨.hbm, 269, rfl⟩
abbrev main_v204 : Ref sig .tc := ⟨.hbm, 270, rfl⟩
abbrev main_v205 : Ref sig .tc := ⟨.hbm, 271, rfl⟩
abbrev main_v206 : Ref sig .tc := ⟨.hbm, 272, rfl⟩
abbrev main_v207 : Ref sig .tc := ⟨.hbm, 273, rfl⟩
abbrev main_c_47 : Ref sig .tc := ⟨.hbm, 274, rfl⟩
abbrev main_v208 : Ref sig .tc := ⟨.hbm, 275, rfl⟩
abbrev main_v209 : Ref sig .tc := ⟨.hbm, 276, rfl⟩
abbrev main_c_48 : Ref sig .tc := ⟨.hbm, 277, rfl⟩
abbrev main_v210 : Ref sig .tc := ⟨.hbm, 278, rfl⟩
abbrev main_v211 : Ref sig .tc := ⟨.hbm, 279, rfl⟩
abbrev main_v212 : Ref sig .tc := ⟨.hbm, 280, rfl⟩
abbrev main_v213 : Ref sig .tc := ⟨.hbm, 281, rfl⟩
abbrev main_v214 : Ref sig .tc := ⟨.hbm, 282, rfl⟩
abbrev main_cst_49 : Ref sig .tc := ⟨.hbm, 283, rfl⟩
abbrev main_v215 : Ref sig .tc := ⟨.hbm, 284, rfl⟩
abbrev main_v216 : Ref sig .tc := ⟨.hbm, 285, rfl⟩
abbrev main_v217 : Ref sig .tc := ⟨.hbm, 286, rfl⟩
abbrev main_cst_50 : Ref sig .tc := ⟨.hbm, 287, rfl⟩
abbrev main_v218 : Ref sig .tc := ⟨.hbm, 288, rfl⟩
abbrev main_v219 : Ref sig .tc := ⟨.hbm, 289, rfl⟩
abbrev main_v220 : Ref sig .tc := ⟨.hbm, 290, rfl⟩
abbrev main_v221 : Ref sig .tc := ⟨.hbm, 291, rfl⟩
abbrev main_v222 : Ref sig .tc := ⟨.hbm, 292, rfl⟩
abbrev main_v223 : Ref sig .tc := ⟨.hbm, 293, rfl⟩
abbrev main_v224 : Ref sig .tc := ⟨.hbm, 294, rfl⟩
abbrev main_v225 : Ref sig .tc := ⟨.hbm, 295, rfl⟩
abbrev main_v226 : Ref sig .tc := ⟨.hbm, 296, rfl⟩
abbrev main_v227 : Ref sig .tc := ⟨.hbm, 297, rfl⟩
abbrev main_v228 : Ref sig .tc := ⟨.hbm, 298, rfl⟩
abbrev main_v229 : Ref sig .tc := ⟨.hbm, 299, rfl⟩
abbrev main_v230 : Ref sig .tc := ⟨.hbm, 300, rfl⟩
abbrev main_v231 : Ref sig .tc := ⟨.hbm, 301, rfl⟩
abbrev main_v232 : Ref sig .tc := ⟨.hbm, 302, rfl⟩
abbrev main_v233 : Ref sig .tc := ⟨.hbm, 303, rfl⟩
abbrev main_v234 : Ref sig .tc := ⟨.hbm, 304, rfl⟩
abbrev main_cst_51 : Ref sig .tc := ⟨.hbm, 305, rfl⟩
abbrev main_v235 : Ref sig .tc := ⟨.hbm, 306, rfl⟩
abbrev main_cst_52 : Ref sig .tc := ⟨.hbm, 307, rfl⟩
abbrev main_v236 : Ref sig .tc := ⟨.hbm, 308, rfl⟩
abbrev main_v237 : Ref sig .tc := ⟨.hbm, 309, rfl⟩
abbrev main_v238 : Ref sig .tc := ⟨.hbm, 310, rfl⟩
abbrev main_cst_53 : Ref sig .tc := ⟨.hbm, 311, rfl⟩
abbrev main_v239 : Ref sig .tc := ⟨.hbm, 312, rfl⟩
abbrev main_v240 : Ref sig .tc := ⟨.hbm, 313, rfl⟩
abbrev main_cst_54 : Ref sig .tc := ⟨.hbm, 314, rfl⟩
abbrev main_v241 : Ref sig .tc := ⟨.hbm, 315, rfl⟩
abbrev main_v242 : Ref sig .tc := ⟨.hbm, 316, rfl⟩
abbrev main_v243 : Ref sig .tc := ⟨.hbm, 317, rfl⟩
abbrev main_cst_55 : Ref sig .tc := ⟨.hbm, 318, rfl⟩
abbrev main_v244 : Ref sig .tc := ⟨.hbm, 319, rfl⟩
abbrev main_v245 : Ref sig .tc := ⟨.hbm, 320, rfl⟩
abbrev main_cst_56 : Ref sig .tc := ⟨.hbm, 321, rfl⟩
abbrev main_v246 : Ref sig .tc := ⟨.hbm, 322, rfl⟩
abbrev main_v247 : Ref sig .tc := ⟨.hbm, 323, rfl⟩
abbrev main_v248 : Ref sig .tc := ⟨.hbm, 324, rfl⟩
abbrev main_v249 : Ref sig .tc := ⟨.hbm, 325, rfl⟩
abbrev main_v250 : Ref sig .tc := ⟨.hbm, 326, rfl⟩
abbrev main_c_57 : Ref sig .tc := ⟨.hbm, 327, rfl⟩
abbrev main_v251 : Ref sig .tc := ⟨.hbm, 328, rfl⟩
abbrev main_v252 : Ref sig .tc := ⟨.hbm, 329, rfl⟩
abbrev main_c_58 : Ref sig .tc := ⟨.hbm, 330, rfl⟩
abbrev main_v253 : Ref sig .tc := ⟨.hbm, 331, rfl⟩
abbrev main_v254 : Ref sig .tc := ⟨.hbm, 332, rfl⟩
abbrev main_v255 : Ref sig .tc := ⟨.hbm, 333, rfl⟩
abbrev main_v256 : Ref sig .tc := ⟨.hbm, 334, rfl⟩
abbrev main_v257 : Ref sig .tc := ⟨.hbm, 335, rfl⟩
abbrev main_cst_59 : Ref sig .tc := ⟨.hbm, 336, rfl⟩
abbrev main_v258 : Ref sig .tc := ⟨.hbm, 337, rfl⟩
abbrev main_v259 : Ref sig .tc := ⟨.hbm, 338, rfl⟩
abbrev main_v260 : Ref sig .tc := ⟨.hbm, 339, rfl⟩
abbrev main_cst_60 : Ref sig .tc := ⟨.hbm, 340, rfl⟩
abbrev main_v261 : Ref sig .tc := ⟨.hbm, 341, rfl⟩
abbrev main_v262 : Ref sig .tc := ⟨.hbm, 342, rfl⟩
abbrev main_v263 : Ref sig .tc := ⟨.hbm, 343, rfl⟩
abbrev main_v264 : Ref sig .tc := ⟨.hbm, 344, rfl⟩
abbrev main_v265 : Ref sig .tc := ⟨.hbm, 345, rfl⟩
abbrev main_v266 : Ref sig .tc := ⟨.hbm, 346, rfl⟩
abbrev main_v267 : Ref sig .tc := ⟨.hbm, 347, rfl⟩
abbrev main_v268 : Ref sig .tc := ⟨.hbm, 348, rfl⟩
abbrev main_v269 : Ref sig .tc := ⟨.hbm, 349, rfl⟩
abbrev main_v270 : Ref sig .tc := ⟨.hbm, 350, rfl⟩
abbrev main_v271 : Ref sig .tc := ⟨.hbm, 351, rfl⟩
abbrev main_v272 : Ref sig .tc := ⟨.hbm, 352, rfl⟩
abbrev main_v273 : Ref sig .tc := ⟨.hbm, 353, rfl⟩
abbrev main_v274 : Ref sig .tc := ⟨.hbm, 354, rfl⟩
abbrev main_v275 : Ref sig .tc := ⟨.hbm, 355, rfl⟩
abbrev main_v276 : Ref sig .tc := ⟨.hbm, 356, rfl⟩
abbrev main_v277 : Ref sig .tc := ⟨.hbm, 357, rfl⟩
abbrev main_v278 : Ref sig .tc := ⟨.hbm, 358, rfl⟩
abbrev main_cst_61 : Ref sig .tc := ⟨.hbm, 359, rfl⟩
abbrev main_v279 : Ref sig .tc := ⟨.hbm, 360, rfl⟩
abbrev main_cst_62 : Ref sig .tc := ⟨.hbm, 361, rfl⟩
abbrev main_v280 : Ref sig .tc := ⟨.hbm, 362, rfl⟩
abbrev main_v281 : Ref sig .tc := ⟨.hbm, 363, rfl⟩
abbrev main_v282 : Ref sig .tc := ⟨.hbm, 364, rfl⟩
abbrev main_cst_63 : Ref sig .tc := ⟨.hbm, 365, rfl⟩
abbrev main_v283 : Ref sig .tc := ⟨.hbm, 366, rfl⟩
abbrev main_v284 : Ref sig .tc := ⟨.hbm, 367, rfl⟩
abbrev main_cst_64 : Ref sig .tc := ⟨.hbm, 368, rfl⟩
abbrev main_v285 : Ref sig .tc := ⟨.hbm, 369, rfl⟩
abbrev main_v286 : Ref sig .tc := ⟨.hbm, 370, rfl⟩
abbrev main_v287 : Ref sig .tc := ⟨.hbm, 371, rfl⟩
abbrev main_cst_65 : Ref sig .tc := ⟨.hbm, 372, rfl⟩
abbrev main_v288 : Ref sig .tc := ⟨.hbm, 373, rfl⟩
abbrev main_v289 : Ref sig .tc := ⟨.hbm, 374, rfl⟩
abbrev main_cst_66 : Ref sig .tc := ⟨.hbm, 375, rfl⟩
abbrev main_v290 : Ref sig .tc := ⟨.hbm, 376, rfl⟩
abbrev main_v291 : Ref sig .tc := ⟨.hbm, 377, rfl⟩
abbrev main_v292 : Ref sig .tc := ⟨.hbm, 378, rfl⟩
abbrev main_v293 : Ref sig .tc := ⟨.hbm, 379, rfl⟩
abbrev main_v294 : Ref sig .tc := ⟨.hbm, 380, rfl⟩
abbrev main_c_67 : Ref sig .tc := ⟨.hbm, 381, rfl⟩
abbrev main_v295 : Ref sig .tc := ⟨.hbm, 382, rfl⟩
abbrev main_v296 : Ref sig .tc := ⟨.hbm, 383, rfl⟩
abbrev main_c_68 : Ref sig .tc := ⟨.hbm, 384, rfl⟩
abbrev main_v297 : Ref sig .tc := ⟨.hbm, 385, rfl⟩
abbrev main_v298 : Ref sig .tc := ⟨.hbm, 386, rfl⟩
abbrev main_v299 : Ref sig .tc := ⟨.hbm, 387, rfl⟩
abbrev main_v300 : Ref sig .tc := ⟨.hbm, 388, rfl⟩
abbrev main_v301 : Ref sig .tc := ⟨.hbm, 389, rfl⟩
abbrev main_cst_69 : Ref sig .tc := ⟨.hbm, 390, rfl⟩
abbrev main_v302 : Ref sig .tc := ⟨.hbm, 391, rfl⟩
abbrev main_v303 : Ref sig .tc := ⟨.hbm, 392, rfl⟩
abbrev main_v304 : Ref sig .tc := ⟨.hbm, 393, rfl⟩
abbrev main_cst_70 : Ref sig .tc := ⟨.hbm, 394, rfl⟩
abbrev main_v305 : Ref sig .tc := ⟨.hbm, 395, rfl⟩
abbrev main_v306 : Ref sig .tc := ⟨.hbm, 396, rfl⟩
abbrev main_v307 : Ref sig .tc := ⟨.hbm, 397, rfl⟩
abbrev main_v308 : Ref sig .tc := ⟨.hbm, 398, rfl⟩
abbrev main_v309 : Ref sig .tc := ⟨.hbm, 399, rfl⟩
abbrev main_v310 : Ref sig .tc := ⟨.hbm, 400, rfl⟩
abbrev main_v311 : Ref sig .tc := ⟨.hbm, 401, rfl⟩
abbrev main_v312 : Ref sig .tc := ⟨.hbm, 402, rfl⟩
abbrev main_v313 : Ref sig .tc := ⟨.hbm, 403, rfl⟩
abbrev main_v314 : Ref sig .tc := ⟨.hbm, 404, rfl⟩
abbrev main_v315 : Ref sig .tc := ⟨.hbm, 405, rfl⟩
abbrev main_v316 : Ref sig .tc := ⟨.hbm, 406, rfl⟩
abbrev main_v317 : Ref sig .tc := ⟨.hbm, 407, rfl⟩
abbrev main_v318 : Ref sig .tc := ⟨.hbm, 408, rfl⟩
abbrev main_v319 : Ref sig .tc := ⟨.hbm, 409, rfl⟩
abbrev main_v320 : Ref sig .tc := ⟨.hbm, 410, rfl⟩
abbrev main_v321 : Ref sig .tc := ⟨.hbm, 411, rfl⟩
abbrev main_v322 : Ref sig .tc := ⟨.hbm, 412, rfl⟩
abbrev main_cst_71 : Ref sig .tc := ⟨.hbm, 413, rfl⟩
abbrev main_v323 : Ref sig .tc := ⟨.hbm, 414, rfl⟩
abbrev main_cst_72 : Ref sig .tc := ⟨.hbm, 415, rfl⟩
abbrev main_v324 : Ref sig .tc := ⟨.hbm, 416, rfl⟩
abbrev main_v325 : Ref sig .tc := ⟨.hbm, 417, rfl⟩
abbrev main_v326 : Ref sig .tc := ⟨.hbm, 418, rfl⟩
abbrev main_cst_73 : Ref sig .tc := ⟨.hbm, 419, rfl⟩
abbrev main_v327 : Ref sig .tc := ⟨.hbm, 420, rfl⟩
abbrev main_v328 : Ref sig .tc := ⟨.hbm, 421, rfl⟩
abbrev main_cst_74 : Ref sig .tc := ⟨.hbm, 422, rfl⟩
abbrev main_v329 : Ref sig .tc := ⟨.hbm, 423, rfl⟩
abbrev main_v330 : Ref sig .tc := ⟨.hbm, 424, rfl⟩
abbrev main_v331 : Ref sig .tc := ⟨.hbm, 425, rfl⟩
abbrev main_cst_75 : Ref sig .tc := ⟨.hbm, 426, rfl⟩
abbrev main_v332 : Ref sig .tc := ⟨.hbm, 427, rfl⟩
abbrev main_v333 : Ref sig .tc := ⟨.hbm, 428, rfl⟩
abbrev main_cst_76 : Ref sig .tc := ⟨.hbm, 429, rfl⟩
abbrev main_v334 : Ref sig .tc := ⟨.hbm, 430, rfl⟩
abbrev main_v335 : Ref sig .tc := ⟨.hbm, 431, rfl⟩
abbrev main_v336 : Ref sig .tc := ⟨.hbm, 432, rfl⟩
abbrev main_v337 : Ref sig .tc := ⟨.hbm, 433, rfl⟩
abbrev main_v338 : Ref sig .tc := ⟨.hbm, 434, rfl⟩
abbrev main_c_77 : Ref sig .tc := ⟨.hbm, 435, rfl⟩
abbrev main_v339 : Ref sig .tc := ⟨.hbm, 436, rfl⟩
abbrev main_v340 : Ref sig .tc := ⟨.hbm, 437, rfl⟩
abbrev main_c_78 : Ref sig .tc := ⟨.hbm, 438, rfl⟩
abbrev main_v341 : Ref sig .tc := ⟨.hbm, 439, rfl⟩
abbrev main_v342 : Ref sig .tc := ⟨.hbm, 440, rfl⟩
abbrev main_v343 : Ref sig .tc := ⟨.hbm, 441, rfl⟩
abbrev main_v344 : Ref sig .tc := ⟨.hbm, 442, rfl⟩
abbrev main_v345 : Ref sig .tc := ⟨.hbm, 443, rfl⟩
abbrev main_cst_79 : Ref sig .tc := ⟨.hbm, 444, rfl⟩
abbrev main_v346 : Ref sig .tc := ⟨.hbm, 445, rfl⟩
abbrev main_v347 : Ref sig .tc := ⟨.hbm, 446, rfl⟩
abbrev main_v348 : Ref sig .tc := ⟨.hbm, 447, rfl⟩
abbrev main_cst_80 : Ref sig .tc := ⟨.hbm, 448, rfl⟩
abbrev main_v349 : Ref sig .tc := ⟨.hbm, 449, rfl⟩
abbrev main_v350 : Ref sig .tc := ⟨.hbm, 450, rfl⟩
abbrev main_v351 : Ref sig .tc := ⟨.hbm, 451, rfl⟩
abbrev main_v352 : Ref sig .tc := ⟨.hbm, 452, rfl⟩
abbrev main_v353 : Ref sig .tc := ⟨.hbm, 453, rfl⟩
abbrev main_v354 : Ref sig .tc := ⟨.hbm, 454, rfl⟩
abbrev main_v355 : Ref sig .tc := ⟨.hbm, 455, rfl⟩
abbrev main_v356 : Ref sig .tc := ⟨.hbm, 456, rfl⟩
abbrev main_v357 : Ref sig .tc := ⟨.hbm, 457, rfl⟩
abbrev main_v358 : Ref sig .tc := ⟨.hbm, 458, rfl⟩
abbrev main_v359 : Ref sig .tc := ⟨.hbm, 459, rfl⟩
abbrev main_cst_81 : Ref sig .tc := ⟨.hbm, 460, rfl⟩
abbrev main_v360 : Ref sig .tc := ⟨.hbm, 461, rfl⟩
abbrev main_v361 : Ref sig .tc := ⟨.hbm, 462, rfl⟩
abbrev main_v362 : Ref sig .tc := ⟨.hbm, 463, rfl⟩
abbrev main_cst_82 : Ref sig .tc := ⟨.hbm, 464, rfl⟩
abbrev main_v363 : Ref sig .tc := ⟨.hbm, 465, rfl⟩
abbrev main_v364 : Ref sig .tc := ⟨.hbm, 466, rfl⟩
abbrev main_v365 : Ref sig .tc := ⟨.hbm, 467, rfl⟩
abbrev main_v366 : Ref sig .tc := ⟨.hbm, 468, rfl⟩
abbrev main_cst_83 : Ref sig .tc := ⟨.hbm, 469, rfl⟩
abbrev main_call1_cst : Ref sig .tc := ⟨.hbm, 470, rfl⟩
abbrev main_call1_v0 : Ref sig .tc := ⟨.hbm, 471, rfl⟩
abbrev main_call1_v1 : Ref sig .tc := ⟨.hbm, 472, rfl⟩
abbrev main_call1_v2 : Ref sig .tc := ⟨.hbm, 473, rfl⟩
abbrev main_call1_v3 : Ref sig .tc := ⟨.hbm, 474, rfl⟩
abbrev main_call1_v4 : Ref sig .tc := ⟨.hbm, 475, rfl⟩
abbrev main_v367 : Ref sig .tc := ⟨.hbm, 476, rfl⟩
abbrev main_v368 : Ref sig .tc := ⟨.hbm, 477, rfl⟩
abbrev main_v369 : Ref sig .tc := ⟨.hbm, 478, rfl⟩
abbrev main_v370 : Ref sig .tc := ⟨.hbm, 479, rfl⟩
abbrev main_v371 : Ref sig .tc := ⟨.hbm, 480, rfl⟩
abbrev main_v372 : Ref sig .tc := ⟨.hbm, 481, rfl⟩
abbrev main_v373 : Ref sig .tc := ⟨.hbm, 482, rfl⟩
abbrev main_v374 : Ref sig .tc := ⟨.hbm, 483, rfl⟩
abbrev main_v375 : Ref sig .tc := ⟨.hbm, 484, rfl⟩
abbrev main_cst_84 : Ref sig .tc := ⟨.hbm, 485, rfl⟩
abbrev main_v376 : Ref sig .tc := ⟨.hbm, 486, rfl⟩
abbrev main_cst_85 : Ref sig .tc := ⟨.hbm, 487, rfl⟩
abbrev main_v377 : Ref sig .tc := ⟨.hbm, 488, rfl⟩
abbrev main_v378 : Ref sig .tc := ⟨.hbm, 489, rfl⟩
abbrev main_v379 : Ref sig .tc := ⟨.hbm, 490, rfl⟩
abbrev main_cst_86 : Ref sig .tc := ⟨.hbm, 491, rfl⟩
abbrev main_v380 : Ref sig .tc := ⟨.hbm, 492, rfl⟩
abbrev main_v381 : Ref sig .tc := ⟨.hbm, 493, rfl⟩
abbrev main_cst_87 : Ref sig .tc := ⟨.hbm, 494, rfl⟩
abbrev main_v382 : Ref sig .tc := ⟨.hbm, 495, rfl⟩
abbrev main_v383 : Ref sig .tc := ⟨.hbm, 496, rfl⟩
abbrev main_v384 : Ref sig .tc := ⟨.hbm, 497, rfl⟩
abbrev main_cst_88 : Ref sig .tc := ⟨.hbm, 498, rfl⟩
abbrev main_v385 : Ref sig .tc := ⟨.hbm, 499, rfl⟩
abbrev main_v386 : Ref sig .tc := ⟨.hbm, 500, rfl⟩
abbrev main_cst_89 : Ref sig .tc := ⟨.hbm, 501, rfl⟩
abbrev main_v387 : Ref sig .tc := ⟨.hbm, 502, rfl⟩
abbrev main_v388 : Ref sig .tc := ⟨.hbm, 503, rfl⟩
abbrev main_v389 : Ref sig .tc := ⟨.hbm, 504, rfl⟩
abbrev main_v390 : Ref sig .tc := ⟨.hbm, 505, rfl⟩
abbrev main_v391 : Ref sig .tc := ⟨.hbm, 506, rfl⟩
abbrev main_c_90 : Ref sig .tc := ⟨.hbm, 507, rfl⟩
abbrev main_v392 : Ref sig .tc := ⟨.hbm, 508, rfl⟩
abbrev main_v393 : Ref sig .tc := ⟨.hbm, 509, rfl⟩
abbrev main_c_91 : Ref sig .tc := ⟨.hbm, 510, rfl⟩
abbrev main_v394 : Ref sig .tc := ⟨.hbm, 511, rfl⟩
abbrev main_v395 : Ref sig .tc := ⟨.hbm, 512, rfl⟩
abbrev main_v396 : Ref sig .tc := ⟨.hbm, 513, rfl⟩
abbrev main_v397 : Ref sig .tc := ⟨.hbm, 514, rfl⟩
abbrev main_v398 : Ref sig .tc := ⟨.hbm, 515, rfl⟩
abbrev main_cst_92 : Ref sig .tc := ⟨.hbm, 516, rfl⟩
abbrev main_v399 : Ref sig .tc := ⟨.hbm, 517, rfl⟩
abbrev main_v400 : Ref sig .tc := ⟨.hbm, 518, rfl⟩
abbrev main_v401 : Ref sig .tc := ⟨.hbm, 519, rfl⟩
abbrev main_cst_93 : Ref sig .tc := ⟨.hbm, 520, rfl⟩
abbrev main_v402 : Ref sig .tc := ⟨.hbm, 521, rfl⟩
abbrev main_v403 : Ref sig .tc := ⟨.hbm, 522, rfl⟩
abbrev main_v404 : Ref sig .tc := ⟨.hbm, 523, rfl⟩
abbrev main_v405 : Ref sig .tc := ⟨.hbm, 524, rfl⟩
abbrev main_v406 : Ref sig .tc := ⟨.hbm, 525, rfl⟩
abbrev main_v407 : Ref sig .tc := ⟨.hbm, 526, rfl⟩
abbrev main_v408 : Ref sig .tc := ⟨.hbm, 527, rfl⟩
abbrev main_v409 : Ref sig .tc := ⟨.hbm, 528, rfl⟩
abbrev main_v410 : Ref sig .tc := ⟨.hbm, 529, rfl⟩
abbrev main_v411 : Ref sig .tc := ⟨.hbm, 530, rfl⟩
abbrev main_v412 : Ref sig .tc := ⟨.hbm, 531, rfl⟩
abbrev main_v413 : Ref sig .tc := ⟨.hbm, 532, rfl⟩
abbrev main_v414 : Ref sig .tc := ⟨.hbm, 533, rfl⟩
abbrev main_v415 : Ref sig .tc := ⟨.hbm, 534, rfl⟩
abbrev main_v416 : Ref sig .tc := ⟨.hbm, 535, rfl⟩
abbrev main_v417 : Ref sig .tc := ⟨.hbm, 536, rfl⟩
abbrev main_v418 : Ref sig .tc := ⟨.hbm, 537, rfl⟩
abbrev main_cst_94 : Ref sig .tc := ⟨.hbm, 538, rfl⟩
abbrev main_v419 : Ref sig .tc := ⟨.hbm, 539, rfl⟩
abbrev main_cst_95 : Ref sig .tc := ⟨.hbm, 540, rfl⟩
abbrev main_v420 : Ref sig .tc := ⟨.hbm, 541, rfl⟩
abbrev main_v421 : Ref sig .tc := ⟨.hbm, 542, rfl⟩
abbrev main_v422 : Ref sig .tc := ⟨.hbm, 543, rfl⟩
abbrev main_cst_96 : Ref sig .tc := ⟨.hbm, 544, rfl⟩
abbrev main_v423 : Ref sig .tc := ⟨.hbm, 545, rfl⟩
abbrev main_v424 : Ref sig .tc := ⟨.hbm, 546, rfl⟩
abbrev main_cst_97 : Ref sig .tc := ⟨.hbm, 547, rfl⟩
abbrev main_v425 : Ref sig .tc := ⟨.hbm, 548, rfl⟩
abbrev main_v426 : Ref sig .tc := ⟨.hbm, 549, rfl⟩
abbrev main_v427 : Ref sig .tc := ⟨.hbm, 550, rfl⟩
abbrev main_cst_98 : Ref sig .tc := ⟨.hbm, 551, rfl⟩
abbrev main_v428 : Ref sig .tc := ⟨.hbm, 552, rfl⟩
abbrev main_v429 : Ref sig .tc := ⟨.hbm, 553, rfl⟩
abbrev main_cst_99 : Ref sig .tc := ⟨.hbm, 554, rfl⟩
abbrev main_v430 : Ref sig .tc := ⟨.hbm, 555, rfl⟩
abbrev main_v431 : Ref sig .tc := ⟨.hbm, 556, rfl⟩
abbrev main_v432 : Ref sig .tc := ⟨.hbm, 557, rfl⟩
abbrev main_v433 : Ref sig .tc := ⟨.hbm, 558, rfl⟩
abbrev main_v434 : Ref sig .tc := ⟨.hbm, 559, rfl⟩
abbrev main_c_100 : Ref sig .tc := ⟨.hbm, 560, rfl⟩
abbrev main_v435 : Ref sig .tc := ⟨.hbm, 561, rfl⟩
abbrev main_v436 : Ref sig .tc := ⟨.hbm, 562, rfl⟩
abbrev main_c_101 : Ref sig .tc := ⟨.hbm, 563, rfl⟩
abbrev main_v437 : Ref sig .tc := ⟨.hbm, 564, rfl⟩
abbrev main_v438 : Ref sig .tc := ⟨.hbm, 565, rfl⟩
abbrev main_v439 : Ref sig .tc := ⟨.hbm, 566, rfl⟩
abbrev main_v440 : Ref sig .tc := ⟨.hbm, 567, rfl⟩
abbrev main_v441 : Ref sig .tc := ⟨.hbm, 568, rfl⟩
abbrev main_cst_102 : Ref sig .tc := ⟨.hbm, 569, rfl⟩
abbrev main_v442 : Ref sig .tc := ⟨.hbm, 570, rfl⟩
abbrev main_v443 : Ref sig .tc := ⟨.hbm, 571, rfl⟩
abbrev main_v444 : Ref sig .tc := ⟨.hbm, 572, rfl⟩
abbrev main_cst_103 : Ref sig .tc := ⟨.hbm, 573, rfl⟩
abbrev main_v445 : Ref sig .tc := ⟨.hbm, 574, rfl⟩
abbrev main_v446 : Ref sig .tc := ⟨.hbm, 575, rfl⟩
abbrev main_v447 : Ref sig .tc := ⟨.hbm, 576, rfl⟩
abbrev main_v448 : Ref sig .tc := ⟨.hbm, 577, rfl⟩
abbrev main_v449 : Ref sig .tc := ⟨.hbm, 578, rfl⟩
abbrev main_v450 : Ref sig .tc := ⟨.hbm, 579, rfl⟩
abbrev main_v451 : Ref sig .tc := ⟨.hbm, 580, rfl⟩
abbrev main_v452 : Ref sig .tc := ⟨.hbm, 581, rfl⟩
abbrev main_v453 : Ref sig .tc := ⟨.hbm, 582, rfl⟩
abbrev main_v454 : Ref sig .tc := ⟨.hbm, 583, rfl⟩
abbrev main_v455 : Ref sig .tc := ⟨.hbm, 584, rfl⟩
abbrev main_v456 : Ref sig .tc := ⟨.hbm, 585, rfl⟩
abbrev main_v457 : Ref sig .tc := ⟨.hbm, 586, rfl⟩
abbrev main_v458 : Ref sig .tc := ⟨.hbm, 587, rfl⟩
abbrev main_v459 : Ref sig .tc := ⟨.hbm, 588, rfl⟩
abbrev main_v460 : Ref sig .tc := ⟨.hbm, 589, rfl⟩
abbrev main_v461 : Ref sig .tc := ⟨.hbm, 590, rfl⟩
abbrev main_v462 : Ref sig .tc := ⟨.hbm, 591, rfl⟩
abbrev main_cst_104 : Ref sig .tc := ⟨.hbm, 592, rfl⟩
abbrev main_v463 : Ref sig .tc := ⟨.hbm, 593, rfl⟩
abbrev main_cst_105 : Ref sig .tc := ⟨.hbm, 594, rfl⟩
abbrev main_v464 : Ref sig .tc := ⟨.hbm, 595, rfl⟩
abbrev main_v465 : Ref sig .tc := ⟨.hbm, 596, rfl⟩
abbrev main_v466 : Ref sig .tc := ⟨.hbm, 597, rfl⟩
abbrev main_cst_106 : Ref sig .tc := ⟨.hbm, 598, rfl⟩
abbrev main_v467 : Ref sig .tc := ⟨.hbm, 599, rfl⟩
abbrev main_v468 : Ref sig .tc := ⟨.hbm, 600, rfl⟩
abbrev main_cst_107 : Ref sig .tc := ⟨.hbm, 601, rfl⟩
abbrev main_v469 : Ref sig .tc := ⟨.hbm, 602, rfl⟩
abbrev main_v470 : Ref sig .tc := ⟨.hbm, 603, rfl⟩
abbrev main_v471 : Ref sig .tc := ⟨.hbm, 604, rfl⟩
abbrev main_cst_108 : Ref sig .tc := ⟨.hbm, 605, rfl⟩
abbrev main_v472 : Ref sig .tc := ⟨.hbm, 606, rfl⟩
abbrev main_v473 : Ref sig .tc := ⟨.hbm, 607, rfl⟩
abbrev main_cst_109 : Ref sig .tc := ⟨.hbm, 608, rfl⟩
abbrev main_v474 : Ref sig .tc := ⟨.hbm, 609, rfl⟩
abbrev main_v475 : Ref sig .tc := ⟨.hbm, 610, rfl⟩
abbrev main_v476 : Ref sig .tc := ⟨.hbm, 611, rfl⟩
abbrev main_v477 : Ref sig .tc := ⟨.hbm, 612, rfl⟩
abbrev main_v478 : Ref sig .tc := ⟨.hbm, 613, rfl⟩
abbrev main_c_110 : Ref sig .tc := ⟨.hbm, 614, rfl⟩
abbrev main_v479 : Ref sig .tc := ⟨.hbm, 615, rfl⟩
abbrev main_v480 : Ref sig .tc := ⟨.hbm, 616, rfl⟩
abbrev main_c_111 : Ref sig .tc := ⟨.hbm, 617, rfl⟩
abbrev main_v481 : Ref sig .tc := ⟨.hbm, 618, rfl⟩
abbrev main_v482 : Ref sig .tc := ⟨.hbm, 619, rfl⟩
abbrev main_v483 : Ref sig .tc := ⟨.hbm, 620, rfl⟩
abbrev main_v484 : Ref sig .tc := ⟨.hbm, 621, rfl⟩
abbrev main_v485 : Ref sig .tc := ⟨.hbm, 622, rfl⟩
abbrev main_cst_112 : Ref sig .tc := ⟨.hbm, 623, rfl⟩
abbrev main_v486 : Ref sig .tc := ⟨.hbm, 624, rfl⟩
abbrev main_v487 : Ref sig .tc := ⟨.hbm, 625, rfl⟩
abbrev main_v488 : Ref sig .tc := ⟨.hbm, 626, rfl⟩
abbrev main_cst_113 : Ref sig .tc := ⟨.hbm, 627, rfl⟩
abbrev main_v489 : Ref sig .tc := ⟨.hbm, 628, rfl⟩
abbrev main_v490 : Ref sig .tc := ⟨.hbm, 629, rfl⟩
abbrev main_v491 : Ref sig .tc := ⟨.hbm, 630, rfl⟩
abbrev main_v492 : Ref sig .tc := ⟨.hbm, 631, rfl⟩
abbrev main_v493 : Ref sig .tc := ⟨.hbm, 632, rfl⟩
abbrev main_v494 : Ref sig .tc := ⟨.hbm, 633, rfl⟩
abbrev main_v495 : Ref sig .tc := ⟨.hbm, 634, rfl⟩
abbrev main_v496 : Ref sig .tc := ⟨.hbm, 635, rfl⟩
abbrev main_v497 : Ref sig .tc := ⟨.hbm, 636, rfl⟩
abbrev main_v498 : Ref sig .tc := ⟨.hbm, 637, rfl⟩
abbrev main_v499 : Ref sig .tc := ⟨.hbm, 638, rfl⟩
abbrev main_v500 : Ref sig .tc := ⟨.hbm, 639, rfl⟩
abbrev main_v501 : Ref sig .tc := ⟨.hbm, 640, rfl⟩
abbrev main_v502 : Ref sig .tc := ⟨.hbm, 641, rfl⟩
abbrev main_v503 : Ref sig .tc := ⟨.hbm, 642, rfl⟩
abbrev main_v504 : Ref sig .tc := ⟨.hbm, 643, rfl⟩
abbrev main_v505 : Ref sig .tc := ⟨.hbm, 644, rfl⟩
abbrev main_v506 : Ref sig .tc := ⟨.hbm, 645, rfl⟩
abbrev main_cst_114 : Ref sig .tc := ⟨.hbm, 646, rfl⟩
abbrev main_v507 : Ref sig .tc := ⟨.hbm, 647, rfl⟩
abbrev main_cst_115 : Ref sig .tc := ⟨.hbm, 648, rfl⟩
abbrev main_v508 : Ref sig .tc := ⟨.hbm, 649, rfl⟩
abbrev main_v509 : Ref sig .tc := ⟨.hbm, 650, rfl⟩
abbrev main_v510 : Ref sig .tc := ⟨.hbm, 651, rfl⟩
abbrev main_cst_116 : Ref sig .tc := ⟨.hbm, 652, rfl⟩
abbrev main_v511 : Ref sig .tc := ⟨.hbm, 653, rfl⟩
abbrev main_v512 : Ref sig .tc := ⟨.hbm, 654, rfl⟩
abbrev main_cst_117 : Ref sig .tc := ⟨.hbm, 655, rfl⟩
abbrev main_v513 : Ref sig .tc := ⟨.hbm, 656, rfl⟩
abbrev main_v514 : Ref sig .tc := ⟨.hbm, 657, rfl⟩
abbrev main_v515 : Ref sig .tc := ⟨.hbm, 658, rfl⟩
abbrev main_cst_118 : Ref sig .tc := ⟨.hbm, 659, rfl⟩
abbrev main_v516 : Ref sig .tc := ⟨.hbm, 660, rfl⟩
abbrev main_v517 : Ref sig .tc := ⟨.hbm, 661, rfl⟩
abbrev main_cst_119 : Ref sig .tc := ⟨.hbm, 662, rfl⟩
abbrev main_v518 : Ref sig .tc := ⟨.hbm, 663, rfl⟩
abbrev main_v519 : Ref sig .tc := ⟨.hbm, 664, rfl⟩
abbrev main_v520 : Ref sig .tc := ⟨.hbm, 665, rfl⟩
abbrev main_v521 : Ref sig .tc := ⟨.hbm, 666, rfl⟩
abbrev main_v522 : Ref sig .tc := ⟨.hbm, 667, rfl⟩
abbrev main_c_120 : Ref sig .tc := ⟨.hbm, 668, rfl⟩
abbrev main_v523 : Ref sig .tc := ⟨.hbm, 669, rfl⟩
abbrev main_v524 : Ref sig .tc := ⟨.hbm, 670, rfl⟩
abbrev main_c_121 : Ref sig .tc := ⟨.hbm, 671, rfl⟩
abbrev main_v525 : Ref sig .tc := ⟨.hbm, 672, rfl⟩
abbrev main_v526 : Ref sig .tc := ⟨.hbm, 673, rfl⟩
abbrev main_v527 : Ref sig .tc := ⟨.hbm, 674, rfl⟩
abbrev main_v528 : Ref sig .tc := ⟨.hbm, 675, rfl⟩
abbrev main_v529 : Ref sig .tc := ⟨.hbm, 676, rfl⟩
abbrev main_cst_122 : Ref sig .tc := ⟨.hbm, 677, rfl⟩
abbrev main_v530 : Ref sig .tc := ⟨.hbm, 678, rfl⟩
abbrev main_v531 : Ref sig .tc := ⟨.hbm, 679, rfl⟩
abbrev main_v532 : Ref sig .tc := ⟨.hbm, 680, rfl⟩
abbrev main_cst_123 : Ref sig .tc := ⟨.hbm, 681, rfl⟩
abbrev main_v533 : Ref sig .tc := ⟨.hbm, 682, rfl⟩
abbrev main_v534 : Ref sig .tc := ⟨.hbm, 683, rfl⟩
abbrev main_v535 : Ref sig .tc := ⟨.hbm, 684, rfl⟩
abbrev main_v536 : Ref sig .tc := ⟨.hbm, 685, rfl⟩
abbrev main_v537 : Ref sig .tc := ⟨.hbm, 686, rfl⟩
abbrev main_v538 : Ref sig .tc := ⟨.hbm, 687, rfl⟩
abbrev main_v539 : Ref sig .tc := ⟨.hbm, 688, rfl⟩
abbrev main_v540 : Ref sig .tc := ⟨.hbm, 689, rfl⟩
abbrev main_v541 : Ref sig .tc := ⟨.hbm, 690, rfl⟩
abbrev main_v542 : Ref sig .tc := ⟨.hbm, 691, rfl⟩
abbrev main_v543 : Ref sig .tc := ⟨.hbm, 692, rfl⟩
abbrev main_v544 : Ref sig .tc := ⟨.hbm, 693, rfl⟩
abbrev main_c_124 : Ref sig .tc := ⟨.hbm, 694, rfl⟩
abbrev main_v545 : Ref sig .tc := ⟨.hbm, 695, rfl⟩
abbrev main_v546 : Ref sig .tc := ⟨.hbm, 696, rfl⟩
abbrev main_c_125 : Ref sig .tc := ⟨.hbm, 697, rfl⟩
abbrev main_v547 : Ref sig .tc := ⟨.hbm, 698, rfl⟩
abbrev main_v548 : Ref sig .tc := ⟨.hbm, 699, rfl⟩
abbrev main_v549 : Ref sig .tc := ⟨.hbm, 700, rfl⟩
abbrev main_v550 : Ref sig .tc := ⟨.hbm, 701, rfl⟩
abbrev main_v551 : Ref sig .tc := ⟨.hbm, 702, rfl⟩
abbrev main_v552 : Ref sig .tc := ⟨.hbm, 703, rfl⟩
abbrev main_v553 : Ref sig .tc := ⟨.hbm, 704, rfl⟩
abbrev main_cst_126 : Ref sig .tc := ⟨.hbm, 705, rfl⟩
abbrev main_v554 : Ref sig .tc := ⟨.hbm, 706, rfl⟩
abbrev main_v555 : Ref sig .tc := ⟨.hbm, 707, rfl⟩
abbrev main_v556 : Ref sig .tc := ⟨.hbm, 708, rfl⟩
abbrev main_v557 : Ref sig .tc := ⟨.hbm, 709, rfl⟩
abbrev main_v558 : Ref sig .tc := ⟨.hbm, 710, rfl⟩
abbrev main_c_127 : Ref sig .tc := ⟨.hbm, 711, rfl⟩
abbrev main_v559 : Ref sig .tc := ⟨.hbm, 712, rfl⟩
abbrev main_v560 : Ref sig .tc := ⟨.hbm, 713, rfl⟩
abbrev main_c_128 : Ref sig .tc := ⟨.hbm, 714, rfl⟩
abbrev main_v561 : Ref sig .tc := ⟨.hbm, 715, rfl⟩
abbrev main_v562 : Ref sig .tc := ⟨.hbm, 716, rfl⟩
abbrev main_v563 : Ref sig .tc := ⟨.hbm, 717, rfl⟩
abbrev main_v564 : Ref sig .tc := ⟨.hbm, 718, rfl⟩
abbrev main_v565 : Ref sig .tc := ⟨.hbm, 719, rfl⟩
abbrev main_v566 : Ref sig .tc := ⟨.hbm, 720, rfl⟩
abbrev main_v567 : Ref sig .tc := ⟨.hbm, 721, rfl⟩
abbrev main_cst_129 : Ref sig .tc := ⟨.hbm, 722, rfl⟩
abbrev main_v568 : Ref sig .tc := ⟨.hbm, 723, rfl⟩
abbrev main_v569 : Ref sig .tc := ⟨.hbm, 724, rfl⟩
abbrev main_v570 : Ref sig .tc := ⟨.hbm, 725, rfl⟩
abbrev main_v571 : Ref sig .tc := ⟨.hbm, 726, rfl⟩
abbrev main_v572 : Ref sig .tc := ⟨.hbm, 727, rfl⟩
abbrev main_v573 : Ref sig .tc := ⟨.hbm, 728, rfl⟩
abbrev main_c_130 : Ref sig .tc := ⟨.hbm, 729, rfl⟩
abbrev main_v574 : Ref sig .tc := ⟨.hbm, 730, rfl⟩
abbrev main_v575 : Ref sig .tc := ⟨.hbm, 731, rfl⟩
abbrev main_c_131 : Ref sig .tc := ⟨.hbm, 732, rfl⟩
abbrev main_v576 : Ref sig .tc := ⟨.hbm, 733, rfl⟩
abbrev main_v577 : Ref sig .tc := ⟨.hbm, 734, rfl⟩
abbrev main_v578 : Ref sig .tc := ⟨.hbm, 735, rfl⟩
abbrev main_v579 : Ref sig .tc := ⟨.hbm, 736, rfl⟩
abbrev main_v580 : Ref sig .tc := ⟨.hbm, 737, rfl⟩
abbrev main_v581 : Ref sig .tc := ⟨.hbm, 738, rfl⟩
abbrev main_v582 : Ref sig .tc := ⟨.hbm, 739, rfl⟩
abbrev main_cst_132 : Ref sig .tc := ⟨.hbm, 740, rfl⟩
abbrev main_v583 : Ref sig .tc := ⟨.hbm, 741, rfl⟩
abbrev main_v584 : Ref sig .tc := ⟨.hbm, 742, rfl⟩
abbrev main_v585 : Ref sig .tc := ⟨.hbm, 743, rfl⟩
abbrev main_v586 : Ref sig .tc := ⟨.hbm, 744, rfl⟩
abbrev main_v587 : Ref sig .tc := ⟨.hbm, 745, rfl⟩
abbrev main_v588 : Ref sig .tc := ⟨.hbm, 746, rfl⟩
abbrev main_c_133 : Ref sig .tc := ⟨.hbm, 747, rfl⟩
abbrev main_v589 : Ref sig .tc := ⟨.hbm, 748, rfl⟩
abbrev main_v590 : Ref sig .tc := ⟨.hbm, 749, rfl⟩
abbrev main_c_134 : Ref sig .tc := ⟨.hbm, 750, rfl⟩
abbrev main_v591 : Ref sig .tc := ⟨.hbm, 751, rfl⟩
abbrev main_v592 : Ref sig .tc := ⟨.hbm, 752, rfl⟩
abbrev main_v593 : Ref sig .tc := ⟨.hbm, 753, rfl⟩
abbrev main_v594 : Ref sig .tc := ⟨.hbm, 754, rfl⟩
abbrev main_v595 : Ref sig .tc := ⟨.hbm, 755, rfl⟩
abbrev main_v596 : Ref sig .tc := ⟨.hbm, 756, rfl⟩
abbrev main_v597 : Ref sig .tc := ⟨.hbm, 757, rfl⟩
abbrev main_cst_135 : Ref sig .tc := ⟨.hbm, 758, rfl⟩
abbrev main_v598 : Ref sig .tc := ⟨.hbm, 759, rfl⟩
abbrev main_v599 : Ref sig .tc := ⟨.hbm, 760, rfl⟩
abbrev main_v600 : Ref sig .tc := ⟨.hbm, 761, rfl⟩
abbrev main_v601 : Ref sig .tc := ⟨.hbm, 762, rfl⟩
abbrev main_cst_136 : Ref sig .tc := ⟨.hbm, 763, rfl⟩
abbrev main_v602 : Ref sig .tc := ⟨.hbm, 764, rfl⟩
abbrev main_v603 : Ref sig .tc := ⟨.hbm, 765, rfl⟩
abbrev main_cst_137 : Ref sig .tc := ⟨.hbm, 766, rfl⟩
abbrev main_v604 : Ref sig .tc := ⟨.hbm, 767, rfl⟩
abbrev main_v605 : Ref sig .tc := ⟨.hbm, 768, rfl⟩
abbrev main_v606 : Ref sig .tc := ⟨.hbm, 769, rfl⟩
abbrev main_v607 : Ref sig .tc := ⟨.hbm, 770, rfl⟩
abbrev main_v608 : Ref sig .tc := ⟨.hbm, 771, rfl⟩
abbrev main_v609 : Ref sig .tc := ⟨.hbm, 772, rfl⟩
abbrev main_v610 : Ref sig .tc := ⟨.hbm, 773, rfl⟩
abbrev main_cst_138 : Ref sig .tc := ⟨.hbm, 774, rfl⟩
abbrev main_v611 : Ref sig .tc := ⟨.hbm, 775, rfl⟩
abbrev main_v612 : Ref sig .tc := ⟨.hbm, 776, rfl⟩
abbrev main_cst_139 : Ref sig .tc := ⟨.hbm, 777, rfl⟩
abbrev main_v613 : Ref sig .tc := ⟨.hbm, 778, rfl⟩
abbrev main_v614 : Ref sig .tc := ⟨.hbm, 779, rfl⟩

abbrev nD : Nat := 1
abbrev τ : Topo := Topo.v7x

variable {F : FTy → Type} [FloatOps F]

class Facts₀ : Prop where
  slices_S4x800000_S1x800000_0_0 : S4x800000.Slices ![0, 0] S1x800000
  shapeCasts_S1x800000_S800000 : S1x800000.ShapeCasts S800000
  slices_S4x128x128_S1x128x128_0_0_0 : S4x128x128.Slices ![0, 0, 0] S1x128x128
  shapeCasts_S1x128x128_S128x128 : S1x128x128.ShapeCasts S128x128
  slices_S4x128_S1x128_0_0 : S4x128.Slices ![0, 0] S1x128
  shapeCasts_S1x128_S128 : S1x128.ShapeCasts S128
  bcast_S_S800000 : S_.BroadcastsInDim S800000 (![] : Fin 0 → Fin S800000.rank)
  bcast_S_S50000 : S_.BroadcastsInDim S50000 (![] : Fin 0 → Fin S50000.rank)
  bcast_S800000_S800000x1_0 : S800000.BroadcastsInDim S800000x1 (![0] : Fin 1 → Fin S800000x1.rank)
  bcast_S50000_S50000x1_0 : S50000.BroadcastsInDim S50000x1 (![0] : Fin 1 → Fin S50000x1.rank)
  bcast_S50000x1_S50000x128_0_1 : S50000x1.BroadcastsInDim S50000x128 (![0, 1] : Fin 2 → Fin S50000x128.rank)
  bcast_S_S50000x128 : S_.BroadcastsInDim S50000x128 (![] : Fin 0 → Fin S50000x128.rank)
  bcast_S128_S1x128_1 : S128.BroadcastsInDim S1x128 (![1] : Fin 1 → Fin S1x128.rank)
  bcast_S1x128_S50000x128_0_1 : S1x128.BroadcastsInDim S50000x128 (![0, 1] : Fin 2 → Fin S50000x128.rank)
  slices_S4x800000_S1x800000_1_0 : S4x800000.Slices ![1, 0] S1x800000
  slices_S4x128x128_S1x128x128_1_0_0 : S4x128x128.Slices ![1, 0, 0] S1x128x128
  slices_S4x128_S1x128_1_0 : S4x128.Slices ![1, 0] S1x128
  slices_S4x800000_S1x800000_2_0 : S4x800000.Slices ![2, 0] S1x800000
  slices_S4x128x128_S1x128x128_2_0_0 : S4x128x128.Slices ![2, 0, 0] S1x128x128
  slices_S4x128_S1x128_2_0 : S4x128.Slices ![2, 0] S1x128
  slices_S4x800000_S1x800000_3_0 : S4x800000.Slices ![3, 0] S1x800000
  slices_S4x128x128_S1x128x128_3_0_0 : S4x128x128.Slices ![3, 0, 0] S1x128x128
  slices_S4x128_S1x128_3_0 : S4x128.Slices ![3, 0] S1x128
  reducesTo_S50000x128_S50000_d1 : S50000x128.ReducesTo [1] S50000
  h_S_ : 0 < S_.numel
  bcast_S_S50000x1 : S_.BroadcastsInDim S50000x1 (![] : Fin 0 → Fin S50000x1.rank)
  reducesTo_S50000x128_S128_d0 : S50000x128.ReducesTo [0] S128
  bcast_S_S1x128 : S_.BroadcastsInDim S1x128 (![] : Fin 0 → Fin S1x128.rank)
  bcast_S16_S1x16_1 : S16.BroadcastsInDim S1x16 (![1] : Fin 1 → Fin S1x16.rank)
  bcast_S_S1x16 : S_.BroadcastsInDim S1x16 (![] : Fin 0 → Fin S1x16.rank)
  scatter_S50000_S800000x1_S800000_n_0_0_1_wf : ScatterDims.WF S50000 S800000x1 S800000 [] [0] [0] 1
  gather_S50000x128_S800000x1_S800000x128_1_0_n_n_0_1_1128_wf : GatherDims.WF S50000x128 S800000x1 S800000x128 [1] [0] [] [0] [] 1 ![1, 128]
  scatter_S50000x128_S800000x1_S800000x128_1_0_0_1_wf : ScatterDims.WF S50000x128 S800000x1 S800000x128 [1] [0] [0] 1
  dot_S50000x128_S128x128_S50000x128_1_0_0_1_n_n_wf : DotDims.WF S50000x128 S128x128 S50000x128 [1] [0] [0] [1] [] []
  dot_S1x128_S128x16_S1x16_1_0_0_1_n_n_wf : DotDims.WF S1x128 S128x16 S1x16 [1] [0] [0] [1] [] []

variable [Facts₀]

def scatter_S50000_S800000x1_S800000_n_0_0_1 : ScatterDims S50000 S800000x1 S800000 where
  updateWindowDims := []
  insertedWindowDims := [0]
  scatterDimsToOperandDims := [0]
  indexVectorDim := 1
  wf := scatter_S50000_S800000x1_S800000_n_0_0_1_wf
def gather_S50000x128_S800000x1_S800000x128_1_0_n_n_0_1_1128 : GatherDims S50000x128 S800000x1 S800000x128 where
  offsetDims := [1]
  collapsedSliceDims := [0]
  operandBatchingDims := []
  startIndicesBatchingDims := []
  startIndexMap := [0]
  indexVectorDim := 1
  sliceSizes := ![1, 128]
  wf := gather_S50000x128_S800000x1_S800000x128_1_0_n_n_0_1_1128_wf
def scatter_S50000x128_S800000x1_S800000x128_1_0_0_1 : ScatterDims S50000x128 S800000x1 S800000x128 where
  updateWindowDims := [1]
  insertedWindowDims := [0]
  scatterDimsToOperandDims := [0]
  indexVectorDim := 1
  wf := scatter_S50000x128_S800000x1_S800000x128_1_0_0_1_wf
def dot_S50000x128_S128x128_S50000x128_1_0_0_1_n_n : DotDims S50000x128 S128x128 S50000x128 where
  lhsContracting := [1]
  rhsContracting := [0]
  lhsNonContracting := [0]
  rhsNonContracting := [1]
  lhsBatch := []
  rhsBatch := []
  wf := dot_S50000x128_S128x128_S50000x128_1_0_0_1_n_n_wf
def dot_S1x128_S128x16_S1x16_1_0_0_1_n_n : DotDims S1x128 S128x16 S1x16 where
  lhsContracting := [1]
  rhsContracting := [0]
  lhsNonContracting := [0]
  rhsNonContracting := [1]
  lhsBatch := []
  rhsBatch := []
  wf := dot_S1x128_S128x16_S1x16_1_0_0_1_n_n_wf

class Facts : Prop extends Facts₀ where

variable [Facts]
-- ==== Proof.KBody0.lean ====
import proofs.«158609_j30133490549165_1_alg».proof.Proof.Gen.KernelIdeal.Launch
import proofs.«158609_j30133490549165_1_alg».proof.Proof.Gen.KernelIdeal.Skeleton
import proofs.«158609_j30133490549165_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Pipeline.Value
import Idealize.ShloMosaic.Lib.Ring
import Idealize.ShloMosaic.Lib.Tactic

/-! # Kernel region 0: what one run of the body leaves

The region's kernel is run once per row tile (ten tiles of 5000 rows). Its windows are: 0, the stacked
per-relation aggregates of the tile (4 × 5000 × 128); 1, the four relation weights (4 × 128 × 128); 2, the four
relation biases (4 × 128); 3, the tile of the result (5000 × 128). The body reads, relation by relation, the
relation's aggregate slab, weight and bias row, and writes the whole result tile once: the sum over the four relations of aggregate times weight plus bias, each row then divided by its Euclidean norm (floored) and passed through the leaky rectifier.

Everything here is stated at a parameter `V`, the contents of the core's buffers when the region is entered. -/

set_option maxRecDepth 16384

noncomputable section

namespace Cert.KernelIdeal.KF

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the contents of the core's buffers when the region is entered
variable (V : (c : Dev nD) → (b : Ref sig .tc) → Buf (Elt F) ((c : Thread nD τ).loc b))

/-! ## The windows' blocks -/

/-- Window `w`'s block at grid point `t`, read off the window's array as the region finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- Input window 0 (the aggregates' tile, fetched at every point) holds its block in its current staging buffer at every point, fetched there or not,
    for any proof data whose array is `V`'s and whose body leaves the block in place: where the window is not
    fetched its block index has not moved since the point before, so the block kept there is this point's. -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)

/-- Input window 1 (the weights, one block for the whole grid, fetched at the first point only) holds its block in its current staging buffer at every point, fetched there or not,
    for any proof data whose array is `V`'s and whose body leaves the block in place: where the window is not
    fetched its block index has not moved since the point before, so the block kept there is this point's. -/
theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)

/-- Input window 2 (the biases, one block for the whole grid, fetched at the first point only) holds its block in its current staging buffer at every point, fetched there or not,
    for any proof data whose array is `V`'s and whose body leaves the block in place: where the window is not
    fetched its block index has not moved since the point before, so the block kept there is this point's. -/
theorem before0_2_of {c : Dev nD} (dat : Dat τ (Elt F) Unit ℕ (UR sig nD τ) ℕ cfg0 c) (hA : dat.A 2 = V c (Pipeline.arrRef spec0 2))
    (hafter : ∀ t, dat.after 2 t = iblk0 V c 2 t) (t : Fin cfg0.N) (d) : dat.before 2 t d = iblk0 V c 2 t :=
  (dat.before_in_eq_fetched 2 rfl (fun _ => rfl) (fun _ _ _ => rfl) (fun t => by rw [hafter]; unfold Dat.blockOf iblk0; rw [hA]; try rfl) t d).trans
    (by unfold Dat.fetched Dat.blockOf iblk0; rw [hA]; try rfl)

/-! ## The body's accesses

Relation `r` (0 to 3) reads slab `r` of the aggregates' tile, weight `r` and bias row `r`: rectangles 3r, 3r+1, 3r+2.
Rectangle 12 is the whole result tile, read once (the value is not used) and then written once. -/

abbrev r0_0 : Rect S4x5000x128 := Rect.unit (s := S4x5000x128) ![0, 0, 0] S1x5000x128.size inb_S4x5000x128_S1x5000x128_0_0_0
abbrev r0_1 : Rect S4x128x128 := Rect.unit (s := S4x128x128) ![0, 0, 0] S1x128x128.size inb_S4x128x128_S1x128x128_0_0_0
abbrev r0_2 : Rect S4x128 := Rect.unit (s := S4x128) ![0, 0] S1x128.size inb_S4x128_S1x128_0_0
abbrev r0_3 : Rect S4x5000x128 := Rect.unit (s := S4x5000x128) ![1, 0, 0] S1x5000x128.size inb_S4x5000x128_S1x5000x128_1_0_0
abbrev r0_4 : Rect S4x128x128 := Rect.unit (s := S4x128x128) ![1, 0, 0] S1x128x128.size inb_S4x128x128_S1x128x128_1_0_0
abbrev r0_5 : Rect S4x128 := Rect.unit (s := S4x128) ![1, 0] S1x128.size inb_S4x128_S1x128_1_0
abbrev r0_6 : Rect S4x5000x128 := Rect.unit (s := S4x5000x128) ![2, 0, 0] S1x5000x128.size inb_S4x5000x128_S1x5000x128_2_0_0
abbrev r0_7 : Rect S4x128x128 := Rect.unit (s := S4x128x128) ![2, 0, 0] S1x128x128.size inb_S4x128x128_S1x128x128_2_0_0
abbrev r0_8 : Rect S4x128 := Rect.unit (s := S4x128) ![2, 0] S1x128.size inb_S4x128_S1x128_2_0
abbrev r0_9 : Rect S4x5000x128 := Rect.unit (s := S4x5000x128) ![3, 0, 0] S1x5000x128.size inb_S4x5000x128_S1x5000x128_3_0_0
abbrev r0_10 : Rect S4x128x128 := Rect.unit (s := S4x128x128) ![3, 0, 0] S1x128x128.size inb_S4x128x128_S1x128x128_3_0_0
abbrev r0_11 : Rect S4x128 := Rect.unit (s := S4x128) ![3, 0] S1x128.size inb_S4x128_S1x128_3_0
abbrev r0_12 : Rect S5000x128 := Rect.unit (s := S5000x128) ![0, 0] S5000x128.size inb_S5000x128_S5000x128_0_0

theorem zero_off0 : (![0, 0] : Fin S5000x128.rank → Nat) = fun _ => 0 := funext fun a => by fin_cases a <;> rfl

/-! ## What the body leaves in the result window's buffer -/

/-- The result window's staging buffer after the body, from the three input windows' blocks: the one store of the
    whole tile, whose payload is a function of the twelve slabs loaded. -/
def out0_3 (x0 : Vec F S4x5000x128 .bf16) (x1 : Vec F S4x128x128 .bf16) (x2 : Vec F S4x128 .f32) : Vec F S5000x128 .f32 :=
  View.canon [⟨r0_12, k0_pay1 (k0_pay2 (View.ld x0 r0_0) (View.ld x1 r0_1) (View.ld x2 r0_2) (View.ld x0 r0_3) (View.ld x1 r0_4) (View.ld x2 r0_5) (View.ld x0 r0_6) (View.ld x1 r0_7))
      (k0_pay3 (View.ld x2 r0_8)) (View.ld x0 r0_9) (View.ld x1 r0_10) (View.ld x2 r0_11)⟩]

/-- One store of the whole tile at offset zero leaves exactly its payload. -/
theorem out0_3_eq (x0 : Vec F S4x5000x128 .bf16) (x1 : Vec F S4x128x128 .bf16) (x2 : Vec F S4x128 .f32) :
    out0_3 x0 x1 x2 = k0_pay1 (k0_pay2 (View.ld x0 r0_0) (View.ld x1 r0_1) (View.ld x2 r0_2) (View.ld x0 r0_3) (View.ld x1 r0_4) (View.ld x2 r0_5) (View.ld x0 r0_6) (View.ld x1 r0_7))
      (k0_pay3 (View.ld x2 r0_8)) (View.ld x0 r0_9) (View.ld x1 r0_10) (View.ld x2 r0_11) := by
  unfold out0_3
  exact View.canon_unit_zero (S := S5000x128) zero_off0 inb_S5000x128_S5000x128_0_0 _

/-- The store covers the tile. -/
theorem cover0_3 (p0 : Vec F S5000x128 .f32) (y : S5000x128.Idx) :
    ∃ pc ∈ ([⟨r0_12, p0⟩] : List (View.Piece (Elt F) S5000x128 .f32)), y ∈ pc.1.set :=
  ⟨_, List.mem_singleton_self _, View.mem_set_unit_zero (S := S5000x128) zero_off0 inb_S5000x128_S5000x128_0_0 y⟩

/-! ## The body's triple -/

set_option maxHeartbeats 4000000 in
/-- The kernel body on whole staging memrefs, the three inputs' at contents `x0 x1 x2` and the result's at anything,
    runs to the continuation holding the inputs' as they were and the result's at `out0_3` of them. -/
theorem sound_kernel0 (c : Dev nD) (E : Set ℕ) (i : grid0.Coords)
    (arg1 : Memref sig .tc .vmem S4x5000x128 .bf16) (harg1 : arg1.IsWhole) (arg2 : Memref sig .tc .vmem S4x128x128 .bf16) (harg2 : arg2.IsWhole)
    (arg3 : Memref sig .tc .vmem S4x128 .f32) (harg3 : arg3.IsWhole) (arg4 : Memref sig .tc .vmem S5000x128 .f32) (harg4 : arg4.IsWhole)
    (x0 : Vec F S4x5000x128 .bf16) (x1 : Vec F S4x128x128 .bf16) (x2 : Vec F S4x128 .f32) (K : PUnit → sProp 𝕄) :
    iprop(owns (c : Thread nD τ) arg1 fullShare x0 ∗ owns (c : Thread nD τ) arg2 fullShare x1 ∗ owns (c : Thread nD τ) arg3 fullShare x2
        ∗ (∃ d, owns (c : Thread nD τ) arg4 fullShare d)
        ∗ (iprop(owns (c : Thread nD τ) arg1 fullShare x0 ∗ owns (c : Thread nD τ) arg2 fullShare x1 ∗ owns (c : Thread nD τ) arg3 fullShare x2
            ∗ owns (c : Thread nD τ) arg4 fullShare (out0_3 x0 x1 x2)) -∗ K ⟨⟩))
      ⊢ wp frame (wpE (defs₀ (F := F)) Variants.none c none) E (cc0__rel_mm_kernel i arg1 harg1 arg2 harg2 arg3 harg3 arg4 harg4) K := by
  simp only [cc0__rel_mm_kernel_eq_skeleton]; unfold cc0__rel_mm_kernel_skel
  simp only [k0_part1_eq_skeleton]; unfold k0_part1_skel
  unfold owns
  iintro ⟨⟨%f0, %hf0, H0⟩, ⟨%f1, %hf1, H1⟩, ⟨%f2, %hf2, H2⟩, ⟨%d3, %f3, -, H3⟩, Hk⟩
  subst hf0; subst hf1; subst hf2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  iexists _; isplitr
  swap; · iexact H3
  ipureintro
  exact View.read_writes_eq_canon _ _ _ (cover0_3 _)

/-! ## The pipeline's proof data -/

/-- The proof data of the region's pipeline on core `c`: the arrays as the region finds them; after the body at point
    `t` each input's buffer at its block and the result's at `out0_3` of the input blocks; the invariant is the scoped
    rest and the generator register, untouched; nothing owed; full shares. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => out0_3 (iblk0 V c 0 t) (iblk0 V c 1 t) (iblk0 V c 2 t)
  Φ _ := Pipeline.ΦA spec0 c
  q _ := fullShare
  owed _ := 0

/-- The proof data's arrays are the region-entry contents. -/
theorem A_eq0 (c : Dev nD) (w : Fin cfg0.W) : (dat0 V c).A w = V c (Pipeline.arrRef spec0 w) := by
  dsimp only [dat0]

/-- What the body leaves, window by window. -/
theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = iblk0 V c 2 t := by dsimp only [dat0]
theorem after0_3 (c : Dev nD) (t : Fin cfg0.N) :
    (dat0 V c).after 3 t = out0_3 (iblk0 V c 0 t) (iblk0 V c 1 t) (iblk0 V c 2 t) := by dsimp only [dat0]

/-- Each input's current staging buffer holds its block at every point. -/
theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d
theorem before0_2 (c : Dev nD) (t : Fin cfg0.N) (d) : (dat0 V c).before 2 t d = iblk0 V c 2 t :=
  before0_2_of V (dat0 V c) (A_eq0 V c 2) (after0_2 V c) t d

/-! ## The body obligation, at a generic point -/

/-- What the body is called with at point `t`, the windows one by one, -/
def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d))
    ∗ (∃ d, owns (c : Thread nD τ) (st0_3 t) fullShare ((dat0 V c).before 3 t d)))

/-- and what it returns. -/
def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t)
    ∗ owns (c : Thread nD τ) (st0_3 t) fullShare ((dat0 V c).after 3 t))

/-- The body at any point: the inputs' memrefs hold their blocks, so the body's triple applies; the invariant and the
    core's debts pass through unread. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1, before0_2]
  rw [show (dat0 V c).Φ t.succ = (dat0 V c).Φ t.castSucc from rfl,
    show (dat0 V c).owesAt () t.succ = (dat0 V c).owesAt () t.castSucc from rfl,
    after0_0, after0_1, after0_2, after0_3]
  iintro ⟨HΦ, Ho, ⟨%d0, H0⟩, ⟨%d1, H1⟩, ⟨%d2, H2⟩, ⟨%d3, H3⟩⟩
  iapply (sound_kernel0 c Set.univ _ _ _ _ _ _ _ _ _ (iblk0 V c 0 t) (iblk0 V c 1 t) (iblk0 V c 2 t) _)
  isplitl [H0]; · iexact H0
  isplitl [H1]; · iexact H1
  isplitl [H2]; · iexact H2
  isplitl [H3]; · iexists _; iexact H3
  iintro ⟨H0, H1, H2, H3⟩
  isplitl [HΦ]; · iexact HΦ
  isplitl [Ho]; · iexact Ho
  isplitl [H0]; · iexact H0
  isplitl [H1]; · iexact H1
  isplitl [H2]; · iexact H2
  iexact H3

/-- The library's body obligation, at every point. -/
theorem body_obligation0 (c : Dev nD) : BodyObligation (dat0 (F := F) V c) (defs₀ (F := F)) Variants.none () Set.univ := fun t => by
  rw [bigSep_W0, bigSep_W0]
  exact sound_body0 V c t

end Cert.KernelIdeal.KF

end
-- ==== Proof.KBody1.lean ====
import proofs.«158609_j30133490549165_1_alg».proof.Proof.Gen.KernelIdeal.Launch
import proofs.«158609_j30133490549165_1_alg».proof.Proof.Gen.KernelIdeal.Skeleton
import proofs.«158609_j30133490549165_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Pipeline.Value
import Idealize.ShloMosaic.Lib.Ring
import Idealize.ShloMosaic.Lib.Tactic

/-! # Kernel region 1: what one run of the body leaves

The region's kernel is run once per row tile (ten tiles of 5000 rows). Its windows are: 0, the stacked
per-relation aggregates of the tile (4 × 5000 × 128); 1, the four relation weights (4 × 128 × 128); 2, the four
relation biases (4 × 128); 3, the tile of the result (5000 × 128). The body reads, relation by relation, the
relation's aggregate slab, weight and bias row, and writes the whole result tile once: the sum over the four relations of aggregate times weight plus bias, each row then divided by its Euclidean norm (floored) and passed through the leaky rectifier.

Everything here is stated at a parameter `V`, the contents of the core's buffers when the region is entered. -/

set_option maxRecDepth 16384

noncomputable section

namespace Cert.KernelIdeal.KF

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the contents of the core's buffers when the region is entered
variable (V : (c : Dev nD) → (b : Ref sig .tc) → Buf (Elt F) ((c : Thread nD τ).loc b))

/-! ## The windows' blocks -/

/-- Window `w`'s block at grid point `t`, read off the window's array as the region finds it. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- Input window 0 (the aggregates' tile, fetched at every point) holds its block in its current staging buffer at every point, fetched there or not,
    for any proof data whose array is `V`'s and whose body leaves the block in place: where the window is not
    fetched its block index has not moved since the point before, so the block kept there is this point's. -/
theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)

/-- Input window 1 (the weights, one block for the whole grid, fetched at the first point only) holds its block in its current staging buffer at every point, fetched there or not,
    for any proof data whose array is `V`'s and whose body leaves the block in place: where the window is not
    fetched its block index has not moved since the point before, so the block kept there is this point's. -/
theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)

/-- Input window 2 (the biases, one block for the whole grid, fetched at the first point only) holds its block in its current staging buffer at every point, fetched there or not,
    for any proof data whose array is `V`'s and whose body leaves the block in place: where the window is not
    fetched its block index has not moved since the point before, so the block kept there is this point's. -/
theorem before1_2_of {c : Dev nD} (dat : Dat τ (Elt F) Unit ℕ (UR sig nD τ) ℕ cfg1 c) (hA : dat.A 2 = V c (Pipeline.arrRef spec1 2))
    (hafter : ∀ t, dat.after 2 t = iblk1 V c 2 t) (t : Fin cfg1.N) (d) : dat.before 2 t d = iblk1 V c 2 t :=
  (dat.before_in_eq_fetched 2 rfl (fun _ => rfl) (fun _ _ _ => rfl) (fun t => by rw [hafter]; unfold Dat.blockOf iblk1; rw [hA]; try rfl) t d).trans
    (by unfold Dat.fetched Dat.blockOf iblk1; rw [hA]; try rfl)

/-! ## The body's accesses

Relation `r` (0 to 3) reads slab `r` of the aggregates' tile, weight `r` and bias row `r`: rectangles 3r, 3r+1, 3r+2.
Rectangle 12 is the whole result tile, read once (the value is not used) and then written once. -/

abbrev r1_0 : Rect S4x5000x128 := Rect.unit (s := S4x5000x128) ![0, 0, 0] S1x5000x128.size inb_S4x5000x128_S1x5000x128_0_0_0
abbrev r1_1 : Rect S4x128x128 := Rect.unit (s := S4x128x128) ![0, 0, 0] S1x128x128.size inb_S4x128x128_S1x128x128_0_0_0
abbrev r1_2 : Rect S4x128 := Rect.unit (s := S4x128) ![0, 0] S1x128.size inb_S4x128_S1x128_0_0
abbrev r1_3 : Rect S4x5000x128 := Rect.unit (s := S4x5000x128) ![1, 0, 0] S1x5000x128.size inb_S4x5000x128_S1x5000x128_1_0_0
abbrev r1_4 : Rect S4x128x128 := Rect.unit (s := S4x128x128) ![1, 0, 0] S1x128x128.size inb_S4x128x128_S1x128x128_1_0_0
abbrev r1_5 : Rect S4x128 := Rect.unit (s := S4x128) ![1, 0] S1x128.size inb_S4x128_S1x128_1_0
abbrev r1_6 : Rect S4x5000x128 := Rect.unit (s := S4x5000x128) ![2, 0, 0] S1x5000x128.size inb_S4x5000x128_S1x5000x128_2_0_0
abbrev r1_7 : Rect S4x128x128 := Rect.unit (s := S4x128x128) ![2, 0, 0] S1x128x128.size inb_S4x128x128_S1x128x128_2_0_0
abbrev r1_8 : Rect S4x128 := Rect.unit (s := S4x128) ![2, 0] S1x128.size inb_S4x128_S1x128_2_0
abbrev r1_9 : Rect S4x5000x128 := Rect.unit (s := S4x5000x128) ![3, 0, 0] S1x5000x128.size inb_S4x5000x128_S1x5000x128_3_0_0
abbrev r1_10 : Rect S4x128x128 := Rect.unit (s := S4x128x128) ![3, 0, 0] S1x128x128.size inb_S4x128x128_S1x128x128_3_0_0
abbrev r1_11 : Rect S4x128 := Rect.unit (s := S4x128) ![3, 0] S1x128.size inb_S4x128_S1x128_3_0
abbrev r1_12 : Rect S5000x128 := Rect.unit (s := S5000x128) ![0, 0] S5000x128.size inb_S5000x128_S5000x128_0_0

theorem zero_off1 : (![0, 0] : Fin S5000x128.rank → Nat) = fun _ => 0 := funext fun a => by fin_cases a <;> rfl

/-! ## What the body leaves in the result window's buffer -/

/-- The result window's staging buffer after the body, from the three input windows' blocks: the one store of the
    whole tile, whose payload is a function of the twelve slabs loaded. -/
def out1_3 (x0 : Vec F S4x5000x128 .bf16) (x1 : Vec F S4x128x128 .bf16) (x2 : Vec F S4x128 .f32) : Vec F S5000x128 .f32 :=
  View.canon [⟨r1_12, k1_pay1 (k1_pay2 (View.ld x0 r1_0) (View.ld x1 r1_1) (View.ld x2 r1_2) (View.ld x0 r1_3) (View.ld x1 r1_4) (View.ld x2 r1_5) (View.ld x0 r1_6) (View.ld x1 r1_7))
      (k1_pay3 (View.ld x2 r1_8)) (View.ld x0 r1_9) (View.ld x1 r1_10) (View.ld x2 r1_11)⟩]

/-- One store of the whole tile at offset zero leaves exactly its payload. -/
theorem out1_3_eq (x0 : Vec F S4x5000x128 .bf16) (x1 : Vec F S4x128x128 .bf16) (x2 : Vec F S4x128 .f32) :
    out1_3 x0 x1 x2 = k1_pay1 (k1_pay2 (View.ld x0 r1_0) (View.ld x1 r1_1) (View.ld x2 r1_2) (View.ld x0 r1_3) (View.ld x1 r1_4) (View.ld x2 r1_5) (View.ld x0 r1_6) (View.ld x1 r1_7))
      (k1_pay3 (View.ld x2 r1_8)) (View.ld x0 r1_9) (View.ld x1 r1_10) (View.ld x2 r1_11) := by
  unfold out1_3
  exact View.canon_unit_zero (S := S5000x128) zero_off1 inb_S5000x128_S5000x128_0_0 _

/-- The store covers the tile. -/
theorem cover1_3 (p0 : Vec F S5000x128 .f32) (y : S5000x128.Idx) :
    ∃ pc ∈ ([⟨r1_12, p0⟩] : List (View.Piece (Elt F) S5000x128 .f32)), y ∈ pc.1.set :=
  ⟨_, List.mem_singleton_self _, View.mem_set_unit_zero (S := S5000x128) zero_off1 inb_S5000x128_S5000x128_0_0 y⟩

/-! ## The body's triple -/

set_option maxHeartbeats 4000000 in
/-- The kernel body on whole staging memrefs, the three inputs' at contents `x0 x1 x2` and the result's at anything,
    runs to the continuation holding the inputs' as they were and the result's at `out1_3` of them. -/
theorem sound_kernel1 (c : Dev nD) (E : Set ℕ) (i : grid1.Coords)
    (arg1 : Memref sig .tc .vmem S4x5000x128 .bf16) (harg1 : arg1.IsWhole) (arg2 : Memref sig .tc .vmem S4x128x128 .bf16) (harg2 : arg2.IsWhole)
    (arg3 : Memref sig .tc .vmem S4x128 .f32) (harg3 : arg3.IsWhole) (arg4 : Memref sig .tc .vmem S5000x128 .f32) (harg4 : arg4.IsWhole)
    (x0 : Vec F S4x5000x128 .bf16) (x1 : Vec F S4x128x128 .bf16) (x2 : Vec F S4x128 .f32) (K : PUnit → sProp 𝕄) :
    iprop(owns (c : Thread nD τ) arg1 fullShare x0 ∗ owns (c : Thread nD τ) arg2 fullShare x1 ∗ owns (c : Thread nD τ) arg3 fullShare x2
        ∗ (∃ d, owns (c : Thread nD τ) arg4 fullShare d)
        ∗ (iprop(owns (c : Thread nD τ) arg1 fullShare x0 ∗ owns (c : Thread nD τ) arg2 fullShare x1 ∗ owns (c : Thread nD τ) arg3 fullShare x2
            ∗ owns (c : Thread nD τ) arg4 fullShare (out1_3 x0 x1 x2)) -∗ K ⟨⟩))
      ⊢ wp frame (wpE (defs₀ (F := F)) Variants.none c none) E (cc1__rel_mm_kernel i arg1 harg1 arg2 harg2 arg3 harg3 arg4 harg4) K := by
  simp only [cc1__rel_mm_kernel_eq_skeleton]; unfold cc1__rel_mm_kernel_skel
  simp only [k1_part1_eq_skeleton]; unfold k1_part1_skel
  unfold owns
  iintro ⟨⟨%f0, %hf0, H0⟩, ⟨%f1, %hf1, H1⟩, ⟨%f2, %hf2, H2⟩, ⟨%d3, %f3, -, H3⟩, Hk⟩
  subst hf0; subst hf1; subst hf2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  iexists _; isplitr
  swap; · iexact H3
  ipureintro
  exact View.read_writes_eq_canon _ _ _ (cover1_3 _)

/-! ## The pipeline's proof data -/

/-- The proof data of the region's pipeline on core `c`: the arrays as the region finds them; after the body at point
    `t` each input's buffer at its block and the result's at `out1_3` of the input blocks; the invariant is the scoped
    rest and the generator register, untouched; nothing owed; full shares. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => out1_3 (iblk1 V c 0 t) (iblk1 V c 1 t) (iblk1 V c 2 t)
  Φ _ := Pipeline.ΦA spec1 c
  q _ := fullShare
  owed _ := 0

/-- The proof data's arrays are the region-entry contents. -/
theorem A_eq1 (c : Dev nD) (w : Fin cfg1.W) : (dat1 V c).A w = V c (Pipeline.arrRef spec1 w) := by
  dsimp only [dat1]

/-- What the body leaves, window by window. -/
theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) :
    (dat1 V c).after 3 t = out1_3 (iblk1 V c 0 t) (iblk1 V c 1 t) (iblk1 V c 2 t) := by dsimp only [dat1]

/-- Each input's current staging buffer holds its block at every point. -/
theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d
theorem before1_2 (c : Dev nD) (t : Fin cfg1.N) (d) : (dat1 V c).before 2 t d = iblk1 V c 2 t :=
  before1_2_of V (dat1 V c) (A_eq1 V c 2) (after1_2 V c) t d

/-! ## The body obligation, at a generic point -/

/-- What the body is called with at point `t`, the windows one by one, -/
def bodyPre1 (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d))
    ∗ (∃ d, owns (c : Thread nD τ) (st1_2 t) fullShare ((dat1 V c).before 2 t d))
    ∗ (∃ d, owns (c : Thread nD τ) (st1_3 t) fullShare ((dat1 V c).before 3 t d)))

/-- and what it returns. -/
def bodyPost1 (c : Dev nD) (t : Fin cfg1.N) : sProp 𝕄 :=
  iprop((dat1 V c).Φ t.succ ∗ (dat1 V c).owesAt () t.succ
    ∗ owns (c : Thread nD τ) (st1_0 t) fullShare ((dat1 V c).after 0 t)
    ∗ owns (c : Thread nD τ) (st1_1 t) fullShare ((dat1 V c).after 1 t)
    ∗ owns (c : Thread nD τ) (st1_2 t) fullShare ((dat1 V c).after 2 t)
    ∗ owns (c : Thread nD τ) (st1_3 t) fullShare ((dat1 V c).after 3 t))

/-- The body at any point: the inputs' memrefs hold their blocks, so the body's triple applies; the invariant and the
    core's debts pass through unread. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2]
  rw [show (dat1 V c).Φ t.succ = (dat1 V c).Φ t.castSucc from rfl,
    show (dat1 V c).owesAt () t.succ = (dat1 V c).owesAt () t.castSucc from rfl,
    after1_0, after1_1, after1_2, after1_3]
  iintro ⟨HΦ, Ho, ⟨%d0, H0⟩, ⟨%d1, H1⟩, ⟨%d2, H2⟩, ⟨%d3, H3⟩⟩
  iapply (sound_kernel1 c Set.univ _ _ _ _ _ _ _ _ _ (iblk1 V c 0 t) (iblk1 V c 1 t) (iblk1 V c 2 t) _)
  isplitl [H0]; · iexact H0
  isplitl [H1]; · iexact H1
  isplitl [H2]; · iexact H2
  isplitl [H3]; · iexists _; iexact H3
  iintro ⟨H0, H1, H2, H3⟩
  isplitl [HΦ]; · iexact HΦ
  isplitl [Ho]; · iexact Ho
  isplitl [H0]; · iexact H0
  isplitl [H1]; · iexact H1
  isplitl [H2]; · iexact H2
  iexact H3

/-- The library's body obligation, at every point. -/
theorem body_obligation1 (c : Dev nD) : BodyObligation (dat1 (F := F) V c) (defs₀ (F := F)) Variants.none () Set.univ := fun t => by
  rw [bigSep_W1, bigSep_W1]
  exact sound_body1 V c t

end Cert.KernelIdeal.KF

end
-- ==== Proof.KBody2.lean ====
import proofs.«158609_j30133490549165_1_alg».proof.Proof.Gen.KernelIdeal.Launch
import proofs.«158609_j30133490549165_1_alg».proof.Proof.Gen.KernelIdeal.Skeleton
import proofs.«158609_j30133490549165_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Pipeline.Value
import Idealize.ShloMosaic.Lib.Ring
import Idealize.ShloMosaic.Lib.Tactic

/-! # Kernel region 2: what one run of the body leaves

The region's kernel is run once per row tile (ten tiles of 5000 rows). Its windows are: 0, the stacked
per-relation aggregates of the tile (4 × 5000 × 128); 1, the four relation weights (4 × 128 × 128); 2, the four
relation biases (4 × 128); 3, the tile of the result (5000 × 128). The body reads, relation by relation, the
relation's aggregate slab, weight and bias row, and writes the whole result tile once: the sum over the four relations of aggregate times weight plus bias.

Everything here is stated at a parameter `V`, the contents of the core's buffers when the region is entered. -/

set_option maxRecDepth 16384

noncomputable section

namespace Cert.KernelIdeal.KF

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the contents of the core's buffers when the region is entered
variable (V : (c : Dev nD) → (b : Ref sig .tc) → Buf (Elt F) ((c : Thread nD τ).loc b))

/-! ## The windows' blocks -/

/-- Window `w`'s block at grid point `t`, read off the window's array as the region finds it. -/
def iblk2 (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

/-- Input window 0 (the aggregates' tile, fetched at every point) holds its block in its current staging buffer at every point, fetched there or not,
    for any proof data whose array is `V`'s and whose body leaves the block in place: where the window is not
    fetched its block index has not moved since the point before, so the block kept there is this point's. -/
theorem before2_0_of {c : Dev nD} (dat : Dat τ (Elt F) Unit ℕ (UR sig nD τ) ℕ cfg2 c) (hA : dat.A 0 = V c (Pipeline.arrRef spec2 0))
    (hafter : ∀ t, dat.after 0 t = iblk2 V c 0 t) (t : Fin cfg2.N) (d) : dat.before 0 t d = iblk2 V c 0 t :=
  (dat.before_in_eq_fetched 0 rfl (fun _ => rfl) (fun _ _ _ => rfl) (fun t => by rw [hafter]; unfold Dat.blockOf iblk2; rw [hA]; try rfl) t d).trans
    (by unfold Dat.fetched Dat.blockOf iblk2; rw [hA]; try rfl)

/-- Input window 1 (the weights, one block for the whole grid, fetched at the first point only) holds its block in its current staging buffer at every point, fetched there or not,
    for any proof data whose array is `V`'s and whose body leaves the block in place: where the window is not
    fetched its block index has not moved since the point before, so the block kept there is this point's. -/
theorem before2_1_of {c : Dev nD} (dat : Dat τ (Elt F) Unit ℕ (UR sig nD τ) ℕ cfg2 c) (hA : dat.A 1 = V c (Pipeline.arrRef spec2 1))
    (hafter : ∀ t, dat.after 1 t = iblk2 V c 1 t) (t : Fin cfg2.N) (d) : dat.before 1 t d = iblk2 V c 1 t :=
  (dat.before_in_eq_fetched 1 rfl (fun _ => rfl) (fun _ _ _ => rfl) (fun t => by rw [hafter]; unfold Dat.blockOf iblk2; rw [hA]; try rfl) t d).trans
    (by unfold Dat.fetched Dat.blockOf iblk2; rw [hA]; try rfl)

/-- Input window 2 (the biases, one block for the whole grid, fetched at the first point only) holds its block in its current staging buffer at every point, fetched there or not,
    for any proof data whose array is `V`'s and whose body leaves the block in place: where the window is not
    fetched its block index has not moved since the point before, so the block kept there is this point's. -/
theorem before2_2_of {c : Dev nD} (dat : Dat τ (Elt F) Unit ℕ (UR sig nD τ) ℕ cfg2 c) (hA : dat.A 2 = V c (Pipeline.arrRef spec2 2))
    (hafter : ∀ t, dat.after 2 t = iblk2 V c 2 t) (t : Fin cfg2.N) (d) : dat.before 2 t d = iblk2 V c 2 t :=
  (dat.before_in_eq_fetched 2 rfl (fun _ => rfl) (fun _ _ _ => rfl) (fun t => by rw [hafter]; unfold Dat.blockOf iblk2; rw [hA]; try rfl) t d).trans
    (by unfold Dat.fetched Dat.blockOf iblk2; rw [hA]; try rfl)

/-! ## The body's accesses

Relation `r` (0 to 3) reads slab `r` of the aggregates' tile, weight `r` and bias row `r`: rectangles 3r, 3r+1, 3r+2.
Rectangle 12 is the whole result tile, read once (the value is not used) and then written once. -/

abbrev r2_0 : Rect S4x5000x128 := Rect.unit (s := S4x5000x128) ![0, 0, 0] S1x5000x128.size inb_S4x5000x128_S1x5000x128_0_0_0
abbrev r2_1 : Rect S4x128x128 := Rect.unit (s := S4x128x128) ![0, 0, 0] S1x128x128.size inb_S4x128x128_S1x128x128_0_0_0
abbrev r2_2 : Rect S4x128 := Rect.unit (s := S4x128) ![0, 0] S1x128.size inb_S4x128_S1x128_0_0
abbrev r2_3 : Rect S4x5000x128 := Rect.unit (s := S4x5000x128) ![1, 0, 0] S1x5000x128.size inb_S4x5000x128_S1x5000x128_1_0_0
abbrev r2_4 : Rect S4x128x128 := Rect.unit (s := S4x128x128) ![1, 0, 0] S1x128x128.size inb_S4x128x128_S1x128x128_1_0_0
abbrev r2_5 : Rect S4x128 := Rect.unit (s := S4x128) ![1, 0] S1x128.size inb_S4x128_S1x128_1_0
abbrev r2_6 : Rect S4x5000x128 := Rect.unit (s := S4x5000x128) ![2, 0, 0] S1x5000x128.size inb_S4x5000x128_S1x5000x128_2_0_0
abbrev r2_7 : Rect S4x128x128 := Rect.unit (s := S4x128x128) ![2, 0, 0] S1x128x128.size inb_S4x128x128_S1x128x128_2_0_0
abbrev r2_8 : Rect S4x128 := Rect.unit (s := S4x128) ![2, 0] S1x128.size inb_S4x128_S1x128_2_0
abbrev r2_9 : Rect S4x5000x128 := Rect.unit (s := S4x5000x128) ![3, 0, 0] S1x5000x128.size inb_S4x5000x128_S1x5000x128_3_0_0
abbrev r2_10 : Rect S4x128x128 := Rect.unit (s := S4x128x128) ![3, 0, 0] S1x128x128.size inb_S4x128x128_S1x128x128_3_0_0
abbrev r2_11 : Rect S4x128 := Rect.unit (s := S4x128) ![3, 0] S1x128.size inb_S4x128_S1x128_3_0
abbrev r2_12 : Rect S5000x128 := Rect.unit (s := S5000x128) ![0, 0] S5000x128.size inb_S5000x128_S5000x128_0_0

theorem zero_off2 : (![0, 0] : Fin S5000x128.rank → Nat) = fun _ => 0 := funext fun a => by fin_cases a <;> rfl

/-! ## What the body leaves in the result window's buffer -/

/-- The result window's staging buffer after the body, from the three input windows' blocks: the one store of the
    whole tile, whose payload is a function of the twelve slabs loaded. -/
def out2_3 (x0 : Vec F S4x5000x128 .bf16) (x1 : Vec F S4x128x128 .bf16) (x2 : Vec F S4x128 .f32) : Vec F S5000x128 .f32 :=
  View.canon [⟨r2_12, k2_pay1 (k2_pay2 (View.ld x0 r2_0) (View.ld x1 r2_1) (View.ld x2 r2_2) (View.ld x0 r2_3) (View.ld x1 r2_4) (View.ld x2 r2_5) (View.ld x0 r2_6) (View.ld x1 r2_7))
      (k2_pay3 (View.ld x2 r2_8)) (View.ld x0 r2_9) (View.ld x1 r2_10) (View.ld x2 r2_11)⟩]

/-- One store of the whole tile at offset zero leaves exactly its payload. -/
theorem out2_3_eq (x0 : Vec F S4x5000x128 .bf16) (x1 : Vec F S4x128x128 .bf16) (x2 : Vec F S4x128 .f32) :
    out2_3 x0 x1 x2 = k2_pay1 (k2_pay2 (View.ld x0 r2_0) (View.ld x1 r2_1) (View.ld x2 r2_2) (View.ld x0 r2_3) (View.ld x1 r2_4) (View.ld x2 r2_5) (View.ld x0 r2_6) (View.ld x1 r2_7))
      (k2_pay3 (View.ld x2 r2_8)) (View.ld x0 r2_9) (View.ld x1 r2_10) (View.ld x2 r2_11) := by
  unfold out2_3
  exact View.canon_unit_zero (S := S5000x128) zero_off2 inb_S5000x128_S5000x128_0_0 _

/-- The store covers the tile. -/
theorem cover2_3 (p0 : Vec F S5000x128 .f32) (y : S5000x128.Idx) :
    ∃ pc ∈ ([⟨r2_12, p0⟩] : List (View.Piece (Elt F) S5000x128 .f32)), y ∈ pc.1.set :=
  ⟨_, List.mem_singleton_self _, View.mem_set_unit_zero (S := S5000x128) zero_off2 inb_S5000x128_S5000x128_0_0 y⟩

/-! ## The body's triple -/

set_option maxHeartbeats 4000000 in
/-- The kernel body on whole staging memrefs, the three inputs' at contents `x0 x1 x2` and the result's at anything,
    runs to the continuation holding the inputs' as they were and the result's at `out2_3` of them. -/
theorem sound_kernel2 (c : Dev nD) (E : Set ℕ) (i : grid2.Coords)
    (arg1 : Memref sig .tc .vmem S4x5000x128 .bf16) (harg1 : arg1.IsWhole) (arg2 : Memref sig .tc .vmem S4x128x128 .bf16) (harg2 : arg2.IsWhole)
    (arg3 : Memref sig .tc .vmem S4x128 .f32) (harg3 : arg3.IsWhole) (arg4 : Memref sig .tc .vmem S5000x128 .f32) (harg4 : arg4.IsWhole)
    (x0 : Vec F S4x5000x128 .bf16) (x1 : Vec F S4x128x128 .bf16) (x2 : Vec F S4x128 .f32) (K : PUnit → sProp 𝕄) :
    iprop(owns (c : Thread nD τ) arg1 fullShare x0 ∗ owns (c : Thread nD τ) arg2 fullShare x1 ∗ owns (c : Thread nD τ) arg3 fullShare x2
        ∗ (∃ d, owns (c : Thread nD τ) arg4 fullShare d)
        ∗ (iprop(owns (c : Thread nD τ) arg1 fullShare x0 ∗ owns (c : Thread nD τ) arg2 fullShare x1 ∗ owns (c : Thread nD τ) arg3 fullShare x2
            ∗ owns (c : Thread nD τ) arg4 fullShare (out2_3 x0 x1 x2)) -∗ K ⟨⟩))
      ⊢ wp frame (wpE (defs₀ (F := F)) Variants.none c none) E (cc2__rel_mm_kernel i arg1 harg1 arg2 harg2 arg3 harg3 arg4 harg4) K := by
  simp only [cc2__rel_mm_kernel_eq_skeleton]; unfold cc2__rel_mm_kernel_skel
  simp only [k2_part1_eq_skeleton]; unfold k2_part1_skel
  unfold owns
  iintro ⟨⟨%f0, %hf0, H0⟩, ⟨%f1, %hf1, H1⟩, ⟨%f2, %hf2, H2⟩, ⟨%d3, %f3, -, H3⟩, Hk⟩
  subst hf0; subst hf1; subst hf2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  iexists _; isplitr
  swap; · iexact H3
  ipureintro
  exact View.read_writes_eq_canon _ _ _ (cover2_3 _)

/-! ## The pipeline's proof data -/

/-- The proof data of the region's pipeline on core `c`: the arrays as the region finds them; after the body at point
    `t` each input's buffer at its block and the result's at `out2_3` of the input blocks; the invariant is the scoped
    rest and the generator register, untouched; nothing owed; full shares. -/
def dat2 (c : Dev nD) : Dat τ (Elt F) Unit ℕ (UR sig nD τ) ℕ cfg2 c where
  A w := V c (Pipeline.arrRef spec2 w)
  after w t := match w with
    | ⟨0, _⟩ => iblk2 V c 0 t
    | ⟨1, _⟩ => iblk2 V c 1 t
    | ⟨2, _⟩ => iblk2 V c 2 t
    | ⟨3, _⟩ => out2_3 (iblk2 V c 0 t) (iblk2 V c 1 t) (iblk2 V c 2 t)
  Φ _ := Pipeline.ΦA spec2 c
  q _ := fullShare
  owed _ := 0

/-- The proof data's arrays are the region-entry contents. -/
theorem A_eq2 (c : Dev nD) (w : Fin cfg2.W) : (dat2 V c).A w = V c (Pipeline.arrRef spec2 w) := by
  dsimp only [dat2]

/-- What the body leaves, window by window. -/
theorem after2_0 (c : Dev nD) (t : Fin cfg2.N) : (dat2 V c).after 0 t = iblk2 V c 0 t := by dsimp only [dat2]
theorem after2_1 (c : Dev nD) (t : Fin cfg2.N) : (dat2 V c).after 1 t = iblk2 V c 1 t := by dsimp only [dat2]
theorem after2_2 (c : Dev nD) (t : Fin cfg2.N) : (dat2 V c).after 2 t = iblk2 V c 2 t := by dsimp only [dat2]
theorem after2_3 (c : Dev nD) (t : Fin cfg2.N) :
    (dat2 V c).after 3 t = out2_3 (iblk2 V c 0 t) (iblk2 V c 1 t) (iblk2 V c 2 t) := by dsimp only [dat2]

/-- Each input's current staging buffer holds its block at every point. -/
theorem before2_0 (c : Dev nD) (t : Fin cfg2.N) (d) : (dat2 V c).before 0 t d = iblk2 V c 0 t :=
  before2_0_of V (dat2 V c) (A_eq2 V c 0) (after2_0 V c) t d
theorem before2_1 (c : Dev nD) (t : Fin cfg2.N) (d) : (dat2 V c).before 1 t d = iblk2 V c 1 t :=
  before2_1_of V (dat2 V c) (A_eq2 V c 1) (after2_1 V c) t d
theorem before2_2 (c : Dev nD) (t : Fin cfg2.N) (d) : (dat2 V c).before 2 t d = iblk2 V c 2 t :=
  before2_2_of V (dat2 V c) (A_eq2 V c 2) (after2_2 V c) t d

/-! ## The body obligation, at a generic point -/

/-- What the body is called with at point `t`, the windows one by one, -/
def bodyPre2 (c : Dev nD) (t : Fin cfg2.N) : sProp 𝕄 :=
  iprop((dat2 V c).Φ t.castSucc ∗ (dat2 V c).owesAt () t.castSucc
    ∗ (∃ d, owns (c : Thread nD τ) (st2_0 t) fullShare ((dat2 V c).before 0 t d))
    ∗ (∃ d, owns (c : Thread nD τ) (st2_1 t) fullShare ((dat2 V c).before 1 t d))
    ∗ (∃ d, owns (c : Thread nD τ) (st2_2 t) fullShare ((dat2 V c).before 2 t d))
    ∗ (∃ d, owns (c : Thread nD τ) (st2_3 t) fullShare ((dat2 V c).before 3 t d)))

/-- and what it returns. -/
def bodyPost2 (c : Dev nD) (t : Fin cfg2.N) : sProp 𝕄 :=
  iprop((dat2 V c).Φ t.succ ∗ (dat2 V c).owesAt () t.succ
    ∗ owns (c : Thread nD τ) (st2_0 t) fullShare ((dat2 V c).after 0 t)
    ∗ owns (c : Thread nD τ) (st2_1 t) fullShare ((dat2 V c).after 1 t)
    ∗ owns (c : Thread nD τ) (st2_2 t) fullShare ((dat2 V c).after 2 t)
    ∗ owns (c : Thread nD τ) (st2_3 t) fullShare ((dat2 V c).after 3 t))

/-- The body at any point: the inputs' memrefs hold their blocks, so the body's triple applies; the invariant and the
    core's debts pass through unread. -/
theorem sound_body2 (c : Dev nD) (t : Fin cfg2.N) :
    bodyPre2 V c t ⊢ wp frame (wpE (defs₀ (F := F)) Variants.none c none) Set.univ (bodyAt2 t) (fun _ => bodyPost2 V c t) := by
  unfold bodyPre2 bodyPost2 bodyAt2
  simp only [before2_0, before2_1, before2_2]
  rw [show (dat2 V c).Φ t.succ = (dat2 V c).Φ t.castSucc from rfl,
    show (dat2 V c).owesAt () t.succ = (dat2 V c).owesAt () t.castSucc from rfl,
    after2_0, after2_1, after2_2, after2_3]
  iintro ⟨HΦ, Ho, ⟨%d0, H0⟩, ⟨%d1, H1⟩, ⟨%d2, H2⟩, ⟨%d3, H3⟩⟩
  iapply (sound_kernel2 c Set.univ _ _ _ _ _ _ _ _ _ (iblk2 V c 0 t) (iblk2 V c 1 t) (iblk2 V c 2 t) _)
  isplitl [H0]; · iexact H0
  isplitl [H1]; · iexact H1
  isplitl [H2]; · iexact H2
  isplitl [H3]; · iexists _; iexact H3
  iintro ⟨H0, H1, H2, H3⟩
  isplitl [HΦ]; · iexact HΦ
  isplitl [Ho]; · iexact Ho
  isplitl [H0]; · iexact H0
  isplitl [H1]; · iexact H1
  isplitl [H2]; · iexact H2
  iexact H3

/-- The library's body obligation, at every point. -/
theorem body_obligation2 (c : Dev nD) : BodyObligation (dat2 (F := F) V c) (defs₀ (F := F)) Variants.none () Set.univ := fun t => by
  rw [bigSep_W2, bigSep_W2]
  exact sound_body2 V c t

end Cert.KernelIdeal.KF

end
-- ==== Proof.KRunHost.lean ====
/- The host stretches of @main between its three kernel regions: no operation of a stretch allocates a buffer,
   and each stretch's operations write only the references listed for it (every operation's result, in program
   order). A reference outside a stretch's list therefore keeps its contents across the stretch. -/
import proofs.«158609_j30133490549165_1_alg».proof.Proof.Gen.KernelIdeal.Launch
import Idealize.ShloMosaic.Lib.StableHlo.Run

set_option maxRecDepth 16384

noncomputable section

namespace Cert.KernelIdeal.KF

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

/-! ## Two lists related entry by entry -/

/-- If two lists are related entry by entry, every member of the first is related to some member of the second. -/
theorem exists_mem_of_forall₂ {α β : Type _} {R : α → β → Prop} {l₁ : List α} {l₂ : List β} (h : List.Forall₂ R l₁ l₂) :
    ∀ a ∈ l₁, ∃ b ∈ l₂, R a b := by
  induction h with
  | nil => intro a ha; cases ha
  | cons hab _ ih =>
    intro a ha
    rcases List.mem_cons.mp ha with rfl | ha
    · exact ⟨_, List.mem_cons_self, hab⟩
    · obtain ⟨b, hb, hr⟩ := ih a ha
      exact ⟨b, List.mem_cons_of_mem _ hb, hr⟩

/-- Operations that write one reference each, the references listed in order as `W`: each operation's writes lie
    within `W` (as device buffers of the TensorCore). -/
theorem writes_sub_of_forall₂ {ops : List (HloOp τ sig (Elt F))} {W : List (Ref sig .tc)}
    (h : List.Forall₂ (fun op y => op.writes = {Proc.devRef (τ := τ) .tc y}) ops W) :
    ops.Forall fun op => op.writes ⊆ (W.map (Proc.devRef (τ := τ) .tc)).toFinset :=
  List.forall_iff_forall_mem.mpr fun op hop => by
    obtain ⟨y, hy, he⟩ := exists_mem_of_forall₂ h op hop
    rw [he, Finset.singleton_subset_iff, List.mem_toFinset]
    exact List.mem_map_of_mem hy

/-! ## Stretch 0: 223 operations -/

set_option maxHeartbeats 40000000 in
/-- No operation of `hostOps0` allocates a buffer: each is a plain builder, whose fresh set is empty by definition. -/
theorem hostOps0_fresh : (hostOps0 : List (HloOp τ sig (Elt F))).Forall fun op => op.fresh = ∅ :=
  ⟨rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl,
   rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl,
   rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl,
   rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl,
   rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl,
   rfl, rfl, rfl, rfl, rfl, rfl, rfl, rfl, rfl, rfl, rfl, rfl, rfl, rfl, rfl, rfl, rfl, rfl, rfl, rfl, rfl, rfl, rfl⟩

/-- The references `hostOps0`'s operations write: the result of each operation, in program order. -/
abbrev hostOps0_W : List (Ref sig .tc) :=
  [main_cst, main_v0, main_v1, main_v2, main_cst_0, main_v3, main_v4, main_v5, main_cst_1, main_v6, main_v7, main_cst_2,
   main_v8, main_v9, main_v10, main_v11, main_cst_3, main_v12, main_v13, main_v14, main_cst_4, main_v15, main_v16, main_cst_5,
   main_v17, main_v18, main_v19, main_v20, main_cst_6, main_v21, main_v22, main_v23, main_cst_7, main_v24, main_v25, main_cst_8,
   main_v26, main_v27, main_v28, main_v29, main_cst_9, main_v30, main_v31, main_v32, main_cst_10, main_v33, main_v34, main_cst_11,
   main_v35, main_v36, main_v37, main_v38, main_cst_12, main_v39, main_v40, main_v41, main_cst_13, main_v42, main_v43, main_cst_14,
   main_v44, main_v45, main_v46, main_v47, main_cst_15, main_v48, main_v49, main_v50, main_cst_16, main_v51, main_v52, main_cst_17,
   main_v53, main_v54, main_v55, main_v56, main_cst_18, main_v57, main_v58, main_v59, main_cst_19, main_v60, main_v61, main_cst_20,
   main_v62, main_v63, main_v64, main_v65, main_cst_21, main_v66, main_v67, main_v68, main_cst_22, main_v69, main_v70, main_cst_23,
   main_v71, main_v72, main_v73, main_v74, main_v75, main_v76, main_v77, main_v78, main_v79, main_v80, main_v81, main_v82,
   main_v83, main_v84, main_v85, main_v86, main_v87, main_v88, main_v89, main_c, main_v90, main_v91, main_c_24, main_v92,
   main_v93, main_v94, main_v95, main_v96, main_v97, main_v98, main_cst_25, main_v99, main_v100, main_v101, main_v102, main_v103,
   main_v104, main_v105, main_v106, main_v107, main_v108, main_v109, main_v110, main_v111, main_v112, main_v113, main_c_26, main_v114,
   main_v115, main_c_27, main_v116, main_v117, main_v118, main_v119, main_v120, main_v121, main_v122, main_cst_28, main_v123, main_v124,
   main_v125, main_v126, main_v127, main_v128, main_v129, main_v130, main_v131, main_v132, main_v133, main_v134, main_v135, main_v136,
   main_v137, main_c_29, main_v138, main_v139, main_c_30, main_v140, main_v141, main_v142, main_v143, main_v144, main_v145, main_v146,
   main_cst_31, main_v147, main_v148, main_v149, main_v150, main_v151, main_v152, main_v153, main_v154, main_v155, main_v156, main_v157,
   main_v158, main_v159, main_v160, main_v161, main_c_32, main_v162, main_v163, main_c_33, main_v164, main_v165, main_v166, main_v167,
   main_v168, main_v169, main_v170, main_cst_34, main_v171, main_v172, main_v173, main_v174, main_v175, main_v176, main_v177, main_v178,
   main_v179, main_v180, main_v181, main_v182, main_v183, main_v184, main_v185]

set_option maxHeartbeats 40000000 in
/-- Operation by operation, what `hostOps0` writes is the single reference listed at its position (each builder writes
    its result only). -/
theorem hostOps0_writes_each : List.Forall₂ (fun op y => op.writes = {Proc.devRef (τ := τ) .tc y})
    (hostOps0 : List (HloOp τ sig (Elt F))) hostOps0_W :=
  .cons rfl <| .cons rfl <| .cons rfl <| .cons rfl <| .cons rfl <| .cons rfl <| .cons rfl <| .cons rfl <| .cons rfl <| .cons rfl <| .cons rfl <| .cons rfl <| .cons rfl <| .cons rfl <| .cons rfl <| .cons rfl <| .cons rfl <| .cons rfl <| .cons rfl <| .cons rfl <|
  .cons rfl <| .cons rfl <| .cons rfl <| .cons rfl <| .cons rfl <| .cons rfl <| .cons rfl <| .cons rfl <| .cons rfl <| .cons rfl <| .cons rfl <| .cons rfl <| .cons rfl <| .cons rfl <| .cons rfl <| .cons rfl <| .cons rfl <| .cons rfl <| .cons rfl <| .cons rfl <|
  .cons rfl <| .cons rfl <| .cons rfl <| .cons rfl <| .cons rfl <| .cons rfl <| .cons rfl <| .cons rfl <| .cons rfl <| .cons rfl <| .cons rfl <| .cons rfl <| .cons rfl <| .cons rfl <| .cons rfl <| .cons rfl <| .cons rfl <| .cons rfl <| .cons rfl <| .cons rfl <|
  .cons rfl <| .cons rfl <| .cons rfl <| .cons rfl <| .cons rfl <| .cons rfl <| .cons rfl <| .cons rfl <| .cons rfl <| .cons rfl <| .cons rfl <| .cons rfl <| .cons rfl <| .cons rfl <| .cons rfl <| .cons rfl <| .cons rfl <| .cons rfl <| .cons rfl <| .cons rfl <|
  .cons rfl <| .cons rfl <| .cons rfl <| .cons rfl <| .cons rfl <| .cons rfl <| .cons rfl <| .cons rfl <| .cons rfl <| .cons rfl <| .cons rfl <| .cons rfl <| .cons rfl <| .cons rfl <| .cons rfl <| .cons rfl <| .cons rfl <| .cons rfl <| .cons rfl <| .cons rfl <|
  .cons rfl <| .cons rfl <| .cons rfl <| .cons rfl <| .cons rfl <| .cons rfl <| .cons rfl <| .cons rfl <| .cons rfl <| .cons rfl <| .cons rfl <| .cons rfl <| .cons rfl <| .cons rfl <| .cons rfl <| .cons rfl <| .cons rfl <| .cons rfl <| .cons rfl <| .cons rfl <|
  .cons rfl <| .cons rfl <| .cons rfl <| .cons rfl <| .cons rfl <| .cons rfl <| .cons rfl <| .cons rfl <| .cons rfl <| .cons rfl <| .cons rfl <| .cons rfl <| .cons rfl <| .cons rfl <| .cons rfl <| .cons rfl <| .cons rfl <| .cons rfl <| .cons rfl <| .cons rfl <|
  .cons rfl <| .cons rfl <| .cons rfl <| .cons rfl <| .cons rfl <| .cons rfl <| .cons rfl <| .cons rfl <| .cons rfl <| .cons rfl <| .cons rfl <| .cons rfl <| .cons rfl <| .cons rfl <| .cons rfl <| .cons rfl <| .cons rfl <| .cons rfl <| .cons rfl <| .cons rfl <|
  .cons rfl <| .cons rfl <| .cons rfl <| .cons rfl <| .cons rfl <| .cons rfl <| .cons rfl <| .cons rfl <| .cons rfl <| .cons rfl <| .cons rfl <| .cons rfl <| .cons rfl <| .cons rfl <| .cons rfl <| .cons rfl <| .cons rfl <| .cons rfl <| .cons rfl <| .cons rfl <|
  .cons rfl <| .cons rfl <| .cons rfl <| .cons rfl <| .cons rfl <| .cons rfl <| .cons rfl <| .cons rfl <| .cons rfl <| .cons rfl <| .cons rfl <| .cons rfl <| .cons rfl <| .cons rfl <| .cons rfl <| .cons rfl <| .cons rfl <| .cons rfl <| .cons rfl <| .cons rfl <|
  .cons rfl <| .cons rfl <| .cons rfl <| .cons rfl <| .cons rfl <| .cons rfl <| .cons rfl <| .cons rfl <| .cons rfl <| .cons rfl <| .cons rfl <| .cons rfl <| .cons rfl <| .cons rfl <| .cons rfl <| .cons rfl <| .cons rfl <| .cons rfl <| .cons rfl <| .cons rfl <|
  .cons rfl <| .cons rfl <| .cons rfl <| .nil

/-- Every operation of `hostOps0` writes within the listed references. -/
theorem hostOps0_writes : (hostOps0 : List (HloOp τ sig (Elt F))).Forall fun op => op.writes ⊆ (hostOps0_W.map (Proc.devRef (τ := τ) .tc)).toFinset :=
  writes_sub_of_forall₂ hostOps0_writes_each

/-! ## Stretch 1: 115 operations -/

set_option maxHeartbeats 40000000 in
/-- No operation of `hostOps1` allocates a buffer: each is a plain builder, whose fresh set is empty by definition. -/
theorem hostOps1_fresh : (hostOps1 : List (HloOp τ sig (Elt F))).Forall fun op => op.fresh = ∅ :=
  ⟨rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl,
   rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl,
   rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl⟩

/-- The references `hostOps1`'s operations write: the result of each operation, in program order. -/
abbrev hostOps1_W : List (Ref sig .tc) :=
  [main_v187, main_v188, main_v189, main_v190, main_v191, main_v192, main_v193, main_c_35, main_v194, main_v195, main_c_36, main_v196,
   main_v197, main_v198, main_v199, main_v200, main_v201, main_v202, main_cst_37, main_v203, main_v204, main_v205, main_v206, main_v207,
   main_v208, main_v209, main_v210, main_v211, main_v212, main_v213, main_v214, main_v215, main_v216, main_v217, main_c_38, main_v218,
   main_v219, main_c_39, main_v220, main_v221, main_v222, main_v223, main_v224, main_v225, main_v226, main_cst_40, main_v227, main_v228,
   main_v229, main_v230, main_v231, main_v232, main_v233, main_v234, main_v235, main_v236, main_v237, main_v238, main_v239, main_v240,
   main_v241, main_c_41, main_v242, main_v243, main_c_42, main_v244, main_v245, main_v246, main_v247, main_v248, main_v249, main_v250,
   main_cst_43, main_v251, main_v252, main_v253, main_v254, main_v255, main_v256, main_v257, main_v258, main_v259, main_v260, main_v261,
   main_v262, main_v263, main_v264, main_v265, main_c_44, main_v266, main_v267, main_c_45, main_v268, main_v269, main_v270, main_v271,
   main_v272, main_v273, main_v274, main_cst_46, main_v275, main_v276, main_v277, main_v278, main_v279, main_v280, main_v281, main_v282,
   main_v283, main_v284, main_v285, main_v286, main_v287, main_v288, main_v289]

set_option maxHeartbeats 40000000 in
/-- Operation by operation, what `hostOps1` writes is the single reference listed at its position (each builder writes
    its result only). -/
theorem hostOps1_writes_each : List.Forall₂ (fun op y => op.writes = {Proc.devRef (τ := τ) .tc y})
    (hostOps1 : List (HloOp τ sig (Elt F))) hostOps1_W :=
  .cons rfl <| .cons rfl <| .cons rfl <| .cons rfl <| .cons rfl <| .cons rfl <| .cons rfl <| .cons rfl <| .cons rfl <| .cons rfl <| .cons rfl <| .cons rfl <| .cons rfl <| .cons rfl <| .cons rfl <| .cons rfl <| .cons rfl <| .cons rfl <| .cons rfl <| .cons rfl <|
  .cons rfl <| .cons rfl <| .cons rfl <| .cons rfl <| .cons rfl <| .cons rfl <| .cons rfl <| .cons rfl <| .cons rfl <| .cons rfl <| .cons rfl <| .cons rfl <| .cons rfl <| .cons rfl <| .cons rfl <| .cons rfl <| .cons rfl <| .cons rfl <| .cons rfl <| .cons rfl <|
  .cons rfl <| .cons rfl <| .cons rfl <| .cons rfl <| .cons rfl <| .cons rfl <| .cons rfl <| .cons rfl <| .cons rfl <| .cons rfl <| .cons rfl <| .cons rfl <| .cons rfl <| .cons rfl <| .cons rfl <| .cons rfl <| .cons rfl <| .cons rfl <| .cons rfl <| .cons rfl <|
  .cons rfl <| .cons rfl <| .cons rfl <| .cons rfl <| .cons rfl <| .cons rfl <| .cons rfl <| .cons rfl <| .cons rfl <| .cons rfl <| .cons rfl <| .cons rfl <| .cons rfl <| .cons rfl <| .cons rfl <| .cons rfl <| .cons rfl <| .cons rfl <| .cons rfl <| .cons rfl <|
  .cons rfl <| .cons rfl <| .cons rfl <| .cons rfl <| .cons rfl <| .cons rfl <| .cons rfl <| .cons rfl <| .cons rfl <| .cons rfl <| .cons rfl <| .cons rfl <| .cons rfl <| .cons rfl <| .cons rfl <| .cons rfl <| .cons rfl <| .cons rfl <| .cons rfl <| .cons rfl <|
  .cons rfl <| .cons rfl <| .cons rfl <| .cons rfl <| .cons rfl <| .cons rfl <| .cons rfl <| .cons rfl <| .cons rfl <| .cons rfl <| .cons rfl <| .cons rfl <| .cons rfl <| .cons rfl <| .cons rfl <| .nil

/-- Every operation of `hostOps1` writes within the listed references. -/
theorem hostOps1_writes : (hostOps1 : List (HloOp τ sig (Elt F))).Forall fun op => op.writes ⊆ (hostOps1_W.map (Proc.devRef (τ := τ) .tc)).toFinset :=
  writes_sub_of_forall₂ hostOps1_writes_each

/-! ## Stretch 2: 115 operations -/

set_option maxHeartbeats 40000000 in
/-- No operation of `hostOps2` allocates a buffer: each is a plain builder, whose fresh set is empty by definition. -/
theorem hostOps2_fresh : (hostOps2 : List (HloOp τ sig (Elt F))).Forall fun op => op.fresh = ∅ :=
  ⟨rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl,
   rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl,
   rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl⟩

/-- The references `hostOps2`'s operations write: the result of each operation, in program order. -/
abbrev hostOps2_W : List (Ref sig .tc) :=
  [main_v291, main_v292, main_v293, main_v294, main_v295, main_v296, main_v297, main_c_47, main_v298, main_v299, main_c_48, main_v300,
   main_v301, main_v302, main_v303, main_v304, main_v305, main_v306, main_cst_49, main_v307, main_v308, main_v309, main_v310, main_v311,
   main_v312, main_v313, main_v314, main_v315, main_v316, main_v317, main_v318, main_v319, main_v320, main_v321, main_c_50, main_v322,
   main_v323, main_c_51, main_v324, main_v325, main_v326, main_v327, main_v328, main_v329, main_v330, main_cst_52, main_v331, main_v332,
   main_v333, main_v334, main_v335, main_v336, main_v337, main_v338, main_v339, main_v340, main_v341, main_v342, main_v343, main_v344,
   main_v345, main_c_53, main_v346, main_v347, main_c_54, main_v348, main_v349, main_v350, main_v351, main_v352, main_v353, main_v354,
   main_cst_55, main_v355, main_v356, main_v357, main_v358, main_v359, main_v360, main_v361, main_v362, main_v363, main_v364, main_v365,
   main_v366, main_v367, main_v368, main_v369, main_c_56, main_v370, main_v371, main_c_57, main_v372, main_v373, main_v374, main_v375,
   main_v376, main_v377, main_v378, main_cst_58, main_v379, main_v380, main_v381, main_v382, main_v383, main_v384, main_v385, main_v386,
   main_v387, main_v388, main_v389, main_v390, main_v391, main_v392, main_v393]

set_option maxHeartbeats 40000000 in
/-- Operation by operation, what `hostOps2` writes is the single reference listed at its position (each builder writes
    its result only). -/
theorem hostOps2_writes_each : List.Forall₂ (fun op y => op.writes = {Proc.devRef (τ := τ) .tc y})
    (hostOps2 : List (HloOp τ sig (Elt F))) hostOps2_W :=
  .cons rfl <| .cons rfl <| .cons rfl <| .cons rfl <| .cons rfl <| .cons rfl <| .cons rfl <| .cons rfl <| .cons rfl <| .cons rfl <| .cons rfl <| .cons rfl <| .cons rfl <| .cons rfl <| .cons rfl <| .cons rfl <| .cons rfl <| .cons rfl <| .cons rfl <| .cons rfl <|
  .cons rfl <| .cons rfl <| .cons rfl <| .cons rfl <| .cons rfl <| .cons rfl <| .cons rfl <| .cons rfl <| .cons rfl <| .cons rfl <| .cons rfl <| .cons rfl <| .cons rfl <| .cons rfl <| .cons rfl <| .cons rfl <| .cons rfl <| .cons rfl <| .cons rfl <| .cons rfl <|
  .cons rfl <| .cons rfl <| .cons rfl <| .cons rfl <| .cons rfl <| .cons rfl <| .cons rfl <| .cons rfl <| .cons rfl <| .cons rfl <| .cons rfl <| .cons rfl <| .cons rfl <| .cons rfl <| .cons rfl <| .cons rfl <| .cons rfl <| .cons rfl <| .cons rfl <| .cons rfl <|
  .cons rfl <| .cons rfl <| .cons rfl <| .cons rfl <| .cons rfl <| .cons rfl <| .cons rfl <| .cons rfl <| .cons rfl <| .cons rfl <| .cons rfl <| .cons rfl <| .cons rfl <| .cons rfl <| .cons rfl <| .cons rfl <| .cons rfl <| .cons rfl <| .cons rfl <| .cons rfl <|
  .cons rfl <| .cons rfl <| .cons rfl <| .cons rfl <| .cons rfl <| .cons rfl <| .cons rfl <| .cons rfl <| .cons rfl <| .cons rfl <| .cons rfl <| .cons rfl <| .cons rfl <| .cons rfl <| .cons rfl <| .cons rfl <| .cons rfl <| .cons rfl <| .cons rfl <| .cons rfl <|
  .cons rfl <| .cons rfl <| .cons rfl <| .cons rfl <| .cons rfl <| .cons rfl <| .cons rfl <| .cons rfl <| .cons rfl <| .cons rfl <| .cons rfl <| .cons rfl <| .cons rfl <| .cons rfl <| .cons rfl <| .nil

/-- Every operation of `hostOps2` writes within the listed references. -/
theorem hostOps2_writes : (hostOps2 : List (HloOp τ sig (Elt F))).Forall fun op => op.writes ⊆ (hostOps2_W.map (Proc.devRef (τ := τ) .tc)).toFinset :=
  writes_sub_of_forall₂ hostOps2_writes_each

/-! ## Stretch 3: 91 operations -/

set_option maxHeartbeats 40000000 in
/-- No operation of `hostOps3` allocates a buffer: each is a plain builder, whose fresh set is empty by definition. -/
theorem hostOps3_fresh : (hostOps3 : List (HloOp τ sig (Elt F))).Forall fun op => op.fresh = ∅ :=
  ⟨rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl,
   rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl,
   rfl, rfl, rfl, rfl, rfl, rfl, rfl, rfl, rfl, rfl, rfl⟩

/-- The references `hostOps3`'s operations write: the result of each operation, in program order. -/
abbrev hostOps3_W : List (Ref sig .tc) :=
  [main_cst_59, main_v395, main_v396, main_v397, main_c_60, main_v398, main_v399, main_c_61, main_v400, main_v401, main_v402, main_v403,
   main_v404, main_v405, main_v406, main_cst_62, main_v407, main_v408, main_v409, main_v410, main_v411, main_v412, main_c_63, main_v413,
   main_v414, main_c_64, main_v415, main_v416, main_v417, main_v418, main_v419, main_v420, main_v421, main_cst_65, main_v422, main_v423,
   main_v424, main_v425, main_v426, main_v427, main_c_66, main_v428, main_v429, main_c_67, main_v430, main_v431, main_v432, main_v433,
   main_v434, main_v435, main_v436, main_cst_68, main_v437, main_v438, main_v439, main_v440, main_v441, main_v442, main_c_69, main_v443,
   main_v444, main_c_70, main_v445, main_v446, main_v447, main_v448, main_v449, main_v450, main_v451, main_cst_71, main_v452, main_v453,
   main_v454, main_v455, main_cst_72, main_v456, main_v457, main_cst_73, main_v458, main_v459, main_v460, main_v461, main_v462, main_v463,
   main_v464, main_cst_74, main_v465, main_v466, main_cst_75, main_v467, main_v468]

set_option maxHeartbeats 40000000 in
/-- Operation by operation, what `hostOps3` writes is the single reference listed at its position (each builder writes
    its result only). -/
theorem hostOps3_writes_each : List.Forall₂ (fun op y => op.writes = {Proc.devRef (τ := τ) .tc y})
    (hostOps3 : List (HloOp τ sig (Elt F))) hostOps3_W :=
  .cons rfl <| .cons rfl <| .cons rfl <| .cons rfl <| .cons rfl <| .cons rfl <| .cons rfl <| .cons rfl <| .cons rfl <| .cons rfl <| .cons rfl <| .cons rfl <| .cons rfl <| .cons rfl <| .cons rfl <| .cons rfl <| .cons rfl <| .cons rfl <| .cons rfl <| .cons rfl <|
  .cons rfl <| .cons rfl <| .cons rfl <| .cons rfl <| .cons rfl <| .cons rfl <| .cons rfl <| .cons rfl <| .cons rfl <| .cons rfl <| .cons rfl <| .cons rfl <| .cons rfl <| .cons rfl <| .cons rfl <| .cons rfl <| .cons rfl <| .cons rfl <| .cons rfl <| .cons rfl <|
  .cons rfl <| .cons rfl <| .cons rfl <| .cons rfl <| .cons rfl <| .cons rfl <| .cons rfl <| .cons rfl <| .cons rfl <| .cons rfl <| .cons rfl <| .cons rfl <| .cons rfl <| .cons rfl <| .cons rfl <| .cons rfl <| .cons rfl <| .cons rfl <| .cons rfl <| .cons rfl <|
  .cons rfl <| .cons rfl <| .cons rfl <| .cons rfl <| .cons rfl <| .cons rfl <| .cons rfl <| .cons rfl <| .cons rfl <| .cons rfl <| .cons rfl <| .cons rfl <| .cons rfl <| .cons rfl <| .cons rfl <| .cons rfl <| .cons rfl <| .cons rfl <| .cons rfl <| .cons rfl <|
  .cons rfl <| .cons rfl <| .cons rfl <| .cons rfl <| .cons rfl <| .cons rfl <| .cons rfl <| .cons rfl <| .cons rfl <| .cons rfl <| .cons rfl <| .nil

/-- Every operation of `hostOps3` writes within the listed references. -/
theorem hostOps3_writes : (hostOps3 : List (HloOp τ sig (Elt F))).Forall fun op => op.writes ⊆ (hostOps3_W.map (Proc.devRef (τ := τ) .tc)).toFinset :=
  writes_sub_of_forall₂ hostOps3_writes_each

end Cert.KernelIdeal.KF

end
-- ==== Proof.KRun.lean ====
/- The run of @main: four stretches of host operations around three kernel regions, as seven segments from the
   launch to the return. The buffer contents at the eight segment boundaries are a fold from the launch memory: a
   stretch rewrites what its operations write; a region leaves its four windows' arrays at what its pipeline leaves
   and every other buffer as it found it. Each argument array, read back through the fold, holds its launch contents:
   no stretch writes an argument, and a region reads an argument only through an input window. -/
import proofs.«158609_j30133490549165_1_alg».proof.Proof.KBody0
import proofs.«158609_j30133490549165_1_alg».proof.Proof.KBody1
import proofs.«158609_j30133490549165_1_alg».proof.Proof.KBody2
import proofs.«158609_j30133490549165_1_alg».proof.Proof.KRunHost
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.KF

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The buffer contents at each segment boundary -/

/-- Core `c`'s buffers at launch. -/
abbrev W0 : Dev nD → Valuation τ sig (Elt F) := fun c b => (s₀ m ρ).mem ((c : Dev nD), b)
/-- After the stretch `hostOps0` (region 0's entry). -/
abbrev W1 : Dev nD → Valuation τ sig (Elt F) := fun c => StableHlo.after hostOps0 (W0 m ρ c)
/-- The same read at the TensorCore's references: what region 0's proof data take. -/
abbrev V1 : (c : Dev nD) → (b : Ref sig .tc) → Buf (Elt F) ((c : Thread nD τ).loc b) := fun c b => W1 m ρ c b
/-- At region 0's exit: each window's array at what the pipeline leaves there (an input as entered, the output with
    every tile's write-back folded in), every other buffer as entered. -/
def W2 (c : Dev nD) : Valuation τ sig (Elt F) :=
  Pipeline.withArrays spec0 c (W1 m ρ c) fun w => (dat0 (V1 m ρ) c).arrAt w cfg0.N
theorem W2_arr (c : Dev nD) (w : Fin cfg0.W) :
    W2 m ρ c (Proc.devRef .tc (Pipeline.arrRef spec0 w)) = (dat0 (V1 m ρ) c).arrAt w cfg0.N := by
  unfold W2; exact Pipeline.withArrays_arr spec0 launch0.win.arr_inj c _ _ w
theorem W2_of_ne (c : Dev nD) (b : Ref sig .tc) (hb : ∀ w, Pipeline.arrRef spec0 w ≠ b) :
    W2 m ρ c (Proc.devRef .tc b) = W1 m ρ c (Proc.devRef .tc b) := by
  unfold W2; exact Pipeline.withArrays_of_ne spec0 c _ _ b hb
/-- The same read at the TensorCore's references: region 0's exit contents. -/
abbrev V2 : (c : Dev nD) → (b : Ref sig .tc) → Buf (Elt F) ((c : Thread nD τ).loc b) := fun c b => W2 m ρ c b
/-- At region 0's exit each of its arrays holds what the pipeline leaves, and every other buffer what it held at
    entry: the two facts that put the arrays back among the core's unscoped buffers. -/
theorem hF0 (c : Dev nD) (w : Fin cfg0.W) : (dat0 (V1 m ρ) c).arrAt w cfg0.N = V2 m ρ c (Pipeline.arrRef spec0 w) :=
  (W2_arr m ρ c w).symm
theorem hrest0 (c : Dev nD) : ∀ b, b ∉ Finset.univ.image (Pipeline.arrRef spec0) → V2 m ρ c b = V1 m ρ c b :=
  fun b hb => W2_of_ne m ρ c b fun w e => hb (Finset.mem_image.mpr ⟨w, Finset.mem_univ _, e⟩)

/-- After the stretch `hostOps1` (region 1's entry). -/
abbrev W3 : Dev nD → Valuation τ sig (Elt F) := fun c => StableHlo.after hostOps1 (W2 m ρ c)
/-- The same read at the TensorCore's references: what region 1's proof data take. -/
abbrev V3 : (c : Dev nD) → (b : Ref sig .tc) → Buf (Elt F) ((c : Thread nD τ).loc b) := fun c b => W3 m ρ c b
/-- At region 1's exit: each window's array at what the pipeline leaves there (an input as entered, the output with
    every tile's write-back folded in), every other buffer as entered. -/
def W4 (c : Dev nD) : Valuation τ sig (Elt F) :=
  Pipeline.withArrays spec1 c (W3 m ρ c) fun w => (dat1 (V3 m ρ) c).arrAt w cfg1.N
theorem W4_arr (c : Dev nD) (w : Fin cfg1.W) :
    W4 m ρ c (Proc.devRef .tc (Pipeline.arrRef spec1 w)) = (dat1 (V3 m ρ) c).arrAt w cfg1.N := by
  unfold W4; exact Pipeline.withArrays_arr spec1 launch1.win.arr_inj c _ _ w
theorem W4_of_ne (c : Dev nD) (b : Ref sig .tc) (hb : ∀ w, Pipeline.arrRef spec1 w ≠ b) :
    W4 m ρ c (Proc.devRef .tc b) = W3 m ρ c (Proc.devRef .tc b) := by
  unfold W4; exact Pipeline.withArrays_of_ne spec1 c _ _ b hb
/-- The same read at the TensorCore's references: region 1's exit contents. -/
abbrev V4 : (c : Dev nD) → (b : Ref sig .tc) → Buf (Elt F) ((c : Thread nD τ).loc b) := fun c b => W4 m ρ c b
/-- At region 1's exit each of its arrays holds what the pipeline leaves, and every other buffer what it held at
    entry: the two facts that put the arrays back among the core's unscoped buffers. -/
theorem hF1 (c : Dev nD) (w : Fin cfg1.W) : (dat1 (V3 m ρ) c).arrAt w cfg1.N = V4 m ρ c (Pipeline.arrRef spec1 w) :=
  (W4_arr m ρ c w).symm
theorem hrest1 (c : Dev nD) : ∀ b, b ∉ Finset.univ.image (Pipeline.arrRef spec1) → V4 m ρ c b = V3 m ρ c b :=
  fun b hb => W4_of_ne m ρ c b fun w e => hb (Finset.mem_image.mpr ⟨w, Finset.mem_univ _, e⟩)

/-- After the stretch `hostOps2` (region 2's entry). -/
abbrev W5 : Dev nD → Valuation τ sig (Elt F) := fun c => StableHlo.after hostOps2 (W4 m ρ c)
/-- The same read at the TensorCore's references: what region 2's proof data take. -/
abbrev V5 : (c : Dev nD) → (b : Ref sig .tc) → Buf (Elt F) ((c : Thread nD τ).loc b) := fun c b => W5 m ρ c b
/-- At region 2's exit: each window's array at what the pipeline leaves there (an input as entered, the output with
    every tile's write-back folded in), every other buffer as entered. -/
def W6 (c : Dev nD) : Valuation τ sig (Elt F) :=
  Pipeline.withArrays spec2 c (W5 m ρ c) fun w => (dat2 (V5 m ρ) c).arrAt w cfg2.N
theorem W6_arr (c : Dev nD) (w : Fin cfg2.W) :
    W6 m ρ c (Proc.devRef .tc (Pipeline.arrRef spec2 w)) = (dat2 (V5 m ρ) c).arrAt w cfg2.N := by
  unfold W6; exact Pipeline.withArrays_arr spec2 launch2.win.arr_inj c _ _ w
theorem W6_of_ne (c : Dev nD) (b : Ref sig .tc) (hb : ∀ w, Pipeline.arrRef spec2 w ≠ b) :
    W6 m ρ c (Proc.devRef .tc b) = W5 m ρ c (Proc.devRef .tc b) := by
  unfold W6; exact Pipeline.withArrays_of_ne spec2 c _ _ b hb
/-- The same read at the TensorCore's references: region 2's exit contents. -/
abbrev V6 : (c : Dev nD) → (b : Ref sig .tc) → Buf (Elt F) ((c : Thread nD τ).loc b) := fun c b => W6 m ρ c b
/-- At region 2's exit each of its arrays holds what the pipeline leaves, and every other buffer what it held at
    entry: the two facts that put the arrays back among the core's unscoped buffers. -/
theorem hF2 (c : Dev nD) (w : Fin cfg2.W) : (dat2 (V5 m ρ) c).arrAt w cfg2.N = V6 m ρ c (Pipeline.arrRef spec2 w) :=
  (W6_arr m ρ c w).symm
theorem hrest2 (c : Dev nD) : ∀ b, b ∉ Finset.univ.image (Pipeline.arrRef spec2) → V6 m ρ c b = V5 m ρ c b :=
  fun b hb => W6_of_ne m ρ c b fun w e => hb (Finset.mem_image.mpr ⟨w, Finset.mem_univ _, e⟩)

/-- After the stretch `hostOps3` (the return). -/
abbrev W7 : Dev nD → Valuation τ sig (Elt F) := fun c => StableHlo.after hostOps3 (W6 m ρ c)

/-! ## The arguments end as launched

No host operation writes an argument (it is not among the references its stretch writes). A region changes only its
windows' arrays, and an argument that is a window's array is an INPUT window's (the bias rows: argument 4 in region 0,
argument 6 in region 1, argument 8 in region 2), which the pipeline leaves as entered. So the fold, read at an
argument, walks back to the launch memory. -/

theorem W7_main_arg0 (c : Dev nD) : W7 m ρ c (Proc.devRef .tc main_arg0) = m ((c : Thread nD τ).loc main_arg0) :=
  calc W7 m ρ c (Proc.devRef .tc main_arg0)
    _ = W6 m ρ c (Proc.devRef .tc main_arg0) := StableHlo.after_of_writes_sub hostOps3 _ hostOps3_writes (by decide)
    _ = W5 m ρ c (Proc.devRef .tc main_arg0) := W6_of_ne m ρ c main_arg0 (by decide)
    _ = W4 m ρ c (Proc.devRef .tc main_arg0) := StableHlo.after_of_writes_sub hostOps2 _ hostOps2_writes (by decide)
    _ = W3 m ρ c (Proc.devRef .tc main_arg0) := W4_of_ne m ρ c main_arg0 (by decide)
    _ = W2 m ρ c (Proc.devRef .tc main_arg0) := StableHlo.after_of_writes_sub hostOps1 _ hostOps1_writes (by decide)
    _ = W1 m ρ c (Proc.devRef .tc main_arg0) := W2_of_ne m ρ c main_arg0 (by decide)
    _ = W0 m ρ c (Proc.devRef .tc main_arg0) := StableHlo.after_of_writes_sub hostOps0 _ hostOps0_writes (by decide)
    _ = m ((c : Thread nD τ).loc main_arg0) := rfl

theorem W7_main_arg1 (c : Dev nD) : W7 m ρ c (Proc.devRef .tc main_arg1) = m ((c : Thread nD τ).loc main_arg1) :=
  calc W7 m ρ c (Proc.devRef .tc main_arg1)
    _ = W6 m ρ c (Proc.devRef .tc main_arg1) := StableHlo.after_of_writes_sub hostOps3 _ hostOps3_writes (by decide)
    _ = W5 m ρ c (Proc.devRef .tc main_arg1) := W6_of_ne m ρ c main_arg1 (by decide)
    _ = W4 m ρ c (Proc.devRef .tc main_arg1) := StableHlo.after_of_writes_sub hostOps2 _ hostOps2_writes (by decide)
    _ = W3 m ρ c (Proc.devRef .tc main_arg1) := W4_of_ne m ρ c main_arg1 (by decide)
    _ = W2 m ρ c (Proc.devRef .tc main_arg1) := StableHlo.after_of_writes_sub hostOps1 _ hostOps1_writes (by decide)
    _ = W1 m ρ c (Proc.devRef .tc main_arg1) := W2_of_ne m ρ c main_arg1 (by decide)
    _ = W0 m ρ c (Proc.devRef .tc main_arg1) := StableHlo.after_of_writes_sub hostOps0 _ hostOps0_writes (by decide)
    _ = m ((c : Thread nD τ).loc main_arg1) := rfl

theorem W7_main_arg2 (c : Dev nD) : W7 m ρ c (Proc.devRef .tc main_arg2) = m ((c : Thread nD τ).loc main_arg2) :=
  calc W7 m ρ c (Proc.devRef .tc main_arg2)
    _ = W6 m ρ c (Proc.devRef .tc main_arg2) := StableHlo.after_of_writes_sub hostOps3 _ hostOps3_writes (by decide)
    _ = W5 m ρ c (Proc.devRef .tc main_arg2) := W6_of_ne m ρ c main_arg2 (by decide)
    _ = W4 m ρ c (Proc.devRef .tc main_arg2) := StableHlo.after_of_writes_sub hostOps2 _ hostOps2_writes (by decide)
    _ = W3 m ρ c (Proc.devRef .tc main_arg2) := W4_of_ne m ρ c main_arg2 (by decide)
    _ = W2 m ρ c (Proc.devRef .tc main_arg2) := StableHlo.after_of_writes_sub hostOps1 _ hostOps1_writes (by decide)
    _ = W1 m ρ c (Proc.devRef .tc main_arg2) := W2_of_ne m ρ c main_arg2 (by decide)
    _ = W0 m ρ c (Proc.devRef .tc main_arg2) := StableHlo.after_of_writes_sub hostOps0 _ hostOps0_writes (by decide)
    _ = m ((c : Thread nD τ).loc main_arg2) := rfl

theorem W7_main_arg3 (c : Dev nD) : W7 m ρ c (Proc.devRef .tc main_arg3) = m ((c : Thread nD τ).loc main_arg3) :=
  calc W7 m ρ c (Proc.devRef .tc main_arg3)
    _ = W6 m ρ c (Proc.devRef .tc main_arg3) := StableHlo.after_of_writes_sub hostOps3 _ hostOps3_writes (by decide)
    _ = W5 m ρ c (Proc.devRef .tc main_arg3) := W6_of_ne m ρ c main_arg3 (by decide)
    _ = W4 m ρ c (Proc.devRef .tc main_arg3) := StableHlo.after_of_writes_sub hostOps2 _ hostOps2_writes (by decide)
    _ = W3 m ρ c (Proc.devRef .tc main_arg3) := W4_of_ne m ρ c main_arg3 (by decide)
    _ = W2 m ρ c (Proc.devRef .tc main_arg3) := StableHlo.after_of_writes_sub hostOps1 _ hostOps1_writes (by decide)
    _ = W1 m ρ c (Proc.devRef .tc main_arg3) := W2_of_ne m ρ c main_arg3 (by decide)
    _ = W0 m ρ c (Proc.devRef .tc main_arg3) := StableHlo.after_of_writes_sub hostOps0 _ hostOps0_writes (by decide)
    _ = m ((c : Thread nD τ).loc main_arg3) := rfl

theorem W7_main_arg4 (c : Dev nD) : W7 m ρ c (Proc.devRef .tc main_arg4) = m ((c : Thread nD τ).loc main_arg4) :=
  calc W7 m ρ c (Proc.devRef .tc main_arg4)
    _ = W6 m ρ c (Proc.devRef .tc main_arg4) := StableHlo.after_of_writes_sub hostOps3 _ hostOps3_writes (by decide)
    _ = W5 m ρ c (Proc.devRef .tc main_arg4) := W6_of_ne m ρ c main_arg4 (by decide)
    _ = W4 m ρ c (Proc.devRef .tc main_arg4) := StableHlo.after_of_writes_sub hostOps2 _ hostOps2_writes (by decide)
    _ = W3 m ρ c (Proc.devRef .tc main_arg4) := W4_of_ne m ρ c main_arg4 (by decide)
    _ = W2 m ρ c (Proc.devRef .tc main_arg4) := StableHlo.after_of_writes_sub hostOps1 _ hostOps1_writes (by decide)
    _ = W1 m ρ c (Proc.devRef .tc main_arg4) := (W2_arr m ρ c 2).trans (((dat0 (V1 m ρ) c).arrAt_in 2 rfl _).trans (A_eq0 (V1 m ρ) c 2))
    _ = W0 m ρ c (Proc.devRef .tc main_arg4) := StableHlo.after_of_writes_sub hostOps0 _ hostOps0_writes (by decide)
    _ = m ((c : Thread nD τ).loc main_arg4) := rfl

theorem W7_main_arg5 (c : Dev nD) : W7 m ρ c (Proc.devRef .tc main_arg5) = m ((c : Thread nD τ).loc main_arg5) :=
  calc W7 m ρ c (Proc.devRef .tc main_arg5)
    _ = W6 m ρ c (Proc.devRef .tc main_arg5) := StableHlo.after_of_writes_sub hostOps3 _ hostOps3_writes (by decide)
    _ = W5 m ρ c (Proc.devRef .tc main_arg5) := W6_of_ne m ρ c main_arg5 (by decide)
    _ = W4 m ρ c (Proc.devRef .tc main_arg5) := StableHlo.after_of_writes_sub hostOps2 _ hostOps2_writes (by decide)
    _ = W3 m ρ c (Proc.devRef .tc main_arg5) := W4_of_ne m ρ c main_arg5 (by decide)
    _ = W2 m ρ c (Proc.devRef .tc main_arg5) := StableHlo.after_of_writes_sub hostOps1 _ hostOps1_writes (by decide)
    _ = W1 m ρ c (Proc.devRef .tc main_arg5) := W2_of_ne m ρ c main_arg5 (by decide)
    _ = W0 m ρ c (Proc.devRef .tc main_arg5) := StableHlo.after_of_writes_sub hostOps0 _ hostOps0_writes (by decide)
    _ = m ((c : Thread nD τ).loc main_arg5) := rfl

theorem W7_main_arg6 (c : Dev nD) : W7 m ρ c (Proc.devRef .tc main_arg6) = m ((c : Thread nD τ).loc main_arg6) :=
  calc W7 m ρ c (Proc.devRef .tc main_arg6)
    _ = W6 m ρ c (Proc.devRef .tc main_arg6) := StableHlo.after_of_writes_sub hostOps3 _ hostOps3_writes (by decide)
    _ = W5 m ρ c (Proc.devRef .tc main_arg6) := W6_of_ne m ρ c main_arg6 (by decide)
    _ = W4 m ρ c (Proc.devRef .tc main_arg6) := StableHlo.after_of_writes_sub hostOps2 _ hostOps2_writes (by decide)
    _ = W3 m ρ c (Proc.devRef .tc main_arg6) := (W4_arr m ρ c 2).trans (((dat1 (V3 m ρ) c).arrAt_in 2 rfl _).trans (A_eq1 (V3 m ρ) c 2))
    _ = W2 m ρ c (Proc.devRef .tc main_arg6) := StableHlo.after_of_writes_sub hostOps1 _ hostOps1_writes (by decide)
    _ = W1 m ρ c (Proc.devRef .tc main_arg6) := W2_of_ne m ρ c main_arg6 (by decide)
    _ = W0 m ρ c (Proc.devRef .tc main_arg6) := StableHlo.after_of_writes_sub hostOps0 _ hostOps0_writes (by decide)
    _ = m ((c : Thread nD τ).loc main_arg6) := rfl

theorem W7_main_arg7 (c : Dev nD) : W7 m ρ c (Proc.devRef .tc main_arg7) = m ((c : Thread nD τ).loc main_arg7) :=
  calc W7 m ρ c (Proc.devRef .tc main_arg7)
    _ = W6 m ρ c (Proc.devRef .tc main_arg7) := StableHlo.after_of_writes_sub hostOps3 _ hostOps3_writes (by decide)
    _ = W5 m ρ c (Proc.devRef .tc main_arg7) := W6_of_ne m ρ c main_arg7 (by decide)
    _ = W4 m ρ c (Proc.devRef .tc main_arg7) := StableHlo.after_of_writes_sub hostOps2 _ hostOps2_writes (by decide)
    _ = W3 m ρ c (Proc.devRef .tc main_arg7) := W4_of_ne m ρ c main_arg7 (by decide)
    _ = W2 m ρ c (Proc.devRef .tc main_arg7) := StableHlo.after_of_writes_sub hostOps1 _ hostOps1_writes (by decide)
    _ = W1 m ρ c (Proc.devRef .tc main_arg7) := W2_of_ne m ρ c main_arg7 (by decide)
    _ = W0 m ρ c (Proc.devRef .tc main_arg7) := StableHlo.after_of_writes_sub hostOps0 _ hostOps0_writes (by decide)
    _ = m ((c : Thread nD τ).loc main_arg7) := rfl

theorem W7_main_arg8 (c : Dev nD) : W7 m ρ c (Proc.devRef .tc main_arg8) = m ((c : Thread nD τ).loc main_arg8) :=
  calc W7 m ρ c (Proc.devRef .tc main_arg8)
    _ = W6 m ρ c (Proc.devRef .tc main_arg8) := StableHlo.after_of_writes_sub hostOps3 _ hostOps3_writes (by decide)
    _ = W5 m ρ c (Proc.devRef .tc main_arg8) := (W6_arr m ρ c 2).trans (((dat2 (V5 m ρ) c).arrAt_in 2 rfl _).trans (A_eq2 (V5 m ρ) c 2))
    _ = W4 m ρ c (Proc.devRef .tc main_arg8) := StableHlo.after_of_writes_sub hostOps2 _ hostOps2_writes (by decide)
    _ = W3 m ρ c (Proc.devRef .tc main_arg8) := W4_of_ne m ρ c main_arg8 (by decide)
    _ = W2 m ρ c (Proc.devRef .tc main_arg8) := StableHlo.after_of_writes_sub hostOps1 _ hostOps1_writes (by decide)
    _ = W1 m ρ c (Proc.devRef .tc main_arg8) := W2_of_ne m ρ c main_arg8 (by decide)
    _ = W0 m ρ c (Proc.devRef .tc main_arg8) := StableHlo.after_of_writes_sub hostOps0 _ hostOps0_writes (by decide)
    _ = m ((c : Thread nD τ).loc main_arg8) := rfl

theorem W7_main_arg9 (c : Dev nD) : W7 m ρ c (Proc.devRef .tc main_arg9) = m ((c : Thread nD τ).loc main_arg9) :=
  calc W7 m ρ c (Proc.devRef .tc main_arg9)
    _ = W6 m ρ c (Proc.devRef .tc main_arg9) := StableHlo.after_of_writes_sub hostOps3 _ hostOps3_writes (by decide)
    _ = W5 m ρ c (Proc.devRef .tc main_arg9) := W6_of_ne m ρ c main_arg9 (by decide)
    _ = W4 m ρ c (Proc.devRef .tc main_arg9) := StableHlo.after_of_writes_sub hostOps2 _ hostOps2_writes (by decide)
    _ = W3 m ρ c (Proc.devRef .tc main_arg9) := W4_of_ne m ρ c main_arg9 (by decide)
    _ = W2 m ρ c (Proc.devRef .tc main_arg9) := StableHlo.after_of_writes_sub hostOps1 _ hostOps1_writes (by decide)
    _ = W1 m ρ c (Proc.devRef .tc main_arg9) := W2_of_ne m ρ c main_arg9 (by decide)
    _ = W0 m ρ c (Proc.devRef .tc main_arg9) := StableHlo.after_of_writes_sub hostOps0 _ hostOps0_writes (by decide)
    _ = m ((c : Thread nD τ).loc main_arg9) := rfl

theorem W7_main_arg10 (c : Dev nD) : W7 m ρ c (Proc.devRef .tc main_arg10) = m ((c : Thread nD τ).loc main_arg10) :=
  calc W7 m ρ c (Proc.devRef .tc main_arg10)
    _ = W6 m ρ c (Proc.devRef .tc main_arg10) := StableHlo.after_of_writes_sub hostOps3 _ hostOps3_writes (by decide)
    _ = W5 m ρ c (Proc.devRef .tc main_arg10) := W6_of_ne m ρ c main_arg10 (by decide)
    _ = W4 m ρ c (Proc.devRef .tc main_arg10) := StableHlo.after_of_writes_sub hostOps2 _ hostOps2_writes (by decide)
    _ = W3 m ρ c (Proc.devRef .tc main_arg10) := W4_of_ne m ρ c main_arg10 (by decide)
    _ = W2 m ρ c (Proc.devRef .tc main_arg10) := StableHlo.after_of_writes_sub hostOps1 _ hostOps1_writes (by decide)
    _ = W1 m ρ c (Proc.devRef .tc main_arg10) := W2_of_ne m ρ c main_arg10 (by decide)
    _ = W0 m ρ c (Proc.devRef .tc main_arg10) := StableHlo.after_of_writes_sub hostOps0 _ hostOps0_writes (by decide)
    _ = m ((c : Thread nD τ).loc main_arg10) := rfl

/-! ## The proof data family and the thread state -/

/-- The prefetched tables' admissible contents: no pipeline has a table. -/
abbrev adm : (p : Fin 3) → (pcfgs (F := F) p).Adm := fun p => (cfgs p).toPCfg_adm
/-- Every pipeline's proof data, each at its region's entry contents: a literal case split on the pipeline's index, so
    that the pinned configuration at a numeral reduces to the printed one. -/
def pdats : (p : Fin 3) → (c : Dev nD) → Dat τ (Elt F) Unit ℕ (UR sig nD τ) ℕ (Pipeline.pin (pcfgs (F := F)) adm p) c
  | ⟨0, _⟩ => fun c => dat0 (V1 m ρ) c
  | ⟨1, _⟩ => fun c => dat1 (V3 m ρ) c
  | ⟨2, _⟩ => fun c => dat2 (V5 m ρ) c
abbrev 𝒱₀ : Variants := Variants.none
/-- No core owes another anything: no level is assigned. -/
abbrev L : GSem nD τ sig → Finset Unit := fun _ => ∅
abbrev lv : GSem nD τ sig → Unit → ℕ := fun _ _ => 0
/-- What rides beside the buffers through every segment: the core's generator register at some state (a region's
    invariant takes it in and gives it back) and the core owing nothing. -/
abbrev R (c : Dev nD) : sProp 𝕄 := iprop((∃ r, prngReg c r) ∗ ∃ W, owes (c : Thread nD τ) (0 : CellTallies nD τ sig Unit) W)
/-- A host stretch as a segment: its operations run over the unscoped references from the contents `W`, `R` riding
    along; it ends with those references at the contents the operations leave. -/
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R

/-- An unscoped TensorCore reference is among those the thread state holds. -/
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
/-- The last thread state without the core's debt (the run ends at it BESIDE the core owing nothing): every unscoped
    buffer at the last boundary's contents `W7`, the generator register at some state. -/
abbrev Tₙ (c : Dev nD) : sProp 𝕄 := iprop(StableHlo.held (c : Thread nD τ) (Pipeline.ucRefs τ sig) (W7 m ρ c) ∗ ∃ r, prngReg c r)

/-! ## The regions as segments -/

set_option backward.isDefEq.respectTransparency.types false in
/-- REGION 0 over the thread state: entered from every unscoped buffer at `W1`, left at `W2`. Its four arrays are
    split out of the unscoped buffers at entry and put back at the exit contents; the generator register goes into
    the region's invariant and comes back; nothing is owed; the kernel has no semaphore of its own. -/
def reg0 : Pipeline.RegionSeg (pcfgs (F := F)) adm (pdats m ρ) () defs₀ 𝒱₀ L lv 0 where
  win := launch0.win.to₀
  block_pos := launch0.block_pos
  stage_whole := launch0.stage_whole
  K := PEmpty
  osem k := k.elim
  ho := Pipeline.OwnSemFacts.none _
  hbody c := (body_obligation0 (V1 m ρ) c).loose
  hwaits := Pipeline.hwaits_of_owed_zero _ _ _ _ L lv 0 fun _ _ => rfl
  pre c := iprop(StableHlo.held (c : Thread nD τ) (Pipeline.ucRefs τ sig) (W1 m ρ c) ∗ R c)
  post c := iprop(StableHlo.held (c : Thread nD τ) (Pipeline.ucRefs τ sig) (W2 m ρ c) ∗ R c)
  X c := iprop(∃ r, prngReg c r)
  Y c := iprop(∃ r, prngReg c r)
  Z c := Pipeline.unscopedRest (Ix := Unit) (Name := ℕ) (U := UR sig nD τ) (Lvl := ℕ) spec0 c (V1 m ρ c)
  hentry c := by
    rw [Pipeline.ownSems0_none]
    have hsplit := Pipeline.arrays_of_unscopedBufs (p := 0) (pcfgs (F := F)) adm (pdats m ρ) launch0.win launch0.arr_whole c
      ((pdats m ρ 0 c).share_full fun _ => rfl) (V1 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m ρ 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m ρ) ((pdats m ρ 0 c).share_full fun _ => rfl)
      (V1 m ρ c) (V2 m ρ c) ((pdats m ρ 0 c).arrAt · cfg0.N) (hF0 m ρ c) (hrest0 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- REGION 1 over the thread state: entered from every unscoped buffer at `W3`, left at `W4`. Its four arrays are
    split out of the unscoped buffers at entry and put back at the exit contents; the generator register goes into
    the region's invariant and comes back; nothing is owed; the kernel has no semaphore of its own. -/
def reg1 : Pipeline.RegionSeg (pcfgs (F := F)) adm (pdats m ρ) () defs₀ 𝒱₀ L lv 1 where
  win := launch1.win.to₀
  block_pos := launch1.block_pos
  stage_whole := launch1.stage_whole
  K := PEmpty
  osem k := k.elim
  ho := Pipeline.OwnSemFacts.none _
  hbody c := (body_obligation1 (V3 m ρ) c).loose
  hwaits := Pipeline.hwaits_of_owed_zero _ _ _ _ L lv 1 fun _ _ => rfl
  pre c := iprop(StableHlo.held (c : Thread nD τ) (Pipeline.ucRefs τ sig) (W3 m ρ c) ∗ R c)
  post c := iprop(StableHlo.held (c : Thread nD τ) (Pipeline.ucRefs τ sig) (W4 m ρ c) ∗ R c)
  X c := iprop(∃ r, prngReg c r)
  Y c := iprop(∃ r, prngReg c r)
  Z c := Pipeline.unscopedRest (Ix := Unit) (Name := ℕ) (U := UR sig nD τ) (Lvl := ℕ) spec1 c (V3 m ρ c)
  hentry c := by
    rw [Pipeline.ownSems0_none]
    have hsplit := Pipeline.arrays_of_unscopedBufs (p := 1) (pcfgs (F := F)) adm (pdats m ρ) launch1.win launch1.arr_whole c
      ((pdats m ρ 1 c).share_full fun _ => rfl) (V3 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 1 c).Φ 0 = Pipeline.ΦA spec1 c from rfl]; unfold Pipeline.ΦA
    iintro ⟨Hp, -, Hr⟩
    isplitl [Hr]; · iexact Hr
    iexact Hp
  hout c := by
    rw [Pipeline.ownSems0_none, show (pdats m ρ 1 c).Φ (Fin.last _) = Pipeline.ΦA spec1 c from rfl]; unfold Pipeline.ΦA
    iintro ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m ρ) ((pdats m ρ 1 c).share_full fun _ => rfl)
      (V3 m ρ c) (V4 m ρ c) ((pdats m ρ 1 c).arrAt · cfg1.N) (hF1 m ρ c) (hrest1 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- REGION 2 over the thread state: entered from every unscoped buffer at `W5`, left at `W6`. Its four arrays are
    split out of the unscoped buffers at entry and put back at the exit contents; the generator register goes into
    the region's invariant and comes back; nothing is owed; the kernel has no semaphore of its own. -/
def reg2 : Pipeline.RegionSeg (pcfgs (F := F)) adm (pdats m ρ) () defs₀ 𝒱₀ L lv 2 where
  win := launch2.win.to₀
  block_pos := launch2.block_pos
  stage_whole := launch2.stage_whole
  K := PEmpty
  osem k := k.elim
  ho := Pipeline.OwnSemFacts.none _
  hbody c := (body_obligation2 (V5 m ρ) c).loose
  hwaits := Pipeline.hwaits_of_owed_zero _ _ _ _ L lv 2 fun _ _ => rfl
  pre c := iprop(StableHlo.held (c : Thread nD τ) (Pipeline.ucRefs τ sig) (W5 m ρ c) ∗ R c)
  post c := iprop(StableHlo.held (c : Thread nD τ) (Pipeline.ucRefs τ sig) (W6 m ρ c) ∗ R c)
  X c := iprop(∃ r, prngReg c r)
  Y c := iprop(∃ r, prngReg c r)
  Z c := Pipeline.unscopedRest (Ix := Unit) (Name := ℕ) (U := UR sig nD τ) (Lvl := ℕ) spec2 c (V5 m ρ c)
  hentry c := by
    rw [Pipeline.ownSems0_none]
    have hsplit := Pipeline.arrays_of_unscopedBufs (p := 2) (pcfgs (F := F)) adm (pdats m ρ) launch2.win launch2.arr_whole c
      ((pdats m ρ 2 c).share_full fun _ => rfl) (V5 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 2 c).Φ 0 = Pipeline.ΦA spec2 c from rfl]; unfold Pipeline.ΦA
    iintro ⟨Hp, -, Hr⟩
    isplitl [Hr]; · iexact Hr
    iexact Hp
  hout c := by
    rw [Pipeline.ownSems0_none, show (pdats m ρ 2 c).Φ (Fin.last _) = Pipeline.ΦA spec2 c from rfl]; unfold Pipeline.ΦA
    iintro ⟨Hr, Hp⟩
    isplitl [Hp]; · iexact Hp
    isplitr; · iempintro
    iexact Hr
  hexit c := by
    have hjoin := Pipeline.unscopedBufs_of_arrays (p := 2) (pcfgs (F := F)) adm (Ix := Unit) (Name := ℕ) (U := UR sig nD τ) (Lvl := ℕ)
      launch2.win launch2.arr_whole c (pdats m ρ) ((pdats m ρ 2 c).share_full fun _ => rfl)
      (V5 m ρ c) (V6 m ρ c) ((pdats m ρ 2 c).arrAt · cfg2.N) (hF2 m ρ c) (hrest2 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

/-! ## @main as segments, and the launch -/

/-- @main's 7 segments in order: a host segment per stretch from its boundary's contents, a region per kernel call. -/
abbrev segs : List (Pipeline.Seg (pcfgs (F := F)) adm (pdats m ρ) () defs₀ 𝒱₀ L lv) :=
  [ .host (hseg hostOps0 hostOps0_sub hostOps0_fresh (W0 m ρ)),
    .region (reg0 m ρ),
    .host (hseg hostOps1 hostOps1_sub hostOps1_fresh (W2 m ρ)),
    .region (reg1 m ρ),
    .host (hseg hostOps2 hostOps2_sub hostOps2_fresh (W4 m ρ)),
    .region (reg2 m ρ),
    .host (hseg hostOps3 hostOps3_sub hostOps3_fresh (W6 m ρ)) ]
/-- @main IS the run of the segments: it is the chain of its seven items, and the segments' run is the same chain. -/
theorem main_run (c : Dev nD) : main (F := F) c = Pipeline.Seg.run (segs m ρ) := (main_chain c).trans (by chain_rfl)

set_option backward.isDefEq.respectTransparency.types false in
/-- THE RUN, at any `F` and any postcondition `Q` that follows from the final memory holding, on every core, every
    unscoped buffer at the last boundary's contents `W7`: from any memory with zero counters every weakly fair
    execution of @main on the TensorCores terminates, nothing faulting, in a state satisfying `Q`. The launch over
    the seven segments; the last thread state is read against the final state buffer by buffer. -/
theorem run_of {Q : PUnit × MemSt nD τ sig (Elt F) → Prop}
    (hQ : ∀ s : MemSt nD τ sig (Elt F), (∀ c : Dev nD, ∀ b ∈ Pipeline.ucRefs τ sig, s.mem (((c : Thread nD τ)).1, b) = W7 m ρ c b) → Q (⟨⟩, s)) :
    θ_run defs (onTc (τ := τ) (main (F := F))) ⟨m, fun _ => 0, ρ⟩ Q :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun c => by
      show iprop(StableHlo.held (c : Thread nD τ) (Pipeline.ucRefs τ sig) (W7 m ρ c) ∗ R c)
        ⊢ iprop(Tₙ m ρ c ∗ ∃ W, owes (c : Thread nD τ) (0 : CellTallies nD τ sig Unit) W)
      iintro ⟨Hh, Hp, HO⟩
      isplitl [Hh Hp]
      · isplitl [Hh]; · iexact Hh
        iexact Hp
      iexact HO⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W7 m ρ c b)
    (hfin := fun c s' => by
      iintro ⟨⟨Hh, -⟩, HSI⟩
      unfold StableHlo.held
      imodintro
      iapply (pointsTo_read_all (Pipeline.ucRefs τ sig) (fun b => (((c : Thread nD τ)).1, b)) (W7 m ρ c) s')
      isplitl [Hh] <;> iassumption)
    (hQ := hQ)

/-- The run with the final memory's reading itself as the postcondition: on every core every unscoped buffer ends at
    the last boundary's contents. -/
theorem run : θ_run defs (onTc (τ := τ) (main (F := F))) ⟨m, fun _ => 0, ρ⟩
    (fun r => ∀ c : Dev nD, ∀ b ∈ Pipeline.ucRefs τ sig, r.2.mem (((c : Thread nD τ)).1, b) = W7 m ρ c b) :=
  run_of m ρ fun _ h => h

/-- THE FRAME: every argument array ends holding its launch contents (each argument is an unscoped buffer, read off the
    last boundary's contents and walked back through the fold). -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)) :=
  run_of m ρ fun s h c =>
    ⟨(h c _ (mem_uc main_arg0 (by decide))).trans (W7_main_arg0 m ρ c),
     (h c _ (mem_uc main_arg1 (by decide))).trans (W7_main_arg1 m ρ c),
     (h c _ (mem_uc main_arg2 (by decide))).trans (W7_main_arg2 m ρ c),
     (h c _ (mem_uc main_arg3 (by decide))).trans (W7_main_arg3 m ρ c),
     (h c _ (mem_uc main_arg4 (by decide))).trans (W7_main_arg4 m ρ c),
     (h c _ (mem_uc main_arg5 (by decide))).trans (W7_main_arg5 m ρ c),
     (h c _ (mem_uc main_arg6 (by decide))).trans (W7_main_arg6 m ρ c),
     (h c _ (mem_uc main_arg7 (by decide))).trans (W7_main_arg7 m ρ c),
     (h c _ (mem_uc main_arg8 (by decide))).trans (W7_main_arg8 m ρ c),
     (h c _ (mem_uc main_arg9 (by decide))).trans (W7_main_arg9 m ρ c),
     (h c _ (mem_uc main_arg10 (by decide))).trans (W7_main_arg10 m ρ c)⟩

end Cert.KernelIdeal.KF

end
-- ==== Proof.KBodyB0.lean ====
import proofs.«158609_j30133490549165_1_alg».proof.Proof.Gen.Kernel.Launch
import proofs.«158609_j30133490549165_1_alg».proof.Proof.Gen.Kernel.Skeleton
import proofs.«158609_j30133490549165_1_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Pipeline.Value
import Idealize.ShloMosaic.Lib.Ring
import Idealize.ShloMosaic.Lib.Tactic

/-! # Kernel region 0: what one run of the body leaves

The region's kernel is run once per row tile (ten tiles of 5000 rows). Its windows are: 0, the stacked
per-relation aggregates of the tile (4 × 5000 × 128); 1, the four relation weights (4 × 128 × 128); 2, the four
relation biases (4 × 128); 3, the tile of the result (5000 × 128). The body reads, relation by relation, the
relation's aggregate slab, weight and bias row, and writes the whole result tile once: the sum over the four relations of aggregate times weight plus bias, each row then divided by its Euclidean norm (floored) and passed through the leaky rectifier.

Everything here is stated at a parameter `V`, the contents of the core's buffers when the region is entered. -/

set_option maxRecDepth 16384

noncomputable section

namespace Cert.Kernel.KF

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the contents of the core's buffers when the region is entered
variable (V : (c : Dev nD) → (b : Ref sig .tc) → Buf (Elt F) ((c : Thread nD τ).loc b))

/-! ## The windows' blocks -/

/-- Window `w`'s block at grid point `t`, read off the window's array as the region finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- Input window 0 (the aggregates' tile, fetched at every point) holds its block in its current staging buffer at every point, fetched there or not,
    for any proof data whose array is `V`'s and whose body leaves the block in place: where the window is not
    fetched its block index has not moved since the point before, so the block kept there is this point's. -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)

/-- Input window 1 (the weights, one block for the whole grid, fetched at the first point only) holds its block in its current staging buffer at every point, fetched there or not,
    for any proof data whose array is `V`'s and whose body leaves the block in place: where the window is not
    fetched its block index has not moved since the point before, so the block kept there is this point's. -/
theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)

/-- Input window 2 (the biases, one block for the whole grid, fetched at the first point only) holds its block in its current staging buffer at every point, fetched there or not,
    for any proof data whose array is `V`'s and whose body leaves the block in place: where the window is not
    fetched its block index has not moved since the point before, so the block kept there is this point's. -/
theorem before0_2_of {c : Dev nD} (dat : Dat τ (Elt F) Unit ℕ (UR sig nD τ) ℕ cfg0 c) (hA : dat.A 2 = V c (Pipeline.arrRef spec0 2))
    (hafter : ∀ t, dat.after 2 t = iblk0 V c 2 t) (t : Fin cfg0.N) (d) : dat.before 2 t d = iblk0 V c 2 t :=
  (dat.before_in_eq_fetched 2 rfl (fun _ => rfl) (fun _ _ _ => rfl) (fun t => by rw [hafter]; unfold Dat.blockOf iblk0; rw [hA]; try rfl) t d).trans
    (by unfold Dat.fetched Dat.blockOf iblk0; rw [hA]; try rfl)

/-! ## The body's accesses

Relation `r` (0 to 3) reads slab `r` of the aggregates' tile, weight `r` and bias row `r`: rectangles 3r, 3r+1, 3r+2.
Rectangle 12 is the whole result tile, read once (the value is not used) and then written once. -/

abbrev r0_0 : Rect S4x5000x128 := Rect.unit (s := S4x5000x128) ![0, 0, 0] S1x5000x128.size inb_S4x5000x128_S1x5000x128_0_0_0
abbrev r0_1 : Rect S4x128x128 := Rect.unit (s := S4x128x128) ![0, 0, 0] S1x128x128.size inb_S4x128x128_S1x128x128_0_0_0
abbrev r0_2 : Rect S4x128 := Rect.unit (s := S4x128) ![0, 0] S1x128.size inb_S4x128_S1x128_0_0
abbrev r0_3 : Rect S4x5000x128 := Rect.unit (s := S4x5000x128) ![1, 0, 0] S1x5000x128.size inb_S4x5000x128_S1x5000x128_1_0_0
abbrev r0_4 : Rect S4x128x128 := Rect.unit (s := S4x128x128) ![1, 0, 0] S1x128x128.size inb_S4x128x128_S1x128x128_1_0_0
abbrev r0_5 : Rect S4x128 := Rect.unit (s := S4x128) ![1, 0] S1x128.size inb_S4x128_S1x128_1_0
abbrev r0_6 : Rect S4x5000x128 := Rect.unit (s := S4x5000x128) ![2, 0, 0] S1x5000x128.size inb_S4x5000x128_S1x5000x128_2_0_0
abbrev r0_7 : Rect S4x128x128 := Rect.unit (s := S4x128x128) ![2, 0, 0] S1x128x128.size inb_S4x128x128_S1x128x128_2_0_0
abbrev r0_8 : Rect S4x128 := Rect.unit (s := S4x128) ![2, 0] S1x128.size inb_S4x128_S1x128_2_0
abbrev r0_9 : Rect S4x5000x128 := Rect.unit (s := S4x5000x128) ![3, 0, 0] S1x5000x128.size inb_S4x5000x128_S1x5000x128_3_0_0
abbrev r0_10 : Rect S4x128x128 := Rect.unit (s := S4x128x128) ![3, 0, 0] S1x128x128.size inb_S4x128x128_S1x128x128_3_0_0
abbrev r0_11 : Rect S4x128 := Rect.unit (s := S4x128) ![3, 0] S1x128.size inb_S4x128_S1x128_3_0
abbrev r0_12 : Rect S5000x128 := Rect.unit (s := S5000x128) ![0, 0] S5000x128.size inb_S5000x128_S5000x128_0_0

theorem zero_off0 : (![0, 0] : Fin S5000x128.rank → Nat) = fun _ => 0 := funext fun a => by fin_cases a <;> rfl

/-! ## What the body leaves in the result window's buffer -/

/-- The result window's staging buffer after the body, from the three input windows' blocks: the one store of the
    whole tile, whose payload is a function of the twelve slabs loaded. -/
def out0_3 (x0 : Vec F S4x5000x128 .bf16) (x1 : Vec F S4x128x128 .bf16) (x2 : Vec F S4x128 .f32) : Vec F S5000x128 .f32 :=
  View.canon [⟨r0_12, k0_pay1 (k0_pay2 (View.ld x0 r0_0) (View.ld x1 r0_1) (View.ld x2 r0_2) (View.ld x0 r0_3) (View.ld x1 r0_4) (View.ld x2 r0_5) (View.ld x0 r0_6) (View.ld x1 r0_7))
      (k0_pay3 (View.ld x2 r0_8)) (View.ld x0 r0_9) (View.ld x1 r0_10) (View.ld x2 r0_11)⟩]

/-- One store of the whole tile at offset zero leaves exactly its payload. -/
theorem out0_3_eq (x0 : Vec F S4x5000x128 .bf16) (x1 : Vec F S4x128x128 .bf16) (x2 : Vec F S4x128 .f32) :
    out0_3 x0 x1 x2 = k0_pay1 (k0_pay2 (View.ld x0 r0_0) (View.ld x1 r0_1) (View.ld x2 r0_2) (View.ld x0 r0_3) (View.ld x1 r0_4) (View.ld x2 r0_5) (View.ld x0 r0_6) (View.ld x1 r0_7))
      (k0_pay3 (View.ld x2 r0_8)) (View.ld x0 r0_9) (View.ld x1 r0_10) (View.ld x2 r0_11) := by
  unfold out0_3
  exact View.canon_unit_zero (S := S5000x128) zero_off0 inb_S5000x128_S5000x128_0_0 _

/-- The store covers the tile. -/
theorem cover0_3 (p0 : Vec F S5000x128 .f32) (y : S5000x128.Idx) :
    ∃ pc ∈ ([⟨r0_12, p0⟩] : List (View.Piece (Elt F) S5000x128 .f32)), y ∈ pc.1.set :=
  ⟨_, List.mem_singleton_self _, View.mem_set_unit_zero (S := S5000x128) zero_off0 inb_S5000x128_S5000x128_0_0 y⟩

/-! ## The body's triple -/

set_option maxHeartbeats 4000000 in
/-- The kernel body on whole staging memrefs, the three inputs' at contents `x0 x1 x2` and the result's at anything,
    runs to the continuation holding the inputs' as they were and the result's at `out0_3` of them. -/
theorem sound_kernel0 (c : Dev nD) (E : Set ℕ) (i : grid0.Coords)
    (arg1 : Memref sig .tc .vmem S4x5000x128 .bf16) (harg1 : arg1.IsWhole) (arg2 : Memref sig .tc .vmem S4x128x128 .bf16) (harg2 : arg2.IsWhole)
    (arg3 : Memref sig .tc .vmem S4x128 .f32) (harg3 : arg3.IsWhole) (arg4 : Memref sig .tc .vmem S5000x128 .f32) (harg4 : arg4.IsWhole)
    (x0 : Vec F S4x5000x128 .bf16) (x1 : Vec F S4x128x128 .bf16) (x2 : Vec F S4x128 .f32) (K : PUnit → sProp 𝕄) :
    iprop(owns (c : Thread nD τ) arg1 fullShare x0 ∗ owns (c : Thread nD τ) arg2 fullShare x1 ∗ owns (c : Thread nD τ) arg3 fullShare x2
        ∗ (∃ d, owns (c : Thread nD τ) arg4 fullShare d)
        ∗ (iprop(owns (c : Thread nD τ) arg1 fullShare x0 ∗ owns (c : Thread nD τ) arg2 fullShare x1 ∗ owns (c : Thread nD τ) arg3 fullShare x2
            ∗ owns (c : Thread nD τ) arg4 fullShare (out0_3 x0 x1 x2)) -∗ K ⟨⟩))
      ⊢ wp frame (wpE (defs₀ (F := F)) Variants.none c none) E (cc0__rel_mm_kernel i arg1 harg1 arg2 harg2 arg3 harg3 arg4 harg4) K := by
  simp only [cc0__rel_mm_kernel_eq_skeleton]; unfold cc0__rel_mm_kernel_skel
  simp only [k0_part1_eq_skeleton]; unfold k0_part1_skel
  unfold owns
  iintro ⟨⟨%f0, %hf0, H0⟩, ⟨%f1, %hf1, H1⟩, ⟨%f2, %hf2, H2⟩, ⟨%d3, %f3, -, H3⟩, Hk⟩
  subst hf0; subst hf1; subst hf2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  iexists _; isplitr
  swap; · iexact H3
  ipureintro
  exact View.read_writes_eq_canon _ _ _ (cover0_3 _)

/-! ## The pipeline's proof data -/

/-- The proof data of the region's pipeline on core `c`: the arrays as the region finds them; after the body at point
    `t` each input's buffer at its block and the result's at `out0_3` of the input blocks; the invariant is the scoped
    rest and the generator register, untouched; nothing owed; full shares. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => out0_3 (iblk0 V c 0 t) (iblk0 V c 1 t) (iblk0 V c 2 t)
  Φ _ := Pipeline.ΦA spec0 c
  q _ := fullShare
  owed _ := 0

/-- The proof data's arrays are the region-entry contents. -/
theorem A_eq0 (c : Dev nD) (w : Fin cfg0.W) : (dat0 V c).A w = V c (Pipeline.arrRef spec0 w) := by
  dsimp only [dat0]

/-- What the body leaves, window by window. -/
theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = iblk0 V c 2 t := by dsimp only [dat0]
theorem after0_3 (c : Dev nD) (t : Fin cfg0.N) :
    (dat0 V c).after 3 t = out0_3 (iblk0 V c 0 t) (iblk0 V c 1 t) (iblk0 V c 2 t) := by dsimp only [dat0]

/-- Each input's current staging buffer holds its block at every point. -/
theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d
theorem before0_2 (c : Dev nD) (t : Fin cfg0.N) (d) : (dat0 V c).before 2 t d = iblk0 V c 2 t :=
  before0_2_of V (dat0 V c) (A_eq0 V c 2) (after0_2 V c) t d

/-! ## The body obligation, at a generic point -/

/-- What the body is called with at point `t`, the windows one by one, -/
def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d))
    ∗ (∃ d, owns (c : Thread nD τ) (st0_3 t) fullShare ((dat0 V c).before 3 t d)))

/-- and what it returns. -/
def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t)
    ∗ owns (c : Thread nD τ) (st0_3 t) fullShare ((dat0 V c).after 3 t))

/-- The body at any point: the inputs' memrefs hold their blocks, so the body's triple applies; the invariant and the
    core's debts pass through unread. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1, before0_2]
  rw [show (dat0 V c).Φ t.succ = (dat0 V c).Φ t.castSucc from rfl,
    show (dat0 V c).owesAt () t.succ = (dat0 V c).owesAt () t.castSucc from rfl,
    after0_0, after0_1, after0_2, after0_3]
  iintro ⟨HΦ, Ho, ⟨%d0, H0⟩, ⟨%d1, H1⟩, ⟨%d2, H2⟩, ⟨%d3, H3⟩⟩
  iapply (sound_kernel0 c Set.univ _ _ _ _ _ _ _ _ _ (iblk0 V c 0 t) (iblk0 V c 1 t) (iblk0 V c 2 t) _)
  isplitl [H0]; · iexact H0
  isplitl [H1]; · iexact H1
  isplitl [H2]; · iexact H2
  isplitl [H3]; · iexists _; iexact H3
  iintro ⟨H0, H1, H2, H3⟩
  isplitl [HΦ]; · iexact HΦ
  isplitl [Ho]; · iexact Ho
  isplitl [H0]; · iexact H0
  isplitl [H1]; · iexact H1
  isplitl [H2]; · iexact H2
  iexact H3

/-- The library's body obligation, at every point. -/
theorem body_obligation0 (c : Dev nD) : BodyObligation (dat0 (F := F) V c) (defs₀ (F := F)) Variants.none () Set.univ := fun t => by
  rw [bigSep_W0, bigSep_W0]
  exact sound_body0 V c t

end Cert.Kernel.KF

end
-- ==== Proof.KBodyB1.lean ====
import proofs.«158609_j30133490549165_1_alg».proof.Proof.Gen.Kernel.Launch
import proofs.«158609_j30133490549165_1_alg».proof.Proof.Gen.Kernel.Skeleton
import proofs.«158609_j30133490549165_1_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Pipeline.Value
import Idealize.ShloMosaic.Lib.Ring
import Idealize.ShloMosaic.Lib.Tactic

/-! # Kernel region 1: what one run of the body leaves

The region's kernel is run once per row tile (ten tiles of 5000 rows). Its windows are: 0, the stacked
per-relation aggregates of the tile (4 × 5000 × 128); 1, the four relation weights (4 × 128 × 128); 2, the four
relation biases (4 × 128); 3, the tile of the result (5000 × 128). The body reads, relation by relation, the
relation's aggregate slab, weight and bias row, and writes the whole result tile once: the sum over the four relations of aggregate times weight plus bias, each row then divided by its Euclidean norm (floored) and passed through the leaky rectifier.

Everything here is stated at a parameter `V`, the contents of the core's buffers when the region is entered. -/

set_option maxRecDepth 16384

noncomputable section

namespace Cert.Kernel.KF

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the contents of the core's buffers when the region is entered
variable (V : (c : Dev nD) → (b : Ref sig .tc) → Buf (Elt F) ((c : Thread nD τ).loc b))

/-! ## The windows' blocks -/

/-- Window `w`'s block at grid point `t`, read off the window's array as the region finds it. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- Input window 0 (the aggregates' tile, fetched at every point) holds its block in its current staging buffer at every point, fetched there or not,
    for any proof data whose array is `V`'s and whose body leaves the block in place: where the window is not
    fetched its block index has not moved since the point before, so the block kept there is this point's. -/
theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)

/-- Input window 1 (the weights, one block for the whole grid, fetched at the first point only) holds its block in its current staging buffer at every point, fetched there or not,
    for any proof data whose array is `V`'s and whose body leaves the block in place: where the window is not
    fetched its block index has not moved since the point before, so the block kept there is this point's. -/
theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)

/-- Input window 2 (the biases, one block for the whole grid, fetched at the first point only) holds its block in its current staging buffer at every point, fetched there or not,
    for any proof data whose array is `V`'s and whose body leaves the block in place: where the window is not
    fetched its block index has not moved since the point before, so the block kept there is this point's. -/
theorem before1_2_of {c : Dev nD} (dat : Dat τ (Elt F) Unit ℕ (UR sig nD τ) ℕ cfg1 c) (hA : dat.A 2 = V c (Pipeline.arrRef spec1 2))
    (hafter : ∀ t, dat.after 2 t = iblk1 V c 2 t) (t : Fin cfg1.N) (d) : dat.before 2 t d = iblk1 V c 2 t :=
  (dat.before_in_eq_fetched 2 rfl (fun _ => rfl) (fun _ _ _ => rfl) (fun t => by rw [hafter]; unfold Dat.blockOf iblk1; rw [hA]; try rfl) t d).trans
    (by unfold Dat.fetched Dat.blockOf iblk1; rw [hA]; try rfl)

/-! ## The body's accesses

Relation `r` (0 to 3) reads slab `r` of the aggregates' tile, weight `r` and bias row `r`: rectangles 3r, 3r+1, 3r+2.
Rectangle 12 is the whole result tile, read once (the value is not used) and then written once. -/

abbrev r1_0 : Rect S4x5000x128 := Rect.unit (s := S4x5000x128) ![0, 0, 0] S1x5000x128.size inb_S4x5000x128_S1x5000x128_0_0_0
abbrev r1_1 : Rect S4x128x128 := Rect.unit (s := S4x128x128) ![0, 0, 0] S1x128x128.size inb_S4x128x128_S1x128x128_0_0_0
abbrev r1_2 : Rect S4x128 := Rect.unit (s := S4x128) ![0, 0] S1x128.size inb_S4x128_S1x128_0_0
abbrev r1_3 : Rect S4x5000x128 := Rect.unit (s := S4x5000x128) ![1, 0, 0] S1x5000x128.size inb_S4x5000x128_S1x5000x128_1_0_0
abbrev r1_4 : Rect S4x128x128 := Rect.unit (s := S4x128x128) ![1, 0, 0] S1x128x128.size inb_S4x128x128_S1x128x128_1_0_0
abbrev r1_5 : Rect S4x128 := Rect.unit (s := S4x128) ![1, 0] S1x128.size inb_S4x128_S1x128_1_0
abbrev r1_6 : Rect S4x5000x128 := Rect.unit (s := S4x5000x128) ![2, 0, 0] S1x5000x128.size inb_S4x5000x128_S1x5000x128_2_0_0
abbrev r1_7 : Rect S4x128x128 := Rect.unit (s := S4x128x128) ![2, 0, 0] S1x128x128.size inb_S4x128x128_S1x128x128_2_0_0
abbrev r1_8 : Rect S4x128 := Rect.unit (s := S4x128) ![2, 0] S1x128.size inb_S4x128_S1x128_2_0
abbrev r1_9 : Rect S4x5000x128 := Rect.unit (s := S4x5000x128) ![3, 0, 0] S1x5000x128.size inb_S4x5000x128_S1x5000x128_3_0_0
abbrev r1_10 : Rect S4x128x128 := Rect.unit (s := S4x128x128) ![3, 0, 0] S1x128x128.size inb_S4x128x128_S1x128x128_3_0_0
abbrev r1_11 : Rect S4x128 := Rect.unit (s := S4x128) ![3, 0] S1x128.size inb_S4x128_S1x128_3_0
abbrev r1_12 : Rect S5000x128 := Rect.unit (s := S5000x128) ![0, 0] S5000x128.size inb_S5000x128_S5000x128_0_0

theorem zero_off1 : (![0, 0] : Fin S5000x128.rank → Nat) = fun _ => 0 := funext fun a => by fin_cases a <;> rfl

/-! ## What the body leaves in the result window's buffer -/

/-- The result window's staging buffer after the body, from the three input windows' blocks: the one store of the
    whole tile, whose payload is a function of the twelve slabs loaded. -/
def out1_3 (x0 : Vec F S4x5000x128 .bf16) (x1 : Vec F S4x128x128 .bf16) (x2 : Vec F S4x128 .f32) : Vec F S5000x128 .f32 :=
  View.canon [⟨r1_12, k1_pay1 (k1_pay2 (View.ld x0 r1_0) (View.ld x1 r1_1) (View.ld x2 r1_2) (View.ld x0 r1_3) (View.ld x1 r1_4) (View.ld x2 r1_5) (View.ld x0 r1_6) (View.ld x1 r1_7))
      (k1_pay3 (View.ld x2 r1_8)) (View.ld x0 r1_9) (View.ld x1 r1_10) (View.ld x2 r1_11)⟩]

/-- One store of the whole tile at offset zero leaves exactly its payload. -/
theorem out1_3_eq (x0 : Vec F S4x5000x128 .bf16) (x1 : Vec F S4x128x128 .bf16) (x2 : Vec F S4x128 .f32) :
    out1_3 x0 x1 x2 = k1_pay1 (k1_pay2 (View.ld x0 r1_0) (View.ld x1 r1_1) (View.ld x2 r1_2) (View.ld x0 r1_3) (View.ld x1 r1_4) (View.ld x2 r1_5) (View.ld x0 r1_6) (View.ld x1 r1_7))
      (k1_pay3 (View.ld x2 r1_8)) (View.ld x0 r1_9) (View.ld x1 r1_10) (View.ld x2 r1_11) := by
  unfold out1_3
  exact View.canon_unit_zero (S := S5000x128) zero_off1 inb_S5000x128_S5000x128_0_0 _

/-- The store covers the tile. -/
theorem cover1_3 (p0 : Vec F S5000x128 .f32) (y : S5000x128.Idx) :
    ∃ pc ∈ ([⟨r1_12, p0⟩] : List (View.Piece (Elt F) S5000x128 .f32)), y ∈ pc.1.set :=
  ⟨_, List.mem_singleton_self _, View.mem_set_unit_zero (S := S5000x128) zero_off1 inb_S5000x128_S5000x128_0_0 y⟩

/-! ## The body's triple -/

set_option maxHeartbeats 4000000 in
/-- The kernel body on whole staging memrefs, the three inputs' at contents `x0 x1 x2` and the result's at anything,
    runs to the continuation holding the inputs' as they were and the result's at `out1_3` of them. -/
theorem sound_kernel1 (c : Dev nD) (E : Set ℕ) (i : grid1.Coords)
    (arg1 : Memref sig .tc .vmem S4x5000x128 .bf16) (harg1 : arg1.IsWhole) (arg2 : Memref sig .tc .vmem S4x128x128 .bf16) (harg2 : arg2.IsWhole)
    (arg3 : Memref sig .tc .vmem S4x128 .f32) (harg3 : arg3.IsWhole) (arg4 : Memref sig .tc .vmem S5000x128 .f32) (harg4 : arg4.IsWhole)
    (x0 : Vec F S4x5000x128 .bf16) (x1 : Vec F S4x128x128 .bf16) (x2 : Vec F S4x128 .f32) (K : PUnit → sProp 𝕄) :
    iprop(owns (c : Thread nD τ) arg1 fullShare x0 ∗ owns (c : Thread nD τ) arg2 fullShare x1 ∗ owns (c : Thread nD τ) arg3 fullShare x2
        ∗ (∃ d, owns (c : Thread nD τ) arg4 fullShare d)
        ∗ (iprop(owns (c : Thread nD τ) arg1 fullShare x0 ∗ owns (c : Thread nD τ) arg2 fullShare x1 ∗ owns (c : Thread nD τ) arg3 fullShare x2
            ∗ owns (c : Thread nD τ) arg4 fullShare (out1_3 x0 x1 x2)) -∗ K ⟨⟩))
      ⊢ wp frame (wpE (defs₀ (F := F)) Variants.none c none) E (cc1__rel_mm_kernel i arg1 harg1 arg2 harg2 arg3 harg3 arg4 harg4) K := by
  simp only [cc1__rel_mm_kernel_eq_skeleton]; unfold cc1__rel_mm_kernel_skel
  simp only [k1_part1_eq_skeleton]; unfold k1_part1_skel
  unfold owns
  iintro ⟨⟨%f0, %hf0, H0⟩, ⟨%f1, %hf1, H1⟩, ⟨%f2, %hf2, H2⟩, ⟨%d3, %f3, -, H3⟩, Hk⟩
  subst hf0; subst hf1; subst hf2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  iexists _; isplitr
  swap; · iexact H3
  ipureintro
  exact View.read_writes_eq_canon _ _ _ (cover1_3 _)

/-! ## The pipeline's proof data -/

/-- The proof data of the region's pipeline on core `c`: the arrays as the region finds them; after the body at point
    `t` each input's buffer at its block and the result's at `out1_3` of the input blocks; the invariant is the scoped
    rest and the generator register, untouched; nothing owed; full shares. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => out1_3 (iblk1 V c 0 t) (iblk1 V c 1 t) (iblk1 V c 2 t)
  Φ _ := Pipeline.ΦA spec1 c
  q _ := fullShare
  owed _ := 0

/-- The proof data's arrays are the region-entry contents. -/
theorem A_eq1 (c : Dev nD) (w : Fin cfg1.W) : (dat1 V c).A w = V c (Pipeline.arrRef spec1 w) := by
  dsimp only [dat1]

/-- What the body leaves, window by window. -/
theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) :
    (dat1 V c).after 3 t = out1_3 (iblk1 V c 0 t) (iblk1 V c 1 t) (iblk1 V c 2 t) := by dsimp only [dat1]

/-- Each input's current staging buffer holds its block at every point. -/
theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d
theorem before1_2 (c : Dev nD) (t : Fin cfg1.N) (d) : (dat1 V c).before 2 t d = iblk1 V c 2 t :=
  before1_2_of V (dat1 V c) (A_eq1 V c 2) (after1_2 V c) t d

/-! ## The body obligation, at a generic point -/

/-- What the body is called with at point `t`, the windows one by one, -/
def bodyPre1 (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d))
    ∗ (∃ d, owns (c : Thread nD τ) (st1_2 t) fullShare ((dat1 V c).before 2 t d))
    ∗ (∃ d, owns (c : Thread nD τ) (st1_3 t) fullShare ((dat1 V c).before 3 t d)))

/-- and what it returns. -/
def bodyPost1 (c : Dev nD) (t : Fin cfg1.N) : sProp 𝕄 :=
  iprop((dat1 V c).Φ t.succ ∗ (dat1 V c).owesAt () t.succ
    ∗ owns (c : Thread nD τ) (st1_0 t) fullShare ((dat1 V c).after 0 t)
    ∗ owns (c : Thread nD τ) (st1_1 t) fullShare ((dat1 V c).after 1 t)
    ∗ owns (c : Thread nD τ) (st1_2 t) fullShare ((dat1 V c).after 2 t)
    ∗ owns (c : Thread nD τ) (st1_3 t) fullShare ((dat1 V c).after 3 t))

/-- The body at any point: the inputs' memrefs hold their blocks, so the body's triple applies; the invariant and the
    core's debts pass through unread. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2]
  rw [show (dat1 V c).Φ t.succ = (dat1 V c).Φ t.castSucc from rfl,
    show (dat1 V c).owesAt () t.succ = (dat1 V c).owesAt () t.castSucc from rfl,
    after1_0, after1_1, after1_2, after1_3]
  iintro ⟨HΦ, Ho, ⟨%d0, H0⟩, ⟨%d1, H1⟩, ⟨%d2, H2⟩, ⟨%d3, H3⟩⟩
  iapply (sound_kernel1 c Set.univ _ _ _ _ _ _ _ _ _ (iblk1 V c 0 t) (iblk1 V c 1 t) (iblk1 V c 2 t) _)
  isplitl [H0]; · iexact H0
  isplitl [H1]; · iexact H1
  isplitl [H2]; · iexact H2
  isplitl [H3]; · iexists _; iexact H3
  iintro ⟨H0, H1, H2, H3⟩
  isplitl [HΦ]; · iexact HΦ
  isplitl [Ho]; · iexact Ho
  isplitl [H0]; · iexact H0
  isplitl [H1]; · iexact H1
  isplitl [H2]; · iexact H2
  iexact H3

/-- The library's body obligation, at every point. -/
theorem body_obligation1 (c : Dev nD) : BodyObligation (dat1 (F := F) V c) (defs₀ (F := F)) Variants.none () Set.univ := fun t => by
  rw [bigSep_W1, bigSep_W1]
  exact sound_body1 V c t

end Cert.Kernel.KF

end
-- ==== Proof.KBodyB2.lean ====
import proofs.«158609_j30133490549165_1_alg».proof.Proof.Gen.Kernel.Launch
import proofs.«158609_j30133490549165_1_alg».proof.Proof.Gen.Kernel.Skeleton
import proofs.«158609_j30133490549165_1_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Pipeline.Value
import Idealize.ShloMosaic.Lib.Ring
import Idealize.ShloMosaic.Lib.Tactic

/-! # Kernel region 2: what one run of the body leaves

The region's kernel is run once per row tile (ten tiles of 5000 rows). Its windows are: 0, the stacked
per-relation aggregates of the tile (4 × 5000 × 128); 1, the four relation weights (4 × 128 × 128); 2, the four
relation biases (4 × 128); 3, the tile of the result (5000 × 128). The body reads, relation by relation, the
relation's aggregate slab, weight and bias row, and writes the whole result tile once: the sum over the four relations of aggregate times weight plus bias.

Everything here is stated at a parameter `V`, the contents of the core's buffers when the region is entered. -/

set_option maxRecDepth 16384

noncomputable section

namespace Cert.Kernel.KF

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the contents of the core's buffers when the region is entered
variable (V : (c : Dev nD) → (b : Ref sig .tc) → Buf (Elt F) ((c : Thread nD τ).loc b))

/-! ## The windows' blocks -/

/-- Window `w`'s block at grid point `t`, read off the window's array as the region finds it. -/
def iblk2 (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

/-- Input window 0 (the aggregates' tile, fetched at every point) holds its block in its current staging buffer at every point, fetched there or not,
    for any proof data whose array is `V`'s and whose body leaves the block in place: where the window is not
    fetched its block index has not moved since the point before, so the block kept there is this point's. -/
theorem before2_0_of {c : Dev nD} (dat : Dat τ (Elt F) Unit ℕ (UR sig nD τ) ℕ cfg2 c) (hA : dat.A 0 = V c (Pipeline.arrRef spec2 0))
    (hafter : ∀ t, dat.after 0 t = iblk2 V c 0 t) (t : Fin cfg2.N) (d) : dat.before 0 t d = iblk2 V c 0 t :=
  (dat.before_in_eq_fetched 0 rfl (fun _ => rfl) (fun _ _ _ => rfl) (fun t => by rw [hafter]; unfold Dat.blockOf iblk2; rw [hA]; try rfl) t d).trans
    (by unfold Dat.fetched Dat.blockOf iblk2; rw [hA]; try rfl)

/-- Input window 1 (the weights, one block for the whole grid, fetched at the first point only) holds its block in its current staging buffer at every point, fetched there or not,
    for any proof data whose array is `V`'s and whose body leaves the block in place: where the window is not
    fetched its block index has not moved since the point before, so the block kept there is this point's. -/
theorem before2_1_of {c : Dev nD} (dat : Dat τ (Elt F) Unit ℕ (UR sig nD τ) ℕ cfg2 c) (hA : dat.A 1 = V c (Pipeline.arrRef spec2 1))
    (hafter : ∀ t, dat.after 1 t = iblk2 V c 1 t) (t : Fin cfg2.N) (d) : dat.before 1 t d = iblk2 V c 1 t :=
  (dat.before_in_eq_fetched 1 rfl (fun _ => rfl) (fun _ _ _ => rfl) (fun t => by rw [hafter]; unfold Dat.blockOf iblk2; rw [hA]; try rfl) t d).trans
    (by unfold Dat.fetched Dat.blockOf iblk2; rw [hA]; try rfl)

/-- Input window 2 (the biases, one block for the whole grid, fetched at the first point only) holds its block in its current staging buffer at every point, fetched there or not,
    for any proof data whose array is `V`'s and whose body leaves the block in place: where the window is not
    fetched its block index has not moved since the point before, so the block kept there is this point's. -/
theorem before2_2_of {c : Dev nD} (dat : Dat τ (Elt F) Unit ℕ (UR sig nD τ) ℕ cfg2 c) (hA : dat.A 2 = V c (Pipeline.arrRef spec2 2))
    (hafter : ∀ t, dat.after 2 t = iblk2 V c 2 t) (t : Fin cfg2.N) (d) : dat.before 2 t d = iblk2 V c 2 t :=
  (dat.before_in_eq_fetched 2 rfl (fun _ => rfl) (fun _ _ _ => rfl) (fun t => by rw [hafter]; unfold Dat.blockOf iblk2; rw [hA]; try rfl) t d).trans
    (by unfold Dat.fetched Dat.blockOf iblk2; rw [hA]; try rfl)

/-! ## The body's accesses

Relation `r` (0 to 3) reads slab `r` of the aggregates' tile, weight `r` and bias row `r`: rectangles 3r, 3r+1, 3r+2.
Rectangle 12 is the whole result tile, read once (the value is not used) and then written once. -/

abbrev r2_0 : Rect S4x5000x128 := Rect.unit (s := S4x5000x128) ![0, 0, 0] S1x5000x128.size inb_S4x5000x128_S1x5000x128_0_0_0
abbrev r2_1 : Rect S4x128x128 := Rect.unit (s := S4x128x128) ![0, 0, 0] S1x128x128.size inb_S4x128x128_S1x128x128_0_0_0
abbrev r2_2 : Rect S4x128 := Rect.unit (s := S4x128) ![0, 0] S1x128.size inb_S4x128_S1x128_0_0
abbrev r2_3 : Rect S4x5000x128 := Rect.unit (s := S4x5000x128) ![1, 0, 0] S1x5000x128.size inb_S4x5000x128_S1x5000x128_1_0_0
abbrev r2_4 : Rect S4x128x128 := Rect.unit (s := S4x128x128) ![1, 0, 0] S1x128x128.size inb_S4x128x128_S1x128x128_1_0_0
abbrev r2_5 : Rect S4x128 := Rect.unit (s := S4x128) ![1, 0] S1x128.size inb_S4x128_S1x128_1_0
abbrev r2_6 : Rect S4x5000x128 := Rect.unit (s := S4x5000x128) ![2, 0, 0] S1x5000x128.size inb_S4x5000x128_S1x5000x128_2_0_0
abbrev r2_7 : Rect S4x128x128 := Rect.unit (s := S4x128x128) ![2, 0, 0] S1x128x128.size inb_S4x128x128_S1x128x128_2_0_0
abbrev r2_8 : Rect S4x128 := Rect.unit (s := S4x128) ![2, 0] S1x128.size inb_S4x128_S1x128_2_0
abbrev r2_9 : Rect S4x5000x128 := Rect.unit (s := S4x5000x128) ![3, 0, 0] S1x5000x128.size inb_S4x5000x128_S1x5000x128_3_0_0
abbrev r2_10 : Rect S4x128x128 := Rect.unit (s := S4x128x128) ![3, 0, 0] S1x128x128.size inb_S4x128x128_S1x128x128_3_0_0
abbrev r2_11 : Rect S4x128 := Rect.unit (s := S4x128) ![3, 0] S1x128.size inb_S4x128_S1x128_3_0
abbrev r2_12 : Rect S5000x128 := Rect.unit (s := S5000x128) ![0, 0] S5000x128.size inb_S5000x128_S5000x128_0_0

theorem zero_off2 : (![0, 0] : Fin S5000x128.rank → Nat) = fun _ => 0 := funext fun a => by fin_cases a <;> rfl

/-! ## What the body leaves in the result window's buffer -/

/-- The result window's staging buffer after the body, from the three input windows' blocks: the one store of the
    whole tile, whose payload is a function of the twelve slabs loaded. -/
def out2_3 (x0 : Vec F S4x5000x128 .bf16) (x1 : Vec F S4x128x128 .bf16) (x2 : Vec F S4x128 .f32) : Vec F S5000x128 .f32 :=
  View.canon [⟨r2_12, k2_pay1 (k2_pay2 (View.ld x0 r2_0) (View.ld x1 r2_1) (View.ld x2 r2_2) (View.ld x0 r2_3) (View.ld x1 r2_4) (View.ld x2 r2_5) (View.ld x0 r2_6) (View.ld x1 r2_7))
      (k2_pay3 (View.ld x2 r2_8)) (View.ld x0 r2_9) (View.ld x1 r2_10) (View.ld x2 r2_11)⟩]

/-- One store of the whole tile at offset zero leaves exactly its payload. -/
theorem out2_3_eq (x0 : Vec F S4x5000x128 .bf16) (x1 : Vec F S4x128x128 .bf16) (x2 : Vec F S4x128 .f32) :
    out2_3 x0 x1 x2 = k2_pay1 (k2_pay2 (View.ld x0 r2_0) (View.ld x1 r2_1) (View.ld x2 r2_2) (View.ld x0 r2_3) (View.ld x1 r2_4) (View.ld x2 r2_5) (View.ld x0 r2_6) (View.ld x1 r2_7))
      (k2_pay3 (View.ld x2 r2_8)) (View.ld x0 r2_9) (View.ld x1 r2_10) (View.ld x2 r2_11) := by
  unfold out2_3
  exact View.canon_unit_zero (S := S5000x128) zero_off2 inb_S5000x128_S5000x128_0_0 _

/-- The store covers the tile. -/
theorem cover2_3 (p0 : Vec F S5000x128 .f32) (y : S5000x128.Idx) :
    ∃ pc ∈ ([⟨r2_12, p0⟩] : List (View.Piece (Elt F) S5000x128 .f32)), y ∈ pc.1.set :=
  ⟨_, List.mem_singleton_self _, View.mem_set_unit_zero (S := S5000x128) zero_off2 inb_S5000x128_S5000x128_0_0 y⟩

/-! ## The body's triple -/

set_option maxHeartbeats 4000000 in
/-- The kernel body on whole staging memrefs, the three inputs' at contents `x0 x1 x2` and the result's at anything,
    runs to the continuation holding the inputs' as they were and the result's at `out2_3` of them. -/
theorem sound_kernel2 (c : Dev nD) (E : Set ℕ) (i : grid2.Coords)
    (arg1 : Memref sig .tc .vmem S4x5000x128 .bf16) (harg1 : arg1.IsWhole) (arg2 : Memref sig .tc .vmem S4x128x128 .bf16) (harg2 : arg2.IsWhole)
    (arg3 : Memref sig .tc .vmem S4x128 .f32) (harg3 : arg3.IsWhole) (arg4 : Memref sig .tc .vmem S5000x128 .f32) (harg4 : arg4.IsWhole)
    (x0 : Vec F S4x5000x128 .bf16) (x1 : Vec F S4x128x128 .bf16) (x2 : Vec F S4x128 .f32) (K : PUnit → sProp 𝕄) :
    iprop(owns (c : Thread nD τ) arg1 fullShare x0 ∗ owns (c : Thread nD τ) arg2 fullShare x1 ∗ owns (c : Thread nD τ) arg3 fullShare x2
        ∗ (∃ d, owns (c : Thread nD τ) arg4 fullShare d)
        ∗ (iprop(owns (c : Thread nD τ) arg1 fullShare x0 ∗ owns (c : Thread nD τ) arg2 fullShare x1 ∗ owns (c : Thread nD τ) arg3 fullShare x2
            ∗ owns (c : Thread nD τ) arg4 fullShare (out2_3 x0 x1 x2)) -∗ K ⟨⟩))
      ⊢ wp frame (wpE (defs₀ (F := F)) Variants.none c none) E (cc2__rel_mm_kernel i arg1 harg1 arg2 harg2 arg3 harg3 arg4 harg4) K := by
  simp only [cc2__rel_mm_kernel_eq_skeleton]; unfold cc2__rel_mm_kernel_skel
  simp only [k2_part1_eq_skeleton]; unfold k2_part1_skel
  unfold owns
  iintro ⟨⟨%f0, %hf0, H0⟩, ⟨%f1, %hf1, H1⟩, ⟨%f2, %hf2, H2⟩, ⟨%d3, %f3, -, H3⟩, Hk⟩
  subst hf0; subst hf1; subst hf2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  iexists _; isplitr
  swap; · iexact H3
  ipureintro
  exact View.read_writes_eq_canon _ _ _ (cover2_3 _)

/-! ## The pipeline's proof data -/

/-- The proof data of the region's pipeline on core `c`: the arrays as the region finds them; after the body at point
    `t` each input's buffer at its block and the result's at `out2_3` of the input blocks; the invariant is the scoped
    rest and the generator register, untouched; nothing owed; full shares. -/
def dat2 (c : Dev nD) : Dat τ (Elt F) Unit ℕ (UR sig nD τ) ℕ cfg2 c where
  A w := V c (Pipeline.arrRef spec2 w)
  after w t := match w with
    | ⟨0, _⟩ => iblk2 V c 0 t
    | ⟨1, _⟩ => iblk2 V c 1 t
    | ⟨2, _⟩ => iblk2 V c 2 t
    | ⟨3, _⟩ => out2_3 (iblk2 V c 0 t) (iblk2 V c 1 t) (iblk2 V c 2 t)
  Φ _ := Pipeline.ΦA spec2 c
  q _ := fullShare
  owed _ := 0

/-- The proof data's arrays are the region-entry contents. -/
theorem A_eq2 (c : Dev nD) (w : Fin cfg2.W) : (dat2 V c).A w = V c (Pipeline.arrRef spec2 w) := by
  dsimp only [dat2]

/-- What the body leaves, window by window. -/
theorem after2_0 (c : Dev nD) (t : Fin cfg2.N) : (dat2 V c).after 0 t = iblk2 V c 0 t := by dsimp only [dat2]
theorem after2_1 (c : Dev nD) (t : Fin cfg2.N) : (dat2 V c).after 1 t = iblk2 V c 1 t := by dsimp only [dat2]
theorem after2_2 (c : Dev nD) (t : Fin cfg2.N) : (dat2 V c).after 2 t = iblk2 V c 2 t := by dsimp only [dat2]
theorem after2_3 (c : Dev nD) (t : Fin cfg2.N) :
    (dat2 V c).after 3 t = out2_3 (iblk2 V c 0 t) (iblk2 V c 1 t) (iblk2 V c 2 t) := by dsimp only [dat2]

/-- Each input's current staging buffer holds its block at every point. -/
theorem before2_0 (c : Dev nD) (t : Fin cfg2.N) (d) : (dat2 V c).before 0 t d = iblk2 V c 0 t :=
  before2_0_of V (dat2 V c) (A_eq2 V c 0) (after2_0 V c) t d
theorem before2_1 (c : Dev nD) (t : Fin cfg2.N) (d) : (dat2 V c).before 1 t d = iblk2 V c 1 t :=
  before2_1_of V (dat2 V c) (A_eq2 V c 1) (after2_1 V c) t d
theorem before2_2 (c : Dev nD) (t : Fin cfg2.N) (d) : (dat2 V c).before 2 t d = iblk2 V c 2 t :=
  before2_2_of V (dat2 V c) (A_eq2 V c 2) (after2_2 V c) t d

/-! ## The body obligation, at a generic point -/

/-- What the body is called with at point `t`, the windows one by one, -/
def bodyPre2 (c : Dev nD) (t : Fin cfg2.N) : sProp 𝕄 :=
  iprop((dat2 V c).Φ t.castSucc ∗ (dat2 V c).owesAt () t.castSucc
    ∗ (∃ d, owns (c : Thread nD τ) (st2_0 t) fullShare ((dat2 V c).before 0 t d))
    ∗ (∃ d, owns (c : Thread nD τ) (st2_1 t) fullShare ((dat2 V c).before 1 t d))
    ∗ (∃ d, owns (c : Thread nD τ) (st2_2 t) fullShare ((dat2 V c).before 2 t d))
    ∗ (∃ d, owns (c : Thread nD τ) (st2_3 t) fullShare ((dat2 V c).before 3 t d)))

/-- and what it returns. -/
def bodyPost2 (c : Dev nD) (t : Fin cfg2.N) : sProp 𝕄 :=
  iprop((dat2 V c).Φ t.succ ∗ (dat2 V c).owesAt () t.succ
    ∗ owns (c : Thread nD τ) (st2_0 t) fullShare ((dat2 V c).after 0 t)
    ∗ owns (c : Thread nD τ) (st2_1 t) fullShare ((dat2 V c).after 1 t)
    ∗ owns (c : Thread nD τ) (st2_2 t) fullShare ((dat2 V c).after 2 t)
    ∗ owns (c : Thread nD τ) (st2_3 t) fullShare ((dat2 V c).after 3 t))

/-- The body at any point: the inputs' memrefs hold their blocks, so the body's triple applies; the invariant and the
    core's debts pass through unread. -/
theorem sound_body2 (c : Dev nD) (t : Fin cfg2.N) :
    bodyPre2 V c t ⊢ wp frame (wpE (defs₀ (F := F)) Variants.none c none) Set.univ (bodyAt2 t) (fun _ => bodyPost2 V c t) := by
  unfold bodyPre2 bodyPost2 bodyAt2
  simp only [before2_0, before2_1, before2_2]
  rw [show (dat2 V c).Φ t.succ = (dat2 V c).Φ t.castSucc from rfl,
    show (dat2 V c).owesAt () t.succ = (dat2 V c).owesAt () t.castSucc from rfl,
    after2_0, after2_1, after2_2, after2_3]
  iintro ⟨HΦ, Ho, ⟨%d0, H0⟩, ⟨%d1, H1⟩, ⟨%d2, H2⟩, ⟨%d3, H3⟩⟩
  iapply (sound_kernel2 c Set.univ _ _ _ _ _ _ _ _ _ (iblk2 V c 0 t) (iblk2 V c 1 t) (iblk2 V c 2 t) _)
  isplitl [H0]; · iexact H0
  isplitl [H1]; · iexact H1
  isplitl [H2]; · iexact H2
  isplitl [H3]; · iexists _; iexact H3
  iintro ⟨H0, H1, H2, H3⟩
  isplitl [HΦ]; · iexact HΦ
  isplitl [Ho]; · iexact Ho
  isplitl [H0]; · iexact H0
  isplitl [H1]; · iexact H1
  isplitl [H2]; · iexact H2
  iexact H3

/-- The library's body obligation, at every point. -/
theorem body_obligation2 (c : Dev nD) : BodyObligation (dat2 (F := F) V c) (defs₀ (F := F)) Variants.none () Set.univ := fun t => by
  rw [bigSep_W2, bigSep_W2]
  exact sound_body2 V c t

end Cert.Kernel.KF

end
-- ==== Proof.KRunHostB.lean ====
/- The host stretches of @main between its three kernel regions: no operation of a stretch allocates a buffer,
   and each stretch's operations write only the references listed for it (every operation's result, in program
   order). A reference outside a stretch's list therefore keeps its contents across the stretch. -/
import proofs.«158609_j30133490549165_1_alg».proof.Proof.Gen.Kernel.Launch
import Idealize.ShloMosaic.Lib.StableHlo.Run

set_option maxRecDepth 16384

noncomputable section

namespace Cert.Kernel.KF

open Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

/-! ## Two lists related entry by entry -/

/-- If two lists are related entry by entry, every member of the first is related to some member of the second. -/
theorem exists_mem_of_forall₂ {α β : Type _} {R : α → β → Prop} {l₁ : List α} {l₂ : List β} (h : List.Forall₂ R l₁ l₂) :
    ∀ a ∈ l₁, ∃ b ∈ l₂, R a b := by
  induction h with
  | nil => intro a ha; cases ha
  | cons hab _ ih =>
    intro a ha
    rcases List.mem_cons.mp ha with rfl | ha
    · exact ⟨_, List.mem_cons_self, hab⟩
    · obtain ⟨b, hb, hr⟩ := ih a ha
      exact ⟨b, List.mem_cons_of_mem _ hb, hr⟩

/-- Operations that write one reference each, the references listed in order as `W`: each operation's writes lie
    within `W` (as device buffers of the TensorCore). -/
theorem writes_sub_of_forall₂ {ops : List (HloOp τ sig (Elt F))} {W : List (Ref sig .tc)}
    (h : List.Forall₂ (fun op y => op.writes = {Proc.devRef (τ := τ) .tc y}) ops W) :
    ops.Forall fun op => op.writes ⊆ (W.map (Proc.devRef (τ := τ) .tc)).toFinset :=
  List.forall_iff_forall_mem.mpr fun op hop => by
    obtain ⟨y, hy, he⟩ := exists_mem_of_forall₂ h op hop
    rw [he, Finset.singleton_subset_iff, List.mem_toFinset]
    exact List.mem_map_of_mem hy

/-! ## Stretch 0: 223 operations -/

set_option maxHeartbeats 40000000 in
/-- No operation of `hostOps0` allocates a buffer: each is a plain builder, whose fresh set is empty by definition. -/
theorem hostOps0_fresh : (hostOps0 : List (HloOp τ sig (Elt F))).Forall fun op => op.fresh = ∅ :=
  ⟨rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl,
   rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl,
   rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl,
   rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl,
   rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl,
   rfl, rfl, rfl, rfl, rfl, rfl, rfl, rfl, rfl, rfl, rfl, rfl, rfl, rfl, rfl, rfl, rfl, rfl, rfl, rfl, rfl, rfl, rfl⟩

/-- The references `hostOps0`'s operations write: the result of each operation, in program order. -/
abbrev hostOps0_W : List (Ref sig .tc) :=
  [main_cst, main_v0, main_v1, main_v2, main_cst_0, main_v3, main_v4, main_v5, main_cst_1, main_v6, main_v7, main_cst_2,
   main_v8, main_v9, main_v10, main_v11, main_cst_3, main_v12, main_v13, main_v14, main_cst_4, main_v15, main_v16, main_cst_5,
   main_v17, main_v18, main_v19, main_v20, main_cst_6, main_v21, main_v22, main_v23, main_cst_7, main_v24, main_v25, main_cst_8,
   main_v26, main_v27, main_v28, main_v29, main_cst_9, main_v30, main_v31, main_v32, main_cst_10, main_v33, main_v34, main_cst_11,
   main_v35, main_v36, main_v37, main_v38, main_cst_12, main_v39, main_v40, main_v41, main_cst_13, main_v42, main_v43, main_cst_14,
   main_v44, main_v45, main_v46, main_v47, main_cst_15, main_v48, main_v49, main_v50, main_cst_16, main_v51, main_v52, main_cst_17,
   main_v53, main_v54, main_v55, main_v56, main_cst_18, main_v57, main_v58, main_v59, main_cst_19, main_v60, main_v61, main_cst_20,
   main_v62, main_v63, main_v64, main_v65, main_cst_21, main_v66, main_v67, main_v68, main_cst_22, main_v69, main_v70, main_cst_23,
   main_v71, main_v72, main_v73, main_v74, main_v75, main_v76, main_v77, main_v78, main_v79, main_v80, main_v81, main_v82,
   main_v83, main_v84, main_v85, main_v86, main_v87, main_v88, main_v89, main_c, main_v90, main_v91, main_c_24, main_v92,
   main_v93, main_v94, main_v95, main_v96, main_v97, main_v98, main_cst_25, main_v99, main_v100, main_v101, main_v102, main_v103,
   main_v104, main_v105, main_v106, main_v107, main_v108, main_v109, main_v110, main_v111, main_v112, main_v113, main_c_26, main_v114,
   main_v115, main_c_27, main_v116, main_v117, main_v118, main_v119, main_v120, main_v121, main_v122, main_cst_28, main_v123, main_v124,
   main_v125, main_v126, main_v127, main_v128, main_v129, main_v130, main_v131, main_v132, main_v133, main_v134, main_v135, main_v136,
   main_v137, main_c_29, main_v138, main_v139, main_c_30, main_v140, main_v141, main_v142, main_v143, main_v144, main_v145, main_v146,
   main_cst_31, main_v147, main_v148, main_v149, main_v150, main_v151, main_v152, main_v153, main_v154, main_v155, main_v156, main_v157,
   main_v158, main_v159, main_v160, main_v161, main_c_32, main_v162, main_v163, main_c_33, main_v164, main_v165, main_v166, main_v167,
   main_v168, main_v169, main_v170, main_cst_34, main_v171, main_v172, main_v173, main_v174, main_v175, main_v176, main_v177, main_v178,
   main_v179, main_v180, main_v181, main_v182, main_v183, main_v184, main_v185]

set_option maxHeartbeats 40000000 in
/-- Operation by operation, what `hostOps0` writes is the single reference listed at its position (each builder writes
    its result only). -/
theorem hostOps0_writes_each : List.Forall₂ (fun op y => op.writes = {Proc.devRef (τ := τ) .tc y})
    (hostOps0 : List (HloOp τ sig (Elt F))) hostOps0_W :=
  .cons rfl <| .cons rfl <| .cons rfl <| .cons rfl <| .cons rfl <| .cons rfl <| .cons rfl <| .cons rfl <| .cons rfl <| .cons rfl <| .cons rfl <| .cons rfl <| .cons rfl <| .cons rfl <| .cons rfl <| .cons rfl <| .cons rfl <| .cons rfl <| .cons rfl <| .cons rfl <|
  .cons rfl <| .cons rfl <| .cons rfl <| .cons rfl <| .cons rfl <| .cons rfl <| .cons rfl <| .cons rfl <| .cons rfl <| .cons rfl <| .cons rfl <| .cons rfl <| .cons rfl <| .cons rfl <| .cons rfl <| .cons rfl <| .cons rfl <| .cons rfl <| .cons rfl <| .cons rfl <|
  .cons rfl <| .cons rfl <| .cons rfl <| .cons rfl <| .cons rfl <| .cons rfl <| .cons rfl <| .cons rfl <| .cons rfl <| .cons rfl <| .cons rfl <| .cons rfl <| .cons rfl <| .cons rfl <| .cons rfl <| .cons rfl <| .cons rfl <| .cons rfl <| .cons rfl <| .cons rfl <|
  .cons rfl <| .cons rfl <| .cons rfl <| .cons rfl <| .cons rfl <| .cons rfl <| .cons rfl <| .cons rfl <| .cons rfl <| .cons rfl <| .cons rfl <| .cons rfl <| .cons rfl <| .cons rfl <| .cons rfl <| .cons rfl <| .cons rfl <| .cons rfl <| .cons rfl <| .cons rfl <|
  .cons rfl <| .cons rfl <| .cons rfl <| .cons rfl <| .cons rfl <| .cons rfl <| .cons rfl <| .cons rfl <| .cons rfl <| .cons rfl <| .cons rfl <| .cons rfl <| .cons rfl <| .cons rfl <| .cons rfl <| .cons rfl <| .cons rfl <| .cons rfl <| .cons rfl <| .cons rfl <|
  .cons rfl <| .cons rfl <| .cons rfl <| .cons rfl <| .cons rfl <| .cons rfl <| .cons rfl <| .cons rfl <| .cons rfl <| .cons rfl <| .cons rfl <| .cons rfl <| .cons rfl <| .cons rfl <| .cons rfl <| .cons rfl <| .cons rfl <| .cons rfl <| .cons rfl <| .cons rfl <|
  .cons rfl <| .cons rfl <| .cons rfl <| .cons rfl <| .cons rfl <| .cons rfl <| .cons rfl <| .cons rfl <| .cons rfl <| .cons rfl <| .cons rfl <| .cons rfl <| .cons rfl <| .cons rfl <| .cons rfl <| .cons rfl <| .cons rfl <| .cons rfl <| .cons rfl <| .cons rfl <|
  .cons rfl <| .cons rfl <| .cons rfl <| .cons rfl <| .cons rfl <| .cons rfl <| .cons rfl <| .cons rfl <| .cons rfl <| .cons rfl <| .cons rfl <| .cons rfl <| .cons rfl <| .cons rfl <| .cons rfl <| .cons rfl <| .cons rfl <| .cons rfl <| .cons rfl <| .cons rfl <|
  .cons rfl <| .cons rfl <| .cons rfl <| .cons rfl <| .cons rfl <| .cons rfl <| .cons rfl <| .cons rfl <| .cons rfl <| .cons rfl <| .cons rfl <| .cons rfl <| .cons rfl <| .cons rfl <| .cons rfl <| .cons rfl <| .cons rfl <| .cons rfl <| .cons rfl <| .cons rfl <|
  .cons rfl <| .cons rfl <| .cons rfl <| .cons rfl <| .cons rfl <| .cons rfl <| .cons rfl <| .cons rfl <| .cons rfl <| .cons rfl <| .cons rfl <| .cons rfl <| .cons rfl <| .cons rfl <| .cons rfl <| .cons rfl <| .cons rfl <| .cons rfl <| .cons rfl <| .cons rfl <|
  .cons rfl <| .cons rfl <| .cons rfl <| .cons rfl <| .cons rfl <| .cons rfl <| .cons rfl <| .cons rfl <| .cons rfl <| .cons rfl <| .cons rfl <| .cons rfl <| .cons rfl <| .cons rfl <| .cons rfl <| .cons rfl <| .cons rfl <| .cons rfl <| .cons rfl <| .cons rfl <|
  .cons rfl <| .cons rfl <| .cons rfl <| .nil

/-- Every operation of `hostOps0` writes within the listed references. -/
theorem hostOps0_writes : (hostOps0 : List (HloOp τ sig (Elt F))).Forall fun op => op.writes ⊆ (hostOps0_W.map (Proc.devRef (τ := τ) .tc)).toFinset :=
  writes_sub_of_forall₂ hostOps0_writes_each

/-! ## Stretch 1: 115 operations -/

set_option maxHeartbeats 40000000 in
/-- No operation of `hostOps1` allocates a buffer: each is a plain builder, whose fresh set is empty by definition. -/
theorem hostOps1_fresh : (hostOps1 : List (HloOp τ sig (Elt F))).Forall fun op => op.fresh = ∅ :=
  ⟨rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl,
   rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl,
   rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl⟩

/-- The references `hostOps1`'s operations write: the result of each operation, in program order. -/
abbrev hostOps1_W : List (Ref sig .tc) :=
  [main_v187, main_v188, main_v189, main_v190, main_v191, main_v192, main_v193, main_c_35, main_v194, main_v195, main_c_36, main_v196,
   main_v197, main_v198, main_v199, main_v200, main_v201, main_v202, main_cst_37, main_v203, main_v204, main_v205, main_v206, main_v207,
   main_v208, main_v209, main_v210, main_v211, main_v212, main_v213, main_v214, main_v215, main_v216, main_v217, main_c_38, main_v218,
   main_v219, main_c_39, main_v220, main_v221, main_v222, main_v223, main_v224, main_v225, main_v226, main_cst_40, main_v227, main_v228,
   main_v229, main_v230, main_v231, main_v232, main_v233, main_v234, main_v235, main_v236, main_v237, main_v238, main_v239, main_v240,
   main_v241, main_c_41, main_v242, main_v243, main_c_42, main_v244, main_v245, main_v246, main_v247, main_v248, main_v249, main_v250,
   main_cst_43, main_v251, main_v252, main_v253, main_v254, main_v255, main_v256, main_v257, main_v258, main_v259, main_v260, main_v261,
   main_v262, main_v263, main_v264, main_v265, main_c_44, main_v266, main_v267, main_c_45, main_v268, main_v269, main_v270, main_v271,
   main_v272, main_v273, main_v274, main_cst_46, main_v275, main_v276, main_v277, main_v278, main_v279, main_v280, main_v281, main_v282,
   main_v283, main_v284, main_v285, main_v286, main_v287, main_v288, main_v289]

set_option maxHeartbeats 40000000 in
/-- Operation by operation, what `hostOps1` writes is the single reference listed at its position (each builder writes
    its result only). -/
theorem hostOps1_writes_each : List.Forall₂ (fun op y => op.writes = {Proc.devRef (τ := τ) .tc y})
    (hostOps1 : List (HloOp τ sig (Elt F))) hostOps1_W :=
  .cons rfl <| .cons rfl <| .cons rfl <| .cons rfl <| .cons rfl <| .cons rfl <| .cons rfl <| .cons rfl <| .cons rfl <| .cons rfl <| .cons rfl <| .cons rfl <| .cons rfl <| .cons rfl <| .cons rfl <| .cons rfl <| .cons rfl <| .cons rfl <| .cons rfl <| .cons rfl <|
  .cons rfl <| .cons rfl <| .cons rfl <| .cons rfl <| .cons rfl <| .cons rfl <| .cons rfl <| .cons rfl <| .cons rfl <| .cons rfl <| .cons rfl <| .cons rfl <| .cons rfl <| .cons rfl <| .cons rfl <| .cons rfl <| .cons rfl <| .cons rfl <| .cons rfl <| .cons rfl <|
  .cons rfl <| .cons rfl <| .cons rfl <| .cons rfl <| .cons rfl <| .cons rfl <| .cons rfl <| .cons rfl <| .cons rfl <| .cons rfl <| .cons rfl <| .cons rfl <| .cons rfl <| .cons rfl <| .cons rfl <| .cons rfl <| .cons rfl <| .cons rfl <| .cons rfl <| .cons rfl <|
  .cons rfl <| .cons rfl <| .cons rfl <| .cons rfl <| .cons rfl <| .cons rfl <| .cons rfl <| .cons rfl <| .cons rfl <| .cons rfl <| .cons rfl <| .cons rfl <| .cons rfl <| .cons rfl <| .cons rfl <| .cons rfl <| .cons rfl <| .cons rfl <| .cons rfl <| .cons rfl <|
  .cons rfl <| .cons rfl <| .cons rfl <| .cons rfl <| .cons rfl <| .cons rfl <| .cons rfl <| .cons rfl <| .cons rfl <| .cons rfl <| .cons rfl <| .cons rfl <| .cons rfl <| .cons rfl <| .cons rfl <| .cons rfl <| .cons rfl <| .cons rfl <| .cons rfl <| .cons rfl <|
  .cons rfl <| .cons rfl <| .cons rfl <| .cons rfl <| .cons rfl <| .cons rfl <| .cons rfl <| .cons rfl <| .cons rfl <| .cons rfl <| .cons rfl <| .cons rfl <| .cons rfl <| .cons rfl <| .cons rfl <| .nil

/-- Every operation of `hostOps1` writes within the listed references. -/
theorem hostOps1_writes : (hostOps1 : List (HloOp τ sig (Elt F))).Forall fun op => op.writes ⊆ (hostOps1_W.map (Proc.devRef (τ := τ) .tc)).toFinset :=
  writes_sub_of_forall₂ hostOps1_writes_each

/-! ## Stretch 2: 115 operations -/

set_option maxHeartbeats 40000000 in
/-- No operation of `hostOps2` allocates a buffer: each is a plain builder, whose fresh set is empty by definition. -/
theorem hostOps2_fresh : (hostOps2 : List (HloOp τ sig (Elt F))).Forall fun op => op.fresh = ∅ :=
  ⟨rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl,
   rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl,
   rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl⟩

/-- The references `hostOps2`'s operations write: the result of each operation, in program order. -/
abbrev hostOps2_W : List (Ref sig .tc) :=
  [main_v291, main_v292, main_v293, main_v294, main_v295, main_v296, main_v297, main_c_47, main_v298, main_v299, main_c_48, main_v300,
   main_v301, main_v302, main_v303, main_v304, main_v305, main_v306, main_cst_49, main_v307, main_v308, main_v309, main_v310, main_v311,
   main_v312, main_v313, main_v314, main_v315, main_v316, main_v317, main_v318, main_v319, main_v320, main_v321, main_c_50, main_v322,
   main_v323, main_c_51, main_v324, main_v325, main_v326, main_v327, main_v328, main_v329, main_v330, main_cst_52, main_v331, main_v332,
   main_v333, main_v334, main_v335, main_v336, main_v337, main_v338, main_v339, main_v340, main_v341, main_v342, main_v343, main_v344,
   main_v345, main_c_53, main_v346, main_v347, main_c_54, main_v348, main_v349, main_v350, main_v351, main_v352, main_v353, main_v354,
   main_cst_55, main_v355, main_v356, main_v357, main_v358, main_v359, main_v360, main_v361, main_v362, main_v363, main_v364, main_v365,
   main_v366, main_v367, main_v368, main_v369, main_c_56, main_v370, main_v371, main_c_57, main_v372, main_v373, main_v374, main_v375,
   main_v376, main_v377, main_v378, main_cst_58, main_v379, main_v380, main_v381, main_v382, main_v383, main_v384, main_v385, main_v386,
   main_v387, main_v388, main_v389, main_v390, main_v391, main_v392, main_v393]

set_option maxHeartbeats 40000000 in
/-- Operation by operation, what `hostOps2` writes is the single reference listed at its position (each builder writes
    its result only). -/
theorem hostOps2_writes_each : List.Forall₂ (fun op y => op.writes = {Proc.devRef (τ := τ) .tc y})
    (hostOps2 : List (HloOp τ sig (Elt F))) hostOps2_W :=
  .cons rfl <| .cons rfl <| .cons rfl <| .cons rfl <| .cons rfl <| .cons rfl <| .cons rfl <| .cons rfl <| .cons rfl <| .cons rfl <| .cons rfl <| .cons rfl <| .cons rfl <| .cons rfl <| .cons rfl <| .cons rfl <| .cons rfl <| .cons rfl <| .cons rfl <| .cons rfl <|
  .cons rfl <| .cons rfl <| .cons rfl <| .cons rfl <| .cons rfl <| .cons rfl <| .cons rfl <| .cons rfl <| .cons rfl <| .cons rfl <| .cons rfl <| .cons rfl <| .cons rfl <| .cons rfl <| .cons rfl <| .cons rfl <| .cons rfl <| .cons rfl <| .cons rfl <| .cons rfl <|
  .cons rfl <| .cons rfl <| .cons rfl <| .cons rfl <| .cons rfl <| .cons rfl <| .cons rfl <| .cons rfl <| .cons rfl <| .cons rfl <| .cons rfl <| .cons rfl <| .cons rfl <| .cons rfl <| .cons rfl <| .cons rfl <| .cons rfl <| .cons rfl <| .cons rfl <| .cons rfl <|
  .cons rfl <| .cons rfl <| .cons rfl <| .cons rfl <| .cons rfl <| .cons rfl <| .cons rfl <| .cons rfl <| .cons rfl <| .cons rfl <| .cons rfl <| .cons rfl <| .cons rfl <| .cons rfl <| .cons rfl <| .cons rfl <| .cons rfl <| .cons rfl <| .cons rfl <| .cons rfl <|
  .cons rfl <| .cons rfl <| .cons rfl <| .cons rfl <| .cons rfl <| .cons rfl <| .cons rfl <| .cons rfl <| .cons rfl <| .cons rfl <| .cons rfl <| .cons rfl <| .cons rfl <| .cons rfl <| .cons rfl <| .cons rfl <| .cons rfl <| .cons rfl <| .cons rfl <| .cons rfl <|
  .cons rfl <| .cons rfl <| .cons rfl <| .cons rfl <| .cons rfl <| .cons rfl <| .cons rfl <| .cons rfl <| .cons rfl <| .cons rfl <| .cons rfl <| .cons rfl <| .cons rfl <| .cons rfl <| .cons rfl <| .nil

/-- Every operation of `hostOps2` writes within the listed references. -/
theorem hostOps2_writes : (hostOps2 : List (HloOp τ sig (Elt F))).Forall fun op => op.writes ⊆ (hostOps2_W.map (Proc.devRef (τ := τ) .tc)).toFinset :=
  writes_sub_of_forall₂ hostOps2_writes_each

/-! ## Stretch 3: 91 operations -/

set_option maxHeartbeats 40000000 in
/-- No operation of `hostOps3` allocates a buffer: each is a plain builder, whose fresh set is empty by definition. -/
theorem hostOps3_fresh : (hostOps3 : List (HloOp τ sig (Elt F))).Forall fun op => op.fresh = ∅ :=
  ⟨rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl,
   rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl,
   rfl, rfl, rfl, rfl, rfl, rfl, rfl, rfl, rfl, rfl, rfl⟩

/-- The references `hostOps3`'s operations write: the result of each operation, in program order. -/
abbrev hostOps3_W : List (Ref sig .tc) :=
  [main_cst_59, main_v395, main_v396, main_v397, main_c_60, main_v398, main_v399, main_c_61, main_v400, main_v401, main_v402, main_v403,
   main_v404, main_v405, main_v406, main_cst_62, main_v407, main_v408, main_v409, main_v410, main_v411, main_v412, main_c_63, main_v413,
   main_v414, main_c_64, main_v415, main_v416, main_v417, main_v418, main_v419, main_v420, main_v421, main_cst_65, main_v422, main_v423,
   main_v424, main_v425, main_v426, main_v427, main_c_66, main_v428, main_v429, main_c_67, main_v430, main_v431, main_v432, main_v433,
   main_v434, main_v435, main_v436, main_cst_68, main_v437, main_v438, main_v439, main_v440, main_v441, main_v442, main_c_69, main_v443,
   main_v444, main_c_70, main_v445, main_v446, main_v447, main_v448, main_v449, main_v450, main_v451, main_cst_71, main_v452, main_v453,
   main_v454, main_v455, main_cst_72, main_v456, main_v457, main_cst_73, main_v458, main_v459, main_v460, main_v461, main_v462, main_v463,
   main_v464, main_cst_74, main_v465, main_v466, main_cst_75, main_v467, main_v468]

set_option maxHeartbeats 40000000 in
/-- Operation by operation, what `hostOps3` writes is the single reference listed at its position (each builder writes
    its result only). -/
theorem hostOps3_writes_each : List.Forall₂ (fun op y => op.writes = {Proc.devRef (τ := τ) .tc y})
    (hostOps3 : List (HloOp τ sig (Elt F))) hostOps3_W :=
  .cons rfl <| .cons rfl <| .cons rfl <| .cons rfl <| .cons rfl <| .cons rfl <| .cons rfl <| .cons rfl <| .cons rfl <| .cons rfl <| .cons rfl <| .cons rfl <| .cons rfl <| .cons rfl <| .cons rfl <| .cons rfl <| .cons rfl <| .cons rfl <| .cons rfl <| .cons rfl <|
  .cons rfl <| .cons rfl <| .cons rfl <| .cons rfl <| .cons rfl <| .cons rfl <| .cons rfl <| .cons rfl <| .cons rfl <| .cons rfl <| .cons rfl <| .cons rfl <| .cons rfl <| .cons rfl <| .cons rfl <| .cons rfl <| .cons rfl <| .cons rfl <| .cons rfl <| .cons rfl <|
  .cons rfl <| .cons rfl <| .cons rfl <| .cons rfl <| .cons rfl <| .cons rfl <| .cons rfl <| .cons rfl <| .cons rfl <| .cons rfl <| .cons rfl <| .cons rfl <| .cons rfl <| .cons rfl <| .cons rfl <| .cons rfl <| .cons rfl <| .cons rfl <| .cons rfl <| .cons rfl <|
  .cons rfl <| .cons rfl <| .cons rfl <| .cons rfl <| .cons rfl <| .cons rfl <| .cons rfl <| .cons rfl <| .cons rfl <| .cons rfl <| .cons rfl <| .cons rfl <| .cons rfl <| .cons rfl <| .cons rfl <| .cons rfl <| .cons rfl <| .cons rfl <| .cons rfl <| .cons rfl <|
  .cons rfl <| .cons rfl <| .cons rfl <| .cons rfl <| .cons rfl <| .cons rfl <| .cons rfl <| .cons rfl <| .cons rfl <| .cons rfl <| .cons rfl <| .nil

/-- Every operation of `hostOps3` writes within the listed references. -/
theorem hostOps3_writes : (hostOps3 : List (HloOp τ sig (Elt F))).Forall fun op => op.writes ⊆ (hostOps3_W.map (Proc.devRef (τ := τ) .tc)).toFinset :=
  writes_sub_of_forall₂ hostOps3_writes_each

end Cert.Kernel.KF

end
-- ==== Proof.KRunB.lean ====
/- The run of @main: four stretches of host operations around three kernel regions, as seven segments from the
   launch to the return. The buffer contents at the eight segment boundaries are a fold from the launch memory: a
   stretch rewrites what its operations write; a region leaves its four windows' arrays at what its pipeline leaves
   and every other buffer as it found it. Each argument array, read back through the fold, holds its launch contents:
   no stretch writes an argument, and a region reads an argument only through an input window. -/
import proofs.«158609_j30133490549165_1_alg».proof.Proof.KBodyB0
import proofs.«158609_j30133490549165_1_alg».proof.Proof.KBodyB1
import proofs.«158609_j30133490549165_1_alg».proof.Proof.KBodyB2
import proofs.«158609_j30133490549165_1_alg».proof.Proof.KRunHostB
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.KF

open Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The buffer contents at each segment boundary -/

/-- Core `c`'s buffers at launch. -/
abbrev W0 : Dev nD → Valuation τ sig (Elt F) := fun c b => (s₀ m ρ).mem ((c : Dev nD), b)
/-- After the stretch `hostOps0` (region 0's entry). -/
abbrev W1 : Dev nD → Valuation τ sig (Elt F) := fun c => StableHlo.after hostOps0 (W0 m ρ c)
/-- The same read at the TensorCore's references: what region 0's proof data take. -/
abbrev V1 : (c : Dev nD) → (b : Ref sig .tc) → Buf (Elt F) ((c : Thread nD τ).loc b) := fun c b => W1 m ρ c b
/-- At region 0's exit: each window's array at what the pipeline leaves there (an input as entered, the output with
    every tile's write-back folded in), every other buffer as entered. -/
def W2 (c : Dev nD) : Valuation τ sig (Elt F) :=
  Pipeline.withArrays spec0 c (W1 m ρ c) fun w => (dat0 (V1 m ρ) c).arrAt w cfg0.N
theorem W2_arr (c : Dev nD) (w : Fin cfg0.W) :
    W2 m ρ c (Proc.devRef .tc (Pipeline.arrRef spec0 w)) = (dat0 (V1 m ρ) c).arrAt w cfg0.N := by
  unfold W2; exact Pipeline.withArrays_arr spec0 launch0.win.arr_inj c _ _ w
theorem W2_of_ne (c : Dev nD) (b : Ref sig .tc) (hb : ∀ w, Pipeline.arrRef spec0 w ≠ b) :
    W2 m ρ c (Proc.devRef .tc b) = W1 m ρ c (Proc.devRef .tc b) := by
  unfold W2; exact Pipeline.withArrays_of_ne spec0 c _ _ b hb
/-- The same read at the TensorCore's references: region 0's exit contents. -/
abbrev V2 : (c : Dev nD) → (b : Ref sig .tc) → Buf (Elt F) ((c : Thread nD τ).loc b) := fun c b => W2 m ρ c b
/-- At region 0's exit each of its arrays holds what the pipeline leaves, and every other buffer what it held at
    entry: the two facts that put the arrays back among the core's unscoped buffers. -/
theorem hF0 (c : Dev nD) (w : Fin cfg0.W) : (dat0 (V1 m ρ) c).arrAt w cfg0.N = V2 m ρ c (Pipeline.arrRef spec0 w) :=
  (W2_arr m ρ c w).symm
theorem hrest0 (c : Dev nD) : ∀ b, b ∉ Finset.univ.image (Pipeline.arrRef spec0) → V2 m ρ c b = V1 m ρ c b :=
  fun b hb => W2_of_ne m ρ c b fun w e => hb (Finset.mem_image.mpr ⟨w, Finset.mem_univ _, e⟩)

/-- After the stretch `hostOps1` (region 1's entry). -/
abbrev W3 : Dev nD → Valuation τ sig (Elt F) := fun c => StableHlo.after hostOps1 (W2 m ρ c)
/-- The same read at the TensorCore's references: what region 1's proof data take. -/
abbrev V3 : (c : Dev nD) → (b : Ref sig .tc) → Buf (Elt F) ((c : Thread nD τ).loc b) := fun c b => W3 m ρ c b
/-- At region 1's exit: each window's array at what the pipeline leaves there (an input as entered, the output with
    every tile's write-back folded in), every other buffer as entered. -/
def W4 (c : Dev nD) : Valuation τ sig (Elt F) :=
  Pipeline.withArrays spec1 c (W3 m ρ c) fun w => (dat1 (V3 m ρ) c).arrAt w cfg1.N
theorem W4_arr (c : Dev nD) (w : Fin cfg1.W) :
    W4 m ρ c (Proc.devRef .tc (Pipeline.arrRef spec1 w)) = (dat1 (V3 m ρ) c).arrAt w cfg1.N := by
  unfold W4; exact Pipeline.withArrays_arr spec1 launch1.win.arr_inj c _ _ w
theorem W4_of_ne (c : Dev nD) (b : Ref sig .tc) (hb : ∀ w, Pipeline.arrRef spec1 w ≠ b) :
    W4 m ρ c (Proc.devRef .tc b) = W3 m ρ c (Proc.devRef .tc b) := by
  unfold W4; exact Pipeline.withArrays_of_ne spec1 c _ _ b hb
/-- The same read at the TensorCore's references: region 1's exit contents. -/
abbrev V4 : (c : Dev nD) → (b : Ref sig .tc) → Buf (Elt F) ((c : Thread nD τ).loc b) := fun c b => W4 m ρ c b
/-- At region 1's exit each of its arrays holds what the pipeline leaves, and every other buffer what it held at
    entry: the two facts that put the arrays back among the core's unscoped buffers. -/
theorem hF1 (c : Dev nD) (w : Fin cfg1.W) : (dat1 (V3 m ρ) c).arrAt w cfg1.N = V4 m ρ c (Pipeline.arrRef spec1 w) :=
  (W4_arr m ρ c w).symm
theorem hrest1 (c : Dev nD) : ∀ b, b ∉ Finset.univ.image (Pipeline.arrRef spec1) → V4 m ρ c b = V3 m ρ c b :=
  fun b hb => W4_of_ne m ρ c b fun w e => hb (Finset.mem_image.mpr ⟨w, Finset.mem_univ _, e⟩)

/-- After the stretch `hostOps2` (region 2's entry). -/
abbrev W5 : Dev nD → Valuation τ sig (Elt F) := fun c => StableHlo.after hostOps2 (W4 m ρ c)
/-- The same read at the TensorCore's references: what region 2's proof data take. -/
abbrev V5 : (c : Dev nD) → (b : Ref sig .tc) → Buf (Elt F) ((c : Thread nD τ).loc b) := fun c b => W5 m ρ c b
/-- At region 2's exit: each window's array at what the pipeline leaves there (an input as entered, the output with
    every tile's write-back folded in), every other buffer as entered. -/
def W6 (c : Dev nD) : Valuation τ sig (Elt F) :=
  Pipeline.withArrays spec2 c (W5 m ρ c) fun w => (dat2 (V5 m ρ) c).arrAt w cfg2.N
theorem W6_arr (c : Dev nD) (w : Fin cfg2.W) :
    W6 m ρ c (Proc.devRef .tc (Pipeline.arrRef spec2 w)) = (dat2 (V5 m ρ) c).arrAt w cfg2.N := by
  unfold W6; exact Pipeline.withArrays_arr spec2 launch2.win.arr_inj c _ _ w
theorem W6_of_ne (c : Dev nD) (b : Ref sig .tc) (hb : ∀ w, Pipeline.arrRef spec2 w ≠ b) :
    W6 m ρ c (Proc.devRef .tc b) = W5 m ρ c (Proc.devRef .tc b) := by
  unfold W6; exact Pipeline.withArrays_of_ne spec2 c _ _ b hb
/-- The same read at the TensorCore's references: region 2's exit contents. -/
abbrev V6 : (c : Dev nD) → (b : Ref sig .tc) → Buf (Elt F) ((c : Thread nD τ).loc b) := fun c b => W6 m ρ c b
/-- At region 2's exit each of its arrays holds what the pipeline leaves, and every other buffer what it held at
    entry: the two facts that put the arrays back among the core's unscoped buffers. -/
theorem hF2 (c : Dev nD) (w : Fin cfg2.W) : (dat2 (V5 m ρ) c).arrAt w cfg2.N = V6 m ρ c (Pipeline.arrRef spec2 w) :=
  (W6_arr m ρ c w).symm
theorem hrest2 (c : Dev nD) : ∀ b, b ∉ Finset.univ.image (Pipeline.arrRef spec2) → V6 m ρ c b = V5 m ρ c b :=
  fun b hb => W6_of_ne m ρ c b fun w e => hb (Finset.mem_image.mpr ⟨w, Finset.mem_univ _, e⟩)

/-- After the stretch `hostOps3` (the return). -/
abbrev W7 : Dev nD → Valuation τ sig (Elt F) := fun c => StableHlo.after hostOps3 (W6 m ρ c)

/-! ## The arguments end as launched

No host operation writes an argument (it is not among the references its stretch writes). A region changes only its
windows' arrays, and an argument that is a window's array is an INPUT window's (the bias rows: argument 4 in region 0,
argument 6 in region 1, argument 8 in region 2), which the pipeline leaves as entered. So the fold, read at an
argument, walks back to the launch memory. -/

theorem W7_main_arg0 (c : Dev nD) : W7 m ρ c (Proc.devRef .tc main_arg0) = m ((c : Thread nD τ).loc main_arg0) :=
  calc W7 m ρ c (Proc.devRef .tc main_arg0)
    _ = W6 m ρ c (Proc.devRef .tc main_arg0) := StableHlo.after_of_writes_sub hostOps3 _ hostOps3_writes (by decide)
    _ = W5 m ρ c (Proc.devRef .tc main_arg0) := W6_of_ne m ρ c main_arg0 (by decide)
    _ = W4 m ρ c (Proc.devRef .tc main_arg0) := StableHlo.after_of_writes_sub hostOps2 _ hostOps2_writes (by decide)
    _ = W3 m ρ c (Proc.devRef .tc main_arg0) := W4_of_ne m ρ c main_arg0 (by decide)
    _ = W2 m ρ c (Proc.devRef .tc main_arg0) := StableHlo.after_of_writes_sub hostOps1 _ hostOps1_writes (by decide)
    _ = W1 m ρ c (Proc.devRef .tc main_arg0) := W2_of_ne m ρ c main_arg0 (by decide)
    _ = W0 m ρ c (Proc.devRef .tc main_arg0) := StableHlo.after_of_writes_sub hostOps0 _ hostOps0_writes (by decide)
    _ = m ((c : Thread nD τ).loc main_arg0) := rfl

theorem W7_main_arg1 (c : Dev nD) : W7 m ρ c (Proc.devRef .tc main_arg1) = m ((c : Thread nD τ).loc main_arg1) :=
  calc W7 m ρ c (Proc.devRef .tc main_arg1)
    _ = W6 m ρ c (Proc.devRef .tc main_arg1) := StableHlo.after_of_writes_sub hostOps3 _ hostOps3_writes (by decide)
    _ = W5 m ρ c (Proc.devRef .tc main_arg1) := W6_of_ne m ρ c main_arg1 (by decide)
    _ = W4 m ρ c (Proc.devRef .tc main_arg1) := StableHlo.after_of_writes_sub hostOps2 _ hostOps2_writes (by decide)
    _ = W3 m ρ c (Proc.devRef .tc main_arg1) := W4_of_ne m ρ c main_arg1 (by decide)
    _ = W2 m ρ c (Proc.devRef .tc main_arg1) := StableHlo.after_of_writes_sub hostOps1 _ hostOps1_writes (by decide)
    _ = W1 m ρ c (Proc.devRef .tc main_arg1) := W2_of_ne m ρ c main_arg1 (by decide)
    _ = W0 m ρ c (Proc.devRef .tc main_arg1) := StableHlo.after_of_writes_sub hostOps0 _ hostOps0_writes (by decide)
    _ = m ((c : Thread nD τ).loc main_arg1) := rfl

theorem W7_main_arg2 (c : Dev nD) : W7 m ρ c (Proc.devRef .tc main_arg2) = m ((c : Thread nD τ).loc main_arg2) :=
  calc W7 m ρ c (Proc.devRef .tc main_arg2)
    _ = W6 m ρ c (Proc.devRef .tc main_arg2) := StableHlo.after_of_writes_sub hostOps3 _ hostOps3_writes (by decide)
    _ = W5 m ρ c (Proc.devRef .tc main_arg2) := W6_of_ne m ρ c main_arg2 (by decide)
    _ = W4 m ρ c (Proc.devRef .tc main_arg2) := StableHlo.after_of_writes_sub hostOps2 _ hostOps2_writes (by decide)
    _ = W3 m ρ c (Proc.devRef .tc main_arg2) := W4_of_ne m ρ c main_arg2 (by decide)
    _ = W2 m ρ c (Proc.devRef .tc main_arg2) := StableHlo.after_of_writes_sub hostOps1 _ hostOps1_writes (by decide)
    _ = W1 m ρ c (Proc.devRef .tc main_arg2) := W2_of_ne m ρ c main_arg2 (by decide)
    _ = W0 m ρ c (Proc.devRef .tc main_arg2) := StableHlo.after_of_writes_sub hostOps0 _ hostOps0_writes (by decide)
    _ = m ((c : Thread nD τ).loc main_arg2) := rfl

theorem W7_main_arg3 (c : Dev nD) : W7 m ρ c (Proc.devRef .tc main_arg3) = m ((c : Thread nD τ).loc main_arg3) :=
  calc W7 m ρ c (Proc.devRef .tc main_arg3)
    _ = W6 m ρ c (Proc.devRef .tc main_arg3) := StableHlo.after_of_writes_sub hostOps3 _ hostOps3_writes (by decide)
    _ = W5 m ρ c (Proc.devRef .tc main_arg3) := W6_of_ne m ρ c main_arg3 (by decide)
    _ = W4 m ρ c (Proc.devRef .tc main_arg3) := StableHlo.after_of_writes_sub hostOps2 _ hostOps2_writes (by decide)
    _ = W3 m ρ c (Proc.devRef .tc main_arg3) := W4_of_ne m ρ c main_arg3 (by decide)
    _ = W2 m ρ c (Proc.devRef .tc main_arg3) := StableHlo.after_of_writes_sub hostOps1 _ hostOps1_writes (by decide)
    _ = W1 m ρ c (Proc.devRef .tc main_arg3) := W2_of_ne m ρ c main_arg3 (by decide)
    _ = W0 m ρ c (Proc.devRef .tc main_arg3) := StableHlo.after_of_writes_sub hostOps0 _ hostOps0_writes (by decide)
    _ = m ((c : Thread nD τ).loc main_arg3) := rfl

theorem W7_main_arg4 (c : Dev nD) : W7 m ρ c (Proc.devRef .tc main_arg4) = m ((c : Thread nD τ).loc main_arg4) :=
  calc W7 m ρ c (Proc.devRef .tc main_arg4)
    _ = W6 m ρ c (Proc.devRef .tc main_arg4) := StableHlo.after_of_writes_sub hostOps3 _ hostOps3_writes (by decide)
    _ = W5 m ρ c (Proc.devRef .tc main_arg4) := W6_of_ne m ρ c main_arg4 (by decide)
    _ = W4 m ρ c (Proc.devRef .tc main_arg4) := StableHlo.after_of_writes_sub hostOps2 _ hostOps2_writes (by decide)
    _ = W3 m ρ c (Proc.devRef .tc main_arg4) := W4_of_ne m ρ c main_arg4 (by decide)
    _ = W2 m ρ c (Proc.devRef .tc main_arg4) := StableHlo.after_of_writes_sub hostOps1 _ hostOps1_writes (by decide)
    _ = W1 m ρ c (Proc.devRef .tc main_arg4) := (W2_arr m ρ c 2).trans (((dat0 (V1 m ρ) c).arrAt_in 2 rfl _).trans (A_eq0 (V1 m ρ) c 2))
    _ = W0 m ρ c (Proc.devRef .tc main_arg4) := StableHlo.after_of_writes_sub hostOps0 _ hostOps0_writes (by decide)
    _ = m ((c : Thread nD τ).loc main_arg4) := rfl

theorem W7_main_arg5 (c : Dev nD) : W7 m ρ c (Proc.devRef .tc main_arg5) = m ((c : Thread nD τ).loc main_arg5) :=
  calc W7 m ρ c (Proc.devRef .tc main_arg5)
    _ = W6 m ρ c (Proc.devRef .tc main_arg5) := StableHlo.after_of_writes_sub hostOps3 _ hostOps3_writes (by decide)
    _ = W5 m ρ c (Proc.devRef .tc main_arg5) := W6_of_ne m ρ c main_arg5 (by decide)
    _ = W4 m ρ c (Proc.devRef .tc main_arg5) := StableHlo.after_of_writes_sub hostOps2 _ hostOps2_writes (by decide)
    _ = W3 m ρ c (Proc.devRef .tc main_arg5) := W4_of_ne m ρ c main_arg5 (by decide)
    _ = W2 m ρ c (Proc.devRef .tc main_arg5) := StableHlo.after_of_writes_sub hostOps1 _ hostOps1_writes (by decide)
    _ = W1 m ρ c (Proc.devRef .tc main_arg5) := W2_of_ne m ρ c main_arg5 (by decide)
    _ = W0 m ρ c (Proc.devRef .tc main_arg5) := StableHlo.after_of_writes_sub hostOps0 _ hostOps0_writes (by decide)
    _ = m ((c : Thread nD τ).loc main_arg5) := rfl

theorem W7_main_arg6 (c : Dev nD) : W7 m ρ c (Proc.devRef .tc main_arg6) = m ((c : Thread nD τ).loc main_arg6) :=
  calc W7 m ρ c (Proc.devRef .tc main_arg6)
    _ = W6 m ρ c (Proc.devRef .tc main_arg6) := StableHlo.after_of_writes_sub hostOps3 _ hostOps3_writes (by decide)
    _ = W5 m ρ c (Proc.devRef .tc main_arg6) := W6_of_ne m ρ c main_arg6 (by decide)
    _ = W4 m ρ c (Proc.devRef .tc main_arg6) := StableHlo.after_of_writes_sub hostOps2 _ hostOps2_writes (by decide)
    _ = W3 m ρ c (Proc.devRef .tc main_arg6) := (W4_arr m ρ c 2).trans (((dat1 (V3 m ρ) c).arrAt_in 2 rfl _).trans (A_eq1 (V3 m ρ) c 2))
    _ = W2 m ρ c (Proc.devRef .tc main_arg6) := StableHlo.after_of_writes_sub hostOps1 _ hostOps1_writes (by decide)
    _ = W1 m ρ c (Proc.devRef .tc main_arg6) := W2_of_ne m ρ c main_arg6 (by decide)
    _ = W0 m ρ c (Proc.devRef .tc main_arg6) := StableHlo.after_of_writes_sub hostOps0 _ hostOps0_writes (by decide)
    _ = m ((c : Thread nD τ).loc main_arg6) := rfl

theorem W7_main_arg7 (c : Dev nD) : W7 m ρ c (Proc.devRef .tc main_arg7) = m ((c : Thread nD τ).loc main_arg7) :=
  calc W7 m ρ c (Proc.devRef .tc main_arg7)
    _ = W6 m ρ c (Proc.devRef .tc main_arg7) := StableHlo.after_of_writes_sub hostOps3 _ hostOps3_writes (by decide)
    _ = W5 m ρ c (Proc.devRef .tc main_arg7) := W6_of_ne m ρ c main_arg7 (by decide)
    _ = W4 m ρ c (Proc.devRef .tc main_arg7) := StableHlo.after_of_writes_sub hostOps2 _ hostOps2_writes (by decide)
    _ = W3 m ρ c (Proc.devRef .tc main_arg7) := W4_of_ne m ρ c main_arg7 (by decide)
    _ = W2 m ρ c (Proc.devRef .tc main_arg7) := StableHlo.after_of_writes_sub hostOps1 _ hostOps1_writes (by decide)
    _ = W1 m ρ c (Proc.devRef .tc main_arg7) := W2_of_ne m ρ c main_arg7 (by decide)
    _ = W0 m ρ c (Proc.devRef .tc main_arg7) := StableHlo.after_of_writes_sub hostOps0 _ hostOps0_writes (by decide)
    _ = m ((c : Thread nD τ).loc main_arg7) := rfl

theorem W7_main_arg8 (c : Dev nD) : W7 m ρ c (Proc.devRef .tc main_arg8) = m ((c : Thread nD τ).loc main_arg8) :=
  calc W7 m ρ c (Proc.devRef .tc main_arg8)
    _ = W6 m ρ c (Proc.devRef .tc main_arg8) := StableHlo.after_of_writes_sub hostOps3 _ hostOps3_writes (by decide)
    _ = W5 m ρ c (Proc.devRef .tc main_arg8) := (W6_arr m ρ c 2).trans (((dat2 (V5 m ρ) c).arrAt_in 2 rfl _).trans (A_eq2 (V5 m ρ) c 2))
    _ = W4 m ρ c (Proc.devRef .tc main_arg8) := StableHlo.after_of_writes_sub hostOps2 _ hostOps2_writes (by decide)
    _ = W3 m ρ c (Proc.devRef .tc main_arg8) := W4_of_ne m ρ c main_arg8 (by decide)
    _ = W2 m ρ c (Proc.devRef .tc main_arg8) := StableHlo.after_of_writes_sub hostOps1 _ hostOps1_writes (by decide)
    _ = W1 m ρ c (Proc.devRef .tc main_arg8) := W2_of_ne m ρ c main_arg8 (by decide)
    _ = W0 m ρ c (Proc.devRef .tc main_arg8) := StableHlo.after_of_writes_sub hostOps0 _ hostOps0_writes (by decide)
    _ = m ((c : Thread nD τ).loc main_arg8) := rfl

theorem W7_main_arg9 (c : Dev nD) : W7 m ρ c (Proc.devRef .tc main_arg9) = m ((c : Thread nD τ).loc main_arg9) :=
  calc W7 m ρ c (Proc.devRef .tc main_arg9)
    _ = W6 m ρ c (Proc.devRef .tc main_arg9) := StableHlo.after_of_writes_sub hostOps3 _ hostOps3_writes (by decide)
    _ = W5 m ρ c (Proc.devRef .tc main_arg9) := W6_of_ne m ρ c main_arg9 (by decide)
    _ = W4 m ρ c (Proc.devRef .tc main_arg9) := StableHlo.after_of_writes_sub hostOps2 _ hostOps2_writes (by decide)
    _ = W3 m ρ c (Proc.devRef .tc main_arg9) := W4_of_ne m ρ c main_arg9 (by decide)
    _ = W2 m ρ c (Proc.devRef .tc main_arg9) := StableHlo.after_of_writes_sub hostOps1 _ hostOps1_writes (by decide)
    _ = W1 m ρ c (Proc.devRef .tc main_arg9) := W2_of_ne m ρ c main_arg9 (by decide)
    _ = W0 m ρ c (Proc.devRef .tc main_arg9) := StableHlo.after_of_writes_sub hostOps0 _ hostOps0_writes (by decide)
    _ = m ((c : Thread nD τ).loc main_arg9) := rfl

theorem W7_main_arg10 (c : Dev nD) : W7 m ρ c (Proc.devRef .tc main_arg10) = m ((c : Thread nD τ).loc main_arg10) :=
  calc W7 m ρ c (Proc.devRef .tc main_arg10)
    _ = W6 m ρ c (Proc.devRef .tc main_arg10) := StableHlo.after_of_writes_sub hostOps3 _ hostOps3_writes (by decide)
    _ = W5 m ρ c (Proc.devRef .tc main_arg10) := W6_of_ne m ρ c main_arg10 (by decide)
    _ = W4 m ρ c (Proc.devRef .tc main_arg10) := StableHlo.after_of_writes_sub hostOps2 _ hostOps2_writes (by decide)
    _ = W3 m ρ c (Proc.devRef .tc main_arg10) := W4_of_ne m ρ c main_arg10 (by decide)
    _ = W2 m ρ c (Proc.devRef .tc main_arg10) := StableHlo.after_of_writes_sub hostOps1 _ hostOps1_writes (by decide)
    _ = W1 m ρ c (Proc.devRef .tc main_arg10) := W2_of_ne m ρ c main_arg10 (by decide)
    _ = W0 m ρ c (Proc.devRef .tc main_arg10) := StableHlo.after_of_writes_sub hostOps0 _ hostOps0_writes (by decide)
    _ = m ((c : Thread nD τ).loc main_arg10) := rfl

/-! ## The proof data family and the thread state -/

/-- The prefetched tables' admissible contents: no pipeline has a table. -/
abbrev adm : (p : Fin 3) → (pcfgs (F := F) p).Adm := fun p => (cfgs p).toPCfg_adm
/-- Every pipeline's proof data, each at its region's entry contents: a literal case split on the pipeline's index, so
    that the pinned configuration at a numeral reduces to the printed one. -/
def pdats : (p : Fin 3) → (c : Dev nD) → Dat τ (Elt F) Unit ℕ (UR sig nD τ) ℕ (Pipeline.pin (pcfgs (F := F)) adm p) c
  | ⟨0, _⟩ => fun c => dat0 (V1 m ρ) c
  | ⟨1, _⟩ => fun c => dat1 (V3 m ρ) c
  | ⟨2, _⟩ => fun c => dat2 (V5 m ρ) c
abbrev 𝒱₀ : Variants := Variants.none
/-- No core owes another anything: no level is assigned. -/
abbrev L : GSem nD τ sig → Finset Unit := fun _ => ∅
abbrev lv : GSem nD τ sig → Unit → ℕ := fun _ _ => 0
/-- What rides beside the buffers through every segment: the core's generator register at some state (a region's
    invariant takes it in and gives it back) and the core owing nothing. -/
abbrev R (c : Dev nD) : sProp 𝕄 := iprop((∃ r, prngReg c r) ∗ ∃ W, owes (c : Thread nD τ) (0 : CellTallies nD τ sig Unit) W)
/-- A host stretch as a segment: its operations run over the unscoped references from the contents `W`, `R` riding
    along; it ends with those references at the contents the operations leave. -/
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R

/-- An unscoped TensorCore reference is among those the thread state holds. -/
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
/-- The last thread state without the core's debt (the run ends at it BESIDE the core owing nothing): every unscoped
    buffer at the last boundary's contents `W7`, the generator register at some state. -/
abbrev Tₙ (c : Dev nD) : sProp 𝕄 := iprop(StableHlo.held (c : Thread nD τ) (Pipeline.ucRefs τ sig) (W7 m ρ c) ∗ ∃ r, prngReg c r)

/-! ## The regions as segments -/

set_option backward.isDefEq.respectTransparency.types false in
/-- REGION 0 over the thread state: entered from every unscoped buffer at `W1`, left at `W2`. Its four arrays are
    split out of the unscoped buffers at entry and put back at the exit contents; the generator register goes into
    the region's invariant and comes back; nothing is owed; the kernel has no semaphore of its own. -/
def reg0 : Pipeline.RegionSeg (pcfgs (F := F)) adm (pdats m ρ) () defs₀ 𝒱₀ L lv 0 where
  win := launch0.win.to₀
  block_pos := launch0.block_pos
  stage_whole := launch0.stage_whole
  K := PEmpty
  osem k := k.elim
  ho := Pipeline.OwnSemFacts.none _
  hbody c := (body_obligation0 (V1 m ρ) c).loose
  hwaits := Pipeline.hwaits_of_owed_zero _ _ _ _ L lv 0 fun _ _ => rfl
  pre c := iprop(StableHlo.held (c : Thread nD τ) (Pipeline.ucRefs τ sig) (W1 m ρ c) ∗ R c)
  post c := iprop(StableHlo.held (c : Thread nD τ) (Pipeline.ucRefs τ sig) (W2 m ρ c) ∗ R c)
  X c := iprop(∃ r, prngReg c r)
  Y c := iprop(∃ r, prngReg c r)
  Z c := Pipeline.unscopedRest (Ix := Unit) (Name := ℕ) (U := UR sig nD τ) (Lvl := ℕ) spec0 c (V1 m ρ c)
  hentry c := by
    rw [Pipeline.ownSems0_none]
    have hsplit := Pipeline.arrays_of_unscopedBufs (p := 0) (pcfgs (F := F)) adm (pdats m ρ) launch0.win launch0.arr_whole c
      ((pdats m ρ 0 c).share_full fun _ => rfl) (V1 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m ρ 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m ρ) ((pdats m ρ 0 c).share_full fun _ => rfl)
      (V1 m ρ c) (V2 m ρ c) ((pdats m ρ 0 c).arrAt · cfg0.N) (hF0 m ρ c) (hrest0 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- REGION 1 over the thread state: entered from every unscoped buffer at `W3`, left at `W4`. Its four arrays are
    split out of the unscoped buffers at entry and put back at the exit contents; the generator register goes into
    the region's invariant and comes back; nothing is owed; the kernel has no semaphore of its own. -/
def reg1 : Pipeline.RegionSeg (pcfgs (F := F)) adm (pdats m ρ) () defs₀ 𝒱₀ L lv 1 where
  win := launch1.win.to₀
  block_pos := launch1.block_pos
  stage_whole := launch1.stage_whole
  K := PEmpty
  osem k := k.elim
  ho := Pipeline.OwnSemFacts.none _
  hbody c := (body_obligation1 (V3 m ρ) c).loose
  hwaits := Pipeline.hwaits_of_owed_zero _ _ _ _ L lv 1 fun _ _ => rfl
  pre c := iprop(StableHlo.held (c : Thread nD τ) (Pipeline.ucRefs τ sig) (W3 m ρ c) ∗ R c)
  post c := iprop(StableHlo.held (c : Thread nD τ) (Pipeline.ucRefs τ sig) (W4 m ρ c) ∗ R c)
  X c := iprop(∃ r, prngReg c r)
  Y c := iprop(∃ r, prngReg c r)
  Z c := Pipeline.unscopedRest (Ix := Unit) (Name := ℕ) (U := UR sig nD τ) (Lvl := ℕ) spec1 c (V3 m ρ c)
  hentry c := by
    rw [Pipeline.ownSems0_none]
    have hsplit := Pipeline.arrays_of_unscopedBufs (p := 1) (pcfgs (F := F)) adm (pdats m ρ) launch1.win launch1.arr_whole c
      ((pdats m ρ 1 c).share_full fun _ => rfl) (V3 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 1 c).Φ 0 = Pipeline.ΦA spec1 c from rfl]; unfold Pipeline.ΦA
    iintro ⟨Hp, -, Hr⟩
    isplitl [Hr]; · iexact Hr
    iexact Hp
  hout c := by
    rw [Pipeline.ownSems0_none, show (pdats m ρ 1 c).Φ (Fin.last _) = Pipeline.ΦA spec1 c from rfl]; unfold Pipeline.ΦA
    iintro ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m ρ) ((pdats m ρ 1 c).share_full fun _ => rfl)
      (V3 m ρ c) (V4 m ρ c) ((pdats m ρ 1 c).arrAt · cfg1.N) (hF1 m ρ c) (hrest1 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- REGION 2 over the thread state: entered from every unscoped buffer at `W5`, left at `W6`. Its four arrays are
    split out of the unscoped buffers at entry and put back at the exit contents; the generator register goes into
    the region's invariant and comes back; nothing is owed; the kernel has no semaphore of its own. -/
def reg2 : Pipeline.RegionSeg (pcfgs (F := F)) adm (pdats m ρ) () defs₀ 𝒱₀ L lv 2 where
  win := launch2.win.to₀
  block_pos := launch2.block_pos
  stage_whole := launch2.stage_whole
  K := PEmpty
  osem k := k.elim
  ho := Pipeline.OwnSemFacts.none _
  hbody c := (body_obligation2 (V5 m ρ) c).loose
  hwaits := Pipeline.hwaits_of_owed_zero _ _ _ _ L lv 2 fun _ _ => rfl
  pre c := iprop(StableHlo.held (c : Thread nD τ) (Pipeline.ucRefs τ sig) (W5 m ρ c) ∗ R c)
  post c := iprop(StableHlo.held (c : Thread nD τ) (Pipeline.ucRefs τ sig) (W6 m ρ c) ∗ R c)
  X c := iprop(∃ r, prngReg c r)
  Y c := iprop(∃ r, prngReg c r)
  Z c := Pipeline.unscopedRest (Ix := Unit) (Name := ℕ) (U := UR sig nD τ) (Lvl := ℕ) spec2 c (V5 m ρ c)
  hentry c := by
    rw [Pipeline.ownSems0_none]
    have hsplit := Pipeline.arrays_of_unscopedBufs (p := 2) (pcfgs (F := F)) adm (pdats m ρ) launch2.win launch2.arr_whole c
      ((pdats m ρ 2 c).share_full fun _ => rfl) (V5 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 2 c).Φ 0 = Pipeline.ΦA spec2 c from rfl]; unfold Pipeline.ΦA
    iintro ⟨Hp, -, Hr⟩
    isplitl [Hr]; · iexact Hr
    iexact Hp
  hout c := by
    rw [Pipeline.ownSems0_none, show (pdats m ρ 2 c).Φ (Fin.last _) = Pipeline.ΦA spec2 c from rfl]; unfold Pipeline.ΦA
    iintro ⟨Hr, Hp⟩
    isplitl [Hp]; · iexact Hp
    isplitr; · iempintro
    iexact Hr
  hexit c := by
    have hjoin := Pipeline.unscopedBufs_of_arrays (p := 2) (pcfgs (F := F)) adm (Ix := Unit) (Name := ℕ) (U := UR sig nD τ) (Lvl := ℕ)
      launch2.win launch2.arr_whole c (pdats m ρ) ((pdats m ρ 2 c).share_full fun _ => rfl)
      (V5 m ρ c) (V6 m ρ c) ((pdats m ρ 2 c).arrAt · cfg2.N) (hF2 m ρ c) (hrest2 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

/-! ## @main as segments, and the launch -/

/-- @main's 7 segments in order: a host segment per stretch from its boundary's contents, a region per kernel call. -/
abbrev segs : List (Pipeline.Seg (pcfgs (F := F)) adm (pdats m ρ) () defs₀ 𝒱₀ L lv) :=
  [ .host (hseg hostOps0 hostOps0_sub hostOps0_fresh (W0 m ρ)),
    .region (reg0 m ρ),
    .host (hseg hostOps1 hostOps1_sub hostOps1_fresh (W2 m ρ)),
    .region (reg1 m ρ),
    .host (hseg hostOps2 hostOps2_sub hostOps2_fresh (W4 m ρ)),
    .region (reg2 m ρ),
    .host (hseg hostOps3 hostOps3_sub hostOps3_fresh (W6 m ρ)) ]
/-- @main IS the run of the segments: it is the chain of its seven items, and the segments' run is the same chain. -/
theorem main_run (c : Dev nD) : main (F := F) c = Pipeline.Seg.run (segs m ρ) := (main_chain c).trans (by chain_rfl)

set_option backward.isDefEq.respectTransparency.types false in
/-- THE RUN, at any `F` and any postcondition `Q` that follows from the final memory holding, on every core, every
    unscoped buffer at the last boundary's contents `W7`: from any memory with zero counters every weakly fair
    execution of @main on the TensorCores terminates, nothing faulting, in a state satisfying `Q`. The launch over
    the seven segments; the last thread state is read against the final state buffer by buffer. -/
theorem run_of {Q : PUnit × MemSt nD τ sig (Elt F) → Prop}
    (hQ : ∀ s : MemSt nD τ sig (Elt F), (∀ c : Dev nD, ∀ b ∈ Pipeline.ucRefs τ sig, s.mem (((c : Thread nD τ)).1, b) = W7 m ρ c b) → Q (⟨⟩, s)) :
    θ_run defs (onTc (τ := τ) (main (F := F))) ⟨m, fun _ => 0, ρ⟩ Q :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun c => by
      show iprop(StableHlo.held (c : Thread nD τ) (Pipeline.ucRefs τ sig) (W7 m ρ c) ∗ R c)
        ⊢ iprop(Tₙ m ρ c ∗ ∃ W, owes (c : Thread nD τ) (0 : CellTallies nD τ sig Unit) W)
      iintro ⟨Hh, Hp, HO⟩
      isplitl [Hh Hp]
      · isplitl [Hh]; · iexact Hh
        iexact Hp
      iexact HO⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W7 m ρ c b)
    (hfin := fun c s' => by
      iintro ⟨⟨Hh, -⟩, HSI⟩
      unfold StableHlo.held
      imodintro
      iapply (pointsTo_read_all (Pipeline.ucRefs τ sig) (fun b => (((c : Thread nD τ)).1, b)) (W7 m ρ c) s')
      isplitl [Hh] <;> iassumption)
    (hQ := hQ)

/-- The run with the final memory's reading itself as the postcondition: on every core every unscoped buffer ends at
    the last boundary's contents. -/
theorem run : θ_run defs (onTc (τ := τ) (main (F := F))) ⟨m, fun _ => 0, ρ⟩
    (fun r => ∀ c : Dev nD, ∀ b ∈ Pipeline.ucRefs τ sig, r.2.mem (((c : Thread nD τ)).1, b) = W7 m ρ c b) :=
  run_of m ρ fun _ h => h

/-- THE FRAME: every argument array ends holding its launch contents (each argument is an unscoped buffer, read off the
    last boundary's contents and walked back through the fold). -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)) :=
  run_of m ρ fun s h c =>
    ⟨(h c _ (mem_uc main_arg0 (by decide))).trans (W7_main_arg0 m ρ c),
     (h c _ (mem_uc main_arg1 (by decide))).trans (W7_main_arg1 m ρ c),
     (h c _ (mem_uc main_arg2 (by decide))).trans (W7_main_arg2 m ρ c),
     (h c _ (mem_uc main_arg3 (by decide))).trans (W7_main_arg3 m ρ c),
     (h c _ (mem_uc main_arg4 (by decide))).trans (W7_main_arg4 m ρ c),
     (h c _ (mem_uc main_arg5 (by decide))).trans (W7_main_arg5 m ρ c),
     (h c _ (mem_uc main_arg6 (by decide))).trans (W7_main_arg6 m ρ c),
     (h c _ (mem_uc main_arg7 (by decide))).trans (W7_main_arg7 m ρ c),
     (h c _ (mem_uc main_arg8 (by decide))).trans (W7_main_arg8 m ρ c),
     (h c _ (mem_uc main_arg9 (by decide))).trans (W7_main_arg9 m ρ c),
     (h c _ (mem_uc main_arg10 (by decide))).trans (W7_main_arg10 m ρ c)⟩

end Cert.Kernel.KF

end
-- ==== Proof.RefOps.lean ====
import proofs.«158609_j30133490549165_1_alg».proof.Proof.Gen.ReferenceIdeal
import Idealize.ShloMosaic.Lib.StableHlo.Run

noncomputable section

namespace Cert.ReferenceIdeal.RR

open Cert.ReferenceIdeal Cert.ReferenceIdeal.Gen Idealize.ShloMosaic Idealize.ShloMosaic.TcCoe Idealize.SL.Sem Idealize.ShloMosaic.StableHlo

variable {F : FTy → Type} [FloatOps F]

set_option maxHeartbeats 40000000 in
/-- @main's statements 1 … 60: 60 operations, in order (a call's are its body's at the call's operands and record). -/
abbrev win0 : List (HloOp τ sig (Elt F)) :=
  [ StableHlo.unary main_arg1 main_v0 ((extractStridedSlice S1x800000 ![0, 0] · slices_S4x800000_S1x800000_0_0) : (⟨S4x800000, .i32⟩ : BufTy).Contents (Elt F) → (⟨S1x800000, .i32⟩ : BufTy).Contents (Elt F)),
    StableHlo.reshape main_v0 main_v1 rfl shapeCasts_S1x800000_S800000,
    StableHlo.unary main_arg2 main_v2 ((extractStridedSlice S1x800000 ![0, 0] · slices_S4x800000_S1x800000_0_0) : (⟨S4x800000, .i32⟩ : BufTy).Contents (Elt F) → (⟨S1x800000, .i32⟩ : BufTy).Contents (Elt F)),
    StableHlo.reshape main_v2 main_v3 rfl shapeCasts_S1x800000_S800000,
    StableHlo.unary main_arg3 main_v4 ((extractStridedSlice S1x128x128 ![0, 0, 0] · slices_S4x128x128_S1x128x128_0_0_0) : (⟨S4x128x128, .f32⟩ : BufTy).Contents (Elt F) → (⟨S1x128x128, .f32⟩ : BufTy).Contents (Elt F)),
    StableHlo.reshape main_v4 main_v5 rfl shapeCasts_S1x128x128_S128x128,
    StableHlo.unary main_arg4 main_v6 ((extractStridedSlice S1x128 ![0, 0] · slices_S4x128_S1x128_0_0) : (⟨S4x128, .f32⟩ : BufTy).Contents (Elt F) → (⟨S1x128, .f32⟩ : BufTy).Contents (Elt F)),
    StableHlo.reshape main_v6 main_v7 rfl shapeCasts_S1x128_S128,
    StableHlo.nullary main_cst (constant S_ .f32 0x3F800000#32),
    StableHlo.unary main_cst main_v8 (broadcastInDim S800000 ![] bcast_S_S800000 : (⟨S_, .f32⟩ : BufTy).Contents (Elt F) → (⟨S800000, .f32⟩ : BufTy).Contents (Elt F)),
    StableHlo.nullary main_cst_0 (constant S_ .f32 0x00000000#32),
    StableHlo.unary main_cst_0 main_v9 (broadcastInDim S50000 ![] bcast_S_S50000 : (⟨S_, .f32⟩ : BufTy).Contents (Elt F) → (⟨S50000, .f32⟩ : BufTy).Contents (Elt F)),
    StableHlo.unary main_v1 main_v10 (broadcastInDim S800000x1 ![0] bcast_S800000_S800000x1_0 : (⟨S800000, .i32⟩ : BufTy).Contents (Elt F) → (⟨S800000x1, .i32⟩ : BufTy).Contents (Elt F)),
    StableHlo.ternary main_v9 main_v10 main_v8 main_v11 ((fun x i u => Host.scatterAdd scatter_S50000_S800000x1_S800000_n_0_0_1 x i u) : (⟨S50000, .f32⟩ : BufTy).Contents (Elt F) → (⟨S800000x1, .i32⟩ : BufTy).Contents (Elt F) → (⟨S800000, .f32⟩ : BufTy).Contents (Elt F) → (⟨S50000, .f32⟩ : BufTy).Contents (Elt F)),
    StableHlo.nullary main_cst_1 (constant S_ .f32 0x3F800000#32),
    StableHlo.unary main_cst_1 main_v12 (broadcastInDim S50000 ![] bcast_S_S50000 : (⟨S_, .f32⟩ : BufTy).Contents (Elt F) → (⟨S50000, .f32⟩ : BufTy).Contents (Elt F)),
    StableHlo.binary main_v11 main_v12 main_v13 (maximumf : (⟨S50000, .f32⟩ : BufTy).Contents (Elt F) → (⟨S50000, .f32⟩ : BufTy).Contents (Elt F) → (⟨S50000, .f32⟩ : BufTy).Contents (Elt F)),
    StableHlo.nullary main_cst_2 (constant S_ .f32 0x00000000#32),
    StableHlo.unary main_cst_2 main_v14 (broadcastInDim S50000 ![] bcast_S_S50000 : (⟨S_, .f32⟩ : BufTy).Contents (Elt F) → (⟨S50000, .f32⟩ : BufTy).Contents (Elt F)),
    StableHlo.unary main_v3 main_v15 (broadcastInDim S800000x1 ![0] bcast_S800000_S800000x1_0 : (⟨S800000, .i32⟩ : BufTy).Contents (Elt F) → (⟨S800000x1, .i32⟩ : BufTy).Contents (Elt F)),
    StableHlo.ternary main_v14 main_v15 main_v8 main_v16 ((fun x i u => Host.scatterAdd scatter_S50000_S800000x1_S800000_n_0_0_1 x i u) : (⟨S50000, .f32⟩ : BufTy).Contents (Elt F) → (⟨S800000x1, .i32⟩ : BufTy).Contents (Elt F) → (⟨S800000, .f32⟩ : BufTy).Contents (Elt F) → (⟨S50000, .f32⟩ : BufTy).Contents (Elt F)),
    StableHlo.nullary main_cst_3 (constant S_ .f32 0x3F800000#32),
    StableHlo.unary main_cst_3 main_v17 (broadcastInDim S50000 ![] bcast_S_S50000 : (⟨S_, .f32⟩ : BufTy).Contents (Elt F) → (⟨S50000, .f32⟩ : BufTy).Contents (Elt F)),
    StableHlo.binary main_v16 main_v17 main_v18 (maximumf : (⟨S50000, .f32⟩ : BufTy).Contents (Elt F) → (⟨S50000, .f32⟩ : BufTy).Contents (Elt F) → (⟨S50000, .f32⟩ : BufTy).Contents (Elt F)),
    StableHlo.nullary main_cst_4 (constant S_ .f32 0xBF000000#32),
    StableHlo.unary main_cst_4 main_v19 (broadcastInDim S50000 ![] bcast_S_S50000 : (⟨S_, .f32⟩ : BufTy).Contents (Elt F) → (⟨S50000, .f32⟩ : BufTy).Contents (Elt F)),
    StableHlo.binary main_v13 main_v19 main_v20 (Host.powf : (⟨S50000, .f32⟩ : BufTy).Contents (Elt F) → (⟨S50000, .f32⟩ : BufTy).Contents (Elt F) → (⟨S50000, .f32⟩ : BufTy).Contents (Elt F)),
    StableHlo.unary main_v20 main_v21 (broadcastInDim S50000x1 ![0] bcast_S50000_S50000x1_0 : (⟨S50000, .f32⟩ : BufTy).Contents (Elt F) → (⟨S50000x1, .f32⟩ : BufTy).Contents (Elt F)),
    StableHlo.unary main_v21 main_v22 (broadcastInDim S50000x128 ![0, 1] bcast_S50000x1_S50000x128_0_1 : (⟨S50000x1, .f32⟩ : BufTy).Contents (Elt F) → (⟨S50000x128, .f32⟩ : BufTy).Contents (Elt F)),
    StableHlo.binary main_arg0 main_v22 main_v23 (mulf : (⟨S50000x128, .f32⟩ : BufTy).Contents (Elt F) → (⟨S50000x128, .f32⟩ : BufTy).Contents (Elt F) → (⟨S50000x128, .f32⟩ : BufTy).Contents (Elt F)),
    StableHlo.nullary main_c (constantI S_ 32 0#32),
    StableHlo.unary main_c main_v24 (broadcastInDim S800000 ![] bcast_S_S800000 : (⟨S_, .i32⟩ : BufTy).Contents (Elt F) → (⟨S800000, .i32⟩ : BufTy).Contents (Elt F)),
    StableHlo.binary main_v1 main_v24 main_v25 (cmpi .slt : (⟨S800000, .i32⟩ : BufTy).Contents (Elt F) → (⟨S800000, .i32⟩ : BufTy).Contents (Elt F) → (⟨S800000, .i1⟩ : BufTy).Contents (Elt F)),
    StableHlo.nullary main_c_5 (constantI S_ 32 50000#32),
    StableHlo.unary main_c_5 main_v26 (broadcastInDim S800000 ![] bcast_S_S800000 : (⟨S_, .i32⟩ : BufTy).Contents (Elt F) → (⟨S800000, .i32⟩ : BufTy).Contents (Elt F)),
    StableHlo.binary main_v1 main_v26 main_v27 (addi : (⟨S800000, .i32⟩ : BufTy).Contents (Elt F) → (⟨S800000, .i32⟩ : BufTy).Contents (Elt F) → (⟨S800000, .i32⟩ : BufTy).Contents (Elt F)),
    StableHlo.ternary main_v25 main_v27 main_v1 main_v28 (select : (⟨S800000, .i1⟩ : BufTy).Contents (Elt F) → (⟨S800000, .i32⟩ : BufTy).Contents (Elt F) → (⟨S800000, .i32⟩ : BufTy).Contents (Elt F) → (⟨S800000, .i32⟩ : BufTy).Contents (Elt F)),
    StableHlo.unary main_v28 main_v29 (broadcastInDim S800000x1 ![0] bcast_S800000_S800000x1_0 : (⟨S800000, .i32⟩ : BufTy).Contents (Elt F) → (⟨S800000x1, .i32⟩ : BufTy).Contents (Elt F)),
    StableHlo.binary main_v23 main_v29 main_v30 ((fun x i => Host.gather gather_S50000x128_S800000x1_S800000x128_1_0_n_n_0_1_1128 x i) : (⟨S50000x128, .f32⟩ : BufTy).Contents (Elt F) → (⟨S800000x1, .i32⟩ : BufTy).Contents (Elt F) → (⟨S800000x128, .f32⟩ : BufTy).Contents (Elt F)),
    StableHlo.nullary main_cst_6 (constant S_ .f32 0x00000000#32),
    StableHlo.unary main_cst_6 main_v31 (broadcastInDim S50000x128 ![] bcast_S_S50000x128 : (⟨S_, .f32⟩ : BufTy).Contents (Elt F) → (⟨S50000x128, .f32⟩ : BufTy).Contents (Elt F)),
    StableHlo.unary main_v3 main_v32 (broadcastInDim S800000x1 ![0] bcast_S800000_S800000x1_0 : (⟨S800000, .i32⟩ : BufTy).Contents (Elt F) → (⟨S800000x1, .i32⟩ : BufTy).Contents (Elt F)),
    StableHlo.ternary main_v31 main_v32 main_v30 main_v33 ((fun x i u => Host.scatterAdd scatter_S50000x128_S800000x1_S800000x128_1_0_0_1 x i u) : (⟨S50000x128, .f32⟩ : BufTy).Contents (Elt F) → (⟨S800000x1, .i32⟩ : BufTy).Contents (Elt F) → (⟨S800000x128, .f32⟩ : BufTy).Contents (Elt F) → (⟨S50000x128, .f32⟩ : BufTy).Contents (Elt F)),
    StableHlo.nullary main_cst_7 (constant S_ .f32 0xBF000000#32),
    StableHlo.unary main_cst_7 main_v34 (broadcastInDim S50000 ![] bcast_S_S50000 : (⟨S_, .f32⟩ : BufTy).Contents (Elt F) → (⟨S50000, .f32⟩ : BufTy).Contents (Elt F)),
    StableHlo.binary main_v18 main_v34 main_v35 (Host.powf : (⟨S50000, .f32⟩ : BufTy).Contents (Elt F) → (⟨S50000, .f32⟩ : BufTy).Contents (Elt F) → (⟨S50000, .f32⟩ : BufTy).Contents (Elt F)),
    StableHlo.unary main_v35 main_v36 (broadcastInDim S50000x1 ![0] bcast_S50000_S50000x1_0 : (⟨S50000, .f32⟩ : BufTy).Contents (Elt F) → (⟨S50000x1, .f32⟩ : BufTy).Contents (Elt F)),
    StableHlo.unary main_v36 main_v37 (broadcastInDim S50000x128 ![0, 1] bcast_S50000x1_S50000x128_0_1 : (⟨S50000x1, .f32⟩ : BufTy).Contents (Elt F) → (⟨S50000x128, .f32⟩ : BufTy).Contents (Elt F)),
    StableHlo.binary main_v33 main_v37 main_v38 (mulf : (⟨S50000x128, .f32⟩ : BufTy).Contents (Elt F) → (⟨S50000x128, .f32⟩ : BufTy).Contents (Elt F) → (⟨S50000x128, .f32⟩ : BufTy).Contents (Elt F)),
    StableHlo.binary main_v38 main_v5 main_v39 ((fun l r => Host.dotGeneral dot_S50000x128_S128x128_S50000x128_1_0_0_1_n_n none l r) : (⟨S50000x128, .f32⟩ : BufTy).Contents (Elt F) → (⟨S128x128, .f32⟩ : BufTy).Contents (Elt F) → (⟨S50000x128, .f32⟩ : BufTy).Contents (Elt F)),
    StableHlo.unary main_v7 main_v40 (broadcastInDim S1x128 ![1] bcast_S128_S1x128_1 : (⟨S128, .f32⟩ : BufTy).Contents (Elt F) → (⟨S1x128, .f32⟩ : BufTy).Contents (Elt F)),
    StableHlo.unary main_v40 main_v41 (broadcastInDim S50000x128 ![0, 1] bcast_S1x128_S50000x128_0_1 : (⟨S1x128, .f32⟩ : BufTy).Contents (Elt F) → (⟨S50000x128, .f32⟩ : BufTy).Contents (Elt F)),
    StableHlo.binary main_v39 main_v41 main_v42 (addf : (⟨S50000x128, .f32⟩ : BufTy).Contents (Elt F) → (⟨S50000x128, .f32⟩ : BufTy).Contents (Elt F) → (⟨S50000x128, .f32⟩ : BufTy).Contents (Elt F)),
    StableHlo.unary main_arg1 main_v43 ((extractStridedSlice S1x800000 ![1, 0] · slices_S4x800000_S1x800000_1_0) : (⟨S4x800000, .i32⟩ : BufTy).Contents (Elt F) → (⟨S1x800000, .i32⟩ : BufTy).Contents (Elt F)),
    StableHlo.reshape main_v43 main_v44 rfl shapeCasts_S1x800000_S800000,
    StableHlo.unary main_arg2 main_v45 ((extractStridedSlice S1x800000 ![1, 0] · slices_S4x800000_S1x800000_1_0) : (⟨S4x800000, .i32⟩ : BufTy).Contents (Elt F) → (⟨S1x800000, .i32⟩ : BufTy).Contents (Elt F)),
    StableHlo.reshape main_v45 main_v46 rfl shapeCasts_S1x800000_S800000,
    StableHlo.unary main_arg3 main_v47 ((extractStridedSlice S1x128x128 ![1, 0, 0] · slices_S4x128x128_S1x128x128_1_0_0) : (⟨S4x128x128, .f32⟩ : BufTy).Contents (Elt F) → (⟨S1x128x128, .f32⟩ : BufTy).Contents (Elt F)),
    StableHlo.reshape main_v47 main_v48 rfl shapeCasts_S1x128x128_S128x128,
    StableHlo.unary main_arg4 main_v49 ((extractStridedSlice S1x128 ![1, 0] · slices_S4x128_S1x128_1_0) : (⟨S4x128, .f32⟩ : BufTy).Contents (Elt F) → (⟨S1x128, .f32⟩ : BufTy).Contents (Elt F)) ]

/-- The references the operations of win0 write, in order. -/
abbrev win0_W : List (Ref sig .tc) :=
  [ main_v0, main_v1, main_v2, main_v3, main_v4, main_v5, main_v6, main_v7,
    main_cst, main_v8, main_cst_0, main_v9, main_v10, main_v11, main_cst_1, main_v12,
    main_v13, main_cst_2, main_v14, main_v15, main_v16, main_cst_3, main_v17, main_v18,
    main_cst_4, main_v19, main_v20, main_v21, main_v22, main_v23, main_c, main_v24,
    main_v25, main_c_5, main_v26, main_v27, main_v28, main_v29, main_v30, main_cst_6,
    main_v31, main_v32, main_v33, main_cst_7, main_v34, main_v35, main_v36, main_v37,
    main_v38, main_v39, main_v40, main_v41, main_v42, main_v43, main_v44, main_v45,
    main_v46, main_v47, main_v48, main_v49 ]

set_option maxHeartbeats 40000000 in
/-- @main's statements 61 … 120: 60 operations, in order (a call's are its body's at the call's operands and record). -/
abbrev win1 : List (HloOp τ sig (Elt F)) :=
  [ StableHlo.reshape main_v49 main_v50 rfl shapeCasts_S1x128_S128,
    StableHlo.nullary main_cst_8 (constant S_ .f32 0x3F800000#32),
    StableHlo.unary main_cst_8 main_v51 (broadcastInDim S800000 ![] bcast_S_S800000 : (⟨S_, .f32⟩ : BufTy).Contents (Elt F) → (⟨S800000, .f32⟩ : BufTy).Contents (Elt F)),
    StableHlo.nullary main_cst_9 (constant S_ .f32 0x00000000#32),
    StableHlo.unary main_cst_9 main_v52 (broadcastInDim S50000 ![] bcast_S_S50000 : (⟨S_, .f32⟩ : BufTy).Contents (Elt F) → (⟨S50000, .f32⟩ : BufTy).Contents (Elt F)),
    StableHlo.unary main_v44 main_v53 (broadcastInDim S800000x1 ![0] bcast_S800000_S800000x1_0 : (⟨S800000, .i32⟩ : BufTy).Contents (Elt F) → (⟨S800000x1, .i32⟩ : BufTy).Contents (Elt F)),
    StableHlo.ternary main_v52 main_v53 main_v51 main_v54 ((fun x i u => Host.scatterAdd scatter_S50000_S800000x1_S800000_n_0_0_1 x i u) : (⟨S50000, .f32⟩ : BufTy).Contents (Elt F) → (⟨S800000x1, .i32⟩ : BufTy).Contents (Elt F) → (⟨S800000, .f32⟩ : BufTy).Contents (Elt F) → (⟨S50000, .f32⟩ : BufTy).Contents (Elt F)),
    StableHlo.nullary main_cst_10 (constant S_ .f32 0x3F800000#32),
    StableHlo.unary main_cst_10 main_v55 (broadcastInDim S50000 ![] bcast_S_S50000 : (⟨S_, .f32⟩ : BufTy).Contents (Elt F) → (⟨S50000, .f32⟩ : BufTy).Contents (Elt F)),
    StableHlo.binary main_v54 main_v55 main_v56 (maximumf : (⟨S50000, .f32⟩ : BufTy).Contents (Elt F) → (⟨S50000, .f32⟩ : BufTy).Contents (Elt F) → (⟨S50000, .f32⟩ : BufTy).Contents (Elt F)),
    StableHlo.nullary main_cst_11 (constant S_ .f32 0x00000000#32),
    StableHlo.unary main_cst_11 main_v57 (broadcastInDim S50000 ![] bcast_S_S50000 : (⟨S_, .f32⟩ : BufTy).Contents (Elt F) → (⟨S50000, .f32⟩ : BufTy).Contents (Elt F)),
    StableHlo.unary main_v46 main_v58 (broadcastInDim S800000x1 ![0] bcast_S800000_S800000x1_0 : (⟨S800000, .i32⟩ : BufTy).Contents (Elt F) → (⟨S800000x1, .i32⟩ : BufTy).Contents (Elt F)),
    StableHlo.ternary main_v57 main_v58 main_v51 main_v59 ((fun x i u => Host.scatterAdd scatter_S50000_S800000x1_S800000_n_0_0_1 x i u) : (⟨S50000, .f32⟩ : BufTy).Contents (Elt F) → (⟨S800000x1, .i32⟩ : BufTy).Contents (Elt F) → (⟨S800000, .f32⟩ : BufTy).Contents (Elt F) → (⟨S50000, .f32⟩ : BufTy).Contents (Elt F)),
    StableHlo.nullary main_cst_12 (constant S_ .f32 0x3F800000#32),
    StableHlo.unary main_cst_12 main_v60 (broadcastInDim S50000 ![] bcast_S_S50000 : (⟨S_, .f32⟩ : BufTy).Contents (Elt F) → (⟨S50000, .f32⟩ : BufTy).Contents (Elt F)),
    StableHlo.binary main_v59 main_v60 main_v61 (maximumf : (⟨S50000, .f32⟩ : BufTy).Contents (Elt F) → (⟨S50000, .f32⟩ : BufTy).Contents (Elt F) → (⟨S50000, .f32⟩ : BufTy).Contents (Elt F)),
    StableHlo.nullary main_cst_13 (constant S_ .f32 0xBF000000#32),
    StableHlo.unary main_cst_13 main_v62 (broadcastInDim S50000 ![] bcast_S_S50000 : (⟨S_, .f32⟩ : BufTy).Contents (Elt F) → (⟨S50000, .f32⟩ : BufTy).Contents (Elt F)),
    StableHlo.binary main_v56 main_v62 main_v63 (Host.powf : (⟨S50000, .f32⟩ : BufTy).Contents (Elt F) → (⟨S50000, .f32⟩ : BufTy).Contents (Elt F) → (⟨S50000, .f32⟩ : BufTy).Contents (Elt F)),
    StableHlo.unary main_v63 main_v64 (broadcastInDim S50000x1 ![0] bcast_S50000_S50000x1_0 : (⟨S50000, .f32⟩ : BufTy).Contents (Elt F) → (⟨S50000x1, .f32⟩ : BufTy).Contents (Elt F)),
    StableHlo.unary main_v64 main_v65 (broadcastInDim S50000x128 ![0, 1] bcast_S50000x1_S50000x128_0_1 : (⟨S50000x1, .f32⟩ : BufTy).Contents (Elt F) → (⟨S50000x128, .f32⟩ : BufTy).Contents (Elt F)),
    StableHlo.binary main_arg0 main_v65 main_v66 (mulf : (⟨S50000x128, .f32⟩ : BufTy).Contents (Elt F) → (⟨S50000x128, .f32⟩ : BufTy).Contents (Elt F) → (⟨S50000x128, .f32⟩ : BufTy).Contents (Elt F)),
    StableHlo.nullary main_c_14 (constantI S_ 32 0#32),
    StableHlo.unary main_c_14 main_v67 (broadcastInDim S800000 ![] bcast_S_S800000 : (⟨S_, .i32⟩ : BufTy).Contents (Elt F) → (⟨S800000, .i32⟩ : BufTy).Contents (Elt F)),
    StableHlo.binary main_v44 main_v67 main_v68 (cmpi .slt : (⟨S800000, .i32⟩ : BufTy).Contents (Elt F) → (⟨S800000, .i32⟩ : BufTy).Contents (Elt F) → (⟨S800000, .i1⟩ : BufTy).Contents (Elt F)),
    StableHlo.nullary main_c_15 (constantI S_ 32 50000#32),
    StableHlo.unary main_c_15 main_v69 (broadcastInDim S800000 ![] bcast_S_S800000 : (⟨S_, .i32⟩ : BufTy).Contents (Elt F) → (⟨S800000, .i32⟩ : BufTy).Contents (Elt F)),
    StableHlo.binary main_v44 main_v69 main_v70 (addi : (⟨S800000, .i32⟩ : BufTy).Contents (Elt F) → (⟨S800000, .i32⟩ : BufTy).Contents (Elt F) → (⟨S800000, .i32⟩ : BufTy).Contents (Elt F)),
    StableHlo.ternary main_v68 main_v70 main_v44 main_v71 (select : (⟨S800000, .i1⟩ : BufTy).Contents (Elt F) → (⟨S800000, .i32⟩ : BufTy).Contents (Elt F) → (⟨S800000, .i32⟩ : BufTy).Contents (Elt F) → (⟨S800000, .i32⟩ : BufTy).Contents (Elt F)),
    StableHlo.unary main_v71 main_v72 (broadcastInDim S800000x1 ![0] bcast_S800000_S800000x1_0 : (⟨S800000, .i32⟩ : BufTy).Contents (Elt F) → (⟨S800000x1, .i32⟩ : BufTy).Contents (Elt F)),
    StableHlo.binary main_v66 main_v72 main_v73 ((fun x i => Host.gather gather_S50000x128_S800000x1_S800000x128_1_0_n_n_0_1_1128 x i) : (⟨S50000x128, .f32⟩ : BufTy).Contents (Elt F) → (⟨S800000x1, .i32⟩ : BufTy).Contents (Elt F) → (⟨S800000x128, .f32⟩ : BufTy).Contents (Elt F)),
    StableHlo.nullary main_cst_16 (constant S_ .f32 0x00000000#32),
    StableHlo.unary main_cst_16 main_v74 (broadcastInDim S50000x128 ![] bcast_S_S50000x128 : (⟨S_, .f32⟩ : BufTy).Contents (Elt F) → (⟨S50000x128, .f32⟩ : BufTy).Contents (Elt F)),
    StableHlo.unary main_v46 main_v75 (broadcastInDim S800000x1 ![0] bcast_S800000_S800000x1_0 : (⟨S800000, .i32⟩ : BufTy).Contents (Elt F) → (⟨S800000x1, .i32⟩ : BufTy).Contents (Elt F)),
    StableHlo.ternary main_v74 main_v75 main_v73 main_v76 ((fun x i u => Host.scatterAdd scatter_S50000x128_S800000x1_S800000x128_1_0_0_1 x i u) : (⟨S50000x128, .f32⟩ : BufTy).Contents (Elt F) → (⟨S800000x1, .i32⟩ : BufTy).Contents (Elt F) → (⟨S800000x128, .f32⟩ : BufTy).Contents (Elt F) → (⟨S50000x128, .f32⟩ : BufTy).Contents (Elt F)),
    StableHlo.nullary main_cst_17 (constant S_ .f32 0xBF000000#32),
    StableHlo.unary main_cst_17 main_v77 (broadcastInDim S50000 ![] bcast_S_S50000 : (⟨S_, .f32⟩ : BufTy).Contents (Elt F) → (⟨S50000, .f32⟩ : BufTy).Contents (Elt F)),
    StableHlo.binary main_v61 main_v77 main_v78 (Host.powf : (⟨S50000, .f32⟩ : BufTy).Contents (Elt F) → (⟨S50000, .f32⟩ : BufTy).Contents (Elt F) → (⟨S50000, .f32⟩ : BufTy).Contents (Elt F)),
    StableHlo.unary main_v78 main_v79 (broadcastInDim S50000x1 ![0] bcast_S50000_S50000x1_0 : (⟨S50000, .f32⟩ : BufTy).Contents (Elt F) → (⟨S50000x1, .f32⟩ : BufTy).Contents (Elt F)),
    StableHlo.unary main_v79 main_v80 (broadcastInDim S50000x128 ![0, 1] bcast_S50000x1_S50000x128_0_1 : (⟨S50000x1, .f32⟩ : BufTy).Contents (Elt F) → (⟨S50000x128, .f32⟩ : BufTy).Contents (Elt F)),
    StableHlo.binary main_v76 main_v80 main_v81 (mulf : (⟨S50000x128, .f32⟩ : BufTy).Contents (Elt F) → (⟨S50000x128, .f32⟩ : BufTy).Contents (Elt F) → (⟨S50000x128, .f32⟩ : BufTy).Contents (Elt F)),
    StableHlo.binary main_v81 main_v48 main_v82 ((fun l r => Host.dotGeneral dot_S50000x128_S128x128_S50000x128_1_0_0_1_n_n none l r) : (⟨S50000x128, .f32⟩ : BufTy).Contents (Elt F) → (⟨S128x128, .f32⟩ : BufTy).Contents (Elt F) → (⟨S50000x128, .f32⟩ : BufTy).Contents (Elt F)),
    StableHlo.unary main_v50 main_v83 (broadcastInDim S1x128 ![1] bcast_S128_S1x128_1 : (⟨S128, .f32⟩ : BufTy).Contents (Elt F) → (⟨S1x128, .f32⟩ : BufTy).Contents (Elt F)),
    StableHlo.unary main_v83 main_v84 (broadcastInDim S50000x128 ![0, 1] bcast_S1x128_S50000x128_0_1 : (⟨S1x128, .f32⟩ : BufTy).Contents (Elt F) → (⟨S50000x128, .f32⟩ : BufTy).Contents (Elt F)),
    StableHlo.binary main_v82 main_v84 main_v85 (addf : (⟨S50000x128, .f32⟩ : BufTy).Contents (Elt F) → (⟨S50000x128, .f32⟩ : BufTy).Contents (Elt F) → (⟨S50000x128, .f32⟩ : BufTy).Contents (Elt F)),
    StableHlo.binary main_v42 main_v85 main_v86 (addf : (⟨S50000x128, .f32⟩ : BufTy).Contents (Elt F) → (⟨S50000x128, .f32⟩ : BufTy).Contents (Elt F) → (⟨S50000x128, .f32⟩ : BufTy).Contents (Elt F)),
    StableHlo.unary main_arg1 main_v87 ((extractStridedSlice S1x800000 ![2, 0] · slices_S4x800000_S1x800000_2_0) : (⟨S4x800000, .i32⟩ : BufTy).Contents (Elt F) → (⟨S1x800000, .i32⟩ : BufTy).Contents (Elt F)),
    StableHlo.reshape main_v87 main_v88 rfl shapeCasts_S1x800000_S800000,
    StableHlo.unary main_arg2 main_v89 ((extractStridedSlice S1x800000 ![2, 0] · slices_S4x800000_S1x800000_2_0) : (⟨S4x800000, .i32⟩ : BufTy).Contents (Elt F) → (⟨S1x800000, .i32⟩ : BufTy).Contents (Elt F)),
    StableHlo.reshape main_v89 main_v90 rfl shapeCasts_S1x800000_S800000,
    StableHlo.unary main_arg3 main_v91 ((extractStridedSlice S1x128x128 ![2, 0, 0] · slices_S4x128x128_S1x128x128_2_0_0) : (⟨S4x128x128, .f32⟩ : BufTy).Contents (Elt F) → (⟨S1x128x128, .f32⟩ : BufTy).Contents (Elt F)),
    StableHlo.reshape main_v91 main_v92 rfl shapeCasts_S1x128x128_S128x128,
    StableHlo.unary main_arg4 main_v93 ((extractStridedSlice S1x128 ![2, 0] · slices_S4x128_S1x128_2_0) : (⟨S4x128, .f32⟩ : BufTy).Contents (Elt F) → (⟨S1x128, .f32⟩ : BufTy).Contents (Elt F)),
    StableHlo.reshape main_v93 main_v94 rfl shapeCasts_S1x128_S128,
    StableHlo.nullary main_cst_18 (constant S_ .f32 0x3F800000#32),
    StableHlo.unary main_cst_18 main_v95 (broadcastInDim S800000 ![] bcast_S_S800000 : (⟨S_, .f32⟩ : BufTy).Contents (Elt F) → (⟨S800000, .f32⟩ : BufTy).Contents (Elt F)),
    StableHlo.nullary main_cst_19 (constant S_ .f32 0x00000000#32),
    StableHlo.unary main_cst_19 main_v96 (broadcastInDim S50000 ![] bcast_S_S50000 : (⟨S_, .f32⟩ : BufTy).Contents (Elt F) → (⟨S50000, .f32⟩ : BufTy).Contents (Elt F)),
    StableHlo.unary main_v88 main_v97 (broadcastInDim S800000x1 ![0] bcast_S800000_S800000x1_0 : (⟨S800000, .i32⟩ : BufTy).Contents (Elt F) → (⟨S800000x1, .i32⟩ : BufTy).Contents (Elt F)) ]

/-- The references the operations of win1 write, in order. -/
abbrev win1_W : List (Ref sig .tc) :=
  [ main_v50, main_cst_8, main_v51, main_cst_9, main_v52, main_v53, main_v54, main_cst_10,
    main_v55, main_v56, main_cst_11, main_v57, main_v58, main_v59, main_cst_12, main_v60,
    main_v61, main_cst_13, main_v62, main_v63, main_v64, main_v65, main_v66, main_c_14,
    main_v67, main_v68, main_c_15, main_v69, main_v70, main_v71, main_v72, main_v73,
    main_cst_16, main_v74, main_v75, main_v76, main_cst_17, main_v77, main_v78, main_v79,
    main_v80, main_v81, main_v82, main_v83, main_v84, main_v85, main_v86, main_v87,
    main_v88, main_v89, main_v90, main_v91, main_v92, main_v93, main_v94, main_cst_18,
    main_v95, main_cst_19, main_v96, main_v97 ]

set_option maxHeartbeats 40000000 in
/-- @main's statements 121 … 180: 60 operations, in order (a call's are its body's at the call's operands and record). -/
abbrev win2 : List (HloOp τ sig (Elt F)) :=
  [ StableHlo.ternary main_v96 main_v97 main_v95 main_v98 ((fun x i u => Host.scatterAdd scatter_S50000_S800000x1_S800000_n_0_0_1 x i u) : (⟨S50000, .f32⟩ : BufTy).Contents (Elt F) → (⟨S800000x1, .i32⟩ : BufTy).Contents (Elt F) → (⟨S800000, .f32⟩ : BufTy).Contents (Elt F) → (⟨S50000, .f32⟩ : BufTy).Contents (Elt F)),
    StableHlo.nullary main_cst_20 (constant S_ .f32 0x3F800000#32),
    StableHlo.unary main_cst_20 main_v99 (broadcastInDim S50000 ![] bcast_S_S50000 : (⟨S_, .f32⟩ : BufTy).Contents (Elt F) → (⟨S50000, .f32⟩ : BufTy).Contents (Elt F)),
    StableHlo.binary main_v98 main_v99 main_v100 (maximumf : (⟨S50000, .f32⟩ : BufTy).Contents (Elt F) → (⟨S50000, .f32⟩ : BufTy).Contents (Elt F) → (⟨S50000, .f32⟩ : BufTy).Contents (Elt F)),
    StableHlo.nullary main_cst_21 (constant S_ .f32 0x00000000#32),
    StableHlo.unary main_cst_21 main_v101 (broadcastInDim S50000 ![] bcast_S_S50000 : (⟨S_, .f32⟩ : BufTy).Contents (Elt F) → (⟨S50000, .f32⟩ : BufTy).Contents (Elt F)),
    StableHlo.unary main_v90 main_v102 (broadcastInDim S800000x1 ![0] bcast_S800000_S800000x1_0 : (⟨S800000, .i32⟩ : BufTy).Contents (Elt F) → (⟨S800000x1, .i32⟩ : BufTy).Contents (Elt F)),
    StableHlo.ternary main_v101 main_v102 main_v95 main_v103 ((fun x i u => Host.scatterAdd scatter_S50000_S800000x1_S800000_n_0_0_1 x i u) : (⟨S50000, .f32⟩ : BufTy).Contents (Elt F) → (⟨S800000x1, .i32⟩ : BufTy).Contents (Elt F) → (⟨S800000, .f32⟩ : BufTy).Contents (Elt F) → (⟨S50000, .f32⟩ : BufTy).Contents (Elt F)),
    StableHlo.nullary main_cst_22 (constant S_ .f32 0x3F800000#32),
    StableHlo.unary main_cst_22 main_v104 (broadcastInDim S50000 ![] bcast_S_S50000 : (⟨S_, .f32⟩ : BufTy).Contents (Elt F) → (⟨S50000, .f32⟩ : BufTy).Contents (Elt F)),
    StableHlo.binary main_v103 main_v104 main_v105 (maximumf : (⟨S50000, .f32⟩ : BufTy).Contents (Elt F) → (⟨S50000, .f32⟩ : BufTy).Contents (Elt F) → (⟨S50000, .f32⟩ : BufTy).Contents (Elt F)),
    StableHlo.nullary main_cst_23 (constant S_ .f32 0xBF000000#32),
    StableHlo.unary main_cst_23 main_v106 (broadcastInDim S50000 ![] bcast_S_S50000 : (⟨S_, .f32⟩ : BufTy).Contents (Elt F) → (⟨S50000, .f32⟩ : BufTy).Contents (Elt F)),
    StableHlo.binary main_v100 main_v106 main_v107 (Host.powf : (⟨S50000, .f32⟩ : BufTy).Contents (Elt F) → (⟨S50000, .f32⟩ : BufTy).Contents (Elt F) → (⟨S50000, .f32⟩ : BufTy).Contents (Elt F)),
    StableHlo.unary main_v107 main_v108 (broadcastInDim S50000x1 ![0] bcast_S50000_S50000x1_0 : (⟨S50000, .f32⟩ : BufTy).Contents (Elt F) → (⟨S50000x1, .f32⟩ : BufTy).Contents (Elt F)),
    StableHlo.unary main_v108 main_v109 (broadcastInDim S50000x128 ![0, 1] bcast_S50000x1_S50000x128_0_1 : (⟨S50000x1, .f32⟩ : BufTy).Contents (Elt F) → (⟨S50000x128, .f32⟩ : BufTy).Contents (Elt F)),
    StableHlo.binary main_arg0 main_v109 main_v110 (mulf : (⟨S50000x128, .f32⟩ : BufTy).Contents (Elt F) → (⟨S50000x128, .f32⟩ : BufTy).Contents (Elt F) → (⟨S50000x128, .f32⟩ : BufTy).Contents (Elt F)),
    StableHlo.nullary main_c_24 (constantI S_ 32 0#32),
    StableHlo.unary main_c_24 main_v111 (broadcastInDim S800000 ![] bcast_S_S800000 : (⟨S_, .i32⟩ : BufTy).Contents (Elt F) → (⟨S800000, .i32⟩ : BufTy).Contents (Elt F)),
    StableHlo.binary main_v88 main_v111 main_v112 (cmpi .slt : (⟨S800000, .i32⟩ : BufTy).Contents (Elt F) → (⟨S800000, .i32⟩ : BufTy).Contents (Elt F) → (⟨S800000, .i1⟩ : BufTy).Contents (Elt F)),
    StableHlo.nullary main_c_25 (constantI S_ 32 50000#32),
    StableHlo.unary main_c_25 main_v113 (broadcastInDim S800000 ![] bcast_S_S800000 : (⟨S_, .i32⟩ : BufTy).Contents (Elt F) → (⟨S800000, .i32⟩ : BufTy).Contents (Elt F)),
    StableHlo.binary main_v88 main_v113 main_v114 (addi : (⟨S800000, .i32⟩ : BufTy).Contents (Elt F) → (⟨S800000, .i32⟩ : BufTy).Contents (Elt F) → (⟨S800000, .i32⟩ : BufTy).Contents (Elt F)),
    StableHlo.ternary main_v112 main_v114 main_v88 main_v115 (select : (⟨S800000, .i1⟩ : BufTy).Contents (Elt F) → (⟨S800000, .i32⟩ : BufTy).Contents (Elt F) → (⟨S800000, .i32⟩ : BufTy).Contents (Elt F) → (⟨S800000, .i32⟩ : BufTy).Contents (Elt F)),
    StableHlo.unary main_v115 main_v116 (broadcastInDim S800000x1 ![0] bcast_S800000_S800000x1_0 : (⟨S800000, .i32⟩ : BufTy).Contents (Elt F) → (⟨S800000x1, .i32⟩ : BufTy).Contents (Elt F)),
    StableHlo.binary main_v110 main_v116 main_v117 ((fun x i => Host.gather gather_S50000x128_S800000x1_S800000x128_1_0_n_n_0_1_1128 x i) : (⟨S50000x128, .f32⟩ : BufTy).Contents (Elt F) → (⟨S800000x1, .i32⟩ : BufTy).Contents (Elt F) → (⟨S800000x128, .f32⟩ : BufTy).Contents (Elt F)),
    StableHlo.nullary main_cst_26 (constant S_ .f32 0x00000000#32),
    StableHlo.unary main_cst_26 main_v118 (broadcastInDim S50000x128 ![] bcast_S_S50000x128 : (⟨S_, .f32⟩ : BufTy).Contents (Elt F) → (⟨S50000x128, .f32⟩ : BufTy).Contents (Elt F)),
    StableHlo.unary main_v90 main_v119 (broadcastInDim S800000x1 ![0] bcast_S800000_S800000x1_0 : (⟨S800000, .i32⟩ : BufTy).Contents (Elt F) → (⟨S800000x1, .i32⟩ : BufTy).Contents (Elt F)),
    StableHlo.ternary main_v118 main_v119 main_v117 main_v120 ((fun x i u => Host.scatterAdd scatter_S50000x128_S800000x1_S800000x128_1_0_0_1 x i u) : (⟨S50000x128, .f32⟩ : BufTy).Contents (Elt F) → (⟨S800000x1, .i32⟩ : BufTy).Contents (Elt F) → (⟨S800000x128, .f32⟩ : BufTy).Contents (Elt F) → (⟨S50000x128, .f32⟩ : BufTy).Contents (Elt F)),
    StableHlo.nullary main_cst_27 (constant S_ .f32 0xBF000000#32),
    StableHlo.unary main_cst_27 main_v121 (broadcastInDim S50000 ![] bcast_S_S50000 : (⟨S_, .f32⟩ : BufTy).Contents (Elt F) → (⟨S50000, .f32⟩ : BufTy).Contents (Elt F)),
    StableHlo.binary main_v105 main_v121 main_v122 (Host.powf : (⟨S50000, .f32⟩ : BufTy).Contents (Elt F) → (⟨S50000, .f32⟩ : BufTy).Contents (Elt F) → (⟨S50000, .f32⟩ : BufTy).Contents (Elt F)),
    StableHlo.unary main_v122 main_v123 (broadcastInDim S50000x1 ![0] bcast_S50000_S50000x1_0 : (⟨S50000, .f32⟩ : BufTy).Contents (Elt F) → (⟨S50000x1, .f32⟩ : BufTy).Contents (Elt F)),
    StableHlo.unary main_v123 main_v124 (broadcastInDim S50000x128 ![0, 1] bcast_S50000x1_S50000x128_0_1 : (⟨S50000x1, .f32⟩ : BufTy).Contents (Elt F) → (⟨S50000x128, .f32⟩ : BufTy).Contents (Elt F)),
    StableHlo.binary main_v120 main_v124 main_v125 (mulf : (⟨S50000x128, .f32⟩ : BufTy).Contents (Elt F) → (⟨S50000x128, .f32⟩ : BufTy).Contents (Elt F) → (⟨S50000x128, .f32⟩ : BufTy).Contents (Elt F)),
    StableHlo.binary main_v125 main_v92 main_v126 ((fun l r => Host.dotGeneral dot_S50000x128_S128x128_S50000x128_1_0_0_1_n_n none l r) : (⟨S50000x128, .f32⟩ : BufTy).Contents (Elt F) → (⟨S128x128, .f32⟩ : BufTy).Contents (Elt F) → (⟨S50000x128, .f32⟩ : BufTy).Contents (Elt F)),
    StableHlo.unary main_v94 main_v127 (broadcastInDim S1x128 ![1] bcast_S128_S1x128_1 : (⟨S128, .f32⟩ : BufTy).Contents (Elt F) → (⟨S1x128, .f32⟩ : BufTy).Contents (Elt F)),
    StableHlo.unary main_v127 main_v128 (broadcastInDim S50000x128 ![0, 1] bcast_S1x128_S50000x128_0_1 : (⟨S1x128, .f32⟩ : BufTy).Contents (Elt F) → (⟨S50000x128, .f32⟩ : BufTy).Contents (Elt F)),
    StableHlo.binary main_v126 main_v128 main_v129 (addf : (⟨S50000x128, .f32⟩ : BufTy).Contents (Elt F) → (⟨S50000x128, .f32⟩ : BufTy).Contents (Elt F) → (⟨S50000x128, .f32⟩ : BufTy).Contents (Elt F)),
    StableHlo.binary main_v86 main_v129 main_v130 (addf : (⟨S50000x128, .f32⟩ : BufTy).Contents (Elt F) → (⟨S50000x128, .f32⟩ : BufTy).Contents (Elt F) → (⟨S50000x128, .f32⟩ : BufTy).Contents (Elt F)),
    StableHlo.unary main_arg1 main_v131 ((extractStridedSlice S1x800000 ![3, 0] · slices_S4x800000_S1x800000_3_0) : (⟨S4x800000, .i32⟩ : BufTy).Contents (Elt F) → (⟨S1x800000, .i32⟩ : BufTy).Contents (Elt F)),
    StableHlo.reshape main_v131 main_v132 rfl shapeCasts_S1x800000_S800000,
    StableHlo.unary main_arg2 main_v133 ((extractStridedSlice S1x800000 ![3, 0] · slices_S4x800000_S1x800000_3_0) : (⟨S4x800000, .i32⟩ : BufTy).Contents (Elt F) → (⟨S1x800000, .i32⟩ : BufTy).Contents (Elt F)),
    StableHlo.reshape main_v133 main_v134 rfl shapeCasts_S1x800000_S800000,
    StableHlo.unary main_arg3 main_v135 ((extractStridedSlice S1x128x128 ![3, 0, 0] · slices_S4x128x128_S1x128x128_3_0_0) : (⟨S4x128x128, .f32⟩ : BufTy).Contents (Elt F) → (⟨S1x128x128, .f32⟩ : BufTy).Contents (Elt F)),
    StableHlo.reshape main_v135 main_v136 rfl shapeCasts_S1x128x128_S128x128,
    StableHlo.unary main_arg4 main_v137 ((extractStridedSlice S1x128 ![3, 0] · slices_S4x128_S1x128_3_0) : (⟨S4x128, .f32⟩ : BufTy).Contents (Elt F) → (⟨S1x128, .f32⟩ : BufTy).Contents (Elt F)),
    StableHlo.reshape main_v137 main_v138 rfl shapeCasts_S1x128_S128,
    StableHlo.nullary main_cst_28 (constant S_ .f32 0x3F800000#32),
    StableHlo.unary main_cst_28 main_v139 (broadcastInDim S800000 ![] bcast_S_S800000 : (⟨S_, .f32⟩ : BufTy).Contents (Elt F) → (⟨S800000, .f32⟩ : BufTy).Contents (Elt F)),
    StableHlo.nullary main_cst_29 (constant S_ .f32 0x00000000#32),
    StableHlo.unary main_cst_29 main_v140 (broadcastInDim S50000 ![] bcast_S_S50000 : (⟨S_, .f32⟩ : BufTy).Contents (Elt F) → (⟨S50000, .f32⟩ : BufTy).Contents (Elt F)),
    StableHlo.unary main_v132 main_v141 (broadcastInDim S800000x1 ![0] bcast_S800000_S800000x1_0 : (⟨S800000, .i32⟩ : BufTy).Contents (Elt F) → (⟨S800000x1, .i32⟩ : BufTy).Contents (Elt F)),
    StableHlo.ternary main_v140 main_v141 main_v139 main_v142 ((fun x i u => Host.scatterAdd scatter_S50000_S800000x1_S800000_n_0_0_1 x i u) : (⟨S50000, .f32⟩ : BufTy).Contents (Elt F) → (⟨S800000x1, .i32⟩ : BufTy).Contents (Elt F) → (⟨S800000, .f32⟩ : BufTy).Contents (Elt F) → (⟨S50000, .f32⟩ : BufTy).Contents (Elt F)),
    StableHlo.nullary main_cst_30 (constant S_ .f32 0x3F800000#32),
    StableHlo.unary main_cst_30 main_v143 (broadcastInDim S50000 ![] bcast_S_S50000 : (⟨S_, .f32⟩ : BufTy).Contents (Elt F) → (⟨S50000, .f32⟩ : BufTy).Contents (Elt F)),
    StableHlo.binary main_v142 main_v143 main_v144 (maximumf : (⟨S50000, .f32⟩ : BufTy).Contents (Elt F) → (⟨S50000, .f32⟩ : BufTy).Contents (Elt F) → (⟨S50000, .f32⟩ : BufTy).Contents (Elt F)),
    StableHlo.nullary main_cst_31 (constant S_ .f32 0x00000000#32),
    StableHlo.unary main_cst_31 main_v145 (broadcastInDim S50000 ![] bcast_S_S50000 : (⟨S_, .f32⟩ : BufTy).Contents (Elt F) → (⟨S50000, .f32⟩ : BufTy).Contents (Elt F)) ]

/-- The references the operations of win2 write, in order. -/
abbrev win2_W : List (Ref sig .tc) :=
  [ main_v98, main_cst_20, main_v99, main_v100, main_cst_21, main_v101, main_v102, main_v103,
    main_cst_22, main_v104, main_v105, main_cst_23, main_v106, main_v107, main_v108, main_v109,
    main_v110, main_c_24, main_v111, main_v112, main_c_25, main_v113, main_v114, main_v115,
    main_v116, main_v117, main_cst_26, main_v118, main_v119, main_v120, main_cst_27, main_v121,
    main_v122, main_v123, main_v124, main_v125, main_v126, main_v127, main_v128, main_v129,
    main_v130, main_v131, main_v132, main_v133, main_v134, main_v135, main_v136, main_v137,
    main_v138, main_cst_28, main_v139, main_cst_29, main_v140, main_v141, main_v142, main_cst_30,
    main_v143, main_v144, main_cst_31, main_v145 ]

set_option maxHeartbeats 40000000 in
/-- @main's statements 181 … 240, part 1 of 2: 53 operations, in order (a call's are its body's at the call's operands and record). -/
abbrev win3a : List (HloOp τ sig (Elt F)) :=
  [ StableHlo.unary main_v134 main_v146 (broadcastInDim S800000x1 ![0] bcast_S800000_S800000x1_0 : (⟨S800000, .i32⟩ : BufTy).Contents (Elt F) → (⟨S800000x1, .i32⟩ : BufTy).Contents (Elt F)),
    StableHlo.ternary main_v145 main_v146 main_v139 main_v147 ((fun x i u => Host.scatterAdd scatter_S50000_S800000x1_S800000_n_0_0_1 x i u) : (⟨S50000, .f32⟩ : BufTy).Contents (Elt F) → (⟨S800000x1, .i32⟩ : BufTy).Contents (Elt F) → (⟨S800000, .f32⟩ : BufTy).Contents (Elt F) → (⟨S50000, .f32⟩ : BufTy).Contents (Elt F)),
    StableHlo.nullary main_cst_32 (constant S_ .f32 0x3F800000#32),
    StableHlo.unary main_cst_32 main_v148 (broadcastInDim S50000 ![] bcast_S_S50000 : (⟨S_, .f32⟩ : BufTy).Contents (Elt F) → (⟨S50000, .f32⟩ : BufTy).Contents (Elt F)),
    StableHlo.binary main_v147 main_v148 main_v149 (maximumf : (⟨S50000, .f32⟩ : BufTy).Contents (Elt F) → (⟨S50000, .f32⟩ : BufTy).Contents (Elt F) → (⟨S50000, .f32⟩ : BufTy).Contents (Elt F)),
    StableHlo.nullary main_cst_33 (constant S_ .f32 0xBF000000#32),
    StableHlo.unary main_cst_33 main_v150 (broadcastInDim S50000 ![] bcast_S_S50000 : (⟨S_, .f32⟩ : BufTy).Contents (Elt F) → (⟨S50000, .f32⟩ : BufTy).Contents (Elt F)),
    StableHlo.binary main_v144 main_v150 main_v151 (Host.powf : (⟨S50000, .f32⟩ : BufTy).Contents (Elt F) → (⟨S50000, .f32⟩ : BufTy).Contents (Elt F) → (⟨S50000, .f32⟩ : BufTy).Contents (Elt F)),
    StableHlo.unary main_v151 main_v152 (broadcastInDim S50000x1 ![0] bcast_S50000_S50000x1_0 : (⟨S50000, .f32⟩ : BufTy).Contents (Elt F) → (⟨S50000x1, .f32⟩ : BufTy).Contents (Elt F)),
    StableHlo.unary main_v152 main_v153 (broadcastInDim S50000x128 ![0, 1] bcast_S50000x1_S50000x128_0_1 : (⟨S50000x1, .f32⟩ : BufTy).Contents (Elt F) → (⟨S50000x128, .f32⟩ : BufTy).Contents (Elt F)),
    StableHlo.binary main_arg0 main_v153 main_v154 (mulf : (⟨S50000x128, .f32⟩ : BufTy).Contents (Elt F) → (⟨S50000x128, .f32⟩ : BufTy).Contents (Elt F) → (⟨S50000x128, .f32⟩ : BufTy).Contents (Elt F)),
    StableHlo.nullary main_c_34 (constantI S_ 32 0#32),
    StableHlo.unary main_c_34 main_v155 (broadcastInDim S800000 ![] bcast_S_S800000 : (⟨S_, .i32⟩ : BufTy).Contents (Elt F) → (⟨S800000, .i32⟩ : BufTy).Contents (Elt F)),
    StableHlo.binary main_v132 main_v155 main_v156 (cmpi .slt : (⟨S800000, .i32⟩ : BufTy).Contents (Elt F) → (⟨S800000, .i32⟩ : BufTy).Contents (Elt F) → (⟨S800000, .i1⟩ : BufTy).Contents (Elt F)),
    StableHlo.nullary main_c_35 (constantI S_ 32 50000#32),
    StableHlo.unary main_c_35 main_v157 (broadcastInDim S800000 ![] bcast_S_S800000 : (⟨S_, .i32⟩ : BufTy).Contents (Elt F) → (⟨S800000, .i32⟩ : BufTy).Contents (Elt F)),
    StableHlo.binary main_v132 main_v157 main_v158 (addi : (⟨S800000, .i32⟩ : BufTy).Contents (Elt F) → (⟨S800000, .i32⟩ : BufTy).Contents (Elt F) → (⟨S800000, .i32⟩ : BufTy).Contents (Elt F)),
    StableHlo.ternary main_v156 main_v158 main_v132 main_v159 (select : (⟨S800000, .i1⟩ : BufTy).Contents (Elt F) → (⟨S800000, .i32⟩ : BufTy).Contents (Elt F) → (⟨S800000, .i32⟩ : BufTy).Contents (Elt F) → (⟨S800000, .i32⟩ : BufTy).Contents (Elt F)),
    StableHlo.unary main_v159 main_v160 (broadcastInDim S800000x1 ![0] bcast_S800000_S800000x1_0 : (⟨S800000, .i32⟩ : BufTy).Contents (Elt F) → (⟨S800000x1, .i32⟩ : BufTy).Contents (Elt F)),
    StableHlo.binary main_v154 main_v160 main_v161 ((fun x i => Host.gather gather_S50000x128_S800000x1_S800000x128_1_0_n_n_0_1_1128 x i) : (⟨S50000x128, .f32⟩ : BufTy).Contents (Elt F) → (⟨S800000x1, .i32⟩ : BufTy).Contents (Elt F) → (⟨S800000x128, .f32⟩ : BufTy).Contents (Elt F)),
    StableHlo.nullary main_cst_36 (constant S_ .f32 0x00000000#32),
    StableHlo.unary main_cst_36 main_v162 (broadcastInDim S50000x128 ![] bcast_S_S50000x128 : (⟨S_, .f32⟩ : BufTy).Contents (Elt F) → (⟨S50000x128, .f32⟩ : BufTy).Contents (Elt F)),
    StableHlo.unary main_v134 main_v163 (broadcastInDim S800000x1 ![0] bcast_S800000_S800000x1_0 : (⟨S800000, .i32⟩ : BufTy).Contents (Elt F) → (⟨S800000x1, .i32⟩ : BufTy).Contents (Elt F)),
    StableHlo.ternary main_v162 main_v163 main_v161 main_v164 ((fun x i u => Host.scatterAdd scatter_S50000x128_S800000x1_S800000x128_1_0_0_1 x i u) : (⟨S50000x128, .f32⟩ : BufTy).Contents (Elt F) → (⟨S800000x1, .i32⟩ : BufTy).Contents (Elt F) → (⟨S800000x128, .f32⟩ : BufTy).Contents (Elt F) → (⟨S50000x128, .f32⟩ : BufTy).Contents (Elt F)),
    StableHlo.nullary main_cst_37 (constant S_ .f32 0xBF000000#32),
    StableHlo.unary main_cst_37 main_v165 (broadcastInDim S50000 ![] bcast_S_S50000 : (⟨S_, .f32⟩ : BufTy).Contents (Elt F) → (⟨S50000, .f32⟩ : BufTy).Contents (Elt F)),
    StableHlo.binary main_v149 main_v165 main_v166 (Host.powf : (⟨S50000, .f32⟩ : BufTy).Contents (Elt F) → (⟨S50000, .f32⟩ : BufTy).Contents (Elt F) → (⟨S50000, .f32⟩ : BufTy).Contents (Elt F)),
    StableHlo.unary main_v166 main_v167 (broadcastInDim S50000x1 ![0] bcast_S50000_S50000x1_0 : (⟨S50000, .f32⟩ : BufTy).Contents (Elt F) → (⟨S50000x1, .f32⟩ : BufTy).Contents (Elt F)),
    StableHlo.unary main_v167 main_v168 (broadcastInDim S50000x128 ![0, 1] bcast_S50000x1_S50000x128_0_1 : (⟨S50000x1, .f32⟩ : BufTy).Contents (Elt F) → (⟨S50000x128, .f32⟩ : BufTy).Contents (Elt F)),
    StableHlo.binary main_v164 main_v168 main_v169 (mulf : (⟨S50000x128, .f32⟩ : BufTy).Contents (Elt F) → (⟨S50000x128, .f32⟩ : BufTy).Contents (Elt F) → (⟨S50000x128, .f32⟩ : BufTy).Contents (Elt F)),
    StableHlo.binary main_v169 main_v136 main_v170 ((fun l r => Host.dotGeneral dot_S50000x128_S128x128_S50000x128_1_0_0_1_n_n none l r) : (⟨S50000x128, .f32⟩ : BufTy).Contents (Elt F) → (⟨S128x128, .f32⟩ : BufTy).Contents (Elt F) → (⟨S50000x128, .f32⟩ : BufTy).Contents (Elt F)),
    StableHlo.unary main_v138 main_v171 (broadcastInDim S1x128 ![1] bcast_S128_S1x128_1 : (⟨S128, .f32⟩ : BufTy).Contents (Elt F) → (⟨S1x128, .f32⟩ : BufTy).Contents (Elt F)),
    StableHlo.unary main_v171 main_v172 (broadcastInDim S50000x128 ![0, 1] bcast_S1x128_S50000x128_0_1 : (⟨S1x128, .f32⟩ : BufTy).Contents (Elt F) → (⟨S50000x128, .f32⟩ : BufTy).Contents (Elt F)),
    StableHlo.binary main_v170 main_v172 main_v173 (addf : (⟨S50000x128, .f32⟩ : BufTy).Contents (Elt F) → (⟨S50000x128, .f32⟩ : BufTy).Contents (Elt F) → (⟨S50000x128, .f32⟩ : BufTy).Contents (Elt F)),
    StableHlo.binary main_v130 main_v173 main_v174 (addf : (⟨S50000x128, .f32⟩ : BufTy).Contents (Elt F) → (⟨S50000x128, .f32⟩ : BufTy).Contents (Elt F) → (⟨S50000x128, .f32⟩ : BufTy).Contents (Elt F)),
    StableHlo.binary main_v174 main_v174 main_v175 (mulf : (⟨S50000x128, .f32⟩ : BufTy).Contents (Elt F) → (⟨S50000x128, .f32⟩ : BufTy).Contents (Elt F) → (⟨S50000x128, .f32⟩ : BufTy).Contents (Elt F)),
    StableHlo.nullary main_cst_38 (constant S_ .f32 0x00000000#32),
    StableHlo.binary main_v175 main_cst_38 main_v176 ((fun x v => Host.reduceAdd x v reducesTo_S50000x128_S50000_d1 h_S_) : (⟨S50000x128, .f32⟩ : BufTy).Contents (Elt F) → (⟨S_, .f32⟩ : BufTy).Contents (Elt F) → (⟨S50000, .f32⟩ : BufTy).Contents (Elt F)),
    StableHlo.unary main_v176 main_v177 (broadcastInDim S50000x1 ![0] bcast_S50000_S50000x1_0 : (⟨S50000, .f32⟩ : BufTy).Contents (Elt F) → (⟨S50000x1, .f32⟩ : BufTy).Contents (Elt F)),
    StableHlo.unary main_v177 main_v178 (Host.sqrt : (⟨S50000x1, .f32⟩ : BufTy).Contents (Elt F) → (⟨S50000x1, .f32⟩ : BufTy).Contents (Elt F)),
    StableHlo.nullary main_cst_39 (constant S_ .f32 0x2B8CBCCC#32),
    StableHlo.unary main_cst_39 main_v179 (broadcastInDim S50000x1 ![] bcast_S_S50000x1 : (⟨S_, .f32⟩ : BufTy).Contents (Elt F) → (⟨S50000x1, .f32⟩ : BufTy).Contents (Elt F)),
    StableHlo.binary main_v178 main_v179 main_v180 (maximumf : (⟨S50000x1, .f32⟩ : BufTy).Contents (Elt F) → (⟨S50000x1, .f32⟩ : BufTy).Contents (Elt F) → (⟨S50000x1, .f32⟩ : BufTy).Contents (Elt F)),
    StableHlo.unary main_v180 main_v181 (broadcastInDim S50000x128 ![0, 1] bcast_S50000x1_S50000x128_0_1 : (⟨S50000x1, .f32⟩ : BufTy).Contents (Elt F) → (⟨S50000x128, .f32⟩ : BufTy).Contents (Elt F)),
    StableHlo.binary main_v174 main_v181 main_v182 (Host.divf : (⟨S50000x128, .f32⟩ : BufTy).Contents (Elt F) → (⟨S50000x128, .f32⟩ : BufTy).Contents (Elt F) → (⟨S50000x128, .f32⟩ : BufTy).Contents (Elt F)),
    StableHlo.nullary main_cst_40 (constant S_ .f32 0x3C23D70A#32),
    StableHlo.TRef.nullary main_call0.cst (constant S_ .f32 0x00000000#32),
    StableHlo.TRef.unary main_call0.cst main_call0.v0 (broadcastInDim S50000x128 ![] bcast_S_S50000x128),
    StableHlo.TRef.binary (.of main_v182) main_call0.v0 main_call0.v1 (cmpf .oge),
    StableHlo.TRef.unary (.of main_cst_40) main_call0.v2 id,
    StableHlo.TRef.unary main_call0.v2 main_call0.v3 (broadcastInDim S50000x128 ![] bcast_S_S50000x128),
    StableHlo.TRef.binary main_call0.v3 (.of main_v182) main_call0.v4 mulf,
    StableHlo.TRef.ternary main_call0.v1 (.of main_v182) main_call0.v4 main_call0.call0.v0 select ]

/-- The references the operations of win3a write, in order. -/
abbrev win3a_W : List (Ref sig .tc) :=
  [ main_v146, main_v147, main_cst_32, main_v148, main_v149, main_cst_33, main_v150, main_v151,
    main_v152, main_v153, main_v154, main_c_34, main_v155, main_v156, main_c_35, main_v157,
    main_v158, main_v159, main_v160, main_v161, main_cst_36, main_v162, main_v163, main_v164,
    main_cst_37, main_v165, main_v166, main_v167, main_v168, main_v169, main_v170, main_v171,
    main_v172, main_v173, main_v174, main_v175, main_cst_38, main_v176, main_v177, main_v178,
    main_cst_39, main_v179, main_v180, main_v181, main_v182, main_cst_40, main_call0.cst.ref, main_call0.v0.ref,
    main_call0.v1.ref, main_call0.v2.ref, main_call0.v3.ref, main_call0.v4.ref, main_call0.call0.v0.ref ]

set_option maxHeartbeats 40000000 in
/-- @main's statements 181 … 240, part 2 of 2: 13 operations, in order (a call's are its body's at the call's operands and record). -/
abbrev win3b : List (HloOp τ sig (Elt F)) :=
  [ StableHlo.unary main_arg1 main_v184 ((extractStridedSlice S1x800000 ![0, 0] · slices_S4x800000_S1x800000_0_0) : (⟨S4x800000, .i32⟩ : BufTy).Contents (Elt F) → (⟨S1x800000, .i32⟩ : BufTy).Contents (Elt F)),
    StableHlo.reshape main_v184 main_v185 rfl shapeCasts_S1x800000_S800000,
    StableHlo.unary main_arg2 main_v186 ((extractStridedSlice S1x800000 ![0, 0] · slices_S4x800000_S1x800000_0_0) : (⟨S4x800000, .i32⟩ : BufTy).Contents (Elt F) → (⟨S1x800000, .i32⟩ : BufTy).Contents (Elt F)),
    StableHlo.reshape main_v186 main_v187 rfl shapeCasts_S1x800000_S800000,
    StableHlo.unary main_arg5 main_v188 ((extractStridedSlice S1x128x128 ![0, 0, 0] · slices_S4x128x128_S1x128x128_0_0_0) : (⟨S4x128x128, .f32⟩ : BufTy).Contents (Elt F) → (⟨S1x128x128, .f32⟩ : BufTy).Contents (Elt F)),
    StableHlo.reshape main_v188 main_v189 rfl shapeCasts_S1x128x128_S128x128,
    StableHlo.unary main_arg6 main_v190 ((extractStridedSlice S1x128 ![0, 0] · slices_S4x128_S1x128_0_0) : (⟨S4x128, .f32⟩ : BufTy).Contents (Elt F) → (⟨S1x128, .f32⟩ : BufTy).Contents (Elt F)),
    StableHlo.reshape main_v190 main_v191 rfl shapeCasts_S1x128_S128,
    StableHlo.nullary main_cst_41 (constant S_ .f32 0x3F800000#32),
    StableHlo.unary main_cst_41 main_v192 (broadcastInDim S800000 ![] bcast_S_S800000 : (⟨S_, .f32⟩ : BufTy).Contents (Elt F) → (⟨S800000, .f32⟩ : BufTy).Contents (Elt F)),
    StableHlo.nullary main_cst_42 (constant S_ .f32 0x00000000#32),
    StableHlo.unary main_cst_42 main_v193 (broadcastInDim S50000 ![] bcast_S_S50000 : (⟨S_, .f32⟩ : BufTy).Contents (Elt F) → (⟨S50000, .f32⟩ : BufTy).Contents (Elt F)),
    StableHlo.unary main_v185 main_v194 (broadcastInDim S800000x1 ![0] bcast_S800000_S800000x1_0 : (⟨S800000, .i32⟩ : BufTy).Contents (Elt F) → (⟨S800000x1, .i32⟩ : BufTy).Contents (Elt F)) ]

/-- The references the operations of win3b write, in order. -/
abbrev win3b_W : List (Ref sig .tc) :=
  [ main_v184, main_v185, main_v186, main_v187, main_v188, main_v189, main_v190, main_v191,
    main_cst_41, main_v192, main_cst_42, main_v193, main_v194 ]

set_option maxHeartbeats 40000000 in
/-- @main's statements 241 … 300: 60 operations, in order (a call's are its body's at the call's operands and record). -/
abbrev win4 : List (HloOp τ sig (Elt F)) :=
  [ StableHlo.ternary main_v193 main_v194 main_v192 main_v195 ((fun x i u => Host.scatterAdd scatter_S50000_S800000x1_S800000_n_0_0_1 x i u) : (⟨S50000, .f32⟩ : BufTy).Contents (Elt F) → (⟨S800000x1, .i32⟩ : BufTy).Contents (Elt F) → (⟨S800000, .f32⟩ : BufTy).Contents (Elt F) → (⟨S50000, .f32⟩ : BufTy).Contents (Elt F)),
    StableHlo.nullary main_cst_43 (constant S_ .f32 0x3F800000#32),
    StableHlo.unary main_cst_43 main_v196 (broadcastInDim S50000 ![] bcast_S_S50000 : (⟨S_, .f32⟩ : BufTy).Contents (Elt F) → (⟨S50000, .f32⟩ : BufTy).Contents (Elt F)),
    StableHlo.binary main_v195 main_v196 main_v197 (maximumf : (⟨S50000, .f32⟩ : BufTy).Contents (Elt F) → (⟨S50000, .f32⟩ : BufTy).Contents (Elt F) → (⟨S50000, .f32⟩ : BufTy).Contents (Elt F)),
    StableHlo.nullary main_cst_44 (constant S_ .f32 0x00000000#32),
    StableHlo.unary main_cst_44 main_v198 (broadcastInDim S50000 ![] bcast_S_S50000 : (⟨S_, .f32⟩ : BufTy).Contents (Elt F) → (⟨S50000, .f32⟩ : BufTy).Contents (Elt F)),
    StableHlo.unary main_v187 main_v199 (broadcastInDim S800000x1 ![0] bcast_S800000_S800000x1_0 : (⟨S800000, .i32⟩ : BufTy).Contents (Elt F) → (⟨S800000x1, .i32⟩ : BufTy).Contents (Elt F)),
    StableHlo.ternary main_v198 main_v199 main_v192 main_v200 ((fun x i u => Host.scatterAdd scatter_S50000_S800000x1_S800000_n_0_0_1 x i u) : (⟨S50000, .f32⟩ : BufTy).Contents (Elt F) → (⟨S800000x1, .i32⟩ : BufTy).Contents (Elt F) → (⟨S800000, .f32⟩ : BufTy).Contents (Elt F) → (⟨S50000, .f32⟩ : BufTy).Contents (Elt F)),
    StableHlo.nullary main_cst_45 (constant S_ .f32 0x3F800000#32),
    StableHlo.unary main_cst_45 main_v201 (broadcastInDim S50000 ![] bcast_S_S50000 : (⟨S_, .f32⟩ : BufTy).Contents (Elt F) → (⟨S50000, .f32⟩ : BufTy).Contents (Elt F)),
    StableHlo.binary main_v200 main_v201 main_v202 (maximumf : (⟨S50000, .f32⟩ : BufTy).Contents (Elt F) → (⟨S50000, .f32⟩ : BufTy).Contents (Elt F) → (⟨S50000, .f32⟩ : BufTy).Contents (Elt F)),
    StableHlo.nullary main_cst_46 (constant S_ .f32 0xBF000000#32),
    StableHlo.unary main_cst_46 main_v203 (broadcastInDim S50000 ![] bcast_S_S50000 : (⟨S_, .f32⟩ : BufTy).Contents (Elt F) → (⟨S50000, .f32⟩ : BufTy).Contents (Elt F)),
    StableHlo.binary main_v197 main_v203 main_v204 (Host.powf : (⟨S50000, .f32⟩ : BufTy).Contents (Elt F) → (⟨S50000, .f32⟩ : BufTy).Contents (Elt F) → (⟨S50000, .f32⟩ : BufTy).Contents (Elt F)),
    StableHlo.unary main_v204 main_v205 (broadcastInDim S50000x1 ![0] bcast_S50000_S50000x1_0 : (⟨S50000, .f32⟩ : BufTy).Contents (Elt F) → (⟨S50000x1, .f32⟩ : BufTy).Contents (Elt F)),
    StableHlo.unary main_v205 main_v206 (broadcastInDim S50000x128 ![0, 1] bcast_S50000x1_S50000x128_0_1 : (⟨S50000x1, .f32⟩ : BufTy).Contents (Elt F) → (⟨S50000x128, .f32⟩ : BufTy).Contents (Elt F)),
    StableHlo.binary main_v183 main_v206 main_v207 (mulf : (⟨S50000x128, .f32⟩ : BufTy).Contents (Elt F) → (⟨S50000x128, .f32⟩ : BufTy).Contents (Elt F) → (⟨S50000x128, .f32⟩ : BufTy).Contents (Elt F)),
    StableHlo.nullary main_c_47 (constantI S_ 32 0#32),
    StableHlo.unary main_c_47 main_v208 (broadcastInDim S800000 ![] bcast_S_S800000 : (⟨S_, .i32⟩ : BufTy).Contents (Elt F) → (⟨S800000, .i32⟩ : BufTy).Contents (Elt F)),
    StableHlo.binary main_v185 main_v208 main_v209 (cmpi .slt : (⟨S800000, .i32⟩ : BufTy).Contents (Elt F) → (⟨S800000, .i32⟩ : BufTy).Contents (Elt F) → (⟨S800000, .i1⟩ : BufTy).Contents (Elt F)),
    StableHlo.nullary main_c_48 (constantI S_ 32 50000#32),
    StableHlo.unary main_c_48 main_v210 (broadcastInDim S800000 ![] bcast_S_S800000 : (⟨S_, .i32⟩ : BufTy).Contents (Elt F) → (⟨S800000, .i32⟩ : BufTy).Contents (Elt F)),
    StableHlo.binary main_v185 main_v210 main_v211 (addi : (⟨S800000, .i32⟩ : BufTy).Contents (Elt F) → (⟨S800000, .i32⟩ : BufTy).Contents (Elt F) → (⟨S800000, .i32⟩ : BufTy).Contents (Elt F)),
    StableHlo.ternary main_v209 main_v211 main_v185 main_v212 (select : (⟨S800000, .i1⟩ : BufTy).Contents (Elt F) → (⟨S800000, .i32⟩ : BufTy).Contents (Elt F) → (⟨S800000, .i32⟩ : BufTy).Contents (Elt F) → (⟨S800000, .i32⟩ : BufTy).Contents (Elt F)),
    StableHlo.unary main_v212 main_v213 (broadcastInDim S800000x1 ![0] bcast_S800000_S800000x1_0 : (⟨S800000, .i32⟩ : BufTy).Contents (Elt F) → (⟨S800000x1, .i32⟩ : BufTy).Contents (Elt F)),
    StableHlo.binary main_v207 main_v213 main_v214 ((fun x i => Host.gather gather_S50000x128_S800000x1_S800000x128_1_0_n_n_0_1_1128 x i) : (⟨S50000x128, .f32⟩ : BufTy).Contents (Elt F) → (⟨S800000x1, .i32⟩ : BufTy).Contents (Elt F) → (⟨S800000x128, .f32⟩ : BufTy).Contents (Elt F)),
    StableHlo.nullary main_cst_49 (constant S_ .f32 0x00000000#32),
    StableHlo.unary main_cst_49 main_v215 (broadcastInDim S50000x128 ![] bcast_S_S50000x128 : (⟨S_, .f32⟩ : BufTy).Contents (Elt F) → (⟨S50000x128, .f32⟩ : BufTy).Contents (Elt F)),
    StableHlo.unary main_v187 main_v216 (broadcastInDim S800000x1 ![0] bcast_S800000_S800000x1_0 : (⟨S800000, .i32⟩ : BufTy).Contents (Elt F) → (⟨S800000x1, .i32⟩ : BufTy).Contents (Elt F)),
    StableHlo.ternary main_v215 main_v216 main_v214 main_v217 ((fun x i u => Host.scatterAdd scatter_S50000x128_S800000x1_S800000x128_1_0_0_1 x i u) : (⟨S50000x128, .f32⟩ : BufTy).Contents (Elt F) → (⟨S800000x1, .i32⟩ : BufTy).Contents (Elt F) → (⟨S800000x128, .f32⟩ : BufTy).Contents (Elt F) → (⟨S50000x128, .f32⟩ : BufTy).Contents (Elt F)),
    StableHlo.nullary main_cst_50 (constant S_ .f32 0xBF000000#32),
    StableHlo.unary main_cst_50 main_v218 (broadcastInDim S50000 ![] bcast_S_S50000 : (⟨S_, .f32⟩ : BufTy).Contents (Elt F) → (⟨S50000, .f32⟩ : BufTy).Contents (Elt F)),
    StableHlo.binary main_v202 main_v218 main_v219 (Host.powf : (⟨S50000, .f32⟩ : BufTy).Contents (Elt F) → (⟨S50000, .f32⟩ : BufTy).Contents (Elt F) → (⟨S50000, .f32⟩ : BufTy).Contents (Elt F)),
    StableHlo.unary main_v219 main_v220 (broadcastInDim S50000x1 ![0] bcast_S50000_S50000x1_0 : (⟨S50000, .f32⟩ : BufTy).Contents (Elt F) → (⟨S50000x1, .f32⟩ : BufTy).Contents (Elt F)),
    StableHlo.unary main_v220 main_v221 (broadcastInDim S50000x128 ![0, 1] bcast_S50000x1_S50000x128_0_1 : (⟨S50000x1, .f32⟩ : BufTy).Contents (Elt F) → (⟨S50000x128, .f32⟩ : BufTy).Contents (Elt F)),
    StableHlo.binary main_v217 main_v221 main_v222 (mulf : (⟨S50000x128, .f32⟩ : BufTy).Contents (Elt F) → (⟨S50000x128, .f32⟩ : BufTy).Contents (Elt F) → (⟨S50000x128, .f32⟩ : BufTy).Contents (Elt F)),
    StableHlo.binary main_v222 main_v189 main_v223 ((fun l r => Host.dotGeneral dot_S50000x128_S128x128_S50000x128_1_0_0_1_n_n none l r) : (⟨S50000x128, .f32⟩ : BufTy).Contents (Elt F) → (⟨S128x128, .f32⟩ : BufTy).Contents (Elt F) → (⟨S50000x128, .f32⟩ : BufTy).Contents (Elt F)),
    StableHlo.unary main_v191 main_v224 (broadcastInDim S1x128 ![1] bcast_S128_S1x128_1 : (⟨S128, .f32⟩ : BufTy).Contents (Elt F) → (⟨S1x128, .f32⟩ : BufTy).Contents (Elt F)),
    StableHlo.unary main_v224 main_v225 (broadcastInDim S50000x128 ![0, 1] bcast_S1x128_S50000x128_0_1 : (⟨S1x128, .f32⟩ : BufTy).Contents (Elt F) → (⟨S50000x128, .f32⟩ : BufTy).Contents (Elt F)),
    StableHlo.binary main_v223 main_v225 main_v226 (addf : (⟨S50000x128, .f32⟩ : BufTy).Contents (Elt F) → (⟨S50000x128, .f32⟩ : BufTy).Contents (Elt F) → (⟨S50000x128, .f32⟩ : BufTy).Contents (Elt F)),
    StableHlo.unary main_arg1 main_v227 ((extractStridedSlice S1x800000 ![1, 0] · slices_S4x800000_S1x800000_1_0) : (⟨S4x800000, .i32⟩ : BufTy).Contents (Elt F) → (⟨S1x800000, .i32⟩ : BufTy).Contents (Elt F)),
    StableHlo.reshape main_v227 main_v228 rfl shapeCasts_S1x800000_S800000,
    StableHlo.unary main_arg2 main_v229 ((extractStridedSlice S1x800000 ![1, 0] · slices_S4x800000_S1x800000_1_0) : (⟨S4x800000, .i32⟩ : BufTy).Contents (Elt F) → (⟨S1x800000, .i32⟩ : BufTy).Contents (Elt F)),
    StableHlo.reshape main_v229 main_v230 rfl shapeCasts_S1x800000_S800000,
    StableHlo.unary main_arg5 main_v231 ((extractStridedSlice S1x128x128 ![1, 0, 0] · slices_S4x128x128_S1x128x128_1_0_0) : (⟨S4x128x128, .f32⟩ : BufTy).Contents (Elt F) → (⟨S1x128x128, .f32⟩ : BufTy).Contents (Elt F)),
    StableHlo.reshape main_v231 main_v232 rfl shapeCasts_S1x128x128_S128x128,
    StableHlo.unary main_arg6 main_v233 ((extractStridedSlice S1x128 ![1, 0] · slices_S4x128_S1x128_1_0) : (⟨S4x128, .f32⟩ : BufTy).Contents (Elt F) → (⟨S1x128, .f32⟩ : BufTy).Contents (Elt F)),
    StableHlo.reshape main_v233 main_v234 rfl shapeCasts_S1x128_S128,
    StableHlo.nullary main_cst_51 (constant S_ .f32 0x3F800000#32),
    StableHlo.unary main_cst_51 main_v235 (broadcastInDim S800000 ![] bcast_S_S800000 : (⟨S_, .f32⟩ : BufTy).Contents (Elt F) → (⟨S800000, .f32⟩ : BufTy).Contents (Elt F)),
    StableHlo.nullary main_cst_52 (constant S_ .f32 0x00000000#32),
    StableHlo.unary main_cst_52 main_v236 (broadcastInDim S50000 ![] bcast_S_S50000 : (⟨S_, .f32⟩ : BufTy).Contents (Elt F) → (⟨S50000, .f32⟩ : BufTy).Contents (Elt F)),
    StableHlo.unary main_v228 main_v237 (broadcastInDim S800000x1 ![0] bcast_S800000_S800000x1_0 : (⟨S800000, .i32⟩ : BufTy).Contents (Elt F) → (⟨S800000x1, .i32⟩ : BufTy).Contents (Elt F)),
    StableHlo.ternary main_v236 main_v237 main_v235 main_v238 ((fun x i u => Host.scatterAdd scatter_S50000_S800000x1_S800000_n_0_0_1 x i u) : (⟨S50000, .f32⟩ : BufTy).Contents (Elt F) → (⟨S800000x1, .i32⟩ : BufTy).Contents (Elt F) → (⟨S800000, .f32⟩ : BufTy).Contents (Elt F) → (⟨S50000, .f32⟩ : BufTy).Contents (Elt F)),
    StableHlo.nullary main_cst_53 (constant S_ .f32 0x3F800000#32),
    StableHlo.unary main_cst_53 main_v239 (broadcastInDim S50000 ![] bcast_S_S50000 : (⟨S_, .f32⟩ : BufTy).Contents (Elt F) → (⟨S50000, .f32⟩ : BufTy).Contents (Elt F)),
    StableHlo.binary main_v238 main_v239 main_v240 (maximumf : (⟨S50000, .f32⟩ : BufTy).Contents (Elt F) → (⟨S50000, .f32⟩ : BufTy).Contents (Elt F) → (⟨S50000, .f32⟩ : BufTy).Contents (Elt F)),
    StableHlo.nullary main_cst_54 (constant S_ .f32 0x00000000#32),
    StableHlo.unary main_cst_54 main_v241 (broadcastInDim S50000 ![] bcast_S_S50000 : (⟨S_, .f32⟩ : BufTy).Contents (Elt F) → (⟨S50000, .f32⟩ : BufTy).Contents (Elt F)),
    StableHlo.unary main_v230 main_v242 (broadcastInDim S800000x1 ![0] bcast_S800000_S800000x1_0 : (⟨S800000, .i32⟩ : BufTy).Contents (Elt F) → (⟨S800000x1, .i32⟩ : BufTy).Contents (Elt F)) ]

/-- The references the operations of win4 write, in order. -/
abbrev win4_W : List (Ref sig .tc) :=
  [ main_v195, main_cst_43, main_v196, main_v197, main_cst_44, main_v198, main_v199, main_v200,
    main_cst_45, main_v201, main_v202, main_cst_46, main_v203, main_v204, main_v205, main_v206,
    main_v207, main_c_47, main_v208, main_v209, main_c_48, main_v210, main_v211, main_v212,
    main_v213, main_v214, main_cst_49, main_v215, main_v216, main_v217, main_cst_50, main_v218,
    main_v219, main_v220, main_v221, main_v222, main_v223, main_v224, main_v225, main_v226,
    main_v227, main_v228, main_v229, main_v230, main_v231, main_v232, main_v233, main_v234,
    main_cst_51, main_v235, main_cst_52, main_v236, main_v237, main_v238, main_cst_53, main_v239,
    main_v240, main_cst_54, main_v241, main_v242 ]

set_option maxHeartbeats 40000000 in
/-- @main's statements 301 … 360: 60 operations, in order (a call's are its body's at the call's operands and record). -/
abbrev win5 : List (HloOp τ sig (Elt F)) :=
  [ StableHlo.ternary main_v241 main_v242 main_v235 main_v243 ((fun x i u => Host.scatterAdd scatter_S50000_S800000x1_S800000_n_0_0_1 x i u) : (⟨S50000, .f32⟩ : BufTy).Contents (Elt F) → (⟨S800000x1, .i32⟩ : BufTy).Contents (Elt F) → (⟨S800000, .f32⟩ : BufTy).Contents (Elt F) → (⟨S50000, .f32⟩ : BufTy).Contents (Elt F)),
    StableHlo.nullary main_cst_55 (constant S_ .f32 0x3F800000#32),
    StableHlo.unary main_cst_55 main_v244 (broadcastInDim S50000 ![] bcast_S_S50000 : (⟨S_, .f32⟩ : BufTy).Contents (Elt F) → (⟨S50000, .f32⟩ : BufTy).Contents (Elt F)),
    StableHlo.binary main_v243 main_v244 main_v245 (maximumf : (⟨S50000, .f32⟩ : BufTy).Contents (Elt F) → (⟨S50000, .f32⟩ : BufTy).Contents (Elt F) → (⟨S50000, .f32⟩ : BufTy).Contents (Elt F)),
    StableHlo.nullary main_cst_56 (constant S_ .f32 0xBF000000#32),
    StableHlo.unary main_cst_56 main_v246 (broadcastInDim S50000 ![] bcast_S_S50000 : (⟨S_, .f32⟩ : BufTy).Contents (Elt F) → (⟨S50000, .f32⟩ : BufTy).Contents (Elt F)),
    StableHlo.binary main_v240 main_v246 main_v247 (Host.powf : (⟨S50000, .f32⟩ : BufTy).Contents (Elt F) → (⟨S50000, .f32⟩ : BufTy).Contents (Elt F) → (⟨S50000, .f32⟩ : BufTy).Contents (Elt F)),
    StableHlo.unary main_v247 main_v248 (broadcastInDim S50000x1 ![0] bcast_S50000_S50000x1_0 : (⟨S50000, .f32⟩ : BufTy).Contents (Elt F) → (⟨S50000x1, .f32⟩ : BufTy).Contents (Elt F)),
    StableHlo.unary main_v248 main_v249 (broadcastInDim S50000x128 ![0, 1] bcast_S50000x1_S50000x128_0_1 : (⟨S50000x1, .f32⟩ : BufTy).Contents (Elt F) → (⟨S50000x128, .f32⟩ : BufTy).Contents (Elt F)),
    StableHlo.binary main_v183 main_v249 main_v250 (mulf : (⟨S50000x128, .f32⟩ : BufTy).Contents (Elt F) → (⟨S50000x128, .f32⟩ : BufTy).Contents (Elt F) → (⟨S50000x128, .f32⟩ : BufTy).Contents (Elt F)),
    StableHlo.nullary main_c_57 (constantI S_ 32 0#32),
    StableHlo.unary main_c_57 main_v251 (broadcastInDim S800000 ![] bcast_S_S800000 : (⟨S_, .i32⟩ : BufTy).Contents (Elt F) → (⟨S800000, .i32⟩ : BufTy).Contents (Elt F)),
    StableHlo.binary main_v228 main_v251 main_v252 (cmpi .slt : (⟨S800000, .i32⟩ : BufTy).Contents (Elt F) → (⟨S800000, .i32⟩ : BufTy).Contents (Elt F) → (⟨S800000, .i1⟩ : BufTy).Contents (Elt F)),
    StableHlo.nullary main_c_58 (constantI S_ 32 50000#32),
    StableHlo.unary main_c_58 main_v253 (broadcastInDim S800000 ![] bcast_S_S800000 : (⟨S_, .i32⟩ : BufTy).Contents (Elt F) → (⟨S800000, .i32⟩ : BufTy).Contents (Elt F)),
    StableHlo.binary main_v228 main_v253 main_v254 (addi : (⟨S800000, .i32⟩ : BufTy).Contents (Elt F) → (⟨S800000, .i32⟩ : BufTy).Contents (Elt F) → (⟨S800000, .i32⟩ : BufTy).Contents (Elt F)),
    StableHlo.ternary main_v252 main_v254 main_v228 main_v255 (select : (⟨S800000, .i1⟩ : BufTy).Contents (Elt F) → (⟨S800000, .i32⟩ : BufTy).Contents (Elt F) → (⟨S800000, .i32⟩ : BufTy).Contents (Elt F) → (⟨S800000, .i32⟩ : BufTy).Contents (Elt F)),
    StableHlo.unary main_v255 main_v256 (broadcastInDim S800000x1 ![0] bcast_S800000_S800000x1_0 : (⟨S800000, .i32⟩ : BufTy).Contents (Elt F) → (⟨S800000x1, .i32⟩ : BufTy).Contents (Elt F)),
    StableHlo.binary main_v250 main_v256 main_v257 ((fun x i => Host.gather gather_S50000x128_S800000x1_S800000x128_1_0_n_n_0_1_1128 x i) : (⟨S50000x128, .f32⟩ : BufTy).Contents (Elt F) → (⟨S800000x1, .i32⟩ : BufTy).Contents (Elt F) → (⟨S800000x128, .f32⟩ : BufTy).Contents (Elt F)),
    StableHlo.nullary main_cst_59 (constant S_ .f32 0x00000000#32),
    StableHlo.unary main_cst_59 main_v258 (broadcastInDim S50000x128 ![] bcast_S_S50000x128 : (⟨S_, .f32⟩ : BufTy).Contents (Elt F) → (⟨S50000x128, .f32⟩ : BufTy).Contents (Elt F)),
    StableHlo.unary main_v230 main_v259 (broadcastInDim S800000x1 ![0] bcast_S800000_S800000x1_0 : (⟨S800000, .i32⟩ : BufTy).Contents (Elt F) → (⟨S800000x1, .i32⟩ : BufTy).Contents (Elt F)),
    StableHlo.ternary main_v258 main_v259 main_v257 main_v260 ((fun x i u => Host.scatterAdd scatter_S50000x128_S800000x1_S800000x128_1_0_0_1 x i u) : (⟨S50000x128, .f32⟩ : BufTy).Contents (Elt F) → (⟨S800000x1, .i32⟩ : BufTy).Contents (Elt F) → (⟨S800000x128, .f32⟩ : BufTy).Contents (Elt F) → (⟨S50000x128, .f32⟩ : BufTy).Contents (Elt F)),
    StableHlo.nullary main_cst_60 (constant S_ .f32 0xBF000000#32),
    StableHlo.unary main_cst_60 main_v261 (broadcastInDim S50000 ![] bcast_S_S50000 : (⟨S_, .f32⟩ : BufTy).Contents (Elt F) → (⟨S50000, .f32⟩ : BufTy).Contents (Elt F)),
    StableHlo.binary main_v245 main_v261 main_v262 (Host.powf : (⟨S50000, .f32⟩ : BufTy).Contents (Elt F) → (⟨S50000, .f32⟩ : BufTy).Contents (Elt F) → (⟨S50000, .f32⟩ : BufTy).Contents (Elt F)),
    StableHlo.unary main_v262 main_v263 (broadcastInDim S50000x1 ![0] bcast_S50000_S50000x1_0 : (⟨S50000, .f32⟩ : BufTy).Contents (Elt F) → (⟨S50000x1, .f32⟩ : BufTy).Contents (Elt F)),
    StableHlo.unary main_v263 main_v264 (broadcastInDim S50000x128 ![0, 1] bcast_S50000x1_S50000x128_0_1 : (⟨S50000x1, .f32⟩ : BufTy).Contents (Elt F) → (⟨S50000x128, .f32⟩ : BufTy).Contents (Elt F)),
    StableHlo.binary main_v260 main_v264 main_v265 (mulf : (⟨S50000x128, .f32⟩ : BufTy).Contents (Elt F) → (⟨S50000x128, .f32⟩ : BufTy).Contents (Elt F) → (⟨S50000x128, .f32⟩ : BufTy).Contents (Elt F)),
    StableHlo.binary main_v265 main_v232 main_v266 ((fun l r => Host.dotGeneral dot_S50000x128_S128x128_S50000x128_1_0_0_1_n_n none l r) : (⟨S50000x128, .f32⟩ : BufTy).Contents (Elt F) → (⟨S128x128, .f32⟩ : BufTy).Contents (Elt F) → (⟨S50000x128, .f32⟩ : BufTy).Contents (Elt F)),
    StableHlo.unary main_v234 main_v267 (broadcastInDim S1x128 ![1] bcast_S128_S1x128_1 : (⟨S128, .f32⟩ : BufTy).Contents (Elt F) → (⟨S1x128, .f32⟩ : BufTy).Contents (Elt F)),
    StableHlo.unary main_v267 main_v268 (broadcastInDim S50000x128 ![0, 1] bcast_S1x128_S50000x128_0_1 : (⟨S1x128, .f32⟩ : BufTy).Contents (Elt F) → (⟨S50000x128, .f32⟩ : BufTy).Contents (Elt F)),
    StableHlo.binary main_v266 main_v268 main_v269 (addf : (⟨S50000x128, .f32⟩ : BufTy).Contents (Elt F) → (⟨S50000x128, .f32⟩ : BufTy).Contents (Elt F) → (⟨S50000x128, .f32⟩ : BufTy).Contents (Elt F)),
    StableHlo.binary main_v226 main_v269 main_v270 (addf : (⟨S50000x128, .f32⟩ : BufTy).Contents (Elt F) → (⟨S50000x128, .f32⟩ : BufTy).Contents (Elt F) → (⟨S50000x128, .f32⟩ : BufTy).Contents (Elt F)),
    StableHlo.unary main_arg1 main_v271 ((extractStridedSlice S1x800000 ![2, 0] · slices_S4x800000_S1x800000_2_0) : (⟨S4x800000, .i32⟩ : BufTy).Contents (Elt F) → (⟨S1x800000, .i32⟩ : BufTy).Contents (Elt F)),
    StableHlo.reshape main_v271 main_v272 rfl shapeCasts_S1x800000_S800000,
    StableHlo.unary main_arg2 main_v273 ((extractStridedSlice S1x800000 ![2, 0] · slices_S4x800000_S1x800000_2_0) : (⟨S4x800000, .i32⟩ : BufTy).Contents (Elt F) → (⟨S1x800000, .i32⟩ : BufTy).Contents (Elt F)),
    StableHlo.reshape main_v273 main_v274 rfl shapeCasts_S1x800000_S800000,
    StableHlo.unary main_arg5 main_v275 ((extractStridedSlice S1x128x128 ![2, 0, 0] · slices_S4x128x128_S1x128x128_2_0_0) : (⟨S4x128x128, .f32⟩ : BufTy).Contents (Elt F) → (⟨S1x128x128, .f32⟩ : BufTy).Contents (Elt F)),
    StableHlo.reshape main_v275 main_v276 rfl shapeCasts_S1x128x128_S128x128,
    StableHlo.unary main_arg6 main_v277 ((extractStridedSlice S1x128 ![2, 0] · slices_S4x128_S1x128_2_0) : (⟨S4x128, .f32⟩ : BufTy).Contents (Elt F) → (⟨S1x128, .f32⟩ : BufTy).Contents (Elt F)),
    StableHlo.reshape main_v277 main_v278 rfl shapeCasts_S1x128_S128,
    StableHlo.nullary main_cst_61 (constant S_ .f32 0x3F800000#32),
    StableHlo.unary main_cst_61 main_v279 (broadcastInDim S800000 ![] bcast_S_S800000 : (⟨S_, .f32⟩ : BufTy).Contents (Elt F) → (⟨S800000, .f32⟩ : BufTy).Contents (Elt F)),
    StableHlo.nullary main_cst_62 (constant S_ .f32 0x00000000#32),
    StableHlo.unary main_cst_62 main_v280 (broadcastInDim S50000 ![] bcast_S_S50000 : (⟨S_, .f32⟩ : BufTy).Contents (Elt F) → (⟨S50000, .f32⟩ : BufTy).Contents (Elt F)),
    StableHlo.unary main_v272 main_v281 (broadcastInDim S800000x1 ![0] bcast_S800000_S800000x1_0 : (⟨S800000, .i32⟩ : BufTy).Contents (Elt F) → (⟨S800000x1, .i32⟩ : BufTy).Contents (Elt F)),
    StableHlo.ternary main_v280 main_v281 main_v279 main_v282 ((fun x i u => Host.scatterAdd scatter_S50000_S800000x1_S800000_n_0_0_1 x i u) : (⟨S50000, .f32⟩ : BufTy).Contents (Elt F) → (⟨S800000x1, .i32⟩ : BufTy).Contents (Elt F) → (⟨S800000, .f32⟩ : BufTy).Contents (Elt F) → (⟨S50000, .f32⟩ : BufTy).Contents (Elt F)),
    StableHlo.nullary main_cst_63 (constant S_ .f32 0x3F800000#32),
    StableHlo.unary main_cst_63 main_v283 (broadcastInDim S50000 ![] bcast_S_S50000 : (⟨S_, .f32⟩ : BufTy).Contents (Elt F) → (⟨S50000, .f32⟩ : BufTy).Contents (Elt F)),
    StableHlo.binary main_v282 main_v283 main_v284 (maximumf : (⟨S50000, .f32⟩ : BufTy).Contents (Elt F) → (⟨S50000, .f32⟩ : BufTy).Contents (Elt F) → (⟨S50000, .f32⟩ : BufTy).Contents (Elt F)),
    StableHlo.nullary main_cst_64 (constant S_ .f32 0x00000000#32),
    StableHlo.unary main_cst_64 main_v285 (broadcastInDim S50000 ![] bcast_S_S50000 : (⟨S_, .f32⟩ : BufTy).Contents (Elt F) → (⟨S50000, .f32⟩ : BufTy).Contents (Elt F)),
    StableHlo.unary main_v274 main_v286 (broadcastInDim S800000x1 ![0] bcast_S800000_S800000x1_0 : (⟨S800000, .i32⟩ : BufTy).Contents (Elt F) → (⟨S800000x1, .i32⟩ : BufTy).Contents (Elt F)),
    StableHlo.ternary main_v285 main_v286 main_v279 main_v287 ((fun x i u => Host.scatterAdd scatter_S50000_S800000x1_S800000_n_0_0_1 x i u) : (⟨S50000, .f32⟩ : BufTy).Contents (Elt F) → (⟨S800000x1, .i32⟩ : BufTy).Contents (Elt F) → (⟨S800000, .f32⟩ : BufTy).Contents (Elt F) → (⟨S50000, .f32⟩ : BufTy).Contents (Elt F)),
    StableHlo.nullary main_cst_65 (constant S_ .f32 0x3F800000#32),
    StableHlo.unary main_cst_65 main_v288 (broadcastInDim S50000 ![] bcast_S_S50000 : (⟨S_, .f32⟩ : BufTy).Contents (Elt F) → (⟨S50000, .f32⟩ : BufTy).Contents (Elt F)),
    StableHlo.binary main_v287 main_v288 main_v289 (maximumf : (⟨S50000, .f32⟩ : BufTy).Contents (Elt F) → (⟨S50000, .f32⟩ : BufTy).Contents (Elt F) → (⟨S50000, .f32⟩ : BufTy).Contents (Elt F)),
    StableHlo.nullary main_cst_66 (constant S_ .f32 0xBF000000#32),
    StableHlo.unary main_cst_66 main_v290 (broadcastInDim S50000 ![] bcast_S_S50000 : (⟨S_, .f32⟩ : BufTy).Contents (Elt F) → (⟨S50000, .f32⟩ : BufTy).Contents (Elt F)) ]

/-- The references the operations of win5 write, in order. -/
abbrev win5_W : List (Ref sig .tc) :=
  [ main_v243, main_cst_55, main_v244, main_v245, main_cst_56, main_v246, main_v247, main_v248,
    main_v249, main_v250, main_c_57, main_v251, main_v252, main_c_58, main_v253, main_v254,
    main_v255, main_v256, main_v257, main_cst_59, main_v258, main_v259, main_v260, main_cst_60,
    main_v261, main_v262, main_v263, main_v264, main_v265, main_v266, main_v267, main_v268,
    main_v269, main_v270, main_v271, main_v272, main_v273, main_v274, main_v275, main_v276,
    main_v277, main_v278, main_cst_61, main_v279, main_cst_62, main_v280, main_v281, main_v282,
    main_cst_63, main_v283, main_v284, main_cst_64, main_v285, main_v286, main_v287, main_cst_65,
    main_v288, main_v289, main_cst_66, main_v290 ]

set_option maxHeartbeats 40000000 in
/-- @main's statements 361 … 420: 60 operations, in order (a call's are its body's at the call's operands and record). -/
abbrev win6 : List (HloOp τ sig (Elt F)) :=
  [ StableHlo.binary main_v284 main_v290 main_v291 (Host.powf : (⟨S50000, .f32⟩ : BufTy).Contents (Elt F) → (⟨S50000, .f32⟩ : BufTy).Contents (Elt F) → (⟨S50000, .f32⟩ : BufTy).Contents (Elt F)),
    StableHlo.unary main_v291 main_v292 (broadcastInDim S50000x1 ![0] bcast_S50000_S50000x1_0 : (⟨S50000, .f32⟩ : BufTy).Contents (Elt F) → (⟨S50000x1, .f32⟩ : BufTy).Contents (Elt F)),
    StableHlo.unary main_v292 main_v293 (broadcastInDim S50000x128 ![0, 1] bcast_S50000x1_S50000x128_0_1 : (⟨S50000x1, .f32⟩ : BufTy).Contents (Elt F) → (⟨S50000x128, .f32⟩ : BufTy).Contents (Elt F)),
    StableHlo.binary main_v183 main_v293 main_v294 (mulf : (⟨S50000x128, .f32⟩ : BufTy).Contents (Elt F) → (⟨S50000x128, .f32⟩ : BufTy).Contents (Elt F) → (⟨S50000x128, .f32⟩ : BufTy).Contents (Elt F)),
    StableHlo.nullary main_c_67 (constantI S_ 32 0#32),
    StableHlo.unary main_c_67 main_v295 (broadcastInDim S800000 ![] bcast_S_S800000 : (⟨S_, .i32⟩ : BufTy).Contents (Elt F) → (⟨S800000, .i32⟩ : BufTy).Contents (Elt F)),
    StableHlo.binary main_v272 main_v295 main_v296 (cmpi .slt : (⟨S800000, .i32⟩ : BufTy).Contents (Elt F) → (⟨S800000, .i32⟩ : BufTy).Contents (Elt F) → (⟨S800000, .i1⟩ : BufTy).Contents (Elt F)),
    StableHlo.nullary main_c_68 (constantI S_ 32 50000#32),
    StableHlo.unary main_c_68 main_v297 (broadcastInDim S800000 ![] bcast_S_S800000 : (⟨S_, .i32⟩ : BufTy).Contents (Elt F) → (⟨S800000, .i32⟩ : BufTy).Contents (Elt F)),
    StableHlo.binary main_v272 main_v297 main_v298 (addi : (⟨S800000, .i32⟩ : BufTy).Contents (Elt F) → (⟨S800000, .i32⟩ : BufTy).Contents (Elt F) → (⟨S800000, .i32⟩ : BufTy).Contents (Elt F)),
    StableHlo.ternary main_v296 main_v298 main_v272 main_v299 (select : (⟨S800000, .i1⟩ : BufTy).Contents (Elt F) → (⟨S800000, .i32⟩ : BufTy).Contents (Elt F) → (⟨S800000, .i32⟩ : BufTy).Contents (Elt F) → (⟨S800000, .i32⟩ : BufTy).Contents (Elt F)),
    StableHlo.unary main_v299 main_v300 (broadcastInDim S800000x1 ![0] bcast_S800000_S800000x1_0 : (⟨S800000, .i32⟩ : BufTy).Contents (Elt F) → (⟨S800000x1, .i32⟩ : BufTy).Contents (Elt F)),
    StableHlo.binary main_v294 main_v300 main_v301 ((fun x i => Host.gather gather_S50000x128_S800000x1_S800000x128_1_0_n_n_0_1_1128 x i) : (⟨S50000x128, .f32⟩ : BufTy).Contents (Elt F) → (⟨S800000x1, .i32⟩ : BufTy).Contents (Elt F) → (⟨S800000x128, .f32⟩ : BufTy).Contents (Elt F)),
    StableHlo.nullary main_cst_69 (constant S_ .f32 0x00000000#32),
    StableHlo.unary main_cst_69 main_v302 (broadcastInDim S50000x128 ![] bcast_S_S50000x128 : (⟨S_, .f32⟩ : BufTy).Contents (Elt F) → (⟨S50000x128, .f32⟩ : BufTy).Contents (Elt F)),
    StableHlo.unary main_v274 main_v303 (broadcastInDim S800000x1 ![0] bcast_S800000_S800000x1_0 : (⟨S800000, .i32⟩ : BufTy).Contents (Elt F) → (⟨S800000x1, .i32⟩ : BufTy).Contents (Elt F)),
    StableHlo.ternary main_v302 main_v303 main_v301 main_v304 ((fun x i u => Host.scatterAdd scatter_S50000x128_S800000x1_S800000x128_1_0_0_1 x i u) : (⟨S50000x128, .f32⟩ : BufTy).Contents (Elt F) → (⟨S800000x1, .i32⟩ : BufTy).Contents (Elt F) → (⟨S800000x128, .f32⟩ : BufTy).Contents (Elt F) → (⟨S50000x128, .f32⟩ : BufTy).Contents (Elt F)),
    StableHlo.nullary main_cst_70 (constant S_ .f32 0xBF000000#32),
    StableHlo.unary main_cst_70 main_v305 (broadcastInDim S50000 ![] bcast_S_S50000 : (⟨S_, .f32⟩ : BufTy).Contents (Elt F) → (⟨S50000, .f32⟩ : BufTy).Contents (Elt F)),
    StableHlo.binary main_v289 main_v305 main_v306 (Host.powf : (⟨S50000, .f32⟩ : BufTy).Contents (Elt F) → (⟨S50000, .f32⟩ : BufTy).Contents (Elt F) → (⟨S50000, .f32⟩ : BufTy).Contents (Elt F)),
    StableHlo.unary main_v306 main_v307 (broadcastInDim S50000x1 ![0] bcast_S50000_S50000x1_0 : (⟨S50000, .f32⟩ : BufTy).Contents (Elt F) → (⟨S50000x1, .f32⟩ : BufTy).Contents (Elt F)),
    StableHlo.unary main_v307 main_v308 (broadcastInDim S50000x128 ![0, 1] bcast_S50000x1_S50000x128_0_1 : (⟨S50000x1, .f32⟩ : BufTy).Contents (Elt F) → (⟨S50000x128, .f32⟩ : BufTy).Contents (Elt F)),
    StableHlo.binary main_v304 main_v308 main_v309 (mulf : (⟨S50000x128, .f32⟩ : BufTy).Contents (Elt F) → (⟨S50000x128, .f32⟩ : BufTy).Contents (Elt F) → (⟨S50000x128, .f32⟩ : BufTy).Contents (Elt F)),
    StableHlo.binary main_v309 main_v276 main_v310 ((fun l r => Host.dotGeneral dot_S50000x128_S128x128_S50000x128_1_0_0_1_n_n none l r) : (⟨S50000x128, .f32⟩ : BufTy).Contents (Elt F) → (⟨S128x128, .f32⟩ : BufTy).Contents (Elt F) → (⟨S50000x128, .f32⟩ : BufTy).Contents (Elt F)),
    StableHlo.unary main_v278 main_v311 (broadcastInDim S1x128 ![1] bcast_S128_S1x128_1 : (⟨S128, .f32⟩ : BufTy).Contents (Elt F) → (⟨S1x128, .f32⟩ : BufTy).Contents (Elt F)),
    StableHlo.unary main_v311 main_v312 (broadcastInDim S50000x128 ![0, 1] bcast_S1x128_S50000x128_0_1 : (⟨S1x128, .f32⟩ : BufTy).Contents (Elt F) → (⟨S50000x128, .f32⟩ : BufTy).Contents (Elt F)),
    StableHlo.binary main_v310 main_v312 main_v313 (addf : (⟨S50000x128, .f32⟩ : BufTy).Contents (Elt F) → (⟨S50000x128, .f32⟩ : BufTy).Contents (Elt F) → (⟨S50000x128, .f32⟩ : BufTy).Contents (Elt F)),
    StableHlo.binary main_v270 main_v313 main_v314 (addf : (⟨S50000x128, .f32⟩ : BufTy).Contents (Elt F) → (⟨S50000x128, .f32⟩ : BufTy).Contents (Elt F) → (⟨S50000x128, .f32⟩ : BufTy).Contents (Elt F)),
    StableHlo.unary main_arg1 main_v315 ((extractStridedSlice S1x800000 ![3, 0] · slices_S4x800000_S1x800000_3_0) : (⟨S4x800000, .i32⟩ : BufTy).Contents (Elt F) → (⟨S1x800000, .i32⟩ : BufTy).Contents (Elt F)),
    StableHlo.reshape main_v315 main_v316 rfl shapeCasts_S1x800000_S800000,
    StableHlo.unary main_arg2 main_v317 ((extractStridedSlice S1x800000 ![3, 0] · slices_S4x800000_S1x800000_3_0) : (⟨S4x800000, .i32⟩ : BufTy).Contents (Elt F) → (⟨S1x800000, .i32⟩ : BufTy).Contents (Elt F)),
    StableHlo.reshape main_v317 main_v318 rfl shapeCasts_S1x800000_S800000,
    StableHlo.unary main_arg5 main_v319 ((extractStridedSlice S1x128x128 ![3, 0, 0] · slices_S4x128x128_S1x128x128_3_0_0) : (⟨S4x128x128, .f32⟩ : BufTy).Contents (Elt F) → (⟨S1x128x128, .f32⟩ : BufTy).Contents (Elt F)),
    StableHlo.reshape main_v319 main_v320 rfl shapeCasts_S1x128x128_S128x128,
    StableHlo.unary main_arg6 main_v321 ((extractStridedSlice S1x128 ![3, 0] · slices_S4x128_S1x128_3_0) : (⟨S4x128, .f32⟩ : BufTy).Contents (Elt F) → (⟨S1x128, .f32⟩ : BufTy).Contents (Elt F)),
    StableHlo.reshape main_v321 main_v322 rfl shapeCasts_S1x128_S128,
    StableHlo.nullary main_cst_71 (constant S_ .f32 0x3F800000#32),
    StableHlo.unary main_cst_71 main_v323 (broadcastInDim S800000 ![] bcast_S_S800000 : (⟨S_, .f32⟩ : BufTy).Contents (Elt F) → (⟨S800000, .f32⟩ : BufTy).Contents (Elt F)),
    StableHlo.nullary main_cst_72 (constant S_ .f32 0x00000000#32),
    StableHlo.unary main_cst_72 main_v324 (broadcastInDim S50000 ![] bcast_S_S50000 : (⟨S_, .f32⟩ : BufTy).Contents (Elt F) → (⟨S50000, .f32⟩ : BufTy).Contents (Elt F)),
    StableHlo.unary main_v316 main_v325 (broadcastInDim S800000x1 ![0] bcast_S800000_S800000x1_0 : (⟨S800000, .i32⟩ : BufTy).Contents (Elt F) → (⟨S800000x1, .i32⟩ : BufTy).Contents (Elt F)),
    StableHlo.ternary main_v324 main_v325 main_v323 main_v326 ((fun x i u => Host.scatterAdd scatter_S50000_S800000x1_S800000_n_0_0_1 x i u) : (⟨S50000, .f32⟩ : BufTy).Contents (Elt F) → (⟨S800000x1, .i32⟩ : BufTy).Contents (Elt F) → (⟨S800000, .f32⟩ : BufTy).Contents (Elt F) → (⟨S50000, .f32⟩ : BufTy).Contents (Elt F)),
    StableHlo.nullary main_cst_73 (constant S_ .f32 0x3F800000#32),
    StableHlo.unary main_cst_73 main_v327 (broadcastInDim S50000 ![] bcast_S_S50000 : (⟨S_, .f32⟩ : BufTy).Contents (Elt F) → (⟨S50000, .f32⟩ : BufTy).Contents (Elt F)),
    StableHlo.binary main_v326 main_v327 main_v328 (maximumf : (⟨S50000, .f32⟩ : BufTy).Contents (Elt F) → (⟨S50000, .f32⟩ : BufTy).Contents (Elt F) → (⟨S50000, .f32⟩ : BufTy).Contents (Elt F)),
    StableHlo.nullary main_cst_74 (constant S_ .f32 0x00000000#32),
    StableHlo.unary main_cst_74 main_v329 (broadcastInDim S50000 ![] bcast_S_S50000 : (⟨S_, .f32⟩ : BufTy).Contents (Elt F) → (⟨S50000, .f32⟩ : BufTy).Contents (Elt F)),
    StableHlo.unary main_v318 main_v330 (broadcastInDim S800000x1 ![0] bcast_S800000_S800000x1_0 : (⟨S800000, .i32⟩ : BufTy).Contents (Elt F) → (⟨S800000x1, .i32⟩ : BufTy).Contents (Elt F)),
    StableHlo.ternary main_v329 main_v330 main_v323 main_v331 ((fun x i u => Host.scatterAdd scatter_S50000_S800000x1_S800000_n_0_0_1 x i u) : (⟨S50000, .f32⟩ : BufTy).Contents (Elt F) → (⟨S800000x1, .i32⟩ : BufTy).Contents (Elt F) → (⟨S800000, .f32⟩ : BufTy).Contents (Elt F) → (⟨S50000, .f32⟩ : BufTy).Contents (Elt F)),
    StableHlo.nullary main_cst_75 (constant S_ .f32 0x3F800000#32),
    StableHlo.unary main_cst_75 main_v332 (broadcastInDim S50000 ![] bcast_S_S50000 : (⟨S_, .f32⟩ : BufTy).Contents (Elt F) → (⟨S50000, .f32⟩ : BufTy).Contents (Elt F)),
    StableHlo.binary main_v331 main_v332 main_v333 (maximumf : (⟨S50000, .f32⟩ : BufTy).Contents (Elt F) → (⟨S50000, .f32⟩ : BufTy).Contents (Elt F) → (⟨S50000, .f32⟩ : BufTy).Contents (Elt F)),
    StableHlo.nullary main_cst_76 (constant S_ .f32 0xBF000000#32),
    StableHlo.unary main_cst_76 main_v334 (broadcastInDim S50000 ![] bcast_S_S50000 : (⟨S_, .f32⟩ : BufTy).Contents (Elt F) → (⟨S50000, .f32⟩ : BufTy).Contents (Elt F)),
    StableHlo.binary main_v328 main_v334 main_v335 (Host.powf : (⟨S50000, .f32⟩ : BufTy).Contents (Elt F) → (⟨S50000, .f32⟩ : BufTy).Contents (Elt F) → (⟨S50000, .f32⟩ : BufTy).Contents (Elt F)),
    StableHlo.unary main_v335 main_v336 (broadcastInDim S50000x1 ![0] bcast_S50000_S50000x1_0 : (⟨S50000, .f32⟩ : BufTy).Contents (Elt F) → (⟨S50000x1, .f32⟩ : BufTy).Contents (Elt F)),
    StableHlo.unary main_v336 main_v337 (broadcastInDim S50000x128 ![0, 1] bcast_S50000x1_S50000x128_0_1 : (⟨S50000x1, .f32⟩ : BufTy).Contents (Elt F) → (⟨S50000x128, .f32⟩ : BufTy).Contents (Elt F)),
    StableHlo.binary main_v183 main_v337 main_v338 (mulf : (⟨S50000x128, .f32⟩ : BufTy).Contents (Elt F) → (⟨S50000x128, .f32⟩ : BufTy).Contents (Elt F) → (⟨S50000x128, .f32⟩ : BufTy).Contents (Elt F)),
    StableHlo.nullary main_c_77 (constantI S_ 32 0#32),
    StableHlo.unary main_c_77 main_v339 (broadcastInDim S800000 ![] bcast_S_S800000 : (⟨S_, .i32⟩ : BufTy).Contents (Elt F) → (⟨S800000, .i32⟩ : BufTy).Contents (Elt F)) ]

/-- The references the operations of win6 write, in order. -/
abbrev win6_W : List (Ref sig .tc) :=
  [ main_v291, main_v292, main_v293, main_v294, main_c_67, main_v295, main_v296, main_c_68,
    main_v297, main_v298, main_v299, main_v300, main_v301, main_cst_69, main_v302, main_v303,
    main_v304, main_cst_70, main_v305, main_v306, main_v307, main_v308, main_v309, main_v310,
    main_v311, main_v312, main_v313, main_v314, main_v315, main_v316, main_v317, main_v318,
    main_v319, main_v320, main_v321, main_v322, main_cst_71, main_v323, main_cst_72, main_v324,
    main_v325, main_v326, main_cst_73, main_v327, main_v328, main_cst_74, main_v329, main_v330,
    main_v331, main_cst_75, main_v332, main_v333, main_cst_76, main_v334, main_v335, main_v336,
    main_v337, main_v338, main_c_77, main_v339 ]

set_option maxHeartbeats 40000000 in
/-- @main's statements 421 … 480, part 1 of 2: 40 operations, in order (a call's are its body's at the call's operands and record). -/
abbrev win7a : List (HloOp τ sig (Elt F)) :=
  [ StableHlo.binary main_v316 main_v339 main_v340 (cmpi .slt : (⟨S800000, .i32⟩ : BufTy).Contents (Elt F) → (⟨S800000, .i32⟩ : BufTy).Contents (Elt F) → (⟨S800000, .i1⟩ : BufTy).Contents (Elt F)),
    StableHlo.nullary main_c_78 (constantI S_ 32 50000#32),
    StableHlo.unary main_c_78 main_v341 (broadcastInDim S800000 ![] bcast_S_S800000 : (⟨S_, .i32⟩ : BufTy).Contents (Elt F) → (⟨S800000, .i32⟩ : BufTy).Contents (Elt F)),
    StableHlo.binary main_v316 main_v341 main_v342 (addi : (⟨S800000, .i32⟩ : BufTy).Contents (Elt F) → (⟨S800000, .i32⟩ : BufTy).Contents (Elt F) → (⟨S800000, .i32⟩ : BufTy).Contents (Elt F)),
    StableHlo.ternary main_v340 main_v342 main_v316 main_v343 (select : (⟨S800000, .i1⟩ : BufTy).Contents (Elt F) → (⟨S800000, .i32⟩ : BufTy).Contents (Elt F) → (⟨S800000, .i32⟩ : BufTy).Contents (Elt F) → (⟨S800000, .i32⟩ : BufTy).Contents (Elt F)),
    StableHlo.unary main_v343 main_v344 (broadcastInDim S800000x1 ![0] bcast_S800000_S800000x1_0 : (⟨S800000, .i32⟩ : BufTy).Contents (Elt F) → (⟨S800000x1, .i32⟩ : BufTy).Contents (Elt F)),
    StableHlo.binary main_v338 main_v344 main_v345 ((fun x i => Host.gather gather_S50000x128_S800000x1_S800000x128_1_0_n_n_0_1_1128 x i) : (⟨S50000x128, .f32⟩ : BufTy).Contents (Elt F) → (⟨S800000x1, .i32⟩ : BufTy).Contents (Elt F) → (⟨S800000x128, .f32⟩ : BufTy).Contents (Elt F)),
    StableHlo.nullary main_cst_79 (constant S_ .f32 0x00000000#32),
    StableHlo.unary main_cst_79 main_v346 (broadcastInDim S50000x128 ![] bcast_S_S50000x128 : (⟨S_, .f32⟩ : BufTy).Contents (Elt F) → (⟨S50000x128, .f32⟩ : BufTy).Contents (Elt F)),
    StableHlo.unary main_v318 main_v347 (broadcastInDim S800000x1 ![0] bcast_S800000_S800000x1_0 : (⟨S800000, .i32⟩ : BufTy).Contents (Elt F) → (⟨S800000x1, .i32⟩ : BufTy).Contents (Elt F)),
    StableHlo.ternary main_v346 main_v347 main_v345 main_v348 ((fun x i u => Host.scatterAdd scatter_S50000x128_S800000x1_S800000x128_1_0_0_1 x i u) : (⟨S50000x128, .f32⟩ : BufTy).Contents (Elt F) → (⟨S800000x1, .i32⟩ : BufTy).Contents (Elt F) → (⟨S800000x128, .f32⟩ : BufTy).Contents (Elt F) → (⟨S50000x128, .f32⟩ : BufTy).Contents (Elt F)),
    StableHlo.nullary main_cst_80 (constant S_ .f32 0xBF000000#32),
    StableHlo.unary main_cst_80 main_v349 (broadcastInDim S50000 ![] bcast_S_S50000 : (⟨S_, .f32⟩ : BufTy).Contents (Elt F) → (⟨S50000, .f32⟩ : BufTy).Contents (Elt F)),
    StableHlo.binary main_v333 main_v349 main_v350 (Host.powf : (⟨S50000, .f32⟩ : BufTy).Contents (Elt F) → (⟨S50000, .f32⟩ : BufTy).Contents (Elt F) → (⟨S50000, .f32⟩ : BufTy).Contents (Elt F)),
    StableHlo.unary main_v350 main_v351 (broadcastInDim S50000x1 ![0] bcast_S50000_S50000x1_0 : (⟨S50000, .f32⟩ : BufTy).Contents (Elt F) → (⟨S50000x1, .f32⟩ : BufTy).Contents (Elt F)),
    StableHlo.unary main_v351 main_v352 (broadcastInDim S50000x128 ![0, 1] bcast_S50000x1_S50000x128_0_1 : (⟨S50000x1, .f32⟩ : BufTy).Contents (Elt F) → (⟨S50000x128, .f32⟩ : BufTy).Contents (Elt F)),
    StableHlo.binary main_v348 main_v352 main_v353 (mulf : (⟨S50000x128, .f32⟩ : BufTy).Contents (Elt F) → (⟨S50000x128, .f32⟩ : BufTy).Contents (Elt F) → (⟨S50000x128, .f32⟩ : BufTy).Contents (Elt F)),
    StableHlo.binary main_v353 main_v320 main_v354 ((fun l r => Host.dotGeneral dot_S50000x128_S128x128_S50000x128_1_0_0_1_n_n none l r) : (⟨S50000x128, .f32⟩ : BufTy).Contents (Elt F) → (⟨S128x128, .f32⟩ : BufTy).Contents (Elt F) → (⟨S50000x128, .f32⟩ : BufTy).Contents (Elt F)),
    StableHlo.unary main_v322 main_v355 (broadcastInDim S1x128 ![1] bcast_S128_S1x128_1 : (⟨S128, .f32⟩ : BufTy).Contents (Elt F) → (⟨S1x128, .f32⟩ : BufTy).Contents (Elt F)),
    StableHlo.unary main_v355 main_v356 (broadcastInDim S50000x128 ![0, 1] bcast_S1x128_S50000x128_0_1 : (⟨S1x128, .f32⟩ : BufTy).Contents (Elt F) → (⟨S50000x128, .f32⟩ : BufTy).Contents (Elt F)),
    StableHlo.binary main_v354 main_v356 main_v357 (addf : (⟨S50000x128, .f32⟩ : BufTy).Contents (Elt F) → (⟨S50000x128, .f32⟩ : BufTy).Contents (Elt F) → (⟨S50000x128, .f32⟩ : BufTy).Contents (Elt F)),
    StableHlo.binary main_v314 main_v357 main_v358 (addf : (⟨S50000x128, .f32⟩ : BufTy).Contents (Elt F) → (⟨S50000x128, .f32⟩ : BufTy).Contents (Elt F) → (⟨S50000x128, .f32⟩ : BufTy).Contents (Elt F)),
    StableHlo.binary main_v358 main_v358 main_v359 (mulf : (⟨S50000x128, .f32⟩ : BufTy).Contents (Elt F) → (⟨S50000x128, .f32⟩ : BufTy).Contents (Elt F) → (⟨S50000x128, .f32⟩ : BufTy).Contents (Elt F)),
    StableHlo.nullary main_cst_81 (constant S_ .f32 0x00000000#32),
    StableHlo.binary main_v359 main_cst_81 main_v360 ((fun x v => Host.reduceAdd x v reducesTo_S50000x128_S50000_d1 h_S_) : (⟨S50000x128, .f32⟩ : BufTy).Contents (Elt F) → (⟨S_, .f32⟩ : BufTy).Contents (Elt F) → (⟨S50000, .f32⟩ : BufTy).Contents (Elt F)),
    StableHlo.unary main_v360 main_v361 (broadcastInDim S50000x1 ![0] bcast_S50000_S50000x1_0 : (⟨S50000, .f32⟩ : BufTy).Contents (Elt F) → (⟨S50000x1, .f32⟩ : BufTy).Contents (Elt F)),
    StableHlo.unary main_v361 main_v362 (Host.sqrt : (⟨S50000x1, .f32⟩ : BufTy).Contents (Elt F) → (⟨S50000x1, .f32⟩ : BufTy).Contents (Elt F)),
    StableHlo.nullary main_cst_82 (constant S_ .f32 0x2B8CBCCC#32),
    StableHlo.unary main_cst_82 main_v363 (broadcastInDim S50000x1 ![] bcast_S_S50000x1 : (⟨S_, .f32⟩ : BufTy).Contents (Elt F) → (⟨S50000x1, .f32⟩ : BufTy).Contents (Elt F)),
    StableHlo.binary main_v362 main_v363 main_v364 (maximumf : (⟨S50000x1, .f32⟩ : BufTy).Contents (Elt F) → (⟨S50000x1, .f32⟩ : BufTy).Contents (Elt F) → (⟨S50000x1, .f32⟩ : BufTy).Contents (Elt F)),
    StableHlo.unary main_v364 main_v365 (broadcastInDim S50000x128 ![0, 1] bcast_S50000x1_S50000x128_0_1 : (⟨S50000x1, .f32⟩ : BufTy).Contents (Elt F) → (⟨S50000x128, .f32⟩ : BufTy).Contents (Elt F)),
    StableHlo.binary main_v358 main_v365 main_v366 (Host.divf : (⟨S50000x128, .f32⟩ : BufTy).Contents (Elt F) → (⟨S50000x128, .f32⟩ : BufTy).Contents (Elt F) → (⟨S50000x128, .f32⟩ : BufTy).Contents (Elt F)),
    StableHlo.nullary main_cst_83 (constant S_ .f32 0x3C23D70A#32),
    StableHlo.TRef.nullary main_call1.cst (constant S_ .f32 0x00000000#32),
    StableHlo.TRef.unary main_call1.cst main_call1.v0 (broadcastInDim S50000x128 ![] bcast_S_S50000x128),
    StableHlo.TRef.binary (.of main_v366) main_call1.v0 main_call1.v1 (cmpf .oge),
    StableHlo.TRef.unary (.of main_cst_83) main_call1.v2 id,
    StableHlo.TRef.unary main_call1.v2 main_call1.v3 (broadcastInDim S50000x128 ![] bcast_S_S50000x128),
    StableHlo.TRef.binary main_call1.v3 (.of main_v366) main_call1.v4 mulf,
    StableHlo.TRef.ternary main_call1.v1 (.of main_v366) main_call1.v4 main_call1.call0.v0 select ]

/-- The references the operations of win7a write, in order. -/
abbrev win7a_W : List (Ref sig .tc) :=
  [ main_v340, main_c_78, main_v341, main_v342, main_v343, main_v344, main_v345, main_cst_79,
    main_v346, main_v347, main_v348, main_cst_80, main_v349, main_v350, main_v351, main_v352,
    main_v353, main_v354, main_v355, main_v356, main_v357, main_v358, main_v359, main_cst_81,
    main_v360, main_v361, main_v362, main_cst_82, main_v363, main_v364, main_v365, main_v366,
    main_cst_83, main_call1.cst.ref, main_call1.v0.ref, main_call1.v1.ref, main_call1.v2.ref, main_call1.v3.ref, main_call1.v4.ref, main_call1.call0.v0.ref ]

set_option maxHeartbeats 40000000 in
/-- @main's statements 421 … 480, part 2 of 2: 26 operations, in order (a call's are its body's at the call's operands and record). -/
abbrev win7b : List (HloOp τ sig (Elt F)) :=
  [ StableHlo.unary main_arg1 main_v368 ((extractStridedSlice S1x800000 ![0, 0] · slices_S4x800000_S1x800000_0_0) : (⟨S4x800000, .i32⟩ : BufTy).Contents (Elt F) → (⟨S1x800000, .i32⟩ : BufTy).Contents (Elt F)),
    StableHlo.reshape main_v368 main_v369 rfl shapeCasts_S1x800000_S800000,
    StableHlo.unary main_arg2 main_v370 ((extractStridedSlice S1x800000 ![0, 0] · slices_S4x800000_S1x800000_0_0) : (⟨S4x800000, .i32⟩ : BufTy).Contents (Elt F) → (⟨S1x800000, .i32⟩ : BufTy).Contents (Elt F)),
    StableHlo.reshape main_v370 main_v371 rfl shapeCasts_S1x800000_S800000,
    StableHlo.unary main_arg7 main_v372 ((extractStridedSlice S1x128x128 ![0, 0, 0] · slices_S4x128x128_S1x128x128_0_0_0) : (⟨S4x128x128, .f32⟩ : BufTy).Contents (Elt F) → (⟨S1x128x128, .f32⟩ : BufTy).Contents (Elt F)),
    StableHlo.reshape main_v372 main_v373 rfl shapeCasts_S1x128x128_S128x128,
    StableHlo.unary main_arg8 main_v374 ((extractStridedSlice S1x128 ![0, 0] · slices_S4x128_S1x128_0_0) : (⟨S4x128, .f32⟩ : BufTy).Contents (Elt F) → (⟨S1x128, .f32⟩ : BufTy).Contents (Elt F)),
    StableHlo.reshape main_v374 main_v375 rfl shapeCasts_S1x128_S128,
    StableHlo.nullary main_cst_84 (constant S_ .f32 0x3F800000#32),
    StableHlo.unary main_cst_84 main_v376 (broadcastInDim S800000 ![] bcast_S_S800000 : (⟨S_, .f32⟩ : BufTy).Contents (Elt F) → (⟨S800000, .f32⟩ : BufTy).Contents (Elt F)),
    StableHlo.nullary main_cst_85 (constant S_ .f32 0x00000000#32),
    StableHlo.unary main_cst_85 main_v377 (broadcastInDim S50000 ![] bcast_S_S50000 : (⟨S_, .f32⟩ : BufTy).Contents (Elt F) → (⟨S50000, .f32⟩ : BufTy).Contents (Elt F)),
    StableHlo.unary main_v369 main_v378 (broadcastInDim S800000x1 ![0] bcast_S800000_S800000x1_0 : (⟨S800000, .i32⟩ : BufTy).Contents (Elt F) → (⟨S800000x1, .i32⟩ : BufTy).Contents (Elt F)),
    StableHlo.ternary main_v377 main_v378 main_v376 main_v379 ((fun x i u => Host.scatterAdd scatter_S50000_S800000x1_S800000_n_0_0_1 x i u) : (⟨S50000, .f32⟩ : BufTy).Contents (Elt F) → (⟨S800000x1, .i32⟩ : BufTy).Contents (Elt F) → (⟨S800000, .f32⟩ : BufTy).Contents (Elt F) → (⟨S50000, .f32⟩ : BufTy).Contents (Elt F)),
    StableHlo.nullary main_cst_86 (constant S_ .f32 0x3F800000#32),
    StableHlo.unary main_cst_86 main_v380 (broadcastInDim S50000 ![] bcast_S_S50000 : (⟨S_, .f32⟩ : BufTy).Contents (Elt F) → (⟨S50000, .f32⟩ : BufTy).Contents (Elt F)),
    StableHlo.binary main_v379 main_v380 main_v381 (maximumf : (⟨S50000, .f32⟩ : BufTy).Contents (Elt F) → (⟨S50000, .f32⟩ : BufTy).Contents (Elt F) → (⟨S50000, .f32⟩ : BufTy).Contents (Elt F)),
    StableHlo.nullary main_cst_87 (constant S_ .f32 0x00000000#32),
    StableHlo.unary main_cst_87 main_v382 (broadcastInDim S50000 ![] bcast_S_S50000 : (⟨S_, .f32⟩ : BufTy).Contents (Elt F) → (⟨S50000, .f32⟩ : BufTy).Contents (Elt F)),
    StableHlo.unary main_v371 main_v383 (broadcastInDim S800000x1 ![0] bcast_S800000_S800000x1_0 : (⟨S800000, .i32⟩ : BufTy).Contents (Elt F) → (⟨S800000x1, .i32⟩ : BufTy).Contents (Elt F)),
    StableHlo.ternary main_v382 main_v383 main_v376 main_v384 ((fun x i u => Host.scatterAdd scatter_S50000_S800000x1_S800000_n_0_0_1 x i u) : (⟨S50000, .f32⟩ : BufTy).Contents (Elt F) → (⟨S800000x1, .i32⟩ : BufTy).Contents (Elt F) → (⟨S800000, .f32⟩ : BufTy).Contents (Elt F) → (⟨S50000, .f32⟩ : BufTy).Contents (Elt F)),
    StableHlo.nullary main_cst_88 (constant S_ .f32 0x3F800000#32),
    StableHlo.unary main_cst_88 main_v385 (broadcastInDim S50000 ![] bcast_S_S50000 : (⟨S_, .f32⟩ : BufTy).Contents (Elt F) → (⟨S50000, .f32⟩ : BufTy).Contents (Elt F)),
    StableHlo.binary main_v384 main_v385 main_v386 (maximumf : (⟨S50000, .f32⟩ : BufTy).Contents (Elt F) → (⟨S50000, .f32⟩ : BufTy).Contents (Elt F) → (⟨S50000, .f32⟩ : BufTy).Contents (Elt F)),
    StableHlo.nullary main_cst_89 (constant S_ .f32 0xBF000000#32),
    StableHlo.unary main_cst_89 main_v387 (broadcastInDim S50000 ![] bcast_S_S50000 : (⟨S_, .f32⟩ : BufTy).Contents (Elt F) → (⟨S50000, .f32⟩ : BufTy).Contents (Elt F)) ]

/-- The references the operations of win7b write, in order. -/
abbrev win7b_W : List (Ref sig .tc) :=
  [ main_v368, main_v369, main_v370, main_v371, main_v372, main_v373, main_v374, main_v375,
    main_cst_84, main_v376, main_cst_85, main_v377, main_v378, main_v379, main_cst_86, main_v380,
    main_v381, main_cst_87, main_v382, main_v383, main_v384, main_cst_88, main_v385, main_v386,
    main_cst_89, main_v387 ]

set_option maxHeartbeats 40000000 in
/-- @main's statements 481 … 540: 60 operations, in order (a call's are its body's at the call's operands and record). -/
abbrev win8 : List (HloOp τ sig (Elt F)) :=
  [ StableHlo.binary main_v381 main_v387 main_v388 (Host.powf : (⟨S50000, .f32⟩ : BufTy).Contents (Elt F) → (⟨S50000, .f32⟩ : BufTy).Contents (Elt F) → (⟨S50000, .f32⟩ : BufTy).Contents (Elt F)),
    StableHlo.unary main_v388 main_v389 (broadcastInDim S50000x1 ![0] bcast_S50000_S50000x1_0 : (⟨S50000, .f32⟩ : BufTy).Contents (Elt F) → (⟨S50000x1, .f32⟩ : BufTy).Contents (Elt F)),
    StableHlo.unary main_v389 main_v390 (broadcastInDim S50000x128 ![0, 1] bcast_S50000x1_S50000x128_0_1 : (⟨S50000x1, .f32⟩ : BufTy).Contents (Elt F) → (⟨S50000x128, .f32⟩ : BufTy).Contents (Elt F)),
    StableHlo.binary main_v367 main_v390 main_v391 (mulf : (⟨S50000x128, .f32⟩ : BufTy).Contents (Elt F) → (⟨S50000x128, .f32⟩ : BufTy).Contents (Elt F) → (⟨S50000x128, .f32⟩ : BufTy).Contents (Elt F)),
    StableHlo.nullary main_c_90 (constantI S_ 32 0#32),
    StableHlo.unary main_c_90 main_v392 (broadcastInDim S800000 ![] bcast_S_S800000 : (⟨S_, .i32⟩ : BufTy).Contents (Elt F) → (⟨S800000, .i32⟩ : BufTy).Contents (Elt F)),
    StableHlo.binary main_v369 main_v392 main_v393 (cmpi .slt : (⟨S800000, .i32⟩ : BufTy).Contents (Elt F) → (⟨S800000, .i32⟩ : BufTy).Contents (Elt F) → (⟨S800000, .i1⟩ : BufTy).Contents (Elt F)),
    StableHlo.nullary main_c_91 (constantI S_ 32 50000#32),
    StableHlo.unary main_c_91 main_v394 (broadcastInDim S800000 ![] bcast_S_S800000 : (⟨S_, .i32⟩ : BufTy).Contents (Elt F) → (⟨S800000, .i32⟩ : BufTy).Contents (Elt F)),
    StableHlo.binary main_v369 main_v394 main_v395 (addi : (⟨S800000, .i32⟩ : BufTy).Contents (Elt F) → (⟨S800000, .i32⟩ : BufTy).Contents (Elt F) → (⟨S800000, .i32⟩ : BufTy).Contents (Elt F)),
    StableHlo.ternary main_v393 main_v395 main_v369 main_v396 (select : (⟨S800000, .i1⟩ : BufTy).Contents (Elt F) → (⟨S800000, .i32⟩ : BufTy).Contents (Elt F) → (⟨S800000, .i32⟩ : BufTy).Contents (Elt F) → (⟨S800000, .i32⟩ : BufTy).Contents (Elt F)),
    StableHlo.unary main_v396 main_v397 (broadcastInDim S800000x1 ![0] bcast_S800000_S800000x1_0 : (⟨S800000, .i32⟩ : BufTy).Contents (Elt F) → (⟨S800000x1, .i32⟩ : BufTy).Contents (Elt F)),
    StableHlo.binary main_v391 main_v397 main_v398 ((fun x i => Host.gather gather_S50000x128_S800000x1_S800000x128_1_0_n_n_0_1_1128 x i) : (⟨S50000x128, .f32⟩ : BufTy).Contents (Elt F) → (⟨S800000x1, .i32⟩ : BufTy).Contents (Elt F) → (⟨S800000x128, .f32⟩ : BufTy).Contents (Elt F)),
    StableHlo.nullary main_cst_92 (constant S_ .f32 0x00000000#32),
    StableHlo.unary main_cst_92 main_v399 (broadcastInDim S50000x128 ![] bcast_S_S50000x128 : (⟨S_, .f32⟩ : BufTy).Contents (Elt F) → (⟨S50000x128, .f32⟩ : BufTy).Contents (Elt F)),
    StableHlo.unary main_v371 main_v400 (broadcastInDim S800000x1 ![0] bcast_S800000_S800000x1_0 : (⟨S800000, .i32⟩ : BufTy).Contents (Elt F) → (⟨S800000x1, .i32⟩ : BufTy).Contents (Elt F)),
    StableHlo.ternary main_v399 main_v400 main_v398 main_v401 ((fun x i u => Host.scatterAdd scatter_S50000x128_S800000x1_S800000x128_1_0_0_1 x i u) : (⟨S50000x128, .f32⟩ : BufTy).Contents (Elt F) → (⟨S800000x1, .i32⟩ : BufTy).Contents (Elt F) → (⟨S800000x128, .f32⟩ : BufTy).Contents (Elt F) → (⟨S50000x128, .f32⟩ : BufTy).Contents (Elt F)),
    StableHlo.nullary main_cst_93 (constant S_ .f32 0xBF000000#32),
    StableHlo.unary main_cst_93 main_v402 (broadcastInDim S50000 ![] bcast_S_S50000 : (⟨S_, .f32⟩ : BufTy).Contents (Elt F) → (⟨S50000, .f32⟩ : BufTy).Contents (Elt F)),
    StableHlo.binary main_v386 main_v402 main_v403 (Host.powf : (⟨S50000, .f32⟩ : BufTy).Contents (Elt F) → (⟨S50000, .f32⟩ : BufTy).Contents (Elt F) → (⟨S50000, .f32⟩ : BufTy).Contents (Elt F)),
    StableHlo.unary main_v403 main_v404 (broadcastInDim S50000x1 ![0] bcast_S50000_S50000x1_0 : (⟨S50000, .f32⟩ : BufTy).Contents (Elt F) → (⟨S50000x1, .f32⟩ : BufTy).Contents (Elt F)),
    StableHlo.unary main_v404 main_v405 (broadcastInDim S50000x128 ![0, 1] bcast_S50000x1_S50000x128_0_1 : (⟨S50000x1, .f32⟩ : BufTy).Contents (Elt F) → (⟨S50000x128, .f32⟩ : BufTy).Contents (Elt F)),
    StableHlo.binary main_v401 main_v405 main_v406 (mulf : (⟨S50000x128, .f32⟩ : BufTy).Contents (Elt F) → (⟨S50000x128, .f32⟩ : BufTy).Contents (Elt F) → (⟨S50000x128, .f32⟩ : BufTy).Contents (Elt F)),
    StableHlo.binary main_v406 main_v373 main_v407 ((fun l r => Host.dotGeneral dot_S50000x128_S128x128_S50000x128_1_0_0_1_n_n none l r) : (⟨S50000x128, .f32⟩ : BufTy).Contents (Elt F) → (⟨S128x128, .f32⟩ : BufTy).Contents (Elt F) → (⟨S50000x128, .f32⟩ : BufTy).Contents (Elt F)),
    StableHlo.unary main_v375 main_v408 (broadcastInDim S1x128 ![1] bcast_S128_S1x128_1 : (⟨S128, .f32⟩ : BufTy).Contents (Elt F) → (⟨S1x128, .f32⟩ : BufTy).Contents (Elt F)),
    StableHlo.unary main_v408 main_v409 (broadcastInDim S50000x128 ![0, 1] bcast_S1x128_S50000x128_0_1 : (⟨S1x128, .f32⟩ : BufTy).Contents (Elt F) → (⟨S50000x128, .f32⟩ : BufTy).Contents (Elt F)),
    StableHlo.binary main_v407 main_v409 main_v410 (addf : (⟨S50000x128, .f32⟩ : BufTy).Contents (Elt F) → (⟨S50000x128, .f32⟩ : BufTy).Contents (Elt F) → (⟨S50000x128, .f32⟩ : BufTy).Contents (Elt F)),
    StableHlo.unary main_arg1 main_v411 ((extractStridedSlice S1x800000 ![1, 0] · slices_S4x800000_S1x800000_1_0) : (⟨S4x800000, .i32⟩ : BufTy).Contents (Elt F) → (⟨S1x800000, .i32⟩ : BufTy).Contents (Elt F)),
    StableHlo.reshape main_v411 main_v412 rfl shapeCasts_S1x800000_S800000,
    StableHlo.unary main_arg2 main_v413 ((extractStridedSlice S1x800000 ![1, 0] · slices_S4x800000_S1x800000_1_0) : (⟨S4x800000, .i32⟩ : BufTy).Contents (Elt F) → (⟨S1x800000, .i32⟩ : BufTy).Contents (Elt F)),
    StableHlo.reshape main_v413 main_v414 rfl shapeCasts_S1x800000_S800000,
    StableHlo.unary main_arg7 main_v415 ((extractStridedSlice S1x128x128 ![1, 0, 0] · slices_S4x128x128_S1x128x128_1_0_0) : (⟨S4x128x128, .f32⟩ : BufTy).Contents (Elt F) → (⟨S1x128x128, .f32⟩ : BufTy).Contents (Elt F)),
    StableHlo.reshape main_v415 main_v416 rfl shapeCasts_S1x128x128_S128x128,
    StableHlo.unary main_arg8 main_v417 ((extractStridedSlice S1x128 ![1, 0] · slices_S4x128_S1x128_1_0) : (⟨S4x128, .f32⟩ : BufTy).Contents (Elt F) → (⟨S1x128, .f32⟩ : BufTy).Contents (Elt F)),
    StableHlo.reshape main_v417 main_v418 rfl shapeCasts_S1x128_S128,
    StableHlo.nullary main_cst_94 (constant S_ .f32 0x3F800000#32),
    StableHlo.unary main_cst_94 main_v419 (broadcastInDim S800000 ![] bcast_S_S800000 : (⟨S_, .f32⟩ : BufTy).Contents (Elt F) → (⟨S800000, .f32⟩ : BufTy).Contents (Elt F)),
    StableHlo.nullary main_cst_95 (constant S_ .f32 0x00000000#32),
    StableHlo.unary main_cst_95 main_v420 (broadcastInDim S50000 ![] bcast_S_S50000 : (⟨S_, .f32⟩ : BufTy).Contents (Elt F) → (⟨S50000, .f32⟩ : BufTy).Contents (Elt F)),
    StableHlo.unary main_v412 main_v421 (broadcastInDim S800000x1 ![0] bcast_S800000_S800000x1_0 : (⟨S800000, .i32⟩ : BufTy).Contents (Elt F) → (⟨S800000x1, .i32⟩ : BufTy).Contents (Elt F)),
    StableHlo.ternary main_v420 main_v421 main_v419 main_v422 ((fun x i u => Host.scatterAdd scatter_S50000_S800000x1_S800000_n_0_0_1 x i u) : (⟨S50000, .f32⟩ : BufTy).Contents (Elt F) → (⟨S800000x1, .i32⟩ : BufTy).Contents (Elt F) → (⟨S800000, .f32⟩ : BufTy).Contents (Elt F) → (⟨S50000, .f32⟩ : BufTy).Contents (Elt F)),
    StableHlo.nullary main_cst_96 (constant S_ .f32 0x3F800000#32),
    StableHlo.unary main_cst_96 main_v423 (broadcastInDim S50000 ![] bcast_S_S50000 : (⟨S_, .f32⟩ : BufTy).Contents (Elt F) → (⟨S50000, .f32⟩ : BufTy).Contents (Elt F)),
    StableHlo.binary main_v422 main_v423 main_v424 (maximumf : (⟨S50000, .f32⟩ : BufTy).Contents (Elt F) → (⟨S50000, .f32⟩ : BufTy).Contents (Elt F) → (⟨S50000, .f32⟩ : BufTy).Contents (Elt F)),
    StableHlo.nullary main_cst_97 (constant S_ .f32 0x00000000#32),
    StableHlo.unary main_cst_97 main_v425 (broadcastInDim S50000 ![] bcast_S_S50000 : (⟨S_, .f32⟩ : BufTy).Contents (Elt F) → (⟨S50000, .f32⟩ : BufTy).Contents (Elt F)),
    StableHlo.unary main_v414 main_v426 (broadcastInDim S800000x1 ![0] bcast_S800000_S800000x1_0 : (⟨S800000, .i32⟩ : BufTy).Contents (Elt F) → (⟨S800000x1, .i32⟩ : BufTy).Contents (Elt F)),
    StableHlo.ternary main_v425 main_v426 main_v419 main_v427 ((fun x i u => Host.scatterAdd scatter_S50000_S800000x1_S800000_n_0_0_1 x i u) : (⟨S50000, .f32⟩ : BufTy).Contents (Elt F) → (⟨S800000x1, .i32⟩ : BufTy).Contents (Elt F) → (⟨S800000, .f32⟩ : BufTy).Contents (Elt F) → (⟨S50000, .f32⟩ : BufTy).Contents (Elt F)),
    StableHlo.nullary main_cst_98 (constant S_ .f32 0x3F800000#32),
    StableHlo.unary main_cst_98 main_v428 (broadcastInDim S50000 ![] bcast_S_S50000 : (⟨S_, .f32⟩ : BufTy).Contents (Elt F) → (⟨S50000, .f32⟩ : BufTy).Contents (Elt F)),
    StableHlo.binary main_v427 main_v428 main_v429 (maximumf : (⟨S50000, .f32⟩ : BufTy).Contents (Elt F) → (⟨S50000, .f32⟩ : BufTy).Contents (Elt F) → (⟨S50000, .f32⟩ : BufTy).Contents (Elt F)),
    StableHlo.nullary main_cst_99 (constant S_ .f32 0xBF000000#32),
    StableHlo.unary main_cst_99 main_v430 (broadcastInDim S50000 ![] bcast_S_S50000 : (⟨S_, .f32⟩ : BufTy).Contents (Elt F) → (⟨S50000, .f32⟩ : BufTy).Contents (Elt F)),
    StableHlo.binary main_v424 main_v430 main_v431 (Host.powf : (⟨S50000, .f32⟩ : BufTy).Contents (Elt F) → (⟨S50000, .f32⟩ : BufTy).Contents (Elt F) → (⟨S50000, .f32⟩ : BufTy).Contents (Elt F)),
    StableHlo.unary main_v431 main_v432 (broadcastInDim S50000x1 ![0] bcast_S50000_S50000x1_0 : (⟨S50000, .f32⟩ : BufTy).Contents (Elt F) → (⟨S50000x1, .f32⟩ : BufTy).Contents (Elt F)),
    StableHlo.unary main_v432 main_v433 (broadcastInDim S50000x128 ![0, 1] bcast_S50000x1_S50000x128_0_1 : (⟨S50000x1, .f32⟩ : BufTy).Contents (Elt F) → (⟨S50000x128, .f32⟩ : BufTy).Contents (Elt F)),
    StableHlo.binary main_v367 main_v433 main_v434 (mulf : (⟨S50000x128, .f32⟩ : BufTy).Contents (Elt F) → (⟨S50000x128, .f32⟩ : BufTy).Contents (Elt F) → (⟨S50000x128, .f32⟩ : BufTy).Contents (Elt F)),
    StableHlo.nullary main_c_100 (constantI S_ 32 0#32),
    StableHlo.unary main_c_100 main_v435 (broadcastInDim S800000 ![] bcast_S_S800000 : (⟨S_, .i32⟩ : BufTy).Contents (Elt F) → (⟨S800000, .i32⟩ : BufTy).Contents (Elt F)),
    StableHlo.binary main_v412 main_v435 main_v436 (cmpi .slt : (⟨S800000, .i32⟩ : BufTy).Contents (Elt F) → (⟨S800000, .i32⟩ : BufTy).Contents (Elt F) → (⟨S800000, .i1⟩ : BufTy).Contents (Elt F)) ]

/-- The references the operations of win8 write, in order. -/
abbrev win8_W : List (Ref sig .tc) :=
  [ main_v388, main_v389, main_v390, main_v391, main_c_90, main_v392, main_v393, main_c_91,
    main_v394, main_v395, main_v396, main_v397, main_v398, main_cst_92, main_v399, main_v400,
    main_v401, main_cst_93, main_v402, main_v403, main_v404, main_v405, main_v406, main_v407,
    main_v408, main_v409, main_v410, main_v411, main_v412, main_v413, main_v414, main_v415,
    main_v416, main_v417, main_v418, main_cst_94, main_v419, main_cst_95, main_v420, main_v421,
    main_v422, main_cst_96, main_v423, main_v424, main_cst_97, main_v425, main_v426, main_v427,
    main_cst_98, main_v428, main_v429, main_cst_99, main_v430, main_v431, main_v432, main_v433,
    main_v434, main_c_100, main_v435, main_v436 ]

set_option maxHeartbeats 40000000 in
/-- @main's statements 541 … 600: 60 operations, in order (a call's are its body's at the call's operands and record). -/
abbrev win9 : List (HloOp τ sig (Elt F)) :=
  [ StableHlo.nullary main_c_101 (constantI S_ 32 50000#32),
    StableHlo.unary main_c_101 main_v437 (broadcastInDim S800000 ![] bcast_S_S800000 : (⟨S_, .i32⟩ : BufTy).Contents (Elt F) → (⟨S800000, .i32⟩ : BufTy).Contents (Elt F)),
    StableHlo.binary main_v412 main_v437 main_v438 (addi : (⟨S800000, .i32⟩ : BufTy).Contents (Elt F) → (⟨S800000, .i32⟩ : BufTy).Contents (Elt F) → (⟨S800000, .i32⟩ : BufTy).Contents (Elt F)),
    StableHlo.ternary main_v436 main_v438 main_v412 main_v439 (select : (⟨S800000, .i1⟩ : BufTy).Contents (Elt F) → (⟨S800000, .i32⟩ : BufTy).Contents (Elt F) → (⟨S800000, .i32⟩ : BufTy).Contents (Elt F) → (⟨S800000, .i32⟩ : BufTy).Contents (Elt F)),
    StableHlo.unary main_v439 main_v440 (broadcastInDim S800000x1 ![0] bcast_S800000_S800000x1_0 : (⟨S800000, .i32⟩ : BufTy).Contents (Elt F) → (⟨S800000x1, .i32⟩ : BufTy).Contents (Elt F)),
    StableHlo.binary main_v434 main_v440 main_v441 ((fun x i => Host.gather gather_S50000x128_S800000x1_S800000x128_1_0_n_n_0_1_1128 x i) : (⟨S50000x128, .f32⟩ : BufTy).Contents (Elt F) → (⟨S800000x1, .i32⟩ : BufTy).Contents (Elt F) → (⟨S800000x128, .f32⟩ : BufTy).Contents (Elt F)),
    StableHlo.nullary main_cst_102 (constant S_ .f32 0x00000000#32),
    StableHlo.unary main_cst_102 main_v442 (broadcastInDim S50000x128 ![] bcast_S_S50000x128 : (⟨S_, .f32⟩ : BufTy).Contents (Elt F) → (⟨S50000x128, .f32⟩ : BufTy).Contents (Elt F)),
    StableHlo.unary main_v414 main_v443 (broadcastInDim S800000x1 ![0] bcast_S800000_S800000x1_0 : (⟨S800000, .i32⟩ : BufTy).Contents (Elt F) → (⟨S800000x1, .i32⟩ : BufTy).Contents (Elt F)),
    StableHlo.ternary main_v442 main_v443 main_v441 main_v444 ((fun x i u => Host.scatterAdd scatter_S50000x128_S800000x1_S800000x128_1_0_0_1 x i u) : (⟨S50000x128, .f32⟩ : BufTy).Contents (Elt F) → (⟨S800000x1, .i32⟩ : BufTy).Contents (Elt F) → (⟨S800000x128, .f32⟩ : BufTy).Contents (Elt F) → (⟨S50000x128, .f32⟩ : BufTy).Contents (Elt F)),
    StableHlo.nullary main_cst_103 (constant S_ .f32 0xBF000000#32),
    StableHlo.unary main_cst_103 main_v445 (broadcastInDim S50000 ![] bcast_S_S50000 : (⟨S_, .f32⟩ : BufTy).Contents (Elt F) → (⟨S50000, .f32⟩ : BufTy).Contents (Elt F)),
    StableHlo.binary main_v429 main_v445 main_v446 (Host.powf : (⟨S50000, .f32⟩ : BufTy).Contents (Elt F) → (⟨S50000, .f32⟩ : BufTy).Contents (Elt F) → (⟨S50000, .f32⟩ : BufTy).Contents (Elt F)),
    StableHlo.unary main_v446 main_v447 (broadcastInDim S50000x1 ![0] bcast_S50000_S50000x1_0 : (⟨S50000, .f32⟩ : BufTy).Contents (Elt F) → (⟨S50000x1, .f32⟩ : BufTy).Contents (Elt F)),
    StableHlo.unary main_v447 main_v448 (broadcastInDim S50000x128 ![0, 1] bcast_S50000x1_S50000x128_0_1 : (⟨S50000x1, .f32⟩ : BufTy).Contents (Elt F) → (⟨S50000x128, .f32⟩ : BufTy).Contents (Elt F)),
    StableHlo.binary main_v444 main_v448 main_v449 (mulf : (⟨S50000x128, .f32⟩ : BufTy).Contents (Elt F) → (⟨S50000x128, .f32⟩ : BufTy).Contents (Elt F) → (⟨S50000x128, .f32⟩ : BufTy).Contents (Elt F)),
    StableHlo.binary main_v449 main_v416 main_v450 ((fun l r => Host.dotGeneral dot_S50000x128_S128x128_S50000x128_1_0_0_1_n_n none l r) : (⟨S50000x128, .f32⟩ : BufTy).Contents (Elt F) → (⟨S128x128, .f32⟩ : BufTy).Contents (Elt F) → (⟨S50000x128, .f32⟩ : BufTy).Contents (Elt F)),
    StableHlo.unary main_v418 main_v451 (broadcastInDim S1x128 ![1] bcast_S128_S1x128_1 : (⟨S128, .f32⟩ : BufTy).Contents (Elt F) → (⟨S1x128, .f32⟩ : BufTy).Contents (Elt F)),
    StableHlo.unary main_v451 main_v452 (broadcastInDim S50000x128 ![0, 1] bcast_S1x128_S50000x128_0_1 : (⟨S1x128, .f32⟩ : BufTy).Contents (Elt F) → (⟨S50000x128, .f32⟩ : BufTy).Contents (Elt F)),
    StableHlo.binary main_v450 main_v452 main_v453 (addf : (⟨S50000x128, .f32⟩ : BufTy).Contents (Elt F) → (⟨S50000x128, .f32⟩ : BufTy).Contents (Elt F) → (⟨S50000x128, .f32⟩ : BufTy).Contents (Elt F)),
    StableHlo.binary main_v410 main_v453 main_v454 (addf : (⟨S50000x128, .f32⟩ : BufTy).Contents (Elt F) → (⟨S50000x128, .f32⟩ : BufTy).Contents (Elt F) → (⟨S50000x128, .f32⟩ : BufTy).Contents (Elt F)),
    StableHlo.unary main_arg1 main_v455 ((extractStridedSlice S1x800000 ![2, 0] · slices_S4x800000_S1x800000_2_0) : (⟨S4x800000, .i32⟩ : BufTy).Contents (Elt F) → (⟨S1x800000, .i32⟩ : BufTy).Contents (Elt F)),
    StableHlo.reshape main_v455 main_v456 rfl shapeCasts_S1x800000_S800000,
    StableHlo.unary main_arg2 main_v457 ((extractStridedSlice S1x800000 ![2, 0] · slices_S4x800000_S1x800000_2_0) : (⟨S4x800000, .i32⟩ : BufTy).Contents (Elt F) → (⟨S1x800000, .i32⟩ : BufTy).Contents (Elt F)),
    StableHlo.reshape main_v457 main_v458 rfl shapeCasts_S1x800000_S800000,
    StableHlo.unary main_arg7 main_v459 ((extractStridedSlice S1x128x128 ![2, 0, 0] · slices_S4x128x128_S1x128x128_2_0_0) : (⟨S4x128x128, .f32⟩ : BufTy).Contents (Elt F) → (⟨S1x128x128, .f32⟩ : BufTy).Contents (Elt F)),
    StableHlo.reshape main_v459 main_v460 rfl shapeCasts_S1x128x128_S128x128,
    StableHlo.unary main_arg8 main_v461 ((extractStridedSlice S1x128 ![2, 0] · slices_S4x128_S1x128_2_0) : (⟨S4x128, .f32⟩ : BufTy).Contents (Elt F) → (⟨S1x128, .f32⟩ : BufTy).Contents (Elt F)),
    StableHlo.reshape main_v461 main_v462 rfl shapeCasts_S1x128_S128,
    StableHlo.nullary main_cst_104 (constant S_ .f32 0x3F800000#32),
    StableHlo.unary main_cst_104 main_v463 (broadcastInDim S800000 ![] bcast_S_S800000 : (⟨S_, .f32⟩ : BufTy).Contents (Elt F) → (⟨S800000, .f32⟩ : BufTy).Contents (Elt F)),
    StableHlo.nullary main_cst_105 (constant S_ .f32 0x00000000#32),
    StableHlo.unary main_cst_105 main_v464 (broadcastInDim S50000 ![] bcast_S_S50000 : (⟨S_, .f32⟩ : BufTy).Contents (Elt F) → (⟨S50000, .f32⟩ : BufTy).Contents (Elt F)),
    StableHlo.unary main_v456 main_v465 (broadcastInDim S800000x1 ![0] bcast_S800000_S800000x1_0 : (⟨S800000, .i32⟩ : BufTy).Contents (Elt F) → (⟨S800000x1, .i32⟩ : BufTy).Contents (Elt F)),
    StableHlo.ternary main_v464 main_v465 main_v463 main_v466 ((fun x i u => Host.scatterAdd scatter_S50000_S800000x1_S800000_n_0_0_1 x i u) : (⟨S50000, .f32⟩ : BufTy).Contents (Elt F) → (⟨S800000x1, .i32⟩ : BufTy).Contents (Elt F) → (⟨S800000, .f32⟩ : BufTy).Contents (Elt F) → (⟨S50000, .f32⟩ : BufTy).Contents (Elt F)),
    StableHlo.nullary main_cst_106 (constant S_ .f32 0x3F800000#32),
    StableHlo.unary main_cst_106 main_v467 (broadcastInDim S50000 ![] bcast_S_S50000 : (⟨S_, .f32⟩ : BufTy).Contents (Elt F) → (⟨S50000, .f32⟩ : BufTy).Contents (Elt F)),
    StableHlo.binary main_v466 main_v467 main_v468 (maximumf : (⟨S50000, .f32⟩ : BufTy).Contents (Elt F) → (⟨S50000, .f32⟩ : BufTy).Contents (Elt F) → (⟨S50000, .f32⟩ : BufTy).Contents (Elt F)),
    StableHlo.nullary main_cst_107 (constant S_ .f32 0x00000000#32),
    StableHlo.unary main_cst_107 main_v469 (broadcastInDim S50000 ![] bcast_S_S50000 : (⟨S_, .f32⟩ : BufTy).Contents (Elt F) → (⟨S50000, .f32⟩ : BufTy).Contents (Elt F)),
    StableHlo.unary main_v458 main_v470 (broadcastInDim S800000x1 ![0] bcast_S800000_S800000x1_0 : (⟨S800000, .i32⟩ : BufTy).Contents (Elt F) → (⟨S800000x1, .i32⟩ : BufTy).Contents (Elt F)),
    StableHlo.ternary main_v469 main_v470 main_v463 main_v471 ((fun x i u => Host.scatterAdd scatter_S50000_S800000x1_S800000_n_0_0_1 x i u) : (⟨S50000, .f32⟩ : BufTy).Contents (Elt F) → (⟨S800000x1, .i32⟩ : BufTy).Contents (Elt F) → (⟨S800000, .f32⟩ : BufTy).Contents (Elt F) → (⟨S50000, .f32⟩ : BufTy).Contents (Elt F)),
    StableHlo.nullary main_cst_108 (constant S_ .f32 0x3F800000#32),
    StableHlo.unary main_cst_108 main_v472 (broadcastInDim S50000 ![] bcast_S_S50000 : (⟨S_, .f32⟩ : BufTy).Contents (Elt F) → (⟨S50000, .f32⟩ : BufTy).Contents (Elt F)),
    StableHlo.binary main_v471 main_v472 main_v473 (maximumf : (⟨S50000, .f32⟩ : BufTy).Contents (Elt F) → (⟨S50000, .f32⟩ : BufTy).Contents (Elt F) → (⟨S50000, .f32⟩ : BufTy).Contents (Elt F)),
    StableHlo.nullary main_cst_109 (constant S_ .f32 0xBF000000#32),
    StableHlo.unary main_cst_109 main_v474 (broadcastInDim S50000 ![] bcast_S_S50000 : (⟨S_, .f32⟩ : BufTy).Contents (Elt F) → (⟨S50000, .f32⟩ : BufTy).Contents (Elt F)),
    StableHlo.binary main_v468 main_v474 main_v475 (Host.powf : (⟨S50000, .f32⟩ : BufTy).Contents (Elt F) → (⟨S50000, .f32⟩ : BufTy).Contents (Elt F) → (⟨S50000, .f32⟩ : BufTy).Contents (Elt F)),
    StableHlo.unary main_v475 main_v476 (broadcastInDim S50000x1 ![0] bcast_S50000_S50000x1_0 : (⟨S50000, .f32⟩ : BufTy).Contents (Elt F) → (⟨S50000x1, .f32⟩ : BufTy).Contents (Elt F)),
    StableHlo.unary main_v476 main_v477 (broadcastInDim S50000x128 ![0, 1] bcast_S50000x1_S50000x128_0_1 : (⟨S50000x1, .f32⟩ : BufTy).Contents (Elt F) → (⟨S50000x128, .f32⟩ : BufTy).Contents (Elt F)),
    StableHlo.binary main_v367 main_v477 main_v478 (mulf : (⟨S50000x128, .f32⟩ : BufTy).Contents (Elt F) → (⟨S50000x128, .f32⟩ : BufTy).Contents (Elt F) → (⟨S50000x128, .f32⟩ : BufTy).Contents (Elt F)),
    StableHlo.nullary main_c_110 (constantI S_ 32 0#32),
    StableHlo.unary main_c_110 main_v479 (broadcastInDim S800000 ![] bcast_S_S800000 : (⟨S_, .i32⟩ : BufTy).Contents (Elt F) → (⟨S800000, .i32⟩ : BufTy).Contents (Elt F)),
    StableHlo.binary main_v456 main_v479 main_v480 (cmpi .slt : (⟨S800000, .i32⟩ : BufTy).Contents (Elt F) → (⟨S800000, .i32⟩ : BufTy).Contents (Elt F) → (⟨S800000, .i1⟩ : BufTy).Contents (Elt F)),
    StableHlo.nullary main_c_111 (constantI S_ 32 50000#32),
    StableHlo.unary main_c_111 main_v481 (broadcastInDim S800000 ![] bcast_S_S800000 : (⟨S_, .i32⟩ : BufTy).Contents (Elt F) → (⟨S800000, .i32⟩ : BufTy).Contents (Elt F)),
    StableHlo.binary main_v456 main_v481 main_v482 (addi : (⟨S800000, .i32⟩ : BufTy).Contents (Elt F) → (⟨S800000, .i32⟩ : BufTy).Contents (Elt F) → (⟨S800000, .i32⟩ : BufTy).Contents (Elt F)),
    StableHlo.ternary main_v480 main_v482 main_v456 main_v483 (select : (⟨S800000, .i1⟩ : BufTy).Contents (Elt F) → (⟨S800000, .i32⟩ : BufTy).Contents (Elt F) → (⟨S800000, .i32⟩ : BufTy).Contents (Elt F) → (⟨S800000, .i32⟩ : BufTy).Contents (Elt F)),
    StableHlo.unary main_v483 main_v484 (broadcastInDim S800000x1 ![0] bcast_S800000_S800000x1_0 : (⟨S800000, .i32⟩ : BufTy).Contents (Elt F) → (⟨S800000x1, .i32⟩ : BufTy).Contents (Elt F)),
    StableHlo.binary main_v478 main_v484 main_v485 ((fun x i => Host.gather gather_S50000x128_S800000x1_S800000x128_1_0_n_n_0_1_1128 x i) : (⟨S50000x128, .f32⟩ : BufTy).Contents (Elt F) → (⟨S800000x1, .i32⟩ : BufTy).Contents (Elt F) → (⟨S800000x128, .f32⟩ : BufTy).Contents (Elt F)) ]

/-- The references the operations of win9 write, in order. -/
abbrev win9_W : List (Ref sig .tc) :=
  [ main_c_101, main_v437, main_v438, main_v439, main_v440, main_v441, main_cst_102, main_v442,
    main_v443, main_v444, main_cst_103, main_v445, main_v446, main_v447, main_v448, main_v449,
    main_v450, main_v451, main_v452, main_v453, main_v454, main_v455, main_v456, main_v457,
    main_v458, main_v459, main_v460, main_v461, main_v462, main_cst_104, main_v463, main_cst_105,
    main_v464, main_v465, main_v466, main_cst_106, main_v467, main_v468, main_cst_107, main_v469,
    main_v470, main_v471, main_cst_108, main_v472, main_v473, main_cst_109, main_v474, main_v475,
    main_v476, main_v477, main_v478, main_c_110, main_v479, main_v480, main_c_111, main_v481,
    main_v482, main_v483, main_v484, main_v485 ]

set_option maxHeartbeats 40000000 in
/-- @main's statements 601 … 660: 60 operations, in order (a call's are its body's at the call's operands and record). -/
abbrev win10 : List (HloOp τ sig (Elt F)) :=
  [ StableHlo.nullary main_cst_112 (constant S_ .f32 0x00000000#32),
    StableHlo.unary main_cst_112 main_v486 (broadcastInDim S50000x128 ![] bcast_S_S50000x128 : (⟨S_, .f32⟩ : BufTy).Contents (Elt F) → (⟨S50000x128, .f32⟩ : BufTy).Contents (Elt F)),
    StableHlo.unary main_v458 main_v487 (broadcastInDim S800000x1 ![0] bcast_S800000_S800000x1_0 : (⟨S800000, .i32⟩ : BufTy).Contents (Elt F) → (⟨S800000x1, .i32⟩ : BufTy).Contents (Elt F)),
    StableHlo.ternary main_v486 main_v487 main_v485 main_v488 ((fun x i u => Host.scatterAdd scatter_S50000x128_S800000x1_S800000x128_1_0_0_1 x i u) : (⟨S50000x128, .f32⟩ : BufTy).Contents (Elt F) → (⟨S800000x1, .i32⟩ : BufTy).Contents (Elt F) → (⟨S800000x128, .f32⟩ : BufTy).Contents (Elt F) → (⟨S50000x128, .f32⟩ : BufTy).Contents (Elt F)),
    StableHlo.nullary main_cst_113 (constant S_ .f32 0xBF000000#32),
    StableHlo.unary main_cst_113 main_v489 (broadcastInDim S50000 ![] bcast_S_S50000 : (⟨S_, .f32⟩ : BufTy).Contents (Elt F) → (⟨S50000, .f32⟩ : BufTy).Contents (Elt F)),
    StableHlo.binary main_v473 main_v489 main_v490 (Host.powf : (⟨S50000, .f32⟩ : BufTy).Contents (Elt F) → (⟨S50000, .f32⟩ : BufTy).Contents (Elt F) → (⟨S50000, .f32⟩ : BufTy).Contents (Elt F)),
    StableHlo.unary main_v490 main_v491 (broadcastInDim S50000x1 ![0] bcast_S50000_S50000x1_0 : (⟨S50000, .f32⟩ : BufTy).Contents (Elt F) → (⟨S50000x1, .f32⟩ : BufTy).Contents (Elt F)),
    StableHlo.unary main_v491 main_v492 (broadcastInDim S50000x128 ![0, 1] bcast_S50000x1_S50000x128_0_1 : (⟨S50000x1, .f32⟩ : BufTy).Contents (Elt F) → (⟨S50000x128, .f32⟩ : BufTy).Contents (Elt F)),
    StableHlo.binary main_v488 main_v492 main_v493 (mulf : (⟨S50000x128, .f32⟩ : BufTy).Contents (Elt F) → (⟨S50000x128, .f32⟩ : BufTy).Contents (Elt F) → (⟨S50000x128, .f32⟩ : BufTy).Contents (Elt F)),
    StableHlo.binary main_v493 main_v460 main_v494 ((fun l r => Host.dotGeneral dot_S50000x128_S128x128_S50000x128_1_0_0_1_n_n none l r) : (⟨S50000x128, .f32⟩ : BufTy).Contents (Elt F) → (⟨S128x128, .f32⟩ : BufTy).Contents (Elt F) → (⟨S50000x128, .f32⟩ : BufTy).Contents (Elt F)),
    StableHlo.unary main_v462 main_v495 (broadcastInDim S1x128 ![1] bcast_S128_S1x128_1 : (⟨S128, .f32⟩ : BufTy).Contents (Elt F) → (⟨S1x128, .f32⟩ : BufTy).Contents (Elt F)),
    StableHlo.unary main_v495 main_v496 (broadcastInDim S50000x128 ![0, 1] bcast_S1x128_S50000x128_0_1 : (⟨S1x128, .f32⟩ : BufTy).Contents (Elt F) → (⟨S50000x128, .f32⟩ : BufTy).Contents (Elt F)),
    StableHlo.binary main_v494 main_v496 main_v497 (addf : (⟨S50000x128, .f32⟩ : BufTy).Contents (Elt F) → (⟨S50000x128, .f32⟩ : BufTy).Contents (Elt F) → (⟨S50000x128, .f32⟩ : BufTy).Contents (Elt F)),
    StableHlo.binary main_v454 main_v497 main_v498 (addf : (⟨S50000x128, .f32⟩ : BufTy).Contents (Elt F) → (⟨S50000x128, .f32⟩ : BufTy).Contents (Elt F) → (⟨S50000x128, .f32⟩ : BufTy).Contents (Elt F)),
    StableHlo.unary main_arg1 main_v499 ((extractStridedSlice S1x800000 ![3, 0] · slices_S4x800000_S1x800000_3_0) : (⟨S4x800000, .i32⟩ : BufTy).Contents (Elt F) → (⟨S1x800000, .i32⟩ : BufTy).Contents (Elt F)),
    StableHlo.reshape main_v499 main_v500 rfl shapeCasts_S1x800000_S800000,
    StableHlo.unary main_arg2 main_v501 ((extractStridedSlice S1x800000 ![3, 0] · slices_S4x800000_S1x800000_3_0) : (⟨S4x800000, .i32⟩ : BufTy).Contents (Elt F) → (⟨S1x800000, .i32⟩ : BufTy).Contents (Elt F)),
    StableHlo.reshape main_v501 main_v502 rfl shapeCasts_S1x800000_S800000,
    StableHlo.unary main_arg7 main_v503 ((extractStridedSlice S1x128x128 ![3, 0, 0] · slices_S4x128x128_S1x128x128_3_0_0) : (⟨S4x128x128, .f32⟩ : BufTy).Contents (Elt F) → (⟨S1x128x128, .f32⟩ : BufTy).Contents (Elt F)),
    StableHlo.reshape main_v503 main_v504 rfl shapeCasts_S1x128x128_S128x128,
    StableHlo.unary main_arg8 main_v505 ((extractStridedSlice S1x128 ![3, 0] · slices_S4x128_S1x128_3_0) : (⟨S4x128, .f32⟩ : BufTy).Contents (Elt F) → (⟨S1x128, .f32⟩ : BufTy).Contents (Elt F)),
    StableHlo.reshape main_v505 main_v506 rfl shapeCasts_S1x128_S128,
    StableHlo.nullary main_cst_114 (constant S_ .f32 0x3F800000#32),
    StableHlo.unary main_cst_114 main_v507 (broadcastInDim S800000 ![] bcast_S_S800000 : (⟨S_, .f32⟩ : BufTy).Contents (Elt F) → (⟨S800000, .f32⟩ : BufTy).Contents (Elt F)),
    StableHlo.nullary main_cst_115 (constant S_ .f32 0x00000000#32),
    StableHlo.unary main_cst_115 main_v508 (broadcastInDim S50000 ![] bcast_S_S50000 : (⟨S_, .f32⟩ : BufTy).Contents (Elt F) → (⟨S50000, .f32⟩ : BufTy).Contents (Elt F)),
    StableHlo.unary main_v500 main_v509 (broadcastInDim S800000x1 ![0] bcast_S800000_S800000x1_0 : (⟨S800000, .i32⟩ : BufTy).Contents (Elt F) → (⟨S800000x1, .i32⟩ : BufTy).Contents (Elt F)),
    StableHlo.ternary main_v508 main_v509 main_v507 main_v510 ((fun x i u => Host.scatterAdd scatter_S50000_S800000x1_S800000_n_0_0_1 x i u) : (⟨S50000, .f32⟩ : BufTy).Contents (Elt F) → (⟨S800000x1, .i32⟩ : BufTy).Contents (Elt F) → (⟨S800000, .f32⟩ : BufTy).Contents (Elt F) → (⟨S50000, .f32⟩ : BufTy).Contents (Elt F)),
    StableHlo.nullary main_cst_116 (constant S_ .f32 0x3F800000#32),
    StableHlo.unary main_cst_116 main_v511 (broadcastInDim S50000 ![] bcast_S_S50000 : (⟨S_, .f32⟩ : BufTy).Contents (Elt F) → (⟨S50000, .f32⟩ : BufTy).Contents (Elt F)),
    StableHlo.binary main_v510 main_v511 main_v512 (maximumf : (⟨S50000, .f32⟩ : BufTy).Contents (Elt F) → (⟨S50000, .f32⟩ : BufTy).Contents (Elt F) → (⟨S50000, .f32⟩ : BufTy).Contents (Elt F)),
    StableHlo.nullary main_cst_117 (constant S_ .f32 0x00000000#32),
    StableHlo.unary main_cst_117 main_v513 (broadcastInDim S50000 ![] bcast_S_S50000 : (⟨S_, .f32⟩ : BufTy).Contents (Elt F) → (⟨S50000, .f32⟩ : BufTy).Contents (Elt F)),
    StableHlo.unary main_v502 main_v514 (broadcastInDim S800000x1 ![0] bcast_S800000_S800000x1_0 : (⟨S800000, .i32⟩ : BufTy).Contents (Elt F) → (⟨S800000x1, .i32⟩ : BufTy).Contents (Elt F)),
    StableHlo.ternary main_v513 main_v514 main_v507 main_v515 ((fun x i u => Host.scatterAdd scatter_S50000_S800000x1_S800000_n_0_0_1 x i u) : (⟨S50000, .f32⟩ : BufTy).Contents (Elt F) → (⟨S800000x1, .i32⟩ : BufTy).Contents (Elt F) → (⟨S800000, .f32⟩ : BufTy).Contents (Elt F) → (⟨S50000, .f32⟩ : BufTy).Contents (Elt F)),
    StableHlo.nullary main_cst_118 (constant S_ .f32 0x3F800000#32),
    StableHlo.unary main_cst_118 main_v516 (broadcastInDim S50000 ![] bcast_S_S50000 : (⟨S_, .f32⟩ : BufTy).Contents (Elt F) → (⟨S50000, .f32⟩ : BufTy).Contents (Elt F)),
    StableHlo.binary main_v515 main_v516 main_v517 (maximumf : (⟨S50000, .f32⟩ : BufTy).Contents (Elt F) → (⟨S50000, .f32⟩ : BufTy).Contents (Elt F) → (⟨S50000, .f32⟩ : BufTy).Contents (Elt F)),
    StableHlo.nullary main_cst_119 (constant S_ .f32 0xBF000000#32),
    StableHlo.unary main_cst_119 main_v518 (broadcastInDim S50000 ![] bcast_S_S50000 : (⟨S_, .f32⟩ : BufTy).Contents (Elt F) → (⟨S50000, .f32⟩ : BufTy).Contents (Elt F)),
    StableHlo.binary main_v512 main_v518 main_v519 (Host.powf : (⟨S50000, .f32⟩ : BufTy).Contents (Elt F) → (⟨S50000, .f32⟩ : BufTy).Contents (Elt F) → (⟨S50000, .f32⟩ : BufTy).Contents (Elt F)),
    StableHlo.unary main_v519 main_v520 (broadcastInDim S50000x1 ![0] bcast_S50000_S50000x1_0 : (⟨S50000, .f32⟩ : BufTy).Contents (Elt F) → (⟨S50000x1, .f32⟩ : BufTy).Contents (Elt F)),
    StableHlo.unary main_v520 main_v521 (broadcastInDim S50000x128 ![0, 1] bcast_S50000x1_S50000x128_0_1 : (⟨S50000x1, .f32⟩ : BufTy).Contents (Elt F) → (⟨S50000x128, .f32⟩ : BufTy).Contents (Elt F)),
    StableHlo.binary main_v367 main_v521 main_v522 (mulf : (⟨S50000x128, .f32⟩ : BufTy).Contents (Elt F) → (⟨S50000x128, .f32⟩ : BufTy).Contents (Elt F) → (⟨S50000x128, .f32⟩ : BufTy).Contents (Elt F)),
    StableHlo.nullary main_c_120 (constantI S_ 32 0#32),
    StableHlo.unary main_c_120 main_v523 (broadcastInDim S800000 ![] bcast_S_S800000 : (⟨S_, .i32⟩ : BufTy).Contents (Elt F) → (⟨S800000, .i32⟩ : BufTy).Contents (Elt F)),
    StableHlo.binary main_v500 main_v523 main_v524 (cmpi .slt : (⟨S800000, .i32⟩ : BufTy).Contents (Elt F) → (⟨S800000, .i32⟩ : BufTy).Contents (Elt F) → (⟨S800000, .i1⟩ : BufTy).Contents (Elt F)),
    StableHlo.nullary main_c_121 (constantI S_ 32 50000#32),
    StableHlo.unary main_c_121 main_v525 (broadcastInDim S800000 ![] bcast_S_S800000 : (⟨S_, .i32⟩ : BufTy).Contents (Elt F) → (⟨S800000, .i32⟩ : BufTy).Contents (Elt F)),
    StableHlo.binary main_v500 main_v525 main_v526 (addi : (⟨S800000, .i32⟩ : BufTy).Contents (Elt F) → (⟨S800000, .i32⟩ : BufTy).Contents (Elt F) → (⟨S800000, .i32⟩ : BufTy).Contents (Elt F)),
    StableHlo.ternary main_v524 main_v526 main_v500 main_v527 (select : (⟨S800000, .i1⟩ : BufTy).Contents (Elt F) → (⟨S800000, .i32⟩ : BufTy).Contents (Elt F) → (⟨S800000, .i32⟩ : BufTy).Contents (Elt F) → (⟨S800000, .i32⟩ : BufTy).Contents (Elt F)),
    StableHlo.unary main_v527 main_v528 (broadcastInDim S800000x1 ![0] bcast_S800000_S800000x1_0 : (⟨S800000, .i32⟩ : BufTy).Contents (Elt F) → (⟨S800000x1, .i32⟩ : BufTy).Contents (Elt F)),
    StableHlo.binary main_v522 main_v528 main_v529 ((fun x i => Host.gather gather_S50000x128_S800000x1_S800000x128_1_0_n_n_0_1_1128 x i) : (⟨S50000x128, .f32⟩ : BufTy).Contents (Elt F) → (⟨S800000x1, .i32⟩ : BufTy).Contents (Elt F) → (⟨S800000x128, .f32⟩ : BufTy).Contents (Elt F)),
    StableHlo.nullary main_cst_122 (constant S_ .f32 0x00000000#32),
    StableHlo.unary main_cst_122 main_v530 (broadcastInDim S50000x128 ![] bcast_S_S50000x128 : (⟨S_, .f32⟩ : BufTy).Contents (Elt F) → (⟨S50000x128, .f32⟩ : BufTy).Contents (Elt F)),
    StableHlo.unary main_v502 main_v531 (broadcastInDim S800000x1 ![0] bcast_S800000_S800000x1_0 : (⟨S800000, .i32⟩ : BufTy).Contents (Elt F) → (⟨S800000x1, .i32⟩ : BufTy).Contents (Elt F)),
    StableHlo.ternary main_v530 main_v531 main_v529 main_v532 ((fun x i u => Host.scatterAdd scatter_S50000x128_S800000x1_S800000x128_1_0_0_1 x i u) : (⟨S50000x128, .f32⟩ : BufTy).Contents (Elt F) → (⟨S800000x1, .i32⟩ : BufTy).Contents (Elt F) → (⟨S800000x128, .f32⟩ : BufTy).Contents (Elt F) → (⟨S50000x128, .f32⟩ : BufTy).Contents (Elt F)),
    StableHlo.nullary main_cst_123 (constant S_ .f32 0xBF000000#32),
    StableHlo.unary main_cst_123 main_v533 (broadcastInDim S50000 ![] bcast_S_S50000 : (⟨S_, .f32⟩ : BufTy).Contents (Elt F) → (⟨S50000, .f32⟩ : BufTy).Contents (Elt F)) ]

/-- The references the operations of win10 write, in order. -/
abbrev win10_W : List (Ref sig .tc) :=
  [ main_cst_112, main_v486, main_v487, main_v488, main_cst_113, main_v489, main_v490, main_v491,
    main_v492, main_v493, main_v494, main_v495, main_v496, main_v497, main_v498, main_v499,
    main_v500, main_v501, main_v502, main_v503, main_v504, main_v505, main_v506, main_cst_114,
    main_v507, main_cst_115, main_v508, main_v509, main_v510, main_cst_116, main_v511, main_v512,
    main_cst_117, main_v513, main_v514, main_v515, main_cst_118, main_v516, main_v517, main_cst_119,
    main_v518, main_v519, main_v520, main_v521, main_v522, main_c_120, main_v523, main_v524,
    main_c_121, main_v525, main_v526, main_v527, main_v528, main_v529, main_cst_122, main_v530,
    main_v531, main_v532, main_cst_123, main_v533 ]

set_option maxHeartbeats 40000000 in
/-- @main's statements 661 … 720, part 1 of 2: 9 operations, in order (a call's are its body's at the call's operands and record). -/
abbrev win11a : List (HloOp τ sig (Elt F)) :=
  [ StableHlo.binary main_v517 main_v533 main_v534 (Host.powf : (⟨S50000, .f32⟩ : BufTy).Contents (Elt F) → (⟨S50000, .f32⟩ : BufTy).Contents (Elt F) → (⟨S50000, .f32⟩ : BufTy).Contents (Elt F)),
    StableHlo.unary main_v534 main_v535 (broadcastInDim S50000x1 ![0] bcast_S50000_S50000x1_0 : (⟨S50000, .f32⟩ : BufTy).Contents (Elt F) → (⟨S50000x1, .f32⟩ : BufTy).Contents (Elt F)),
    StableHlo.unary main_v535 main_v536 (broadcastInDim S50000x128 ![0, 1] bcast_S50000x1_S50000x128_0_1 : (⟨S50000x1, .f32⟩ : BufTy).Contents (Elt F) → (⟨S50000x128, .f32⟩ : BufTy).Contents (Elt F)),
    StableHlo.binary main_v532 main_v536 main_v537 (mulf : (⟨S50000x128, .f32⟩ : BufTy).Contents (Elt F) → (⟨S50000x128, .f32⟩ : BufTy).Contents (Elt F) → (⟨S50000x128, .f32⟩ : BufTy).Contents (Elt F)),
    StableHlo.binary main_v537 main_v504 main_v538 ((fun l r => Host.dotGeneral dot_S50000x128_S128x128_S50000x128_1_0_0_1_n_n none l r) : (⟨S50000x128, .f32⟩ : BufTy).Contents (Elt F) → (⟨S128x128, .f32⟩ : BufTy).Contents (Elt F) → (⟨S50000x128, .f32⟩ : BufTy).Contents (Elt F)),
    StableHlo.unary main_v506 main_v539 (broadcastInDim S1x128 ![1] bcast_S128_S1x128_1 : (⟨S128, .f32⟩ : BufTy).Contents (Elt F) → (⟨S1x128, .f32⟩ : BufTy).Contents (Elt F)),
    StableHlo.unary main_v539 main_v540 (broadcastInDim S50000x128 ![0, 1] bcast_S1x128_S50000x128_0_1 : (⟨S1x128, .f32⟩ : BufTy).Contents (Elt F) → (⟨S50000x128, .f32⟩ : BufTy).Contents (Elt F)),
    StableHlo.binary main_v538 main_v540 main_v541 (addf : (⟨S50000x128, .f32⟩ : BufTy).Contents (Elt F) → (⟨S50000x128, .f32⟩ : BufTy).Contents (Elt F) → (⟨S50000x128, .f32⟩ : BufTy).Contents (Elt F)),
    StableHlo.binary main_v498 main_v541 main_v542 (addf : (⟨S50000x128, .f32⟩ : BufTy).Contents (Elt F) → (⟨S50000x128, .f32⟩ : BufTy).Contents (Elt F) → (⟨S50000x128, .f32⟩ : BufTy).Contents (Elt F)) ]

/-- The references the operations of win11a write, in order. -/
abbrev win11a_W : List (Ref sig .tc) :=
  [ main_v534, main_v535, main_v536, main_v537, main_v538, main_v539, main_v540, main_v541,
    main_v542 ]

set_option maxHeartbeats 40000000 in
/-- @main's statements 661 … 720, part 2 of 2: 51 operations, in order (a call's are its body's at the call's operands and record). -/
abbrev win11b : List (HloOp τ sig (Elt F)) :=
  [ StableHlo.unary main_arg1 main_v543 ((extractStridedSlice S1x800000 ![0, 0] · slices_S4x800000_S1x800000_0_0) : (⟨S4x800000, .i32⟩ : BufTy).Contents (Elt F) → (⟨S1x800000, .i32⟩ : BufTy).Contents (Elt F)),
    StableHlo.reshape main_v543 main_v544 rfl shapeCasts_S1x800000_S800000,
    StableHlo.nullary main_c_124 (constantI S_ 32 0#32),
    StableHlo.unary main_c_124 main_v545 (broadcastInDim S800000 ![] bcast_S_S800000 : (⟨S_, .i32⟩ : BufTy).Contents (Elt F) → (⟨S800000, .i32⟩ : BufTy).Contents (Elt F)),
    StableHlo.binary main_v544 main_v545 main_v546 (cmpi .slt : (⟨S800000, .i32⟩ : BufTy).Contents (Elt F) → (⟨S800000, .i32⟩ : BufTy).Contents (Elt F) → (⟨S800000, .i1⟩ : BufTy).Contents (Elt F)),
    StableHlo.nullary main_c_125 (constantI S_ 32 50000#32),
    StableHlo.unary main_c_125 main_v547 (broadcastInDim S800000 ![] bcast_S_S800000 : (⟨S_, .i32⟩ : BufTy).Contents (Elt F) → (⟨S800000, .i32⟩ : BufTy).Contents (Elt F)),
    StableHlo.binary main_v544 main_v547 main_v548 (addi : (⟨S800000, .i32⟩ : BufTy).Contents (Elt F) → (⟨S800000, .i32⟩ : BufTy).Contents (Elt F) → (⟨S800000, .i32⟩ : BufTy).Contents (Elt F)),
    StableHlo.ternary main_v546 main_v548 main_v544 main_v549 (select : (⟨S800000, .i1⟩ : BufTy).Contents (Elt F) → (⟨S800000, .i32⟩ : BufTy).Contents (Elt F) → (⟨S800000, .i32⟩ : BufTy).Contents (Elt F) → (⟨S800000, .i32⟩ : BufTy).Contents (Elt F)),
    StableHlo.unary main_v549 main_v550 (broadcastInDim S800000x1 ![0] bcast_S800000_S800000x1_0 : (⟨S800000, .i32⟩ : BufTy).Contents (Elt F) → (⟨S800000x1, .i32⟩ : BufTy).Contents (Elt F)),
    StableHlo.binary main_v542 main_v550 main_v551 ((fun x i => Host.gather gather_S50000x128_S800000x1_S800000x128_1_0_n_n_0_1_1128 x i) : (⟨S50000x128, .f32⟩ : BufTy).Contents (Elt F) → (⟨S800000x1, .i32⟩ : BufTy).Contents (Elt F) → (⟨S800000x128, .f32⟩ : BufTy).Contents (Elt F)),
    StableHlo.unary main_arg2 main_v552 ((extractStridedSlice S1x800000 ![0, 0] · slices_S4x800000_S1x800000_0_0) : (⟨S4x800000, .i32⟩ : BufTy).Contents (Elt F) → (⟨S1x800000, .i32⟩ : BufTy).Contents (Elt F)),
    StableHlo.reshape main_v552 main_v553 rfl shapeCasts_S1x800000_S800000,
    StableHlo.nullary main_cst_126 (constant S_ .f32 0x00000000#32),
    StableHlo.unary main_cst_126 main_v554 (broadcastInDim S50000x128 ![] bcast_S_S50000x128 : (⟨S_, .f32⟩ : BufTy).Contents (Elt F) → (⟨S50000x128, .f32⟩ : BufTy).Contents (Elt F)),
    StableHlo.unary main_v553 main_v555 (broadcastInDim S800000x1 ![0] bcast_S800000_S800000x1_0 : (⟨S800000, .i32⟩ : BufTy).Contents (Elt F) → (⟨S800000x1, .i32⟩ : BufTy).Contents (Elt F)),
    StableHlo.ternary main_v554 main_v555 main_v551 main_v556 ((fun x i u => Host.scatterAdd scatter_S50000x128_S800000x1_S800000x128_1_0_0_1 x i u) : (⟨S50000x128, .f32⟩ : BufTy).Contents (Elt F) → (⟨S800000x1, .i32⟩ : BufTy).Contents (Elt F) → (⟨S800000x128, .f32⟩ : BufTy).Contents (Elt F) → (⟨S50000x128, .f32⟩ : BufTy).Contents (Elt F)),
    StableHlo.unary main_arg1 main_v557 ((extractStridedSlice S1x800000 ![1, 0] · slices_S4x800000_S1x800000_1_0) : (⟨S4x800000, .i32⟩ : BufTy).Contents (Elt F) → (⟨S1x800000, .i32⟩ : BufTy).Contents (Elt F)),
    StableHlo.reshape main_v557 main_v558 rfl shapeCasts_S1x800000_S800000,
    StableHlo.nullary main_c_127 (constantI S_ 32 0#32),
    StableHlo.unary main_c_127 main_v559 (broadcastInDim S800000 ![] bcast_S_S800000 : (⟨S_, .i32⟩ : BufTy).Contents (Elt F) → (⟨S800000, .i32⟩ : BufTy).Contents (Elt F)),
    StableHlo.binary main_v558 main_v559 main_v560 (cmpi .slt : (⟨S800000, .i32⟩ : BufTy).Contents (Elt F) → (⟨S800000, .i32⟩ : BufTy).Contents (Elt F) → (⟨S800000, .i1⟩ : BufTy).Contents (Elt F)),
    StableHlo.nullary main_c_128 (constantI S_ 32 50000#32),
    StableHlo.unary main_c_128 main_v561 (broadcastInDim S800000 ![] bcast_S_S800000 : (⟨S_, .i32⟩ : BufTy).Contents (Elt F) → (⟨S800000, .i32⟩ : BufTy).Contents (Elt F)),
    StableHlo.binary main_v558 main_v561 main_v562 (addi : (⟨S800000, .i32⟩ : BufTy).Contents (Elt F) → (⟨S800000, .i32⟩ : BufTy).Contents (Elt F) → (⟨S800000, .i32⟩ : BufTy).Contents (Elt F)),
    StableHlo.ternary main_v560 main_v562 main_v558 main_v563 (select : (⟨S800000, .i1⟩ : BufTy).Contents (Elt F) → (⟨S800000, .i32⟩ : BufTy).Contents (Elt F) → (⟨S800000, .i32⟩ : BufTy).Contents (Elt F) → (⟨S800000, .i32⟩ : BufTy).Contents (Elt F)),
    StableHlo.unary main_v563 main_v564 (broadcastInDim S800000x1 ![0] bcast_S800000_S800000x1_0 : (⟨S800000, .i32⟩ : BufTy).Contents (Elt F) → (⟨S800000x1, .i32⟩ : BufTy).Contents (Elt F)),
    StableHlo.binary main_v542 main_v564 main_v565 ((fun x i => Host.gather gather_S50000x128_S800000x1_S800000x128_1_0_n_n_0_1_1128 x i) : (⟨S50000x128, .f32⟩ : BufTy).Contents (Elt F) → (⟨S800000x1, .i32⟩ : BufTy).Contents (Elt F) → (⟨S800000x128, .f32⟩ : BufTy).Contents (Elt F)),
    StableHlo.unary main_arg2 main_v566 ((extractStridedSlice S1x800000 ![1, 0] · slices_S4x800000_S1x800000_1_0) : (⟨S4x800000, .i32⟩ : BufTy).Contents (Elt F) → (⟨S1x800000, .i32⟩ : BufTy).Contents (Elt F)),
    StableHlo.reshape main_v566 main_v567 rfl shapeCasts_S1x800000_S800000,
    StableHlo.nullary main_cst_129 (constant S_ .f32 0x00000000#32),
    StableHlo.unary main_cst_129 main_v568 (broadcastInDim S50000x128 ![] bcast_S_S50000x128 : (⟨S_, .f32⟩ : BufTy).Contents (Elt F) → (⟨S50000x128, .f32⟩ : BufTy).Contents (Elt F)),
    StableHlo.unary main_v567 main_v569 (broadcastInDim S800000x1 ![0] bcast_S800000_S800000x1_0 : (⟨S800000, .i32⟩ : BufTy).Contents (Elt F) → (⟨S800000x1, .i32⟩ : BufTy).Contents (Elt F)),
    StableHlo.ternary main_v568 main_v569 main_v565 main_v570 ((fun x i u => Host.scatterAdd scatter_S50000x128_S800000x1_S800000x128_1_0_0_1 x i u) : (⟨S50000x128, .f32⟩ : BufTy).Contents (Elt F) → (⟨S800000x1, .i32⟩ : BufTy).Contents (Elt F) → (⟨S800000x128, .f32⟩ : BufTy).Contents (Elt F) → (⟨S50000x128, .f32⟩ : BufTy).Contents (Elt F)),
    StableHlo.binary main_v556 main_v570 main_v571 (addf : (⟨S50000x128, .f32⟩ : BufTy).Contents (Elt F) → (⟨S50000x128, .f32⟩ : BufTy).Contents (Elt F) → (⟨S50000x128, .f32⟩ : BufTy).Contents (Elt F)),
    StableHlo.unary main_arg1 main_v572 ((extractStridedSlice S1x800000 ![2, 0] · slices_S4x800000_S1x800000_2_0) : (⟨S4x800000, .i32⟩ : BufTy).Contents (Elt F) → (⟨S1x800000, .i32⟩ : BufTy).Contents (Elt F)),
    StableHlo.reshape main_v572 main_v573 rfl shapeCasts_S1x800000_S800000,
    StableHlo.nullary main_c_130 (constantI S_ 32 0#32),
    StableHlo.unary main_c_130 main_v574 (broadcastInDim S800000 ![] bcast_S_S800000 : (⟨S_, .i32⟩ : BufTy).Contents (Elt F) → (⟨S800000, .i32⟩ : BufTy).Contents (Elt F)),
    StableHlo.binary main_v573 main_v574 main_v575 (cmpi .slt : (⟨S800000, .i32⟩ : BufTy).Contents (Elt F) → (⟨S800000, .i32⟩ : BufTy).Contents (Elt F) → (⟨S800000, .i1⟩ : BufTy).Contents (Elt F)),
    StableHlo.nullary main_c_131 (constantI S_ 32 50000#32),
    StableHlo.unary main_c_131 main_v576 (broadcastInDim S800000 ![] bcast_S_S800000 : (⟨S_, .i32⟩ : BufTy).Contents (Elt F) → (⟨S800000, .i32⟩ : BufTy).Contents (Elt F)),
    StableHlo.binary main_v573 main_v576 main_v577 (addi : (⟨S800000, .i32⟩ : BufTy).Contents (Elt F) → (⟨S800000, .i32⟩ : BufTy).Contents (Elt F) → (⟨S800000, .i32⟩ : BufTy).Contents (Elt F)),
    StableHlo.ternary main_v575 main_v577 main_v573 main_v578 (select : (⟨S800000, .i1⟩ : BufTy).Contents (Elt F) → (⟨S800000, .i32⟩ : BufTy).Contents (Elt F) → (⟨S800000, .i32⟩ : BufTy).Contents (Elt F) → (⟨S800000, .i32⟩ : BufTy).Contents (Elt F)),
    StableHlo.unary main_v578 main_v579 (broadcastInDim S800000x1 ![0] bcast_S800000_S800000x1_0 : (⟨S800000, .i32⟩ : BufTy).Contents (Elt F) → (⟨S800000x1, .i32⟩ : BufTy).Contents (Elt F)),
    StableHlo.binary main_v542 main_v579 main_v580 ((fun x i => Host.gather gather_S50000x128_S800000x1_S800000x128_1_0_n_n_0_1_1128 x i) : (⟨S50000x128, .f32⟩ : BufTy).Contents (Elt F) → (⟨S800000x1, .i32⟩ : BufTy).Contents (Elt F) → (⟨S800000x128, .f32⟩ : BufTy).Contents (Elt F)),
    StableHlo.unary main_arg2 main_v581 ((extractStridedSlice S1x800000 ![2, 0] · slices_S4x800000_S1x800000_2_0) : (⟨S4x800000, .i32⟩ : BufTy).Contents (Elt F) → (⟨S1x800000, .i32⟩ : BufTy).Contents (Elt F)),
    StableHlo.reshape main_v581 main_v582 rfl shapeCasts_S1x800000_S800000,
    StableHlo.nullary main_cst_132 (constant S_ .f32 0x00000000#32),
    StableHlo.unary main_cst_132 main_v583 (broadcastInDim S50000x128 ![] bcast_S_S50000x128 : (⟨S_, .f32⟩ : BufTy).Contents (Elt F) → (⟨S50000x128, .f32⟩ : BufTy).Contents (Elt F)),
    StableHlo.unary main_v582 main_v584 (broadcastInDim S800000x1 ![0] bcast_S800000_S800000x1_0 : (⟨S800000, .i32⟩ : BufTy).Contents (Elt F) → (⟨S800000x1, .i32⟩ : BufTy).Contents (Elt F)) ]

/-- The references the operations of win11b write, in order. -/
abbrev win11b_W : List (Ref sig .tc) :=
  [ main_v543, main_v544, main_c_124, main_v545, main_v546, main_c_125, main_v547, main_v548,
    main_v549, main_v550, main_v551, main_v552, main_v553, main_cst_126, main_v554, main_v555,
    main_v556, main_v557, main_v558, main_c_127, main_v559, main_v560, main_c_128, main_v561,
    main_v562, main_v563, main_v564, main_v565, main_v566, main_v567, main_cst_129, main_v568,
    main_v569, main_v570, main_v571, main_v572, main_v573, main_c_130, main_v574, main_v575,
    main_c_131, main_v576, main_v577, main_v578, main_v579, main_v580, main_v581, main_v582,
    main_cst_132, main_v583, main_v584 ]

set_option maxHeartbeats 40000000 in
/-- @main's statements 721 … 758: 37 operations, in order (a call's are its body's at the call's operands and record). -/
abbrev win12 : List (HloOp τ sig (Elt F)) :=
  [ StableHlo.ternary main_v583 main_v584 main_v580 main_v585 ((fun x i u => Host.scatterAdd scatter_S50000x128_S800000x1_S800000x128_1_0_0_1 x i u) : (⟨S50000x128, .f32⟩ : BufTy).Contents (Elt F) → (⟨S800000x1, .i32⟩ : BufTy).Contents (Elt F) → (⟨S800000x128, .f32⟩ : BufTy).Contents (Elt F) → (⟨S50000x128, .f32⟩ : BufTy).Contents (Elt F)),
    StableHlo.binary main_v571 main_v585 main_v586 (addf : (⟨S50000x128, .f32⟩ : BufTy).Contents (Elt F) → (⟨S50000x128, .f32⟩ : BufTy).Contents (Elt F) → (⟨S50000x128, .f32⟩ : BufTy).Contents (Elt F)),
    StableHlo.unary main_arg1 main_v587 ((extractStridedSlice S1x800000 ![3, 0] · slices_S4x800000_S1x800000_3_0) : (⟨S4x800000, .i32⟩ : BufTy).Contents (Elt F) → (⟨S1x800000, .i32⟩ : BufTy).Contents (Elt F)),
    StableHlo.reshape main_v587 main_v588 rfl shapeCasts_S1x800000_S800000,
    StableHlo.nullary main_c_133 (constantI S_ 32 0#32),
    StableHlo.unary main_c_133 main_v589 (broadcastInDim S800000 ![] bcast_S_S800000 : (⟨S_, .i32⟩ : BufTy).Contents (Elt F) → (⟨S800000, .i32⟩ : BufTy).Contents (Elt F)),
    StableHlo.binary main_v588 main_v589 main_v590 (cmpi .slt : (⟨S800000, .i32⟩ : BufTy).Contents (Elt F) → (⟨S800000, .i32⟩ : BufTy).Contents (Elt F) → (⟨S800000, .i1⟩ : BufTy).Contents (Elt F)),
    StableHlo.nullary main_c_134 (constantI S_ 32 50000#32),
    StableHlo.unary main_c_134 main_v591 (broadcastInDim S800000 ![] bcast_S_S800000 : (⟨S_, .i32⟩ : BufTy).Contents (Elt F) → (⟨S800000, .i32⟩ : BufTy).Contents (Elt F)),
    StableHlo.binary main_v588 main_v591 main_v592 (addi : (⟨S800000, .i32⟩ : BufTy).Contents (Elt F) → (⟨S800000, .i32⟩ : BufTy).Contents (Elt F) → (⟨S800000, .i32⟩ : BufTy).Contents (Elt F)),
    StableHlo.ternary main_v590 main_v592 main_v588 main_v593 (select : (⟨S800000, .i1⟩ : BufTy).Contents (Elt F) → (⟨S800000, .i32⟩ : BufTy).Contents (Elt F) → (⟨S800000, .i32⟩ : BufTy).Contents (Elt F) → (⟨S800000, .i32⟩ : BufTy).Contents (Elt F)),
    StableHlo.unary main_v593 main_v594 (broadcastInDim S800000x1 ![0] bcast_S800000_S800000x1_0 : (⟨S800000, .i32⟩ : BufTy).Contents (Elt F) → (⟨S800000x1, .i32⟩ : BufTy).Contents (Elt F)),
    StableHlo.binary main_v542 main_v594 main_v595 ((fun x i => Host.gather gather_S50000x128_S800000x1_S800000x128_1_0_n_n_0_1_1128 x i) : (⟨S50000x128, .f32⟩ : BufTy).Contents (Elt F) → (⟨S800000x1, .i32⟩ : BufTy).Contents (Elt F) → (⟨S800000x128, .f32⟩ : BufTy).Contents (Elt F)),
    StableHlo.unary main_arg2 main_v596 ((extractStridedSlice S1x800000 ![3, 0] · slices_S4x800000_S1x800000_3_0) : (⟨S4x800000, .i32⟩ : BufTy).Contents (Elt F) → (⟨S1x800000, .i32⟩ : BufTy).Contents (Elt F)),
    StableHlo.reshape main_v596 main_v597 rfl shapeCasts_S1x800000_S800000,
    StableHlo.nullary main_cst_135 (constant S_ .f32 0x00000000#32),
    StableHlo.unary main_cst_135 main_v598 (broadcastInDim S50000x128 ![] bcast_S_S50000x128 : (⟨S_, .f32⟩ : BufTy).Contents (Elt F) → (⟨S50000x128, .f32⟩ : BufTy).Contents (Elt F)),
    StableHlo.unary main_v597 main_v599 (broadcastInDim S800000x1 ![0] bcast_S800000_S800000x1_0 : (⟨S800000, .i32⟩ : BufTy).Contents (Elt F) → (⟨S800000x1, .i32⟩ : BufTy).Contents (Elt F)),
    StableHlo.ternary main_v598 main_v599 main_v595 main_v600 ((fun x i u => Host.scatterAdd scatter_S50000x128_S800000x1_S800000x128_1_0_0_1 x i u) : (⟨S50000x128, .f32⟩ : BufTy).Contents (Elt F) → (⟨S800000x1, .i32⟩ : BufTy).Contents (Elt F) → (⟨S800000x128, .f32⟩ : BufTy).Contents (Elt F) → (⟨S50000x128, .f32⟩ : BufTy).Contents (Elt F)),
    StableHlo.binary main_v586 main_v600 main_v601 (addf : (⟨S50000x128, .f32⟩ : BufTy).Contents (Elt F) → (⟨S50000x128, .f32⟩ : BufTy).Contents (Elt F) → (⟨S50000x128, .f32⟩ : BufTy).Contents (Elt F)),
    StableHlo.nullary main_cst_136 (constant S_ .f32 0x00000000#32),
    StableHlo.binary main_v601 main_cst_136 main_v602 ((fun x v => Host.reduceAdd x v reducesTo_S50000x128_S128_d0 h_S_) : (⟨S50000x128, .f32⟩ : BufTy).Contents (Elt F) → (⟨S_, .f32⟩ : BufTy).Contents (Elt F) → (⟨S128, .f32⟩ : BufTy).Contents (Elt F)),
    StableHlo.unary main_v602 main_v603 (broadcastInDim S1x128 ![1] bcast_S128_S1x128_1 : (⟨S128, .f32⟩ : BufTy).Contents (Elt F) → (⟨S1x128, .f32⟩ : BufTy).Contents (Elt F)),
    StableHlo.nullary main_cst_137 (constant S_ .f32 0x47435000#32),
    StableHlo.unary main_cst_137 main_v604 (broadcastInDim S1x128 ![] bcast_S_S1x128 : (⟨S_, .f32⟩ : BufTy).Contents (Elt F) → (⟨S1x128, .f32⟩ : BufTy).Contents (Elt F)),
    StableHlo.binary main_v603 main_v604 main_v605 (Host.divf : (⟨S1x128, .f32⟩ : BufTy).Contents (Elt F) → (⟨S1x128, .f32⟩ : BufTy).Contents (Elt F) → (⟨S1x128, .f32⟩ : BufTy).Contents (Elt F)),
    StableHlo.binary main_v605 main_arg9 main_v606 ((fun l r => Host.dotGeneral dot_S1x128_S128x16_S1x16_1_0_0_1_n_n none l r) : (⟨S1x128, .f32⟩ : BufTy).Contents (Elt F) → (⟨S128x16, .f32⟩ : BufTy).Contents (Elt F) → (⟨S1x16, .f32⟩ : BufTy).Contents (Elt F)),
    StableHlo.unary main_arg10 main_v607 (broadcastInDim S1x16 ![1] bcast_S16_S1x16_1 : (⟨S16, .f32⟩ : BufTy).Contents (Elt F) → (⟨S1x16, .f32⟩ : BufTy).Contents (Elt F)),
    StableHlo.binary main_v606 main_v607 main_v608 (addf : (⟨S1x16, .f32⟩ : BufTy).Contents (Elt F) → (⟨S1x16, .f32⟩ : BufTy).Contents (Elt F) → (⟨S1x16, .f32⟩ : BufTy).Contents (Elt F)),
    StableHlo.unary main_v608 main_v609 (Host.negf : (⟨S1x16, .f32⟩ : BufTy).Contents (Elt F) → (⟨S1x16, .f32⟩ : BufTy).Contents (Elt F)),
    StableHlo.unary main_v609 main_v610 (Host.exp : (⟨S1x16, .f32⟩ : BufTy).Contents (Elt F) → (⟨S1x16, .f32⟩ : BufTy).Contents (Elt F)),
    StableHlo.nullary main_cst_138 (constant S_ .f32 0x3F800000#32),
    StableHlo.unary main_cst_138 main_v611 (broadcastInDim S1x16 ![] bcast_S_S1x16 : (⟨S_, .f32⟩ : BufTy).Contents (Elt F) → (⟨S1x16, .f32⟩ : BufTy).Contents (Elt F)),
    StableHlo.binary main_v611 main_v610 main_v612 (addf : (⟨S1x16, .f32⟩ : BufTy).Contents (Elt F) → (⟨S1x16, .f32⟩ : BufTy).Contents (Elt F) → (⟨S1x16, .f32⟩ : BufTy).Contents (Elt F)),
    StableHlo.nullary main_cst_139 (constant S_ .f32 0x3F800000#32),
    StableHlo.unary main_cst_139 main_v613 (broadcastInDim S1x16 ![] bcast_S_S1x16 : (⟨S_, .f32⟩ : BufTy).Contents (Elt F) → (⟨S1x16, .f32⟩ : BufTy).Contents (Elt F)),
    StableHlo.binary main_v613 main_v612 main_v614 (Host.divf : (⟨S1x16, .f32⟩ : BufTy).Contents (Elt F) → (⟨S1x16, .f32⟩ : BufTy).Contents (Elt F) → (⟨S1x16, .f32⟩ : BufTy).Contents (Elt F)) ]

/-- The references the operations of win12 write, in order. -/
abbrev win12_W : List (Ref sig .tc) :=
  [ main_v585, main_v586, main_v587, main_v588, main_c_133, main_v589, main_v590, main_c_134,
    main_v591, main_v592, main_v593, main_v594, main_v595, main_v596, main_v597, main_cst_135,
    main_v598, main_v599, main_v600, main_v601, main_cst_136, main_v602, main_v603, main_cst_137,
    main_v604, main_v605, main_v606, main_v607, main_v608, main_v609, main_v610, main_cst_138,
    main_v611, main_v612, main_cst_139, main_v613, main_v614 ]

end Cert.ReferenceIdeal.RR

end
-- ==== Proof.RefOpsCat.lean ====
import proofs.«158609_j30133490549165_1_alg».proof.Proof.RefOps

noncomputable section

namespace Cert.ReferenceIdeal.RR

open Cert.ReferenceIdeal Cert.ReferenceIdeal.Gen Idealize.ShloMosaic Idealize.ShloMosaic.TcCoe Idealize.SL.Sem Idealize.ShloMosaic.StableHlo

variable {F : FTy → Type} [FloatOps F]

/-! ## The operations, in four stretches

@main is cut after each activation call and after the line that writes main_v542: four stretches, each the
concatenation of the printed windows' lists (a window that holds a cut is two lists). -/

/-- The reference's operations up to and including the first activation call's (the line that writes main_v183). -/
abbrev opsA : List (HloOp τ sig (Elt F)) := win0 ++ win1 ++ win2 ++ win3a
/-- After that, up to and including the second activation call's (the line that writes main_v367). -/
abbrev opsB : List (HloOp τ sig (Elt F)) := win3b ++ win4 ++ win5 ++ win6 ++ win7a
/-- After that, up to and including the line that writes main_v542. -/
abbrev opsC : List (HloOp τ sig (Elt F)) := win7b ++ win8 ++ win9 ++ win10 ++ win11a
/-- The rest, to the line that writes main_v614. -/
abbrev opsD : List (HloOp τ sig (Elt F)) := win11b ++ win12
/-- @main's operations, in order, the two calls' bodies at their sites. -/
abbrev ops : List (HloOp τ sig (Elt F)) := opsA ++ opsB ++ opsC ++ opsD

/-- The references the operations write, in the operations' order. -/
abbrev opsW : List (Ref sig .tc) :=
  (win0_W ++ win1_W ++ win2_W ++ win3a_W) ++ (win3b_W ++ win4_W ++ win5_W ++ win6_W ++ win7a_W)
    ++ (win7b_W ++ win8_W ++ win9_W ++ win10_W ++ win11a_W) ++ (win11b_W ++ win12_W)

end Cert.ReferenceIdeal.RR

end
-- ==== Proof.RefRunWin.lean ====
import proofs.«158609_j30133490549165_1_alg».proof.Proof.RefOps
import Idealize.ShloMosaic.Lib.Pipeline.Regions

noncomputable section

namespace Cert.ReferenceIdeal.RR

open Cert.ReferenceIdeal Cert.ReferenceIdeal.Gen Idealize.ShloMosaic Idealize.ShloMosaic.TcCoe Idealize.SL.Sem Idealize.ShloMosaic.StableHlo

variable {F : FTy → Type} [FloatOps F]

/-! ## Each window of @main is the straight line of its operations

A window is a right-nested sequence of `hlo` steps, its last step in tail position (the last window closes with the
return); `seq` of the window's list is the same steps, each bound to the rest, closed by the return. Both sides
unfold to one chain of steps — sequencing after a step continues inside it, and a step followed by the return is the
step — so the equation holds by computation, which is left to the kernel's check of the theorem (`chain_rfl`: the
reflexivity proof at the left side). In a window that holds an activation call the call unfolds to its body's steps
at the call's operands and record, the nested selection call to its one step; such a window's list is in two parts,
cut after the call's last step, and the line of the concatenation is meant. -/

set_option maxHeartbeats 4000000 in
theorem main_part0_eq (c : Dev nD) : main_part0 (F := F) c = seq win0 := by
  chain_rfl

set_option maxHeartbeats 4000000 in
theorem main_part1_eq (c : Dev nD) : main_part1 (F := F) c = seq win1 := by
  chain_rfl

set_option maxHeartbeats 4000000 in
theorem main_part2_eq (c : Dev nD) : main_part2 (F := F) c = seq win2 := by
  chain_rfl

set_option maxHeartbeats 4000000 in
theorem main_part3_eq (c : Dev nD) : main_part3 (F := F) c = seq (win3a ++ win3b) := by
  chain_rfl

set_option maxHeartbeats 4000000 in
theorem main_part4_eq (c : Dev nD) : main_part4 (F := F) c = seq win4 := by
  chain_rfl

set_option maxHeartbeats 4000000 in
theorem main_part5_eq (c : Dev nD) : main_part5 (F := F) c = seq win5 := by
  chain_rfl

set_option maxHeartbeats 4000000 in
theorem main_part6_eq (c : Dev nD) : main_part6 (F := F) c = seq win6 := by
  chain_rfl

set_option maxHeartbeats 4000000 in
theorem main_part7_eq (c : Dev nD) : main_part7 (F := F) c = seq (win7a ++ win7b) := by
  chain_rfl

set_option maxHeartbeats 4000000 in
theorem main_part8_eq (c : Dev nD) : main_part8 (F := F) c = seq win8 := by
  chain_rfl

set_option maxHeartbeats 4000000 in
theorem main_part9_eq (c : Dev nD) : main_part9 (F := F) c = seq win9 := by
  chain_rfl

set_option maxHeartbeats 4000000 in
theorem main_part10_eq (c : Dev nD) : main_part10 (F := F) c = seq win10 := by
  chain_rfl

set_option maxHeartbeats 4000000 in
theorem main_part11_eq (c : Dev nD) : main_part11 (F := F) c = seq (win11a ++ win11b) := by
  chain_rfl

set_option maxHeartbeats 4000000 in
theorem main_part12_eq (c : Dev nD) : main_part12 (F := F) c = seq win12 := by
  chain_rfl

end Cert.ReferenceIdeal.RR

end
-- ==== Proof.RefRunSide.lean ====
import proofs.«158609_j30133490549165_1_alg».proof.Proof.RefOps

noncomputable section

namespace Cert.ReferenceIdeal.RR

open Cert.ReferenceIdeal Cert.ReferenceIdeal.Gen Idealize.ShloMosaic Idealize.ShloMosaic.TcCoe Idealize.SL.Sem Idealize.ShloMosaic.StableHlo

variable {F : FTy → Type} [FloatOps F]

/-! ## What each list's operations touch, allocate and write

Per list, three facts about every operation in it, each by the builders' own lemmas one operation at a time:
* it touches TensorCore references only — a builder's buffers are its operands' and its result's references
  (`nullary_bufs_sub` … `reshape_bufs_sub`; a call's operations are the same builders at the typed references' buffers);
* it allocates nothing (`fresh` is empty by the builders' definition);
* what it writes — its one result (`nullary_writes` … `reshape_writes`) — is in the list's table of written references:
  membership in the table is decided over references. -/

set_option maxHeartbeats 4000000 in
theorem win0_sub : (win0 : List (HloOp τ sig (Elt F))).Forall fun op => op.bufs ⊆ tcRefs τ sig := by
  simp only [List.Forall, nullary_bufs_sub, unary_bufs_sub, binary_bufs_sub, ternary_bufs_sub, reshape_bufs_sub, and_self]

set_option maxHeartbeats 4000000 in
theorem win0_fresh : (win0 : List (HloOp τ sig (Elt F))).Forall fun op => op.fresh = ∅ := by
  simp only [List.Forall]; repeat' constructor

set_option maxHeartbeats 4000000 in
theorem win0_writes : (win0 : List (HloOp τ sig (Elt F))).Forall fun op =>
    op.writes ⊆ (win0_W.map (Proc.devRef (τ := τ) .tc)).toFinset := by
  simp only [List.Forall, nullary_writes, unary_writes, binary_writes, ternary_writes, reshape_writes,
    Finset.singleton_subset_iff, List.mem_toFinset]
  repeat' apply And.intro
  all_goals exact List.mem_map_of_mem (by decide)

set_option maxHeartbeats 4000000 in
theorem win1_sub : (win1 : List (HloOp τ sig (Elt F))).Forall fun op => op.bufs ⊆ tcRefs τ sig := by
  simp only [List.Forall, nullary_bufs_sub, unary_bufs_sub, binary_bufs_sub, ternary_bufs_sub, reshape_bufs_sub, and_self]

set_option maxHeartbeats 4000000 in
theorem win1_fresh : (win1 : List (HloOp τ sig (Elt F))).Forall fun op => op.fresh = ∅ := by
  simp only [List.Forall]; repeat' constructor

set_option maxHeartbeats 4000000 in
theorem win1_writes : (win1 : List (HloOp τ sig (Elt F))).Forall fun op =>
    op.writes ⊆ (win1_W.map (Proc.devRef (τ := τ) .tc)).toFinset := by
  simp only [List.Forall, nullary_writes, unary_writes, binary_writes, ternary_writes, reshape_writes,
    Finset.singleton_subset_iff, List.mem_toFinset]
  repeat' apply And.intro
  all_goals exact List.mem_map_of_mem (by decide)

set_option maxHeartbeats 4000000 in
theorem win2_sub : (win2 : List (HloOp τ sig (Elt F))).Forall fun op => op.bufs ⊆ tcRefs τ sig := by
  simp only [List.Forall, nullary_bufs_sub, unary_bufs_sub, binary_bufs_sub, ternary_bufs_sub, reshape_bufs_sub, and_self]

set_option maxHeartbeats 4000000 in
theorem win2_fresh : (win2 : List (HloOp τ sig (Elt F))).Forall fun op => op.fresh = ∅ := by
  simp only [List.Forall]; repeat' constructor

set_option maxHeartbeats 4000000 in
theorem win2_writes : (win2 : List (HloOp τ sig (Elt F))).Forall fun op =>
    op.writes ⊆ (win2_W.map (Proc.devRef (τ := τ) .tc)).toFinset := by
  simp only [List.Forall, nullary_writes, unary_writes, binary_writes, ternary_writes, reshape_writes,
    Finset.singleton_subset_iff, List.mem_toFinset]
  repeat' apply And.intro
  all_goals exact List.mem_map_of_mem (by decide)

set_option maxHeartbeats 4000000 in
theorem win3a_sub : (win3a : List (HloOp τ sig (Elt F))).Forall fun op => op.bufs ⊆ tcRefs τ sig := by
  simp only [List.Forall, nullary_bufs_sub, unary_bufs_sub, binary_bufs_sub, ternary_bufs_sub, reshape_bufs_sub, and_self]

set_option maxHeartbeats 4000000 in
theorem win3a_fresh : (win3a : List (HloOp τ sig (Elt F))).Forall fun op => op.fresh = ∅ := by
  simp only [List.Forall]; repeat' constructor

set_option maxHeartbeats 4000000 in
theorem win3a_writes : (win3a : List (HloOp τ sig (Elt F))).Forall fun op =>
    op.writes ⊆ (win3a_W.map (Proc.devRef (τ := τ) .tc)).toFinset := by
  simp only [List.Forall, nullary_writes, unary_writes, binary_writes, ternary_writes, reshape_writes,
    Finset.singleton_subset_iff, List.mem_toFinset]
  repeat' apply And.intro
  all_goals exact List.mem_map_of_mem (by decide)

set_option maxHeartbeats 4000000 in
theorem win3b_sub : (win3b : List (HloOp τ sig (Elt F))).Forall fun op => op.bufs ⊆ tcRefs τ sig := by
  simp only [List.Forall, nullary_bufs_sub, unary_bufs_sub, binary_bufs_sub, ternary_bufs_sub, reshape_bufs_sub, and_self]

set_option maxHeartbeats 4000000 in
theorem win3b_fresh : (win3b : List (HloOp τ sig (Elt F))).Forall fun op => op.fresh = ∅ := by
  simp only [List.Forall]; repeat' constructor

set_option maxHeartbeats 4000000 in
theorem win3b_writes : (win3b : List (HloOp τ sig (Elt F))).Forall fun op =>
    op.writes ⊆ (win3b_W.map (Proc.devRef (τ := τ) .tc)).toFinset := by
  simp only [List.Forall, nullary_writes, unary_writes, binary_writes, ternary_writes, reshape_writes,
    Finset.singleton_subset_iff, List.mem_toFinset]
  repeat' apply And.intro
  all_goals exact List.mem_map_of_mem (by decide)

set_option maxHeartbeats 4000000 in
theorem win4_sub : (win4 : List (HloOp τ sig (Elt F))).Forall fun op => op.bufs ⊆ tcRefs τ sig := by
  simp only [List.Forall, nullary_bufs_sub, unary_bufs_sub, binary_bufs_sub, ternary_bufs_sub, reshape_bufs_sub, and_self]

set_option maxHeartbeats 4000000 in
theorem win4_fresh : (win4 : List (HloOp τ sig (Elt F))).Forall fun op => op.fresh = ∅ := by
  simp only [List.Forall]; repeat' constructor

set_option maxHeartbeats 4000000 in
theorem win4_writes : (win4 : List (HloOp τ sig (Elt F))).Forall fun op =>
    op.writes ⊆ (win4_W.map (Proc.devRef (τ := τ) .tc)).toFinset := by
  simp only [List.Forall, nullary_writes, unary_writes, binary_writes, ternary_writes, reshape_writes,
    Finset.singleton_subset_iff, List.mem_toFinset]
  repeat' apply And.intro
  all_goals exact List.mem_map_of_mem (by decide)

set_option maxHeartbeats 4000000 in
theorem win5_sub : (win5 : List (HloOp τ sig (Elt F))).Forall fun op => op.bufs ⊆ tcRefs τ sig := by
  simp only [List.Forall, nullary_bufs_sub, unary_bufs_sub, binary_bufs_sub, ternary_bufs_sub, reshape_bufs_sub, and_self]

set_option maxHeartbeats 4000000 in
theorem win5_fresh : (win5 : List (HloOp τ sig (Elt F))).Forall fun op => op.fresh = ∅ := by
  simp only [List.Forall]; repeat' constructor

set_option maxHeartbeats 4000000 in
theorem win5_writes : (win5 : List (HloOp τ sig (Elt F))).Forall fun op =>
    op.writes ⊆ (win5_W.map (Proc.devRef (τ := τ) .tc)).toFinset := by
  simp only [List.Forall, nullary_writes, unary_writes, binary_writes, ternary_writes, reshape_writes,
    Finset.singleton_subset_iff, List.mem_toFinset]
  repeat' apply And.intro
  all_goals exact List.mem_map_of_mem (by decide)

set_option maxHeartbeats 4000000 in
theorem win6_sub : (win6 : List (HloOp τ sig (Elt F))).Forall fun op => op.bufs ⊆ tcRefs τ sig := by
  simp only [List.Forall, nullary_bufs_sub, unary_bufs_sub, binary_bufs_sub, ternary_bufs_sub, reshape_bufs_sub, and_self]

set_option maxHeartbeats 4000000 in
theorem win6_fresh : (win6 : List (HloOp τ sig (Elt F))).Forall fun op => op.fresh = ∅ := by
  simp only [List.Forall]; repeat' constructor

set_option maxHeartbeats 4000000 in
theorem win6_writes : (win6 : List (HloOp τ sig (Elt F))).Forall fun op =>
    op.writes ⊆ (win6_W.map (Proc.devRef (τ := τ) .tc)).toFinset := by
  simp only [List.Forall, nullary_writes, unary_writes, binary_writes, ternary_writes, reshape_writes,
    Finset.singleton_subset_iff, List.mem_toFinset]
  repeat' apply And.intro
  all_goals exact List.mem_map_of_mem (by decide)

set_option maxHeartbeats 4000000 in
theorem win7a_sub : (win7a : List (HloOp τ sig (Elt F))).Forall fun op => op.bufs ⊆ tcRefs τ sig := by
  simp only [List.Forall, nullary_bufs_sub, unary_bufs_sub, binary_bufs_sub, ternary_bufs_sub, reshape_bufs_sub, and_self]

set_option maxHeartbeats 4000000 in
theorem win7a_fresh : (win7a : List (HloOp τ sig (Elt F))).Forall fun op => op.fresh = ∅ := by
  simp only [List.Forall]; repeat' constructor

set_option maxHeartbeats 4000000 in
theorem win7a_writes : (win7a : List (HloOp τ sig (Elt F))).Forall fun op =>
    op.writes ⊆ (win7a_W.map (Proc.devRef (τ := τ) .tc)).toFinset := by
  simp only [List.Forall, nullary_writes, unary_writes, binary_writes, ternary_writes, reshape_writes,
    Finset.singleton_subset_iff, List.mem_toFinset]
  repeat' apply And.intro
  all_goals exact List.mem_map_of_mem (by decide)

set_option maxHeartbeats 4000000 in
theorem win7b_sub : (win7b : List (HloOp τ sig (Elt F))).Forall fun op => op.bufs ⊆ tcRefs τ sig := by
  simp only [List.Forall, nullary_bufs_sub, unary_bufs_sub, binary_bufs_sub, ternary_bufs_sub, reshape_bufs_sub, and_self]

set_option maxHeartbeats 4000000 in
theorem win7b_fresh : (win7b : List (HloOp τ sig (Elt F))).Forall fun op => op.fresh = ∅ := by
  simp only [List.Forall]; repeat' constructor

set_option maxHeartbeats 4000000 in
theorem win7b_writes : (win7b : List (HloOp τ sig (Elt F))).Forall fun op =>
    op.writes ⊆ (win7b_W.map (Proc.devRef (τ := τ) .tc)).toFinset := by
  simp only [List.Forall, nullary_writes, unary_writes, binary_writes, ternary_writes, reshape_writes,
    Finset.singleton_subset_iff, List.mem_toFinset]
  repeat' apply And.intro
  all_goals exact List.mem_map_of_mem (by decide)

set_option maxHeartbeats 4000000 in
theorem win8_sub : (win8 : List (HloOp τ sig (Elt F))).Forall fun op => op.bufs ⊆ tcRefs τ sig := by
  simp only [List.Forall, nullary_bufs_sub, unary_bufs_sub, binary_bufs_sub, ternary_bufs_sub, reshape_bufs_sub, and_self]

set_option maxHeartbeats 4000000 in
theorem win8_fresh : (win8 : List (HloOp τ sig (Elt F))).Forall fun op => op.fresh = ∅ := by
  simp only [List.Forall]; repeat' constructor

set_option maxHeartbeats 4000000 in
theorem win8_writes : (win8 : List (HloOp τ sig (Elt F))).Forall fun op =>
    op.writes ⊆ (win8_W.map (Proc.devRef (τ := τ) .tc)).toFinset := by
  simp only [List.Forall, nullary_writes, unary_writes, binary_writes, ternary_writes, reshape_writes,
    Finset.singleton_subset_iff, List.mem_toFinset]
  repeat' apply And.intro
  all_goals exact List.mem_map_of_mem (by decide)

set_option maxHeartbeats 4000000 in
theorem win9_sub : (win9 : List (HloOp τ sig (Elt F))).Forall fun op => op.bufs ⊆ tcRefs τ sig := by
  simp only [List.Forall, nullary_bufs_sub, unary_bufs_sub, binary_bufs_sub, ternary_bufs_sub, reshape_bufs_sub, and_self]

set_option maxHeartbeats 4000000 in
theorem win9_fresh : (win9 : List (HloOp τ sig (Elt F))).Forall fun op => op.fresh = ∅ := by
  simp only [List.Forall]; repeat' constructor

set_option maxHeartbeats 4000000 in
theorem win9_writes : (win9 : List (HloOp τ sig (Elt F))).Forall fun op =>
    op.writes ⊆ (win9_W.map (Proc.devRef (τ := τ) .tc)).toFinset := by
  simp only [List.Forall, nullary_writes, unary_writes, binary_writes, ternary_writes, reshape_writes,
    Finset.singleton_subset_iff, List.mem_toFinset]
  repeat' apply And.intro
  all_goals exact List.mem_map_of_mem (by decide)

set_option maxHeartbeats 4000000 in
theorem win10_sub : (win10 : List (HloOp τ sig (Elt F))).Forall fun op => op.bufs ⊆ tcRefs τ sig := by
  simp only [List.Forall, nullary_bufs_sub, unary_bufs_sub, binary_bufs_sub, ternary_bufs_sub, reshape_bufs_sub, and_self]

set_option maxHeartbeats 4000000 in
theorem win10_fresh : (win10 : List (HloOp τ sig (Elt F))).Forall fun op => op.fresh = ∅ := by
  simp only [List.Forall]; repeat' constructor

set_option maxHeartbeats 4000000 in
theorem win10_writes : (win10 : List (HloOp τ sig (Elt F))).Forall fun op =>
    op.writes ⊆ (win10_W.map (Proc.devRef (τ := τ) .tc)).toFinset := by
  simp only [List.Forall, nullary_writes, unary_writes, binary_writes, ternary_writes, reshape_writes,
    Finset.singleton_subset_iff, List.mem_toFinset]
  repeat' apply And.intro
  all_goals exact List.mem_map_of_mem (by decide)

set_option maxHeartbeats 4000000 in
theorem win11a_sub : (win11a : List (HloOp τ sig (Elt F))).Forall fun op => op.bufs ⊆ tcRefs τ sig := by
  simp only [List.Forall, nullary_bufs_sub, unary_bufs_sub, binary_bufs_sub, ternary_bufs_sub, reshape_bufs_sub, and_self]

set_option maxHeartbeats 4000000 in
theorem win11a_fresh : (win11a : List (HloOp τ sig (Elt F))).Forall fun op => op.fresh = ∅ := by
  simp only [List.Forall]; repeat' constructor

set_option maxHeartbeats 4000000 in
theorem win11a_writes : (win11a : List (HloOp τ sig (Elt F))).Forall fun op =>
    op.writes ⊆ (win11a_W.map (Proc.devRef (τ := τ) .tc)).toFinset := by
  simp only [List.Forall, nullary_writes, unary_writes, binary_writes, ternary_writes, reshape_writes,
    Finset.singleton_subset_iff, List.mem_toFinset]
  repeat' apply And.intro
  all_goals exact List.mem_map_of_mem (by decide)

set_option maxHeartbeats 4000000 in
theorem win11b_sub : (win11b : List (HloOp τ sig (Elt F))).Forall fun op => op.bufs ⊆ tcRefs τ sig := by
  simp only [List.Forall, nullary_bufs_sub, unary_bufs_sub, binary_bufs_sub, ternary_bufs_sub, reshape_bufs_sub, and_self]

set_option maxHeartbeats 4000000 in
theorem win11b_fresh : (win11b : List (HloOp τ sig (Elt F))).Forall fun op => op.fresh = ∅ := by
  simp only [List.Forall]; repeat' constructor

set_option maxHeartbeats 4000000 in
theorem win11b_writes : (win11b : List (HloOp τ sig (Elt F))).Forall fun op =>
    op.writes ⊆ (win11b_W.map (Proc.devRef (τ := τ) .tc)).toFinset := by
  simp only [List.Forall, nullary_writes, unary_writes, binary_writes, ternary_writes, reshape_writes,
    Finset.singleton_subset_iff, List.mem_toFinset]
  repeat' apply And.intro
  all_goals exact List.mem_map_of_mem (by decide)

set_option maxHeartbeats 4000000 in
theorem win12_sub : (win12 : List (HloOp τ sig (Elt F))).Forall fun op => op.bufs ⊆ tcRefs τ sig := by
  simp only [List.Forall, nullary_bufs_sub, unary_bufs_sub, binary_bufs_sub, ternary_bufs_sub, reshape_bufs_sub, and_self]

set_option maxHeartbeats 4000000 in
theorem win12_fresh : (win12 : List (HloOp τ sig (Elt F))).Forall fun op => op.fresh = ∅ := by
  simp only [List.Forall]; repeat' constructor

set_option maxHeartbeats 4000000 in
theorem win12_writes : (win12 : List (HloOp τ sig (Elt F))).Forall fun op =>
    op.writes ⊆ (win12_W.map (Proc.devRef (τ := τ) .tc)).toFinset := by
  simp only [List.Forall, nullary_writes, unary_writes, binary_writes, ternary_writes, reshape_writes,
    Finset.singleton_subset_iff, List.mem_toFinset]
  repeat' apply And.intro
  all_goals exact List.mem_map_of_mem (by decide)

end Cert.ReferenceIdeal.RR

end
-- ==== Proof.RefRun.lean ====
import proofs.«158609_j30133490549165_1_alg».proof.Proof.RefOpsCat
import proofs.«158609_j30133490549165_1_alg».proof.Proof.RefRunWin
import proofs.«158609_j30133490549165_1_alg».proof.Proof.RefRunSide

noncomputable section

namespace Cert.ReferenceIdeal.RR

open Cert.ReferenceIdeal Cert.ReferenceIdeal.Gen Idealize.ShloMosaic Idealize.ShloMosaic.TcCoe Idealize.SL.Sem Idealize.ShloMosaic.StableHlo

variable {F : FTy → Type} [FloatOps F]

/-! ## @main is the straight line of its operations -/

/-- Sixteen lines run in the windows' grouping are their concatenation, in the stretches' grouping, run as one:
    sequencing is associative (`seq_append`, `bind_assoc`), and so is concatenation. -/
theorem seq_windows {Λ : Labels} (w0 w1 w2 w3a w3b w4 w5 w6 w7a w7b w8 w9 w10 w11a w11b w12 : List (HloOp τ sig (Elt F))) :
    (seq ((w0 ++ w1 ++ w2 ++ w3a) ++ (w3b ++ w4 ++ w5 ++ w6 ++ w7a) ++ (w7b ++ w8 ++ w9 ++ w10 ++ w11a) ++ (w11b ++ w12))
        : Prog (TpuEff nD τ sig (Elt F) Λ .tc) PUnit)
      = (do seq w0; seq w1; seq w2; seq (w3a ++ w3b); seq w4; seq w5; seq w6; seq (w7a ++ w7b); seq w8; seq w9; seq w10;
            seq (w11a ++ w11b); seq w12) := by
  simp only [List.append_assoc, seq_append, bind_assoc]

/-- @main runs its thirteen windows in order, each the line of its operations. -/
theorem main_eq (c : Dev nD) : main (F := F) c = seq ops := by
  simp only [main, main_part0_eq, main_part1_eq, main_part2_eq, main_part3_eq, main_part4_eq, main_part5_eq, main_part6_eq,
    main_part7_eq, main_part8_eq, main_part9_eq, main_part10_eq, main_part11_eq, main_part12_eq]
  exact (seq_windows win0 win1 win2 win3a win3b win4 win5 win6 win7a win7b win8 win9 win10 win11a win11b win12).symm

/-! ## The side conditions of the run -/

/-- The signature scopes no buffer: every buffer is a tensor value of @main. -/
theorem scopedRefs_eq : (Finset.univ.filter fun b : Ref sig .tc => b.isScoped) = ∅ := by decide
/-- It has no semaphore, so none scoped. -/
theorem scopedSems_eq : (Finset.univ.filter fun sm : SemLoc sig => sm.isScoped .tc) = ∅ := by decide

/-- A property of every element of two lists holds of every element of their concatenation. -/
private theorem fa {α : Type} {p : α → Prop} {l₁ l₂ : List α} (h₁ : l₁.Forall p) (h₂ : l₂.Forall p) : (l₁ ++ l₂).Forall p :=
  List.forall_append.mpr ⟨h₁, h₂⟩

/-- Operations that write inside `W₁`, then operations that write inside `W₂`, write inside `W₁ ++ W₂`. -/
private theorem wa {l₁ l₂ : List (HloOp τ sig (Elt F))} {W₁ W₂ : List (Ref sig .tc)}
    (h₁ : l₁.Forall fun op => op.writes ⊆ (W₁.map (Proc.devRef (τ := τ) .tc)).toFinset)
    (h₂ : l₂.Forall fun op => op.writes ⊆ (W₂.map (Proc.devRef (τ := τ) .tc)).toFinset) :
    (l₁ ++ l₂).Forall fun op => op.writes ⊆ ((W₁ ++ W₂).map (Proc.devRef (τ := τ) .tc)).toFinset :=
  List.forall_append.mpr
    ⟨h₁.imp fun _ h x hx => List.mem_toFinset.mpr (by
        rw [List.map_append]; exact List.mem_append_left _ (List.mem_toFinset.mp (h hx))),
     h₂.imp fun _ h x hx => List.mem_toFinset.mpr (by
        rw [List.map_append]; exact List.mem_append_right _ (List.mem_toFinset.mp (h hx)))⟩

theorem opsA_sub : (opsA : List (HloOp τ sig (Elt F))).Forall fun op => op.bufs ⊆ tcRefs τ sig := fa (fa (fa (win0_sub) win1_sub) win2_sub) win3a_sub
theorem opsB_sub : (opsB : List (HloOp τ sig (Elt F))).Forall fun op => op.bufs ⊆ tcRefs τ sig := fa (fa (fa (fa (win3b_sub) win4_sub) win5_sub) win6_sub) win7a_sub
theorem opsC_sub : (opsC : List (HloOp τ sig (Elt F))).Forall fun op => op.bufs ⊆ tcRefs τ sig := fa (fa (fa (fa (win7b_sub) win8_sub) win9_sub) win10_sub) win11a_sub
theorem opsD_sub : (opsD : List (HloOp τ sig (Elt F))).Forall fun op => op.bufs ⊆ tcRefs τ sig := fa (win11b_sub) win12_sub
/-- Every operation touches TensorCore references only. -/
theorem ops_sub : (ops : List (HloOp τ sig (Elt F))).Forall fun op => op.bufs ⊆ tcRefs τ sig :=
  fa (fa (fa opsA_sub opsB_sub) opsC_sub) opsD_sub

theorem opsA_fresh : (opsA : List (HloOp τ sig (Elt F))).Forall fun op => op.fresh = ∅ := fa (fa (fa (win0_fresh) win1_fresh) win2_fresh) win3a_fresh
theorem opsB_fresh : (opsB : List (HloOp τ sig (Elt F))).Forall fun op => op.fresh = ∅ := fa (fa (fa (fa (win3b_fresh) win4_fresh) win5_fresh) win6_fresh) win7a_fresh
theorem opsC_fresh : (opsC : List (HloOp τ sig (Elt F))).Forall fun op => op.fresh = ∅ := fa (fa (fa (fa (win7b_fresh) win8_fresh) win9_fresh) win10_fresh) win11a_fresh
theorem opsD_fresh : (opsD : List (HloOp τ sig (Elt F))).Forall fun op => op.fresh = ∅ := fa (win11b_fresh) win12_fresh
/-- Every operation determines what it writes: none allocates. -/
theorem ops_fresh : ∀ op ∈ (ops : List (HloOp τ sig (Elt F))), op.fresh = ∅ :=
  List.forall_iff_forall_mem.mp (fa (fa (fa opsA_fresh opsB_fresh) opsC_fresh) opsD_fresh)

theorem opsA_writes : (opsA : List (HloOp τ sig (Elt F))).Forall fun op => op.writes ⊆ ((win0_W ++ win1_W ++ win2_W ++ win3a_W).map (Proc.devRef (τ := τ) .tc)).toFinset := wa (wa (wa (win0_writes) win1_writes) win2_writes) win3a_writes
theorem opsB_writes : (opsB : List (HloOp τ sig (Elt F))).Forall fun op => op.writes ⊆ ((win3b_W ++ win4_W ++ win5_W ++ win6_W ++ win7a_W).map (Proc.devRef (τ := τ) .tc)).toFinset := wa (wa (wa (wa (win3b_writes) win4_writes) win5_writes) win6_writes) win7a_writes
theorem opsC_writes : (opsC : List (HloOp τ sig (Elt F))).Forall fun op => op.writes ⊆ ((win7b_W ++ win8_W ++ win9_W ++ win10_W ++ win11a_W).map (Proc.devRef (τ := τ) .tc)).toFinset := wa (wa (wa (wa (win7b_writes) win8_writes) win9_writes) win10_writes) win11a_writes
theorem opsD_writes : (opsD : List (HloOp τ sig (Elt F))).Forall fun op => op.writes ⊆ ((win11b_W ++ win12_W).map (Proc.devRef (τ := τ) .tc)).toFinset := wa (win11b_writes) win12_writes
/-- Every operation writes inside `opsW`. -/
theorem ops_writes : (ops : List (HloOp τ sig (Elt F))).Forall fun op => op.writes ⊆ (opsW.map (Proc.devRef (τ := τ) .tc)).toFinset :=
  wa (wa (wa opsA_writes opsB_writes) opsC_writes) opsD_writes

/-! ## The run -/

/-- On every device, for any float values, from any memory with zero counters: every weakly fair execution of @main
    terminates, and every final state has each buffer at the operations' fold over the launch contents. -/
theorem run (m : (ℓ : Loc nD τ sig) → Buf (Elt F) ℓ) (ρ : Dev nD → PrngReg) :
    θ_run defs (onTc (τ := τ) (main (F := F))) ⟨m, fun _ => 0, ρ⟩ fun r => ∀ (d : Dev nD) (b : Ref sig .tc),
      r.2.mem ((d.tc : Thread nD τ).loc b) = after ops (launchContents m d) (Proc.devRef .tc b) :=
  run_seq scopedRefs_eq scopedSems_eq defs main (fun _ => ops) main_eq (fun _ => ops_sub) m ρ (fun _ => ops_fresh)

/-! ## No operation writes an argument

An argument is not among the references written (`opsW` lists each line's result, none an argument), so the fold leaves
it as it was. -/

theorem after_main_arg0 (V : Valuation τ sig (Elt F)) : after ops V (Proc.devRef .tc main_arg0) = V (Proc.devRef .tc main_arg0) :=
  after_of_writes_sub ops V ops_writes (by decide)
theorem after_main_arg1 (V : Valuation τ sig (Elt F)) : after ops V (Proc.devRef .tc main_arg1) = V (Proc.devRef .tc main_arg1) :=
  after_of_writes_sub ops V ops_writes (by decide)
theorem after_main_arg2 (V : Valuation τ sig (Elt F)) : after ops V (Proc.devRef .tc main_arg2) = V (Proc.devRef .tc main_arg2) :=
  after_of_writes_sub ops V ops_writes (by decide)
theorem after_main_arg3 (V : Valuation τ sig (Elt F)) : after ops V (Proc.devRef .tc main_arg3) = V (Proc.devRef .tc main_arg3) :=
  after_of_writes_sub ops V ops_writes (by decide)
theorem after_main_arg4 (V : Valuation τ sig (Elt F)) : after ops V (Proc.devRef .tc main_arg4) = V (Proc.devRef .tc main_arg4) :=
  after_of_writes_sub ops V ops_writes (by decide)
theorem after_main_arg5 (V : Valuation τ sig (Elt F)) : after ops V (Proc.devRef .tc main_arg5) = V (Proc.devRef .tc main_arg5) :=
  after_of_writes_sub ops V ops_writes (by decide)
theorem after_main_arg6 (V : Valuation τ sig (Elt F)) : after ops V (Proc.devRef .tc main_arg6) = V (Proc.devRef .tc main_arg6) :=
  after_of_writes_sub ops V ops_writes (by decide)
theorem after_main_arg7 (V : Valuation τ sig (Elt F)) : after ops V (Proc.devRef .tc main_arg7) = V (Proc.devRef .tc main_arg7) :=
  after_of_writes_sub ops V ops_writes (by decide)
theorem after_main_arg8 (V : Valuation τ sig (Elt F)) : after ops V (Proc.devRef .tc main_arg8) = V (Proc.devRef .tc main_arg8) :=
  after_of_writes_sub ops V ops_writes (by decide)
theorem after_main_arg9 (V : Valuation τ sig (Elt F)) : after ops V (Proc.devRef .tc main_arg9) = V (Proc.devRef .tc main_arg9) :=
  after_of_writes_sub ops V ops_writes (by decide)
theorem after_main_arg10 (V : Valuation τ sig (Elt F)) : after ops V (Proc.devRef .tc main_arg10) = V (Proc.devRef .tc main_arg10) :=
  after_of_writes_sub ops V ops_writes (by decide)

/-- The reference runs — terminates, no fault — and its eleven argument arrays end as launched. -/
theorem frame (m : (ℓ : Loc nD τ sig) → Buf (Elt F) ℓ) (ρ : Dev nD → PrngReg) :
    θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)) :=
  (θ_run defs _ _).mono (fun _ h c => ⟨(h c main_arg0).trans (after_main_arg0 _),
      (h c main_arg1).trans (after_main_arg1 _),
      (h c main_arg2).trans (after_main_arg2 _),
      (h c main_arg3).trans (after_main_arg3 _),
      (h c main_arg4).trans (after_main_arg4 _),
      (h c main_arg5).trans (after_main_arg5 _),
      (h c main_arg6).trans (after_main_arg6 _),
      (h c main_arg7).trans (after_main_arg7 _),
      (h c main_arg8).trans (after_main_arg8 _),
      (h c main_arg9).trans (after_main_arg9 _),
      (h c main_arg10).trans (after_main_arg10 _)⟩) (run m ρ)

end Cert.ReferenceIdeal.RR

end
-- ==== Proof.Spec.lean ====
/-
  The mathematics shared by the two programs, stated over plain index types and the extended reals,
  with no program in sight.

  One layer of the network maps a stack of four per-relation aggregates `A[r, i, k]` (node `i`,
  feature `k`), four weight matrices `W[r, k, j]` and four bias rows `B[r, j]` to
  `P[i, j] = Σ_r (Σ_k A[r,i,k]·W[r,k,j] + B[r,j])`.  The tiled program accumulates the eight terms
  left to right from zero (`preK`); the plain one adds the four bracketed relation terms
  (`preR`).  Addition on the extended reals is commutative and associative and `0` is neutral, so
  the two agree everywhere (`preK_eq_preR`) with no finiteness hypothesis.

  The first two layers are followed by a row normalisation `q = P[i,j] / max(√(Σ_j P[i,j]²), ε)` and a
  leaky rectifier.  The tiled program keeps `q` where `q > 0` and the plain one where `q ≥ 0`,
  each taking `s·q` otherwise; the two choices differ only at `q = 0`, where `s·0 = 0`
  (`leaky_gt_eq_ge`).
-/
import Idealize.ShloMosaic.PureOps.Ideal
import Idealize.ShloMosaic.PureOps.Ideal.Laws
import Idealize.ShloMosaic.Lib.ValueIdx

noncomputable section

namespace Cert.GNN

open Idealize.ShloMosaic Idealize.ShloMosaic.ValueIdx

/-- The stacked aggregates' index type: relation, node, feature. -/
abbrev SA : Shape := ⟨3, ![4, 50000, 128]⟩
/-- The stacked weights': relation, input feature, output feature. -/
abbrev SW : Shape := ⟨3, ![4, 128, 128]⟩
/-- The stacked biases': relation, output feature. -/
abbrev SB : Shape := ⟨2, ![4, 128]⟩
/-- A layer's result: node, output feature. -/
abbrev SH : Shape := ⟨2, ![50000, 128]⟩

/-- Relation `r`'s matrix product at (node `i`, output feature `j`). -/
def mm (A : SA.Idx → EReal) (W : SW.Idx → EReal) (r : Fin 4) (i : Fin 50000) (j : Fin 128) : EReal :=
  ∑ k : Fin 128, A (ix3 r i k) * W (ix3 r k j)

/-- The layer's pre-activation, the eight terms added left to right from zero. -/
def preK (A : SA.Idx → EReal) (W : SW.Idx → EReal) (B : SB.Idx → EReal) (i : Fin 50000) (j : Fin 128) : EReal :=
  0 + mm A W 0 i j + B (ix2 0 j) + mm A W 1 i j + B (ix2 1 j) + mm A W 2 i j + B (ix2 2 j) + mm A W 3 i j + B (ix2 3 j)

/-- The same, each relation's product and bias bracketed first. -/
def preR (A : SA.Idx → EReal) (W : SW.Idx → EReal) (B : SB.Idx → EReal) (i : Fin 50000) (j : Fin 128) : EReal :=
  (mm A W 0 i j + B (ix2 0 j)) + (mm A W 1 i j + B (ix2 1 j)) + (mm A W 2 i j + B (ix2 2 j)) + (mm A W 3 i j + B (ix2 3 j))

theorem preK_eq_preR (A : SA.Idx → EReal) (W : SW.Idx → EReal) (B : SB.Idx → EReal) (i : Fin 50000) (j : Fin 128) :
    preK A W B i j = preR A W B i j := by
  unfold preK preR
  rw [zero_add]
  simp only [add_assoc]

/-- The normalisation's floor `ε` and the rectifier's slope `s`, as the binary values both programs spell. -/
def eps : EReal := Ideal.ofBits .f32 0x2B8CBCCC#32
def slope : EReal := Ideal.ofBits .f32 0x3C23D70A#32

/-- A row's norm floored at `ε`. -/
def rowNorm (P : Fin 50000 → Fin 128 → EReal) (i : Fin 50000) : EReal :=
  max (Ideal.sqrt (∑ j : Fin 128, P i j * P i j)) eps

/-- The normalised entry. -/
def normed (P : Fin 50000 → Fin 128 → EReal) (i : Fin 50000) (j : Fin 128) : EReal :=
  Ideal.div (P i j) (rowNorm P i)

/-- The leaky rectifier choosing by `q > 0`, and choosing by `q ≥ 0`. -/
def leakyGt (q : EReal) : EReal := Scalar.select (Ideal.cmp .ogt q 0) q (slope * q)
def leakyGe (q : EReal) : EReal := Scalar.select (Ideal.cmp .oge q 0) q (slope * q)

theorem leaky_gt_eq_ge (q : EReal) : leakyGt q = leakyGe q := by
  unfold leakyGt leakyGe Scalar.select Ideal.cmp
  by_cases h : (0 : EReal) < q
  · have h' : (0 : EReal) ≤ q := le_of_lt h
    simp [h, h']
  · by_cases h0 : q = 0
    · subst h0; simp
    · have h' : ¬ (0 : EReal) ≤ q := fun hle => h (lt_of_le_of_ne hle (Ne.symm h0))
      simp [h, h']

/-- An activated layer, in each program's spelling. -/
def actK (P : Fin 50000 → Fin 128 → EReal) (i : Fin 50000) (j : Fin 128) : EReal := leakyGt (normed P i j)
def actR (P : Fin 50000 → Fin 128 → EReal) (i : Fin 50000) (j : Fin 128) : EReal := leakyGe (normed P i j)

theorem actK_eq_actR (P : Fin 50000 → Fin 128 → EReal) (i : Fin 50000) (j : Fin 128) : actK P i j = actR P i j :=
  leaky_gt_eq_ge _

/-- The first two layers as whole arrays (kernel spelling), and the third (no activation). -/
def layerActK (A : SA.Idx → EReal) (W : SW.Idx → EReal) (B : SB.Idx → EReal) : SH.Idx → EReal :=
  fun y => actK (preK A W B) (y 0) (y 1)
def layerK (A : SA.Idx → EReal) (W : SW.Idx → EReal) (B : SB.Idx → EReal) : SH.Idx → EReal :=
  fun y => preK A W B (y 0) (y 1)
/-- The same in the reference's spelling. -/
def layerActR (A : SA.Idx → EReal) (W : SW.Idx → EReal) (B : SB.Idx → EReal) : SH.Idx → EReal :=
  fun y => actR (preR A W B) (y 0) (y 1)
def layerR (A : SA.Idx → EReal) (W : SW.Idx → EReal) (B : SB.Idx → EReal) : SH.Idx → EReal :=
  fun y => preR A W B (y 0) (y 1)

theorem layerK_eq_layerR (A : SA.Idx → EReal) (W : SW.Idx → EReal) (B : SB.Idx → EReal) : layerK A W B = layerR A W B :=
  funext fun y => preK_eq_preR A W B (y 0) (y 1)

theorem layerActK_eq_layerActR (A : SA.Idx → EReal) (W : SW.Idx → EReal) (B : SB.Idx → EReal) :
    layerActK A W B = layerActR A W B := by
  have hP : preK A W B = preR A W B := funext fun i => funext fun j => preK_eq_preR A W B i j
  funext y
  exact (actK_eq_actR (preK A W B) (y 0) (y 1)).trans (congrArg (fun P => actR P (y 0) (y 1)) hP)

end Cert.GNN

end
-- ==== Proof.KValCommon.lean ====
/-
  What one tile of a layer computes, read entry by entry over the extended reals, with no program in sight.

  A tile is 5000 rows of the layer's result. The tiled program forms, for each of the four relations, the
  product of the relation's 5000 x 128 slab of aggregates with its 128 x 128 weight, accumulated from a zero
  splat, and the relation's bias row broadcast over the rows; it adds the eight terms left to right from a
  zero splat. The first two layers then divide every row by its Euclidean norm floored at eps (the row's sum of
  squares, reshaped to a column, rooted, floored, broadcast back over the row) and apply the leaky rectifier.

  Each of these stages is read here at an entry (p, q) of the tile; the results are phrased through one row of
  the pre-activation (preRow) and one row's activation (actRow), which are the specification's preK and
  actK seen from a single row.
-/
import proofs.«158609_j30133490549165_1_alg».proof.Proof.Spec
import Idealize.ShloMosaic.Lib.ValueLayout
import Idealize.ShloMosaic.PureOps.Ideal.Laws

noncomputable section

namespace Cert.KernelIdeal.KV

open Idealize.ShloMosaic Idealize.ShloMosaic.ValueIdx Cert.GNN

/-! ## One row of the specification -/

/-- Row i of the pre-activation depends on the aggregates only through the four vectors a r = A[r, i, .]:
    the eight terms added left to right from zero. -/
def preRow (a : Fin 4 → Fin 128 → EReal) (W : SW.Idx → EReal) (B : SB.Idx → EReal) (j : Fin 128) : EReal :=
  0 + (∑ k : Fin 128, a 0 k * W (ix3 0 k j)) + B (ix2 0 j) + (∑ k : Fin 128, a 1 k * W (ix3 1 k j)) + B (ix2 1 j)
    + (∑ k : Fin 128, a 2 k * W (ix3 2 k j)) + B (ix2 2 j) + (∑ k : Fin 128, a 3 k * W (ix3 3 k j)) + B (ix2 3 j)

theorem preK_eq_preRow (A : SA.Idx → EReal) (W : SW.Idx → EReal) (B : SB.Idx → EReal) (i : Fin 50000) (j : Fin 128) :
    preK A W B i j = preRow (fun r k => A (ix3 r i k)) W B j := rfl

/-- The activation of a row P at column j: the entry over the row's floored norm, through the leaky rectifier. -/
def actRow (P : Fin 128 → EReal) (j : Fin 128) : EReal :=
  leakyGt (Ideal.div (P j) (max (Ideal.sqrt (∑ l : Fin 128, P l * P l)) eps))

theorem actK_eq_actRow (P : Fin 50000 → Fin 128 → EReal) (i : Fin 50000) (j : Fin 128) : actK P i j = actRow (P i) j := rfl

/-! ## Two layout operations read at an index: a vector as a column, a column broadcast over its rows -/

/-- A vector [a] viewed as a column [a, 1] reads, at (i, u), the operand at i. -/
theorem shapeCast_a_a1_apply {α : Type} {a : ℕ} (x : (⟨1, ![a]⟩ : Shape).Idx → α)
    (h : (⟨1, ![a]⟩ : Shape).ShapeCasts ⟨2, ![a, 1]⟩) (i : Fin a) (u : Fin 1) :
    shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- A column [a, 1] broadcast to [a, b] reads, at (p, c), the column's entry p. -/
theorem broadcastTo_a1_ab_apply {α : Type} {a b : ℕ} (v : (⟨2, ![a, 1]⟩ : Shape).Idx → α)
    (h : (⟨2, ![a, 1]⟩ : Shape).Broadcasts ⟨2, ![a, b]⟩) (p : Fin a) (c : Fin b) :
    broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-! ## The shapes of a tile -/

/-- A relation's slab of aggregates and the result's tile: 5000 rows of 128 features. -/
abbrev TA : Shape := ⟨2, ![5000, 128]⟩
/-- A relation's weight. -/
abbrev TW : Shape := ⟨2, ![128, 128]⟩
/-- The same with the relation's unit axis in front, as the slabs are loaded. -/
abbrev TA1 : Shape := ⟨3, ![1, 5000, 128]⟩
abbrev TW1 : Shape := ⟨3, ![1, 128, 128]⟩
/-- A bias row, with and without its unit axis. -/
abbrev TB1 : Shape := ⟨2, ![1, 128]⟩
abbrev TB : Shape := ⟨1, ![128]⟩
/-- The rows' norms: a vector, and the same as a column. -/
abbrev TR : Shape := ⟨1, ![5000]⟩
abbrev TC : Shape := ⟨2, ![5000, 1]⟩

/-! ## A relation's product at an entry -/

/-- A matrix product of a slab with a weight into the zero splat, contracting the slab's features with the weight's
    rows, is at (p, q) the sum over the feature k of slab (p, k) times weight (k, q). The dimension numbers
    enter through what they say of the two operand indices: the contracted axes, and that the free axes follow
    the result's. -/
theorem matmul_tile_apply (D : DotDims TA TW TA) (hl : D.lhsContracting = [1]) (hr : D.rhsContracting = [0])
    (hl0 : ∀ j k, (D.lhsIdx j k 0).val = (j 0).val) (hr1 : ∀ j k, (D.rhsIdx j k 1).val = (j 1).val)
    (v : FVec Ideal TA .bf16) (w : FVec Ideal TW .bf16) (p : Fin 5000) (q : Fin 128) :
    matmul D none v w (constant (F := Ideal) TA .f32 0x00000000#32) (ix2 p q) = ∑ k : Fin 128, v (ix2 p k) * w (ix2 k q) := by
  have hrk : D.contr.rank = 1 := by rw [D.rank_contr, hl]; rfl
  have hs : D.contr.size ⟨0, by omega⟩ = 128 := by
    have h0 : 0 < D.lhsContracting.length := by rw [hl]; exact Nat.one_pos
    refine (D.size_contr 0 h0).trans ?_
    have e : D.lhsContracting[0]'h0 = (1 : Fin TA.rank) := by simp [hl]
    rw [e]; rfl
  refine (Ideal.matmul_constant_zero_apply D none v w (ix2 p q)).trans ?_
  rw [← Equiv.sum_comp (contrEquiv1 D 128 hrk hs).symm]
  refine Finset.sum_congr rfl fun k _ => ?_
  refine congrArg₂ (· * ·) (congrArg v (funext fun a => Fin.ext ?_)) (congrArg w (funext fun a => Fin.ext ?_))
  · match a with
    | ⟨0, _⟩ => exact hl0 _ _
    | ⟨1, _⟩ => exact (D.lhsIdx_val_of_single hl _ _).trans (contrEquiv1_symm_val D 128 hrk hs k)
  · match a with
    | ⟨0, _⟩ => exact (D.rhsIdx_val_of_single hr _ _).trans (contrEquiv1_symm_val D 128 hrk hs k)
    | ⟨1, _⟩ => exact hr1 _ _

/-- The same with both operands loaded with their relation's unit axis in front and viewed without it. -/
theorem mm_tile_apply (D : DotDims TA TW TA) (hl : D.lhsContracting = [1]) (hr : D.rhsContracting = [0])
    (hl0 : ∀ j k, (D.lhsIdx j k 0).val = (j 0).val) (hr1 : ∀ j k, (D.rhsIdx j k 1).val = (j 1).val)
    (ha : TA1.ShapeCasts TA) (hw : TW1.ShapeCasts TW)
    (a : FVec Ideal TA1 .bf16) (w : FVec Ideal TW1 .bf16) (p : Fin 5000) (q : Fin 128) :
    matmul D none (shapeCast TA a ha) (shapeCast TW w hw) (constant (F := Ideal) TA .f32 0x00000000#32) (ix2 p q)
      = ∑ k : Fin 128, a (ix3 (0 : Fin 1) p k) * w (ix3 (0 : Fin 1) k q) := by
  refine (matmul_tile_apply D hl hr hl0 hr1 _ _ p q).trans ?_
  refine Finset.sum_congr rfl fun k _ => ?_
  exact congrArg₂ (· * ·) (shapeCast_1ab_ab_apply a ha p k) (shapeCast_1ab_ab_apply w hw k q)

/-! ## A relation's bias at an entry -/

/-- A bias row loaded as [1, 128], flattened, given its unit axis back and broadcast over the tile's rows reads,
    at (p, q), the row's entry q. -/
theorem bias_tile_apply (h1 : TB1.ShapeCasts TB) (h2 : TB.ShapeCasts TB1) (hb : TB1.Broadcasts TA)
    (b : FVec Ideal TB1 .f32) (p : Fin 5000) (q : Fin 128) :
    broadcastTo TA (shapeCast TB1 (shapeCast TB b h1) h2) hb (ix2 p q) = b (ix2 (0 : Fin 1) q) :=
  (broadcastTo_1b_ab_apply _ hb p q).trans
    ((shapeCast_a_1a_apply _ h2 (0 : Fin 1) q).trans (shapeCast_1a_a_apply b h1 q))

/-! ## A row's sum of squares, its floored norm, the activation -/

/-- The sum along the features of a tile reads, at row p, the sum of the row's entries. -/
theorem rowSum_tile_apply (src : FVec Ideal TA .f32) (acc : BitVec (FTy.bits .f32)) (h : TA.Reduces [1] TR)
    (hφ : FKind.Formats .f32) (hacc : acc = FKind.add.neutral .f32 hφ) (p : Fin 5000) :
    multiReduction .add [1] TR src acc h hφ hacc (ix1 p) = ∑ l : Fin 128, src (ix2 p l) := by
  refine (Ideal.multiReduction_add_single src acc h hφ hacc (ix1 p)).trans ?_
  refine Finset.sum_congr rfl fun l _ => congrArg src (funext fun a => Fin.ext ?_)
  match a with
  | ⟨0, _⟩ => rfl
  | ⟨1, _⟩ => rfl

/-- The tile of floored row norms: the rows' sums of squares as a column, rooted, floored at eps, broadcast
    back over each row. -/
def tileNorm (v : FVec Ideal TA .f32) (acc : BitVec (FTy.bits .f32)) (hred : TA.Reduces [1] TR)
    (hφ : FKind.Formats .f32) (hacc : acc = FKind.add.neutral .f32 hφ) (hsc : TR.ShapeCasts TC) (hbc : TC.Broadcasts TA) :
    FVec Ideal TA .f32 :=
  broadcastTo TA (maximumf (sqrt (shapeCast TC (multiReduction .add [1] TR (mulf v v) acc hred hφ hacc) hsc))
    (broadcast TC (Scalar.ofBits (F := Ideal) .f32 0x2B8CBCCC#32))) hbc

theorem tileNorm_apply (v : FVec Ideal TA .f32) (acc : BitVec (FTy.bits .f32)) (hred : TA.Reduces [1] TR)
    (hφ : FKind.Formats .f32) (hacc : acc = FKind.add.neutral .f32 hφ) (hsc : TR.ShapeCasts TC) (hbc : TC.Broadcasts TA)
    (p : Fin 5000) (q : Fin 128) :
    tileNorm v acc hred hφ hacc hsc hbc (ix2 p q) = max (Ideal.sqrt (∑ l : Fin 128, v (ix2 p l) * v (ix2 p l))) eps := by
  unfold tileNorm
  refine (broadcastTo_a1_ab_apply _ hbc p q).trans ?_
  show max (Ideal.sqrt (shapeCast TC (multiReduction .add [1] TR (mulf v v) acc hred hφ hacc) hsc (ix2 p (0 : Fin 1)))) eps = _
  rw [shapeCast_a_a1_apply, rowSum_tile_apply]
  rfl

/-- The leaky rectifier of a tile over a tile of divisors, as the program spells it: keep the quotient where it is
    above zero, else the slope times it. -/
def tileAct (v n : FVec Ideal TA .f32) : FVec Ideal TA .f32 :=
  select (cmpf .ogt (divf v n) (broadcast TA (Scalar.ofBits (F := Ideal) .f32 0x00000000#32))) (divf v n)
    (mulf (broadcast TA (Scalar.ofBits (F := Ideal) .f32 0x3C23D70A#32)) (divf v n))

theorem tileAct_apply (v n : FVec Ideal TA .f32) (i : TA.Idx) : tileAct v n i = leakyGt (Ideal.div (v i) (n i)) := by
  show Scalar.select (Ideal.cmp .ogt (Ideal.div (v i) (n i)) (Ideal.ofBits .f32 0x00000000#32)) (Ideal.div (v i) (n i))
    (slope * Ideal.div (v i) (n i)) = _
  rw [Ideal.ofBits_zero_f32]
  rfl

/-- Normalisation and rectifier together, at an entry: the activation of the entry's row. -/
theorem act_tile_apply (v : FVec Ideal TA .f32) (acc : BitVec (FTy.bits .f32)) (hred : TA.Reduces [1] TR)
    (hφ : FKind.Formats .f32) (hacc : acc = FKind.add.neutral .f32 hφ) (hsc : TR.ShapeCasts TC) (hbc : TC.Broadcasts TA)
    (p : Fin 5000) (q : Fin 128) :
    tileAct v (tileNorm v acc hred hφ hacc hsc hbc) (ix2 p q) = actRow (fun l => v (ix2 p l)) q := by
  rw [tileAct_apply, tileNorm_apply]
  rfl

/-! ## The tile's pre-activation -/

/-- The eight terms added left to right from the zero splat: relation by relation, the slab times the weight, then
    the bias row over the rows. -/
def tilePre (D : DotDims TA TW TA) (ha : TA1.ShapeCasts TA) (hw : TW1.ShapeCasts TW) (h1 : TB1.ShapeCasts TB)
    (h2 : TB.ShapeCasts TB1) (hb : TB1.Broadcasts TA)
    (a0 a1 a2 a3 : FVec Ideal TA1 .bf16) (w0 w1 w2 w3 : FVec Ideal TW1 .bf16) (b0 b1 b2 b3 : FVec Ideal TB1 .f32) :
    FVec Ideal TA .f32 :=
  addf (addf (addf (addf (addf (addf (addf (addf (broadcast TA (Scalar.ofBits (F := Ideal) .f32 0x00000000#32))
    (matmul D none (shapeCast TA a0 ha) (shapeCast TW w0 hw) (constant (F := Ideal) TA .f32 0x00000000#32)))
    (broadcastTo TA (shapeCast TB1 (shapeCast TB b0 h1) h2) hb))
    (matmul D none (shapeCast TA a1 ha) (shapeCast TW w1 hw) (constant (F := Ideal) TA .f32 0x00000000#32)))
    (broadcastTo TA (shapeCast TB1 (shapeCast TB b1 h1) h2) hb))
    (matmul D none (shapeCast TA a2 ha) (shapeCast TW w2 hw) (constant (F := Ideal) TA .f32 0x00000000#32)))
    (broadcastTo TA (shapeCast TB1 (shapeCast TB b2 h1) h2) hb))
    (matmul D none (shapeCast TA a3 ha) (shapeCast TW w3 hw) (constant (F := Ideal) TA .f32 0x00000000#32)))
    (broadcastTo TA (shapeCast TB1 (shapeCast TB b3 h1) h2) hb)

theorem tilePre_apply (D : DotDims TA TW TA) (hl : D.lhsContracting = [1]) (hr : D.rhsContracting = [0])
    (hl0 : ∀ j k, (D.lhsIdx j k 0).val = (j 0).val) (hr1 : ∀ j k, (D.rhsIdx j k 1).val = (j 1).val)
    (ha : TA1.ShapeCasts TA) (hw : TW1.ShapeCasts TW) (h1 : TB1.ShapeCasts TB)
    (h2 : TB.ShapeCasts TB1) (hb : TB1.Broadcasts TA)
    (a0 a1 a2 a3 : FVec Ideal TA1 .bf16) (w0 w1 w2 w3 : FVec Ideal TW1 .bf16) (b0 b1 b2 b3 : FVec Ideal TB1 .f32)
    (p : Fin 5000) (q : Fin 128) :
    tilePre D ha hw h1 h2 hb a0 a1 a2 a3 w0 w1 w2 w3 b0 b1 b2 b3 (ix2 p q)
      = 0 + (∑ k : Fin 128, a0 (ix3 (0 : Fin 1) p k) * w0 (ix3 (0 : Fin 1) k q)) + b0 (ix2 (0 : Fin 1) q)
          + (∑ k : Fin 128, a1 (ix3 (0 : Fin 1) p k) * w1 (ix3 (0 : Fin 1) k q)) + b1 (ix2 (0 : Fin 1) q)
          + (∑ k : Fin 128, a2 (ix3 (0 : Fin 1) p k) * w2 (ix3 (0 : Fin 1) k q)) + b2 (ix2 (0 : Fin 1) q)
          + (∑ k : Fin 128, a3 (ix3 (0 : Fin 1) p k) * w3 (ix3 (0 : Fin 1) k q)) + b3 (ix2 (0 : Fin 1) q) := by
  unfold tilePre
  simp only [addf_apply, broadcast_apply]
  rw [mm_tile_apply D hl hr hl0 hr1 ha hw a0 w0 p q, mm_tile_apply D hl hr hl0 hr1 ha hw a1 w1 p q,
    mm_tile_apply D hl hr hl0 hr1 ha hw a2 w2 p q, mm_tile_apply D hl hr hl0 hr1 ha hw a3 w3 p q,
    bias_tile_apply h1 h2 hb b0 p q, bias_tile_apply h1 h2 hb b1 p q, bias_tile_apply h1 h2 hb b2 p q,
    bias_tile_apply h1 h2 hb b3 p q]
  exact congrArg (fun z : EReal => z + _ + _ + _ + _ + _ + _ + _ + _) Ideal.ofBits_zero_f32

/-! ## A slab of a stacked block, and the tile's pre-activation from the stacked blocks -/

/-- Loading relation r's slab of a block stacked along its first axis reads, at (0, p, k), the block at (r, p, k):
    the slab starts at r on the stacking axis and at zero on the others. -/
theorem ld_slab3 {n1 n2 : ℕ} {α : Type} (x : (⟨3, ![4, n1, n2]⟩ : Shape).Idx → α) (r : Fin 4) (off : Fin 3 → ℕ)
    (inb : ∀ a, off a + (![1, n1, n2] : Fin 3 → ℕ) a ≤ (⟨3, ![4, n1, n2]⟩ : Shape).size a)
    (h0 : off 0 = r.val) (h1 : off 1 = 0) (h2 : off 2 = 0) (p : Fin n1) (k : Fin n2) :
    x ((Rect.unit (s := ⟨3, ![4, n1, n2]⟩) off ![1, n1, n2] inb).idx (ix3 (0 : Fin 1) p k)) = x (ix3 r p k) := by
  refine congrArg x (funext fun a => Fin.ext ?_)
  match a with
  | ⟨0, _⟩ => show off 0 + 1 * (0 : ℕ) = r.val; omega
  | ⟨1, _⟩ => show off 1 + 1 * p.val = p.val; omega
  | ⟨2, _⟩ => show off 2 + 1 * k.val = k.val; omega

/-- The same for a stack of rows: relation r's row reads, at (0, q), the stack at (r, q). -/
theorem ld_row2 {n : ℕ} {α : Type} (x : (⟨2, ![4, n]⟩ : Shape).Idx → α) (r : Fin 4) (off : Fin 2 → ℕ)
    (inb : ∀ a, off a + (![1, n] : Fin 2 → ℕ) a ≤ (⟨2, ![4, n]⟩ : Shape).size a)
    (h0 : off 0 = r.val) (h1 : off 1 = 0) (q : Fin n) :
    x ((Rect.unit (s := ⟨2, ![4, n]⟩) off ![1, n] inb).idx (ix2 (0 : Fin 1) q)) = x (ix2 r q) := by
  refine congrArg x (funext fun a => Fin.ext ?_)
  match a with
  | ⟨0, _⟩ => show off 0 + 1 * (0 : ℕ) = r.val; omega
  | ⟨1, _⟩ => show off 1 + 1 * q.val = q.val; omega

/-- When the twelve loaded pieces are the four relations' slabs, weights and bias rows of three stacked blocks
    x0, x1, x2, the tile's pre-activation at (p, l) is row p's pre-activation at l. -/
theorem tilePre_rows_apply (D : DotDims TA TW TA) (hl : D.lhsContracting = [1]) (hr : D.rhsContracting = [0])
    (hl0 : ∀ j k, (D.lhsIdx j k 0).val = (j 0).val) (hr1 : ∀ j k, (D.rhsIdx j k 1).val = (j 1).val)
    (ha : TA1.ShapeCasts TA) (hw : TW1.ShapeCasts TW) (h1 : TB1.ShapeCasts TB)
    (h2 : TB.ShapeCasts TB1) (hb : TB1.Broadcasts TA)
    (a0 a1 a2 a3 : FVec Ideal TA1 .bf16) (w0 w1 w2 w3 : FVec Ideal TW1 .bf16) (b0 b1 b2 b3 : FVec Ideal TB1 .f32)
    (x0 : (⟨3, ![4, 5000, 128]⟩ : Shape).Idx → EReal) (x1 : SW.Idx → EReal) (x2 : SB.Idx → EReal)
    (p : Fin 5000) (l : Fin 128)
    (ea0 : ∀ k, a0 (ix3 (0 : Fin 1) p k) = x0 (ix3 0 p k)) (ea1 : ∀ k, a1 (ix3 (0 : Fin 1) p k) = x0 (ix3 1 p k))
    (ea2 : ∀ k, a2 (ix3 (0 : Fin 1) p k) = x0 (ix3 2 p k)) (ea3 : ∀ k, a3 (ix3 (0 : Fin 1) p k) = x0 (ix3 3 p k))
    (ew0 : ∀ k, w0 (ix3 (0 : Fin 1) k l) = x1 (ix3 0 k l)) (ew1 : ∀ k, w1 (ix3 (0 : Fin 1) k l) = x1 (ix3 1 k l))
    (ew2 : ∀ k, w2 (ix3 (0 : Fin 1) k l) = x1 (ix3 2 k l)) (ew3 : ∀ k, w3 (ix3 (0 : Fin 1) k l) = x1 (ix3 3 k l))
    (eb0 : b0 (ix2 (0 : Fin 1) l) = x2 (ix2 0 l)) (eb1 : b1 (ix2 (0 : Fin 1) l) = x2 (ix2 1 l))
    (eb2 : b2 (ix2 (0 : Fin 1) l) = x2 (ix2 2 l)) (eb3 : b3 (ix2 (0 : Fin 1) l) = x2 (ix2 3 l)) :
    tilePre D ha hw h1 h2 hb a0 a1 a2 a3 w0 w1 w2 w3 b0 b1 b2 b3 (ix2 p l)
      = preRow (fun r k => x0 (ix3 r p k)) x1 x2 l := by
  rw [tilePre_apply D hl hr hl0 hr1]
  unfold preRow
  simp only [ea0, ea1, ea2, ea3, ew0, ew1, ew2, ew3, eb0, eb1, eb2, eb3]

end Cert.KernelIdeal.KV

end
-- ==== Proof.KVal0.lean ====
/-
  Kernel region 0: the result array after the region, as one function of the region's three input arrays.

  The region runs its body once per tile of 5000 rows, ten tiles in all. At a tile the body sees the four
  relations' slabs of the aggregates for the tile's rows, all four weights and all four bias rows, and stores the
  whole tile of the result once. Read at an entry (p, q) of the tile, what it stores is the sum over the
  relations of slab times weight plus bias, divided by the floored Euclidean norm of row p of that sum and passed
  through the leaky rectifier: the layer's value at row 5000 t + p of the array, because the
  aggregates' block at point t holds exactly the rows 5000 t ... 5000 t + 4999 of the stacked aggregates while the
  weights' and biases' blocks are the whole arrays at every point. The ten tiles cover the 50000 rows (row i lies
  in tile i / 5000), so after the region the result array is the layer's value everywhere.
-/
import proofs.«158609_j30133490549165_1_alg».proof.Proof.KValCommon
import proofs.«158609_j30133490549165_1_alg».proof.Proof.KBody0

noncomputable section

namespace Cert.KernelIdeal.KV

open Cert.KernelIdeal Cert.KernelIdeal.Gen Cert.GNN
open Idealize.ShloMosaic Idealize.ShloMosaic.ValueIdx Idealize.ShloMosaic.TcCoe Idealize.SL.Sem
open Idealize.ShloMosaic.Pipeline (Dat)

/-! ## The program's one matrix product: what its dimension numbers say of the operand indices -/

theorem dot0_l : (dot_S5000x128_S128x128_S5000x128_1_0_0_1_n_n).lhsContracting = [1] := rfl
theorem dot0_r : (dot_S5000x128_S128x128_S5000x128_1_0_0_1_n_n).rhsContracting = [0] := rfl
theorem dot0_l0 : ∀ (j : S5000x128.Idx) (k : (dot_S5000x128_S128x128_S5000x128_1_0_0_1_n_n).contr.Idx),
    ((dot_S5000x128_S128x128_S5000x128_1_0_0_1_n_n).lhsIdx j k 0).val = (j 0).val := fun _ _ => rfl
theorem dot0_r1 : ∀ (j : S5000x128.Idx) (k : (dot_S5000x128_S128x128_S5000x128_1_0_0_1_n_n).contr.Idx),
    ((dot_S5000x128_S128x128_S5000x128_1_0_0_1_n_n).rhsIdx j k 1).val = (j 1).val := fun _ _ => rfl

/-! ## The body's payload as the tile's formula -/

/-- The payload the body stores is, of the twelve loaded pieces, the tile's pre-activation, normalised row by row and
    rectified. -/
theorem pay0_eq (l0 l3 l6 l9 : FVec Ideal S1x5000x128 .bf16) (l1 l4 l7 l10 : FVec Ideal S1x128x128 .bf16)
    (l2 l5 l8 l11 : FVec Ideal S1x128 .f32) :
    k0_pay1 (k0_pay2 l0 l1 l2 l3 l4 l5 l6 l7) (k0_pay3 l8) l9 l10 l11
      = tileAct (tilePre dot_S5000x128_S128x128_S5000x128_1_0_0_1_n_n shapeCasts_S1x5000x128_S5000x128 shapeCasts_S1x128x128_S128x128
          shapeCasts_S1x128_S128 shapeCasts_S128_S1x128 broadcasts_S1x128_S5000x128 l0 l3 l6 l9 l1 l4 l7 l10 l2 l5 l8 l11)
        (tileNorm (tilePre dot_S5000x128_S128x128_S5000x128_1_0_0_1_n_n shapeCasts_S1x5000x128_S5000x128 shapeCasts_S1x128x128_S128x128
          shapeCasts_S1x128_S128 shapeCasts_S128_S1x128 broadcasts_S1x128_S5000x128 l0 l3 l6 l9 l1 l4 l7 l10 l2 l5 l8 l11)
          0x00000000#32 reduces_S5000x128_S5000 (.inl rfl) rfl shapeCasts_S5000_S5000x1 broadcasts_S5000x1_S5000x128) := rfl

/-- The pre-activation of the loaded slabs at (p, l) is row p's, of the three blocks. -/
theorem rows0_eq (x0 : FVec Ideal S4x5000x128 .bf16) (x1 : FVec Ideal S4x128x128 .bf16) (x2 : FVec Ideal S4x128 .f32)
    (p : Fin 5000) (l : Fin 128) :
    tilePre dot_S5000x128_S128x128_S5000x128_1_0_0_1_n_n shapeCasts_S1x5000x128_S5000x128 shapeCasts_S1x128x128_S128x128
        shapeCasts_S1x128_S128 shapeCasts_S128_S1x128 broadcasts_S1x128_S5000x128
        (View.ld (Val := Elt Ideal) (e' := .bf16) x0 KF.r0_0) (View.ld (Val := Elt Ideal) (e' := .bf16) x0 KF.r0_3) (View.ld (Val := Elt Ideal) (e' := .bf16) x0 KF.r0_6) (View.ld (Val := Elt Ideal) (e' := .bf16) x0 KF.r0_9)
        (View.ld (Val := Elt Ideal) (e' := .bf16) x1 KF.r0_1) (View.ld (Val := Elt Ideal) (e' := .bf16) x1 KF.r0_4) (View.ld (Val := Elt Ideal) (e' := .bf16) x1 KF.r0_7) (View.ld (Val := Elt Ideal) (e' := .bf16) x1 KF.r0_10)
        (View.ld (Val := Elt Ideal) (e' := .f32) x2 KF.r0_2) (View.ld (Val := Elt Ideal) (e' := .f32) x2 KF.r0_5) (View.ld (Val := Elt Ideal) (e' := .f32) x2 KF.r0_8) (View.ld (Val := Elt Ideal) (e' := .f32) x2 KF.r0_11) (ix2 p l)
      = preRow (fun r k => x0 (ix3 r p k)) x1 x2 l :=
  tilePre_rows_apply _ dot0_l dot0_r dot0_l0 dot0_r1 _ _ _ _ _ _ _ _ _ _ _ _ _ _ _ _ _ x0 x1 x2 p l
    (fun k => ld_slab3 x0 0 _ _ rfl rfl rfl p k) (fun k => ld_slab3 x0 1 _ _ rfl rfl rfl p k)
    (fun k => ld_slab3 x0 2 _ _ rfl rfl rfl p k) (fun k => ld_slab3 x0 3 _ _ rfl rfl rfl p k)
    (fun k => ld_slab3 x1 0 _ _ rfl rfl rfl k l) (fun k => ld_slab3 x1 1 _ _ rfl rfl rfl k l)
    (fun k => ld_slab3 x1 2 _ _ rfl rfl rfl k l) (fun k => ld_slab3 x1 3 _ _ rfl rfl rfl k l)
    (ld_row2 x2 0 _ _ rfl rfl l) (ld_row2 x2 1 _ _ rfl rfl l) (ld_row2 x2 2 _ _ rfl rfl l) (ld_row2 x2 3 _ _ rfl rfl l)

/-- What the body leaves in the result's buffer, at entry (p, q), from the three input blocks. -/
theorem out0_entry (x0 : FVec Ideal S4x5000x128 .bf16) (x1 : FVec Ideal S4x128x128 .bf16) (x2 : FVec Ideal S4x128 .f32)
    (p : Fin 5000) (q : Fin 128) :
    KF.out0_3 (F := Ideal) x0 x1 x2 (ix2 p q) = actRow (preRow (fun r k => x0 (ix3 r p k)) x1 x2) q := by
  rw [KF.out0_3_eq]
  refine (congrFun (pay0_eq _ _ _ _ _ _ _ _ _ _ _ _) (ix2 p q)).trans ?_
  refine (act_tile_apply _ _ _ _ _ _ _ p q).trans ?_
  refine congrArg (fun P => actRow P q) (funext fun l => ?_)
  exact rows0_eq x0 x1 x2 p l

/-- So when the aggregates' block holds rows of the array A around row i at its row p, and the other two blocks are the
    whole arrays W and B, the body leaves the layer's value at (i, q). -/
theorem out0_value (A : SA.Idx → EReal) (W : SW.Idx → EReal) (B : SB.Idx → EReal)
    (x0 : FVec Ideal S4x5000x128 .bf16) (x1 : FVec Ideal S4x128x128 .bf16) (x2 : FVec Ideal S4x128 .f32)
    (i : Fin 50000) (p : Fin 5000) (q : Fin 128)
    (h0 : ∀ (r : Fin 4) (k : Fin 128), x0 (ix3 r p k) = A (ix3 r i k)) (h1 : x1 = W) (h2 : x2 = B) :
    KF.out0_3 (F := Ideal) x0 x1 x2 (ix2 p q) = layerActK A W B (ix2 i q) := by
  rw [out0_entry]
  show actRow (preRow (fun r k => x0 (ix3 r p k)) x1 x2) q = actK (preK A W B) i q
  rw [actK_eq_actRow]
  refine congrArg (fun P => actRow P q) (funext fun l => ?_)
  rw [preK_eq_preRow, h1, h2]
  exact congrArg (fun a => preRow a W B l) (funext fun r => funext fun k => h0 r k)

/-! ## From tiles to the array -/

/-- The block index maps, decided over the ten grid points: the aggregates' block and the result's move along the rows
    with the point, the weights' and the biases' blocks stay. -/
theorem idx0_facts : ∀ t : Fin cfg0.N,
    win0_0.index t (0 : Fin 3) = 0 ∧ win0_0.index t (1 : Fin 3) = t.val ∧ win0_0.index t (2 : Fin 3) = 0
    ∧ win0_1.index t (0 : Fin 3) = 0 ∧ win0_1.index t (1 : Fin 3) = 0 ∧ win0_1.index t (2 : Fin 3) = 0
    ∧ win0_2.index t (0 : Fin 2) = 0 ∧ win0_2.index t (1 : Fin 2) = 0
    ∧ win0_3.index t (0 : Fin 2) = t.val ∧ win0_3.index t (1 : Fin 2) = 0 :=
  (by decide +kernel : ∀ t : Fin grid0.N, _)

variable (V : (c : Dev nD) → (b : Ref sig .tc) → Buf (Elt Ideal) ((c : Thread nD τ).loc b))

/-- What grid point t writes back is tile t of the layer's value of the three arrays as the region finds them:
    row p of the tile is row 5000 t + p of the array, and the aggregates' block holds exactly those rows. -/
theorem flushed0_eq (c : Dev nD) (t : Fin cfg0.N) :
    (KF.dat0 (F := Ideal) V c).flushed 3 t
      = ((cfg0.win 3).blk t).view.read (Elt Ideal) (layerActK (V c main_v184) (V c main_v185) (V c main_arg4)) := by
  show (cfg0.win 3).cut (grid0.coords t) ((KF.dat0 (F := Ideal) V c).after 3 t) = _
  rw [KF.after0_3]
  obtain ⟨e00, e01, e02, e10, e11, e12, e20, e21, e30, e31⟩ := idx0_facts t
  have ht : t.val < 10 := Nat.lt_of_lt_of_eq t.isLt N_0
  funext y
  obtain ⟨p, q, rfl⟩ : ∃ (p : Fin 5000) (q : Fin 128), y = ix2 p q := ⟨y 0, y 1, eq_ix2 y⟩
  have hp : t.val * 5000 + p.val < 50000 := by have := p.isLt; omega
  refine (out0_value (V c main_v184) (V c main_v185) (V c main_arg4) (KF.iblk0 V c 0 t) (KF.iblk0 V c 1 t) (KF.iblk0 V c 2 t)
    ⟨t.val * 5000 + p.val, hp⟩ p q ?_ ?_ ?_).trans ?_
  · intro r k
    show V c main_v184 (((cfg0.win 0).blk t).view.emb (ix3 r p k)) = V c main_v184 (ix3 r ⟨t.val * 5000 + p.val, hp⟩ k)
    refine congrArg (V c main_v184) (funext fun a => Fin.ext ?_)
    match a with
    | ⟨0, _⟩ => show win0_0.index t (0 : Fin 3) * 4 + 1 * r.val = r.val; omega
    | ⟨1, _⟩ => show win0_0.index t (1 : Fin 3) * 5000 + 1 * p.val = t.val * 5000 + p.val; omega
    | ⟨2, _⟩ => show win0_0.index t (2 : Fin 3) * 128 + 1 * k.val = k.val; omega
  · funext z
    show V c main_v185 (((cfg0.win 1).blk t).view.emb z) = V c main_v185 z
    refine congrArg (V c main_v185) (funext fun a => Fin.ext ?_)
    match a with
    | ⟨0, _⟩ => show win0_1.index t (0 : Fin 3) * 4 + 1 * (z 0).val = (z 0).val; omega
    | ⟨1, _⟩ => show win0_1.index t (1 : Fin 3) * 128 + 1 * (z 1).val = (z 1).val; omega
    | ⟨2, _⟩ => show win0_1.index t (2 : Fin 3) * 128 + 1 * (z 2).val = (z 2).val; omega
  · funext z
    show V c main_arg4 (((cfg0.win 2).blk t).view.emb z) = V c main_arg4 z
    refine congrArg (V c main_arg4) (funext fun a => Fin.ext ?_)
    match a with
    | ⟨0, _⟩ => show win0_2.index t (0 : Fin 2) * 4 + 1 * (z 0).val = (z 0).val; omega
    | ⟨1, _⟩ => show win0_2.index t (1 : Fin 2) * 128 + 1 * (z 1).val = (z 1).val; omega
  · show layerActK (V c main_v184) (V c main_v185) (V c main_arg4) (ix2 ⟨t.val * 5000 + p.val, hp⟩ q)
      = layerActK (V c main_v184) (V c main_v185) (V c main_arg4) (((cfg0.win 3).blk t).view.emb (ix2 p q))
    refine congrArg (layerActK (V c main_v184) (V c main_v185) (V c main_arg4)) (funext fun a => Fin.ext ?_)
    match a with
    | ⟨0, _⟩ => show t.val * 5000 + p.val = win0_3.index t (0 : Fin 2) * 5000 + 1 * p.val; omega
    | ⟨1, _⟩ => show q.val = win0_3.index t (1 : Fin 2) * 128 + 1 * q.val; omega

/-- An index of the result is in point t's tile iff each coordinate is in the tile's range on its axis. -/
theorem mem_blk0 (t : Fin cfg0.N) (i : S50000x128.Idx) :
    i ∈ ((cfg0.win 3).blk t).view.set ↔ ∀ a : Fin 2, win0_3.index t a * S5000x128.size a ≤ (i a).val
      ∧ (i a).val < win0_3.index t a * S5000x128.size a + S5000x128.size a := by
  show i ∈ ((View.whole main_v186).slice (win0_3.rect t)).set ↔ _
  rw [View.set_slice_whole, Rect.mem_set_unit]
  exact Iff.rfl

/-- Every row lies in a tile: row i in tile i / 5000. -/
theorem cover0 (i : S50000x128.Idx) :
    ∃ t : Fin cfg0.N, (cfg0.win 3).flush t = true ∧ i ∈ ((cfg0.win 3).blk t).view.set := by
  have hi0 : (i 0).val < 50000 := (i 0).isLt
  have hi1 : (i 1).val < 128 := (i 1).isLt
  have hN : cfg0.N = 10 := N_0
  have hlt : (i 0).val / 5000 < cfg0.N := by rw [hN]; omega
  obtain ⟨-, -, -, -, -, -, -, -, e30, e31⟩ := idx0_facts ⟨(i 0).val / 5000, hlt⟩
  have e30' : win0_3.index ⟨(i 0).val / 5000, hlt⟩ (0 : Fin 2) = (i 0).val / 5000 := e30
  refine ⟨⟨(i 0).val / 5000, hlt⟩, flush0_3 _, ?_⟩
  rw [mem_blk0]
  intro a
  match a with
  | ⟨0, _⟩ =>
    show win0_3.index ⟨(i 0).val / 5000, hlt⟩ (0 : Fin 2) * 5000 ≤ (i 0).val
      ∧ (i 0).val < win0_3.index ⟨(i 0).val / 5000, hlt⟩ (0 : Fin 2) * 5000 + 5000
    omega
  | ⟨1, _⟩ =>
    show win0_3.index ⟨(i 0).val / 5000, hlt⟩ (1 : Fin 2) * 128 ≤ (i 1).val
      ∧ (i 1).val < win0_3.index ⟨(i 0).val / 5000, hlt⟩ (1 : Fin 2) * 128 + 128
    omega

/-- The region's result array after the run: the layer's value of the three input arrays as the region finds them. -/
theorem region0_value (c : Dev nD) :
    (Cert.KernelIdeal.KF.dat0 (F := Ideal) V c).arrAt 3 cfg0.N
      = Cert.GNN.layerActK (V c main_v184) (V c main_v185) (V c main_arg4) :=
  (KF.dat0 (F := Ideal) V c).arrAt_eq_of_cover 3 (layerActK (V c main_v184) (V c main_v185) (V c main_arg4))
    (fun t _ => flushed0_eq V c t) cover0

end Cert.KernelIdeal.KV

end
-- ==== Proof.KVal1.lean ====
/-
  Kernel region 1: the result array after the region, as one function of the region's three input arrays.

  The region runs its body once per tile of 5000 rows, ten tiles in all. At a tile the body sees the four
  relations' slabs of the aggregates for the tile's rows, all four weights and all four bias rows, and stores the
  whole tile of the result once. Read at an entry (p, q) of the tile, what it stores is the sum over the
  relations of slab times weight plus bias, divided by the floored Euclidean norm of row p of that sum and passed
  through the leaky rectifier: the layer's value at row 5000 t + p of the array, because the
  aggregates' block at point t holds exactly the rows 5000 t ... 5000 t + 4999 of the stacked aggregates while the
  weights' and biases' blocks are the whole arrays at every point. The ten tiles cover the 50000 rows (row i lies
  in tile i / 5000), so after the region the result array is the layer's value everywhere.
-/
import proofs.«158609_j30133490549165_1_alg».proof.Proof.KValCommon
import proofs.«158609_j30133490549165_1_alg».proof.Proof.KBody1

noncomputable section

namespace Cert.KernelIdeal.KV

open Cert.KernelIdeal Cert.KernelIdeal.Gen Cert.GNN
open Idealize.ShloMosaic Idealize.ShloMosaic.ValueIdx Idealize.ShloMosaic.TcCoe Idealize.SL.Sem
open Idealize.ShloMosaic.Pipeline (Dat)

/-! ## The program's one matrix product: what its dimension numbers say of the operand indices -/

theorem dot1_l : (dot_S5000x128_S128x128_S5000x128_1_0_0_1_n_n).lhsContracting = [1] := rfl
theorem dot1_r : (dot_S5000x128_S128x128_S5000x128_1_0_0_1_n_n).rhsContracting = [0] := rfl
theorem dot1_l0 : ∀ (j : S5000x128.Idx) (k : (dot_S5000x128_S128x128_S5000x128_1_0_0_1_n_n).contr.Idx),
    ((dot_S5000x128_S128x128_S5000x128_1_0_0_1_n_n).lhsIdx j k 0).val = (j 0).val := fun _ _ => rfl
theorem dot1_r1 : ∀ (j : S5000x128.Idx) (k : (dot_S5000x128_S128x128_S5000x128_1_0_0_1_n_n).contr.Idx),
    ((dot_S5000x128_S128x128_S5000x128_1_0_0_1_n_n).rhsIdx j k 1).val = (j 1).val := fun _ _ => rfl

/-! ## The body's payload as the tile's formula -/

/-- The payload the body stores is, of the twelve loaded pieces, the tile's pre-activation, normalised row by row and
    rectified. -/
theorem pay1_eq (l0 l3 l6 l9 : FVec Ideal S1x5000x128 .bf16) (l1 l4 l7 l10 : FVec Ideal S1x128x128 .bf16)
    (l2 l5 l8 l11 : FVec Ideal S1x128 .f32) :
    k1_pay1 (k1_pay2 l0 l1 l2 l3 l4 l5 l6 l7) (k1_pay3 l8) l9 l10 l11
      = tileAct (tilePre dot_S5000x128_S128x128_S5000x128_1_0_0_1_n_n shapeCasts_S1x5000x128_S5000x128 shapeCasts_S1x128x128_S128x128
          shapeCasts_S1x128_S128 shapeCasts_S128_S1x128 broadcasts_S1x128_S5000x128 l0 l3 l6 l9 l1 l4 l7 l10 l2 l5 l8 l11)
        (tileNorm (tilePre dot_S5000x128_S128x128_S5000x128_1_0_0_1_n_n shapeCasts_S1x5000x128_S5000x128 shapeCasts_S1x128x128_S128x128
          shapeCasts_S1x128_S128 shapeCasts_S128_S1x128 broadcasts_S1x128_S5000x128 l0 l3 l6 l9 l1 l4 l7 l10 l2 l5 l8 l11)
          0x00000000#32 reduces_S5000x128_S5000 (.inl rfl) rfl shapeCasts_S5000_S5000x1 broadcasts_S5000x1_S5000x128) := rfl

/-- The pre-activation of the loaded slabs at (p, l) is row p's, of the three blocks. -/
theorem rows1_eq (x0 : FVec Ideal S4x5000x128 .bf16) (x1 : FVec Ideal S4x128x128 .bf16) (x2 : FVec Ideal S4x128 .f32)
    (p : Fin 5000) (l : Fin 128) :
    tilePre dot_S5000x128_S128x128_S5000x128_1_0_0_1_n_n shapeCasts_S1x5000x128_S5000x128 shapeCasts_S1x128x128_S128x128
        shapeCasts_S1x128_S128 shapeCasts_S128_S1x128 broadcasts_S1x128_S5000x128
        (View.ld (Val := Elt Ideal) (e' := .bf16) x0 KF.r1_0) (View.ld (Val := Elt Ideal) (e' := .bf16) x0 KF.r1_3) (View.ld (Val := Elt Ideal) (e' := .bf16) x0 KF.r1_6) (View.ld (Val := Elt Ideal) (e' := .bf16) x0 KF.r1_9)
        (View.ld (Val := Elt Ideal) (e' := .bf16) x1 KF.r1_1) (View.ld (Val := Elt Ideal) (e' := .bf16) x1 KF.r1_4) (View.ld (Val := Elt Ideal) (e' := .bf16) x1 KF.r1_7) (View.ld (Val := Elt Ideal) (e' := .bf16) x1 KF.r1_10)
        (View.ld (Val := Elt Ideal) (e' := .f32) x2 KF.r1_2) (View.ld (Val := Elt Ideal) (e' := .f32) x2 KF.r1_5) (View.ld (Val := Elt Ideal) (e' := .f32) x2 KF.r1_8) (View.ld (Val := Elt Ideal) (e' := .f32) x2 KF.r1_11) (ix2 p l)
      = preRow (fun r k => x0 (ix3 r p k)) x1 x2 l :=
  tilePre_rows_apply _ dot1_l dot1_r dot1_l0 dot1_r1 _ _ _ _ _ _ _ _ _ _ _ _ _ _ _ _ _ x0 x1 x2 p l
    (fun k => ld_slab3 x0 0 _ _ rfl rfl rfl p k) (fun k => ld_slab3 x0 1 _ _ rfl rfl rfl p k)
    (fun k => ld_slab3 x0 2 _ _ rfl rfl rfl p k) (fun k => ld_slab3 x0 3 _ _ rfl rfl rfl p k)
    (fun k => ld_slab3 x1 0 _ _ rfl rfl rfl k l) (fun k => ld_slab3 x1 1 _ _ rfl rfl rfl k l)
    (fun k => ld_slab3 x1 2 _ _ rfl rfl rfl k l) (fun k => ld_slab3 x1 3 _ _ rfl rfl rfl k l)
    (ld_row2 x2 0 _ _ rfl rfl l) (ld_row2 x2 1 _ _ rfl rfl l) (ld_row2 x2 2 _ _ rfl rfl l) (ld_row2 x2 3 _ _ rfl rfl l)

/-- What the body leaves in the result's buffer, at entry (p, q), from the three input blocks. -/
theorem out1_entry (x0 : FVec Ideal S4x5000x128 .bf16) (x1 : FVec Ideal S4x128x128 .bf16) (x2 : FVec Ideal S4x128 .f32)
    (p : Fin 5000) (q : Fin 128) :
    KF.out1_3 (F := Ideal) x0 x1 x2 (ix2 p q) = actRow (preRow (fun r k => x0 (ix3 r p k)) x1 x2) q := by
  rw [KF.out1_3_eq]
  refine (congrFun (pay1_eq _ _ _ _ _ _ _ _ _ _ _ _) (ix2 p q)).trans ?_
  refine (act_tile_apply _ _ _ _ _ _ _ p q).trans ?_
  refine congrArg (fun P => actRow P q) (funext fun l => ?_)
  exact rows1_eq x0 x1 x2 p l

/-- So when the aggregates' block holds rows of the array A around row i at its row p, and the other two blocks are the
    whole arrays W and B, the body leaves the layer's value at (i, q). -/
theorem out1_value (A : SA.Idx → EReal) (W : SW.Idx → EReal) (B : SB.Idx → EReal)
    (x0 : FVec Ideal S4x5000x128 .bf16) (x1 : FVec Ideal S4x128x128 .bf16) (x2 : FVec Ideal S4x128 .f32)
    (i : Fin 50000) (p : Fin 5000) (q : Fin 128)
    (h0 : ∀ (r : Fin 4) (k : Fin 128), x0 (ix3 r p k) = A (ix3 r i k)) (h1 : x1 = W) (h2 : x2 = B) :
    KF.out1_3 (F := Ideal) x0 x1 x2 (ix2 p q) = layerActK A W B (ix2 i q) := by
  rw [out1_entry]
  show actRow (preRow (fun r k => x0 (ix3 r p k)) x1 x2) q = actK (preK A W B) i q
  rw [actK_eq_actRow]
  refine congrArg (fun P => actRow P q) (funext fun l => ?_)
  rw [preK_eq_preRow, h1, h2]
  exact congrArg (fun a => preRow a W B l) (funext fun r => funext fun k => h0 r k)

/-! ## From tiles to the array -/

/-- The block index maps, decided over the ten grid points: the aggregates' block and the result's move along the rows
    with the point, the weights' and the biases' blocks stay. -/
theorem idx1_facts : ∀ t : Fin cfg1.N,
    win1_0.index t (0 : Fin 3) = 0 ∧ win1_0.index t (1 : Fin 3) = t.val ∧ win1_0.index t (2 : Fin 3) = 0
    ∧ win1_1.index t (0 : Fin 3) = 0 ∧ win1_1.index t (1 : Fin 3) = 0 ∧ win1_1.index t (2 : Fin 3) = 0
    ∧ win1_2.index t (0 : Fin 2) = 0 ∧ win1_2.index t (1 : Fin 2) = 0
    ∧ win1_3.index t (0 : Fin 2) = t.val ∧ win1_3.index t (1 : Fin 2) = 0 :=
  (by decide +kernel : ∀ t : Fin grid1.N, _)

variable (V : (c : Dev nD) → (b : Ref sig .tc) → Buf (Elt Ideal) ((c : Thread nD τ).loc b))

/-- What grid point t writes back is tile t of the layer's value of the three arrays as the region finds them:
    row p of the tile is row 5000 t + p of the array, and the aggregates' block holds exactly those rows. -/
theorem flushed1_eq (c : Dev nD) (t : Fin cfg1.N) :
    (KF.dat1 (F := Ideal) V c).flushed 3 t
      = ((cfg1.win 3).blk t).view.read (Elt Ideal) (layerActK (V c main_v288) (V c main_v289) (V c main_arg6)) := by
  show (cfg1.win 3).cut (grid1.coords t) ((KF.dat1 (F := Ideal) V c).after 3 t) = _
  rw [KF.after1_3]
  obtain ⟨e00, e01, e02, e10, e11, e12, e20, e21, e30, e31⟩ := idx1_facts t
  have ht : t.val < 10 := Nat.lt_of_lt_of_eq t.isLt N_1
  funext y
  obtain ⟨p, q, rfl⟩ : ∃ (p : Fin 5000) (q : Fin 128), y = ix2 p q := ⟨y 0, y 1, eq_ix2 y⟩
  have hp : t.val * 5000 + p.val < 50000 := by have := p.isLt; omega
  refine (out1_value (V c main_v288) (V c main_v289) (V c main_arg6) (KF.iblk1 V c 0 t) (KF.iblk1 V c 1 t) (KF.iblk1 V c 2 t)
    ⟨t.val * 5000 + p.val, hp⟩ p q ?_ ?_ ?_).trans ?_
  · intro r k
    show V c main_v288 (((cfg1.win 0).blk t).view.emb (ix3 r p k)) = V c main_v288 (ix3 r ⟨t.val * 5000 + p.val, hp⟩ k)
    refine congrArg (V c main_v288) (funext fun a => Fin.ext ?_)
    match a with
    | ⟨0, _⟩ => show win1_0.index t (0 : Fin 3) * 4 + 1 * r.val = r.val; omega
    | ⟨1, _⟩ => show win1_0.index t (1 : Fin 3) * 5000 + 1 * p.val = t.val * 5000 + p.val; omega
    | ⟨2, _⟩ => show win1_0.index t (2 : Fin 3) * 128 + 1 * k.val = k.val; omega
  · funext z
    show V c main_v289 (((cfg1.win 1).blk t).view.emb z) = V c main_v289 z
    refine congrArg (V c main_v289) (funext fun a => Fin.ext ?_)
    match a with
    | ⟨0, _⟩ => show win1_1.index t (0 : Fin 3) * 4 + 1 * (z 0).val = (z 0).val; omega
    | ⟨1, _⟩ => show win1_1.index t (1 : Fin 3) * 128 + 1 * (z 1).val = (z 1).val; omega
    | ⟨2, _⟩ => show win1_1.index t (2 : Fin 3) * 128 + 1 * (z 2).val = (z 2).val; omega
  · funext z
    show V c main_arg6 (((cfg1.win 2).blk t).view.emb z) = V c main_arg6 z
    refine congrArg (V c main_arg6) (funext fun a => Fin.ext ?_)
    match a with
    | ⟨0, _⟩ => show win1_2.index t (0 : Fin 2) * 4 + 1 * (z 0).val = (z 0).val; omega
    | ⟨1, _⟩ => show win1_2.index t (1 : Fin 2) * 128 + 1 * (z 1).val = (z 1).val; omega
  · show layerActK (V c main_v288) (V c main_v289) (V c main_arg6) (ix2 ⟨t.val * 5000 + p.val, hp⟩ q)
      = layerActK (V c main_v288) (V c main_v289) (V c main_arg6) (((cfg1.win 3).blk t).view.emb (ix2 p q))
    refine congrArg (layerActK (V c main_v288) (V c main_v289) (V c main_arg6)) (funext fun a => Fin.ext ?_)
    match a with
    | ⟨0, _⟩ => show t.val * 5000 + p.val = win1_3.index t (0 : Fin 2) * 5000 + 1 * p.val; omega
    | ⟨1, _⟩ => show q.val = win1_3.index t (1 : Fin 2) * 128 + 1 * q.val; omega

/-- An index of the result is in point t's tile iff each coordinate is in the tile's range on its axis. -/
theorem mem_blk1 (t : Fin cfg1.N) (i : S50000x128.Idx) :
    i ∈ ((cfg1.win 3).blk t).view.set ↔ ∀ a : Fin 2, win1_3.index t a * S5000x128.size a ≤ (i a).val
      ∧ (i a).val < win1_3.index t a * S5000x128.size a + S5000x128.size a := by
  show i ∈ ((View.whole main_v290).slice (win1_3.rect t)).set ↔ _
  rw [View.set_slice_whole, Rect.mem_set_unit]
  exact Iff.rfl

/-- Every row lies in a tile: row i in tile i / 5000. -/
theorem cover1 (i : S50000x128.Idx) :
    ∃ t : Fin cfg1.N, (cfg1.win 3).flush t = true ∧ i ∈ ((cfg1.win 3).blk t).view.set := by
  have hi0 : (i 0).val < 50000 := (i 0).isLt
  have hi1 : (i 1).val < 128 := (i 1).isLt
  have hN : cfg1.N = 10 := N_1
  have hlt : (i 0).val / 5000 < cfg1.N := by rw [hN]; omega
  obtain ⟨-, -, -, -, -, -, -, -, e30, e31⟩ := idx1_facts ⟨(i 0).val / 5000, hlt⟩
  have e30' : win1_3.index ⟨(i 0).val / 5000, hlt⟩ (0 : Fin 2) = (i 0).val / 5000 := e30
  refine ⟨⟨(i 0).val / 5000, hlt⟩, flush1_3 _, ?_⟩
  rw [mem_blk1]
  intro a
  match a with
  | ⟨0, _⟩ =>
    show win1_3.index ⟨(i 0).val / 5000, hlt⟩ (0 : Fin 2) * 5000 ≤ (i 0).val
      ∧ (i 0).val < win1_3.index ⟨(i 0).val / 5000, hlt⟩ (0 : Fin 2) * 5000 + 5000
    omega
  | ⟨1, _⟩ =>
    show win1_3.index ⟨(i 0).val / 5000, hlt⟩ (1 : Fin 2) * 128 ≤ (i 1).val
      ∧ (i 1).val < win1_3.index ⟨(i 0).val / 5000, hlt⟩ (1 : Fin 2) * 128 + 128
    omega

/-- The region's result array after the run: the layer's value of the three input arrays as the region finds them. -/
theorem region1_value (c : Dev nD) :
    (Cert.KernelIdeal.KF.dat1 (F := Ideal) V c).arrAt 3 cfg1.N
      = Cert.GNN.layerActK (V c main_v288) (V c main_v289) (V c main_arg6) :=
  (KF.dat1 (F := Ideal) V c).arrAt_eq_of_cover 3 (layerActK (V c main_v288) (V c main_v289) (V c main_arg6))
    (fun t _ => flushed1_eq V c t) cover1

end Cert.KernelIdeal.KV

end
-- ==== Proof.KVal2.lean ====
/-
  Kernel region 2: the result array after the region, as one function of the region's three input arrays.

  The region runs its body once per tile of 5000 rows, ten tiles in all. At a tile the body sees the four
  relations' slabs of the aggregates for the tile's rows, all four weights and all four bias rows, and stores the
  whole tile of the result once. Read at an entry (p, q) of the tile, what it stores is the sum over the
  relations of slab times weight plus bias: the layer's value at row 5000 t + p of the array, because the
  aggregates' block at point t holds exactly the rows 5000 t ... 5000 t + 4999 of the stacked aggregates while the
  weights' and biases' blocks are the whole arrays at every point. The ten tiles cover the 50000 rows (row i lies
  in tile i / 5000), so after the region the result array is the layer's value everywhere.
-/
import proofs.«158609_j30133490549165_1_alg».proof.Proof.KValCommon
import proofs.«158609_j30133490549165_1_alg».proof.Proof.KBody2

noncomputable section

namespace Cert.KernelIdeal.KV

open Cert.KernelIdeal Cert.KernelIdeal.Gen Cert.GNN
open Idealize.ShloMosaic Idealize.ShloMosaic.ValueIdx Idealize.ShloMosaic.TcCoe Idealize.SL.Sem
open Idealize.ShloMosaic.Pipeline (Dat)

/-! ## The program's one matrix product: what its dimension numbers say of the operand indices -/

theorem dot2_l : (dot_S5000x128_S128x128_S5000x128_1_0_0_1_n_n).lhsContracting = [1] := rfl
theorem dot2_r : (dot_S5000x128_S128x128_S5000x128_1_0_0_1_n_n).rhsContracting = [0] := rfl
theorem dot2_l0 : ∀ (j : S5000x128.Idx) (k : (dot_S5000x128_S128x128_S5000x128_1_0_0_1_n_n).contr.Idx),
    ((dot_S5000x128_S128x128_S5000x128_1_0_0_1_n_n).lhsIdx j k 0).val = (j 0).val := fun _ _ => rfl
theorem dot2_r1 : ∀ (j : S5000x128.Idx) (k : (dot_S5000x128_S128x128_S5000x128_1_0_0_1_n_n).contr.Idx),
    ((dot_S5000x128_S128x128_S5000x128_1_0_0_1_n_n).rhsIdx j k 1).val = (j 1).val := fun _ _ => rfl

/-! ## The body's payload as the tile's formula -/

/-- The payload the body stores is, of the twelve loaded pieces, the tile's pre-activation. -/
theorem pay2_eq (l0 l3 l6 l9 : FVec Ideal S1x5000x128 .bf16) (l1 l4 l7 l10 : FVec Ideal S1x128x128 .bf16)
    (l2 l5 l8 l11 : FVec Ideal S1x128 .f32) :
    k2_pay1 (k2_pay2 l0 l1 l2 l3 l4 l5 l6 l7) (k2_pay3 l8) l9 l10 l11
      = tilePre dot_S5000x128_S128x128_S5000x128_1_0_0_1_n_n shapeCasts_S1x5000x128_S5000x128 shapeCasts_S1x128x128_S128x128
          shapeCasts_S1x128_S128 shapeCasts_S128_S1x128 broadcasts_S1x128_S5000x128 l0 l3 l6 l9 l1 l4 l7 l10 l2 l5 l8 l11 := rfl

/-- The pre-activation of the loaded slabs at (p, l) is row p's, of the three blocks. -/
theorem rows2_eq (x0 : FVec Ideal S4x5000x128 .bf16) (x1 : FVec Ideal S4x128x128 .bf16) (x2 : FVec Ideal S4x128 .f32)
    (p : Fin 5000) (l : Fin 128) :
    tilePre dot_S5000x128_S128x128_S5000x128_1_0_0_1_n_n shapeCasts_S1x5000x128_S5000x128 shapeCasts_S1x128x128_S128x128
        shapeCasts_S1x128_S128 shapeCasts_S128_S1x128 broadcasts_S1x128_S5000x128
        (View.ld (Val := Elt Ideal) (e' := .bf16) x0 KF.r2_0) (View.ld (Val := Elt Ideal) (e' := .bf16) x0 KF.r2_3) (View.ld (Val := Elt Ideal) (e' := .bf16) x0 KF.r2_6) (View.ld (Val := Elt Ideal) (e' := .bf16) x0 KF.r2_9)
        (View.ld (Val := Elt Ideal) (e' := .bf16) x1 KF.r2_1) (View.ld (Val := Elt Ideal) (e' := .bf16) x1 KF.r2_4) (View.ld (Val := Elt Ideal) (e' := .bf16) x1 KF.r2_7) (View.ld (Val := Elt Ideal) (e' := .bf16) x1 KF.r2_10)
        (View.ld (Val := Elt Ideal) (e' := .f32) x2 KF.r2_2) (View.ld (Val := Elt Ideal) (e' := .f32) x2 KF.r2_5) (View.ld (Val := Elt Ideal) (e' := .f32) x2 KF.r2_8) (View.ld (Val := Elt Ideal) (e' := .f32) x2 KF.r2_11) (ix2 p l)
      = preRow (fun r k => x0 (ix3 r p k)) x1 x2 l :=
  tilePre_rows_apply _ dot2_l dot2_r dot2_l0 dot2_r1 _ _ _ _ _ _ _ _ _ _ _ _ _ _ _ _ _ x0 x1 x2 p l
    (fun k => ld_slab3 x0 0 _ _ rfl rfl rfl p k) (fun k => ld_slab3 x0 1 _ _ rfl rfl rfl p k)
    (fun k => ld_slab3 x0 2 _ _ rfl rfl rfl p k) (fun k => ld_slab3 x0 3 _ _ rfl rfl rfl p k)
    (fun k => ld_slab3 x1 0 _ _ rfl rfl rfl k l) (fun k => ld_slab3 x1 1 _ _ rfl rfl rfl k l)
    (fun k => ld_slab3 x1 2 _ _ rfl rfl rfl k l) (fun k => ld_slab3 x1 3 _ _ rfl rfl rfl k l)
    (ld_row2 x2 0 _ _ rfl rfl l) (ld_row2 x2 1 _ _ rfl rfl l) (ld_row2 x2 2 _ _ rfl rfl l) (ld_row2 x2 3 _ _ rfl rfl l)

/-- What the body leaves in the result's buffer, at entry (p, q), from the three input blocks. -/
theorem out2_entry (x0 : FVec Ideal S4x5000x128 .bf16) (x1 : FVec Ideal S4x128x128 .bf16) (x2 : FVec Ideal S4x128 .f32)
    (p : Fin 5000) (q : Fin 128) :
    KF.out2_3 (F := Ideal) x0 x1 x2 (ix2 p q) = preRow (fun r k => x0 (ix3 r p k)) x1 x2 q := by
  rw [KF.out2_3_eq]
  refine (congrFun (pay2_eq _ _ _ _ _ _ _ _ _ _ _ _) (ix2 p q)).trans ?_
  exact rows2_eq x0 x1 x2 p q

/-- So when the aggregates' block holds rows of the array A around row i at its row p, and the other two blocks are the
    whole arrays W and B, the body leaves the layer's value at (i, q). -/
theorem out2_value (A : SA.Idx → EReal) (W : SW.Idx → EReal) (B : SB.Idx → EReal)
    (x0 : FVec Ideal S4x5000x128 .bf16) (x1 : FVec Ideal S4x128x128 .bf16) (x2 : FVec Ideal S4x128 .f32)
    (i : Fin 50000) (p : Fin 5000) (q : Fin 128)
    (h0 : ∀ (r : Fin 4) (k : Fin 128), x0 (ix3 r p k) = A (ix3 r i k)) (h1 : x1 = W) (h2 : x2 = B) :
    KF.out2_3 (F := Ideal) x0 x1 x2 (ix2 p q) = layerK A W B (ix2 i q) := by
  rw [out2_entry]
  show preRow (fun r k => x0 (ix3 r p k)) x1 x2 q = preK A W B i q
  rw [preK_eq_preRow, h1, h2]
  exact congrArg (fun a => preRow a W B q) (funext fun r => funext fun k => h0 r k)

/-! ## From tiles to the array -/

/-- The block index maps, decided over the ten grid points: the aggregates' block and the result's move along the rows
    with the point, the weights' and the biases' blocks stay. -/
theorem idx2_facts : ∀ t : Fin cfg2.N,
    win2_0.index t (0 : Fin 3) = 0 ∧ win2_0.index t (1 : Fin 3) = t.val ∧ win2_0.index t (2 : Fin 3) = 0
    ∧ win2_1.index t (0 : Fin 3) = 0 ∧ win2_1.index t (1 : Fin 3) = 0 ∧ win2_1.index t (2 : Fin 3) = 0
    ∧ win2_2.index t (0 : Fin 2) = 0 ∧ win2_2.index t (1 : Fin 2) = 0
    ∧ win2_3.index t (0 : Fin 2) = t.val ∧ win2_3.index t (1 : Fin 2) = 0 :=
  (by decide +kernel : ∀ t : Fin grid2.N, _)

variable (V : (c : Dev nD) → (b : Ref sig .tc) → Buf (Elt Ideal) ((c : Thread nD τ).loc b))

/-- What grid point t writes back is tile t of the layer's value of the three arrays as the region finds them:
    row p of the tile is row 5000 t + p of the array, and the aggregates' block holds exactly those rows. -/
theorem flushed2_eq (c : Dev nD) (t : Fin cfg2.N) :
    (KF.dat2 (F := Ideal) V c).flushed 3 t
      = ((cfg2.win 3).blk t).view.read (Elt Ideal) (layerK (V c main_v392) (V c main_v393) (V c main_arg8)) := by
  show (cfg2.win 3).cut (grid2.coords t) ((KF.dat2 (F := Ideal) V c).after 3 t) = _
  rw [KF.after2_3]
  obtain ⟨e00, e01, e02, e10, e11, e12, e20, e21, e30, e31⟩ := idx2_facts t
  have ht : t.val < 10 := Nat.lt_of_lt_of_eq t.isLt N_2
  funext y
  obtain ⟨p, q, rfl⟩ : ∃ (p : Fin 5000) (q : Fin 128), y = ix2 p q := ⟨y 0, y 1, eq_ix2 y⟩
  have hp : t.val * 5000 + p.val < 50000 := by have := p.isLt; omega
  refine (out2_value (V c main_v392) (V c main_v393) (V c main_arg8) (KF.iblk2 V c 0 t) (KF.iblk2 V c 1 t) (KF.iblk2 V c 2 t)
    ⟨t.val * 5000 + p.val, hp⟩ p q ?_ ?_ ?_).trans ?_
  · intro r k
    show V c main_v392 (((cfg2.win 0).blk t).view.emb (ix3 r p k)) = V c main_v392 (ix3 r ⟨t.val * 5000 + p.val, hp⟩ k)
    refine congrArg (V c main_v392) (funext fun a => Fin.ext ?_)
    match a with
    | ⟨0, _⟩ => show win2_0.index t (0 : Fin 3) * 4 + 1 * r.val = r.val; omega
    | ⟨1, _⟩ => show win2_0.index t (1 : Fin 3) * 5000 + 1 * p.val = t.val * 5000 + p.val; omega
    | ⟨2, _⟩ => show win2_0.index t (2 : Fin 3) * 128 + 1 * k.val = k.val; omega
  · funext z
    show V c main_v393 (((cfg2.win 1).blk t).view.emb z) = V c main_v393 z
    refine congrArg (V c main_v393) (funext fun a => Fin.ext ?_)
    match a with
    | ⟨0, _⟩ => show win2_1.index t (0 : Fin 3) * 4 + 1 * (z 0).val = (z 0).val; omega
    | ⟨1, _⟩ => show win2_1.index t (1 : Fin 3) * 128 + 1 * (z 1).val = (z 1).val; omega
    | ⟨2, _⟩ => show win2_1.index t (2 : Fin 3) * 128 + 1 * (z 2).val = (z 2).val; omega
  · funext z
    show V c main_arg8 (((cfg2.win 2).blk t).view.emb z) = V c main_arg8 z
    refine congrArg (V c main_arg8) (funext fun a => Fin.ext ?_)
    match a with
    | ⟨0, _⟩ => show win2_2.index t (0 : Fin 2) * 4 + 1 * (z 0).val = (z 0).val; omega
    | ⟨1, _⟩ => show win2_2.index t (1 : Fin 2) * 128 + 1 * (z 1).val = (z 1).val; omega
  · show layerK (V c main_v392) (V c main_v393) (V c main_arg8) (ix2 ⟨t.val * 5000 + p.val, hp⟩ q)
      = layerK (V c main_v392) (V c main_v393) (V c main_arg8) (((cfg2.win 3).blk t).view.emb (ix2 p q))
    refine congrArg (layerK (V c main_v392) (V c main_v393) (V c main_arg8)) (funext fun a => Fin.ext ?_)
    match a with
    | ⟨0, _⟩ => show t.val * 5000 + p.val = win2_3.index t (0 : Fin 2) * 5000 + 1 * p.val; omega
    | ⟨1, _⟩ => show q.val = win2_3.index t (1 : Fin 2) * 128 + 1 * q.val; omega

/-- An index of the result is in point t's tile iff each coordinate is in the tile's range on its axis. -/
theorem mem_blk2 (t : Fin cfg2.N) (i : S50000x128.Idx) :
    i ∈ ((cfg2.win 3).blk t).view.set ↔ ∀ a : Fin 2, win2_3.index t a * S5000x128.size a ≤ (i a).val
      ∧ (i a).val < win2_3.index t a * S5000x128.size a + S5000x128.size a := by
  show i ∈ ((View.whole main_v394).slice (win2_3.rect t)).set ↔ _
  rw [View.set_slice_whole, Rect.mem_set_unit]
  exact Iff.rfl

/-- Every row lies in a tile: row i in tile i / 5000. -/
theorem cover2 (i : S50000x128.Idx) :
    ∃ t : Fin cfg2.N, (cfg2.win 3).flush t = true ∧ i ∈ ((cfg2.win 3).blk t).view.set := by
  have hi0 : (i 0).val < 50000 := (i 0).isLt
  have hi1 : (i 1).val < 128 := (i 1).isLt
  have hN : cfg2.N = 10 := N_2
  have hlt : (i 0).val / 5000 < cfg2.N := by rw [hN]; omega
  obtain ⟨-, -, -, -, -, -, -, -, e30, e31⟩ := idx2_facts ⟨(i 0).val / 5000, hlt⟩
  have e30' : win2_3.index ⟨(i 0).val / 5000, hlt⟩ (0 : Fin 2) = (i 0).val / 5000 := e30
  refine ⟨⟨(i 0).val / 5000, hlt⟩, flush2_3 _, ?_⟩
  rw [mem_blk2]
  intro a
  match a with
  | ⟨0, _⟩ =>
    show win2_3.index ⟨(i 0).val / 5000, hlt⟩ (0 : Fin 2) * 5000 ≤ (i 0).val
      ∧ (i 0).val < win2_3.index ⟨(i 0).val / 5000, hlt⟩ (0 : Fin 2) * 5000 + 5000
    omega
  | ⟨1, _⟩ =>
    show win2_3.index ⟨(i 0).val / 5000, hlt⟩ (1 : Fin 2) * 128 ≤ (i 1).val
      ∧ (i 1).val < win2_3.index ⟨(i 0).val / 5000, hlt⟩ (1 : Fin 2) * 128 + 128
    omega

/-- The region's result array after the run: the layer's value of the three input arrays as the region finds them. -/
theorem region2_value (c : Dev nD) :
    (Cert.KernelIdeal.KF.dat2 (F := Ideal) V c).arrAt 3 cfg2.N
      = Cert.GNN.layerK (V c main_v392) (V c main_v393) (V c main_arg8) :=
  (KF.dat2 (F := Ideal) V c).arrAt_eq_of_cover 3 (layerK (V c main_v392) (V c main_v393) (V c main_arg8))
    (fun t _ => flushed2_eq V c t) cover2

end Cert.KernelIdeal.KV

end
-- ==== Proof.NetK.lean ====
/-
  The host-side building blocks of the network, each written once as a function of array contents, in the
  very operations the program spells: a relation's edge row cut from the stacked edge table, the degree
  normaliser `max(#edges at a node, 1)^(-1/2)`, the wrapped gather index, one relation's normalised
  aggregate `D_in · scatter_add(dst, gather(D_out · x, src))`, the un-normalised pooling aggregate, and the
  read-out `sigmoid(mean_rows(p) · W + b)`.  The two host programs apply exactly these blocks; what differs
  between them is only how the blocks are wired (stacked and re-sliced degree vectors on one side, a zero
  start of the pooled sum), which is bridged elsewhere.
-/
import proofs.«158609_j30133490549165_1_alg».proof.KernelIdeal

noncomputable section

namespace Cert.KernelIdeal.Net

open Cert.KernelIdeal Idealize.ShloMosaic Idealize.ShloMosaic.TcCoe
open Facts₀

variable {F : FTy → Type} [FloatOps F] [Facts]

/-- Row `off 0` of the stacked [4, 800000] edge table, as a vector of 800000 node numbers. -/
def rowOf (off : Fin 2 → Nat) (hs : S4x800000.Slices off S1x800000) (a : (⟨S4x800000, .i32⟩ : BufTy).Contents (Elt F)) :
    (⟨S800000, .i32⟩ : BufTy).Contents (Elt F) :=
  fun i => shapeCast S800000 (extractStridedSlice S1x800000 off a hs) shapeCasts_S1x800000_S800000 i

/-- The degree normaliser of an edge row: count the row's occurrences of each node (a scatter-add of ones into
    zeros), floor the count at one, raise to the power -1/2. -/
def deg (idx : (⟨S800000, .i32⟩ : BufTy).Contents (Elt F)) : (⟨S50000, .f32⟩ : BufTy).Contents (Elt F) :=
  Host.powf
    (maximumf
      (Host.scatterAdd scatter_S50000_S800000x1_S800000_n_0_0_1
        (broadcastInDim S50000 ![] bcast_S_S50000 (constant S_ .f32 0x00000000#32))
        (broadcastInDim S800000x1 ![0] bcast_S800000_S800000x1_0 idx)
        (broadcastInDim S800000 ![] bcast_S_S800000 (constant S_ .f32 0x3F800000#32)))
      (broadcastInDim S50000 ![] bcast_S_S50000 (constant S_ .f32 0x3F800000#32)))
    (broadcastInDim S50000 ![] bcast_S_S50000 (constant S_ .f32 0xBF000000#32))

/-- The gather index of an edge row: a negative node number wraps by 50000; as a column. -/
def wrapIdx (s : (⟨S800000, .i32⟩ : BufTy).Contents (Elt F)) : (⟨S800000x1, .i32⟩ : BufTy).Contents (Elt F) :=
  broadcastInDim S800000x1 ![0] bcast_S800000_S800000x1_0
    (select (cmpi .slt s (broadcastInDim S800000 ![] bcast_S_S800000 (constantI S_ 32 0#32)))
      (addi s (broadcastInDim S800000 ![] bcast_S_S800000 (constantI S_ 32 50000#32))) s)

/-- A per-node factor spread over the 128 features. -/
def spread (d : (⟨S50000, .f32⟩ : BufTy).Contents (Elt F)) : (⟨S50000x128, .f32⟩ : BufTy).Contents (Elt F) :=
  broadcastInDim S50000x128 ![0, 1] bcast_S50000x1_S50000x128_0_1 (broadcastInDim S50000x1 ![0] bcast_S50000_S50000x1_0 d)

/-- The un-normalised aggregate of one relation: rows of `h` gathered at the sources, added up at the targets. -/
def pool (h : (⟨S50000x128, .f32⟩ : BufTy).Contents (Elt F)) (s d : (⟨S800000, .i32⟩ : BufTy).Contents (Elt F)) :
    (⟨S50000x128, .f32⟩ : BufTy).Contents (Elt F) :=
  Host.scatterAdd scatter_S50000x128_S800000x1_S800000x128_1_0_0_1
    (broadcastInDim S50000x128 ![] bcast_S_S50000x128 (constant S_ .f32 0x00000000#32))
    (broadcastInDim S800000x1 ![0] bcast_S800000_S800000x1_0 d)
    (Host.gather gather_S50000x128_S800000x1_S800000x128_1_0_n_n_0_1_1128 h (wrapIdx s))

/-- One relation's normalised aggregate of the features `x`. -/
def agg (x : (⟨S50000x128, .f32⟩ : BufTy).Contents (Elt F)) (dout din : (⟨S50000, .f32⟩ : BufTy).Contents (Elt F))
    (s d : (⟨S800000, .i32⟩ : BufTy).Contents (Elt F)) : (⟨S50000x128, .f32⟩ : BufTy).Contents (Elt F) :=
  mulf (pool (mulf x (spread dout)) s d) (spread din)

/-- The read-out: column means of the pooled features, the linear map, the logistic function. -/
def readout (p : (⟨S50000x128, .f32⟩ : BufTy).Contents (Elt F)) (wl : (⟨S128x16, .f32⟩ : BufTy).Contents (Elt F))
    (bl : (⟨S16, .f32⟩ : BufTy).Contents (Elt F)) : (⟨S1x16, .f32⟩ : BufTy).Contents (Elt F) :=
  Host.divf (broadcastInDim S1x16 ![] bcast_S_S1x16 (constant S_ .f32 0x3F800000#32))
    (addf (broadcastInDim S1x16 ![] bcast_S_S1x16 (constant S_ .f32 0x3F800000#32))
      (Host.exp (Host.negf
        (addf
          (Host.dotGeneral dot_S1x128_S128x16_S1x16_1_0_0_1_n_n none
            (Host.divf
              (broadcastInDim S1x128 ![1] bcast_S128_S1x128_1
                (Host.reduceAdd p (constant S_ .f32 0x00000000#32) reducesTo_S50000x128_S128_d0 h_S_))
              (broadcastInDim S1x128 ![] bcast_S_S1x128 (constant S_ .f32 0x47435000#32)))
            wl)
          (broadcastInDim S1x16 ![1] bcast_S16_S1x16_1 bl)))))

end Cert.KernelIdeal.Net

end
-- ==== Proof.KStack.lean ====
/-
  The tiled program's own wiring, as functions of array contents: four vectors of 50000 stacked into a
  [4, 50000] array and row `r` read back; four [50000, 128] aggregates stacked into the [4, 50000, 128]
  array the matrix unit reads (rounded to the narrow format on the way, which is the identity on the
  extended reals).
-/
import proofs.«158609_j30133490549165_1_alg».proof.KernelIdeal

noncomputable section

namespace Cert.KernelIdeal.Net

open Cert.KernelIdeal Idealize.ShloMosaic Idealize.ShloMosaic.TcCoe
open Facts₀

variable {F : FTy → Type} [FloatOps F] [Facts]

/-- Four per-node vectors stacked along a new leading axis. -/
def stack2 (d0 d1 d2 d3 : (⟨S50000, .f32⟩ : BufTy).Contents (Elt F)) : (⟨S4x50000, .f32⟩ : BufTy).Contents (Elt F) :=
  concatenate S4x50000 0
    [⟨S1x50000, broadcastInDim S1x50000 ![1] bcast_S50000_S1x50000_1 d0⟩,
     ⟨S1x50000, broadcastInDim S1x50000 ![1] bcast_S50000_S1x50000_1 d1⟩,
     ⟨S1x50000, broadcastInDim S1x50000 ![1] bcast_S50000_S1x50000_1 d2⟩,
     ⟨S1x50000, broadcastInDim S1x50000 ![1] bcast_S50000_S1x50000_1 d3⟩]
    concatenates_S1x50000_S1x50000_S1x50000_S1x50000_S4x50000_d0

/-- Row `off 0` of such a stack, as a vector again. -/
def unstack (off : Fin 2 → Nat) (hs : S4x50000.Slices off S1x50000) (st : (⟨S4x50000, .f32⟩ : BufTy).Contents (Elt F)) :
    (⟨S50000, .f32⟩ : BufTy).Contents (Elt F) :=
  fun i => shapeCast S50000 (extractStridedSlice S1x50000 off st hs) shapeCasts_S1x50000_S50000 i

/-- Four aggregates stacked along a new leading axis, in the narrow format. -/
def stack3 (a0 a1 a2 a3 : (⟨S50000x128, .f32⟩ : BufTy).Contents (Elt F)) : (⟨S4x50000x128, .bf16⟩ : BufTy).Contents (Elt F) :=
  truncf .bf16
    (concatenate S4x50000x128 0
      [⟨S1x50000x128, broadcastInDim S1x50000x128 ![1, 2] bcast_S50000x128_S1x50000x128_1_2 a0⟩,
       ⟨S1x50000x128, broadcastInDim S1x50000x128 ![1, 2] bcast_S50000x128_S1x50000x128_1_2 a1⟩,
       ⟨S1x50000x128, broadcastInDim S1x50000x128 ![1, 2] bcast_S50000x128_S1x50000x128_1_2 a2⟩,
       ⟨S1x50000x128, broadcastInDim S1x50000x128 ![1, 2] bcast_S50000x128_S1x50000x128_1_2 a3⟩]
      concatenates_S1x50000x128_S1x50000x128_S1x50000x128_S1x50000x128_S4x50000x128_d0)
    bitsLt_bf16_f32

/-- The stacked weights in the narrow format. -/
def narrowW (W : (⟨S4x128x128, .f32⟩ : BufTy).Contents (Elt F)) : (⟨S4x128x128, .bf16⟩ : BufTy).Contents (Elt F) :=
  truncf .bf16 W bitsLt_bf16_f32

end Cert.KernelIdeal.Net

end
-- ==== Proof.KNet.lean ====
/-
  The tiled program's host stretches as functions of array contents: the four degree normalisers of an
  edge table stacked; the four relations' aggregates of a feature array, each normalised by the rows of
  the two stacks, stacked for the matrix unit; the pooled sum started from zero.
-/
import proofs.«158609_j30133490549165_1_alg».proof.Proof.NetK
import proofs.«158609_j30133490549165_1_alg».proof.Proof.KStack

noncomputable section

namespace Cert.KernelIdeal.Net

open Cert.KernelIdeal Idealize.ShloMosaic Idealize.ShloMosaic.TcCoe
open Facts₀

variable {F : FTy → Type} [FloatOps F] [Facts]

/-- The degree normalisers of the four rows of an edge table, stacked. -/
def degStack (a : (⟨S4x800000, .i32⟩ : BufTy).Contents (Elt F)) : (⟨S4x50000, .f32⟩ : BufTy).Contents (Elt F) :=
  stack2 (deg (rowOf ![0, 0] slices_S4x800000_S1x800000_0_0 a)) (deg (rowOf ![1, 0] slices_S4x800000_S1x800000_1_0 a))
    (deg (rowOf ![2, 0] slices_S4x800000_S1x800000_2_0 a)) (deg (rowOf ![3, 0] slices_S4x800000_S1x800000_3_0 a))

/-- The four relations' aggregates of `x`, normalised by the rows of the stacks `so` (sources) and `si` (targets), stacked. -/
def aggsK (x : (⟨S50000x128, .f32⟩ : BufTy).Contents (Elt F)) (so si : (⟨S4x50000, .f32⟩ : BufTy).Contents (Elt F))
    (a1 a2 : (⟨S4x800000, .i32⟩ : BufTy).Contents (Elt F)) : (⟨S4x50000x128, .bf16⟩ : BufTy).Contents (Elt F) :=
  stack3
    (agg x (unstack ![0, 0] slices_S4x50000_S1x50000_0_0 so) (unstack ![0, 0] slices_S4x50000_S1x50000_0_0 si)
      (rowOf ![0, 0] slices_S4x800000_S1x800000_0_0 a1) (rowOf ![0, 0] slices_S4x800000_S1x800000_0_0 a2))
    (agg x (unstack ![1, 0] slices_S4x50000_S1x50000_1_0 so) (unstack ![1, 0] slices_S4x50000_S1x50000_1_0 si)
      (rowOf ![1, 0] slices_S4x800000_S1x800000_1_0 a1) (rowOf ![1, 0] slices_S4x800000_S1x800000_1_0 a2))
    (agg x (unstack ![2, 0] slices_S4x50000_S1x50000_2_0 so) (unstack ![2, 0] slices_S4x50000_S1x50000_2_0 si)
      (rowOf ![2, 0] slices_S4x800000_S1x800000_2_0 a1) (rowOf ![2, 0] slices_S4x800000_S1x800000_2_0 a2))
    (agg x (unstack ![3, 0] slices_S4x50000_S1x50000_3_0 so) (unstack ![3, 0] slices_S4x50000_S1x50000_3_0 si)
      (rowOf ![3, 0] slices_S4x800000_S1x800000_3_0 a1) (rowOf ![3, 0] slices_S4x800000_S1x800000_3_0 a2))

/-- The pooled features: the four relations' un-normalised aggregates added to a zero array, in order. -/
def poolsK (h : (⟨S50000x128, .f32⟩ : BufTy).Contents (Elt F)) (a1 a2 : (⟨S4x800000, .i32⟩ : BufTy).Contents (Elt F)) :
    (⟨S50000x128, .f32⟩ : BufTy).Contents (Elt F) :=
  addf (addf (addf (addf (broadcastInDim S50000x128 ![] bcast_S_S50000x128 (constant S_ .f32 0x00000000#32))
    (pool h (rowOf ![0, 0] slices_S4x800000_S1x800000_0_0 a1) (rowOf ![0, 0] slices_S4x800000_S1x800000_0_0 a2)))
    (pool h (rowOf ![1, 0] slices_S4x800000_S1x800000_1_0 a1) (rowOf ![1, 0] slices_S4x800000_S1x800000_1_0 a2)))
    (pool h (rowOf ![2, 0] slices_S4x800000_S1x800000_2_0 a1) (rowOf ![2, 0] slices_S4x800000_S1x800000_2_0 a2)))
    (pool h (rowOf ![3, 0] slices_S4x800000_S1x800000_3_0 a1) (rowOf ![3, 0] slices_S4x800000_S1x800000_3_0 a2))

end Cert.KernelIdeal.Net

end
-- ==== Proof.KRead0.lean ====
/-
  What host stretch 0 of the tiled program leaves in the buffers the next kernel region reads, as functions
  of the contents the stretch starts from: the fold of the stretch's operations read at those buffers is the
  network block they spell.
-/
import proofs.«158609_j30133490549165_1_alg».proof.Proof.KNet
import proofs.«158609_j30133490549165_1_alg».proof.Proof.Gen.KernelIdeal.Launch
import Idealize.ShloMosaic.Lib.StableHlo.Run

set_option maxRecDepth 65536

noncomputable section

namespace Cert.KernelIdeal.Net

open Cert.KernelIdeal Cert.KernelIdeal.Gen Idealize.ShloMosaic Idealize.ShloMosaic.TcCoe Idealize.SL.Sem Idealize.ShloMosaic.StableHlo
open Facts₀

variable {F : FTy → Type} [FloatOps F]

attribute [local irreducible] Host.scatterAdd Host.gather Host.powf concatenate broadcastInDim extractStridedSlice shapeCast in
set_option maxHeartbeats 4000000 in
theorem read0_v77 (V : Valuation τ sig (Elt F)) :
    after (hostOps0 (F := F)) V (Proc.devRef .tc main_v77) = degStack (V (Proc.devRef .tc main_arg1)) := by
  simp only [after_cons, after_nil]
  rfl

attribute [local irreducible] Host.scatterAdd Host.gather Host.powf concatenate broadcastInDim extractStridedSlice shapeCast in
set_option maxHeartbeats 4000000 in
theorem read0_v82 (V : Valuation τ sig (Elt F)) :
    after (hostOps0 (F := F)) V (Proc.devRef .tc main_v82) = degStack (V (Proc.devRef .tc main_arg2)) := by
  simp only [after_cons, after_nil]
  rfl

attribute [local irreducible] Host.scatterAdd Host.gather Host.powf concatenate broadcastInDim extractStridedSlice shapeCast in
set_option maxHeartbeats 4000000 in
theorem read0_v185 (V : Valuation τ sig (Elt F)) :
    after (hostOps0 (F := F)) V (Proc.devRef .tc main_v185) = narrowW (V (Proc.devRef .tc main_arg3)) := by
  simp only [after_cons, after_nil]
  rfl

attribute [local irreducible] Host.scatterAdd Host.gather Host.powf concatenate broadcastInDim extractStridedSlice shapeCast in
set_option maxHeartbeats 4000000 in
theorem read0_v184 (V : Valuation τ sig (Elt F)) :
    after (hostOps0 (F := F)) V (Proc.devRef .tc main_v184) = aggsK (V (Proc.devRef .tc main_arg0)) (degStack (V (Proc.devRef .tc main_arg1))) (degStack (V (Proc.devRef .tc main_arg2))) (V (Proc.devRef .tc main_arg1)) (V (Proc.devRef .tc main_arg2)) := by
  simp only [after_cons, after_nil]
  rfl

end Cert.KernelIdeal.Net

end
-- ==== Proof.KRead1.lean ====
/-
  What host stretch 1 of the tiled program leaves in the buffers the next kernel region reads, as functions
  of the contents the stretch starts from: the fold of the stretch's operations read at those buffers is the
  network block they spell.
-/
import proofs.«158609_j30133490549165_1_alg».proof.Proof.KNet
import proofs.«158609_j30133490549165_1_alg».proof.Proof.Gen.KernelIdeal.Launch
import Idealize.ShloMosaic.Lib.StableHlo.Run

set_option maxRecDepth 65536

noncomputable section

namespace Cert.KernelIdeal.Net

open Cert.KernelIdeal Cert.KernelIdeal.Gen Idealize.ShloMosaic Idealize.ShloMosaic.TcCoe Idealize.SL.Sem Idealize.ShloMosaic.StableHlo
open Facts₀

variable {F : FTy → Type} [FloatOps F]

attribute [local irreducible] Host.scatterAdd Host.gather Host.powf concatenate broadcastInDim extractStridedSlice shapeCast in
set_option maxHeartbeats 4000000 in
theorem read1_v289 (V : Valuation τ sig (Elt F)) :
    after (hostOps1 (F := F)) V (Proc.devRef .tc main_v289) = narrowW (V (Proc.devRef .tc main_arg5)) := by
  simp only [after_cons, after_nil]
  rfl

attribute [local irreducible] Host.scatterAdd Host.gather Host.powf concatenate broadcastInDim extractStridedSlice shapeCast in
set_option maxHeartbeats 4000000 in
theorem read1_v288 (V : Valuation τ sig (Elt F)) :
    after (hostOps1 (F := F)) V (Proc.devRef .tc main_v288) = aggsK (V (Proc.devRef .tc main_v186)) (V (Proc.devRef .tc main_v77)) (V (Proc.devRef .tc main_v82)) (V (Proc.devRef .tc main_arg1)) (V (Proc.devRef .tc main_arg2)) := by
  simp only [after_cons, after_nil]
  rfl

end Cert.KernelIdeal.Net

end
-- ==== Proof.KRead2.lean ====
/-
  What host stretch 2 of the tiled program leaves in the buffers the next kernel region reads, as functions
  of the contents the stretch starts from: the fold of the stretch's operations read at those buffers is the
  network block they spell.
-/
import proofs.«158609_j30133490549165_1_alg».proof.Proof.KNet
import proofs.«158609_j30133490549165_1_alg».proof.Proof.Gen.KernelIdeal.Launch
import Idealize.ShloMosaic.Lib.StableHlo.Run

set_option maxRecDepth 65536

noncomputable section

namespace Cert.KernelIdeal.Net

open Cert.KernelIdeal Cert.KernelIdeal.Gen Idealize.ShloMosaic Idealize.ShloMosaic.TcCoe Idealize.SL.Sem Idealize.ShloMosaic.StableHlo
open Facts₀

variable {F : FTy → Type} [FloatOps F]

attribute [local irreducible] Host.scatterAdd Host.gather Host.powf concatenate broadcastInDim extractStridedSlice shapeCast in
set_option maxHeartbeats 4000000 in
theorem read2_v393 (V : Valuation τ sig (Elt F)) :
    after (hostOps2 (F := F)) V (Proc.devRef .tc main_v393) = narrowW (V (Proc.devRef .tc main_arg7)) := by
  simp only [after_cons, after_nil]
  rfl

attribute [local irreducible] Host.scatterAdd Host.gather Host.powf concatenate broadcastInDim extractStridedSlice shapeCast in
set_option maxHeartbeats 4000000 in
theorem read2_v392 (V : Valuation τ sig (Elt F)) :
    after (hostOps2 (F := F)) V (Proc.devRef .tc main_v392) = aggsK (V (Proc.devRef .tc main_v290)) (V (Proc.devRef .tc main_v77)) (V (Proc.devRef .tc main_v82)) (V (Proc.devRef .tc main_arg1)) (V (Proc.devRef .tc main_arg2)) := by
  simp only [after_cons, after_nil]
  rfl

end Cert.KernelIdeal.Net

end
-- ==== Proof.KRead3.lean ====
/-
  What host stretch 3 of the tiled program leaves in the buffers the next kernel region reads, as functions
  of the contents the stretch starts from: the fold of the stretch's operations read at those buffers is the
  network block they spell.
-/
import proofs.«158609_j30133490549165_1_alg».proof.Proof.KNet
import proofs.«158609_j30133490549165_1_alg».proof.Proof.Gen.KernelIdeal.Launch
import Idealize.ShloMosaic.Lib.StableHlo.Run

set_option maxRecDepth 65536

noncomputable section

namespace Cert.KernelIdeal.Net

open Cert.KernelIdeal Cert.KernelIdeal.Gen Idealize.ShloMosaic Idealize.ShloMosaic.TcCoe Idealize.SL.Sem Idealize.ShloMosaic.StableHlo
open Facts₀

variable {F : FTy → Type} [FloatOps F]

attribute [local irreducible] Host.scatterAdd Host.gather Host.powf concatenate broadcastInDim extractStridedSlice shapeCast in
set_option maxHeartbeats 4000000 in
theorem read3_v468 (V : Valuation τ sig (Elt F)) :
    after (hostOps3 (F := F)) V (Proc.devRef .tc main_v468) = readout (poolsK (V (Proc.devRef .tc main_v394)) (V (Proc.devRef .tc main_arg1)) (V (Proc.devRef .tc main_arg2))) (V (Proc.devRef .tc main_arg9)) (V (Proc.devRef .tc main_arg10)) := by
  simp only [after_cons, after_nil]
  rfl

end Cert.KernelIdeal.Net

end
-- ==== Proof.KChain.lean ====
/-
  The tiled program's result as a function of its arguments, at the ideal values.  Walking @main's seven
  items in order: a host stretch leaves the stacked degree normalisers and the first layer's stacked
  aggregates; a kernel region turns stacked aggregates, weights and biases into an activated layer; the
  next stretch aggregates that layer's output; … ; the last stretch pools the third layer's output and
  reads out.  Buffers a later item needs but an earlier one does not write (the arguments, the two degree
  stacks) are carried through unchanged.
-/
import proofs.«158609_j30133490549165_1_alg».proof.Proof.KRun
import proofs.«158609_j30133490549165_1_alg».proof.Proof.KVal0
import proofs.«158609_j30133490549165_1_alg».proof.Proof.KVal1
import proofs.«158609_j30133490549165_1_alg».proof.Proof.KVal2
import proofs.«158609_j30133490549165_1_alg».proof.Proof.KRead0
import proofs.«158609_j30133490549165_1_alg».proof.Proof.KRead1
import proofs.«158609_j30133490549165_1_alg».proof.Proof.KRead2
import proofs.«158609_j30133490549165_1_alg».proof.Proof.KRead3

set_option maxRecDepth 16384

noncomputable section

namespace Cert.KernelIdeal.KC

open Cert.KernelIdeal Cert.KernelIdeal.Gen Cert.KernelIdeal.KF Cert.KernelIdeal.Net
open Idealize.ShloMosaic Idealize.ShloMosaic.TcCoe Idealize.SL.Sem

variable (m : (ℓ : Loc nD τ sig) → Buf (Elt Ideal) ℓ) (ρ : Dev nD → PrngReg) (c : Dev nD)

/-- The argument arrays as launched. -/
abbrev arg (b : Ref sig .tc) : Buf (Elt Ideal) ((c : Thread nD τ).loc b) := m ((c : Thread nD τ).loc b)

/-! ## Carried through: a reference no host operation of a stretch writes, and no array of a region -/

theorem w1 (b : Ref sig .tc) (hb : b ∉ hostOps0_W) : W1 m ρ c (Proc.devRef .tc b) = m ((c : Thread nD τ).loc b) :=
  (StableHlo.after_of_writes_sub hostOps0 _ hostOps0_writes hb).trans rfl
theorem w2 (b : Ref sig .tc) (hb : ∀ w, Pipeline.arrRef spec0 w ≠ b) : W2 m ρ c (Proc.devRef .tc b) = W1 m ρ c (Proc.devRef .tc b) :=
  W2_of_ne m ρ c b hb
theorem w3 (b : Ref sig .tc) (hb : b ∉ hostOps1_W) : W3 m ρ c (Proc.devRef .tc b) = W2 m ρ c (Proc.devRef .tc b) :=
  StableHlo.after_of_writes_sub hostOps1 _ hostOps1_writes hb
theorem w4 (b : Ref sig .tc) (hb : ∀ w, Pipeline.arrRef spec1 w ≠ b) : W4 m ρ c (Proc.devRef .tc b) = W3 m ρ c (Proc.devRef .tc b) :=
  W4_of_ne m ρ c b hb
theorem w5 (b : Ref sig .tc) (hb : b ∉ hostOps2_W) : W5 m ρ c (Proc.devRef .tc b) = W4 m ρ c (Proc.devRef .tc b) :=
  StableHlo.after_of_writes_sub hostOps2 _ hostOps2_writes hb
theorem w6 (b : Ref sig .tc) (hb : ∀ w, Pipeline.arrRef spec2 w ≠ b) : W6 m ρ c (Proc.devRef .tc b) = W5 m ρ c (Proc.devRef .tc b) :=
  W6_of_ne m ρ c b hb

/-- An argument that is no array of region 0 reaches region 0's exit as launched; likewise regions 1 and 2. -/
theorem a2 (b : Ref sig .tc) (h0 : b ∉ hostOps0_W) (h1 : ∀ w, Pipeline.arrRef spec0 w ≠ b) :
    W2 m ρ c (Proc.devRef .tc b) = m ((c : Thread nD τ).loc b) := (w2 m ρ c b h1).trans (w1 m ρ c b h0)
theorem a3 (b : Ref sig .tc) (h0 : b ∉ hostOps0_W) (h1 : ∀ w, Pipeline.arrRef spec0 w ≠ b) (h2 : b ∉ hostOps1_W) :
    W3 m ρ c (Proc.devRef .tc b) = m ((c : Thread nD τ).loc b) := (w3 m ρ c b h2).trans (a2 m ρ c b h0 h1)
theorem a4 (b : Ref sig .tc) (h0 : b ∉ hostOps0_W) (h1 : ∀ w, Pipeline.arrRef spec0 w ≠ b) (h2 : b ∉ hostOps1_W)
    (h3 : ∀ w, Pipeline.arrRef spec1 w ≠ b) : W4 m ρ c (Proc.devRef .tc b) = m ((c : Thread nD τ).loc b) :=
  (w4 m ρ c b h3).trans (a3 m ρ c b h0 h1 h2)
theorem a5 (b : Ref sig .tc) (h0 : b ∉ hostOps0_W) (h1 : ∀ w, Pipeline.arrRef spec0 w ≠ b) (h2 : b ∉ hostOps1_W)
    (h3 : ∀ w, Pipeline.arrRef spec1 w ≠ b) (h4 : b ∉ hostOps2_W) : W5 m ρ c (Proc.devRef .tc b) = m ((c : Thread nD τ).loc b) :=
  (w5 m ρ c b h4).trans (a4 m ρ c b h0 h1 h2 h3)
theorem a6 (b : Ref sig .tc) (h0 : b ∉ hostOps0_W) (h1 : ∀ w, Pipeline.arrRef spec0 w ≠ b) (h2 : b ∉ hostOps1_W)
    (h3 : ∀ w, Pipeline.arrRef spec1 w ≠ b) (h4 : b ∉ hostOps2_W) (h5 : ∀ w, Pipeline.arrRef spec2 w ≠ b) :
    W6 m ρ c (Proc.devRef .tc b) = m ((c : Thread nD τ).loc b) :=
  (w6 m ρ c b h5).trans (a5 m ρ c b h0 h1 h2 h3 h4)

/-! ## The two degree stacks, written by the first stretch and carried to the later ones -/

theorem so1 : W1 m ρ c (Proc.devRef .tc main_v77) = degStack (arg m c main_arg1) := read0_v77 (W0 m ρ c)
theorem si1 : W1 m ρ c (Proc.devRef .tc main_v82) = degStack (arg m c main_arg2) := read0_v82 (W0 m ρ c)
theorem so2 : W2 m ρ c (Proc.devRef .tc main_v77) = degStack (arg m c main_arg1) :=
  (w2 m ρ c main_v77 (by decide)).trans (so1 m ρ c)
theorem si2 : W2 m ρ c (Proc.devRef .tc main_v82) = degStack (arg m c main_arg2) :=
  (w2 m ρ c main_v82 (by decide)).trans (si1 m ρ c)
theorem so4 : W4 m ρ c (Proc.devRef .tc main_v77) = degStack (arg m c main_arg1) :=
  (w4 m ρ c main_v77 (by decide)).trans ((w3 m ρ c main_v77 (by decide)).trans (so2 m ρ c))
theorem si4 : W4 m ρ c (Proc.devRef .tc main_v82) = degStack (arg m c main_arg2) :=
  (w4 m ρ c main_v82 (by decide)).trans ((w3 m ρ c main_v82 (by decide)).trans (si2 m ρ c))

/-! ## The three layers -/

/-- Layer 1: region 0's output array. -/
def H1 : (⟨S50000x128, .f32⟩ : BufTy).Contents (Elt Ideal) :=
  Cert.GNN.layerActK
    (aggsK (arg m c main_arg0) (degStack (arg m c main_arg1)) (degStack (arg m c main_arg2)) (arg m c main_arg1) (arg m c main_arg2))
    (narrowW (arg m c main_arg3)) (arg m c main_arg4)

theorem h1_eq : W2 m ρ c (Proc.devRef .tc main_v186) = H1 m c := by
  refine (W2_arr m ρ c 3).trans ((Cert.KernelIdeal.KV.region0_value (V1 m ρ) c).trans ?_)
  unfold H1
  rw [show V1 m ρ c main_v184 = _ from read0_v184 (W0 m ρ c), show V1 m ρ c main_v185 = _ from read0_v185 (W0 m ρ c),
    show V1 m ρ c main_arg4 = _ from w1 m ρ c main_arg4 (by decide)]

/-- Layer 2: region 1's output array. -/
def H2 : (⟨S50000x128, .f32⟩ : BufTy).Contents (Elt Ideal) :=
  Cert.GNN.layerActK
    (aggsK (H1 m c) (degStack (arg m c main_arg1)) (degStack (arg m c main_arg2)) (arg m c main_arg1) (arg m c main_arg2))
    (narrowW (arg m c main_arg5)) (arg m c main_arg6)

theorem h2_eq : W4 m ρ c (Proc.devRef .tc main_v290) = H2 m c := by
  refine (W4_arr m ρ c 3).trans ((Cert.KernelIdeal.KV.region1_value (V3 m ρ) c).trans ?_)
  unfold H2
  rw [show V3 m ρ c main_v288 = _ from read1_v288 (W2 m ρ c), show V3 m ρ c main_v289 = _ from read1_v289 (W2 m ρ c),
    show V3 m ρ c main_arg6 = _ from a3 m ρ c main_arg6 (by decide) (by decide) (by decide),
    h1_eq m ρ c, so2 m ρ c, si2 m ρ c, a2 m ρ c main_arg1 (by decide) (by decide), a2 m ρ c main_arg2 (by decide) (by decide),
    a2 m ρ c main_arg5 (by decide) (by decide)]

/-- Layer 3 (no activation): region 2's output array. -/
def H3 : (⟨S50000x128, .f32⟩ : BufTy).Contents (Elt Ideal) :=
  Cert.GNN.layerK
    (aggsK (H2 m c) (degStack (arg m c main_arg1)) (degStack (arg m c main_arg2)) (arg m c main_arg1) (arg m c main_arg2))
    (narrowW (arg m c main_arg7)) (arg m c main_arg8)

theorem h3_eq : W6 m ρ c (Proc.devRef .tc main_v394) = H3 m c := by
  refine (W6_arr m ρ c 3).trans ((Cert.KernelIdeal.KV.region2_value (V5 m ρ) c).trans ?_)
  unfold H3
  rw [show V5 m ρ c main_v392 = _ from read2_v392 (W4 m ρ c), show V5 m ρ c main_v393 = _ from read2_v393 (W4 m ρ c),
    show V5 m ρ c main_arg8 = _ from a5 m ρ c main_arg8 (by decide) (by decide) (by decide) (by decide) (by decide),
    h2_eq m ρ c, so4 m ρ c, si4 m ρ c,
    a4 m ρ c main_arg1 (by decide) (by decide) (by decide) (by decide),
    a4 m ρ c main_arg2 (by decide) (by decide) (by decide) (by decide),
    a4 m ρ c main_arg7 (by decide) (by decide) (by decide) (by decide)]

/-- The result. -/
theorem out_eq : W7 m ρ c (Proc.devRef .tc main_v468)
    = readout (poolsK (H3 m c) (arg m c main_arg1) (arg m c main_arg2)) (arg m c main_arg9) (arg m c main_arg10) := by
  refine (read3_v468 (W6 m ρ c)).trans ?_
  rw [h3_eq m ρ c,
    a6 m ρ c main_arg1 (by decide) (by decide) (by decide) (by decide) (by decide) (by decide),
    a6 m ρ c main_arg2 (by decide) (by decide) (by decide) (by decide) (by decide) (by decide),
    a6 m ρ c main_arg9 (by decide) (by decide) (by decide) (by decide) (by decide) (by decide),
    a6 m ρ c main_arg10 (by decide) (by decide) (by decide) (by decide) (by decide) (by decide)]

end Cert.KernelIdeal.KC

end
-- ==== Proof.NetR.lean ====
/-
  The host-side building blocks of the network, each written once as a function of array contents, in the
  very operations the program spells: a relation's edge row cut from the stacked edge table, the degree
  normaliser `max(#edges at a node, 1)^(-1/2)`, the wrapped gather index, one relation's normalised
  aggregate `D_in · scatter_add(dst, gather(D_out · x, src))`, the un-normalised pooling aggregate, and the
  read-out `sigmoid(mean_rows(p) · W + b)`.  The two host programs apply exactly these blocks; what differs
  between them is only how the blocks are wired (stacked and re-sliced degree vectors on one side, a zero
  start of the pooled sum), which is bridged elsewhere.
-/
import proofs.«158609_j30133490549165_1_alg».proof.ReferenceIdeal

noncomputable section

namespace Cert.ReferenceIdeal.Net

open Cert.ReferenceIdeal Idealize.ShloMosaic Idealize.ShloMosaic.TcCoe
open Facts₀

variable {F : FTy → Type} [FloatOps F] [Facts]

/-- Row `off 0` of the stacked [4, 800000] edge table, as a vector of 800000 node numbers. -/
def rowOf (off : Fin 2 → Nat) (hs : S4x800000.Slices off S1x800000) (a : (⟨S4x800000, .i32⟩ : BufTy).Contents (Elt F)) :
    (⟨S800000, .i32⟩ : BufTy).Contents (Elt F) :=
  fun i => shapeCast S800000 (extractStridedSlice S1x800000 off a hs) shapeCasts_S1x800000_S800000 i

/-- The degree normaliser of an edge row: count the row's occurrences of each node (a scatter-add of ones into
    zeros), floor the count at one, raise to the power -1/2. -/
def deg (idx : (⟨S800000, .i32⟩ : BufTy).Contents (Elt F)) : (⟨S50000, .f32⟩ : BufTy).Contents (Elt F) :=
  Host.powf
    (maximumf
      (Host.scatterAdd scatter_S50000_S800000x1_S800000_n_0_0_1
        (broadcastInDim S50000 ![] bcast_S_S50000 (constant S_ .f32 0x00000000#32))
        (broadcastInDim S800000x1 ![0] bcast_S800000_S800000x1_0 idx)
        (broadcastInDim S800000 ![] bcast_S_S800000 (constant S_ .f32 0x3F800000#32)))
      (broadcastInDim S50000 ![] bcast_S_S50000 (constant S_ .f32 0x3F800000#32)))
    (broadcastInDim S50000 ![] bcast_S_S50000 (constant S_ .f32 0xBF000000#32))

/-- The gather index of an edge row: a negative node number wraps by 50000; as a column. -/
def wrapIdx (s : (⟨S800000, .i32⟩ : BufTy).Contents (Elt F)) : (⟨S800000x1, .i32⟩ : BufTy).Contents (Elt F) :=
  broadcastInDim S800000x1 ![0] bcast_S800000_S800000x1_0
    (select (cmpi .slt s (broadcastInDim S800000 ![] bcast_S_S800000 (constantI S_ 32 0#32)))
      (addi s (broadcastInDim S800000 ![] bcast_S_S800000 (constantI S_ 32 50000#32))) s)

/-- A per-node factor spread over the 128 features. -/
def spread (d : (⟨S50000, .f32⟩ : BufTy).Contents (Elt F)) : (⟨S50000x128, .f32⟩ : BufTy).Contents (Elt F) :=
  broadcastInDim S50000x128 ![0, 1] bcast_S50000x1_S50000x128_0_1 (broadcastInDim S50000x1 ![0] bcast_S50000_S50000x1_0 d)

/-- The un-normalised aggregate of one relation: rows of `h` gathered at the sources, added up at the targets. -/
def pool (h : (⟨S50000x128, .f32⟩ : BufTy).Contents (Elt F)) (s d : (⟨S800000, .i32⟩ : BufTy).Contents (Elt F)) :
    (⟨S50000x128, .f32⟩ : BufTy).Contents (Elt F) :=
  Host.scatterAdd scatter_S50000x128_S800000x1_S800000x128_1_0_0_1
    (broadcastInDim S50000x128 ![] bcast_S_S50000x128 (constant S_ .f32 0x00000000#32))
    (broadcastInDim S800000x1 ![0] bcast_S800000_S800000x1_0 d)
    (Host.gather gather_S50000x128_S800000x1_S800000x128_1_0_n_n_0_1_1128 h (wrapIdx s))

/-- One relation's normalised aggregate of the features `x`. -/
def agg (x : (⟨S50000x128, .f32⟩ : BufTy).Contents (Elt F)) (dout din : (⟨S50000, .f32⟩ : BufTy).Contents (Elt F))
    (s d : (⟨S800000, .i32⟩ : BufTy).Contents (Elt F)) : (⟨S50000x128, .f32⟩ : BufTy).Contents (Elt F) :=
  mulf (pool (mulf x (spread dout)) s d) (spread din)

/-- The read-out: column means of the pooled features, the linear map, the logistic function. -/
def readout (p : (⟨S50000x128, .f32⟩ : BufTy).Contents (Elt F)) (wl : (⟨S128x16, .f32⟩ : BufTy).Contents (Elt F))
    (bl : (⟨S16, .f32⟩ : BufTy).Contents (Elt F)) : (⟨S1x16, .f32⟩ : BufTy).Contents (Elt F) :=
  Host.divf (broadcastInDim S1x16 ![] bcast_S_S1x16 (constant S_ .f32 0x3F800000#32))
    (addf (broadcastInDim S1x16 ![] bcast_S_S1x16 (constant S_ .f32 0x3F800000#32))
      (Host.exp (Host.negf
        (addf
          (Host.dotGeneral dot_S1x128_S128x16_S1x16_1_0_0_1_n_n none
            (Host.divf
              (broadcastInDim S1x128 ![1] bcast_S128_S1x128_1
                (Host.reduceAdd p (constant S_ .f32 0x00000000#32) reducesTo_S50000x128_S128_d0 h_S_))
              (broadcastInDim S1x128 ![] bcast_S_S1x128 (constant S_ .f32 0x47435000#32)))
            wl)
          (broadcastInDim S1x16 ![1] bcast_S16_S1x16_1 bl)))))

end Cert.ReferenceIdeal.Net

end
-- ==== Proof.RefLayer.lean ====
/-
  One layer of the plain program after the four per-relation aggregates exist, as functions of array
  contents in the operations the program spells: relation `r`'s dense part `a_r · W[r] + b[r]` (the weight
  matrix and bias row cut out of the stacked arrays), the four dense parts added, and the activation —
  each row divided by its Euclidean norm floored at a small constant, then the leaky rectifier
  `q ↦ q if q ≥ 0 else s·q`.
-/
import proofs.«158609_j30133490549165_1_alg».proof.ReferenceIdeal

noncomputable section

namespace Cert.ReferenceIdeal.Net

open Cert.ReferenceIdeal Idealize.ShloMosaic Idealize.ShloMosaic.TcCoe
open Facts₀

variable {F : FTy → Type} [FloatOps F] [Facts]

/-- Relation `r`'s dense part: the aggregate times the relation's weight matrix, plus its bias row on every node. -/
def dense (a : (⟨S50000x128, .f32⟩ : BufTy).Contents (Elt F))
    (offW : Fin 3 → Nat) (hW : S4x128x128.Slices offW S1x128x128) (offB : Fin 2 → Nat) (hB : S4x128.Slices offB S1x128)
    (W : (⟨S4x128x128, .f32⟩ : BufTy).Contents (Elt F)) (B : (⟨S4x128, .f32⟩ : BufTy).Contents (Elt F)) :
    (⟨S50000x128, .f32⟩ : BufTy).Contents (Elt F) :=
  addf
    (Host.dotGeneral dot_S50000x128_S128x128_S50000x128_1_0_0_1_n_n none a
      (fun i => shapeCast S128x128 (extractStridedSlice S1x128x128 offW W hW) shapeCasts_S1x128x128_S128x128 i))
    (broadcastInDim S50000x128 ![0, 1] bcast_S1x128_S50000x128_0_1
      (broadcastInDim S1x128 ![1] bcast_S128_S1x128_1
        (fun i => shapeCast S128 (extractStridedSlice S1x128 offB B hB) shapeCasts_S1x128_S128 i)))

/-- The layer before activation: the four relations' dense parts, added in order. -/
def pre (a0 a1 a2 a3 : (⟨S50000x128, .f32⟩ : BufTy).Contents (Elt F))
    (W : (⟨S4x128x128, .f32⟩ : BufTy).Contents (Elt F)) (B : (⟨S4x128, .f32⟩ : BufTy).Contents (Elt F)) :
    (⟨S50000x128, .f32⟩ : BufTy).Contents (Elt F) :=
  addf (addf (addf
    (dense a0 ![0, 0, 0] slices_S4x128x128_S1x128x128_0_0_0 ![0, 0] slices_S4x128_S1x128_0_0 W B)
    (dense a1 ![1, 0, 0] slices_S4x128x128_S1x128x128_1_0_0 ![1, 0] slices_S4x128_S1x128_1_0 W B))
    (dense a2 ![2, 0, 0] slices_S4x128x128_S1x128x128_2_0_0 ![2, 0] slices_S4x128_S1x128_2_0 W B))
    (dense a3 ![3, 0, 0] slices_S4x128x128_S1x128x128_3_0_0 ![3, 0] slices_S4x128_S1x128_3_0 W B)

/-- Rows normalised by their floored Euclidean norm. -/
def rownorm (h : (⟨S50000x128, .f32⟩ : BufTy).Contents (Elt F)) : (⟨S50000x128, .f32⟩ : BufTy).Contents (Elt F) :=
  Host.divf h
    (broadcastInDim S50000x128 ![0, 1] bcast_S50000x1_S50000x128_0_1
      (maximumf
        (Host.sqrt (broadcastInDim S50000x1 ![0] bcast_S50000_S50000x1_0
          (Host.reduceAdd (mulf h h) (constant S_ .f32 0x00000000#32) reducesTo_S50000x128_S50000_d1 h_S_)))
        (broadcastInDim S50000x1 ![] bcast_S_S50000x1 (constant S_ .f32 0x2B8CBCCC#32))))

/-- The leaky rectifier with slope word `s`. -/
def leaky (q : (⟨S50000x128, .f32⟩ : BufTy).Contents (Elt F)) (s : (⟨S_, .f32⟩ : BufTy).Contents (Elt F)) :
    (⟨S50000x128, .f32⟩ : BufTy).Contents (Elt F) :=
  select (cmpf .oge q (broadcastInDim S50000x128 ![] bcast_S_S50000x128 (constant S_ .f32 0x00000000#32)))
    q (mulf (broadcastInDim S50000x128 ![] bcast_S_S50000x128 (id s)) q)

/-- An activated layer from its four aggregates. -/
def act (h : (⟨S50000x128, .f32⟩ : BufTy).Contents (Elt F)) : (⟨S50000x128, .f32⟩ : BufTy).Contents (Elt F) :=
  leaky (rownorm h) (constant S_ .f32 0x3C23D70A#32)

end Cert.ReferenceIdeal.Net

end
-- ==== Proof.RNet.lean ====
/-
  The plain program's layers as functions of array contents: each relation's aggregate with its two
  degree normalisers computed from that relation's edge rows; a layer before activation; the pooled sum.
-/
import proofs.«158609_j30133490549165_1_alg».proof.Proof.NetR
import proofs.«158609_j30133490549165_1_alg».proof.Proof.RefLayer

noncomputable section

namespace Cert.ReferenceIdeal.Net

open Cert.ReferenceIdeal Idealize.ShloMosaic Idealize.ShloMosaic.TcCoe
open Facts₀

variable {F : FTy → Type} [FloatOps F] [Facts]

/-- Relation `r`'s aggregate of `x`, both normalisers computed from the relation's own edge rows. -/
def aggR (x : (⟨S50000x128, .f32⟩ : BufTy).Contents (Elt F)) (off : Fin 2 → Nat) (hs : S4x800000.Slices off S1x800000)
    (a1 a2 : (⟨S4x800000, .i32⟩ : BufTy).Contents (Elt F)) : (⟨S50000x128, .f32⟩ : BufTy).Contents (Elt F) :=
  agg x (deg (rowOf off hs a1)) (deg (rowOf off hs a2)) (rowOf off hs a1) (rowOf off hs a2)

/-- A layer before activation, from the layer's input features. -/
def layerPre (x : (⟨S50000x128, .f32⟩ : BufTy).Contents (Elt F))
    (W : (⟨S4x128x128, .f32⟩ : BufTy).Contents (Elt F)) (B : (⟨S4x128, .f32⟩ : BufTy).Contents (Elt F))
    (a1 a2 : (⟨S4x800000, .i32⟩ : BufTy).Contents (Elt F)) : (⟨S50000x128, .f32⟩ : BufTy).Contents (Elt F) :=
  pre (aggR x ![0, 0] slices_S4x800000_S1x800000_0_0 a1 a2) (aggR x ![1, 0] slices_S4x800000_S1x800000_1_0 a1 a2)
    (aggR x ![2, 0] slices_S4x800000_S1x800000_2_0 a1 a2) (aggR x ![3, 0] slices_S4x800000_S1x800000_3_0 a1 a2) W B

/-- The pooled features: the four relations' un-normalised aggregates, added in order. -/
def poolsR (h : (⟨S50000x128, .f32⟩ : BufTy).Contents (Elt F)) (a1 a2 : (⟨S4x800000, .i32⟩ : BufTy).Contents (Elt F)) :
    (⟨S50000x128, .f32⟩ : BufTy).Contents (Elt F) :=
  addf (addf (addf
    (pool h (rowOf ![0, 0] slices_S4x800000_S1x800000_0_0 a1) (rowOf ![0, 0] slices_S4x800000_S1x800000_0_0 a2))
    (pool h (rowOf ![1, 0] slices_S4x800000_S1x800000_1_0 a1) (rowOf ![1, 0] slices_S4x800000_S1x800000_1_0 a2)))
    (pool h (rowOf ![2, 0] slices_S4x800000_S1x800000_2_0 a1) (rowOf ![2, 0] slices_S4x800000_S1x800000_2_0 a2)))
    (pool h (rowOf ![3, 0] slices_S4x800000_S1x800000_3_0 a1) (rowOf ![3, 0] slices_S4x800000_S1x800000_3_0 a2))

end Cert.ReferenceIdeal.Net

end
-- ==== Proof.RReadA.lean ====
/-
  What each part of the plain program leaves in the buffer the next part reads, as a function of the
  contents the part starts from: the fold of the part's operations read at that buffer is the network
  block they spell (a layer with its activation, a layer without, the pooled read-out).
-/
import proofs.«158609_j30133490549165_1_alg».proof.Proof.RNet
import proofs.«158609_j30133490549165_1_alg».proof.Proof.RefOpsCat
import Idealize.ShloMosaic.Lib.StableHlo.Run

set_option maxRecDepth 65536

noncomputable section

namespace Cert.ReferenceIdeal.Net

open Cert.ReferenceIdeal Cert.ReferenceIdeal.Gen Idealize.ShloMosaic Idealize.ShloMosaic.TcCoe Idealize.SL.Sem Idealize.ShloMosaic.StableHlo
open Facts₀

variable {F : FTy → Type} [FloatOps F]

attribute [local irreducible] Host.scatterAdd Host.gather Host.powf concatenate broadcastInDim extractStridedSlice shapeCast in
set_option maxHeartbeats 4000000 in
theorem readA_v183 (V : Valuation τ sig (Elt F)) :
    after (Cert.ReferenceIdeal.RR.opsA (F := F)) V (Proc.devRef .tc main_v183) = act (layerPre (V (Proc.devRef .tc main_arg0)) (V (Proc.devRef .tc main_arg3)) (V (Proc.devRef .tc main_arg4)) (V (Proc.devRef .tc main_arg1)) (V (Proc.devRef .tc main_arg2))) := by
  simp only [Cert.ReferenceIdeal.RR.opsA, Cert.ReferenceIdeal.RR.win0, Cert.ReferenceIdeal.RR.win1, Cert.ReferenceIdeal.RR.win2, Cert.ReferenceIdeal.RR.win3a, List.cons_append, List.nil_append, List.append_assoc, after_cons, after_nil]
  rfl

end Cert.ReferenceIdeal.Net

end
-- ==== Proof.RReadB.lean ====
/-
  What each part of the plain program leaves in the buffer the next part reads, as a function of the
  contents the part starts from: the fold of the part's operations read at that buffer is the network
  block they spell (a layer with its activation, a layer without, the pooled read-out).
-/
import proofs.«158609_j30133490549165_1_alg».proof.Proof.RNet
import proofs.«158609_j30133490549165_1_alg».proof.Proof.RefOpsCat
import Idealize.ShloMosaic.Lib.StableHlo.Run

set_option maxRecDepth 65536

noncomputable section

namespace Cert.ReferenceIdeal.Net

open Cert.ReferenceIdeal Cert.ReferenceIdeal.Gen Idealize.ShloMosaic Idealize.ShloMosaic.TcCoe Idealize.SL.Sem Idealize.ShloMosaic.StableHlo
open Facts₀

variable {F : FTy → Type} [FloatOps F]

attribute [local irreducible] Host.scatterAdd Host.gather Host.powf concatenate broadcastInDim extractStridedSlice shapeCast in
set_option maxHeartbeats 4000000 in
theorem readB_v367 (V : Valuation τ sig (Elt F)) :
    after (Cert.ReferenceIdeal.RR.opsB (F := F)) V (Proc.devRef .tc main_v367) = act (layerPre (V (Proc.devRef .tc main_v183)) (V (Proc.devRef .tc main_arg5)) (V (Proc.devRef .tc main_arg6)) (V (Proc.devRef .tc main_arg1)) (V (Proc.devRef .tc main_arg2))) := by
  simp only [Cert.ReferenceIdeal.RR.opsB, Cert.ReferenceIdeal.RR.win3b, Cert.ReferenceIdeal.RR.win4, Cert.ReferenceIdeal.RR.win5, Cert.ReferenceIdeal.RR.win6, Cert.ReferenceIdeal.RR.win7a, List.cons_append, List.nil_append, List.append_assoc, after_cons, after_nil]
  rfl

end Cert.ReferenceIdeal.Net

end
-- ==== Proof.RReadC.lean ====
/-
  What each part of the plain program leaves in the buffer the next part reads, as a function of the
  contents the part starts from: the fold of the part's operations read at that buffer is the network
  block they spell (a layer with its activation, a layer without, the pooled read-out).
-/
import proofs.«158609_j30133490549165_1_alg».proof.Proof.RNet
import proofs.«158609_j30133490549165_1_alg».proof.Proof.RefOpsCat
import Idealize.ShloMosaic.Lib.StableHlo.Run

set_option maxRecDepth 65536

noncomputable section

namespace Cert.ReferenceIdeal.Net

open Cert.ReferenceIdeal Cert.ReferenceIdeal.Gen Idealize.ShloMosaic Idealize.ShloMosaic.TcCoe Idealize.SL.Sem Idealize.ShloMosaic.StableHlo
open Facts₀

variable {F : FTy → Type} [FloatOps F]

attribute [local irreducible] Host.scatterAdd Host.gather Host.powf concatenate broadcastInDim extractStridedSlice shapeCast in
set_option maxHeartbeats 4000000 in
theorem readC_v542 (V : Valuation τ sig (Elt F)) :
    after (Cert.ReferenceIdeal.RR.opsC (F := F)) V (Proc.devRef .tc main_v542) = layerPre (V (Proc.devRef .tc main_v367)) (V (Proc.devRef .tc main_arg7)) (V (Proc.devRef .tc main_arg8)) (V (Proc.devRef .tc main_arg1)) (V (Proc.devRef .tc main_arg2)) := by
  simp only [Cert.ReferenceIdeal.RR.opsC, Cert.ReferenceIdeal.RR.win7b, Cert.ReferenceIdeal.RR.win8, Cert.ReferenceIdeal.RR.win9, Cert.ReferenceIdeal.RR.win10, Cert.ReferenceIdeal.RR.win11a, List.cons_append, List.nil_append, List.append_assoc, after_cons, after_nil]
  rfl

end Cert.ReferenceIdeal.Net

end
-- ==== Proof.RReadD.lean ====
/-
  What each part of the plain program leaves in the buffer the next part reads, as a function of the
  contents the part starts from: the fold of the part's operations read at that buffer is the network
  block they spell (a layer with its activation, a layer without, the pooled read-out).
-/
import proofs.«158609_j30133490549165_1_alg».proof.Proof.RNet
import proofs.«158609_j30133490549165_1_alg».proof.Proof.RefOpsCat
import Idealize.ShloMosaic.Lib.StableHlo.Run

set_option maxRecDepth 65536

noncomputable section

namespace Cert.ReferenceIdeal.Net

open Cert.ReferenceIdeal Cert.ReferenceIdeal.Gen Idealize.ShloMosaic Idealize.ShloMosaic.TcCoe Idealize.SL.Sem Idealize.ShloMosaic.StableHlo
open Facts₀

variable {F : FTy → Type} [FloatOps F]

attribute [local irreducible] Host.scatterAdd Host.gather Host.powf concatenate broadcastInDim extractStridedSlice shapeCast in
set_option maxHeartbeats 4000000 in
theorem readD_v614 (V : Valuation τ sig (Elt F)) :
    after (Cert.ReferenceIdeal.RR.opsD (F := F)) V (Proc.devRef .tc main_v614) = readout (poolsR (V (Proc.devRef .tc main_v542)) (V (Proc.devRef .tc main_arg1)) (V (Proc.devRef .tc main_arg2))) (V (Proc.devRef .tc main_arg9)) (V (Proc.devRef .tc main_arg10)) := by
  simp only [Cert.ReferenceIdeal.RR.opsD, Cert.ReferenceIdeal.RR.win11b, Cert.ReferenceIdeal.RR.win12, List.cons_append, List.nil_append, List.append_assoc, after_cons, after_nil]
  rfl

end Cert.ReferenceIdeal.Net

end
-- ==== Proof.RChain.lean ====
/-
  The plain program's result as a function of its arguments, at the ideal values: three layers (the first
  two activated), each from the previous layer's output and the argument arrays, then the pooled read-out.
  The argument arrays pass through every part unchanged.
-/
import proofs.«158609_j30133490549165_1_alg».proof.Proof.RefRun
import proofs.«158609_j30133490549165_1_alg».proof.Proof.RReadA
import proofs.«158609_j30133490549165_1_alg».proof.Proof.RReadB
import proofs.«158609_j30133490549165_1_alg».proof.Proof.RReadC
import proofs.«158609_j30133490549165_1_alg».proof.Proof.RReadD
import Idealize.ShloMosaic.PureOps.Ideal

set_option maxRecDepth 16384

noncomputable section

namespace Cert.ReferenceIdeal.RC

open Cert.ReferenceIdeal Cert.ReferenceIdeal.Gen Cert.ReferenceIdeal.RR Cert.ReferenceIdeal.Net
open Idealize.ShloMosaic Idealize.ShloMosaic.TcCoe Idealize.SL.Sem Idealize.ShloMosaic.StableHlo

/-- Two lines run one after the other leave what the second leaves from what the first left. -/
theorem after_append (l₁ l₂ : List (HloOp τ sig (Elt Ideal))) (V : Valuation τ sig (Elt Ideal)) :
    after (l₁ ++ l₂) V = after l₂ (after l₁ V) := by
  induction l₁ generalizing V with
  | nil => rfl
  | cons op l ih => simp only [List.cons_append, after_cons, ih]

variable (V : Valuation τ sig (Elt Ideal))

/-- The contents after each part. -/
abbrev VA : Valuation τ sig (Elt Ideal) := after (opsA (F := Ideal)) V
abbrev VB : Valuation τ sig (Elt Ideal) := after (opsB (F := Ideal)) (VA V)
abbrev VC : Valuation τ sig (Elt Ideal) := after (opsC (F := Ideal)) (VB V)
abbrev VD : Valuation τ sig (Elt Ideal) := after (opsD (F := Ideal)) (VC V)

theorem after_ops : after (ops (F := Ideal)) V = VD V := by
  exact (after_append (opsA ++ opsB ++ opsC) opsD V).trans (congrArg (after opsD)
    ((after_append (opsA ++ opsB) opsC V).trans (congrArg (after opsC) (after_append opsA opsB V))))

/-! ## The arguments pass through each part -/

theorem cA (b : Ref sig .tc) (hb : b ∉ win0_W ++ win1_W ++ win2_W ++ win3a_W) : VA V (Proc.devRef .tc b) = V (Proc.devRef .tc b) :=
  after_of_writes_sub opsA V opsA_writes hb
theorem cB (b : Ref sig .tc) (hb : b ∉ win3b_W ++ win4_W ++ win5_W ++ win6_W ++ win7a_W) :
    VB V (Proc.devRef .tc b) = VA V (Proc.devRef .tc b) := after_of_writes_sub opsB _ opsB_writes hb
theorem cC (b : Ref sig .tc) (hb : b ∉ win7b_W ++ win8_W ++ win9_W ++ win10_W ++ win11a_W) :
    VC V (Proc.devRef .tc b) = VB V (Proc.devRef .tc b) := after_of_writes_sub opsC _ opsC_writes hb

/-! ## The three layers and the result -/

def H1 : (⟨S50000x128, .f32⟩ : BufTy).Contents (Elt Ideal) :=
  act (layerPre (V (Proc.devRef .tc main_arg0)) (V (Proc.devRef .tc main_arg3)) (V (Proc.devRef .tc main_arg4))
    (V (Proc.devRef .tc main_arg1)) (V (Proc.devRef .tc main_arg2)))
def H2 : (⟨S50000x128, .f32⟩ : BufTy).Contents (Elt Ideal) :=
  act (layerPre (H1 V) (V (Proc.devRef .tc main_arg5)) (V (Proc.devRef .tc main_arg6))
    (V (Proc.devRef .tc main_arg1)) (V (Proc.devRef .tc main_arg2)))
def H3 : (⟨S50000x128, .f32⟩ : BufTy).Contents (Elt Ideal) :=
  layerPre (H2 V) (V (Proc.devRef .tc main_arg7)) (V (Proc.devRef .tc main_arg8))
    (V (Proc.devRef .tc main_arg1)) (V (Proc.devRef .tc main_arg2))

theorem h1_eq : VA V (Proc.devRef .tc main_v183) = H1 V := readA_v183 V

theorem h2_eq : VB V (Proc.devRef .tc main_v367) = H2 V := by
  refine (readB_v367 (VA V)).trans ?_
  unfold H2
  rw [h1_eq, cA V main_arg5 (by decide), cA V main_arg6 (by decide), cA V main_arg1 (by decide), cA V main_arg2 (by decide)]

theorem h3_eq : VC V (Proc.devRef .tc main_v542) = H3 V := by
  refine (readC_v542 (VB V)).trans ?_
  unfold H3
  rw [h2_eq, cB V main_arg7 (by decide), cB V main_arg8 (by decide), cB V main_arg1 (by decide), cB V main_arg2 (by decide),
    cA V main_arg7 (by decide), cA V main_arg8 (by decide), cA V main_arg1 (by decide), cA V main_arg2 (by decide)]

theorem out_eq : after (ops (F := Ideal)) V (Proc.devRef .tc main_v614)
    = readout (poolsR (H3 V) (V (Proc.devRef .tc main_arg1)) (V (Proc.devRef .tc main_arg2)))
        (V (Proc.devRef .tc main_arg9)) (V (Proc.devRef .tc main_arg10)) := by
  rw [after_ops]
  refine (readD_v614 (VC V)).trans ?_
  rw [h3_eq,
    cC V main_arg1 (by decide), cB V main_arg1 (by decide), cA V main_arg1 (by decide),
    cC V main_arg2 (by decide), cB V main_arg2 (by decide), cA V main_arg2 (by decide),
    cC V main_arg9 (by decide), cB V main_arg9 (by decide), cA V main_arg9 (by decide),
    cC V main_arg10 (by decide), cB V main_arg10 (by decide), cA V main_arg10 (by decide)]

end Cert.ReferenceIdeal.RC

end
-- ==== Proof.Unstack.lean ====
/-
  Reading a row back out of a stack: four vectors placed as the rows of a [4, 50000] array, row `r` cut out
  and flattened, is the `r`-th vector again.  Index by index: the flattened cut at `p` is the stack at
  `(r, p)`, which lies in the `r`-th piece of the concatenation at `(0, p)`, which is the vector at `p`.
-/
import proofs.«158609_j30133490549165_1_alg».proof.Proof.KStack
import Idealize.ShloMosaic.Lib.ValueIdx
import Idealize.ShloMosaic.Lib.Pipeline.Value

noncomputable section

namespace Cert.KernelIdeal.Net

open Cert.KernelIdeal Idealize.ShloMosaic Idealize.ShloMosaic.TcCoe Idealize.ShloMosaic.ValueIdx
open Facts₀

variable {F : FTy → Type} [FloatOps F] [Facts]

/-- The stack at `(r, p)` is its `r`-th vector at `p`. -/
theorem stack2_apply (d0 d1 d2 d3 : (⟨S50000, .f32⟩ : BufTy).Contents (Elt F)) (r : Fin 4) (p : Fin 50000)
    (dr : (⟨S50000, .f32⟩ : BufTy).Contents (Elt F))
    (hdr : ([d0, d1, d2, d3] : List ((⟨S50000, .f32⟩ : BufTy).Contents (Elt F)))[r.val]'(by have := r.isLt; simp) = dr) :
    stack2 d0 d1 d2 d3 (ix2 r p) = dr (ix1 p) := by
  unfold stack2
  have key : ∀ (k : Nat) (hk : k < 4) (x : (⟨S50000, .f32⟩ : BufTy).Contents (Elt F)),
      r.val = k →
      ([⟨S1x50000, broadcastInDim S1x50000 ![1] bcast_S50000_S1x50000_1 d0⟩,
        ⟨S1x50000, broadcastInDim S1x50000 ![1] bcast_S50000_S1x50000_1 d1⟩,
        ⟨S1x50000, broadcastInDim S1x50000 ![1] bcast_S50000_S1x50000_1 d2⟩,
        ⟨S1x50000, broadcastInDim S1x50000 ![1] bcast_S50000_S1x50000_1 d3⟩] :
          List ((s : Shape) × (s.Idx → Elt F .f32)))[k]'(by simpa using hk)
        = ⟨S1x50000, broadcastInDim S1x50000 ![1] bcast_S50000_S1x50000_1 x⟩ →
      concatenate S4x50000 0
        [⟨S1x50000, broadcastInDim S1x50000 ![1] bcast_S50000_S1x50000_1 d0⟩,
         ⟨S1x50000, broadcastInDim S1x50000 ![1] bcast_S50000_S1x50000_1 d1⟩,
         ⟨S1x50000, broadcastInDim S1x50000 ![1] bcast_S50000_S1x50000_1 d2⟩,
         ⟨S1x50000, broadcastInDim S1x50000 ![1] bcast_S50000_S1x50000_1 d3⟩]
        concatenates_S1x50000_S1x50000_S1x50000_S1x50000_S4x50000_d0 (ix2 r p) = x (ix1 p) := by
    intro k hk x hrk hxk
    refine (concatenate_apply_piece (0 : Fin 2) _ _ (ix2 r p) k (by simpa using hk) S1x50000 _ hxk rfl k ?_
      (ix2 (0 : Fin 1) p) ?_ ?_).trans ?_
    · interval_cases k <;> rfl
    · intro b hb
      match b with
      | ⟨0, _⟩ => exact absurd rfl hb
      | ⟨1, _⟩ => rfl
    · show k + 0 = r.val
      omega
    · exact broadcastInDim_apply _ _ x (ix2 (0 : Fin 1) p) (ix1 p) (fun a => by
        match a with
        | ⟨0, _⟩ => rfl)
  have hr := r.isLt
  rcases r with ⟨rv, hrv⟩
  interval_cases rv
  · exact key 0 (by decide) dr rfl (by simp at hdr; subst hdr; rfl)
  · exact key 1 (by decide) dr rfl (by simp at hdr; subst hdr; rfl)
  · exact key 2 (by decide) dr rfl (by simp at hdr; subst hdr; rfl)
  · exact key 3 (by decide) dr rfl (by simp at hdr; subst hdr; rfl)

/-- Row `r` cut out of a stack and flattened, at `p`, is the stack at `(r, p)`. -/
theorem unstack_apply (off : Fin 2 → Nat) (hs : S4x50000.Slices off S1x50000) (r : Fin 4) (hoff : off = ![r.val, 0])
    (st : (⟨S4x50000, .f32⟩ : BufTy).Contents (Elt F)) (p : Fin 50000) :
    unstack off hs st (ix1 p) = st (ix2 r p) := by
  unfold unstack
  refine (shapeCast_apply _ _ (ix1 p) (ix2 (0 : Fin 1) p) ?_).trans ?_
  · rw [Shape.rowMajor_val_two, Shape.rowMajor_val_one]
    show 0 * 50000 + p.val = p.val
    omega
  · refine extractStridedSlice_apply off st hs (ix2 (0 : Fin 1) p) (ix2 r p) (fun a => ?_)
    subst hoff
    match a with
    | ⟨0, _⟩ => show r.val = r.val + 0; omega
    | ⟨1, _⟩ => show p.val = 0 + p.val; omega

theorem unstack_stack2 (off : Fin 2 → Nat) (hs : S4x50000.Slices off S1x50000) (r : Fin 4) (hoff : off = ![r.val, 0])
    (d0 d1 d2 d3 dr : (⟨S50000, .f32⟩ : BufTy).Contents (Elt F))
    (hdr : ([d0, d1, d2, d3] : List ((⟨S50000, .f32⟩ : BufTy).Contents (Elt F)))[r.val]'(by have := r.isLt; simp) = dr) :
    unstack off hs (stack2 d0 d1 d2 d3) = dr := by
  funext i
  obtain ⟨p, rfl⟩ : ∃ p : Fin 50000, i = ix1 p := ⟨i 0, eq_ix1 i⟩
  rw [unstack_apply off hs r hoff, stack2_apply d0 d1 d2 d3 r p dr hdr]

end Cert.KernelIdeal.Net

end
-- ==== Proof.Cross.lean ====
/-
  The two host programs use the same building blocks: a block written over one program's records is the
  block written over the other's (the records hold the same dimension numbers, and their side conditions
  are propositions).  Two wirings differ and are bridged here.  (1) The tiled program stacks its degree
  normalisers and reads row `r` back: reading a row back out of a stack returns the vector that was put
  there, so its stacked aggregates are the plain program's four aggregates, stacked.  (2) The tiled
  program starts the pooled sum from a zero array: `0 + x = x` on the extended reals, entry by entry.
-/
import proofs.«158609_j30133490549165_1_alg».proof.Proof.KNet
import proofs.«158609_j30133490549165_1_alg».proof.Proof.RNet
import proofs.«158609_j30133490549165_1_alg».proof.Proof.Unstack
import Idealize.ShloMosaic.PureOps.Ideal.Laws

noncomputable section

namespace Cert.Cross

open Idealize.ShloMosaic Idealize.ShloMosaic.TcCoe Idealize.ShloMosaic.ValueIdx

variable {F : FTy → Type} [FloatOps F] [hK : Cert.KernelIdeal.Facts] [hR : Cert.ReferenceIdeal.Facts]

section Blocks
attribute [local irreducible] Host.scatterAdd Host.gather Host.powf Host.reduceAdd Host.exp Host.negf Host.divf

theorem rowOf_eq (off : Fin 2 → Nat) (h1 : Cert.KernelIdeal.S4x800000.Slices off Cert.KernelIdeal.S1x800000)
    (h2 : Cert.ReferenceIdeal.S4x800000.Slices off Cert.ReferenceIdeal.S1x800000)
    (a : (⟨Cert.KernelIdeal.S4x800000, .i32⟩ : BufTy).Contents (Elt F)) :
    Cert.KernelIdeal.Net.rowOf (F := F) off h1 a = Cert.ReferenceIdeal.Net.rowOf (F := F) off h2 a := rfl

theorem deg_eq (idx : (⟨Cert.KernelIdeal.S800000, .i32⟩ : BufTy).Contents (Elt F)) :
    Cert.KernelIdeal.Net.deg (F := F) idx = Cert.ReferenceIdeal.Net.deg (F := F) idx := rfl

theorem pool_eq (h : (⟨Cert.KernelIdeal.S50000x128, .f32⟩ : BufTy).Contents (Elt F))
    (s d : (⟨Cert.KernelIdeal.S800000, .i32⟩ : BufTy).Contents (Elt F)) :
    Cert.KernelIdeal.Net.pool (F := F) h s d = Cert.ReferenceIdeal.Net.pool (F := F) h s d := rfl

theorem agg_eq (x : (⟨Cert.KernelIdeal.S50000x128, .f32⟩ : BufTy).Contents (Elt F))
    (dout din : (⟨Cert.KernelIdeal.S50000, .f32⟩ : BufTy).Contents (Elt F))
    (s d : (⟨Cert.KernelIdeal.S800000, .i32⟩ : BufTy).Contents (Elt F)) :
    Cert.KernelIdeal.Net.agg (F := F) x dout din s d = Cert.ReferenceIdeal.Net.agg (F := F) x dout din s d := rfl

theorem readout_eq (p : (⟨Cert.KernelIdeal.S50000x128, .f32⟩ : BufTy).Contents (Elt F))
    (wl : (⟨Cert.KernelIdeal.S128x16, .f32⟩ : BufTy).Contents (Elt F)) (bl : (⟨Cert.KernelIdeal.S16, .f32⟩ : BufTy).Contents (Elt F)) :
    Cert.KernelIdeal.Net.readout (F := F) p wl bl = Cert.ReferenceIdeal.Net.readout (F := F) p wl bl := rfl

end Blocks

/-- One relation's aggregate on the tiled side — normalisers read back out of the two stacks — is the plain
    program's aggregate of that relation. -/
theorem aggK_eq (x : (⟨Cert.KernelIdeal.S50000x128, .f32⟩ : BufTy).Contents (Elt F))
    (a1 a2 : (⟨Cert.KernelIdeal.S4x800000, .i32⟩ : BufTy).Contents (Elt F))
    (r : Fin 4) (off : Fin 2 → Nat) (hoff : off = ![r.val, 0])
    (hs : Cert.KernelIdeal.S4x50000.Slices off Cert.KernelIdeal.S1x50000)
    (he : Cert.KernelIdeal.S4x800000.Slices off Cert.KernelIdeal.S1x800000)
    (he' : Cert.ReferenceIdeal.S4x800000.Slices off Cert.ReferenceIdeal.S1x800000)
    (hd1 : ([Cert.KernelIdeal.Net.deg (F := F) (Cert.KernelIdeal.Net.rowOf ![0, 0] Cert.KernelIdeal.Facts₀.slices_S4x800000_S1x800000_0_0 a1),
              Cert.KernelIdeal.Net.deg (Cert.KernelIdeal.Net.rowOf ![1, 0] Cert.KernelIdeal.Facts₀.slices_S4x800000_S1x800000_1_0 a1),
              Cert.KernelIdeal.Net.deg (Cert.KernelIdeal.Net.rowOf ![2, 0] Cert.KernelIdeal.Facts₀.slices_S4x800000_S1x800000_2_0 a1),
              Cert.KernelIdeal.Net.deg (Cert.KernelIdeal.Net.rowOf ![3, 0] Cert.KernelIdeal.Facts₀.slices_S4x800000_S1x800000_3_0 a1)] :
              List _)[r.val]'(by have := r.isLt; simp)
            = Cert.KernelIdeal.Net.deg (Cert.KernelIdeal.Net.rowOf off he a1))
    (hd2 : ([Cert.KernelIdeal.Net.deg (F := F) (Cert.KernelIdeal.Net.rowOf ![0, 0] Cert.KernelIdeal.Facts₀.slices_S4x800000_S1x800000_0_0 a2),
              Cert.KernelIdeal.Net.deg (Cert.KernelIdeal.Net.rowOf ![1, 0] Cert.KernelIdeal.Facts₀.slices_S4x800000_S1x800000_1_0 a2),
              Cert.KernelIdeal.Net.deg (Cert.KernelIdeal.Net.rowOf ![2, 0] Cert.KernelIdeal.Facts₀.slices_S4x800000_S1x800000_2_0 a2),
              Cert.KernelIdeal.Net.deg (Cert.KernelIdeal.Net.rowOf ![3, 0] Cert.KernelIdeal.Facts₀.slices_S4x800000_S1x800000_3_0 a2)] :
              List _)[r.val]'(by have := r.isLt; simp)
            = Cert.KernelIdeal.Net.deg (Cert.KernelIdeal.Net.rowOf off he a2)) :
    Cert.KernelIdeal.Net.agg (F := F) x
        (Cert.KernelIdeal.Net.unstack off hs (Cert.KernelIdeal.Net.degStack a1))
        (Cert.KernelIdeal.Net.unstack off hs (Cert.KernelIdeal.Net.degStack a2))
        (Cert.KernelIdeal.Net.rowOf off he a1) (Cert.KernelIdeal.Net.rowOf off he a2)
      = Cert.ReferenceIdeal.Net.aggR (F := F) x off he' a1 a2 := by
  unfold Cert.KernelIdeal.Net.degStack
  rw [Cert.KernelIdeal.Net.unstack_stack2 off hs r hoff _ _ _ _ _ hd1, Cert.KernelIdeal.Net.unstack_stack2 off hs r hoff _ _ _ _ _ hd2]
  unfold Cert.ReferenceIdeal.Net.aggR
  rw [agg_eq, deg_eq, deg_eq, rowOf_eq off he he' a1, rowOf_eq off he he' a2]

/-- The tiled program's stacked aggregates are the plain program's four aggregates, stacked. -/
theorem aggsK_eq (x : (⟨Cert.KernelIdeal.S50000x128, .f32⟩ : BufTy).Contents (Elt F))
    (a1 a2 : (⟨Cert.KernelIdeal.S4x800000, .i32⟩ : BufTy).Contents (Elt F)) :
    Cert.KernelIdeal.Net.aggsK (F := F) x (Cert.KernelIdeal.Net.degStack a1) (Cert.KernelIdeal.Net.degStack a2) a1 a2
      = Cert.KernelIdeal.Net.stack3
          (Cert.ReferenceIdeal.Net.aggR x ![0, 0] Cert.ReferenceIdeal.Facts₀.slices_S4x800000_S1x800000_0_0 a1 a2)
          (Cert.ReferenceIdeal.Net.aggR x ![1, 0] Cert.ReferenceIdeal.Facts₀.slices_S4x800000_S1x800000_1_0 a1 a2)
          (Cert.ReferenceIdeal.Net.aggR x ![2, 0] Cert.ReferenceIdeal.Facts₀.slices_S4x800000_S1x800000_2_0 a1 a2)
          (Cert.ReferenceIdeal.Net.aggR x ![3, 0] Cert.ReferenceIdeal.Facts₀.slices_S4x800000_S1x800000_3_0 a1 a2) := by
  unfold Cert.KernelIdeal.Net.aggsK
  rw [aggK_eq x a1 a2 0 ![0, 0] rfl _ _ Cert.ReferenceIdeal.Facts₀.slices_S4x800000_S1x800000_0_0 rfl rfl,
    aggK_eq x a1 a2 1 ![1, 0] rfl _ _ Cert.ReferenceIdeal.Facts₀.slices_S4x800000_S1x800000_1_0 rfl rfl,
    aggK_eq x a1 a2 2 ![2, 0] rfl _ _ Cert.ReferenceIdeal.Facts₀.slices_S4x800000_S1x800000_2_0 rfl rfl,
    aggK_eq x a1 a2 3 ![3, 0] rfl _ _ Cert.ReferenceIdeal.Facts₀.slices_S4x800000_S1x800000_3_0 rfl rfl]

/-- Adding to a zero array changes nothing, on the extended reals. -/
theorem zero_addf (x : (⟨Cert.KernelIdeal.S50000x128, .f32⟩ : BufTy).Contents (Elt Ideal)) :
    addf (broadcastInDim Cert.KernelIdeal.S50000x128 ![] Cert.KernelIdeal.Facts₀.bcast_S_S50000x128
      (constant (F := Ideal) Cert.KernelIdeal.S_ .f32 0x00000000#32)) x = x := by
  funext i
  show Ideal.ofBits .f32 0x00000000#32 + x i = x i
  rw [Ideal.ofBits_zero_f32, zero_add]

/-- The two pooled sums agree. -/
theorem pools_eq (h : (⟨Cert.KernelIdeal.S50000x128, .f32⟩ : BufTy).Contents (Elt Ideal))
    (a1 a2 : (⟨Cert.KernelIdeal.S4x800000, .i32⟩ : BufTy).Contents (Elt Ideal)) :
    Cert.KernelIdeal.Net.poolsK (F := Ideal) h a1 a2 = Cert.ReferenceIdeal.Net.poolsR (F := Ideal) h a1 a2 := by
  unfold Cert.KernelIdeal.Net.poolsK Cert.ReferenceIdeal.Net.poolsR
  rw [zero_addf, pool_eq, pool_eq, pool_eq, pool_eq, rowOf_eq, rowOf_eq, rowOf_eq, rowOf_eq, rowOf_eq, rowOf_eq, rowOf_eq, rowOf_eq]

end Cert.Cross

end
-- ==== Proof.LayerBridge.lean ====
import proofs.«158609_j30133490549165_1_alg».proof.Proof.Spec
import proofs.«158609_j30133490549165_1_alg».proof.Proof.KStack
import proofs.«158609_j30133490549165_1_alg».proof.Proof.RefLayer
import Idealize.ShloMosaic.Lib.ValueIdx
import Idealize.ShloMosaic.Lib.IdealHost
import Idealize.ShloMosaic.Lib.Pipeline.Value
import Idealize.ShloMosaic.Lib.ValueLayout
import Idealize.ShloMosaic.Lib.StackMember
import Idealize.ShloMosaic.PureOps.Ideal.Laws

/-! # One network layer, read entry by entry in both programs' spellings

The tiled program hands its matrix unit the four aggregates stacked along a leading relation axis and the
stacked weights, both in the narrow format (the identity on the extended reals); the plain program multiplies
each aggregate by its relation's weight matrix cut out of the stack, adds the relation's bias row to every node,
and adds the four results. Entry (i, j) of either is
`Σ_r (Σ_k a_r[i,k] · W[r,k,j] + B[r,j])`, and the activation that follows is computed entry by entry from it. -/

set_option maxRecDepth 16384

noncomputable section

namespace Cert.LayerBridge

open Idealize.ShloMosaic Idealize.ShloMosaic.ValueIdx
open scoped BigOperators

variable [hK : Cert.KernelIdeal.Facts] [hR : Cert.ReferenceIdeal.Facts]

/-- A [50000, 128] array, the [4, 128, 128] weights and the [4, 128] biases at the extended reals. -/
abbrev Mat := (⟨Cert.ReferenceIdeal.S50000x128, .f32⟩ : BufTy).Contents (Elt Ideal)
abbrev Wts := (⟨Cert.ReferenceIdeal.S4x128x128, .f32⟩ : BufTy).Contents (Elt Ideal)
abbrev Bias := (⟨Cert.ReferenceIdeal.S4x128, .f32⟩ : BufTy).Contents (Elt Ideal)

/-! ## The stacked operands, entry by entry -/

/-- Narrowing the weights changes no entry. -/
theorem narrowW_apply (W : Wts) (x : Cert.GNN.SW.Idx) : Cert.KernelIdeal.Net.narrowW (F := Ideal) W x = W x := rfl

/-- Entry (r, i, k) of the stacked aggregates is entry (i, k) of aggregate r: the concatenation along the relation axis
    reads piece r, which is aggregate r under a new leading unit axis, and narrowing changes no entry. -/
theorem stack3_apply_0 (a0 a1 a2 a3 : Mat) (i : Fin 50000) (k : Fin 128) :
    Cert.KernelIdeal.Net.stack3 (F := Ideal) a0 a1 a2 a3 (ix3 (0 : Fin 4) i k) = a0 (ix2 i k) := by
  unfold Cert.KernelIdeal.Net.stack3
  refine Eq.trans (truncf_apply (ψ := FTy.bf16) (φ := FTy.f32) _ (by decide) _) ?_
  refine Eq.trans (concatenate_apply_piece (0 : Fin 3) _ _ (ix3 (0 : Fin 4) i k) 0 ?_ Cert.KernelIdeal.S1x50000x128 _ rfl rfl 0 ?_
    (ix3 (0 : Fin 1) i k)
    (fun b hb => by
      match b with
      | ⟨0, _⟩ => exact absurd rfl hb
      | ⟨1, _⟩ => rfl
      | ⟨2, _⟩ => rfl)
    rfl) ?_
  · show _ < 4; omega
  · rfl
  exact broadcastInDim_apply _ _ _ _ (ix2 i k) (fun a => by
    match a with
    | ⟨0, _⟩ => rfl
    | ⟨1, _⟩ => rfl)

theorem stack3_apply_1 (a0 a1 a2 a3 : Mat) (i : Fin 50000) (k : Fin 128) :
    Cert.KernelIdeal.Net.stack3 (F := Ideal) a0 a1 a2 a3 (ix3 (1 : Fin 4) i k) = a1 (ix2 i k) := by
  unfold Cert.KernelIdeal.Net.stack3
  refine Eq.trans (truncf_apply (ψ := FTy.bf16) (φ := FTy.f32) _ (by decide) _) ?_
  refine Eq.trans (concatenate_apply_piece (0 : Fin 3) _ _ (ix3 (1 : Fin 4) i k) 1 ?_ Cert.KernelIdeal.S1x50000x128 _ rfl rfl 1 ?_
    (ix3 (0 : Fin 1) i k)
    (fun b hb => by
      match b with
      | ⟨0, _⟩ => exact absurd rfl hb
      | ⟨1, _⟩ => rfl
      | ⟨2, _⟩ => rfl)
    rfl) ?_
  · show _ < 4; omega
  · rfl
  exact broadcastInDim_apply _ _ _ _ (ix2 i k) (fun a => by
    match a with
    | ⟨0, _⟩ => rfl
    | ⟨1, _⟩ => rfl)

theorem stack3_apply_2 (a0 a1 a2 a3 : Mat) (i : Fin 50000) (k : Fin 128) :
    Cert.KernelIdeal.Net.stack3 (F := Ideal) a0 a1 a2 a3 (ix3 (2 : Fin 4) i k) = a2 (ix2 i k) := by
  unfold Cert.KernelIdeal.Net.stack3
  refine Eq.trans (truncf_apply (ψ := FTy.bf16) (φ := FTy.f32) _ (by decide) _) ?_
  refine Eq.trans (concatenate_apply_piece (0 : Fin 3) _ _ (ix3 (2 : Fin 4) i k) 2 ?_ Cert.KernelIdeal.S1x50000x128 _ rfl rfl 2 ?_
    (ix3 (0 : Fin 1) i k)
    (fun b hb => by
      match b with
      | ⟨0, _⟩ => exact absurd rfl hb
      | ⟨1, _⟩ => rfl
      | ⟨2, _⟩ => rfl)
    rfl) ?_
  · show _ < 4; omega
  · rfl
  exact broadcastInDim_apply _ _ _ _ (ix2 i k) (fun a => by
    match a with
    | ⟨0, _⟩ => rfl
    | ⟨1, _⟩ => rfl)

theorem stack3_apply_3 (a0 a1 a2 a3 : Mat) (i : Fin 50000) (k : Fin 128) :
    Cert.KernelIdeal.Net.stack3 (F := Ideal) a0 a1 a2 a3 (ix3 (3 : Fin 4) i k) = a3 (ix2 i k) := by
  unfold Cert.KernelIdeal.Net.stack3
  refine Eq.trans (truncf_apply (ψ := FTy.bf16) (φ := FTy.f32) _ (by decide) _) ?_
  refine Eq.trans (concatenate_apply_piece (0 : Fin 3) _ _ (ix3 (3 : Fin 4) i k) 3 ?_ Cert.KernelIdeal.S1x50000x128 _ rfl rfl 3 ?_
    (ix3 (0 : Fin 1) i k)
    (fun b hb => by
      match b with
      | ⟨0, _⟩ => exact absurd rfl hb
      | ⟨1, _⟩ => rfl
      | ⟨2, _⟩ => rfl)
    rfl) ?_
  · show _ < 4; omega
  · rfl
  exact broadcastInDim_apply _ _ _ _ (ix2 i k) (fun a => by
    match a with
    | ⟨0, _⟩ => rfl
    | ⟨1, _⟩ => rfl)

/-! ## One relation's dense part, entry by entry -/

/-- Relation `r`'s dense part at (i, j), when the slices cut row `r` out of the stacked weights and biases: the matrix
    product's contraction runs over the input features, the weight matrix is slab `r` of the stack with its unit axis
    dropped, and the bias row is row `r` of the stack, the same on every node. -/
theorem dense_apply (a : Mat) (offW : Fin 3 → Nat)
    (hW : Cert.ReferenceIdeal.S4x128x128.Slices offW Cert.ReferenceIdeal.S1x128x128)
    (offB : Fin 2 → Nat) (hB : Cert.ReferenceIdeal.S4x128.Slices offB Cert.ReferenceIdeal.S1x128) (W : Wts) (B : Bias)
    (r : Fin 4) (hW0 : offW 0 = r.val) (hW1 : offW 1 = 0) (hW2 : offW 2 = 0) (hB0 : offB 0 = r.val) (hB1 : offB 1 = 0)
    (i : Fin 50000) (j : Fin 128) :
    Cert.ReferenceIdeal.Net.dense (F := Ideal) a offW hW offB hB W B (ix2 i j)
      = (∑ k : Fin 128, a (ix2 i k) * W (ix3 r k j)) + B (ix2 r j) := by
  unfold Cert.ReferenceIdeal.Net.dense
  refine Eq.trans (addf_apply _ _ _) ?_
  refine congrArg₂ (· + ·) ?_ ?_
  · refine Eq.trans (StackMember.dotGeneral_plain_apply (m := 50000) (n := 128) (k := 128) none a _ i j) ?_
    refine Finset.sum_congr rfl fun k _ => ?_
    refine congrArg (a (ix2 i k) * ·) ?_
    refine Eq.trans (shapeCast_dropUnit_apply (n := 2) ![128, 128] _ _ (ix2 k j)) ?_
    refine extractStridedSlice_apply offW W hW _ (ix3 r k j) ?_
    intro ax
    match ax with
    | ⟨0, _⟩ => show r.val = offW 0 + 0; omega
    | ⟨1, _⟩ => show k.val = offW 1 + k.val; omega
    | ⟨2, _⟩ => show j.val = offW 2 + j.val; omega
  · refine Eq.trans (broadcastInDim_apply _ _ _ (ix2 i j) (ix2 (0 : Fin 1) j) (fun ax => by
      match ax with
      | ⟨0, _⟩ => rfl
      | ⟨1, _⟩ => rfl)) ?_
    refine Eq.trans (broadcastInDim_apply _ _ _ (ix2 (0 : Fin 1) j) (ix1 j) (fun ax => by
      match ax with
      | ⟨0, _⟩ => rfl)) ?_
    refine Eq.trans (shapeCast_dropUnit_apply (n := 1) ![128] _ _ (ix1 j)) ?_
    refine extractStridedSlice_apply offB B hB _ (ix2 r j) ?_
    intro ax
    match ax with
    | ⟨0, _⟩ => show r.val = offB 0 + 0; omega
    | ⟨1, _⟩ => show j.val = offB 1 + j.val; omega

/-! ## The layer before activation -/

/-- The plain program's pre-activation at (i, j) is the specification's bracketed sum over the four relations, read
    off the stacked operands. -/
theorem pre_apply (a0 a1 a2 a3 : Mat) (W : Wts) (B : Bias) (i : Fin 50000) (j : Fin 128) :
    Cert.ReferenceIdeal.Net.pre (F := Ideal) a0 a1 a2 a3 W B (ix2 i j)
      = Cert.GNN.preR (Cert.KernelIdeal.Net.stack3 (F := Ideal) a0 a1 a2 a3)
          (Cert.KernelIdeal.Net.narrowW (F := Ideal) W) B i j := by
  unfold Cert.ReferenceIdeal.Net.pre
  rw [addf_apply, addf_apply, addf_apply,
    dense_apply a0 _ _ _ _ W B 0 rfl rfl rfl rfl rfl, dense_apply a1 _ _ _ _ W B 1 rfl rfl rfl rfl rfl,
    dense_apply a2 _ _ _ _ W B 2 rfl rfl rfl rfl rfl, dense_apply a3 _ _ _ _ W B 3 rfl rfl rfl rfl rfl]
  unfold Cert.GNN.preR Cert.GNN.mm
  simp only [stack3_apply_0, stack3_apply_1, stack3_apply_2, stack3_apply_3, narrowW_apply]

/-! ## The activation -/

/-- The host's square root, entry by entry. -/
theorem hostSqrt_apply {s : Shape} (x : FVec Ideal s .f32) (i : s.Idx) : Host.sqrt x i = Ideal.sqrt (x i) := rfl

/-- A row's entry divided by the row's floored Euclidean norm: the sum of squares runs over the row's 128 entries. -/
theorem rownorm_apply (h : Mat) (i : Fin 50000) (j : Fin 128) :
    Cert.ReferenceIdeal.Net.rownorm (F := Ideal) h (ix2 i j) = Cert.GNN.normed (fun i j => h (ix2 i j)) i j := by
  unfold Cert.ReferenceIdeal.Net.rownorm Cert.GNN.normed Cert.GNN.rowNorm
  refine Eq.trans (hostDivf_apply _ _ _) ?_
  refine congrArg (Ideal.div (h (ix2 i j))) ?_
  refine Eq.trans (broadcastInDim_apply _ _ _ (ix2 i j) (ix2 i (0 : Fin 1)) (fun ax => by
    match ax with
    | ⟨0, _⟩ => rfl
    | ⟨1, _⟩ => rfl)) ?_
  refine Eq.trans (maximumf_apply _ _ _) ?_
  refine congrArg₂ max ?_ ?_
  · refine Eq.trans (hostSqrt_apply _ _) ?_
    refine congrArg Ideal.sqrt ?_
    refine Eq.trans (broadcastInDim_apply _ _ _ (ix2 i (0 : Fin 1)) (ix1 i) (fun ax => by
      match ax with
      | ⟨0, _⟩ => rfl)) ?_
    refine Eq.trans (hostReduceAdd_apply _ _ _ _ _) ?_
    have hred : Cert.ReferenceIdeal.S50000x128.Reduces [1] Cert.ReferenceIdeal.S50000 := by decide
    refine Eq.trans (Ideal.hostReduceAdd_single _ hred _ _ _) ?_
    rw [constant_apply, Ideal.ofBits_zero_f32, zero_add]
    refine Finset.sum_congr rfl fun k _ => ?_
    have hl : hred.lift (ix1 i) k = ix2 i k := by
      funext ax; apply Fin.ext
      match ax with
      | ⟨0, _⟩ => rfl
      | ⟨1, _⟩ => rfl
    rw [hl]; rfl
  · refine Eq.trans (broadcastInDim_scalar_apply _ _ _) ?_
    rfl

/-- The activation at (i, j): the leaky rectifier, choosing by `q ≥ 0`, of the normalised entry. -/
theorem act_apply (h : Mat) (i : Fin 50000) (j : Fin 128) :
    Cert.ReferenceIdeal.Net.act (F := Ideal) h (ix2 i j) = Cert.GNN.actR (fun i j => h (ix2 i j)) i j := by
  unfold Cert.ReferenceIdeal.Net.act Cert.ReferenceIdeal.Net.leaky Cert.GNN.actR Cert.GNN.leakyGe
  refine Eq.trans (select_apply _ _ _ _) ?_
  rw [cmpf_apply, Ideal.cmpf_def, mulf_apply, rownorm_apply, broadcastInDim_scalar_apply, broadcastInDim_scalar_apply,
    constant_apply, Ideal.ofBits_zero_f32]
  rfl

/-! ## The two layers -/

theorem plain_layer_eq (a0 a1 a2 a3 : (⟨Cert.ReferenceIdeal.S50000x128, .f32⟩ : BufTy).Contents (Elt Ideal))
    (W : (⟨Cert.ReferenceIdeal.S4x128x128, .f32⟩ : BufTy).Contents (Elt Ideal))
    (B : (⟨Cert.ReferenceIdeal.S4x128, .f32⟩ : BufTy).Contents (Elt Ideal)) :
    Cert.GNN.layerR (Cert.KernelIdeal.Net.stack3 (F := Ideal) a0 a1 a2 a3) (Cert.KernelIdeal.Net.narrowW (F := Ideal) W) B
      = Cert.ReferenceIdeal.Net.pre (F := Ideal) a0 a1 a2 a3 W B := by
  funext y
  obtain ⟨i, j, rfl⟩ : ∃ (i : Fin 50000) (j : Fin 128), y = ix2 i j := ⟨y 0, y 1, eq_ix2 y⟩
  exact (pre_apply a0 a1 a2 a3 W B i j).symm

theorem act_layer_eq (a0 a1 a2 a3 : (⟨Cert.ReferenceIdeal.S50000x128, .f32⟩ : BufTy).Contents (Elt Ideal))
    (W : (⟨Cert.ReferenceIdeal.S4x128x128, .f32⟩ : BufTy).Contents (Elt Ideal))
    (B : (⟨Cert.ReferenceIdeal.S4x128, .f32⟩ : BufTy).Contents (Elt Ideal)) :
    Cert.GNN.layerActR (Cert.KernelIdeal.Net.stack3 (F := Ideal) a0 a1 a2 a3) (Cert.KernelIdeal.Net.narrowW (F := Ideal) W) B
      = Cert.ReferenceIdeal.Net.act (F := Ideal) (Cert.ReferenceIdeal.Net.pre a0 a1 a2 a3 W B) := by
  funext y
  obtain ⟨i, j, rfl⟩ : ∃ (i : Fin 50000) (j : Fin 128), y = ix2 i j := ⟨y 0, y 1, eq_ix2 y⟩
  refine Eq.trans ?_ (act_apply _ i j).symm
  have hP : Cert.GNN.preR (Cert.KernelIdeal.Net.stack3 (F := Ideal) a0 a1 a2 a3) (Cert.KernelIdeal.Net.narrowW (F := Ideal) W) B
      = fun i j => Cert.ReferenceIdeal.Net.pre (F := Ideal) a0 a1 a2 a3 W B (ix2 i j) :=
    funext fun i' => funext fun j' => (pre_apply a0 a1 a2 a3 W B i' j').symm
  show Cert.GNN.actR (Cert.GNN.preR _ _ B) i j = _
  rw [hP]

end Cert.LayerBridge

end
-- ==== Proof.Bridge.lean ====
/-
  The two idealized programs compute the same result.  Layer by layer: the tiled program's layer (the
  specification's left-to-right sum over the stacked aggregates, read off the kernel regions) is the
  specification's bracketed sum (addition on the extended reals is commutative and associative), its
  stacked aggregates are the plain program's four aggregates stacked (a row read back out of a stack is
  the vector put there), and that is the plain program's layer in its own host operations.  The two
  rectifiers differ only at zero, where both give zero.  The pooled sums differ by a zero array added
  first.  So from memories that agree on the eleven argument arrays both programs end with the same
  result array.
-/
import proofs.«158609_j30133490549165_1_alg».proof.Proof.Gen.KernelIdeal
import proofs.«158609_j30133490549165_1_alg».proof.Proof.Gen.ReferenceIdeal
import proofs.«158609_j30133490549165_1_alg».proof.Proof.KChain
import proofs.«158609_j30133490549165_1_alg».proof.Proof.RChain
import proofs.«158609_j30133490549165_1_alg».proof.Proof.Cross
import proofs.«158609_j30133490549165_1_alg».proof.Proof.LayerBridge
import proofs.«158609_j30133490549165_1_alg».proof.Proof.Spec

set_option maxRecDepth 16384

noncomputable section

namespace Cert.Bridge

open Idealize.ShloMosaic Idealize.ShloMosaic.TcCoe Idealize.SL.Sem Idealize.ShloMosaic.StableHlo

/-- An activated layer: the tiled program's, from the layer's input and the arguments, is the plain program's. -/
theorem layer_act (x : (⟨Cert.KernelIdeal.S50000x128, .f32⟩ : BufTy).Contents (Elt Ideal))
    (a1 a2 : (⟨Cert.KernelIdeal.S4x800000, .i32⟩ : BufTy).Contents (Elt Ideal))
    (W : (⟨Cert.KernelIdeal.S4x128x128, .f32⟩ : BufTy).Contents (Elt Ideal)) (B : (⟨Cert.KernelIdeal.S4x128, .f32⟩ : BufTy).Contents (Elt Ideal)) :
    Cert.GNN.layerActK (Cert.KernelIdeal.Net.aggsK (F := Ideal) x (Cert.KernelIdeal.Net.degStack a1) (Cert.KernelIdeal.Net.degStack a2) a1 a2)
        (Cert.KernelIdeal.Net.narrowW W) B
      = Cert.ReferenceIdeal.Net.act (F := Ideal) (Cert.ReferenceIdeal.Net.layerPre x W B a1 a2) := by
  rw [Cert.GNN.layerActK_eq_layerActR, Cert.Cross.aggsK_eq]
  exact Cert.LayerBridge.act_layer_eq _ _ _ _ W B

/-- The last layer, without activation. -/
theorem layer_plain (x : (⟨Cert.KernelIdeal.S50000x128, .f32⟩ : BufTy).Contents (Elt Ideal))
    (a1 a2 : (⟨Cert.KernelIdeal.S4x800000, .i32⟩ : BufTy).Contents (Elt Ideal))
    (W : (⟨Cert.KernelIdeal.S4x128x128, .f32⟩ : BufTy).Contents (Elt Ideal)) (B : (⟨Cert.KernelIdeal.S4x128, .f32⟩ : BufTy).Contents (Elt Ideal)) :
    Cert.GNN.layerK (Cert.KernelIdeal.Net.aggsK (F := Ideal) x (Cert.KernelIdeal.Net.degStack a1) (Cert.KernelIdeal.Net.degStack a2) a1 a2)
        (Cert.KernelIdeal.Net.narrowW W) B
      = Cert.ReferenceIdeal.Net.layerPre (F := Ideal) x W B a1 a2 := by
  rw [Cert.GNN.layerK_eq_layerR, Cert.Cross.aggsK_eq]
  exact Cert.LayerBridge.plain_layer_eq _ _ _ _ W B

variable (m : (ℓ : Loc Cert.KernelIdeal.nD Cert.KernelIdeal.τ Cert.KernelIdeal.sig) → Buf (Elt Ideal) ℓ)
  (ρ : Dev Cert.KernelIdeal.nD → PrngReg)
  (m' : (ℓ : Loc Cert.ReferenceIdeal.nD Cert.ReferenceIdeal.τ Cert.ReferenceIdeal.sig) → Buf (Elt Ideal) ℓ)
  (c : Dev Cert.KernelIdeal.nD)

/-- From memories agreeing on the arguments, the plain program's result array is the tiled program's. -/
theorem value_eq
    (h0 : m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0))
    (h1 : m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1))
    (h2 : m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2))
    (h3 : m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3))
    (h4 : m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4))
    (h5 : m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5))
    (h6 : m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6))
    (h7 : m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7))
    (h8 : m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8))
    (h9 : m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9))
    (h10 : m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)) :
    after (Cert.ReferenceIdeal.RR.ops (F := Ideal)) (launchContents m' c) (Proc.devRef .tc Cert.ReferenceIdeal.main_v614)
      = Cert.KernelIdeal.KF.W7 m ρ c (Proc.devRef .tc Cert.KernelIdeal.main_v468) := by
  rw [Cert.ReferenceIdeal.RC.out_eq, Cert.KernelIdeal.KC.out_eq]
  -- the plain program's layers over the launch contents, rewritten over the other memory's arguments
  have e0 : launchContents m' c (Proc.devRef .tc Cert.ReferenceIdeal.main_arg0) = Cert.KernelIdeal.KC.arg m c Cert.KernelIdeal.main_arg0 := h0
  have e1 : launchContents m' c (Proc.devRef .tc Cert.ReferenceIdeal.main_arg1) = Cert.KernelIdeal.KC.arg m c Cert.KernelIdeal.main_arg1 := h1
  have e2 : launchContents m' c (Proc.devRef .tc Cert.ReferenceIdeal.main_arg2) = Cert.KernelIdeal.KC.arg m c Cert.KernelIdeal.main_arg2 := h2
  have e3 : launchContents m' c (Proc.devRef .tc Cert.ReferenceIdeal.main_arg3) = Cert.KernelIdeal.KC.arg m c Cert.KernelIdeal.main_arg3 := h3
  have e4 : launchContents m' c (Proc.devRef .tc Cert.ReferenceIdeal.main_arg4) = Cert.KernelIdeal.KC.arg m c Cert.KernelIdeal.main_arg4 := h4
  have e5 : launchContents m' c (Proc.devRef .tc Cert.ReferenceIdeal.main_arg5) = Cert.KernelIdeal.KC.arg m c Cert.KernelIdeal.main_arg5 := h5
  have e6 : launchContents m' c (Proc.devRef .tc Cert.ReferenceIdeal.main_arg6) = Cert.KernelIdeal.KC.arg m c Cert.KernelIdeal.main_arg6 := h6
  have e7 : launchContents m' c (Proc.devRef .tc Cert.ReferenceIdeal.main_arg7) = Cert.KernelIdeal.KC.arg m c Cert.KernelIdeal.main_arg7 := h7
  have e8 : launchContents m' c (Proc.devRef .tc Cert.ReferenceIdeal.main_arg8) = Cert.KernelIdeal.KC.arg m c Cert.KernelIdeal.main_arg8 := h8
  have e9 : launchContents m' c (Proc.devRef .tc Cert.ReferenceIdeal.main_arg9) = Cert.KernelIdeal.KC.arg m c Cert.KernelIdeal.main_arg9 := h9
  have e10 : launchContents m' c (Proc.devRef .tc Cert.ReferenceIdeal.main_arg10) = Cert.KernelIdeal.KC.arg m c Cert.KernelIdeal.main_arg10 := h10
  have g1 : Cert.ReferenceIdeal.RC.H1 (launchContents m' c) = Cert.KernelIdeal.KC.H1 m c := by
    unfold Cert.ReferenceIdeal.RC.H1 Cert.KernelIdeal.KC.H1
    rw [e0, e1, e2, e3, e4]
    exact (layer_act _ _ _ _ _).symm
  have g2 : Cert.ReferenceIdeal.RC.H2 (launchContents m' c) = Cert.KernelIdeal.KC.H2 m c := by
    unfold Cert.ReferenceIdeal.RC.H2 Cert.KernelIdeal.KC.H2
    rw [g1, e1, e2, e5, e6]
    exact (layer_act _ _ _ _ _).symm
  have g3 : Cert.ReferenceIdeal.RC.H3 (launchContents m' c) = Cert.KernelIdeal.KC.H3 m c := by
    unfold Cert.ReferenceIdeal.RC.H3 Cert.KernelIdeal.KC.H3
    rw [g2, e1, e2, e7, e8]
    exact (layer_plain _ _ _ _ _).symm
  rw [g3, e1, e2, e9, e10, ← Cert.Cross.pools_eq, ← Cert.Cross.readout_eq]

end Cert.Bridge

end
-- ==== Proof.lean ====
/-
  The certificate.  The three frames: the tiled program at the machine's words and at the ideal values
  runs through its four host stretches and three kernel regions to the end, faults nowhere and leaves its
  eleven argument arrays as launched; the plain program is a straight line of host operations and does
  the same.  The idealization rewrote nothing, so it preserves the program trivially.  The value claim: at
  the ideal values both programs, from memories agreeing on the arguments, end with the same [1, 16]
  result — three relational graph-convolution layers (the first two row-normalised and rectified), the
  pooled mean, a linear map and the logistic function — because the tiled matrix products with
  left-to-right accumulation are the plain program's bracketed sums, the stacked degree vectors read back
  are the vectors themselves, the two rectifiers agree, and a zero added first changes nothing.
-/
import proofs.«158609_j30133490549165_1_alg».proof.Defs
import proofs.«158609_j30133490549165_1_alg».proof.Proof.Gen.Kernel
import proofs.«158609_j30133490549165_1_alg».proof.Proof.Gen.KernelIdeal
import proofs.«158609_j30133490549165_1_alg».proof.Proof.Gen.ReferenceIdeal
import proofs.«158609_j30133490549165_1_alg».proof.Proof.Gen.Pre_finite_inputs
import proofs.«158609_j30133490549165_1_alg».proof.Proof.KRun
import proofs.«158609_j30133490549165_1_alg».proof.Proof.KRunB
import proofs.«158609_j30133490549165_1_alg».proof.Proof.RefRun
import proofs.«158609_j30133490549165_1_alg».proof.Proof.Bridge

set_option maxRecDepth 16384

noncomputable section

namespace Cert.Proof

open Idealize.ShloMosaic Idealize.ShloMosaic.TcCoe Idealize.SL.Sem

theorem frame_k : Cert.frame_Kernel := fun m ρ _ => Cert.Kernel.KF.frame m ρ
theorem frame_ki : Cert.frame_KernelIdeal := fun m ρ _ => Cert.KernelIdeal.KF.frame m ρ
theorem frame_ri : Cert.frame_ReferenceIdeal := fun m ρ _ => Cert.ReferenceIdeal.RR.frame m ρ

theorem preserves : Cert.preserves_Kernel_KernelIdeal := trivial

theorem algebraic : Cert.algebraic_KernelIdeal_ReferenceIdeal := by
  intro m ρ m' ρ' _ hagree
  refine ⟨fun c => Cert.KernelIdeal.KF.W7 m ρ c (Proc.devRef .tc Cert.KernelIdeal.main_v468), ?_, ?_⟩
  · exact Cert.KernelIdeal.KF.run_of m ρ fun s h c =>
      ⟨h c _ (Cert.KernelIdeal.KF.mem_uc Cert.KernelIdeal.main_v468 (by decide)),
       (h c _ (Cert.KernelIdeal.KF.mem_uc Cert.KernelIdeal.main_arg0 (by decide))).trans (Cert.KernelIdeal.KF.W7_main_arg0 m ρ c),
       (h c _ (Cert.KernelIdeal.KF.mem_uc Cert.KernelIdeal.main_arg1 (by decide))).trans (Cert.KernelIdeal.KF.W7_main_arg1 m ρ c),
       (h c _ (Cert.KernelIdeal.KF.mem_uc Cert.KernelIdeal.main_arg2 (by decide))).trans (Cert.KernelIdeal.KF.W7_main_arg2 m ρ c),
       (h c _ (Cert.KernelIdeal.KF.mem_uc Cert.KernelIdeal.main_arg3 (by decide))).trans (Cert.KernelIdeal.KF.W7_main_arg3 m ρ c),
       (h c _ (Cert.KernelIdeal.KF.mem_uc Cert.KernelIdeal.main_arg4 (by decide))).trans (Cert.KernelIdeal.KF.W7_main_arg4 m ρ c),
       (h c _ (Cert.KernelIdeal.KF.mem_uc Cert.KernelIdeal.main_arg5 (by decide))).trans (Cert.KernelIdeal.KF.W7_main_arg5 m ρ c),
       (h c _ (Cert.KernelIdeal.KF.mem_uc Cert.KernelIdeal.main_arg6 (by decide))).trans (Cert.KernelIdeal.KF.W7_main_arg6 m ρ c),
       (h c _ (Cert.KernelIdeal.KF.mem_uc Cert.KernelIdeal.main_arg7 (by decide))).trans (Cert.KernelIdeal.KF.W7_main_arg7 m ρ c),
       (h c _ (Cert.KernelIdeal.KF.mem_uc Cert.KernelIdeal.main_arg8 (by decide))).trans (Cert.KernelIdeal.KF.W7_main_arg8 m ρ c),
       (h c _ (Cert.KernelIdeal.KF.mem_uc Cert.KernelIdeal.main_arg9 (by decide))).trans (Cert.KernelIdeal.KF.W7_main_arg9 m ρ c),
       (h c _ (Cert.KernelIdeal.KF.mem_uc Cert.KernelIdeal.main_arg10 (by decide))).trans (Cert.KernelIdeal.KF.W7_main_arg10 m ρ c)⟩
  · refine (θ_run Cert.ReferenceIdeal.defs _ _).mono (fun r h c => ?_) (Cert.ReferenceIdeal.RR.run (F := Ideal) m' ρ')
    obtain ⟨h0, h1, h2, h3, h4, h5, h6, h7, h8, h9, h10⟩ := hagree c
    exact ⟨(h c Cert.ReferenceIdeal.main_v614).trans (Cert.Bridge.value_eq m ρ m' c h0 h1 h2 h3 h4 h5 h6 h7 h8 h9 h10),
      (h c Cert.ReferenceIdeal.main_arg0).trans (Cert.ReferenceIdeal.RR.after_main_arg0 _),
      (h c Cert.ReferenceIdeal.main_arg1).trans (Cert.ReferenceIdeal.RR.after_main_arg1 _),
      (h c Cert.ReferenceIdeal.main_arg2).trans (Cert.ReferenceIdeal.RR.after_main_arg2 _),
      (h c Cert.ReferenceIdeal.main_arg3).trans (Cert.ReferenceIdeal.RR.after_main_arg3 _),
      (h c Cert.ReferenceIdeal.main_arg4).trans (Cert.ReferenceIdeal.RR.after_main_arg4 _),
      (h c Cert.ReferenceIdeal.main_arg5).trans (Cert.ReferenceIdeal.RR.after_main_arg5 _),
      (h c Cert.ReferenceIdeal.main_arg6).trans (Cert.ReferenceIdeal.RR.after_main_arg6 _),
      (h c Cert.ReferenceIdeal.main_arg7).trans (Cert.ReferenceIdeal.RR.after_main_arg7 _),
      (h c Cert.ReferenceIdeal.main_arg8).trans (Cert.ReferenceIdeal.RR.after_main_arg8 _),
      (h c Cert.ReferenceIdeal.main_arg9).trans (Cert.ReferenceIdeal.RR.after_main_arg9 _),
      (h c Cert.ReferenceIdeal.main_arg10).trans (Cert.ReferenceIdeal.RR.after_main_arg10 _)⟩

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
